-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S64x128 : Shape := ⟨2, ![64, 128]⟩
abbrev S128 : Shape := ⟨1, ![128]⟩
abbrev S3x4x128x128 : Shape := ⟨4, ![3, 4, 128, 128]⟩
abbrev S3x4x128 : Shape := ⟨3, ![3, 4, 128]⟩
abbrev S3x128 : Shape := ⟨2, ![3, 128]⟩
abbrev S128x32 : Shape := ⟨2, ![128, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x4x128x128 : S_.BroadcastsInDim S3x4x128x128 (![] : Fin 0 → Fin S3x4x128x128.rank)
  reducesTo_S3x4x128x128_S_d0_1_2_3 : S3x4x128x128.ReducesTo [0, 1, 2, 3] S_
  bcast_S_S3x4x128 : S_.BroadcastsInDim S3x4x128 (![] : Fin 0 → Fin S3x4x128.rank)
  reducesTo_S3x4x128_S_d0_1_2 : S3x4x128.ReducesTo [0, 1, 2] S_
  bcast_S_S3x128 : S_.BroadcastsInDim S3x128 (![] : Fin 0 → Fin S3x128.rank)
  reducesTo_S3x128_S_d0_1 : S3x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S128x32 .f32) (main_arg9 : FVec F S32 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S3x4x128 .f32) (main_arg6 : FVec F S3x128 .f32) (main_arg7 : FVec F S3x128 .f32) (main_arg8 : FVec F S128x32 .f32) (main_arg9 : FVec F S32 .f32) (main_v13 : IVec S_ 1) (main_v16 : IVec S3x4x128x128 1) : IVec S_ 1 :=
  let main_c_5 : IVec S_ 1 := constantI S_ 1 1#1
  let main_v17 : IVec S_ 1 := (fun x v => Host.reduce IntOp.andi x v reducesTo_S3x4x128x128_S_d0_1_2_3 h_S_) main_v16 main_c_5
  let main_v18 : IVec S_ 1 := andi main_v13 main_v17
  let main_v19 : FVec F S3x4x128 .f32 := Host.absf main_arg5
  let main_cst_6 : FVec F S_ .f32 := constant S_ .f32 0x7F800000#32
  let main_v20 : FVec F S3x4x128 .f32 := broadcastInDim S3x4x128 ![] bcast_S_S3x4x128 main_cst_6
  let main_v21 : IVec S3x4x128 1 := cmpf .olt main_v19 main_v20
  let main_c_7 : IVec S_ 1 := constantI S_ 1 1#1
  let main_v22 : IVec S_ 1 := (fun x v => Host.reduce IntOp.andi x v reducesTo_S3x4x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x600000 32) (main_arg2 : FVec F S64x128 .f32) (main_arg3 : FVec F S128 .f32) (main_arg4 : FVec F S3x4x128x128 .f32) (main_arg5 : FVec F S3x4x128 .f32) (main_arg6 : FVec F S3x128 .f32) (main_arg7 : FVec F S3x128 .f32) (main_arg8 : FVec F S128x32 .f32) (main_arg9 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x4x128x128 .f32 := Host.absf main_arg4
  let main_cst_4 : FVec F S_ .f32 := constant S_ .f32 0x7F800000#32
  let main_v15 : FVec F S3x4x128x128 .f32 := broadcastInDim S3x4x128x128 ![] bcast_S_S3x4x128x128 main_cst_4
  let main_v16 : IVec S3x4x128x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x600000 : Shape := ⟨2, ![2, 600000]⟩
abbrev S64x128 : Shape := ⟨2, ![64, 128]⟩
abbrev S128 : Shape := ⟨1, ![128]⟩
abbrev S3x4x128x128 : Shape := ⟨4, ![3, 4, 128, 128]⟩
abbrev S3x4x128 : Shape := ⟨3, ![3, 4, 128]⟩
abbrev S3x128 : Shape := ⟨2, ![3, 128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S128x4x128 : Shape := ⟨3, ![128, 4, 128]⟩
abbrev S128x512 : Shape := ⟨2, ![128, 512]⟩
abbrev S512 : Shape := ⟨1, ![512]⟩
abbrev S1x512 : Shape := ⟨2, ![1, 512]⟩
abbrev S50000x256 : Shape := ⟨2, ![50000, 256]⟩
abbrev S2000x256 : Shape := ⟨2, ![2000, 256]⟩
abbrev S2000x512 : Shape := ⟨2, ![2000, 512]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 229
  | .vmem => 92
  | .smem => 0
  | _ => 0

abbrev hbmTy0_0 (i : Nat) : BufTy := match i % 128 with
  | 0 => ⟨S50000x64, .f32⟩
  | 1 => ⟨S2x600000, .i32⟩
  | 2 => ⟨S64x128, .f32⟩
  | 3 => ⟨S128, .f32⟩
  | 4 => ⟨S3x4x128x128, .f32⟩
  | 5 => ⟨S3x4x128, .f32⟩
  | 6 => ⟨S3x128, .f32⟩
  | 7 => ⟨S3x128, .f32⟩
  | 8 => ⟨S128x32, .f32⟩
  | 9 => ⟨S32, .f32⟩
  | 10 => ⟨S1x600000, .i32⟩
  | 11 => ⟨S600000, .i32⟩
  | 12 => ⟨S1x600000, .i32⟩
  | 13 => ⟨S600000, .i32⟩
  | 14 => ⟨S64x128, .bf16⟩
  | 15 => ⟨S1x128, .f32⟩
  | 16 => ⟨S50000x128, .f32⟩
  | 17 => ⟨S1x4x128x128, .f32⟩
  | 18 => ⟨S4x128x128, .f32⟩
  | 19 => ⟨S1x4x128, .f32⟩
  | 20 => ⟨S4x128, .f32⟩
  | 21 => ⟨S128x4x128, .f32⟩
  | 22 => ⟨S128x512, .f32⟩
  | 23 => ⟨S128x512, .bf16⟩
  | 24 => ⟨S512, .f32⟩
  | 25 => ⟨S1x512, .f32⟩
  | 26 => ⟨S50000x128, .bf16⟩
  | 27 => ⟨S50000x256, .bf16⟩
  | 28 => ⟨S50000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .bf16⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x256, .bf16⟩
  | 47 => ⟨S600000x128, .bf16⟩
  | 48 => ⟨S600000x128, .bf16⟩
  | 49 => ⟨S600000x128, .f32⟩
  | 50 => ⟨S600000x128, .f32⟩
  | 51 => ⟨S600000x128, .f32⟩
  | 52 => ⟨S600000x128, .f32⟩
  | 53 => ⟨S600000x128, .f32⟩
  | 54 => ⟨S_, .f32⟩
  | 55 => ⟨S600000x128, .f32⟩
  | 56 => ⟨S600000x128, .f32⟩
  | 57 => ⟨S_, .f32⟩
  | 58 => ⟨S600000x128, .f32⟩
  | 59 => ⟨S600000x128, .f32⟩
  | 60 => ⟨S600000x128, .f32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S50000x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S1x128, .f32⟩
  | 86 => ⟨S50000x128, .f32⟩
  | 87 => ⟨S1x4x128x128, .f32⟩
  | 88 => ⟨S4x128x128, .f32⟩
  | 89 => ⟨S1x4x128, .f32⟩
  | 90 => ⟨S4x128, .f32⟩
  | 91 => ⟨S128x4x128, .f32⟩
  | 92 => ⟨S128x512, .f32⟩
  | 93 => ⟨S128x512, .bf16⟩
  | 94 => ⟨S512, .f32⟩
  | 95 => ⟨S1x512, .f32⟩
  | 96 => ⟨S50000x128, .bf16⟩
  | 97 => ⟨S50000x256, .bf16⟩
  | 98 => ⟨S50000x128, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .bf16⟩
  | 108 => ⟨S_, .i32⟩
  | 109 => ⟨S600000, .i32⟩
  | 110 => ⟨S600000, .i1⟩
  | 111 => ⟨S_, .i32⟩
  | 112 => ⟨S600000, .i32⟩
  | 113 => ⟨S600000, .i32⟩
  | 114 => ⟨S600000, .i32⟩
  | 115 => ⟨S600000x1, .i32⟩
  | 116 => ⟨S600000x256, .bf16⟩
  | 117 => ⟨S600000x128, .bf16⟩
  | 118 => ⟨S600000x128, .bf16⟩
  | 119 => ⟨S600000x128, .f32⟩
  | 120 => ⟨S600000x128, .f32⟩
  | 121 => ⟨S600000x128, .f32⟩
  | 122 => ⟨S600000x128, .f32⟩
  | 123 => ⟨S600000x128, .f32⟩
  | 124 => ⟨S_, .f32⟩
  | 125 => ⟨S600000x128, .f32⟩
  | 126 => ⟨S600000x128, .f32⟩
  | 127 => ⟨S_, .f32⟩
  | _ => ⟨S50000x64, .f32⟩

abbrev hbmTy0_1 (i : Nat) : BufTy := match i % 128 with
  | 0 => ⟨S600000x128, .f32⟩
  | 1 => ⟨S600000x128, .f32⟩
  | 2 => ⟨S600000x128, .f32⟩
  | 3 => ⟨S600000x128, .f32⟩
  | 4 => ⟨S_, .f32⟩
  | 5 => ⟨S50000x128, .f32⟩
  | 6 => ⟨S600000x1, .i32⟩
  | 7 => ⟨S50000x128, .f32⟩
  | 8 => ⟨S50000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S1x128, .f32⟩
  | 28 => ⟨S50000x128, .f32⟩
  | 29 => ⟨S1x4x128x128, .f32⟩
  | 30 => ⟨S4x128x128, .f32⟩
  | 31 => ⟨S1x4x128, .f32⟩
  | 32 => ⟨S4x128, .f32⟩
  | 33 => ⟨S128x4x128, .f32⟩
  | 34 => ⟨S128x512, .f32⟩
  | 35 => ⟨S128x512, .bf16⟩
  | 36 => ⟨S512, .f32⟩
  | 37 => ⟨S1x512, .f32⟩
  | 38 => ⟨S50000x128, .bf16⟩
  | 39 => ⟨S50000x256, .bf16⟩
  | 40 => ⟨S50000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .bf16⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x256, .bf16⟩
  | 59 => ⟨S600000x128, .bf16⟩
  | 60 => ⟨S600000x128, .bf16⟩
  | 61 => ⟨S600000x128, .f32⟩
  | 62 => ⟨S600000x128, .f32⟩
  | 63 => ⟨S600000x128, .f32⟩
  | 64 => ⟨S600000x128, .f32⟩
  | 65 => ⟨S600000x128, .f32⟩
  | 66 => ⟨S_, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S600000x128, .f32⟩
  | 73 => ⟨S600000x128, .f32⟩
  | 74 => ⟨S_, .f32⟩
  | 75 => ⟨S50000x128, .f32⟩
  | 76 => ⟨S600000x1, .i32⟩
  | 77 => ⟨S50000x128, .f32⟩
  | 78 => ⟨S50000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S128x32, .bf16⟩
  | 93 => ⟨S1x128, .f32⟩
  | 94 => ⟨S128, .f32⟩
  | 95 => ⟨S1x128, .f32⟩
  | 96 => ⟨S128, .f32⟩
  | 97 => ⟨S1x128, .f32⟩
  | 98 => ⟨S1x128, .f32⟩
  | 99 => ⟨S1x32, .f32⟩
  | 100 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x512, .bf16⟩
  | .local _ .vmem, ⟨9, _⟩ => ⟨S1x512, .f32⟩
  | .local _ .vmem, ⟨10, _⟩ => ⟨S2000x128, .bf16⟩
  | .local _ .vmem, ⟨11, _⟩ => ⟨S2000x128, .bf16⟩
  | .local _ .vmem, ⟨12, _⟩ => ⟨S2000x256, .bf16⟩
  | .local _ .vmem, ⟨13, _⟩ => ⟨S2000x256, .bf16⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x512, .bf16⟩
  | .local _ .vmem, ⟨37, _⟩ => ⟨S1x512, .f32⟩
  | .local _ .vmem, ⟨38, _⟩ => ⟨S2000x128, .bf16⟩
  | .local _ .vmem, ⟨39, _⟩ => ⟨S2000x128, .bf16⟩
  | .local _ .vmem, ⟨40, _⟩ => ⟨S2000x256, .bf16⟩
  | .local _ .vmem, ⟨41, _⟩ => ⟨S2000x256, .bf16⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S128x512, .bf16⟩
  | .local _ .vmem, ⟨65, _⟩ => ⟨S1x512, .f32⟩
  | .local _ .vmem, ⟨66, _⟩ => ⟨S2000x128, .bf16⟩
  | .local _ .vmem, ⟨67, _⟩ => ⟨S2000x128, .bf16⟩
  | .local _ .vmem, ⟨68, _⟩ => ⟨S2000x256, .bf16⟩
  | .local _ .vmem, ⟨69, _⟩ => ⟨S2000x256, .bf16⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S128x32, .bf16⟩
  | .local _ .vmem, ⟨89, _⟩ => ⟨S1x32, .f32⟩
  | .local _ .vmem, ⟨90, _⟩ => ⟨S2000x32, .f32⟩
  | .local _ .vmem, ⟨91, _⟩ => ⟨S2000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72_0 : Ref sig .tc := ⟨.hbm, 96, rfl⟩
abbrev main_v72_1 : Ref sig .tc := ⟨.hbm, 97, rfl⟩
abbrev main_v72_2 : Ref sig .tc := ⟨.hbm, 98, rfl⟩
abbrev main_c_8 : Ref sig .tc := ⟨.hbm, 99, rfl⟩
abbrev main_v73 : Ref sig .tc := ⟨.hbm, 100, rfl⟩
abbrev main_v74 : Ref sig .tc := ⟨.hbm, 101, rfl⟩
abbrev main_c_9 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_10 : Ref sig .tc := ⟨.hbm, 108, rfl⟩
abbrev main_v80 : Ref sig .tc := ⟨.hbm, 109, rfl⟩
abbrev main_v81 : Ref sig .tc := ⟨.hbm, 110, rfl⟩
abbrev main_c_11 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_12 : Ref sig .tc := ⟨.hbm, 124, rfl⟩
abbrev main_v94 : Ref sig .tc := ⟨.hbm, 125, rfl⟩
abbrev main_v95 : Ref sig .tc := ⟨.hbm, 126, rfl⟩
abbrev main_cst_13 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_14 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103_0 : Ref sig .tc := ⟨.hbm, 136, rfl⟩
abbrev main_v103_1 : Ref sig .tc := ⟨.hbm, 137, rfl⟩
abbrev main_v103_2 : Ref sig .tc := ⟨.hbm, 138, rfl⟩
abbrev main_cst_15 : Ref sig .tc := ⟨.hbm, 139, rfl⟩
abbrev main_v104 : Ref sig .tc := ⟨.hbm, 140, rfl⟩
abbrev main_v105 : Ref sig .tc := ⟨.hbm, 141, rfl⟩
abbrev main_cst_16 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_17 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128_0 : Ref sig .tc := ⟨.hbm, 166, rfl⟩
abbrev main_v128_1 : Ref sig .tc := ⟨.hbm, 167, rfl⟩
abbrev main_v128_2 : Ref sig .tc := ⟨.hbm, 168, rfl⟩
abbrev main_c_18 : Ref sig .tc := ⟨.hbm, 169, rfl⟩
abbrev main_v129 : Ref sig .tc := ⟨.hbm, 170, rfl⟩
abbrev main_v130 : Ref sig .tc := ⟨.hbm, 171, rfl⟩
abbrev main_c_19 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_20 : Ref sig .tc := ⟨.hbm, 178, rfl⟩
abbrev main_v136 : Ref sig .tc := ⟨.hbm, 179, rfl⟩
abbrev main_v137 : Ref sig .tc := ⟨.hbm, 180, rfl⟩
abbrev main_c_21 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_22 : Ref sig .tc := ⟨.hbm, 194, rfl⟩
abbrev main_v150 : Ref sig .tc := ⟨.hbm, 195, rfl⟩
abbrev main_v151 : Ref sig .tc := ⟨.hbm, 196, rfl⟩
abbrev main_cst_23 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_24 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159_0 : Ref sig .tc := ⟨.hbm, 206, rfl⟩
abbrev main_v159_1 : Ref sig .tc := ⟨.hbm, 207, rfl⟩
abbrev main_v159_2 : Ref sig .tc := ⟨.hbm, 208, rfl⟩
abbrev main_cst_25 : Ref sig .tc := ⟨.hbm, 209, rfl⟩
abbrev main_v160 : Ref sig .tc := ⟨.hbm, 210, rfl⟩
abbrev main_v161 : Ref sig .tc := ⟨.hbm, 211, rfl⟩
abbrev main_cst_26 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_27 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_scratch0 : Ref sig .tc := ⟨.vmem, 24, rfl⟩
abbrev cc2_scratch1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_scratch0 : Ref sig .tc := ⟨.vmem, 52, rfl⟩
abbrev cc5_scratch1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc7_stg4_0 : Ref sig .tc := ⟨.vmem, 68, rfl⟩
abbrev cc7_stg4_1 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg4_0 : Ref sig .tc := ⟨.vmem, 79, rfl⟩
abbrev cc8_scratch0 : Ref sig .tc := ⟨.vmem, 80, rfl⟩
abbrev cc8_scratch1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg6_0 : Ref sig .tc := ⟨.vmem, 89, rfl⟩
abbrev cc9_stg7_0 : Ref sig .tc := ⟨.vmem, 90, rfl⟩
abbrev cc9_stg7_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem5_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem3_1 : DmaSem sig := 63
abbrev cc7_sem4_0 : DmaSem sig := 64
abbrev cc7_sem4_1 : DmaSem sig := 65
abbrev cc7_sem5_0 : DmaSem sig := 66
abbrev cc7_sem5_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem2_1 : DmaSem sig := 73
abbrev cc8_sem3_0 : DmaSem sig := 74
abbrev cc8_sem4_0 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem6_0 : DmaSem sig := 83
abbrev cc9_sem7_0 : DmaSem sig := 84
abbrev cc9_sem7_1 : DmaSem sig := 85

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_15 : BitVec 32 := 0#32
  let v26 : BitVec 1 := Scalar.cmpi .ne v25 c0_i32_15
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_15 : BitVec 32 := 0#32
  let v26 : BitVec 1 := Scalar.cmpi .ne v25 c0_i32_15
  v26

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x256 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def k8_cond2 (i : grid8.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_15 : BitVec 32 := 0#32
  let v26 : BitVec 1 := Scalar.cmpi .ne v25 c0_i32_15
  v26

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x32 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x32 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S2000x32 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x4x128x128_S1x4x128x128_0_0_0_0 : S3x4x128x128.Slices ![0, 0, 0, 0] S1x4x128x128
  shapeCasts_S1x4x128x128_S4x128x128 : S1x4x128x128.ShapeCasts S4x128x128
  slices_S3x4x128_S1x4x128_0_0_0 : S3x4x128.Slices ![0, 0, 0] S1x4x128
  shapeCasts_S1x4x128_S4x128 : S1x4x128.ShapeCasts S4x128
  transposes_S4x128x128_S128x4x128_1_0_2 : S4x128x128.Transposes [1, 0, 2] S128x4x128
  shapeCasts_S128x4x128_S128x512 : S128x4x128.ShapeCasts S128x512
  shapeCasts_S4x128_S512 : S4x128.ShapeCasts S512
  shapeCasts_S512_S1x512 : S512.ShapeCasts S1x512
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  packedbf16_S2000x128_S2000x128_0_0 : (Rect.unit (s := S2000x128) ![0, 0] S2000x128.size inb_S2000x128_S2000x128_0_0).PackedRows (EltTy.packing .bf16)
  slices_S2000x512_o0_128_S2000x256 : S2000x512.Slices ![0, 128] S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  slices_S2000x512_o0_384_S2000x128 : S2000x512.Slices ![0, 384] S2000x128
  bcast_S_S600000 : S_.BroadcastsInDim S600000 (![] : Fin 0 → Fin S600000.rank)
  bcast_S600000_S600000x1_0 : S600000.BroadcastsInDim S600000x1 (![0] : Fin 1 → Fin S600000x1.rank)
  slices_S600000x256_S600000x128_0_0 : S600000x256.Slices ![0, 0] S600000x128
  slices_S600000x256_S600000x128_0_128 : S600000x256.Slices ![0, 128] S600000x128
  bcast_S_S600000x128 : S_.BroadcastsInDim S600000x128 (![] : Fin 0 → Fin S600000x128.rank)
  bcast_S_S50000x128 : S_.BroadcastsInDim S50000x128 (![] : Fin 0 → Fin S50000x128.rank)
  reduces_S2000x128_S128 : S2000x128.Reduces [0] S128
  bcast_S_S1x128 : S_.BroadcastsInDim S1x128 (![] : Fin 0 → Fin S1x128.rank)
  slices_S3x128_S1x128_0_0 : S3x128.Slices ![0, 0] S1x128
  shapeCasts_S1x128_S128 : S1x128.ShapeCasts S128
  slices_S3x4x128x128_S1x4x128x128_1_0_0_0 : S3x4x128x128.Slices ![1, 0, 0, 0] S1x4x128x128
  slices_S3x4x128_S1x4x128_1_0_0 : S3x4x128.Slices ![1, 0, 0] S1x4x128
  slices_S3x128_S1x128_1_0 : S3x128.Slices ![1, 0] S1x128
  slices_S3x4x128x128_S1x4x128x128_2_0_0_0 : S3x4x128x128.Slices ![2, 0, 0, 0] S1x4x128x128
  slices_S3x4x128_S1x4x128_2_0_0 : S3x4x128.Slices ![2, 0, 0] S1x4x128
  slices_S3x128_S1x128_2_0 : S3x128.Slices ![2, 0] S1x128
  shapeCasts_S32_S1x32 : S32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  dot_S2000x64_S64x128_S2000x128_1_0_0_1_n_n_wf : DotDims.WF S2000x64 S64x128 S2000x128 [1] [0] [0] [1] [] []
  dot_S2000x128_S128x512_S2000x512_1_0_0_1_n_n_wf : DotDims.WF S2000x128 S128x512 S2000x512 [1] [0] [0] [1] [] []
  gather_S50000x128_S600000x1_S600000x128_1_0_n_n_0_1_1128_wf : GatherDims.WF S50000x128 S600000x1 S600000x128 [1] [0] [] [0] [] 1 ![1, 128]
  gather_S50000x256_S600000x1_S600000x256_1_0_n_n_0_1_1256_wf : GatherDims.WF S50000x256 S600000x1 S600000x256 [1] [0] [] [0] [] 1 ![1, 256]
  scatter_S50000x128_S600000x1_S600000x128_1_0_0_1_wf : ScatterDims.WF S50000x128 S600000x1 S600000x128 [1] [0] [0] 1
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .bf16 = 32 ∨ (Rect.block (s := S128x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x512.size a ≤ S128x512.size a
  hwx4_1 : ∀ i : grid4.Coords, EltTy.bits .bf16 = 32 ∨ (Rect.block (s := S128x512) S128x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .bf16 = 32 ∨ (Rect.block (s := S50000x128) S2000x128.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .bf16 = 32 ∨ (Rect.block (s := S50000x256) S2000x256.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S50000x128.size a
  hwx6_5 : ∀ i : grid6.Coords, EltTy.bits .f32 = 32 ∨ (Rect.block (s := S50000x128) S2000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x512.size a ≤ S128x512.size a
  hwx7_1 : ∀ i : grid7.Coords, EltTy.bits .bf16 = 32 ∨ (Rect.block (s := S128x512) S128x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .bf16 = 32 ∨ (Rect.block (s := S50000x128) S2000x128.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S50000x256.size a
  hwx7_4 : ∀ i : grid7.Coords, EltTy.bits .bf16 = 32 ∨ (Rect.block (s := S50000x256) S2000x256.size (cc7_transform_4 i) (hinb7_4 i)).WholeWords (EltTy.packing .bf16)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x32.size a ≤ S128x32.size a
  hwx9_5 : ∀ i : grid9.Coords, EltTy.bits .bf16 = 32 ∨ (Rect.block (s := S128x32) S128x32.size (cc9_transform_5 i) (hinb9_5 i)).WholeWords (EltTy.packing .bf16)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x32.size a ≤ S1x32.size a
  hwx9_6 : ∀ i : grid9.Coords, EltTy.bits .f32 = 32 ∨ (Rect.block (s := S1x32) S1x32.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S2000x32.size a ≤ S50000x32.size a
  hwx9_7 : ∀ i : grid9.Coords, EltTy.bits .f32 = 32 ∨ (Rect.block (s := S50000x32) S2000x32.size (cc9_transform_7 i) (hinb9_7 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16_2) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v16_2) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47_0) S2000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47_1) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47_2) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v47_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S128x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v72_1) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v72_2) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v72_2) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103_0) S2000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v103_1) S1x128.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103_2) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun i => !(k5_cond2 i == 1#1) | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v103_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v116) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v117) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v118) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v118) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v125) S128x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v127) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v128_0) S2000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v128_1) S2000x256.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v128_2) S2000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v128_2) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v158) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v159_0) S2000x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v159_1) S1x128.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v159_2) S1x128.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun i => !(k8_cond2 i == 1#1) | 4 => fun i => !(k8_cond2 i == 1#1) | ⟨_ + 5, h⟩ => absurd h (Nat.not_lt.2 (Nat.le_add_left _ _))

abbrev win9_0 : Pipeline.Window sig grid9 :=
  Pipeline.Window.ofSpec (Memref.whole main_v159_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v161) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v167) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v173) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v174) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v168) S128x32.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v175) S1x32.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v176) S2000x32.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S50000x64 : Shape := ⟨2, ![50000, 64]⟩
abbrev S2x600000 : Shape := ⟨2, ![2, 600000]⟩
abbrev S64x128 : Shape := ⟨2, ![64, 128]⟩
abbrev S128 : Shape := ⟨1, ![128]⟩
abbrev S3x4x128x128 : Shape := ⟨4, ![3, 4, 128, 128]⟩
abbrev S3x4x128 : Shape := ⟨3, ![3, 4, 128]⟩
abbrev S3x128 : Shape := ⟨2, ![3, 128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S_ : Shape := ⟨0, ![]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x128x128 : Shape := ⟨3, ![1, 128, 128]⟩
abbrev S128x128 : Shape := ⟨2, ![128, 128]⟩
abbrev S600000x1 : Shape := ⟨2, ![600000, 1]⟩
abbrev S600000x128 : Shape := ⟨2, ![600000, 128]⟩
abbrev S50000x32 : Shape := ⟨2, ![50000, 32]⟩
abbrev S1x32 : Shape := ⟨2, ![1, 32]⟩

abbrev nBuf : Space → Nat
  | .hbm => 412
  | .vmem => 0
  | .smem => 0
  | _ => 0

abbrev hbmTy0_0 (i : Nat) : BufTy := match i % 128 with
  | 0 => ⟨S50000x64, .f32⟩
  | 1 => ⟨S2x600000, .i32⟩
  | 2 => ⟨S64x128, .f32⟩
  | 3 => ⟨S128, .f32⟩
  | 4 => ⟨S3x4x128x128, .f32⟩
  | 5 => ⟨S3x4x128, .f32⟩
  | 6 => ⟨S3x128, .f32⟩
  | 7 => ⟨S3x128, .f32⟩
  | 8 => ⟨S128x32, .f32⟩
  | 9 => ⟨S32, .f32⟩
  | 10 => ⟨S1x600000, .i32⟩
  | 11 => ⟨S600000, .i32⟩
  | 12 => ⟨S1x600000, .i32⟩
  | 13 => ⟨S600000, .i32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S1x4x128x128, .f32⟩
  | 22 => ⟨S4x128x128, .f32⟩
  | 23 => ⟨S1x4x128, .f32⟩
  | 24 => ⟨S4x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S600000x128, .f32⟩
  | 68 => ⟨S600000x128, .f32⟩
  | 69 => ⟨S600000x128, .f32⟩
  | 70 => ⟨S_, .f32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S_, .f32⟩
  | 87 => ⟨S50000x128, .f32⟩
  | 88 => ⟨S600000x1, .i32⟩
  | 89 => ⟨S50000x128, .f32⟩
  | 90 => ⟨S1x128x128, .f32⟩
  | 91 => ⟨S128x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S50000x128, .f32⟩
  | 99 => ⟨S1x128, .f32⟩
  | 100 => ⟨S128, .f32⟩
  | 101 => ⟨S1x128, .f32⟩
  | 102 => ⟨S128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x64, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x4x128x128, .f32⟩
  | 23 => ⟨S4x128x128, .f32⟩
  | 24 => ⟨S1x4x128, .f32⟩
  | 25 => ⟨S4x128, .f32⟩
  | 26 => ⟨S1x128x128, .f32⟩
  | 27 => ⟨S128x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S600000x128, .f32⟩
  | 69 => ⟨S600000x128, .f32⟩
  | 70 => ⟨S600000x128, .f32⟩
  | 71 => ⟨S_, .f32⟩
  | 72 => ⟨S600000x128, .f32⟩
  | 73 => ⟨S600000x128, .f32⟩
  | 74 => ⟨S_, .f32⟩
  | 75 => ⟨S600000x128, .f32⟩
  | 76 => ⟨S600000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S50000x128, .f32⟩
  | 117 => ⟨S50000x128, .f32⟩
  | 118 => ⟨S50000x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S50000x64, .f32⟩

abbrev hbmTy0_2 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S1x4x128x128, .f32⟩
  | 24 => ⟨S4x128x128, .f32⟩
  | 25 => ⟨S1x4x128, .f32⟩
  | 26 => ⟨S4x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x128, .f32⟩
  | 70 => ⟨S600000x128, .f32⟩
  | 71 => ⟨S600000x128, .f32⟩
  | 72 => ⟨S_, .f32⟩
  | 73 => ⟨S600000x128, .f32⟩
  | 74 => ⟨S600000x128, .f32⟩
  | 75 => ⟨S_, .f32⟩
  | 76 => ⟨S600000x128, .f32⟩
  | 77 => ⟨S600000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000x64, .f32⟩

abbrev hbmTy0_3 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x32, .f32⟩
  | 25 => ⟨S1x32, .f32⟩
  | 26 => ⟨S50000x32, .f32⟩
  | 27 => ⟨S50000x32, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_c_0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_1 : Ref sig .tc := ⟨.hbm, 58, rfl⟩
abbrev main_v44 : Ref sig .tc := ⟨.hbm, 59, rfl⟩
abbrev main_v45 : Ref sig .tc := ⟨.hbm, 60, rfl⟩
abbrev main_c_2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_c_4 : Ref sig .tc := ⟨.hbm, 76, rfl⟩
abbrev main_v58 : Ref sig .tc := ⟨.hbm, 77, rfl⟩
abbrev main_v59 : Ref sig .tc := ⟨.hbm, 78, rfl⟩
abbrev main_c_5 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_7 : Ref sig .tc := ⟨.hbm, 103, rfl⟩
abbrev main_v82 : Ref sig .tc := ⟨.hbm, 104, rfl⟩
abbrev main_cst_8 : Ref sig .tc := ⟨.hbm, 105, rfl⟩
abbrev main_v83 : Ref sig .tc := ⟨.hbm, 106, rfl⟩
abbrev main_v84 : Ref sig .tc := ⟨.hbm, 107, rfl⟩
abbrev main_c_9 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_10 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call2_cst : Ref sig .tc := ⟨.hbm, 147, rfl⟩
abbrev main_call2_v0 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_11 : Ref sig .tc := ⟨.hbm, 178, rfl⟩
abbrev main_v130 : Ref sig .tc := ⟨.hbm, 179, rfl⟩
abbrev main_v131 : Ref sig .tc := ⟨.hbm, 180, rfl⟩
abbrev main_c_12 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_c_13 : Ref sig .tc := ⟨.hbm, 187, rfl⟩
abbrev main_v137 : Ref sig .tc := ⟨.hbm, 188, rfl⟩
abbrev main_v138 : Ref sig .tc := ⟨.hbm, 189, rfl⟩
abbrev main_c_14 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_15 : Ref sig .tc := ⟨.hbm, 199, rfl⟩
abbrev main_v147 : Ref sig .tc := ⟨.hbm, 200, rfl⟩
abbrev main_v148 : Ref sig .tc := ⟨.hbm, 201, rfl⟩
abbrev main_cst_16 : Ref sig .tc := ⟨.hbm, 202, rfl⟩
abbrev main_v149 : Ref sig .tc := ⟨.hbm, 203, rfl⟩
abbrev main_v150 : Ref sig .tc := ⟨.hbm, 204, rfl⟩
abbrev main_c_17 : Ref sig .tc := ⟨.hbm, 205, rfl⟩
abbrev main_v151 : Ref sig .tc := ⟨.hbm, 206, rfl⟩
abbrev main_v152 : Ref sig .tc := ⟨.hbm, 207, rfl⟩
abbrev main_c_18 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_19 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_20 : Ref sig .tc := ⟨.hbm, 232, rfl⟩
abbrev main_v175 : Ref sig .tc := ⟨.hbm, 233, rfl⟩
abbrev main_cst_21 : Ref sig .tc := ⟨.hbm, 234, rfl⟩
abbrev main_v176 : Ref sig .tc := ⟨.hbm, 235, rfl⟩
abbrev main_v177 : Ref sig .tc := ⟨.hbm, 236, rfl⟩
abbrev main_c_22 : Ref sig .tc := ⟨.hbm, 237, rfl⟩
abbrev main_call3_cst : Ref sig .tc := ⟨.hbm, 238, rfl⟩
abbrev main_call3_v0 : Ref sig .tc := ⟨.hbm, 239, rfl⟩
abbrev main_call3_v1 : Ref sig .tc := ⟨.hbm, 240, rfl⟩
abbrev main_call3_cst_0 : Ref sig .tc := ⟨.hbm, 241, rfl⟩
abbrev main_call3_v2 : Ref sig .tc := ⟨.hbm, 242, rfl⟩
abbrev main_call3_v3 : Ref sig .tc := ⟨.hbm, 243, rfl⟩
abbrev main_call3_v4 : Ref sig .tc := ⟨.hbm, 244, rfl⟩
abbrev main_call3_v5 : Ref sig .tc := ⟨.hbm, 245, rfl⟩
abbrev main_call3_v6 : Ref sig .tc := ⟨.hbm, 246, rfl⟩
abbrev main_call3_v7 : Ref sig .tc := ⟨.hbm, 247, rfl⟩
abbrev main_call3_cst_1 : Ref sig .tc := ⟨.hbm, 248, rfl⟩
abbrev main_call3_v8 : Ref sig .tc := ⟨.hbm, 249, rfl⟩
abbrev main_call3_cst_2 : Ref sig .tc := ⟨.hbm, 250, rfl⟩
abbrev main_call3_v9 : Ref sig .tc := ⟨.hbm, 251, rfl⟩
abbrev main_call3_v10 : Ref sig .tc := ⟨.hbm, 252, rfl⟩
abbrev main_call3_v11 : Ref sig .tc := ⟨.hbm, 253, rfl⟩
abbrev main_call3_cst_3 : Ref sig .tc := ⟨.hbm, 254, rfl⟩
abbrev main_call3_v12 : Ref sig .tc := ⟨.hbm, 255, rfl⟩
abbrev main_call3_cst_4 : Ref sig .tc := ⟨.hbm, 256, rfl⟩
abbrev main_call3_call0_v0 : Ref sig .tc := ⟨.hbm, 257, rfl⟩
abbrev main_call3_call0_v1 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_cst_23 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_call4_cst : Ref sig .tc := ⟨.hbm, 276, rfl⟩
abbrev main_call4_v0 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_c_24 : Ref sig .tc := ⟨.hbm, 307, rfl⟩
abbrev main_v223 : Ref sig .tc := ⟨.hbm, 308, rfl⟩
abbrev main_v224 : Ref sig .tc := ⟨.hbm, 309, rfl⟩
abbrev main_c_25 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_c_26 : Ref sig .tc := ⟨.hbm, 316, rfl⟩
abbrev main_v230 : Ref sig .tc := ⟨.hbm, 317, rfl⟩
abbrev main_v231 : Ref sig .tc := ⟨.hbm, 318, rfl⟩
abbrev main_c_27 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_cst_28 : Ref sig .tc := ⟨.hbm, 328, rfl⟩
abbrev main_v240 : Ref sig .tc := ⟨.hbm, 329, rfl⟩
abbrev main_v241 : Ref sig .tc := ⟨.hbm, 330, rfl⟩
abbrev main_cst_29 : Ref sig .tc := ⟨.hbm, 331, rfl⟩
abbrev main_v242 : Ref sig .tc := ⟨.hbm, 332, rfl⟩
abbrev main_v243 : Ref sig .tc := ⟨.hbm, 333, rfl⟩
abbrev main_c_30 : Ref sig .tc := ⟨.hbm, 334, rfl⟩
abbrev main_v244 : Ref sig .tc := ⟨.hbm, 335, rfl⟩
abbrev main_v245 : Ref sig .tc := ⟨.hbm, 336, rfl⟩
abbrev main_c_31 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_cst_32 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_cst_33 : Ref sig .tc := ⟨.hbm, 361, rfl⟩
abbrev main_v268 : Ref sig .tc := ⟨.hbm, 362, rfl⟩
abbrev main_cst_34 : Ref sig .tc := ⟨.hbm, 363, rfl⟩
abbrev main_v269 : Ref sig .tc := ⟨.hbm, 364, rfl⟩
abbrev main_v270 : Ref sig .tc := ⟨.hbm, 365, rfl⟩
abbrev main_c_35 : Ref sig .tc := ⟨.hbm, 366, rfl⟩
abbrev main_call5_cst : Ref sig .tc := ⟨.hbm, 367, rfl⟩
abbrev main_call5_v0 : Ref sig .tc := ⟨.hbm, 368, rfl⟩
abbrev main_call5_v1 : Ref sig .tc := ⟨.hbm, 369, rfl⟩
abbrev main_call5_cst_0 : Ref sig .tc := ⟨.hbm, 370, rfl⟩
abbrev main_call5_v2 : Ref sig .tc := ⟨.hbm, 371, rfl⟩
abbrev main_call5_v3 : Ref sig .tc := ⟨.hbm, 372, rfl⟩
abbrev main_call5_v4 : Ref sig .tc := ⟨.hbm, 373, rfl⟩
abbrev main_call5_v5 : Ref sig .tc := ⟨.hbm, 374, rfl⟩
abbrev main_call5_v6 : Ref sig .tc := ⟨.hbm, 375, rfl⟩
abbrev main_call5_v7 : Ref sig .tc := ⟨.hbm, 376, rfl⟩
abbrev main_call5_cst_1 : Ref sig .tc := ⟨.hbm, 377, rfl⟩
abbrev main_call5_v8 : Ref sig .tc := ⟨.hbm, 378, rfl⟩
abbrev main_call5_cst_2 : Ref sig .tc := ⟨.hbm, 379, rfl⟩
abbrev main_call5_v9 : Ref sig .tc := ⟨.hbm, 380, rfl⟩
abbrev main_call5_v10 : Ref sig .tc := ⟨.hbm, 381, rfl⟩
abbrev main_call5_v11 : Ref sig .tc := ⟨.hbm, 382, rfl⟩
abbrev main_call5_cst_3 : Ref sig .tc := ⟨.hbm, 383, rfl⟩
abbrev main_call5_v12 : Ref sig .tc := ⟨.hbm, 384, rfl⟩
abbrev main_call5_cst_4 : Ref sig .tc := ⟨.hbm, 385, rfl⟩
abbrev main_call5_call0_v0 : Ref sig .tc := ⟨.hbm, 386, rfl⟩
abbrev main_call5_call0_v1 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩
abbrev main_v275 : Ref sig .tc := ⟨.hbm, 392, rfl⟩
abbrev main_v276 : Ref sig .tc := ⟨.hbm, 393, rfl⟩
abbrev main_v277 : Ref sig .tc := ⟨.hbm, 394, rfl⟩
abbrev main_cst_36 : Ref sig .tc := ⟨.hbm, 395, rfl⟩
abbrev main_v278 : Ref sig .tc := ⟨.hbm, 396, rfl⟩
abbrev main_v279 : Ref sig .tc := ⟨.hbm, 397, rfl⟩
abbrev main_v280 : Ref sig .tc := ⟨.hbm, 398, rfl⟩
abbrev main_v281 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_call6_cst : Ref sig .tc := ⟨.hbm, 405, rfl⟩
abbrev main_call6_v0 : Ref sig .tc := ⟨.hbm, 406, rfl⟩
abbrev main_v287 : Ref sig .tc := ⟨.hbm, 407, rfl⟩
abbrev main_v288 : Ref sig .tc := ⟨.hbm, 408, rfl⟩
abbrev main_v289 : Ref sig .tc := ⟨.hbm, 409, rfl⟩
abbrev main_v290 : Ref sig .tc := ⟨.hbm, 410, rfl⟩
abbrev main_v291 : Ref sig .tc := ⟨.hbm, 411, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x4x128x128_S1x4x128x128_0_0_0_0 : S3x4x128x128.Slices ![0, 0, 0, 0] S1x4x128x128
  shapeCasts_S1x4x128x128_S4x128x128 : S1x4x128x128.ShapeCasts S4x128x128
  slices_S3x4x128_S1x4x128_0_0_0 : S3x4x128.Slices ![0, 0, 0] S1x4x128
  shapeCasts_S1x4x128_S4x128 : S1x4x128.ShapeCasts S4x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  slices_S4x128x128_S1x128x128_3_0_0 : S4x128x128.Slices ![3, 0, 0] S1x128x128
  slices_S4x128_S1x128_3_0 : S4x128.Slices ![3, 0] S1x128
  slices_S3x128_S1x128_0_0 : S3x128.Slices ![0, 0] S1x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x4x128x128_S1x4x128x128_1_0_0_0 : S3x4x128x128.Slices ![1, 0, 0, 0] S1x4x128x128
  slices_S3x4x128_S1x4x128_1_0_0 : S3x4x128.Slices ![1, 0, 0] S1x4x128
  slices_S3x128_S1x128_1_0 : S3x128.Slices ![1, 0] S1x128
  slices_S3x4x128x128_S1x4x128x128_2_0_0_0 : S3x4x128x128.Slices ![2, 0, 0, 0] S1x4x128x128
  slices_S3x4x128_S1x4x128_2_0_0 : S3x4x128.Slices ![2, 0, 0] S1x4x128
  slices_S3x128_S1x128_2_0 : S3x128.Slices ![2, 0] S1x128
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x32_S50000x32_1_0_0_1_n_n_wf : DotDims.WF S50000x128 S128x32 S50000x32 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.K.Reg0Dat.lean ====
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 0: the blocks its windows hold, what its body leaves, and its proof data -/

/-- The block of window `w` at grid point `t`: the part of the window's array, as the region finds it, that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The rectangles the body reads and writes: each is a whole staging buffer. -/
abbrev r0_0 : Rect S2000x64 := Rect.unit (s := S2000x64) ![0, 0] S2000x64.size inb_S2000x64_S2000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- What the body leaves in the output window's buffer, as a function of the input blocks: its single store covers
    the whole buffer, and stores the payload computed from the whole-buffer loads of the inputs. -/
def out0_3 (x0 : Vec F S2000x64 .f32) (x1 : Vec F S64x128 .bf16) (x2 : Vec F S1x128 .f32) : Vec F S2000x128 .f32 :=
  View.canon [⟨r0_3, k0_pay1 (View.ld x0 r0_0) (View.ld x1 r0_1) (View.ld x2 r0_2)⟩]

/-- The proof data of the region on core `c`: the arrays are the entry contents; after the body at point `t`
    every input buffer still holds its block and the output buffer holds `out0_3` of the input blocks; the
    invariant is the one of a body that touches nothing but its windows; full shares, nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- The invariant does not depend on the point. -/
theorem Phi0_eq (c : Dev nD) (t) : (dat0 V c).Φ t = Pipeline.ΦA spec0 c := rfl

end Cert.Kernel.Hand
-- ==== Proof.K.Reg1Dat.lean ====
/-
  Region 1: the fused projection h · wcat + bcat, cut by columns into k (0:128, rounded to bf16),
  qv (128:384, rounded to bf16) and s (384:512, kept in f32). Definitions only: each window's block
  at a grid point read off the region-entry contents, what the body leaves in each output buffer as a
  function of the three input blocks, and the proof data of the pipeline over them.
-/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the region-entry contents of the core's buffers: a parameter, fixed by whoever assembles the run
variable (V : (c : Dev nD) → (b : Ref sig .tc) → Buf (Elt F) ((c : Thread nD τ).loc b))

/-! ## The windows' blocks -/

/-- Window `w`'s block at point `t`: the rows `2000 t … 2000 t + 1999` of the activations and of the three
    outputs, the whole of the weights and of the bias, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and store takes its whole buffer -/

abbrev r1_0 : Rect S2000x128 := Rect.unit (s := S2000x128) ![0, 0] S2000x128.size inb_S2000x128_S2000x128_0_0
abbrev r1_1 : Rect S128x512 := Rect.unit (s := S128x512) ![0, 0] S128x512.size inb_S128x512_S128x512_0_0
abbrev r1_2 : Rect S1x512 := Rect.unit (s := S1x512) ![0, 0] S1x512.size inb_S1x512_S1x512_0_0
abbrev r1_3 : Rect S2000x256 := Rect.unit (s := S2000x256) ![0, 0] S2000x256.size inb_S2000x256_S2000x256_0_0

/-! ## What the body leaves in each output buffer -/

/-- The k block: columns 0:128 of `h · wcat + bcat` rounded to bf16 — one store over the whole buffer. -/
def out1_3 (x0 : Vec F S2000x128 .f32) (x1 : Vec F S128x512 .bf16) (x2 : Vec F S1x512 .f32) : Vec F S2000x128 .bf16 :=
  View.canon [⟨r1_0, k1_pay2 (View.ld x0 r1_0) (View.ld x1 r1_1) (View.ld x2 r1_2)⟩]

/-- The qv block: columns 128:384 rounded to bf16 — one store over the whole buffer. -/
def out1_4 (x0 : Vec F S2000x128 .f32) (x1 : Vec F S128x512 .bf16) (x2 : Vec F S1x512 .f32) : Vec F S2000x256 .bf16 :=
  View.canon [⟨r1_3, k1_pay3 (View.ld x0 r1_0) (View.ld x1 r1_1) (View.ld x2 r1_2)⟩]

/-- The s block: columns 384:512 in f32 — one store over the whole buffer. -/
def out1_5 (x0 : Vec F S2000x128 .f32) (x1 : Vec F S128x512 .bf16) (x2 : Vec F S1x512 .f32) : Vec F S2000x128 .f32 :=
  View.canon [⟨r1_0, k1_pay4 (View.ld x0 r1_0) (View.ld x1 r1_1) (View.ld x2 r1_2)⟩]

/-! ## The pipeline's proof data -/

/-- The arrays as the region finds them; after the body at point `t` each input buffer still at its block and each
    output buffer at its function of the three input blocks; the invariant is the untouched scoped rest and generator
    register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) := by dsimp only [dat1]

/-- The invariant is the same at every point: the body touches neither the scoped rest nor the generator register. -/
theorem Phi1_eq (c : Dev nD) (t : Fin (cfg1.N + 1)) : (dat1 V c).Φ t = Pipeline.ΦA spec1 c := rfl

end Cert.Kernel.Hand
-- ==== Proof.K.Reg2Runs.lean ====
/- Region 2 (the fused add and column statistics): what the three cases of the body share. The body adds its two
   input blocks into the output block at every point, and keeps two row accumulators (the column sums of the
   block and of its squares) in buffers of its own between points: zeroed at the first point, copied into the
   two one-row outputs at the last. The cases: A the first point, B a middle point, C the last point. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first point" as the body computes it. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point" as the body computes it. -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

theorem hA0_2 (t : Fin cfg2.N) (h : t.val = 0) : cond2_0 (grid2.coords t) := (hcond2_0 t).mpr h
theorem hA1_2 (t : Fin cfg2.N) (h : t.val = 0) : ¬cond2_1 (grid2.coords t) := fun h' => by have := (hcond2_1 t).mp h'; omega
theorem hB0_2 (t : Fin cfg2.N) (h : ¬t.val = 0) : ¬cond2_0 (grid2.coords t) := fun h' => h ((hcond2_0 t).mp h')
theorem hB1_2 (t : Fin cfg2.N) (h : ¬t.val = 24) : ¬cond2_1 (grid2.coords t) := fun h' => h ((hcond2_1 t).mp h')
theorem hC1_2 (t : Fin cfg2.N) (h : t.val = 24) : cond2_1 (grid2.coords t) := (hcond2_1 t).mpr h

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the two one-row outputs are idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The buffers the body is called on -/

/-- One staging buffer per output window, through which its contents are stated. -/
abbrev VO2_2 : View sig .tc .vmem S2000x128 .f32 := (Memref.whole cc2_stg2_0 : Memref sig .tc .vmem S2000x128 .f32).view
abbrev VO2_3 : View sig .tc .vmem S1x128 .f32 := (Memref.whole cc2_stg3_0 : Memref sig .tc .vmem S1x128 .f32).view
abbrev VO2_4 : View sig .tc .vmem S1x128 .f32 := (Memref.whole cc2_stg4_0 : Memref sig .tc .vmem S1x128 .f32).view
/-- Each window's current staging buffer at point `t`, and its wholeness. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
/-- The two accumulators: whole buffers of the body's own, passed beside the windows. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- Every scoped buffer of the core that is not one of this region's staging buffers nor one of its two accumulators. -/
abbrev restBut2 (c : Dev nD) : sProp 𝕄 :=
  Pipeline.scopedRestBut (Ix := Unit) (Name := ℕ) (U := Pipeline.UD sig nD τ) (Lvl := ℕ) (Val := Elt F) spec2 c [cc2_scratch0, cc2_scratch1]

/-- The region's entry invariant with the two accumulators split out of the scoped rest, each at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 c) ∗ (∃ r, prngReg c r)) := by
  unfold Pipeline.ΦA; rw [scopedRest2_split]; simp only [scM2_0, scM2_1, owns_whole]; try rfl

end Cert.Kernel.Hand

end
-- ==== Proof.K.Reg2RunA.lean ====
/- Region 2, case A: the body's run at the first point (both accumulators zeroed, then the block's column sums added; the one-row outputs untouched). -/
import proofs.«180311_j29308856828500_2_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc2__fuse_stats_kernel_eq_skeleton]; unfold cc2__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.Kernel.Hand

end
-- ==== Proof.K.Reg2RunB.lean ====
/- Region 2, case B: the body's run at a middle point (the block's column sums added onto what the point before left; the one-row outputs untouched). -/
import proofs.«180311_j29308856828500_2_alg».proof.Proof.K.Reg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc2__fuse_stats_kernel_eq_skeleton]; unfold cc2__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.Kernel.Hand

end
-- ==== Proof.K.Reg2RunC.lean ====
/- Region 2, case C: the body's run at the last point (the column sums added, then both accumulators copied into the one-row outputs). -/
import proofs.«180311_j29308856828500_2_alg».proof.Proof.K.Reg2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__fuse_stats_kernel i arg1 harg1 arg2 harg2 arg3 harg3 arg4 harg4 arg5 harg5 arg6 harg6 arg7 harg7) K } := by
  refine ⟨?_, ?_, ?_, ?_, ?_, fun E K => ?run⟩
  case run =>
    simp only [cc2__fuse_stats_kernel_eq_skeleton]; unfold cc2__fuse_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Hand

end
-- ==== Proof.K.Reg2Dat.lean ====
/- Region 2: what each case leaves in the outputs and in the two accumulators, the accumulation point by point,
   the region invariant and the pipeline's proof data. -/
import proofs.«180311_j29308856828500_2_alg».proof.Proof.K.Reg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Case A's stores into output 2 cover its block. -/
theorem cover2_A_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) (y : S2000x128.Idx) :
    ∃ pc ∈ (kernelRun2_A c i arg1 harg1 arg2 harg2 arg3 harg3 arg4 harg4 arg5 harg5 arg6 harg6 arg7 harg7 hc0 hc1 x0 x1).1, y ∈ pc.1.set :=
  View.cover_of_tiledL (kernelRun2_A c i arg1 harg1 arg2 harg2 arg3 harg3 arg4 harg4 arg5 harg5 arg6 harg6 arg7 harg7 hc0 hc1 x0 x1).1 S2000x128.size (by sl_kernel_rfl) y

/-- What case A leaves in output 2's staging buffer: its pieces read back. -/
def out2_A_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) : Vec F S2000x128 .f32 :=
  VO2_2.read (Elt F) (VO2_2.writes (Elt F) VO2_2.junk (kernelRun2_A c i arg1 harg1 arg2 harg2 arg3 harg3 arg4 harg4 arg5 harg5 arg6 harg6 arg7 harg7 hc0 hc1 x0 x1).1)

/-- Case A's stores into accumulator 0 cover it. -/
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) (y : S1x128.Idx) :
    ∃ pc ∈ (kernelRun2_A c i arg1 harg1 arg2 harg2 arg3 harg3 arg4 harg4 arg5 harg5 arg6 harg6 arg7 harg7 hc0 hc1 x0 x1).2.2.2.1, y ∈ pc.1.set :=
  View.cover_of_tiledL (kernelRun2_A c i arg1 harg1 arg2 harg2 arg3 harg3 arg4 harg4 arg5 harg5 arg6 harg6 arg7 harg7 hc0 hc1 x0 x1).2.2.2.1 S1x128.size (by sl_kernel_rfl) y

/-- What case A leaves in accumulator 0: its pieces read back. -/
def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1).2.2.2.1)

/-- Case A's stores into accumulator 1 cover it. -/
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) (y : S1x128.Idx) :
    ∃ pc ∈ (kernelRun2_A c i arg1 harg1 arg2 harg2 arg3 harg3 arg4 harg4 arg5 harg5 arg6 harg6 arg7 harg7 hc0 hc1 x0 x1).2.2.2.2.1, y ∈ pc.1.set :=
  View.cover_of_tiledL (kernelRun2_A c i arg1 harg1 arg2 harg2 arg3 harg3 arg4 harg4 arg5 harg5 arg6 harg6 arg7 harg7 hc0 hc1 x0 x1).2.2.2.2.1 S1x128.size (by sl_kernel_rfl) y

/-- What case A leaves in accumulator 1: its pieces read back. -/
def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 hc0 hc1 x0 x1).2.2.2.2.1)

/-- Case B's stores into output 2 cover its block. -/
theorem cover2_B_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) (y : S2000x128.Idx) :
    ∃ pc ∈ (kernelRun2_B c i arg1 harg1 arg2 harg2 arg3 harg3 arg4 harg4 arg5 harg5 arg6 harg6 arg7 harg7 hc0 hc1 x0 x1 xs0 xs1).1, y ∈ pc.1.set :=
  View.cover_of_tiledL (kernelRun2_B c i arg1 harg1 arg2 harg2 arg3 harg3 arg4 harg4 arg5 harg5 arg6 harg6 arg7 harg7 hc0 hc1 x0 x1 xs0 xs1).1 S2000x128.size (by sl_kernel_rfl) y

/-- What case B leaves in output 2's staging buffer: its pieces read back. -/
def out2_B_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) : Vec F S2000x128 .f32 :=
  VO2_2.read (Elt F) (VO2_2.writes (Elt F) VO2_2.junk (kernelRun2_B c i arg1 harg1 arg2 harg2 arg3 harg3 arg4 harg4 arg5 harg5 arg6 harg6 arg7 harg7 hc0 hc1 x0 x1 xs0 xs1).1)

/-- Case B's stores into accumulator 0 cover it. -/
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.2.2.1, y ∈ pc.1.set :=
  View.cover_of_tiledL (kernelRun2_B c i arg1 harg1 arg2 harg2 arg3 harg3 arg4 harg4 arg5 harg5 arg6 harg6 arg7 harg7 hc0 hc1 x0 x1 xs0 xs1).2.2.2.1 S1x128.size (by sl_kernel_rfl) y

/-- What case B leaves in accumulator 0: its pieces read back. -/
def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 xs0 xs1).2.2.2.1)

/-- Case B's stores into accumulator 1 cover it. -/
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.2.2.2.1, y ∈ pc.1.set :=
  View.cover_of_tiledL (kernelRun2_B c i arg1 harg1 arg2 harg2 arg3 harg3 arg4 harg4 arg5 harg5 arg6 harg6 arg7 harg7 hc0 hc1 x0 x1 xs0 xs1).2.2.2.2.1 S1x128.size (by sl_kernel_rfl) y

/-- What case B leaves in accumulator 1: its pieces read back. -/
def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 hc0 hc1 x0 x1 xs0 xs1).2.2.2.2.1)

/-- Case C's stores into output 2 cover its block. -/
theorem cover2_C_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S2000x128.Idx) :
    ∃ pc ∈ (kernelRun2_C c i arg1 harg1 arg2 harg2 arg3 harg3 arg4 harg4 arg5 harg5 arg6 harg6 arg7 harg7 hc0 hc1 x0 x1 xs0 xs1).1, y ∈ pc.1.set :=
  View.cover_of_tiledL (kernelRun2_C c i arg1 harg1 arg2 harg2 arg3 harg3 arg4 harg4 arg5 harg5 arg6 harg6 arg7 harg7 hc0 hc1 x0 x1 xs0 xs1).1 S2000x128.size (by sl_kernel_rfl) y

/-- What case C leaves in output 2's staging buffer: its pieces read back. -/
def out2_C_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S2000x128 .f32 :=
  VO2_2.read (Elt F) (VO2_2.writes (Elt F) VO2_2.junk (kernelRun2_C c i arg1 harg1 arg2 harg2 arg3 harg3 arg4 harg4 arg5 harg5 arg6 harg6 arg7 harg7 hc0 hc1 x0 x1 xs0 xs1).1)

/-- Case C's stores into output 3 cover its block. -/
theorem cover2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.1, y ∈ pc.1.set :=
  View.cover_of_tiledL (kernelRun2_C c i arg1 harg1 arg2 harg2 arg3 harg3 arg4 harg4 arg5 harg5 arg6 harg6 arg7 harg7 hc0 hc1 x0 x1 xs0 xs1).2.1 S1x128.size (by sl_kernel_rfl) y

/-- What case C leaves in output 3's staging buffer: its pieces read back. -/
def out2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VO2_3.read (Elt F) (VO2_3.writes (Elt F) VO2_3.junk (kernelRun2_C c i arg1 harg1 arg2 harg2 arg3 harg3 arg4 harg4 arg5 harg5 arg6 harg6 arg7 harg7 hc0 hc1 x0 x1 xs0 xs1).2.1)

/-- Case C's stores into output 4 cover its block. -/
theorem cover2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.1 S1x128.size (by sl_kernel_rfl) y

/-- What case C leaves in output 4's staging buffer: its pieces read back. -/
def out2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 hc0 hc1 x0 x1 xs0 xs1).2.2.1)

/-- Case C's stores into accumulator 0 cover it. -/
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.1 S1x128.size (by sl_kernel_rfl) y

/-- What case C leaves in accumulator 0: its pieces read back. -/
def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 xs0 xs1).2.2.2.1)

/-- Case C's stores into accumulator 1 cover it. -/
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.2.1 S1x128.size (by sl_kernel_rfl) y

/-- What case C leaves in accumulator 1: its pieces read back. -/
def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 hc0 hc1 x0 x1 xs0 xs1).2.2.2.2.1)

/-! ## Point by point -/

/-- A placeholder for a one-row output's buffer at a point where it is idle: nothing consults it. -/
def idleOut2 : Vec F S1x128 .f32 := VO2_3.read (Elt F) VO2_3.junk

/-- THE ACCUMULATION. What the two accumulators hold after the body at position `n`: at the first point what case A
    leaves from zeroed accumulators; afterwards what case B (C at the last point) leaves over what the point before left —
    each point adds the column sums of its block `s + agg` (and of the block's squares) onto them. -/
def scratchAt2 (c : Dev nD) : (n : ℕ) → n < cfg2.N → Vec F S1x128 .f32 × Vec F S1x128 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hA0_2 ⟨0, hn⟩ rfl) (hA1_2 ⟨0, hn⟩ rfl) (iblk2 V c 0 ⟨0, hn⟩) (iblk2 V c 1 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hA0_2 ⟨0, hn⟩ rfl) (hA1_2 ⟨0, hn⟩ rfl) (iblk2 V c 0 ⟨0, hn⟩) (iblk2 V c 1 ⟨0, hn⟩))
  | n + 1, hn =>
    if h1 : n + 1 = 24 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hB1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hB1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2)

theorem scratchAt2_A (c : Dev nD) (t : Fin cfg2.N) (h0 : t.val = 0) :
    scratchAt2 V c t.val t.isLt = (sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hA0_2 t h0) (hA1_2 t h0) (iblk2 V c 0 t) (iblk2 V c 1 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hA0_2 t h0) (hA1_2 t h0) (iblk2 V c 0 t) (iblk2 V c 1 t)) := by
  obtain ⟨n, hn⟩ := t
  cases n with
  | zero => rfl
  | succ n => exact absurd h0 (Nat.succ_ne_zero n)

theorem scratchAt2_B (c : Dev nD) (t : Fin cfg2.N) (h0 : ¬t.val = 0) (h1 : ¬t.val = 24) :
    scratchAt2 V c t.val t.isLt = (sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hB1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hB1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2) := by
  obtain ⟨n, hn⟩ := t
  cases n with
  | zero => exact absurd rfl h0
  | succ n => exact (dif_neg h1).trans rfl

theorem scratchAt2_C (c : Dev nD) (t : Fin cfg2.N) (h0 : ¬t.val = 0) (h1 : t.val = 24) :
    scratchAt2 V c t.val t.isLt = (sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2) := by
  obtain ⟨n, hn⟩ := t
  cases n with
  | zero => exact absurd rfl h0
  | succ n => exact (dif_pos h1).trans rfl

/-- What the three outputs' staging buffers hold after the body at position `n`: the block `s + agg` in output 2 at every
    point; at the last point the two accumulators' final contents in outputs 3 and 4 (elsewhere a placeholder). -/
def outsAt2 (c : Dev nD) : (n : ℕ) → n < cfg2.N → Vec F S2000x128 .f32 × Vec F S1x128 .f32 × Vec F S1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hA0_2 ⟨0, hn⟩ rfl) (hA1_2 ⟨0, hn⟩ rfl) (iblk2 V c 0 ⟨0, hn⟩) (iblk2 V c 1 ⟨0, hn⟩), idleOut2, idleOut2)
  | n + 1, hn =>
    if h1 : n + 1 = 24 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2,
       out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2,
       out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hB1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2, idleOut2, idleOut2)

theorem outsAt2_A (c : Dev nD) (t : Fin cfg2.N) (h0 : t.val = 0) :
    outsAt2 V c t.val t.isLt = (out2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hA0_2 t h0) (hA1_2 t h0) (iblk2 V c 0 t) (iblk2 V c 1 t), idleOut2, idleOut2) := by
  obtain ⟨n, hn⟩ := t
  cases n with
  | zero => rfl
  | succ n => exact absurd h0 (Nat.succ_ne_zero n)

theorem outsAt2_B (c : Dev nD) (t : Fin cfg2.N) (h0 : ¬t.val = 0) (h1 : ¬t.val = 24) :
    outsAt2 V c t.val t.isLt = (out2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hB1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2, idleOut2, idleOut2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 24) :
    outsAt2 V c t.val t.isLt = (out2_C_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2,
       out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2,
       out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the region's entry the scoped rest (both accumulators at some contents) and the generator
    register; after a point, the two accumulators at what that point left, the other scoped buffers, the register. -/
def PhiS2 (c : Dev nD) : (n : ℕ) → n ≤ cfg2.N → sProp 𝕄
  | 0, _ => Pipeline.ΦA spec2 c
  | n + 1, hn => iprop(iprop(iprop(owns (c : Thread nD τ) scM2_0 fullShare (scratchAt2 V c n hn).1 ∗ owns (c : Thread nD τ) scM2_1 fullShare (scratchAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (scratchAt2 V c n hn).1 ∗ owns (c : Thread nD τ) scM2_1 fullShare (scratchAt2 V c n hn).2) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (scratchAt2 V c (n - 1) (by omega)).1 ∗ owns (c : Thread nD τ) scM2_1 fullShare (scratchAt2 V c (n - 1) (by omega)).2) ∗ restBut2 c) ∗ (∃ r, prngReg c r)) := by
  cases n with
  | zero => exact absurd rfl hz
  | succ n => rfl

/-! ## The pipeline's proof data -/

/-- The arrays as the region finds them; after the body at point `t` each input's buffer at its block and the outputs'
    at `outsAt2`; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
    | ⟨4, _⟩ => (outsAt2 V c t.val t.isLt).2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem after2_4 (c : Dev nD) (t : Fin cfg2.N) : (dat2 V c).after 4 t = (outsAt2 V c t.val t.isLt).2.2 := by dsimp only [dat2]

end Cert.Kernel.Hand

end
-- ==== Proof.K.Reg3Dat.lean ====
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 3: the blocks its windows hold, what its body leaves, and its proof data -/

/-- The block of window `w` at grid point `t`: the part of the window's array, as the region finds it, that
    the window's index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! The rectangles the body reads and writes: each is a whole staging buffer. -/
abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-- What the body leaves in the output window's buffer, as a function of the input blocks: its single store covers
    the whole buffer, and stores the payload computed from the whole-buffer loads of the inputs. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_0, k3_pay1 (View.ld x0 r3_0) (View.ld x1 r3_1) (View.ld x2 r3_1) (View.ld x3 r3_1) (View.ld x4 r3_1)⟩]

/-- The proof data of the region on core `c`: the arrays are the entry contents; after the body at point `t`
    every input buffer still holds its block and the output buffer holds `out3_5` of the input blocks; the
    invariant is the one of a body that touches nothing but its windows; full shares, nothing owed. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- The invariant does not depend on the point. -/
theorem Phi3_eq (c : Dev nD) (t) : (dat3 V c).Φ t = Pipeline.ΦA spec3 c := rfl

end Cert.Kernel.Hand
-- ==== Proof.K.Reg4Dat.lean ====
/-
  Region 4: the fused projection h · wcat + bcat, cut by columns into k (0:128, rounded to bf16),
  qv (128:384, rounded to bf16) and s (384:512, kept in f32). Definitions only: each window's block
  at a grid point read off the region-entry contents, what the body leaves in each output buffer as a
  function of the three input blocks, and the proof data of the pipeline over them.
-/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the region-entry contents of the core's buffers: a parameter, fixed by whoever assembles the run
variable (V : (c : Dev nD) → (b : Ref sig .tc) → Buf (Elt F) ((c : Thread nD τ).loc b))

/-! ## The windows' blocks -/

/-- Window `w`'s block at point `t`: the rows `2000 t … 2000 t + 1999` of the activations and of the three
    outputs, the whole of the weights and of the bias, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and store takes its whole buffer -/

abbrev r4_0 : Rect S2000x128 := Rect.unit (s := S2000x128) ![0, 0] S2000x128.size inb_S2000x128_S2000x128_0_0
abbrev r4_1 : Rect S128x512 := Rect.unit (s := S128x512) ![0, 0] S128x512.size inb_S128x512_S128x512_0_0
abbrev r4_2 : Rect S1x512 := Rect.unit (s := S1x512) ![0, 0] S1x512.size inb_S1x512_S1x512_0_0
abbrev r4_3 : Rect S2000x256 := Rect.unit (s := S2000x256) ![0, 0] S2000x256.size inb_S2000x256_S2000x256_0_0

/-! ## What the body leaves in each output buffer -/

/-- The k block: columns 0:128 of `h · wcat + bcat` rounded to bf16 — one store over the whole buffer. -/
def out4_3 (x0 : Vec F S2000x128 .f32) (x1 : Vec F S128x512 .bf16) (x2 : Vec F S1x512 .f32) : Vec F S2000x128 .bf16 :=
  View.canon [⟨r4_0, k4_pay2 (View.ld x0 r4_0) (View.ld x1 r4_1) (View.ld x2 r4_2)⟩]

/-- The qv block: columns 128:384 rounded to bf16 — one store over the whole buffer. -/
def out4_4 (x0 : Vec F S2000x128 .f32) (x1 : Vec F S128x512 .bf16) (x2 : Vec F S1x512 .f32) : Vec F S2000x256 .bf16 :=
  View.canon [⟨r4_3, k4_pay3 (View.ld x0 r4_0) (View.ld x1 r4_1) (View.ld x2 r4_2)⟩]

/-- The s block: columns 384:512 in f32 — one store over the whole buffer. -/
def out4_5 (x0 : Vec F S2000x128 .f32) (x1 : Vec F S128x512 .bf16) (x2 : Vec F S1x512 .f32) : Vec F S2000x128 .f32 :=
  View.canon [⟨r4_0, k4_pay4 (View.ld x0 r4_0) (View.ld x1 r4_1) (View.ld x2 r4_2)⟩]

/-! ## The pipeline's proof data -/

/-- The arrays as the region finds them; after the body at point `t` each input buffer still at its block and each
    output buffer at its function of the three input blocks; the invariant is the untouched scoped rest and generator
    register; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
    | ⟨5, _⟩ => out4_5 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]
theorem after4_5 (c : Dev nD) (t : Fin cfg4.N) : (dat4 V c).after 5 t = out4_5 (iblk4 V c 0 t) (iblk4 V c 1 t) (iblk4 V c 2 t) := by dsimp only [dat4]

/-- The invariant is the same at every point: the body touches neither the scoped rest nor the generator register. -/
theorem Phi4_eq (c : Dev nD) (t : Fin (cfg4.N + 1)) : (dat4 V c).Φ t = Pipeline.ΦA spec4 c := rfl

end Cert.Kernel.Hand
-- ==== Proof.K.Reg5Runs.lean ====
/- Region 5 (the fused add and column statistics): what the three cases of the body share. The body adds its two
   input blocks into the output block at every point, and keeps two row accumulators (the column sums of the
   block and of its squares) in buffers of its own between points: zeroed at the first point, copied into the
   two one-row outputs at the last. The cases: A the first point, B a middle point, C the last point. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- "This is the first point" as the body computes it. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)
/-- "This is the last point" as the body computes it. -/
abbrev cond5_1 (i : grid5.Coords) : Prop := k5_cond2 i = 1#1
theorem hcond5_1 : ∀ t : Fin cfg5.N, cond5_1 (grid5.coords t) ↔ t.val = 24 :=
  (by decide +kernel : ∀ t : Fin grid5.N, cond5_1 (grid5.coords t) ↔ t.val = 24)

theorem hA0_5 (t : Fin cfg5.N) (h : t.val = 0) : cond5_0 (grid5.coords t) := (hcond5_0 t).mpr h
theorem hA1_5 (t : Fin cfg5.N) (h : t.val = 0) : ¬cond5_1 (grid5.coords t) := fun h' => by have := (hcond5_1 t).mp h'; omega
theorem hB0_5 (t : Fin cfg5.N) (h : ¬t.val = 0) : ¬cond5_0 (grid5.coords t) := fun h' => h ((hcond5_0 t).mp h')
theorem hB1_5 (t : Fin cfg5.N) (h : ¬t.val = 24) : ¬cond5_1 (grid5.coords t) := fun h' => h ((hcond5_1 t).mp h')
theorem hC1_5 (t : Fin cfg5.N) (h : t.val = 24) : cond5_1 (grid5.coords t) := (hcond5_1 t).mpr h

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from the last point the two one-row outputs are idle and not written back. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
/-- At the last point they are live. -/
theorem liveAt5_3 : ∀ t : Fin cfg5.N, cond5_1 (grid5.coords t) → cfg5.idle 3 (grid5.coords t) = false := by decide +kernel
theorem liveAt5_4 : ∀ t : Fin cfg5.N, cond5_1 (grid5.coords t) → cfg5.idle 4 (grid5.coords t) = false := by decide +kernel

/-! ## The buffers the body is called on -/

/-- One staging buffer per output window, through which its contents are stated. -/
abbrev VO5_2 : View sig .tc .vmem S2000x128 .f32 := (Memref.whole cc5_stg2_0 : Memref sig .tc .vmem S2000x128 .f32).view
abbrev VO5_3 : View sig .tc .vmem S1x128 .f32 := (Memref.whole cc5_stg3_0 : Memref sig .tc .vmem S1x128 .f32).view
abbrev VO5_4 : View sig .tc .vmem S1x128 .f32 := (Memref.whole cc5_stg4_0 : Memref sig .tc .vmem S1x128 .f32).view
/-- Each window's current staging buffer at point `t`, and its wholeness. -/
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2000x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
/-- The two accumulators: whole buffers of the body's own, passed beside the windows. -/
abbrev scM5_0 : Memref sig .tc .vmem S1x128 .f32 := Memref.whole cc5_scratch0
abbrev scM5_1 : Memref sig .tc .vmem S1x128 .f32 := Memref.whole cc5_scratch1
abbrev VS5_0 : View sig .tc .vmem S1x128 .f32 := scM5_0.view
abbrev VS5_1 : View sig .tc .vmem S1x128 .f32 := scM5_1.view

/-- Every scoped buffer of the core that is not one of this region's staging buffers nor one of its two accumulators. -/
abbrev restBut5 (c : Dev nD) : sProp 𝕄 :=
  Pipeline.scopedRestBut (Ix := Unit) (Name := ℕ) (U := Pipeline.UD sig nD τ) (Lvl := ℕ) (Val := Elt F) spec5 c [cc5_scratch0, cc5_scratch1]

/-- The region's entry invariant with the two accumulators split out of the scoped rest, each at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ restBut5 c) ∗ (∃ r, prngReg c r)) := by
  unfold Pipeline.ΦA; rw [scopedRest5_split]; simp only [scM5_0, scM5_1, owns_whole]; try rfl

end Cert.Kernel.Hand

end
-- ==== Proof.K.Reg5RunA.lean ====
/- Region 5, case A: the body's run at the first point (both accumulators zeroed, then the block's column sums added; the one-row outputs untouched). -/
import proofs.«180311_j29308856828500_2_alg».proof.Proof.K.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun5_A (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc5__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc5__fuse_stats_kernel_eq_skeleton]; unfold cc5__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.Kernel.Hand

end
-- ==== Proof.K.Reg5RunB.lean ====
/- Region 5, case B: the body's run at a middle point (the block's column sums added onto what the point before left; the one-row outputs untouched). -/
import proofs.«180311_j29308856828500_2_alg».proof.Proof.K.Reg5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun5_B (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc5__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc5__fuse_stats_kernel_eq_skeleton]; unfold cc5__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.Kernel.Hand

end
-- ==== Proof.K.Reg5RunC.lean ====
/- Region 5, case C: the body's run at the last point (the column sums added, then both accumulators copied into the one-row outputs). -/
import proofs.«180311_j29308856828500_2_alg».proof.Proof.K.Reg5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun5_C (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc5__fuse_stats_kernel i arg1 harg1 arg2 harg2 arg3 harg3 arg4 harg4 arg5 harg5 arg6 harg6 arg7 harg7) K } := by
  refine ⟨?_, ?_, ?_, ?_, ?_, fun E K => ?run⟩
  case run =>
    simp only [cc5__fuse_stats_kernel_eq_skeleton]; unfold cc5__fuse_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Hand

end
-- ==== Proof.K.Reg5Dat.lean ====
/- Region 5: what each case leaves in the outputs and in the two accumulators, the accumulation point by point,
   the region invariant and the pipeline's proof data. -/
import proofs.«180311_j29308856828500_2_alg».proof.Proof.K.Reg5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Case A's stores into output 2 cover its block. -/
theorem cover5_A_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) (y : S2000x128.Idx) :
    ∃ pc ∈ (kernelRun5_A c i arg1 harg1 arg2 harg2 arg3 harg3 arg4 harg4 arg5 harg5 arg6 harg6 arg7 harg7 hc0 hc1 x0 x1).1, y ∈ pc.1.set :=
  View.cover_of_tiledL (kernelRun5_A c i arg1 harg1 arg2 harg2 arg3 harg3 arg4 harg4 arg5 harg5 arg6 harg6 arg7 harg7 hc0 hc1 x0 x1).1 S2000x128.size (by sl_kernel_rfl) y

/-- What case A leaves in output 2's staging buffer: its pieces read back. -/
def out5_A_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) : Vec F S2000x128 .f32 :=
  VO5_2.read (Elt F) (VO5_2.writes (Elt F) VO5_2.junk (kernelRun5_A c i arg1 harg1 arg2 harg2 arg3 harg3 arg4 harg4 arg5 harg5 arg6 harg6 arg7 harg7 hc0 hc1 x0 x1).1)

/-- Case A's stores into accumulator 0 cover it. -/
theorem scover5_A_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) (y : S1x128.Idx) :
    ∃ pc ∈ (kernelRun5_A c i arg1 harg1 arg2 harg2 arg3 harg3 arg4 harg4 arg5 harg5 arg6 harg6 arg7 harg7 hc0 hc1 x0 x1).2.2.2.1, y ∈ pc.1.set :=
  View.cover_of_tiledL (kernelRun5_A c i arg1 harg1 arg2 harg2 arg3 harg3 arg4 harg4 arg5 harg5 arg6 harg6 arg7 harg7 hc0 hc1 x0 x1).2.2.2.1 S1x128.size (by sl_kernel_rfl) y

/-- What case A leaves in accumulator 0: its pieces read back. -/
def sout5_A_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) : Vec F S1x128 .f32 :=
  VS5_0.read (Elt F) (VS5_0.writes (Elt F) VS5_0.junk (kernelRun5_A c i arg1 harg1 arg2 harg2 arg3 harg3 arg4 harg4 arg5 harg5 arg6 harg6 arg7 harg7 hc0 hc1 x0 x1).2.2.2.1)

/-- Case A's stores into accumulator 1 cover it. -/
theorem scover5_A_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) (y : S1x128.Idx) :
    ∃ pc ∈ (kernelRun5_A c i arg1 harg1 arg2 harg2 arg3 harg3 arg4 harg4 arg5 harg5 arg6 harg6 arg7 harg7 hc0 hc1 x0 x1).2.2.2.2.1, y ∈ pc.1.set :=
  View.cover_of_tiledL (kernelRun5_A c i arg1 harg1 arg2 harg2 arg3 harg3 arg4 harg4 arg5 harg5 arg6 harg6 arg7 harg7 hc0 hc1 x0 x1).2.2.2.2.1 S1x128.size (by sl_kernel_rfl) y

/-- What case A leaves in accumulator 1: its pieces read back. -/
def sout5_A_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) : Vec F S1x128 .f32 :=
  VS5_1.read (Elt F) (VS5_1.writes (Elt F) VS5_1.junk (kernelRun5_A c i arg1 harg1 arg2 harg2 arg3 harg3 arg4 harg4 arg5 harg5 arg6 harg6 arg7 harg7 hc0 hc1 x0 x1).2.2.2.2.1)

/-- Case B's stores into output 2 cover its block. -/
theorem cover5_B_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) (y : S2000x128.Idx) :
    ∃ pc ∈ (kernelRun5_B c i arg1 harg1 arg2 harg2 arg3 harg3 arg4 harg4 arg5 harg5 arg6 harg6 arg7 harg7 hc0 hc1 x0 x1 xs0 xs1).1, y ∈ pc.1.set :=
  View.cover_of_tiledL (kernelRun5_B c i arg1 harg1 arg2 harg2 arg3 harg3 arg4 harg4 arg5 harg5 arg6 harg6 arg7 harg7 hc0 hc1 x0 x1 xs0 xs1).1 S2000x128.size (by sl_kernel_rfl) y

/-- What case B leaves in output 2's staging buffer: its pieces read back. -/
def out5_B_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) : Vec F S2000x128 .f32 :=
  VO5_2.read (Elt F) (VO5_2.writes (Elt F) VO5_2.junk (kernelRun5_B c i arg1 harg1 arg2 harg2 arg3 harg3 arg4 harg4 arg5 harg5 arg6 harg6 arg7 harg7 hc0 hc1 x0 x1 xs0 xs1).1)

/-- Case B's stores into accumulator 0 cover it. -/
theorem scover5_B_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 hc0 hc1 x0 x1 xs0 xs1).2.2.2.1, y ∈ pc.1.set :=
  View.cover_of_tiledL (kernelRun5_B c i arg1 harg1 arg2 harg2 arg3 harg3 arg4 harg4 arg5 harg5 arg6 harg6 arg7 harg7 hc0 hc1 x0 x1 xs0 xs1).2.2.2.1 S1x128.size (by sl_kernel_rfl) y

/-- What case B leaves in accumulator 0: its pieces read back. -/
def sout5_B_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) : Vec F S1x128 .f32 :=
  VS5_0.read (Elt F) (VS5_0.writes (Elt F) VS5_0.junk (kernelRun5_B c i arg1 harg1 arg2 harg2 arg3 harg3 arg4 harg4 arg5 harg5 arg6 harg6 arg7 harg7 hc0 hc1 x0 x1 xs0 xs1).2.2.2.1)

/-- Case B's stores into accumulator 1 cover it. -/
theorem scover5_B_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 hc0 hc1 x0 x1 xs0 xs1).2.2.2.2.1, y ∈ pc.1.set :=
  View.cover_of_tiledL (kernelRun5_B c i arg1 harg1 arg2 harg2 arg3 harg3 arg4 harg4 arg5 harg5 arg6 harg6 arg7 harg7 hc0 hc1 x0 x1 xs0 xs1).2.2.2.2.1 S1x128.size (by sl_kernel_rfl) y

/-- What case B leaves in accumulator 1: its pieces read back. -/
def sout5_B_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) : Vec F S1x128 .f32 :=
  VS5_1.read (Elt F) (VS5_1.writes (Elt F) VS5_1.junk (kernelRun5_B c i arg1 harg1 arg2 harg2 arg3 harg3 arg4 harg4 arg5 harg5 arg6 harg6 arg7 harg7 hc0 hc1 x0 x1 xs0 xs1).2.2.2.2.1)

/-- Case C's stores into output 2 cover its block. -/
theorem cover5_C_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S2000x128.Idx) :
    ∃ pc ∈ (kernelRun5_C c i arg1 harg1 arg2 harg2 arg3 harg3 arg4 harg4 arg5 harg5 arg6 harg6 arg7 harg7 hc0 hc1 x0 x1 xs0 xs1).1, y ∈ pc.1.set :=
  View.cover_of_tiledL (kernelRun5_C c i arg1 harg1 arg2 harg2 arg3 harg3 arg4 harg4 arg5 harg5 arg6 harg6 arg7 harg7 hc0 hc1 x0 x1 xs0 xs1).1 S2000x128.size (by sl_kernel_rfl) y

/-- What case C leaves in output 2's staging buffer: its pieces read back. -/
def out5_C_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S2000x128 .f32 :=
  VO5_2.read (Elt F) (VO5_2.writes (Elt F) VO5_2.junk (kernelRun5_C c i arg1 harg1 arg2 harg2 arg3 harg3 arg4 harg4 arg5 harg5 arg6 harg6 arg7 harg7 hc0 hc1 x0 x1 xs0 xs1).1)

/-- Case C's stores into output 3 cover its block. -/
theorem cover5_C_3 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.1, y ∈ pc.1.set :=
  View.cover_of_tiledL (kernelRun5_C c i arg1 harg1 arg2 harg2 arg3 harg3 arg4 harg4 arg5 harg5 arg6 harg6 arg7 harg7 hc0 hc1 x0 x1 xs0 xs1).2.1 S1x128.size (by sl_kernel_rfl) y

/-- What case C leaves in output 3's staging buffer: its pieces read back. -/
def out5_C_3 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VO5_3.read (Elt F) (VO5_3.writes (Elt F) VO5_3.junk (kernelRun5_C c i arg1 harg1 arg2 harg2 arg3 harg3 arg4 harg4 arg5 harg5 arg6 harg6 arg7 harg7 hc0 hc1 x0 x1 xs0 xs1).2.1)

/-- Case C's stores into output 4 cover its block. -/
theorem cover5_C_4 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.2.1, y ∈ pc.1.set :=
  View.cover_of_tiledL (kernelRun5_C c i arg1 harg1 arg2 harg2 arg3 harg3 arg4 harg4 arg5 harg5 arg6 harg6 arg7 harg7 hc0 hc1 x0 x1 xs0 xs1).2.2.1 S1x128.size (by sl_kernel_rfl) y

/-- What case C leaves in output 4's staging buffer: its pieces read back. -/
def out5_C_4 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VO5_4.read (Elt F) (VO5_4.writes (Elt F) VO5_4.junk (kernelRun5_C c i arg1 harg1 arg2 harg2 arg3 harg3 arg4 harg4 arg5 harg5 arg6 harg6 arg7 harg7 hc0 hc1 x0 x1 xs0 xs1).2.2.1)

/-- Case C's stores into accumulator 0 cover it. -/
theorem scover5_C_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.2.2.1, y ∈ pc.1.set :=
  View.cover_of_tiledL (kernelRun5_C c i arg1 harg1 arg2 harg2 arg3 harg3 arg4 harg4 arg5 harg5 arg6 harg6 arg7 harg7 hc0 hc1 x0 x1 xs0 xs1).2.2.2.1 S1x128.size (by sl_kernel_rfl) y

/-- What case C leaves in accumulator 0: its pieces read back. -/
def sout5_C_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VS5_0.read (Elt F) (VS5_0.writes (Elt F) VS5_0.junk (kernelRun5_C c i arg1 harg1 arg2 harg2 arg3 harg3 arg4 harg4 arg5 harg5 arg6 harg6 arg7 harg7 hc0 hc1 x0 x1 xs0 xs1).2.2.2.1)

/-- Case C's stores into accumulator 1 cover it. -/
theorem scover5_C_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.2.2.2.1, y ∈ pc.1.set :=
  View.cover_of_tiledL (kernelRun5_C c i arg1 harg1 arg2 harg2 arg3 harg3 arg4 harg4 arg5 harg5 arg6 harg6 arg7 harg7 hc0 hc1 x0 x1 xs0 xs1).2.2.2.2.1 S1x128.size (by sl_kernel_rfl) y

/-- What case C leaves in accumulator 1: its pieces read back. -/
def sout5_C_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VS5_1.read (Elt F) (VS5_1.writes (Elt F) VS5_1.junk (kernelRun5_C c i arg1 harg1 arg2 harg2 arg3 harg3 arg4 harg4 arg5 harg5 arg6 harg6 arg7 harg7 hc0 hc1 x0 x1 xs0 xs1).2.2.2.2.1)

/-! ## Point by point -/

/-- A placeholder for a one-row output's buffer at a point where it is idle: nothing consults it. -/
def idleOut5 : Vec F S1x128 .f32 := VO5_3.read (Elt F) VO5_3.junk

/-- THE ACCUMULATION. What the two accumulators hold after the body at position `n`: at the first point what case A
    leaves from zeroed accumulators; afterwards what case B (C at the last point) leaves over what the point before left —
    each point adds the column sums of its block `s + agg` (and of the block's squares) onto them. -/
def scratchAt5 (c : Dev nD) : (n : ℕ) → n < cfg5.N → Vec F S1x128 .f32 × Vec F S1x128 .f32
  | 0, hn => (sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) scM5_1 (Memref.isWhole_whole _) (hA0_5 ⟨0, hn⟩ rfl) (hA1_5 ⟨0, hn⟩ rfl) (iblk5 V c 0 ⟨0, hn⟩) (iblk5 V c 1 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) scM5_1 (Memref.isWhole_whole _) (hA0_5 ⟨0, hn⟩ rfl) (hA1_5 ⟨0, hn⟩ rfl) (iblk5 V c 0 ⟨0, hn⟩) (iblk5 V c 1 ⟨0, hn⟩))
  | n + 1, hn =>
    if h1 : n + 1 = 24 then
      (sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2)
    else
      (sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hB1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hB1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2)

theorem scratchAt5_A (c : Dev nD) (t : Fin cfg5.N) (h0 : t.val = 0) :
    scratchAt5 V c t.val t.isLt = (sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hA0_5 t h0) (hA1_5 t h0) (iblk5 V c 0 t) (iblk5 V c 1 t), sout5_A_1 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hA0_5 t h0) (hA1_5 t h0) (iblk5 V c 0 t) (iblk5 V c 1 t)) := by
  obtain ⟨n, hn⟩ := t
  cases n with
  | zero => rfl
  | succ n => exact absurd h0 (Nat.succ_ne_zero n)

theorem scratchAt5_B (c : Dev nD) (t : Fin cfg5.N) (h0 : ¬t.val = 0) (h1 : ¬t.val = 24) :
    scratchAt5 V c t.val t.isLt = (sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hB1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2, sout5_B_1 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hB1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2) := by
  obtain ⟨n, hn⟩ := t
  cases n with
  | zero => exact absurd rfl h0
  | succ n => exact (dif_neg h1).trans rfl

theorem scratchAt5_C (c : Dev nD) (t : Fin cfg5.N) (h0 : ¬t.val = 0) (h1 : t.val = 24) :
    scratchAt5 V c t.val t.isLt = (sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2, sout5_C_1 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2) := by
  obtain ⟨n, hn⟩ := t
  cases n with
  | zero => exact absurd rfl h0
  | succ n => exact (dif_pos h1).trans rfl

/-- What the three outputs' staging buffers hold after the body at position `n`: the block `s + agg` in output 2 at every
    point; at the last point the two accumulators' final contents in outputs 3 and 4 (elsewhere a placeholder). -/
def outsAt5 (c : Dev nD) : (n : ℕ) → n < cfg5.N → Vec F S2000x128 .f32 × Vec F S1x128 .f32 × Vec F S1x128 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) scM5_1 (Memref.isWhole_whole _) (hA0_5 ⟨0, hn⟩ rfl) (hA1_5 ⟨0, hn⟩ rfl) (iblk5 V c 0 ⟨0, hn⟩) (iblk5 V c 1 ⟨0, hn⟩), idleOut5, idleOut5)
  | n + 1, hn =>
    if h1 : n + 1 = 24 then
      (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2,
       out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2,
       out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2)
    else
      (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hB1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2, idleOut5, idleOut5)

theorem outsAt5_A (c : Dev nD) (t : Fin cfg5.N) (h0 : t.val = 0) :
    outsAt5 V c t.val t.isLt = (out5_A_2 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hA0_5 t h0) (hA1_5 t h0) (iblk5 V c 0 t) (iblk5 V c 1 t), idleOut5, idleOut5) := by
  obtain ⟨n, hn⟩ := t
  cases n with
  | zero => rfl
  | succ n => exact absurd h0 (Nat.succ_ne_zero n)

theorem outsAt5_B (c : Dev nD) (t : Fin cfg5.N) (h0 : ¬t.val = 0) (h1 : ¬t.val = 24) :
    outsAt5 V c t.val t.isLt = (out5_B_2 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hB1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2, idleOut5, idleOut5) := by
  obtain ⟨n, hn⟩ := t
  cases n with
  | zero => exact absurd rfl h0
  | succ n => exact (dif_neg h1).trans rfl

theorem outsAt5_C (c : Dev nD) (t : Fin cfg5.N) (h0 : ¬t.val = 0) (h1 : t.val = 24) :
    outsAt5 V c t.val t.isLt = (out5_C_2 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2,
       out5_C_3 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2,
       out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the region's entry the scoped rest (both accumulators at some contents) and the generator
    register; after a point, the two accumulators at what that point left, the other scoped buffers, the register. -/
def PhiS5 (c : Dev nD) : (n : ℕ) → n ≤ cfg5.N → sProp 𝕄
  | 0, _ => Pipeline.ΦA spec5 c
  | n + 1, hn => iprop(iprop(iprop(owns (c : Thread nD τ) scM5_0 fullShare (scratchAt5 V c n hn).1 ∗ owns (c : Thread nD τ) scM5_1 fullShare (scratchAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (scratchAt5 V c n hn).1 ∗ owns (c : Thread nD τ) scM5_1 fullShare (scratchAt5 V c n hn).2) ∗ restBut5 c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (scratchAt5 V c (n - 1) (by omega)).1 ∗ owns (c : Thread nD τ) scM5_1 fullShare (scratchAt5 V c (n - 1) (by omega)).2) ∗ restBut5 c) ∗ (∃ r, prngReg c r)) := by
  cases n with
  | zero => exact absurd rfl hz
  | succ n => rfl

/-! ## The pipeline's proof data -/

/-- The arrays as the region finds them; after the body at point `t` each input's buffer at its block and the outputs'
    at `outsAt5`; the invariant `PhiS5`; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
    | ⟨4, _⟩ => (outsAt5 V c t.val t.isLt).2.2
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]
theorem after5_4 (c : Dev nD) (t : Fin cfg5.N) : (dat5 V c).after 4 t = (outsAt5 V c t.val t.isLt).2.2 := by dsimp only [dat5]

end Cert.Kernel.Hand

end
-- ==== Proof.K.Reg6Dat.lean ====
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 6: the blocks its windows hold, what its body leaves, and its proof data -/

/-- The block of window `w` at grid point `t`: the part of the window's array, as the region finds it, that
    the window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! The rectangles the body reads and writes: each is a whole staging buffer. -/
abbrev r6_0 : Rect S2000x128 := Rect.unit (s := S2000x128) ![0, 0] S2000x128.size inb_S2000x128_S2000x128_0_0
abbrev r6_1 : Rect S1x128 := Rect.unit (s := S1x128) ![0, 0] S1x128.size inb_S1x128_S1x128_0_0

/-- What the body leaves in the output window's buffer, as a function of the input blocks: its single store covers
    the whole buffer, and stores the payload computed from the whole-buffer loads of the inputs. -/
def out6_5 (x0 : Vec F S2000x128 .f32) (x1 : Vec F S1x128 .f32) (x2 : Vec F S1x128 .f32) (x3 : Vec F S1x128 .f32) (x4 : Vec F S1x128 .f32) : Vec F S2000x128 .f32 :=
  View.canon [⟨r6_0, k6_pay1 (View.ld x0 r6_0) (View.ld x1 r6_1) (View.ld x2 r6_1) (View.ld x3 r6_1) (View.ld x4 r6_1)⟩]

/-- The proof data of the region on core `c`: the arrays are the entry contents; after the body at point `t`
    every input buffer still holds its block and the output buffer holds `out6_5` of the input blocks; the
    invariant is the one of a body that touches nothing but its windows; full shares, nothing owed. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The arrays of the proof data are the entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- The invariant does not depend on the point. -/
theorem Phi6_eq (c : Dev nD) (t) : (dat6 V c).Φ t = Pipeline.ΦA spec6 c := rfl

end Cert.Kernel.Hand
-- ==== Proof.K.Reg7Dat.lean ====
/-
  Region 7: the fused projection h · wcat + bcat, cut by columns into k (0:128, rounded to bf16),
  qv (128:384, rounded to bf16) and s (384:512, kept in f32). Definitions only: each window's block
  at a grid point read off the region-entry contents, what the body leaves in each output buffer as a
  function of the three input blocks, and the proof data of the pipeline over them.
-/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the region-entry contents of the core's buffers: a parameter, fixed by whoever assembles the run
variable (V : (c : Dev nD) → (b : Ref sig .tc) → Buf (Elt F) ((c : Thread nD τ).loc b))

/-! ## The windows' blocks -/

/-- Window `w`'s block at point `t`: the rows `2000 t … 2000 t + 1999` of the activations and of the three
    outputs, the whole of the weights and of the bias, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: every load and store takes its whole buffer -/

abbrev r7_0 : Rect S2000x128 := Rect.unit (s := S2000x128) ![0, 0] S2000x128.size inb_S2000x128_S2000x128_0_0
abbrev r7_1 : Rect S128x512 := Rect.unit (s := S128x512) ![0, 0] S128x512.size inb_S128x512_S128x512_0_0
abbrev r7_2 : Rect S1x512 := Rect.unit (s := S1x512) ![0, 0] S1x512.size inb_S1x512_S1x512_0_0
abbrev r7_3 : Rect S2000x256 := Rect.unit (s := S2000x256) ![0, 0] S2000x256.size inb_S2000x256_S2000x256_0_0

/-! ## What the body leaves in each output buffer -/

/-- The k block: columns 0:128 of `h · wcat + bcat` rounded to bf16 — one store over the whole buffer. -/
def out7_3 (x0 : Vec F S2000x128 .f32) (x1 : Vec F S128x512 .bf16) (x2 : Vec F S1x512 .f32) : Vec F S2000x128 .bf16 :=
  View.canon [⟨r7_0, k7_pay2 (View.ld x0 r7_0) (View.ld x1 r7_1) (View.ld x2 r7_2)⟩]

/-- The qv block: columns 128:384 rounded to bf16 — one store over the whole buffer. -/
def out7_4 (x0 : Vec F S2000x128 .f32) (x1 : Vec F S128x512 .bf16) (x2 : Vec F S1x512 .f32) : Vec F S2000x256 .bf16 :=
  View.canon [⟨r7_3, k7_pay3 (View.ld x0 r7_0) (View.ld x1 r7_1) (View.ld x2 r7_2)⟩]

/-- The s block: columns 384:512 in f32 — one store over the whole buffer. -/
def out7_5 (x0 : Vec F S2000x128 .f32) (x1 : Vec F S128x512 .bf16) (x2 : Vec F S1x512 .f32) : Vec F S2000x128 .f32 :=
  View.canon [⟨r7_0, k7_pay4 (View.ld x0 r7_0) (View.ld x1 r7_1) (View.ld x2 r7_2)⟩]

/-! ## The pipeline's proof data -/

/-- The arrays as the region finds them; after the body at point `t` each input buffer still at its block and each
    output buffer at its function of the three input blocks; the invariant is the untouched scoped rest and generator
    register; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
    | ⟨5, _⟩ => out7_5 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]
theorem after7_5 (c : Dev nD) (t : Fin cfg7.N) : (dat7 V c).after 5 t = out7_5 (iblk7 V c 0 t) (iblk7 V c 1 t) (iblk7 V c 2 t) := by dsimp only [dat7]

/-- The invariant is the same at every point: the body touches neither the scoped rest nor the generator register. -/
theorem Phi7_eq (c : Dev nD) (t : Fin (cfg7.N + 1)) : (dat7 V c).Φ t = Pipeline.ΦA spec7 c := rfl

end Cert.Kernel.Hand
-- ==== Proof.K.Reg8Runs.lean ====
/- Region 8 (the fused add and column statistics): what the three cases of the body share. The body adds its two
   input blocks into the output block at every point, and keeps two row accumulators (the column sums of the
   block and of its squares) in buffers of its own between points: zeroed at the first point, copied into the
   two one-row outputs at the last. The cases: A the first point, B a middle point, C the last point. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current buffer holds its block at every point, fetched there or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- "This is the first point" as the body computes it. -/
abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)
/-- "This is the last point" as the body computes it. -/
abbrev cond8_1 (i : grid8.Coords) : Prop := k8_cond2 i = 1#1
theorem hcond8_1 : ∀ t : Fin cfg8.N, cond8_1 (grid8.coords t) ↔ t.val = 24 :=
  (by decide +kernel : ∀ t : Fin grid8.N, cond8_1 (grid8.coords t) ↔ t.val = 24)

theorem hA0_8 (t : Fin cfg8.N) (h : t.val = 0) : cond8_0 (grid8.coords t) := (hcond8_0 t).mpr h
theorem hA1_8 (t : Fin cfg8.N) (h : t.val = 0) : ¬cond8_1 (grid8.coords t) := fun h' => by have := (hcond8_1 t).mp h'; omega
theorem hB0_8 (t : Fin cfg8.N) (h : ¬t.val = 0) : ¬cond8_0 (grid8.coords t) := fun h' => h ((hcond8_0 t).mp h')
theorem hB1_8 (t : Fin cfg8.N) (h : ¬t.val = 24) : ¬cond8_1 (grid8.coords t) := fun h' => h ((hcond8_1 t).mp h')
theorem hC1_8 (t : Fin cfg8.N) (h : t.val = 24) : cond8_1 (grid8.coords t) := (hcond8_1 t).mpr h

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- Away from the last point the two one-row outputs are idle and not written back. -/
theorem idleAt8_3 : ∀ t : Fin cfg8.N, ¬cond8_1 (grid8.coords t) → cfg8.idle 3 (grid8.coords t) = true := by decide +kernel
theorem noFlush8_3 : ∀ t : Fin cfg8.N, ¬cond8_1 (grid8.coords t) → (cfg8.win 3).flush t = false := by decide +kernel
theorem idleAt8_4 : ∀ t : Fin cfg8.N, ¬cond8_1 (grid8.coords t) → cfg8.idle 4 (grid8.coords t) = true := by decide +kernel
theorem noFlush8_4 : ∀ t : Fin cfg8.N, ¬cond8_1 (grid8.coords t) → (cfg8.win 4).flush t = false := by decide +kernel
/-- At the last point they are live. -/
theorem liveAt8_3 : ∀ t : Fin cfg8.N, cond8_1 (grid8.coords t) → cfg8.idle 3 (grid8.coords t) = false := by decide +kernel
theorem liveAt8_4 : ∀ t : Fin cfg8.N, cond8_1 (grid8.coords t) → cfg8.idle 4 (grid8.coords t) = false := by decide +kernel

/-! ## The buffers the body is called on -/

/-- One staging buffer per output window, through which its contents are stated. -/
abbrev VO8_2 : View sig .tc .vmem S2000x128 .f32 := (Memref.whole cc8_stg2_0 : Memref sig .tc .vmem S2000x128 .f32).view
abbrev VO8_3 : View sig .tc .vmem S1x128 .f32 := (Memref.whole cc8_stg3_0 : Memref sig .tc .vmem S1x128 .f32).view
abbrev VO8_4 : View sig .tc .vmem S1x128 .f32 := (Memref.whole cc8_stg4_0 : Memref sig .tc .vmem S1x128 .f32).view
/-- Each window's current staging buffer at point `t`, and its wholeness. -/
abbrev ms8_0 (t : Fin cfg8.N) : Memref sig .tc .vmem S2000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2000x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
/-- The two accumulators: whole buffers of the body's own, passed beside the windows. -/
abbrev scM8_0 : Memref sig .tc .vmem S1x128 .f32 := Memref.whole cc8_scratch0
abbrev scM8_1 : Memref sig .tc .vmem S1x128 .f32 := Memref.whole cc8_scratch1
abbrev VS8_0 : View sig .tc .vmem S1x128 .f32 := scM8_0.view
abbrev VS8_1 : View sig .tc .vmem S1x128 .f32 := scM8_1.view

/-- Every scoped buffer of the core that is not one of this region's staging buffers nor one of its two accumulators. -/
abbrev restBut8 (c : Dev nD) : sProp 𝕄 :=
  Pipeline.scopedRestBut (Ix := Unit) (Name := ℕ) (U := Pipeline.UD sig nD τ) (Lvl := ℕ) (Val := Elt F) spec8 c [cc8_scratch0, cc8_scratch1]

/-- The region's entry invariant with the two accumulators split out of the scoped rest, each at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ restBut8 c) ∗ (∃ r, prngReg c r)) := by
  unfold Pipeline.ΦA; rw [scopedRest8_split]; simp only [scM8_0, scM8_1, owns_whole]; try rfl

end Cert.Kernel.Hand

end
-- ==== Proof.K.Reg8RunA.lean ====
/- Region 8, case A: the body's run at the first point (both accumulators zeroed, then the block's column sums added; the one-row outputs untouched). -/
import proofs.«180311_j29308856828500_2_alg».proof.Proof.K.Reg8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun8_A (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc8__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc8__fuse_stats_kernel_eq_skeleton]; unfold cc8__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.Kernel.Hand

end
-- ==== Proof.K.Reg8RunB.lean ====
/- Region 8, case B: the body's run at a middle point (the block's column sums added onto what the point before left; the one-row outputs untouched). -/
import proofs.«180311_j29308856828500_2_alg».proof.Proof.K.Reg8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun8_B (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc8__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc8__fuse_stats_kernel_eq_skeleton]; unfold cc8__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.Kernel.Hand

end
-- ==== Proof.K.Reg8RunC.lean ====
/- Region 8, case C: the body's run at the last point (the column sums added, then both accumulators copied into the one-row outputs). -/
import proofs.«180311_j29308856828500_2_alg».proof.Proof.K.Reg8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun8_C (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc8__fuse_stats_kernel i arg1 harg1 arg2 harg2 arg3 harg3 arg4 harg4 arg5 harg5 arg6 harg6 arg7 harg7) K } := by
  refine ⟨?_, ?_, ?_, ?_, ?_, fun E K => ?run⟩
  case run =>
    simp only [cc8__fuse_stats_kernel_eq_skeleton]; unfold cc8__fuse_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Hand

end
-- ==== Proof.K.Reg8Dat.lean ====
/- Region 8: what each case leaves in the outputs and in the two accumulators, the accumulation point by point,
   the region invariant and the pipeline's proof data. -/
import proofs.«180311_j29308856828500_2_alg».proof.Proof.K.Reg8RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Case A's stores into output 2 cover its block. -/
theorem cover8_A_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) (y : S2000x128.Idx) :
    ∃ pc ∈ (kernelRun8_A c i arg1 harg1 arg2 harg2 arg3 harg3 arg4 harg4 arg5 harg5 arg6 harg6 arg7 harg7 hc0 hc1 x0 x1).1, y ∈ pc.1.set :=
  View.cover_of_tiledL (kernelRun8_A c i arg1 harg1 arg2 harg2 arg3 harg3 arg4 harg4 arg5 harg5 arg6 harg6 arg7 harg7 hc0 hc1 x0 x1).1 S2000x128.size (by sl_kernel_rfl) y

/-- What case A leaves in output 2's staging buffer: its pieces read back. -/
def out8_A_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) : Vec F S2000x128 .f32 :=
  VO8_2.read (Elt F) (VO8_2.writes (Elt F) VO8_2.junk (kernelRun8_A c i arg1 harg1 arg2 harg2 arg3 harg3 arg4 harg4 arg5 harg5 arg6 harg6 arg7 harg7 hc0 hc1 x0 x1).1)

/-- Case A's stores into accumulator 0 cover it. -/
theorem scover8_A_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) (y : S1x128.Idx) :
    ∃ pc ∈ (kernelRun8_A c i arg1 harg1 arg2 harg2 arg3 harg3 arg4 harg4 arg5 harg5 arg6 harg6 arg7 harg7 hc0 hc1 x0 x1).2.2.2.1, y ∈ pc.1.set :=
  View.cover_of_tiledL (kernelRun8_A c i arg1 harg1 arg2 harg2 arg3 harg3 arg4 harg4 arg5 harg5 arg6 harg6 arg7 harg7 hc0 hc1 x0 x1).2.2.2.1 S1x128.size (by sl_kernel_rfl) y

/-- What case A leaves in accumulator 0: its pieces read back. -/
def sout8_A_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) : Vec F S1x128 .f32 :=
  VS8_0.read (Elt F) (VS8_0.writes (Elt F) VS8_0.junk (kernelRun8_A c i arg1 harg1 arg2 harg2 arg3 harg3 arg4 harg4 arg5 harg5 arg6 harg6 arg7 harg7 hc0 hc1 x0 x1).2.2.2.1)

/-- Case A's stores into accumulator 1 cover it. -/
theorem scover8_A_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) (y : S1x128.Idx) :
    ∃ pc ∈ (kernelRun8_A c i arg1 harg1 arg2 harg2 arg3 harg3 arg4 harg4 arg5 harg5 arg6 harg6 arg7 harg7 hc0 hc1 x0 x1).2.2.2.2.1, y ∈ pc.1.set :=
  View.cover_of_tiledL (kernelRun8_A c i arg1 harg1 arg2 harg2 arg3 harg3 arg4 harg4 arg5 harg5 arg6 harg6 arg7 harg7 hc0 hc1 x0 x1).2.2.2.2.1 S1x128.size (by sl_kernel_rfl) y

/-- What case A leaves in accumulator 1: its pieces read back. -/
def sout8_A_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) : Vec F S1x128 .f32 :=
  VS8_1.read (Elt F) (VS8_1.writes (Elt F) VS8_1.junk (kernelRun8_A c i arg1 harg1 arg2 harg2 arg3 harg3 arg4 harg4 arg5 harg5 arg6 harg6 arg7 harg7 hc0 hc1 x0 x1).2.2.2.2.1)

/-- Case B's stores into output 2 cover its block. -/
theorem cover8_B_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) (y : S2000x128.Idx) :
    ∃ pc ∈ (kernelRun8_B c i arg1 harg1 arg2 harg2 arg3 harg3 arg4 harg4 arg5 harg5 arg6 harg6 arg7 harg7 hc0 hc1 x0 x1 xs0 xs1).1, y ∈ pc.1.set :=
  View.cover_of_tiledL (kernelRun8_B c i arg1 harg1 arg2 harg2 arg3 harg3 arg4 harg4 arg5 harg5 arg6 harg6 arg7 harg7 hc0 hc1 x0 x1 xs0 xs1).1 S2000x128.size (by sl_kernel_rfl) y

/-- What case B leaves in output 2's staging buffer: its pieces read back. -/
def out8_B_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) : Vec F S2000x128 .f32 :=
  VO8_2.read (Elt F) (VO8_2.writes (Elt F) VO8_2.junk (kernelRun8_B c i arg1 harg1 arg2 harg2 arg3 harg3 arg4 harg4 arg5 harg5 arg6 harg6 arg7 harg7 hc0 hc1 x0 x1 xs0 xs1).1)

/-- Case B's stores into accumulator 0 cover it. -/
theorem scover8_B_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 hc0 hc1 x0 x1 xs0 xs1).2.2.2.1, y ∈ pc.1.set :=
  View.cover_of_tiledL (kernelRun8_B c i arg1 harg1 arg2 harg2 arg3 harg3 arg4 harg4 arg5 harg5 arg6 harg6 arg7 harg7 hc0 hc1 x0 x1 xs0 xs1).2.2.2.1 S1x128.size (by sl_kernel_rfl) y

/-- What case B leaves in accumulator 0: its pieces read back. -/
def sout8_B_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) : Vec F S1x128 .f32 :=
  VS8_0.read (Elt F) (VS8_0.writes (Elt F) VS8_0.junk (kernelRun8_B c i arg1 harg1 arg2 harg2 arg3 harg3 arg4 harg4 arg5 harg5 arg6 harg6 arg7 harg7 hc0 hc1 x0 x1 xs0 xs1).2.2.2.1)

/-- Case B's stores into accumulator 1 cover it. -/
theorem scover8_B_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 hc0 hc1 x0 x1 xs0 xs1).2.2.2.2.1, y ∈ pc.1.set :=
  View.cover_of_tiledL (kernelRun8_B c i arg1 harg1 arg2 harg2 arg3 harg3 arg4 harg4 arg5 harg5 arg6 harg6 arg7 harg7 hc0 hc1 x0 x1 xs0 xs1).2.2.2.2.1 S1x128.size (by sl_kernel_rfl) y

/-- What case B leaves in accumulator 1: its pieces read back. -/
def sout8_B_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) : Vec F S1x128 .f32 :=
  VS8_1.read (Elt F) (VS8_1.writes (Elt F) VS8_1.junk (kernelRun8_B c i arg1 harg1 arg2 harg2 arg3 harg3 arg4 harg4 arg5 harg5 arg6 harg6 arg7 harg7 hc0 hc1 x0 x1 xs0 xs1).2.2.2.2.1)

/-- Case C's stores into output 2 cover its block. -/
theorem cover8_C_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S2000x128.Idx) :
    ∃ pc ∈ (kernelRun8_C c i arg1 harg1 arg2 harg2 arg3 harg3 arg4 harg4 arg5 harg5 arg6 harg6 arg7 harg7 hc0 hc1 x0 x1 xs0 xs1).1, y ∈ pc.1.set :=
  View.cover_of_tiledL (kernelRun8_C c i arg1 harg1 arg2 harg2 arg3 harg3 arg4 harg4 arg5 harg5 arg6 harg6 arg7 harg7 hc0 hc1 x0 x1 xs0 xs1).1 S2000x128.size (by sl_kernel_rfl) y

/-- What case C leaves in output 2's staging buffer: its pieces read back. -/
def out8_C_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S2000x128 .f32 :=
  VO8_2.read (Elt F) (VO8_2.writes (Elt F) VO8_2.junk (kernelRun8_C c i arg1 harg1 arg2 harg2 arg3 harg3 arg4 harg4 arg5 harg5 arg6 harg6 arg7 harg7 hc0 hc1 x0 x1 xs0 xs1).1)

/-- Case C's stores into output 3 cover its block. -/
theorem cover8_C_3 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.1, y ∈ pc.1.set :=
  View.cover_of_tiledL (kernelRun8_C c i arg1 harg1 arg2 harg2 arg3 harg3 arg4 harg4 arg5 harg5 arg6 harg6 arg7 harg7 hc0 hc1 x0 x1 xs0 xs1).2.1 S1x128.size (by sl_kernel_rfl) y

/-- What case C leaves in output 3's staging buffer: its pieces read back. -/
def out8_C_3 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VO8_3.read (Elt F) (VO8_3.writes (Elt F) VO8_3.junk (kernelRun8_C c i arg1 harg1 arg2 harg2 arg3 harg3 arg4 harg4 arg5 harg5 arg6 harg6 arg7 harg7 hc0 hc1 x0 x1 xs0 xs1).2.1)

/-- Case C's stores into output 4 cover its block. -/
theorem cover8_C_4 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.2.1, y ∈ pc.1.set :=
  View.cover_of_tiledL (kernelRun8_C c i arg1 harg1 arg2 harg2 arg3 harg3 arg4 harg4 arg5 harg5 arg6 harg6 arg7 harg7 hc0 hc1 x0 x1 xs0 xs1).2.2.1 S1x128.size (by sl_kernel_rfl) y

/-- What case C leaves in output 4's staging buffer: its pieces read back. -/
def out8_C_4 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VO8_4.read (Elt F) (VO8_4.writes (Elt F) VO8_4.junk (kernelRun8_C c i arg1 harg1 arg2 harg2 arg3 harg3 arg4 harg4 arg5 harg5 arg6 harg6 arg7 harg7 hc0 hc1 x0 x1 xs0 xs1).2.2.1)

/-- Case C's stores into accumulator 0 cover it. -/
theorem scover8_C_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.2.2.1, y ∈ pc.1.set :=
  View.cover_of_tiledL (kernelRun8_C c i arg1 harg1 arg2 harg2 arg3 harg3 arg4 harg4 arg5 harg5 arg6 harg6 arg7 harg7 hc0 hc1 x0 x1 xs0 xs1).2.2.2.1 S1x128.size (by sl_kernel_rfl) y

/-- What case C leaves in accumulator 0: its pieces read back. -/
def sout8_C_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VS8_0.read (Elt F) (VS8_0.writes (Elt F) VS8_0.junk (kernelRun8_C c i arg1 harg1 arg2 harg2 arg3 harg3 arg4 harg4 arg5 harg5 arg6 harg6 arg7 harg7 hc0 hc1 x0 x1 xs0 xs1).2.2.2.1)

/-- Case C's stores into accumulator 1 cover it. -/
theorem scover8_C_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.2.2.2.1, y ∈ pc.1.set :=
  View.cover_of_tiledL (kernelRun8_C c i arg1 harg1 arg2 harg2 arg3 harg3 arg4 harg4 arg5 harg5 arg6 harg6 arg7 harg7 hc0 hc1 x0 x1 xs0 xs1).2.2.2.2.1 S1x128.size (by sl_kernel_rfl) y

/-- What case C leaves in accumulator 1: its pieces read back. -/
def sout8_C_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VS8_1.read (Elt F) (VS8_1.writes (Elt F) VS8_1.junk (kernelRun8_C c i arg1 harg1 arg2 harg2 arg3 harg3 arg4 harg4 arg5 harg5 arg6 harg6 arg7 harg7 hc0 hc1 x0 x1 xs0 xs1).2.2.2.2.1)

/-! ## Point by point -/

/-- A placeholder for a one-row output's buffer at a point where it is idle: nothing consults it. -/
def idleOut8 : Vec F S1x128 .f32 := VO8_3.read (Elt F) VO8_3.junk

/-- THE ACCUMULATION. What the two accumulators hold after the body at position `n`: at the first point what case A
    leaves from zeroed accumulators; afterwards what case B (C at the last point) leaves over what the point before left —
    each point adds the column sums of its block `s + agg` (and of the block's squares) onto them. -/
def scratchAt8 (c : Dev nD) : (n : ℕ) → n < cfg8.N → Vec F S1x128 .f32 × Vec F S1x128 .f32
  | 0, hn => (sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) (hA0_8 ⟨0, hn⟩ rfl) (hA1_8 ⟨0, hn⟩ rfl) (iblk8 V c 0 ⟨0, hn⟩) (iblk8 V c 1 ⟨0, hn⟩), sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) (hA0_8 ⟨0, hn⟩ rfl) (hA1_8 ⟨0, hn⟩ rfl) (iblk8 V c 0 ⟨0, hn⟩) (iblk8 V c 1 ⟨0, hn⟩))
  | n + 1, hn =>
    if h1 : n + 1 = 24 then
      (sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2, sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2)
    else
      (sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hB1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2, sout8_B_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hB1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2)

theorem scratchAt8_A (c : Dev nD) (t : Fin cfg8.N) (h0 : t.val = 0) :
    scratchAt8 V c t.val t.isLt = (sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hA0_8 t h0) (hA1_8 t h0) (iblk8 V c 0 t) (iblk8 V c 1 t), sout8_A_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hA0_8 t h0) (hA1_8 t h0) (iblk8 V c 0 t) (iblk8 V c 1 t)) := by
  obtain ⟨n, hn⟩ := t
  cases n with
  | zero => rfl
  | succ n => exact absurd h0 (Nat.succ_ne_zero n)

theorem scratchAt8_B (c : Dev nD) (t : Fin cfg8.N) (h0 : ¬t.val = 0) (h1 : ¬t.val = 24) :
    scratchAt8 V c t.val t.isLt = (sout8_B_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hB1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2, sout8_B_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hB1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2) := by
  obtain ⟨n, hn⟩ := t
  cases n with
  | zero => exact absurd rfl h0
  | succ n => exact (dif_neg h1).trans rfl

theorem scratchAt8_C (c : Dev nD) (t : Fin cfg8.N) (h0 : ¬t.val = 0) (h1 : t.val = 24) :
    scratchAt8 V c t.val t.isLt = (sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2, sout8_C_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2) := by
  obtain ⟨n, hn⟩ := t
  cases n with
  | zero => exact absurd rfl h0
  | succ n => exact (dif_pos h1).trans rfl

/-- What the three outputs' staging buffers hold after the body at position `n`: the block `s + agg` in output 2 at every
    point; at the last point the two accumulators' final contents in outputs 3 and 4 (elsewhere a placeholder). -/
def outsAt8 (c : Dev nD) : (n : ℕ) → n < cfg8.N → Vec F S2000x128 .f32 × Vec F S1x128 .f32 × Vec F S1x128 .f32
  | 0, hn => (out8_A_2 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) (hA0_8 ⟨0, hn⟩ rfl) (hA1_8 ⟨0, hn⟩ rfl) (iblk8 V c 0 ⟨0, hn⟩) (iblk8 V c 1 ⟨0, hn⟩), idleOut8, idleOut8)
  | n + 1, hn =>
    if h1 : n + 1 = 24 then
      (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2,
       out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2,
       out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2)
    else
      (out8_B_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hB1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2, idleOut8, idleOut8)

theorem outsAt8_A (c : Dev nD) (t : Fin cfg8.N) (h0 : t.val = 0) :
    outsAt8 V c t.val t.isLt = (out8_A_2 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hA0_8 t h0) (hA1_8 t h0) (iblk8 V c 0 t) (iblk8 V c 1 t), idleOut8, idleOut8) := by
  obtain ⟨n, hn⟩ := t
  cases n with
  | zero => rfl
  | succ n => exact absurd h0 (Nat.succ_ne_zero n)

theorem outsAt8_B (c : Dev nD) (t : Fin cfg8.N) (h0 : ¬t.val = 0) (h1 : ¬t.val = 24) :
    outsAt8 V c t.val t.isLt = (out8_B_2 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hB1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2, idleOut8, idleOut8) := by
  obtain ⟨n, hn⟩ := t
  cases n with
  | zero => exact absurd rfl h0
  | succ n => exact (dif_neg h1).trans rfl

theorem outsAt8_C (c : Dev nD) (t : Fin cfg8.N) (h0 : ¬t.val = 0) (h1 : t.val = 24) :
    outsAt8 V c t.val t.isLt = (out8_C_2 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2,
       out8_C_3 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2,
       out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the region's entry the scoped rest (both accumulators at some contents) and the generator
    register; after a point, the two accumulators at what that point left, the other scoped buffers, the register. -/
def PhiS8 (c : Dev nD) : (n : ℕ) → n ≤ cfg8.N → sProp 𝕄
  | 0, _ => Pipeline.ΦA spec8 c
  | n + 1, hn => iprop(iprop(iprop(owns (c : Thread nD τ) scM8_0 fullShare (scratchAt8 V c n hn).1 ∗ owns (c : Thread nD τ) scM8_1 fullShare (scratchAt8 V c n hn).2) ∗ restBut8 c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (scratchAt8 V c n hn).1 ∗ owns (c : Thread nD τ) scM8_1 fullShare (scratchAt8 V c n hn).2) ∗ restBut8 c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (scratchAt8 V c (n - 1) (by omega)).1 ∗ owns (c : Thread nD τ) scM8_1 fullShare (scratchAt8 V c (n - 1) (by omega)).2) ∗ restBut8 c) ∗ (∃ r, prngReg c r)) := by
  cases n with
  | zero => exact absurd rfl hz
  | succ n => rfl

/-! ## The pipeline's proof data -/

/-- The arrays as the region finds them; after the body at point `t` each input's buffer at its block and the outputs'
    at `outsAt8`; the invariant `PhiS8`; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
    | ⟨3, _⟩ => (outsAt8 V c t.val t.isLt).2.1
    | ⟨4, _⟩ => (outsAt8 V c t.val t.isLt).2.2
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem after8_3 (c : Dev nD) (t : Fin cfg8.N) : (dat8 V c).after 3 t = (outsAt8 V c t.val t.isLt).2.1 := by dsimp only [dat8]
theorem after8_4 (c : Dev nD) (t : Fin cfg8.N) : (dat8 V c).after 4 t = (outsAt8 V c t.val t.isLt).2.2 := by dsimp only [dat8]

end Cert.Kernel.Hand

end
-- ==== Proof.K.Reg9Dat.lean ====
/- Region 9 (normalise, rectify, project onto the 32 head columns, add the head bias): the windows' blocks,
   what the body leaves in the output window, and the proof data of the pipeline, all at the contents `V` the
   region is entered with. Definitions only. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rectangles the body reads and writes through: each is the whole of its buffer (the 2000×128 rows; a 1×128
    row vector; the 128×32 head weights; the 1×32 head bias; the 2000×32 result). -/
abbrev r9_0 : Rect S2000x128 := Rect.unit (s := S2000x128) ![0, 0] S2000x128.size inb_S2000x128_S2000x128_0_0
abbrev r9_1 : Rect S1x128 := Rect.unit (s := S1x128) ![0, 0] S1x128.size inb_S1x128_S1x128_0_0
abbrev r9_2 : Rect S128x32 := Rect.unit (s := S128x32) ![0, 0] S128x32.size inb_S128x32_S128x32_0_0
abbrev r9_3 : Rect S1x32 := Rect.unit (s := S1x32) ![0, 0] S1x32.size inb_S1x32_S1x32_0_0
abbrev r9_4 : Rect S2000x32 := Rect.unit (s := S2000x32) ![0, 0] S2000x32.size inb_S2000x32_S2000x32_0_0

/-- The output block after the body, from the seven input blocks (rows `x0`, mean `x1`, variance `x2`, scale `x3`,
    shift `x4`, head weights `x5`, head bias `x6`): its single store, as one piece. -/
def out9_7 (x0 : Vec F S2000x128 .f32) (x1 : Vec F S1x128 .f32) (x2 : Vec F S1x128 .f32) (x3 : Vec F S1x128 .f32) (x4 : Vec F S1x128 .f32)
    (x5 : Vec F S128x32 .bf16) (x6 : Vec F S1x32 .f32) : Vec F S2000x32 .f32 :=
  View.canon [⟨r9_4, k9_pay1 (View.ld x0 r9_0) (View.ld x1 r9_1) (View.ld x2 r9_1) (View.ld x3 r9_1) (View.ld x4 r9_1) (View.ld x5 r9_2) (View.ld x6 r9_3)⟩]

/-- The proof data of pipeline 9 on core `c`: the arrays as entered; after the body at point `t` every input
    window at its block and the output window at `out9_7` of the input blocks; the invariant that of a body
    touching nothing but its windows; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t
    = out9_7 (iblk9 V c 0 t) (iblk9 V c 1 t) (iblk9 V c 2 t) (iblk9 V c 3 t) (iblk9 V c 4 t) (iblk9 V c 5 t) (iblk9 V c 6 t) := by dsimp only [dat9]

/-- The invariant is the same at every point. -/
theorem Phi9_eq (c : Dev nD) (t : Fin (cfg9.N + 1)) : (dat9 V c).Φ t = Pipeline.ΦA spec9 c := rfl

end Cert.Kernel.Hand

end
-- ==== Proof.K.Bounds.lean ====
/- The buffer contents at every boundary between two items of the program (a host stretch or a kernel region),
   as a fold from the launch memory: a host stretch applies its operations; a region replaces its output arrays
   by what its write-backs leave and changes nothing else. Then the family of proof data, one per region, each
   at the contents its region is entered with. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.Gen.Kernel.Regions
import proofs.«180311_j29308856828500_2_alg».proof.Proof.K.Reg0Dat
import proofs.«180311_j29308856828500_2_alg».proof.Proof.K.Reg1Dat
import proofs.«180311_j29308856828500_2_alg».proof.Proof.K.Reg2Dat
import proofs.«180311_j29308856828500_2_alg».proof.Proof.K.Reg3Dat
import proofs.«180311_j29308856828500_2_alg».proof.Proof.K.Reg4Dat
import proofs.«180311_j29308856828500_2_alg».proof.Proof.K.Reg5Dat
import proofs.«180311_j29308856828500_2_alg».proof.Proof.K.Reg6Dat
import proofs.«180311_j29308856828500_2_alg».proof.Proof.K.Reg7Dat
import proofs.«180311_j29308856828500_2_alg».proof.Proof.K.Reg8Dat
import proofs.«180311_j29308856828500_2_alg».proof.Proof.K.Reg9Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The contents at each boundary -/

/-- After the first host stretch: what region 0 is entered with. -/
def W1 (c : Dev nD) : Valuation τ sig (Elt F) := Gen.V1 m c

/-! ### Region 0 -/

/-- What region 0's write-backs leave in `main_v6`. -/
def O2 (c : Dev nD) : Buf (Elt F) ((c : Thread nD τ).loc main_v6) := (dat0 (fun c b => W1 m c b) c).arrAt 3 cfg0.N
/-- At region 0's exit: its output array replaced, every other buffer as entered. -/
def W2 (c : Dev nD) : Valuation τ sig (Elt F) := Function.update (W1 m c) main_v6 (O2 m c)
/-- After the host stretch that follows: what region 1 is entered with. -/
def W3 (c : Dev nD) : Valuation τ sig (Elt F) := StableHlo.after hostOps1 (W2 m c)

/-! ### Region 1 -/

/-- What region 1's write-backs leave in `main_v16_0`. -/
def O4_0 (c : Dev nD) : Buf (Elt F) ((c : Thread nD τ).loc main_v16_0) := (dat1 (fun c b => W3 m c b) c).arrAt 3 cfg1.N
/-- What region 1's write-backs leave in `main_v16_1`. -/
def O4_1 (c : Dev nD) : Buf (Elt F) ((c : Thread nD τ).loc main_v16_1) := (dat1 (fun c b => W3 m c b) c).arrAt 4 cfg1.N
/-- What region 1's write-backs leave in `main_v16_2`. -/
def O4_2 (c : Dev nD) : Buf (Elt F) ((c : Thread nD τ).loc main_v16_2) := (dat1 (fun c b => W3 m c b) c).arrAt 5 cfg1.N
/-- At region 1's exit: its output arrays replaced, every other buffer as entered. -/
def W4 (c : Dev nD) : Valuation τ sig (Elt F) := Function.update (Function.update (Function.update (W3 m c) main_v16_0 (O4_0 m c)) main_v16_1 (O4_1 m c)) main_v16_2 (O4_2 m c)
/-- After the host stretch that follows: what region 2 is entered with. -/
def W5 (c : Dev nD) : Valuation τ sig (Elt F) := StableHlo.after hostOps2 (W4 m c)

/-! ### Region 2 -/

/-- What region 2's write-backs leave in `main_v47_0`. -/
def O6_0 (c : Dev nD) : Buf (Elt F) ((c : Thread nD τ).loc main_v47_0) := (dat2 (fun c b => W5 m c b) c).arrAt 2 cfg2.N
/-- What region 2's write-backs leave in `main_v47_1`. -/
def O6_1 (c : Dev nD) : Buf (Elt F) ((c : Thread nD τ).loc main_v47_1) := (dat2 (fun c b => W5 m c b) c).arrAt 3 cfg2.N
/-- What region 2's write-backs leave in `main_v47_2`. -/
def O6_2 (c : Dev nD) : Buf (Elt F) ((c : Thread nD τ).loc main_v47_2) := (dat2 (fun c b => W5 m c b) c).arrAt 4 cfg2.N
/-- At region 2's exit: its output arrays replaced, every other buffer as entered. -/
def W6 (c : Dev nD) : Valuation τ sig (Elt F) := Function.update (Function.update (Function.update (W5 m c) main_v47_0 (O6_0 m c)) main_v47_1 (O6_1 m c)) main_v47_2 (O6_2 m c)
/-- After the host stretch that follows: what region 3 is entered with. -/
def W7 (c : Dev nD) : Valuation τ sig (Elt F) := StableHlo.after hostOps3 (W6 m c)

/-! ### Region 3 -/

/-- What region 3's write-backs leave in `main_v62`. -/
def O8 (c : Dev nD) : Buf (Elt F) ((c : Thread nD τ).loc main_v62) := (dat3 (fun c b => W7 m c b) c).arrAt 5 cfg3.N
/-- At region 3's exit: its output array replaced, every other buffer as entered. -/
def W8 (c : Dev nD) : Valuation τ sig (Elt F) := Function.update (W7 m c) main_v62 (O8 m c)
/-- After the host stretch that follows: what region 4 is entered with. -/
def W9 (c : Dev nD) : Valuation τ sig (Elt F) := StableHlo.after hostOps4 (W8 m c)

/-! ### Region 4 -/

/-- What region 4's write-backs leave in `main_v72_0`. -/
def O10_0 (c : Dev nD) : Buf (Elt F) ((c : Thread nD τ).loc main_v72_0) := (dat4 (fun c b => W9 m c b) c).arrAt 3 cfg4.N
/-- What region 4's write-backs leave in `main_v72_1`. -/
def O10_1 (c : Dev nD) : Buf (Elt F) ((c : Thread nD τ).loc main_v72_1) := (dat4 (fun c b => W9 m c b) c).arrAt 4 cfg4.N
/-- What region 4's write-backs leave in `main_v72_2`. -/
def O10_2 (c : Dev nD) : Buf (Elt F) ((c : Thread nD τ).loc main_v72_2) := (dat4 (fun c b => W9 m c b) c).arrAt 5 cfg4.N
/-- At region 4's exit: its output arrays replaced, every other buffer as entered. -/
def W10 (c : Dev nD) : Valuation τ sig (Elt F) := Function.update (Function.update (Function.update (W9 m c) main_v72_0 (O10_0 m c)) main_v72_1 (O10_1 m c)) main_v72_2 (O10_2 m c)
/-- After the host stretch that follows: what region 5 is entered with. -/
def W11 (c : Dev nD) : Valuation τ sig (Elt F) := StableHlo.after hostOps5 (W10 m c)

/-! ### Region 5 -/

/-- What region 5's write-backs leave in `main_v103_0`. -/
def O12_0 (c : Dev nD) : Buf (Elt F) ((c : Thread nD τ).loc main_v103_0) := (dat5 (fun c b => W11 m c b) c).arrAt 2 cfg5.N
/-- What region 5's write-backs leave in `main_v103_1`. -/
def O12_1 (c : Dev nD) : Buf (Elt F) ((c : Thread nD τ).loc main_v103_1) := (dat5 (fun c b => W11 m c b) c).arrAt 3 cfg5.N
/-- What region 5's write-backs leave in `main_v103_2`. -/
def O12_2 (c : Dev nD) : Buf (Elt F) ((c : Thread nD τ).loc main_v103_2) := (dat5 (fun c b => W11 m c b) c).arrAt 4 cfg5.N
/-- At region 5's exit: its output arrays replaced, every other buffer as entered. -/
def W12 (c : Dev nD) : Valuation τ sig (Elt F) := Function.update (Function.update (Function.update (W11 m c) main_v103_0 (O12_0 m c)) main_v103_1 (O12_1 m c)) main_v103_2 (O12_2 m c)
/-- After the host stretch that follows: what region 6 is entered with. -/
def W13 (c : Dev nD) : Valuation τ sig (Elt F) := StableHlo.after hostOps6 (W12 m c)

/-! ### Region 6 -/

/-- What region 6's write-backs leave in `main_v118`. -/
def O14 (c : Dev nD) : Buf (Elt F) ((c : Thread nD τ).loc main_v118) := (dat6 (fun c b => W13 m c b) c).arrAt 5 cfg6.N
/-- At region 6's exit: its output array replaced, every other buffer as entered. -/
def W14 (c : Dev nD) : Valuation τ sig (Elt F) := Function.update (W13 m c) main_v118 (O14 m c)
/-- After the host stretch that follows: what region 7 is entered with. -/
def W15 (c : Dev nD) : Valuation τ sig (Elt F) := StableHlo.after hostOps7 (W14 m c)

/-! ### Region 7 -/

/-- What region 7's write-backs leave in `main_v128_0`. -/
def O16_0 (c : Dev nD) : Buf (Elt F) ((c : Thread nD τ).loc main_v128_0) := (dat7 (fun c b => W15 m c b) c).arrAt 3 cfg7.N
/-- What region 7's write-backs leave in `main_v128_1`. -/
def O16_1 (c : Dev nD) : Buf (Elt F) ((c : Thread nD τ).loc main_v128_1) := (dat7 (fun c b => W15 m c b) c).arrAt 4 cfg7.N
/-- What region 7's write-backs leave in `main_v128_2`. -/
def O16_2 (c : Dev nD) : Buf (Elt F) ((c : Thread nD τ).loc main_v128_2) := (dat7 (fun c b => W15 m c b) c).arrAt 5 cfg7.N
/-- At region 7's exit: its output arrays replaced, every other buffer as entered. -/
def W16 (c : Dev nD) : Valuation τ sig (Elt F) := Function.update (Function.update (Function.update (W15 m c) main_v128_0 (O16_0 m c)) main_v128_1 (O16_1 m c)) main_v128_2 (O16_2 m c)
/-- After the host stretch that follows: what region 8 is entered with. -/
def W17 (c : Dev nD) : Valuation τ sig (Elt F) := StableHlo.after hostOps8 (W16 m c)

/-! ### Region 8 -/

/-- What region 8's write-backs leave in `main_v159_0`. -/
def O18_0 (c : Dev nD) : Buf (Elt F) ((c : Thread nD τ).loc main_v159_0) := (dat8 (fun c b => W17 m c b) c).arrAt 2 cfg8.N
/-- What region 8's write-backs leave in `main_v159_1`. -/
def O18_1 (c : Dev nD) : Buf (Elt F) ((c : Thread nD τ).loc main_v159_1) := (dat8 (fun c b => W17 m c b) c).arrAt 3 cfg8.N
/-- What region 8's write-backs leave in `main_v159_2`. -/
def O18_2 (c : Dev nD) : Buf (Elt F) ((c : Thread nD τ).loc main_v159_2) := (dat8 (fun c b => W17 m c b) c).arrAt 4 cfg8.N
/-- At region 8's exit: its output arrays replaced, every other buffer as entered. -/
def W18 (c : Dev nD) : Valuation τ sig (Elt F) := Function.update (Function.update (Function.update (W17 m c) main_v159_0 (O18_0 m c)) main_v159_1 (O18_1 m c)) main_v159_2 (O18_2 m c)
/-- After the host stretch that follows: what region 9 is entered with. -/
def W19 (c : Dev nD) : Valuation τ sig (Elt F) := StableHlo.after hostOps9 (W18 m c)

/-! ### Region 9 -/

/-- What region 9's write-backs leave in `main_v176`. -/
def O20 (c : Dev nD) : Buf (Elt F) ((c : Thread nD τ).loc main_v176) := (dat9 (fun c b => W19 m c b) c).arrAt 7 cfg9.N
/-- At region 9's exit: its output array replaced, every other buffer as entered. -/
def W20 (c : Dev nD) : Valuation τ sig (Elt F) := Function.update (W19 m c) main_v176 (O20 m c)

/-! ## The regions' results, as the conditional frame's unknowns -/

/-- What the regions leave in the buffers they may change, read off the boundary contents. -/
def outs : Gen.Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => Gen.V0 m c r

/-! ## The fold agrees with the conditional frame's valuations -/

theorem hV1 (c : Dev nD) : Gen.V1 m c = W1 m c := rfl

/-! ### Region 0 -/

theorem W2_at (c : Dev nD) : W2 m c main_v6 = O2 m c := by
  unfold W2; rw [Function.update_self]
theorem hV2 (c : Dev nD) : Gen.V2 m (outs m) c = W2 m c := by
  have h0 : outs m 2 main_v6 c = O2 m c := W2_at m c
  show Function.update (Gen.V1 m c) main_v6 (outs m 2 main_v6 c) = _
  rw [h0, hV1]; rfl
/-- Off region 0's output array nothing changes. -/
theorem W2_of (c : Dev nD) (r : Ref sig .tc) (h : r ∉ ([main_v6] : List (Ref sig .tc))) : W2 m c r = W1 m c r :=
  (congrFun (hV2 m c) r).symm.trans ((Gen.V2_of m (outs m) c r h).trans (congrFun (hV1 m c) r))
theorem hV3 (c : Dev nD) : Gen.V3 m (outs m) c = W3 m c :=
  congrArg (StableHlo.after hostOps1) (hV2 m c)

/-! ### Region 1 -/

theorem W4_at0 (c : Dev nD) : W4 m c main_v16_0 = O4_0 m c := by
  unfold W4; rw [Function.update_of_ne (StableHlo.devRef_ne_of_ne (by decide) : (Proc.devRef .tc main_v16_0 : DevRef τ sig) ≠ Proc.devRef .tc main_v16_2), Function.update_of_ne (StableHlo.devRef_ne_of_ne (by decide) : (Proc.devRef .tc main_v16_0 : DevRef τ sig) ≠ Proc.devRef .tc main_v16_1), Function.update_self]
theorem W4_at1 (c : Dev nD) : W4 m c main_v16_1 = O4_1 m c := by
  unfold W4; rw [Function.update_of_ne (StableHlo.devRef_ne_of_ne (by decide) : (Proc.devRef .tc main_v16_1 : DevRef τ sig) ≠ Proc.devRef .tc main_v16_2), Function.update_self]
theorem W4_at2 (c : Dev nD) : W4 m c main_v16_2 = O4_2 m c := by
  unfold W4; rw [Function.update_self]
theorem hV4 (c : Dev nD) : Gen.V4 m (outs m) c = W4 m c := by
  have h0 : outs m 4 main_v16_0 c = O4_0 m c := W4_at0 m c
  have h1 : outs m 4 main_v16_1 c = O4_1 m c := W4_at1 m c
  have h2 : outs m 4 main_v16_2 c = O4_2 m c := W4_at2 m c
  show Function.update (Function.update (Function.update (Gen.V3 m (outs m) c) main_v16_0 (outs m 4 main_v16_0 c)) main_v16_1 (outs m 4 main_v16_1 c)) main_v16_2 (outs m 4 main_v16_2 c) = _
  rw [h0, h1, h2, hV3]; rfl
/-- Off region 1's output arrays nothing changes. -/
theorem W4_of (c : Dev nD) (r : Ref sig .tc) (h : r ∉ ([main_v16_0, main_v16_1, main_v16_2] : List (Ref sig .tc))) : W4 m c r = W3 m c r :=
  (congrFun (hV4 m c) r).symm.trans ((Gen.V4_of m (outs m) c r h).trans (congrFun (hV3 m c) r))
theorem hV5 (c : Dev nD) : Gen.V5 m (outs m) c = W5 m c :=
  congrArg (StableHlo.after hostOps2) (hV4 m c)

/-! ### Region 2 -/

theorem W6_at0 (c : Dev nD) : W6 m c main_v47_0 = O6_0 m c := by
  unfold W6; rw [Function.update_of_ne (StableHlo.devRef_ne_of_ne (by decide) : (Proc.devRef .tc main_v47_0 : DevRef τ sig) ≠ Proc.devRef .tc main_v47_2), Function.update_of_ne (StableHlo.devRef_ne_of_ne (by decide) : (Proc.devRef .tc main_v47_0 : DevRef τ sig) ≠ Proc.devRef .tc main_v47_1), Function.update_self]
theorem W6_at1 (c : Dev nD) : W6 m c main_v47_1 = O6_1 m c := by
  unfold W6; rw [Function.update_of_ne (StableHlo.devRef_ne_of_ne (by decide) : (Proc.devRef .tc main_v47_1 : DevRef τ sig) ≠ Proc.devRef .tc main_v47_2), Function.update_self]
theorem W6_at2 (c : Dev nD) : W6 m c main_v47_2 = O6_2 m c := by
  unfold W6; rw [Function.update_self]
theorem hV6 (c : Dev nD) : Gen.V6 m (outs m) c = W6 m c := by
  have h0 : outs m 6 main_v47_0 c = O6_0 m c := W6_at0 m c
  have h1 : outs m 6 main_v47_1 c = O6_1 m c := W6_at1 m c
  have h2 : outs m 6 main_v47_2 c = O6_2 m c := W6_at2 m c
  show Function.update (Function.update (Function.update (Gen.V5 m (outs m) c) main_v47_0 (outs m 6 main_v47_0 c)) main_v47_1 (outs m 6 main_v47_1 c)) main_v47_2 (outs m 6 main_v47_2 c) = _
  rw [h0, h1, h2, hV5]; rfl
/-- Off region 2's output arrays nothing changes. -/
theorem W6_of (c : Dev nD) (r : Ref sig .tc) (h : r ∉ ([main_v47_0, main_v47_1, main_v47_2] : List (Ref sig .tc))) : W6 m c r = W5 m c r :=
  (congrFun (hV6 m c) r).symm.trans ((Gen.V6_of m (outs m) c r h).trans (congrFun (hV5 m c) r))
theorem hV7 (c : Dev nD) : Gen.V7 m (outs m) c = W7 m c :=
  congrArg (StableHlo.after hostOps3) (hV6 m c)

/-! ### Region 3 -/

theorem W8_at (c : Dev nD) : W8 m c main_v62 = O8 m c := by
  unfold W8; rw [Function.update_self]
theorem hV8 (c : Dev nD) : Gen.V8 m (outs m) c = W8 m c := by
  have h0 : outs m 8 main_v62 c = O8 m c := W8_at m c
  show Function.update (Gen.V7 m (outs m) c) main_v62 (outs m 8 main_v62 c) = _
  rw [h0, hV7]; rfl
/-- Off region 3's output array nothing changes. -/
theorem W8_of (c : Dev nD) (r : Ref sig .tc) (h : r ∉ ([main_v62] : List (Ref sig .tc))) : W8 m c r = W7 m c r :=
  (congrFun (hV8 m c) r).symm.trans ((Gen.V8_of m (outs m) c r h).trans (congrFun (hV7 m c) r))
theorem hV9 (c : Dev nD) : Gen.V9 m (outs m) c = W9 m c :=
  congrArg (StableHlo.after hostOps4) (hV8 m c)

/-! ### Region 4 -/

theorem W10_at0 (c : Dev nD) : W10 m c main_v72_0 = O10_0 m c := by
  unfold W10; rw [Function.update_of_ne (StableHlo.devRef_ne_of_ne (by decide) : (Proc.devRef .tc main_v72_0 : DevRef τ sig) ≠ Proc.devRef .tc main_v72_2), Function.update_of_ne (StableHlo.devRef_ne_of_ne (by decide) : (Proc.devRef .tc main_v72_0 : DevRef τ sig) ≠ Proc.devRef .tc main_v72_1), Function.update_self]
theorem W10_at1 (c : Dev nD) : W10 m c main_v72_1 = O10_1 m c := by
  unfold W10; rw [Function.update_of_ne (StableHlo.devRef_ne_of_ne (by decide) : (Proc.devRef .tc main_v72_1 : DevRef τ sig) ≠ Proc.devRef .tc main_v72_2), Function.update_self]
theorem W10_at2 (c : Dev nD) : W10 m c main_v72_2 = O10_2 m c := by
  unfold W10; rw [Function.update_self]
theorem hV10 (c : Dev nD) : Gen.V10 m (outs m) c = W10 m c := by
  have h0 : outs m 10 main_v72_0 c = O10_0 m c := W10_at0 m c
  have h1 : outs m 10 main_v72_1 c = O10_1 m c := W10_at1 m c
  have h2 : outs m 10 main_v72_2 c = O10_2 m c := W10_at2 m c
  show Function.update (Function.update (Function.update (Gen.V9 m (outs m) c) main_v72_0 (outs m 10 main_v72_0 c)) main_v72_1 (outs m 10 main_v72_1 c)) main_v72_2 (outs m 10 main_v72_2 c) = _
  rw [h0, h1, h2, hV9]; rfl
/-- Off region 4's output arrays nothing changes. -/
theorem W10_of (c : Dev nD) (r : Ref sig .tc) (h : r ∉ ([main_v72_0, main_v72_1, main_v72_2] : List (Ref sig .tc))) : W10 m c r = W9 m c r :=
  (congrFun (hV10 m c) r).symm.trans ((Gen.V10_of m (outs m) c r h).trans (congrFun (hV9 m c) r))
theorem hV11 (c : Dev nD) : Gen.V11 m (outs m) c = W11 m c :=
  congrArg (StableHlo.after hostOps5) (hV10 m c)

/-! ### Region 5 -/

theorem W12_at0 (c : Dev nD) : W12 m c main_v103_0 = O12_0 m c := by
  unfold W12; rw [Function.update_of_ne (StableHlo.devRef_ne_of_ne (by decide) : (Proc.devRef .tc main_v103_0 : DevRef τ sig) ≠ Proc.devRef .tc main_v103_2), Function.update_of_ne (StableHlo.devRef_ne_of_ne (by decide) : (Proc.devRef .tc main_v103_0 : DevRef τ sig) ≠ Proc.devRef .tc main_v103_1), Function.update_self]
theorem W12_at1 (c : Dev nD) : W12 m c main_v103_1 = O12_1 m c := by
  unfold W12; rw [Function.update_of_ne (StableHlo.devRef_ne_of_ne (by decide) : (Proc.devRef .tc main_v103_1 : DevRef τ sig) ≠ Proc.devRef .tc main_v103_2), Function.update_self]
theorem W12_at2 (c : Dev nD) : W12 m c main_v103_2 = O12_2 m c := by
  unfold W12; rw [Function.update_self]
theorem hV12 (c : Dev nD) : Gen.V12 m (outs m) c = W12 m c := by
  have h0 : outs m 12 main_v103_0 c = O12_0 m c := W12_at0 m c
  have h1 : outs m 12 main_v103_1 c = O12_1 m c := W12_at1 m c
  have h2 : outs m 12 main_v103_2 c = O12_2 m c := W12_at2 m c
  show Function.update (Function.update (Function.update (Gen.V11 m (outs m) c) main_v103_0 (outs m 12 main_v103_0 c)) main_v103_1 (outs m 12 main_v103_1 c)) main_v103_2 (outs m 12 main_v103_2 c) = _
  rw [h0, h1, h2, hV11]; rfl
/-- Off region 5's output arrays nothing changes. -/
theorem W12_of (c : Dev nD) (r : Ref sig .tc) (h : r ∉ ([main_v103_0, main_v103_1, main_v103_2] : List (Ref sig .tc))) : W12 m c r = W11 m c r :=
  (congrFun (hV12 m c) r).symm.trans ((Gen.V12_of m (outs m) c r h).trans (congrFun (hV11 m c) r))
theorem hV13 (c : Dev nD) : Gen.V13 m (outs m) c = W13 m c :=
  congrArg (StableHlo.after hostOps6) (hV12 m c)

/-! ### Region 6 -/

theorem W14_at (c : Dev nD) : W14 m c main_v118 = O14 m c := by
  unfold W14; rw [Function.update_self]
theorem hV14 (c : Dev nD) : Gen.V14 m (outs m) c = W14 m c := by
  have h0 : outs m 14 main_v118 c = O14 m c := W14_at m c
  show Function.update (Gen.V13 m (outs m) c) main_v118 (outs m 14 main_v118 c) = _
  rw [h0, hV13]; rfl
/-- Off region 6's output array nothing changes. -/
theorem W14_of (c : Dev nD) (r : Ref sig .tc) (h : r ∉ ([main_v118] : List (Ref sig .tc))) : W14 m c r = W13 m c r :=
  (congrFun (hV14 m c) r).symm.trans ((Gen.V14_of m (outs m) c r h).trans (congrFun (hV13 m c) r))
theorem hV15 (c : Dev nD) : Gen.V15 m (outs m) c = W15 m c :=
  congrArg (StableHlo.after hostOps7) (hV14 m c)

/-! ### Region 7 -/

theorem W16_at0 (c : Dev nD) : W16 m c main_v128_0 = O16_0 m c := by
  unfold W16; rw [Function.update_of_ne (StableHlo.devRef_ne_of_ne (by decide) : (Proc.devRef .tc main_v128_0 : DevRef τ sig) ≠ Proc.devRef .tc main_v128_2), Function.update_of_ne (StableHlo.devRef_ne_of_ne (by decide) : (Proc.devRef .tc main_v128_0 : DevRef τ sig) ≠ Proc.devRef .tc main_v128_1), Function.update_self]
theorem W16_at1 (c : Dev nD) : W16 m c main_v128_1 = O16_1 m c := by
  unfold W16; rw [Function.update_of_ne (StableHlo.devRef_ne_of_ne (by decide) : (Proc.devRef .tc main_v128_1 : DevRef τ sig) ≠ Proc.devRef .tc main_v128_2), Function.update_self]
theorem W16_at2 (c : Dev nD) : W16 m c main_v128_2 = O16_2 m c := by
  unfold W16; rw [Function.update_self]
theorem hV16 (c : Dev nD) : Gen.V16 m (outs m) c = W16 m c := by
  have h0 : outs m 16 main_v128_0 c = O16_0 m c := W16_at0 m c
  have h1 : outs m 16 main_v128_1 c = O16_1 m c := W16_at1 m c
  have h2 : outs m 16 main_v128_2 c = O16_2 m c := W16_at2 m c
  show Function.update (Function.update (Function.update (Gen.V15 m (outs m) c) main_v128_0 (outs m 16 main_v128_0 c)) main_v128_1 (outs m 16 main_v128_1 c)) main_v128_2 (outs m 16 main_v128_2 c) = _
  rw [h0, h1, h2, hV15]; rfl
/-- Off region 7's output arrays nothing changes. -/
theorem W16_of (c : Dev nD) (r : Ref sig .tc) (h : r ∉ ([main_v128_0, main_v128_1, main_v128_2] : List (Ref sig .tc))) : W16 m c r = W15 m c r :=
  (congrFun (hV16 m c) r).symm.trans ((Gen.V16_of m (outs m) c r h).trans (congrFun (hV15 m c) r))
theorem hV17 (c : Dev nD) : Gen.V17 m (outs m) c = W17 m c :=
  congrArg (StableHlo.after hostOps8) (hV16 m c)

/-! ### Region 8 -/

theorem W18_at0 (c : Dev nD) : W18 m c main_v159_0 = O18_0 m c := by
  unfold W18; rw [Function.update_of_ne (StableHlo.devRef_ne_of_ne (by decide) : (Proc.devRef .tc main_v159_0 : DevRef τ sig) ≠ Proc.devRef .tc main_v159_2), Function.update_of_ne (StableHlo.devRef_ne_of_ne (by decide) : (Proc.devRef .tc main_v159_0 : DevRef τ sig) ≠ Proc.devRef .tc main_v159_1), Function.update_self]
theorem W18_at1 (c : Dev nD) : W18 m c main_v159_1 = O18_1 m c := by
  unfold W18; rw [Function.update_of_ne (StableHlo.devRef_ne_of_ne (by decide) : (Proc.devRef .tc main_v159_1 : DevRef τ sig) ≠ Proc.devRef .tc main_v159_2), Function.update_self]
theorem W18_at2 (c : Dev nD) : W18 m c main_v159_2 = O18_2 m c := by
  unfold W18; rw [Function.update_self]
theorem hV18 (c : Dev nD) : Gen.V18 m (outs m) c = W18 m c := by
  have h0 : outs m 18 main_v159_0 c = O18_0 m c := W18_at0 m c
  have h1 : outs m 18 main_v159_1 c = O18_1 m c := W18_at1 m c
  have h2 : outs m 18 main_v159_2 c = O18_2 m c := W18_at2 m c
  show Function.update (Function.update (Function.update (Gen.V17 m (outs m) c) main_v159_0 (outs m 18 main_v159_0 c)) main_v159_1 (outs m 18 main_v159_1 c)) main_v159_2 (outs m 18 main_v159_2 c) = _
  rw [h0, h1, h2, hV17]; rfl
/-- Off region 8's output arrays nothing changes. -/
theorem W18_of (c : Dev nD) (r : Ref sig .tc) (h : r ∉ ([main_v159_0, main_v159_1, main_v159_2] : List (Ref sig .tc))) : W18 m c r = W17 m c r :=
  (congrFun (hV18 m c) r).symm.trans ((Gen.V18_of m (outs m) c r h).trans (congrFun (hV17 m c) r))
theorem hV19 (c : Dev nD) : Gen.V19 m (outs m) c = W19 m c :=
  congrArg (StableHlo.after hostOps9) (hV18 m c)

/-! ### Region 9 -/

theorem W20_at (c : Dev nD) : W20 m c main_v176 = O20 m c := by
  unfold W20; rw [Function.update_self]
theorem hV20 (c : Dev nD) : Gen.V20 m (outs m) c = W20 m c := by
  have h0 : outs m 20 main_v176 c = O20 m c := W20_at m c
  show Function.update (Gen.V19 m (outs m) c) main_v176 (outs m 20 main_v176 c) = _
  rw [h0, hV19]; rfl
/-- Off region 9's output array nothing changes. -/
theorem W20_of (c : Dev nD) (r : Ref sig .tc) (h : r ∉ ([main_v176] : List (Ref sig .tc))) : W20 m c r = W19 m c r :=
  (congrFun (hV20 m c) r).symm.trans ((Gen.V20_of m (outs m) c r h).trans (congrFun (hV19 m c) r))

/-! ## At a region's exit each of its arrays holds what the pipeline leaves, every other buffer what it held at entry -/

theorem hF0_0 (c : Dev nD) : (dat0 (fun c b => W1 m c b) c).arrAt 0 cfg0.N = W2 m c main_arg0 :=
  (((dat0 (fun c b => W1 m c b) c).arrAt_in 0 rfl _).trans (A_eq0 (fun c b => W1 m c b) c 0)).trans (W2_of m c main_arg0 (by decide)).symm
theorem hF0_1 (c : Dev nD) : (dat0 (fun c b => W1 m c b) c).arrAt 1 cfg0.N = W2 m c main_v4 :=
  (((dat0 (fun c b => W1 m c b) c).arrAt_in 1 rfl _).trans (A_eq0 (fun c b => W1 m c b) c 1)).trans (W2_of m c main_v4 (by decide)).symm
theorem hF0_2 (c : Dev nD) : (dat0 (fun c b => W1 m c b) c).arrAt 2 cfg0.N = W2 m c main_v5 :=
  (((dat0 (fun c b => W1 m c b) c).arrAt_in 2 rfl _).trans (A_eq0 (fun c b => W1 m c b) c 2)).trans (W2_of m c main_v5 (by decide)).symm
theorem hF0 (c : Dev nD) : ∀ w : Fin 4, (dat0 (fun c b => W1 m c b) c).arrAt w cfg0.N = W2 m c (Pipeline.arrRef spec0 w) := fun
  | 0 => hF0_0 m c
  | 1 => hF0_1 m c
  | 2 => hF0_2 m c
  | 3 => (W2_at m c).symm
  | ⟨_ + 4, h⟩ => absurd h (Nat.not_lt.2 (Nat.le_add_left _ _))
theorem hrest0 (c : Dev nD) : ∀ b, b ∉ Finset.univ.image (Pipeline.arrRef spec0) → W2 m c b = W1 m c b :=
  fun b hb => W2_of m c b fun h => hb (by
    simp only [List.mem_cons, List.not_mem_nil, or_false] at h
    rcases h with rfl
    · exact Finset.mem_image.mpr ⟨3, Finset.mem_univ _, rfl⟩)

theorem hF1_0 (c : Dev nD) : (dat1 (fun c b => W3 m c b) c).arrAt 0 cfg1.N = W4 m c main_v6 :=
  (((dat1 (fun c b => W3 m c b) c).arrAt_in 0 rfl _).trans (A_eq1 (fun c b => W3 m c b) c 0)).trans (W4_of m c main_v6 (by decide)).symm
theorem hF1_1 (c : Dev nD) : (dat1 (fun c b => W3 m c b) c).arrAt 1 cfg1.N = W4 m c main_v13 :=
  (((dat1 (fun c b => W3 m c b) c).arrAt_in 1 rfl _).trans (A_eq1 (fun c b => W3 m c b) c 1)).trans (W4_of m c main_v13 (by decide)).symm
theorem hF1_2 (c : Dev nD) : (dat1 (fun c b => W3 m c b) c).arrAt 2 cfg1.N = W4 m c main_v15 :=
  (((dat1 (fun c b => W3 m c b) c).arrAt_in 2 rfl _).trans (A_eq1 (fun c b => W3 m c b) c 2)).trans (W4_of m c main_v15 (by decide)).symm
theorem hF1 (c : Dev nD) : ∀ w : Fin 6, (dat1 (fun c b => W3 m c b) c).arrAt w cfg1.N = W4 m c (Pipeline.arrRef spec1 w) := fun
  | 0 => hF1_0 m c
  | 1 => hF1_1 m c
  | 2 => hF1_2 m c
  | 3 => (W4_at0 m c).symm
  | 4 => (W4_at1 m c).symm
  | 5 => (W4_at2 m c).symm
  | ⟨_ + 6, h⟩ => absurd h (Nat.not_lt.2 (Nat.le_add_left _ _))
theorem hrest1 (c : Dev nD) : ∀ b, b ∉ Finset.univ.image (Pipeline.arrRef spec1) → W4 m c b = W3 m c b :=
  fun b hb => W4_of m c b fun h => hb (by
    simp only [List.mem_cons, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem hF2_0 (c : Dev nD) : (dat2 (fun c b => W5 m c b) c).arrAt 0 cfg2.N = W6 m c main_v16_2 :=
  (((dat2 (fun c b => W5 m c b) c).arrAt_in 0 rfl _).trans (A_eq2 (fun c b => W5 m c b) c 0)).trans (W6_of m c main_v16_2 (by decide)).symm
theorem hF2_1 (c : Dev nD) : (dat2 (fun c b => W5 m c b) c).arrAt 1 cfg2.N = W6 m c main_v46 :=
  (((dat2 (fun c b => W5 m c b) c).arrAt_in 1 rfl _).trans (A_eq2 (fun c b => W5 m c b) c 1)).trans (W6_of m c main_v46 (by decide)).symm
theorem hF2 (c : Dev nD) : ∀ w : Fin 5, (dat2 (fun c b => W5 m c b) c).arrAt w cfg2.N = W6 m c (Pipeline.arrRef spec2 w) := fun
  | 0 => hF2_0 m c
  | 1 => hF2_1 m c
  | 2 => (W6_at0 m c).symm
  | 3 => (W6_at1 m c).symm
  | 4 => (W6_at2 m c).symm
  | ⟨_ + 5, h⟩ => absurd h (Nat.not_lt.2 (Nat.le_add_left _ _))
theorem hrest2 (c : Dev nD) : ∀ b, b ∉ Finset.univ.image (Pipeline.arrRef spec2) → W6 m c b = W5 m c b :=
  fun b hb => W6_of m c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

theorem hF3_0 (c : Dev nD) : (dat3 (fun c b => W7 m c b) c).arrAt 0 cfg3.N = W8 m c main_v47_0 :=
  (((dat3 (fun c b => W7 m c b) c).arrAt_in 0 rfl _).trans (A_eq3 (fun c b => W7 m c b) c 0)).trans (W8_of m c main_v47_0 (by decide)).symm
theorem hF3_1 (c : Dev nD) : (dat3 (fun c b => W7 m c b) c).arrAt 1 cfg3.N = W8 m c main_v49 :=
  (((dat3 (fun c b => W7 m c b) c).arrAt_in 1 rfl _).trans (A_eq3 (fun c b => W7 m c b) c 1)).trans (W8_of m c main_v49 (by decide)).symm
theorem hF3_2 (c : Dev nD) : (dat3 (fun c b => W7 m c b) c).arrAt 2 cfg3.N = W8 m c main_v55 :=
  (((dat3 (fun c b => W7 m c b) c).arrAt_in 2 rfl _).trans (A_eq3 (fun c b => W7 m c b) c 2)).trans (W8_of m c main_v55 (by decide)).symm
theorem hF3_3 (c : Dev nD) : (dat3 (fun c b => W7 m c b) c).arrAt 3 cfg3.N = W8 m c main_v60 :=
  (((dat3 (fun c b => W7 m c b) c).arrAt_in 3 rfl _).trans (A_eq3 (fun c b => W7 m c b) c 3)).trans (W8_of m c main_v60 (by decide)).symm
theorem hF3_4 (c : Dev nD) : (dat3 (fun c b => W7 m c b) c).arrAt 4 cfg3.N = W8 m c main_v61 :=
  (((dat3 (fun c b => W7 m c b) c).arrAt_in 4 rfl _).trans (A_eq3 (fun c b => W7 m c b) c 4)).trans (W8_of m c main_v61 (by decide)).symm
theorem hF3 (c : Dev nD) : ∀ w : Fin 6, (dat3 (fun c b => W7 m c b) c).arrAt w cfg3.N = W8 m c (Pipeline.arrRef spec3 w) := fun
  | 0 => hF3_0 m c
  | 1 => hF3_1 m c
  | 2 => hF3_2 m c
  | 3 => hF3_3 m c
  | 4 => hF3_4 m c
  | 5 => (W8_at m c).symm
  | ⟨_ + 6, h⟩ => absurd h (Nat.not_lt.2 (Nat.le_add_left _ _))
theorem hrest3 (c : Dev nD) : ∀ b, b ∉ Finset.univ.image (Pipeline.arrRef spec3) → W8 m c b = W7 m c b :=
  fun b hb => W8_of m c b fun h => hb (by
    simp only [List.mem_cons, List.not_mem_nil, or_false] at h
    rcases h with rfl
    · exact Finset.mem_image.mpr ⟨5, Finset.mem_univ _, rfl⟩)

theorem hF4_0 (c : Dev nD) : (dat4 (fun c b => W9 m c b) c).arrAt 0 cfg4.N = W10 m c main_v62 :=
  (((dat4 (fun c b => W9 m c b) c).arrAt_in 0 rfl _).trans (A_eq4 (fun c b => W9 m c b) c 0)).trans (W10_of m c main_v62 (by decide)).symm
theorem hF4_1 (c : Dev nD) : (dat4 (fun c b => W9 m c b) c).arrAt 1 cfg4.N = W10 m c main_v69 :=
  (((dat4 (fun c b => W9 m c b) c).arrAt_in 1 rfl _).trans (A_eq4 (fun c b => W9 m c b) c 1)).trans (W10_of m c main_v69 (by decide)).symm
theorem hF4_2 (c : Dev nD) : (dat4 (fun c b => W9 m c b) c).arrAt 2 cfg4.N = W10 m c main_v71 :=
  (((dat4 (fun c b => W9 m c b) c).arrAt_in 2 rfl _).trans (A_eq4 (fun c b => W9 m c b) c 2)).trans (W10_of m c main_v71 (by decide)).symm
theorem hF4 (c : Dev nD) : ∀ w : Fin 6, (dat4 (fun c b => W9 m c b) c).arrAt w cfg4.N = W10 m c (Pipeline.arrRef spec4 w) := fun
  | 0 => hF4_0 m c
  | 1 => hF4_1 m c
  | 2 => hF4_2 m c
  | 3 => (W10_at0 m c).symm
  | 4 => (W10_at1 m c).symm
  | 5 => (W10_at2 m c).symm
  | ⟨_ + 6, h⟩ => absurd h (Nat.not_lt.2 (Nat.le_add_left _ _))
theorem hrest4 (c : Dev nD) : ∀ b, b ∉ Finset.univ.image (Pipeline.arrRef spec4) → W10 m c b = W9 m c b :=
  fun b hb => W10_of m c b fun h => hb (by
    simp only [List.mem_cons, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem hF5_0 (c : Dev nD) : (dat5 (fun c b => W11 m c b) c).arrAt 0 cfg5.N = W12 m c main_v72_2 :=
  (((dat5 (fun c b => W11 m c b) c).arrAt_in 0 rfl _).trans (A_eq5 (fun c b => W11 m c b) c 0)).trans (W12_of m c main_v72_2 (by decide)).symm
theorem hF5_1 (c : Dev nD) : (dat5 (fun c b => W11 m c b) c).arrAt 1 cfg5.N = W12 m c main_v102 :=
  (((dat5 (fun c b => W11 m c b) c).arrAt_in 1 rfl _).trans (A_eq5 (fun c b => W11 m c b) c 1)).trans (W12_of m c main_v102 (by decide)).symm
theorem hF5 (c : Dev nD) : ∀ w : Fin 5, (dat5 (fun c b => W11 m c b) c).arrAt w cfg5.N = W12 m c (Pipeline.arrRef spec5 w) := fun
  | 0 => hF5_0 m c
  | 1 => hF5_1 m c
  | 2 => (W12_at0 m c).symm
  | 3 => (W12_at1 m c).symm
  | 4 => (W12_at2 m c).symm
  | ⟨_ + 5, h⟩ => absurd h (Nat.not_lt.2 (Nat.le_add_left _ _))
theorem hrest5 (c : Dev nD) : ∀ b, b ∉ Finset.univ.image (Pipeline.arrRef spec5) → W12 m c b = W11 m c b :=
  fun b hb => W12_of m c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

theorem hF6_0 (c : Dev nD) : (dat6 (fun c b => W13 m c b) c).arrAt 0 cfg6.N = W14 m c main_v103_0 :=
  (((dat6 (fun c b => W13 m c b) c).arrAt_in 0 rfl _).trans (A_eq6 (fun c b => W13 m c b) c 0)).trans (W14_of m c main_v103_0 (by decide)).symm
theorem hF6_1 (c : Dev nD) : (dat6 (fun c b => W13 m c b) c).arrAt 1 cfg6.N = W14 m c main_v105 :=
  (((dat6 (fun c b => W13 m c b) c).arrAt_in 1 rfl _).trans (A_eq6 (fun c b => W13 m c b) c 1)).trans (W14_of m c main_v105 (by decide)).symm
theorem hF6_2 (c : Dev nD) : (dat6 (fun c b => W13 m c b) c).arrAt 2 cfg6.N = W14 m c main_v111 :=
  (((dat6 (fun c b => W13 m c b) c).arrAt_in 2 rfl _).trans (A_eq6 (fun c b => W13 m c b) c 2)).trans (W14_of m c main_v111 (by decide)).symm
theorem hF6_3 (c : Dev nD) : (dat6 (fun c b => W13 m c b) c).arrAt 3 cfg6.N = W14 m c main_v116 :=
  (((dat6 (fun c b => W13 m c b) c).arrAt_in 3 rfl _).trans (A_eq6 (fun c b => W13 m c b) c 3)).trans (W14_of m c main_v116 (by decide)).symm
theorem hF6_4 (c : Dev nD) : (dat6 (fun c b => W13 m c b) c).arrAt 4 cfg6.N = W14 m c main_v117 :=
  (((dat6 (fun c b => W13 m c b) c).arrAt_in 4 rfl _).trans (A_eq6 (fun c b => W13 m c b) c 4)).trans (W14_of m c main_v117 (by decide)).symm
theorem hF6 (c : Dev nD) : ∀ w : Fin 6, (dat6 (fun c b => W13 m c b) c).arrAt w cfg6.N = W14 m c (Pipeline.arrRef spec6 w) := fun
  | 0 => hF6_0 m c
  | 1 => hF6_1 m c
  | 2 => hF6_2 m c
  | 3 => hF6_3 m c
  | 4 => hF6_4 m c
  | 5 => (W14_at m c).symm
  | ⟨_ + 6, h⟩ => absurd h (Nat.not_lt.2 (Nat.le_add_left _ _))
theorem hrest6 (c : Dev nD) : ∀ b, b ∉ Finset.univ.image (Pipeline.arrRef spec6) → W14 m c b = W13 m c b :=
  fun b hb => W14_of m c b fun h => hb (by
    simp only [List.mem_cons, List.not_mem_nil, or_false] at h
    rcases h with rfl
    · exact Finset.mem_image.mpr ⟨5, Finset.mem_univ _, rfl⟩)

theorem hF7_0 (c : Dev nD) : (dat7 (fun c b => W15 m c b) c).arrAt 0 cfg7.N = W16 m c main_v118 :=
  (((dat7 (fun c b => W15 m c b) c).arrAt_in 0 rfl _).trans (A_eq7 (fun c b => W15 m c b) c 0)).trans (W16_of m c main_v118 (by decide)).symm
theorem hF7_1 (c : Dev nD) : (dat7 (fun c b => W15 m c b) c).arrAt 1 cfg7.N = W16 m c main_v125 :=
  (((dat7 (fun c b => W15 m c b) c).arrAt_in 1 rfl _).trans (A_eq7 (fun c b => W15 m c b) c 1)).trans (W16_of m c main_v125 (by decide)).symm
theorem hF7_2 (c : Dev nD) : (dat7 (fun c b => W15 m c b) c).arrAt 2 cfg7.N = W16 m c main_v127 :=
  (((dat7 (fun c b => W15 m c b) c).arrAt_in 2 rfl _).trans (A_eq7 (fun c b => W15 m c b) c 2)).trans (W16_of m c main_v127 (by decide)).symm
theorem hF7 (c : Dev nD) : ∀ w : Fin 6, (dat7 (fun c b => W15 m c b) c).arrAt w cfg7.N = W16 m c (Pipeline.arrRef spec7 w) := fun
  | 0 => hF7_0 m c
  | 1 => hF7_1 m c
  | 2 => hF7_2 m c
  | 3 => (W16_at0 m c).symm
  | 4 => (W16_at1 m c).symm
  | 5 => (W16_at2 m c).symm
  | ⟨_ + 6, h⟩ => absurd h (Nat.not_lt.2 (Nat.le_add_left _ _))
theorem hrest7 (c : Dev nD) : ∀ b, b ∉ Finset.univ.image (Pipeline.arrRef spec7) → W16 m c b = W15 m c b :=
  fun b hb => W16_of m c b fun h => hb (by
    simp only [List.mem_cons, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem hF8_0 (c : Dev nD) : (dat8 (fun c b => W17 m c b) c).arrAt 0 cfg8.N = W18 m c main_v128_2 :=
  (((dat8 (fun c b => W17 m c b) c).arrAt_in 0 rfl _).trans (A_eq8 (fun c b => W17 m c b) c 0)).trans (W18_of m c main_v128_2 (by decide)).symm
theorem hF8_1 (c : Dev nD) : (dat8 (fun c b => W17 m c b) c).arrAt 1 cfg8.N = W18 m c main_v158 :=
  (((dat8 (fun c b => W17 m c b) c).arrAt_in 1 rfl _).trans (A_eq8 (fun c b => W17 m c b) c 1)).trans (W18_of m c main_v158 (by decide)).symm
theorem hF8 (c : Dev nD) : ∀ w : Fin 5, (dat8 (fun c b => W17 m c b) c).arrAt w cfg8.N = W18 m c (Pipeline.arrRef spec8 w) := fun
  | 0 => hF8_0 m c
  | 1 => hF8_1 m c
  | 2 => (W18_at0 m c).symm
  | 3 => (W18_at1 m c).symm
  | 4 => (W18_at2 m c).symm
  | ⟨_ + 5, h⟩ => absurd h (Nat.not_lt.2 (Nat.le_add_left _ _))
theorem hrest8 (c : Dev nD) : ∀ b, b ∉ Finset.univ.image (Pipeline.arrRef spec8) → W18 m c b = W17 m c b :=
  fun b hb => W18_of m c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

theorem hF9_0 (c : Dev nD) : (dat9 (fun c b => W19 m c b) c).arrAt 0 cfg9.N = W20 m c main_v159_0 :=
  (((dat9 (fun c b => W19 m c b) c).arrAt_in 0 rfl _).trans (A_eq9 (fun c b => W19 m c b) c 0)).trans (W20_of m c main_v159_0 (by decide)).symm
theorem hF9_1 (c : Dev nD) : (dat9 (fun c b => W19 m c b) c).arrAt 1 cfg9.N = W20 m c main_v161 :=
  (((dat9 (fun c b => W19 m c b) c).arrAt_in 1 rfl _).trans (A_eq9 (fun c b => W19 m c b) c 1)).trans (W20_of m c main_v161 (by decide)).symm
theorem hF9_2 (c : Dev nD) : (dat9 (fun c b => W19 m c b) c).arrAt 2 cfg9.N = W20 m c main_v167 :=
  (((dat9 (fun c b => W19 m c b) c).arrAt_in 2 rfl _).trans (A_eq9 (fun c b => W19 m c b) c 2)).trans (W20_of m c main_v167 (by decide)).symm
theorem hF9_3 (c : Dev nD) : (dat9 (fun c b => W19 m c b) c).arrAt 3 cfg9.N = W20 m c main_v173 :=
  (((dat9 (fun c b => W19 m c b) c).arrAt_in 3 rfl _).trans (A_eq9 (fun c b => W19 m c b) c 3)).trans (W20_of m c main_v173 (by decide)).symm
theorem hF9_4 (c : Dev nD) : (dat9 (fun c b => W19 m c b) c).arrAt 4 cfg9.N = W20 m c main_v174 :=
  (((dat9 (fun c b => W19 m c b) c).arrAt_in 4 rfl _).trans (A_eq9 (fun c b => W19 m c b) c 4)).trans (W20_of m c main_v174 (by decide)).symm
theorem hF9_5 (c : Dev nD) : (dat9 (fun c b => W19 m c b) c).arrAt 5 cfg9.N = W20 m c main_v168 :=
  (((dat9 (fun c b => W19 m c b) c).arrAt_in 5 rfl _).trans (A_eq9 (fun c b => W19 m c b) c 5)).trans (W20_of m c main_v168 (by decide)).symm
theorem hF9_6 (c : Dev nD) : (dat9 (fun c b => W19 m c b) c).arrAt 6 cfg9.N = W20 m c main_v175 :=
  (((dat9 (fun c b => W19 m c b) c).arrAt_in 6 rfl _).trans (A_eq9 (fun c b => W19 m c b) c 6)).trans (W20_of m c main_v175 (by decide)).symm
theorem hF9 (c : Dev nD) : ∀ w : Fin 8, (dat9 (fun c b => W19 m c b) c).arrAt w cfg9.N = W20 m c (Pipeline.arrRef spec9 w) := fun
  | 0 => hF9_0 m c
  | 1 => hF9_1 m c
  | 2 => hF9_2 m c
  | 3 => hF9_3 m c
  | 4 => hF9_4 m c
  | 5 => hF9_5 m c
  | 6 => hF9_6 m c
  | 7 => (W20_at m c).symm
  | ⟨_ + 8, h⟩ => absurd h (Nat.not_lt.2 (Nat.le_add_left _ _))
theorem hrest9 (c : Dev nD) : ∀ b, b ∉ Finset.univ.image (Pipeline.arrRef spec9) → W20 m c b = W19 m c b :=
  fun b hb => W20_of m c b fun h => hb (by
    simp only [List.mem_cons, List.not_mem_nil, or_false] at h
    rcases h with rfl
    · exact Finset.mem_image.mpr ⟨7, Finset.mem_univ _, rfl⟩)

/-! ## The proof data family -/

/-- Every pipeline's proof data, each at its region's entry contents. -/
def pdats : (p : Fin 10) → (c : Dev nD) → Dat τ (Elt F) Unit ℕ (Pipeline.UD sig nD τ) ℕ (Pipeline.pin (pcfgs (F := F)) adm p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c
  | ⟨8, _⟩ => fun c => dat8 (fun c b => W17 m c b) c
  | ⟨9, _⟩ => fun c => dat9 (fun c b => W19 m c b) c

/-! ## What rides beside the buffers through every segment -/

/-- No core owes another anything: no level is assigned. -/
abbrev L : GSem nD τ sig → Finset Unit := fun _ => ∅
abbrev lv : GSem nD τ sig → Unit → ℕ := fun _ _ => 0
/-- The core's generator register at some state, and its dues, at nothing. -/
abbrev R (c : Dev nD) : sProp 𝕄 := iprop((∃ r, prngReg c r) ∗ ∃ W, owes (c : Thread nD τ) (0 : CellTallies nD τ sig Unit) W)

end Cert.Kernel.Hand

end
-- ==== Proof.K.Reg0Body.lean ====
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import proofs.«180311_j29308856828500_2_alg».proof.Proof.K.Reg0Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 0: the body's triple and the obligation of its proof data -/

/-- Input window 0's current buffer holds its block at every point, whether or not it was fetched there (an unfetched
    input has not moved its index, so the previous point's block is this point's): for any proof data whose array is
    the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not it was fetched there (an unfetched
    input has not moved its index, so the previous point's block is this point's): for any proof data whose array is
    the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not it was fetched there (an unfetched
    input has not moved its index, so the previous point's block is this point's): for any proof data whose array is
    the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The single store of the body is the whole output buffer, so it covers it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in
/-- The body on whole staging memrefs, the inputs' reading `x_i` and the output's anything, runs to the continuation
    with the inputs as they were and the output reading `out0_3` of the inputs: every load reads a whole input,
    the one store writes the payload of those loads over the whole output. -/
theorem sound_kernel0 (c : Dev nD) (E : Set ℕ) (i : grid0.Coords) (arg1 : Memref sig .tc .vmem S2000x64 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x64 .f32) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what the core owes, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation of the proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Seg0.lean ====
/- Region 0 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 0 over the thread state "every unscoped buffer at the boundary's contents, the generator register at
    some state, nothing owed". -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => W1 m c b) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => W1 m c b)
  hentry c := by
    rw [Pipeline.ownSems0_none, hV1 m c]
    have hsplit := Pipeline.arrays_of_unscopedBufs (p := 0) (pcfgs (F := F)) adm (pdats m) launch0.win launch0.arr_whole c
      ((pdats m 0 c).share_full fun _ => rfl) (fun b => W1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [hV2 m c]
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (fun b => W1 m c b) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1Body.lean ====
/-
  Region 1: the body's triple and the pipeline's body obligation. The body loads its three input buffers whole,
  forms h · wcat + bcat once, and stores its three column ranges, each by one store over a whole output buffer; so
  each output buffer ends at the canonical contents of that one piece, whatever it held before.
-/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import proofs.«180311_j29308856828500_2_alg».proof.Proof.K.Reg1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in its input buffers -/

/-- Input window 0's current buffer holds its block at every point, fetched there or not, for any proof data whose
    array is the region-entry one and whose body leaves the block in place: where the pipeline does not fetch, the block
    index has not moved since the point before (the weights and the bias are fetched once, the activations at every point). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not, for any proof data whose
    array is the region-entry one and whose body leaves the block in place: where the pipeline does not fetch, the block
    index has not moved since the point before (the weights and the bias are fetched once, the activations at every point). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not, for any proof data whose
    array is the region-entry one and whose body leaves the block in place: where the pipeline does not fetch, the block
    index has not moved since the point before (the weights and the bias are fetched once, the activations at every point). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover the output buffers -/

/-- The one store into window 3's buffer takes the whole of it, so every index is covered. -/
theorem cover1_3 (p0 : Vec F S2000x128 .bf16) (y : S2000x128.Idx) :
    ∃ pc ∈ ([⟨r1_0, p0⟩] : List (View.Piece (Elt F) S2000x128 .bf16)), y ∈ pc.1.set :=
  View.cover_of_tiled [⟨r1_0, p0⟩] S2000x128.size (by rfl) y
/-- The one store into window 4's buffer takes the whole of it, so every index is covered. -/
theorem cover1_4 (p0 : Vec F S2000x256 .bf16) (y : S2000x256.Idx) :
    ∃ pc ∈ ([⟨r1_3, p0⟩] : List (View.Piece (Elt F) S2000x256 .bf16)), y ∈ pc.1.set :=
  View.cover_of_tiled [⟨r1_3, p0⟩] S2000x256.size (by rfl) y
/-- The one store into window 5's buffer takes the whole of it, so every index is covered. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- On whole buffers, the inputs' reading `x0 x1 x2` and the outputs' holding anything, the body runs to the
    continuation with the inputs' as they were and each output's at its function of `x0 x1 x2`. -/
theorem sound_kernel1 (c : Dev nD) (E : Set ℕ) (i : grid1.Coords) (arg1 : Memref sig .tc .vmem S2000x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S2000x128 .bf16) (harg4 : arg4.IsWhole) (arg5 : Memref sig .tc .vmem S2000x256 .bf16) (harg5 : arg5.IsWhole) (arg6 : Memref sig .tc .vmem S2000x128 .f32) (harg6 : arg6.IsWhole)
    (x0 : Vec F S2000x128 .f32) (x1 : Vec F S128x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)
            ∗ owns (c : Thread nD τ) arg6 fullShare (out1_5 x0 x1 x2)) -∗ K ⟨⟩))
      ⊢ wp frame (wpE (defs₀ (F := F)) Variants.none c none) E (cc1__kqvs_kernel i arg1 harg1 arg2 harg2 arg3 harg3 arg4 harg4 arg5 harg5 arg6 harg6) K := by
  simp only [cc1__kqvs_kernel_eq_skeleton]; unfold cc1__kqvs_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The inputs' buffers under the region's own proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Seg1.lean ====
/- Region 1 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 1 over the thread state "every unscoped buffer at the boundary's contents, the generator register at
    some state, nothing owed". -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => W3 m c b) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => W3 m c b)
  hentry c := by
    rw [Pipeline.ownSems0_none, hV3 m c]
    have hsplit := Pipeline.arrays_of_unscopedBufs (p := 1) (pcfgs (F := F)) adm (pdats m) launch1.win launch1.arr_whole c
      ((pdats m 1 c).share_full fun _ => rfl) (fun b => W3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [hV4 m c]
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (fun b => W3 m c b) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2Body.lean ====
/- Region 2: the body obligation of its pipeline, and the invariant at the region's entry and exit. -/
import proofs.«180311_j29308856828500_2_alg».proof.Proof.K.Reg2Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point is the first, a middle or the last one, and that
    case's run applies; the invariant hands the body the two accumulators at what the point before left (at anything at the
    first point) and takes them back at this point's contents; the one-row outputs come back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val = 0
  · have h1 : ¬t.val = 24 := by omega
    rw [Dat.leavesExact_idle (dat2 V c) 3 t (idleAt2_3 t (hA1_2 t h0)) (noFlush2_3 t (hA1_2 t h0))]
    rw [Dat.leavesExact_idle (dat2 V c) 4 t (idleAt2_4 t (hA1_2 t h0)) (noFlush2_4 t (hA1_2 t h0))]
    rw [outsAt2_A V c t h0, scratchAt2_A V c t h0]
    unfold out2_A_2 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ _ _ (hA0_2 t h0) (hA1_2 t h0) (iblk2 V c 0 t) (iblk2 V c 1 t)).2.2.2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2_A_2 c _ _ _ _ _ _ _ _ _ _ _ _ _ _ _ _ _ _ _)
    isplitl [H3]; · iexists _; iexact H3
    iexists _; iexact H4
  · by_cases h1 : t.val = 24
    · rw [show (dat2 V c).leavesExact 3 t = owns (c : Thread nD τ) (ms2_3 t) fullShare ((dat2 V c).after 3 t) from by
          unfold Dat.leavesExact; rw [liveAt2_3 t (hC1_2 t h1)], after2_3]
      rw [show (dat2 V c).leavesExact 4 t = owns (c : Thread nD τ) (ms2_4 t) fullShare ((dat2 V c).after 4 t) from by
          unfold Dat.leavesExact; rw [liveAt2_4 t (hC1_2 t h1)], after2_4]
      rw [outsAt2_C V c t h0 h1, scratchAt2_C V c t h0 h1]
      unfold out2_C_2 out2_C_3 out2_C_4 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (hB0_2 t h0) (hC1_2 t h1) (iblk2 V c 0 t) (iblk2 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C_2 c _ _ _ _ _ _ _ _ _ _ _ _ _ _ _ _ _ _ _ _ _)
      isplitl [H3]
      · unfold owns; iexists _; isplitr
        swap; · iexact H3
        ipureintro; exact View.read_writes_of_cover _ _ _ _ _ (cover2_C_3 c _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _)
    · rw [Dat.leavesExact_idle (dat2 V c) 3 t (idleAt2_3 t (hB1_2 t h1)) (noFlush2_3 t (hB1_2 t h1))]
      rw [Dat.leavesExact_idle (dat2 V c) 4 t (idleAt2_4 t (hB1_2 t h1)) (noFlush2_4 t (hB1_2 t h1))]
      rw [outsAt2_B V c t h0 h1, scratchAt2_B V c t h0 h1]
      unfold out2_B_2 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (hB0_2 t h0) (hB1_2 t h1) (iblk2 V c 0 t) (iblk2 V c 1 t) _ _).2.2.2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B_2 c _ _ _ _ _ _ _ _ _ _ _ _ _ _ _ _ _ _ _ _ _)
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the region is entered with — the generator register and the scoped rest — is the invariant before the first point. -/
theorem Phi2_in (c : Dev nD) : iprop((∃ r, prngReg c r) ∗ Pipeline.scopedRest (Ix := Unit) (Name := ℕ) (U := Pipeline.UD sig nD τ) (Lvl := ℕ) (Val := Elt F) spec2 c) ⊢ ((dat2 V c).Φ 0 : sProp 𝕄) := by
  rw [show (dat2 V c).Φ 0 = PhiS2 V c 0 (Nat.zero_le _) from rfl, PhiS2_zero V c 0 _ rfl]
  unfold Pipeline.ΦA
  iintro ⟨Hp, Hr⟩
  isplitl [Hr]; · iexact Hr
  iexact Hp

/-- After the last point the invariant gives them back: the accumulators' named contents are forgotten. -/
theorem Phi2_out (c : Dev nD) : ((dat2 V c).Φ (Fin.last _) : sProp 𝕄) ⊢ iprop((∃ r, prngReg c r) ∗ Pipeline.scopedRest (Ix := Unit) (Name := ℕ) (U := Pipeline.UD sig nD τ) (Lvl := ℕ) (Val := Elt F) spec2 c) := by
  rw [show (dat2 V c).Φ (Fin.last _) = PhiS2 V c (Fin.last cfg2.N).val (Nat.le_of_lt_succ (Fin.last cfg2.N).isLt) from rfl,
    PhiS2_pos V c _ _ (by rw [Fin.val_last]; have : cfg2.N = 25 := N_2; omega)]
  have hA : (Pipeline.ΦA spec2 c : sProp 𝕄) ⊢ iprop((∃ r, prngReg c r) ∗ Pipeline.scopedRest (Ix := Unit) (Name := ℕ) (U := Pipeline.UD sig nD τ) (Lvl := ℕ) (Val := Elt F) spec2 c) := by
    unfold Pipeline.ΦA
    iintro ⟨Hr, Hp⟩
    isplitl [Hp]; · iexact Hp
    iexact Hr
  rw [PhiA2_eq] at hA
  iintro ⟨⟨⟨HS0, HS1⟩, HR⟩, Hg⟩
  iapply hA
  isplitl [HS0 HS1 HR]
  · isplitl [HS0 HS1]
    · isplitl [HS0]; · iexists _; iexact HS0
      iexists _; iexact HS1
    iexact HR
  iexact Hg

end Cert.Kernel.Hand

end
-- ==== Proof.K.Seg2.lean ====
/- Region 2 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 2 over the thread state "every unscoped buffer at the boundary's contents, the generator register at
    some state, nothing owed". -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => W5 m c b) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (fun b => W5 m c b)
  hentry c := by
    rw [Pipeline.ownSems0_none, hV5 m c]
    have hsplit := Pipeline.arrays_of_unscopedBufs (p := 2) (pcfgs (F := F)) adm (pdats m) launch2.win launch2.arr_whole c
      ((pdats m 2 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => W5 m c b) c).Φ 0 from rfl]
    refine BIBase.Entails.trans ?_ (Phi2_in (fun c b => W5 m c b) c)
    iintro ⟨Hp, -, Hr⟩
    isplitl [Hp]; · iexact Hp
    iexact Hr
  hout c := by
    rw [Pipeline.ownSems0_none, show (pdats m 2 c).Φ (Fin.last _) = (dat2 (fun c b => W5 m c b) c).Φ (Fin.last _) from rfl]
    refine (Phi2_out (fun c b => W5 m c b) c).trans ?_
    iintro ⟨Hp, Hr⟩
    isplitl [Hp]; · iexact Hp
    isplitr; · iempintro
    iexact Hr
  hexit c := by
    rw [hV6 m c]
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (fun b => W5 m c b) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3Body.lean ====
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import proofs.«180311_j29308856828500_2_alg».proof.Proof.K.Reg3Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 3: the body's triple and the obligation of its proof data -/

/-- Input window 0's current buffer holds its block at every point, whether or not it was fetched there (an unfetched
    input has not moved its index, so the previous point's block is this point's): for any proof data whose array is
    the entry contents and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, whether or not it was fetched there (an unfetched
    input has not moved its index, so the previous point's block is this point's): for any proof data whose array is
    the entry contents and whose body leaves the block in place. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, whether or not it was fetched there (an unfetched
    input has not moved its index, so the previous point's block is this point's): for any proof data whose array is
    the entry contents and whose body leaves the block in place. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, whether or not it was fetched there (an unfetched
    input has not moved its index, so the previous point's block is this point's): for any proof data whose array is
    the entry contents and whose body leaves the block in place. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, whether or not it was fetched there (an unfetched
    input has not moved its index, so the previous point's block is this point's): for any proof data whose array is
    the entry contents and whose body leaves the block in place. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The single store of the body is the whole output buffer, so it covers it. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs, the inputs' reading `x_i` and the output's anything, runs to the continuation
    with the inputs as they were and the output reading `out3_5` of the inputs: every load reads a whole input,
    the one store writes the payload of those loads over the whole output. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`: the invariant, what the core owes, and every window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the kernel's triple applies; the invariant and
    what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation of the proof data, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Seg3.lean ====
/- Region 3 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg3Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 3 over the thread state "every unscoped buffer at the boundary's contents, the generator register at
    some state, nothing owed". -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => W7 m c b) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec3 c (fun b => W7 m c b)
  hentry c := by
    rw [Pipeline.ownSems0_none, hV7 m c]
    have hsplit := Pipeline.arrays_of_unscopedBufs (p := 3) (pcfgs (F := F)) adm (pdats m) launch3.win launch3.arr_whole c
      ((pdats m 3 c).share_full fun _ => rfl) (fun b => W7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [hV8 m c]
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (fun b => W7 m c b) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4Body.lean ====
/-
  Region 4: the body's triple and the pipeline's body obligation. The body loads its three input buffers whole,
  forms h · wcat + bcat once, and stores its three column ranges, each by one store over a whole output buffer; so
  each output buffer ends at the canonical contents of that one piece, whatever it held before.
-/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import proofs.«180311_j29308856828500_2_alg».proof.Proof.K.Reg4Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in its input buffers -/

/-- Input window 0's current buffer holds its block at every point, fetched there or not, for any proof data whose
    array is the region-entry one and whose body leaves the block in place: where the pipeline does not fetch, the block
    index has not moved since the point before (the weights and the bias are fetched once, the activations at every point). -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current buffer holds its block at every point, fetched there or not, for any proof data whose
    array is the region-entry one and whose body leaves the block in place: where the pipeline does not fetch, the block
    index has not moved since the point before (the weights and the bias are fetched once, the activations at every point). -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current buffer holds its block at every point, fetched there or not, for any proof data whose
    array is the region-entry one and whose body leaves the block in place: where the pipeline does not fetch, the block
    index has not moved since the point before (the weights and the bias are fetched once, the activations at every point). -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The stores cover the output buffers -/

/-- The one store into window 3's buffer takes the whole of it, so every index is covered. -/
theorem cover4_3 (p0 : Vec F S2000x128 .bf16) (y : S2000x128.Idx) :
    ∃ pc ∈ ([⟨r4_0, p0⟩] : List (View.Piece (Elt F) S2000x128 .bf16)), y ∈ pc.1.set :=
  View.cover_of_tiled [⟨r4_0, p0⟩] S2000x128.size (by rfl) y
/-- The one store into window 4's buffer takes the whole of it, so every index is covered. -/
theorem cover4_4 (p0 : Vec F S2000x256 .bf16) (y : S2000x256.Idx) :
    ∃ pc ∈ ([⟨r4_3, p0⟩] : List (View.Piece (Elt F) S2000x256 .bf16)), y ∈ pc.1.set :=
  View.cover_of_tiled [⟨r4_3, p0⟩] S2000x256.size (by rfl) y
/-- The one store into window 5's buffer takes the whole of it, so every index is covered. -/
theorem cover4_5 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- On whole buffers, the inputs' reading `x0 x1 x2` and the outputs' holding anything, the body runs to the
    continuation with the inputs' as they were and each output's at its function of `x0 x1 x2`. -/
theorem sound_kernel4 (c : Dev nD) (E : Set ℕ) (i : grid4.Coords) (arg1 : Memref sig .tc .vmem S2000x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S2000x128 .bf16) (harg4 : arg4.IsWhole) (arg5 : Memref sig .tc .vmem S2000x256 .bf16) (harg5 : arg5.IsWhole) (arg6 : Memref sig .tc .vmem S2000x128 .f32) (harg6 : arg6.IsWhole)
    (x0 : Vec F S2000x128 .f32) (x1 : Vec F S128x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2) ∗ owns (c : Thread nD τ) arg5 fullShare (out4_4 x0 x1 x2)
            ∗ owns (c : Thread nD τ) arg6 fullShare (out4_5 x0 x1 x2)) -∗ K ⟨⟩))
      ⊢ wp frame (wpE (defs₀ (F := F)) Variants.none c none) E (cc4__kqvs_kernel i arg1 harg1 arg2 harg2 arg3 harg3 arg4 harg4 arg5 harg5 arg6 harg6) K := by
  simp only [cc4__kqvs_kernel_eq_skeleton]; unfold cc4__kqvs_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  isplitl [H4]
  · iexists _; isplitr
    swap; · iexact H4
    ipureintro
    exact View.read_writes_eq_canon _ _ _ (cover4_4 _)
  iexists _; isplitr
  swap; · iexact H5
  ipureintro
  exact View.read_writes_eq_canon _ _ _ (cover4_5 _)

/-! ## The inputs' buffers under the region's own proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Seg4.lean ====
/- Region 4 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg4Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 4 over the thread state "every unscoped buffer at the boundary's contents, the generator register at
    some state, nothing owed". -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => W9 m c b) c).loose
  hwaits := Pipeline.hwaits_of_owed_zero _ _ _ _ L lv 4 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec4 c (fun b => W9 m c b)
  hentry c := by
    rw [Pipeline.ownSems0_none, hV9 m c]
    have hsplit := Pipeline.arrays_of_unscopedBufs (p := 4) (pcfgs (F := F)) adm (pdats m) launch4.win launch4.arr_whole c
      ((pdats m 4 c).share_full fun _ => rfl) (fun b => W9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    rw [hV10 m c]
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (fun b => W9 m c b) (fun b => W10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5Body.lean ====
/- Region 5: the body obligation of its pipeline, and the invariant at the region's entry and exit. -/
import proofs.«180311_j29308856828500_2_alg».proof.Proof.K.Reg5Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' buffers hold their blocks; the point is the first, a middle or the last one, and that
    case's run applies; the invariant hands the body the two accumulators at what the point before left (at anything at the
    first point) and takes them back at this point's contents; the one-row outputs come back untouched except at the last point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  by_cases h0 : t.val = 0
  · have h1 : ¬t.val = 24 := by omega
    rw [Dat.leavesExact_idle (dat5 V c) 3 t (idleAt5_3 t (hA1_5 t h0)) (noFlush5_3 t (hA1_5 t h0))]
    rw [Dat.leavesExact_idle (dat5 V c) 4 t (idleAt5_4 t (hA1_5 t h0)) (noFlush5_4 t (hA1_5 t h0))]
    rw [outsAt5_A V c t h0, scratchAt5_A V c t h0]
    unfold out5_A_2 sout5_A_0 sout5_A_1; (try dsimp only)
    rw [PhiS5_castSucc V c t, PhiS5_zero V c _ _ h0, PhiA5_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun5_A c (grid5.coords t) _ _ _ _ _ _ _ _ _ _ _ _ _ _ (hA0_5 t h0) (hA1_5 t h0) (iblk5 V c 0 t) (iblk5 V c 1 t)).2.2.2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover5_A_0 c _ _ _ _ _ _ _ _ _ _ _ _ _ _ _ _ _ _ _)
          unfold owns; iexists _; isplitr
          swap; · iexact HS1
          ipureintro; exact View.read_writes_of_cover _ _ _ _ _ (scover5_A_1 c _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover5_A_2 c _ _ _ _ _ _ _ _ _ _ _ _ _ _ _ _ _ _ _)
    isplitl [H3]; · iexists _; iexact H3
    iexists _; iexact H4
  · by_cases h1 : t.val = 24
    · rw [show (dat5 V c).leavesExact 3 t = owns (c : Thread nD τ) (ms5_3 t) fullShare ((dat5 V c).after 3 t) from by
          unfold Dat.leavesExact; rw [liveAt5_3 t (hC1_5 t h1)], after5_3]
      rw [show (dat5 V c).leavesExact 4 t = owns (c : Thread nD τ) (ms5_4 t) fullShare ((dat5 V c).after 4 t) from by
          unfold Dat.leavesExact; rw [liveAt5_4 t (hC1_5 t h1)], after5_4]
      rw [outsAt5_C V c t h0 h1, scratchAt5_C V c t h0 h1]
      unfold out5_C_2 out5_C_3 out5_C_4 sout5_C_0 sout5_C_1; (try dsimp only)
      rw [PhiS5_castSucc V c t, PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun5_C c (grid5.coords t) _ _ _ _ _ _ _ _ _ _ _ _ _ _ (hB0_5 t h0) (hC1_5 t h1) (iblk5 V c 0 t) (iblk5 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _)
            unfold owns; iexists _; isplitr
            swap; · iexact HS1
            ipureintro; exact View.read_writes_of_cover _ _ _ _ _ (scover5_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_C_2 c _ _ _ _ _ _ _ _ _ _ _ _ _ _ _ _ _ _ _ _ _)
      isplitl [H3]
      · unfold owns; iexists _; isplitr
        swap; · iexact H3
        ipureintro; exact View.read_writes_of_cover _ _ _ _ _ (cover5_C_3 c _ _ _ _ _ _ _ _ _ _ _ _ _ _ _ _ _ _ _ _ _)
      unfold owns; iexists _; isplitr
      swap; · iexact H4
      ipureintro; exact View.read_writes_of_cover _ _ _ _ _ (cover5_C_4 c _ _ _ _ _ _ _ _ _ _ _ _ _ _ _ _ _ _ _ _ _)
    · rw [Dat.leavesExact_idle (dat5 V c) 3 t (idleAt5_3 t (hB1_5 t h1)) (noFlush5_3 t (hB1_5 t h1))]
      rw [Dat.leavesExact_idle (dat5 V c) 4 t (idleAt5_4 t (hB1_5 t h1)) (noFlush5_4 t (hB1_5 t h1))]
      rw [outsAt5_B V c t h0 h1, scratchAt5_B V c t h0 h1]
      unfold out5_B_2 sout5_B_0 sout5_B_1; (try dsimp only)
      rw [PhiS5_castSucc V c t, PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ _ _ (hB0_5 t h0) (hB1_5 t h1) (iblk5 V c 0 t) (iblk5 V c 1 t) _ _).2.2.2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _)
            unfold owns; iexists _; isplitr
            swap; · iexact HS1
            ipureintro; exact View.read_writes_of_cover _ _ _ _ _ (scover5_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_B_2 c _ _ _ _ _ _ _ _ _ _ _ _ _ _ _ _ _ _ _ _ _)
      isplitl [H3]; · iexists _; iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- What the region is entered with — the generator register and the scoped rest — is the invariant before the first point. -/
theorem Phi5_in (c : Dev nD) : iprop((∃ r, prngReg c r) ∗ Pipeline.scopedRest (Ix := Unit) (Name := ℕ) (U := Pipeline.UD sig nD τ) (Lvl := ℕ) (Val := Elt F) spec5 c) ⊢ ((dat5 V c).Φ 0 : sProp 𝕄) := by
  rw [show (dat5 V c).Φ 0 = PhiS5 V c 0 (Nat.zero_le _) from rfl, PhiS5_zero V c 0 _ rfl]
  unfold Pipeline.ΦA
  iintro ⟨Hp, Hr⟩
  isplitl [Hr]; · iexact Hr
  iexact Hp

/-- After the last point the invariant gives them back: the accumulators' named contents are forgotten. -/
theorem Phi5_out (c : Dev nD) : ((dat5 V c).Φ (Fin.last _) : sProp 𝕄) ⊢ iprop((∃ r, prngReg c r) ∗ Pipeline.scopedRest (Ix := Unit) (Name := ℕ) (U := Pipeline.UD sig nD τ) (Lvl := ℕ) (Val := Elt F) spec5 c) := by
  rw [show (dat5 V c).Φ (Fin.last _) = PhiS5 V c (Fin.last cfg5.N).val (Nat.le_of_lt_succ (Fin.last cfg5.N).isLt) from rfl,
    PhiS5_pos V c _ _ (by rw [Fin.val_last]; have : cfg5.N = 25 := N_5; omega)]
  have hA : (Pipeline.ΦA spec5 c : sProp 𝕄) ⊢ iprop((∃ r, prngReg c r) ∗ Pipeline.scopedRest (Ix := Unit) (Name := ℕ) (U := Pipeline.UD sig nD τ) (Lvl := ℕ) (Val := Elt F) spec5 c) := by
    unfold Pipeline.ΦA
    iintro ⟨Hr, Hp⟩
    isplitl [Hp]; · iexact Hp
    iexact Hr
  rw [PhiA5_eq] at hA
  iintro ⟨⟨⟨HS0, HS1⟩, HR⟩, Hg⟩
  iapply hA
  isplitl [HS0 HS1 HR]
  · isplitl [HS0 HS1]
    · isplitl [HS0]; · iexists _; iexact HS0
      iexists _; iexact HS1
    iexact HR
  iexact Hg

end Cert.Kernel.Hand

end
-- ==== Proof.K.Seg5.lean ====
/- Region 5 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg5Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 5 over the thread state "every unscoped buffer at the boundary's contents, the generator register at
    some state, nothing owed". -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => W11 m c b) c).loose
  hwaits := Pipeline.hwaits_of_owed_zero _ _ _ _ L lv 5 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec5 c (fun b => W11 m c b)
  hentry c := by
    rw [Pipeline.ownSems0_none, hV11 m c]
    have hsplit := Pipeline.arrays_of_unscopedBufs (p := 5) (pcfgs (F := F)) adm (pdats m) launch5.win launch5.arr_whole c
      ((pdats m 5 c).share_full fun _ => rfl) (fun b => W11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (fun c b => W11 m c b) c).Φ 0 from rfl]
    refine BIBase.Entails.trans ?_ (Phi5_in (fun c b => W11 m c b) c)
    iintro ⟨Hp, -, Hr⟩
    isplitl [Hp]; · iexact Hp
    iexact Hr
  hout c := by
    rw [Pipeline.ownSems0_none, show (pdats m 5 c).Φ (Fin.last _) = (dat5 (fun c b => W11 m c b) c).Φ (Fin.last _) from rfl]
    refine (Phi5_out (fun c b => W11 m c b) c).trans ?_
    iintro ⟨Hp, Hr⟩
    isplitl [Hp]; · iexact Hp
    isplitr; · iempintro
    iexact Hr
  hexit c := by
    rw [hV12 m c]
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (fun b => W11 m c b) (fun b => W12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6Body.lean ====
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import proofs.«180311_j29308856828500_2_alg».proof.Proof.K.Reg6Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 6: the body's triple and the obligation of its proof data -/

/-- Input window 0's current buffer holds its block at every point, whether or not it was fetched there (an unfetched
    input has not moved its index, so the previous point's block is this point's): for any proof data whose array is
    the entry contents and whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current buffer holds its block at every point, whether or not it was fetched there (an unfetched
    input has not moved its index, so the previous point's block is this point's): for any proof data whose array is
    the entry contents and whose body leaves the block in place. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current buffer holds its block at every point, whether or not it was fetched there (an unfetched
    input has not moved its index, so the previous point's block is this point's): for any proof data whose array is
    the entry contents and whose body leaves the block in place. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current buffer holds its block at every point, whether or not it was fetched there (an unfetched
    input has not moved its index, so the previous point's block is this point's): for any proof data whose array is
    the entry contents and whose body leaves the block in place. -/
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current buffer holds its block at every point, whether or not it was fetched there (an unfetched
    input has not moved its index, so the previous point's block is this point's): for any proof data whose array is
    the entry contents and whose body leaves the block in place. -/
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The single store of the body is the whole output buffer, so it covers it. -/
theorem cover6_5 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

set_option maxHeartbeats 1000000 in
/-- The body on whole staging memrefs, the inputs' reading `x_i` and the output's anything, runs to the continuation
    with the inputs as they were and the output reading `out6_5` of the inputs: every load reads a whole input,
    the one store writes the payload of those loads over the whole output. -/
theorem sound_kernel6 (c : Dev nD) (E : Set ℕ) (i : grid6.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__bn_relu_kernel i arg1 harg1 arg2 harg2 arg3 harg3 arg4 harg4 arg5 harg5 arg6 harg6) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! Each input's current buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`: the invariant, what the core owes, and every window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the kernel's triple applies; the invariant and
    what the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation of the proof data, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.Seg6.lean ====
/- Region 6 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg6Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 6 over the thread state "every unscoped buffer at the boundary's contents, the generator register at
    some state, nothing owed". -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => W13 m c b) c).loose
  hwaits := Pipeline.hwaits_of_owed_zero _ _ _ _ L lv 6 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec6 c (fun b => W13 m c b)
  hentry c := by
    rw [Pipeline.ownSems0_none, hV13 m c]
    have hsplit := Pipeline.arrays_of_unscopedBufs (p := 6) (pcfgs (F := F)) adm (pdats m) launch6.win launch6.arr_whole c
      ((pdats m 6 c).share_full fun _ => rfl) (fun b => W13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    rw [hV14 m c]
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (fun b => W13 m c b) (fun b => W14 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7Body.lean ====
/-
  Region 7: the body's triple and the pipeline's body obligation. The body loads its three input buffers whole,
  forms h · wcat + bcat once, and stores its three column ranges, each by one store over a whole output buffer; so
  each output buffer ends at the canonical contents of that one piece, whatever it held before.
-/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import proofs.«180311_j29308856828500_2_alg».proof.Proof.K.Reg7Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in its input buffers -/

/-- Input window 0's current buffer holds its block at every point, fetched there or not, for any proof data whose
    array is the region-entry one and whose body leaves the block in place: where the pipeline does not fetch, the block
    index has not moved since the point before (the weights and the bias are fetched once, the activations at every point). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current buffer holds its block at every point, fetched there or not, for any proof data whose
    array is the region-entry one and whose body leaves the block in place: where the pipeline does not fetch, the block
    index has not moved since the point before (the weights and the bias are fetched once, the activations at every point). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current buffer holds its block at every point, fetched there or not, for any proof data whose
    array is the region-entry one and whose body leaves the block in place: where the pipeline does not fetch, the block
    index has not moved since the point before (the weights and the bias are fetched once, the activations at every point). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The stores cover the output buffers -/

/-- The one store into window 3's buffer takes the whole of it, so every index is covered. -/
theorem cover7_3 (p0 : Vec F S2000x128 .bf16) (y : S2000x128.Idx) :
    ∃ pc ∈ ([⟨r7_0, p0⟩] : List (View.Piece (Elt F) S2000x128 .bf16)), y ∈ pc.1.set :=
  View.cover_of_tiled [⟨r7_0, p0⟩] S2000x128.size (by rfl) y
/-- The one store into window 4's buffer takes the whole of it, so every index is covered. -/
theorem cover7_4 (p0 : Vec F S2000x256 .bf16) (y : S2000x256.Idx) :
    ∃ pc ∈ ([⟨r7_3, p0⟩] : List (View.Piece (Elt F) S2000x256 .bf16)), y ∈ pc.1.set :=
  View.cover_of_tiled [⟨r7_3, p0⟩] S2000x256.size (by rfl) y
/-- The one store into window 5's buffer takes the whole of it, so every index is covered. -/
theorem cover7_5 (p0 : Vec F S2000x128 .f32) (y : S2000x128.Idx) :
    ∃ pc ∈ ([⟨r7_0, p0⟩] : List (View.Piece (Elt F) S2000x128 .f32)), y ∈ pc.1.set :=
  View.cover_of_tiled [⟨r7_0, p0⟩] S2000x128.size (by rfl) y

/-! ## The body's triple -/

set_option maxHeartbeats 1000000 in
/-- On whole buffers, the inputs' reading `x0 x1 x2` and the outputs' holding anything, the body runs to the
    continuation with the inputs' as they were and each output's at its function of `x0 x1 x2`. -/
theorem sound_kernel7 (c : Dev nD) (E : Set ℕ) (i : grid7.Coords) (arg1 : Memref sig .tc .vmem S2000x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S2000x128 .bf16) (harg4 : arg4.IsWhole) (arg5 : Memref sig .tc .vmem S2000x256 .bf16) (harg5 : arg5.IsWhole) (arg6 : Memref sig .tc .vmem S2000x128 .f32) (harg6 : arg6.IsWhole)
    (x0 : Vec F S2000x128 .f32) (x1 : Vec F S128x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2) ∗ owns (c : Thread nD τ) arg5 fullShare (out7_4 x0 x1 x2)
            ∗ owns (c : Thread nD τ) arg6 fullShare (out7_5 x0 x1 x2)) -∗ K ⟨⟩))
      ⊢ wp frame (wpE (defs₀ (F := F)) Variants.none c none) E (cc7__kqvs_kernel i arg1 harg1 arg2 harg2 arg3 harg3 arg4 harg4 arg5 harg5 arg6 harg6) K := by
  simp only [cc7__kqvs_kernel_eq_skeleton]; unfold cc7__kqvs_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  isplitl [H4]
  · iexists _; isplitr
    swap; · iexact H4
    ipureintro
    exact View.read_writes_eq_canon _ _ _ (cover7_4 _)
  iexists _; isplitr
  swap; · iexact H5
  ipureintro
  exact View.read_writes_eq_canon _ _ _ (cover7_5 _)

/-! ## The inputs' buffers under the region's own proof data -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.Seg7.lean ====
/- Region 7 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg7Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 7 over the thread state "every unscoped buffer at the boundary's contents, the generator register at
    some state, nothing owed". -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => W15 m c b) c).loose
  hwaits := Pipeline.hwaits_of_owed_zero _ _ _ _ L lv 7 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec7 c (fun b => W15 m c b)
  hentry c := by
    rw [Pipeline.ownSems0_none, hV15 m c]
    have hsplit := Pipeline.arrays_of_unscopedBufs (p := 7) (pcfgs (F := F)) adm (pdats m) launch7.win launch7.arr_whole c
      ((pdats m 7 c).share_full fun _ => rfl) (fun b => W15 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    rw [hV16 m c]
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (fun b => W15 m c b) (fun b => W16 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8Body.lean ====
/- Region 8: the body obligation of its pipeline, and the invariant at the region's entry and exit. -/
import proofs.«180311_j29308856828500_2_alg».proof.Proof.K.Reg8Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point: the inputs' buffers hold their blocks; the point is the first, a middle or the last one, and that
    case's run applies; the invariant hands the body the two accumulators at what the point before left (at anything at the
    first point) and takes them back at this point's contents; the one-row outputs come back untouched except at the last point. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 25 := lt_of_lt_of_eq t.isLt (show cfg8.N = 25 from N_8)
  rw [show (dat8 V c).leavesExact 0 t = owns (c : Thread nD τ) (ms8_0 t) fullShare ((dat8 V c).after 0 t) from by
      unfold Dat.leavesExact; rw [liveAt8_0 t], after8_0]
  rw [show (dat8 V c).leavesExact 1 t = owns (c : Thread nD τ) (ms8_1 t) fullShare ((dat8 V c).after 1 t) from by
      unfold Dat.leavesExact; rw [liveAt8_1 t], after8_1]
  rw [show (dat8 V c).leavesExact 2 t = owns (c : Thread nD τ) (ms8_2 t) fullShare ((dat8 V c).after 2 t) from by
      unfold Dat.leavesExact; rw [liveAt8_2 t], after8_2]
  by_cases h0 : t.val = 0
  · have h1 : ¬t.val = 24 := by omega
    rw [Dat.leavesExact_idle (dat8 V c) 3 t (idleAt8_3 t (hA1_8 t h0)) (noFlush8_3 t (hA1_8 t h0))]
    rw [Dat.leavesExact_idle (dat8 V c) 4 t (idleAt8_4 t (hA1_8 t h0)) (noFlush8_4 t (hA1_8 t h0))]
    rw [outsAt8_A V c t h0, scratchAt8_A V c t h0]
    unfold out8_A_2 sout8_A_0 sout8_A_1; (try dsimp only)
    rw [PhiS8_castSucc V c t, PhiS8_zero V c _ _ h0, PhiA8_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun8_A c (grid8.coords t) _ _ _ _ _ _ _ _ _ _ _ _ _ _ (hA0_8 t h0) (hA1_8 t h0) (iblk8 V c 0 t) (iblk8 V c 1 t)).2.2.2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _ _ _ _ _)
          unfold owns; iexists _; isplitr
          swap; · iexact HS1
          ipureintro; exact View.read_writes_of_cover _ _ _ _ _ (scover8_A_1 c _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover8_A_2 c _ _ _ _ _ _ _ _ _ _ _ _ _ _ _ _ _ _ _)
    isplitl [H3]; · iexists _; iexact H3
    iexists _; iexact H4
  · by_cases h1 : t.val = 24
    · rw [show (dat8 V c).leavesExact 3 t = owns (c : Thread nD τ) (ms8_3 t) fullShare ((dat8 V c).after 3 t) from by
          unfold Dat.leavesExact; rw [liveAt8_3 t (hC1_8 t h1)], after8_3]
      rw [show (dat8 V c).leavesExact 4 t = owns (c : Thread nD τ) (ms8_4 t) fullShare ((dat8 V c).after 4 t) from by
          unfold Dat.leavesExact; rw [liveAt8_4 t (hC1_8 t h1)], after8_4]
      rw [outsAt8_C V c t h0 h1, scratchAt8_C V c t h0 h1]
      unfold out8_C_2 out8_C_3 out8_C_4 sout8_C_0 sout8_C_1; (try dsimp only)
      rw [PhiS8_castSucc V c t, PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun8_C c (grid8.coords t) _ _ _ _ _ _ _ _ _ _ _ _ _ _ (hB0_8 t h0) (hC1_8 t h1) (iblk8 V c 0 t) (iblk8 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_C_0 c _ _ _ _ _ _ _ _ _ _ _ _ _ _ _ _ _ _ _ _ _)
            unfold owns; iexists _; isplitr
            swap; · iexact HS1
            ipureintro; exact View.read_writes_of_cover _ _ _ _ _ (scover8_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover8_C_2 c _ _ _ _ _ _ _ _ _ _ _ _ _ _ _ _ _ _ _ _ _)
      isplitl [H3]
      · unfold owns; iexists _; isplitr
        swap; · iexact H3
        ipureintro; exact View.read_writes_of_cover _ _ _ _ _ (cover8_C_3 c _ _ _ _ _ _ _ _ _ _ _ _ _ _ _ _ _ _ _ _ _)
      unfold owns; iexists _; isplitr
      swap; · iexact H4
      ipureintro; exact View.read_writes_of_cover _ _ _ _ _ (cover8_C_4 c _ _ _ _ _ _ _ _ _ _ _ _ _ _ _ _ _ _ _ _ _)
    · rw [Dat.leavesExact_idle (dat8 V c) 3 t (idleAt8_3 t (hB1_8 t h1)) (noFlush8_3 t (hB1_8 t h1))]
      rw [Dat.leavesExact_idle (dat8 V c) 4 t (idleAt8_4 t (hB1_8 t h1)) (noFlush8_4 t (hB1_8 t h1))]
      rw [outsAt8_B V c t h0 h1, scratchAt8_B V c t h0 h1]
      unfold out8_B_2 sout8_B_0 sout8_B_1; (try dsimp only)
      rw [PhiS8_castSucc V c t, PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun8_B c (grid8.coords t) _ _ _ _ _ _ _ _ _ _ _ _ _ _ (hB0_8 t h0) (hB1_8 t h1) (iblk8 V c 0 t) (iblk8 V c 1 t) _ _).2.2.2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_B_0 c _ _ _ _ _ _ _ _ _ _ _ _ _ _ _ _ _ _ _ _ _)
            unfold owns; iexists _; isplitr
            swap; · iexact HS1
            ipureintro; exact View.read_writes_of_cover _ _ _ _ _ (scover8_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover8_B_2 c _ _ _ _ _ _ _ _ _ _ _ _ _ _ _ _ _ _ _ _ _)
      isplitl [H3]; · iexists _; iexact H3
      iexists _; iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- What the region is entered with — the generator register and the scoped rest — is the invariant before the first point. -/
theorem Phi8_in (c : Dev nD) : iprop((∃ r, prngReg c r) ∗ Pipeline.scopedRest (Ix := Unit) (Name := ℕ) (U := Pipeline.UD sig nD τ) (Lvl := ℕ) (Val := Elt F) spec8 c) ⊢ ((dat8 V c).Φ 0 : sProp 𝕄) := by
  rw [show (dat8 V c).Φ 0 = PhiS8 V c 0 (Nat.zero_le _) from rfl, PhiS8_zero V c 0 _ rfl]
  unfold Pipeline.ΦA
  iintro ⟨Hp, Hr⟩
  isplitl [Hr]; · iexact Hr
  iexact Hp

/-- After the last point the invariant gives them back: the accumulators' named contents are forgotten. -/
theorem Phi8_out (c : Dev nD) : ((dat8 V c).Φ (Fin.last _) : sProp 𝕄) ⊢ iprop((∃ r, prngReg c r) ∗ Pipeline.scopedRest (Ix := Unit) (Name := ℕ) (U := Pipeline.UD sig nD τ) (Lvl := ℕ) (Val := Elt F) spec8 c) := by
  rw [show (dat8 V c).Φ (Fin.last _) = PhiS8 V c (Fin.last cfg8.N).val (Nat.le_of_lt_succ (Fin.last cfg8.N).isLt) from rfl,
    PhiS8_pos V c _ _ (by rw [Fin.val_last]; have : cfg8.N = 25 := N_8; omega)]
  have hA : (Pipeline.ΦA spec8 c : sProp 𝕄) ⊢ iprop((∃ r, prngReg c r) ∗ Pipeline.scopedRest (Ix := Unit) (Name := ℕ) (U := Pipeline.UD sig nD τ) (Lvl := ℕ) (Val := Elt F) spec8 c) := by
    unfold Pipeline.ΦA
    iintro ⟨Hr, Hp⟩
    isplitl [Hp]; · iexact Hp
    iexact Hr
  rw [PhiA8_eq] at hA
  iintro ⟨⟨⟨HS0, HS1⟩, HR⟩, Hg⟩
  iapply hA
  isplitl [HS0 HS1 HR]
  · isplitl [HS0 HS1]
    · isplitl [HS0]; · iexists _; iexact HS0
      iexists _; iexact HS1
    iexact HR
  iexact Hg

end Cert.Kernel.Hand

end
-- ==== Proof.K.Seg8.lean ====
/- Region 8 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg8Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 8 over the thread state "every unscoped buffer at the boundary's contents, the generator register at
    some state, nothing owed". -/
def reg8 : Pipeline.RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => W17 m c b) c).loose
  hwaits := Pipeline.hwaits_of_owed_zero _ _ _ _ L lv 8 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec8 c (fun b => W17 m c b)
  hentry c := by
    rw [Pipeline.ownSems0_none, hV17 m c]
    have hsplit := Pipeline.arrays_of_unscopedBufs (p := 8) (pcfgs (F := F)) adm (pdats m) launch8.win launch8.arr_whole c
      ((pdats m 8 c).share_full fun _ => rfl) (fun b => W17 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (fun c b => W17 m c b) c).Φ 0 from rfl]
    refine BIBase.Entails.trans ?_ (Phi8_in (fun c b => W17 m c b) c)
    iintro ⟨Hp, -, Hr⟩
    isplitl [Hp]; · iexact Hp
    iexact Hr
  hout c := by
    rw [Pipeline.ownSems0_none, show (pdats m 8 c).Φ (Fin.last _) = (dat8 (fun c b => W17 m c b) c).Φ (Fin.last _) from rfl]
    refine (Phi8_out (fun c b => W17 m c b) c).trans ?_
    iintro ⟨Hp, Hr⟩
    isplitl [Hp]; · iexact Hp
    isplitr; · iempintro
    iexact Hr
  hexit c := by
    rw [hV18 m c]
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (fun b => W17 m c b) (fun b => W18 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9Body.lean ====
/- Region 9: the body's triple on whole staging buffers, and from it the pipeline's body obligation at every
   point of the grid. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Reg9Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## An input window's staging buffer holds its block at every point

Whether or not the window is fetched at the point: where it is not, its block index has not moved, so the block
fetched earlier is still this point's. Stated for any proof data with the entry arrays and a body that leaves the
input blocks in place. -/

theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (Pipeline.UD sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (Pipeline.UD sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (Pipeline.UD sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's triple -/

/-- The body's single store is of the whole output block, so it covers it. -/
theorem cover9_7 (p0 : Vec F S2000x32 .f32) (y : S2000x32.Idx) :
    ∃ pc ∈ ([⟨r9_4, p0⟩] : List (View.Piece (Elt F) S2000x32 .f32)), y ∈ pc.1.set :=
  View.cover_of_tiled [⟨r9_4, p0⟩] S2000x32.size (by rfl) y

set_option maxHeartbeats 1000000 in
/-- On whole staging buffers — the seven inputs' holding `x0 … x6`, the output's holding anything — the body runs
    to the continuation with the inputs' as they were and the output's at `out9_7 x0 … x6`. -/
theorem sound_kernel9 (c : Dev nD) (E : Set ℕ) (i : grid9.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x32 .bf16) (harg6 : arg6.IsWhole) (arg7 : Memref sig .tc .vmem S1x32 .f32) (harg7 : arg7.IsWhole) (arg8 : Memref sig .tc .vmem S2000x32 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x32 .bf16) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__bn_relu_head_kernel i arg1 harg1 arg2 harg2 arg3 harg3 arg4 harg4 arg5 harg5 arg6 harg6 arg7 harg7 arg8 harg8) K := by
  simp only [cc9__bn_relu_head_kernel_eq_skeleton]; unfold cc9__bn_relu_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The input windows under the pipeline's proof data -/

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point `t`: the invariant, the core's dues, every window's current staging buffer. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the triple applies; the invariant and the
    core's dues pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Seg9.lean ====
/- Region 9 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Reg9Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 9 over the thread state "every unscoped buffer at the boundary's contents, the generator register at
    some state, nothing owed". -/
def reg9 : Pipeline.RegionSeg (pcfgs (F := F)) adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (fun c b => W19 m c b) c).loose
  hwaits := Pipeline.hwaits_of_owed_zero _ _ _ _ L lv 9 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec9 c (fun b => W19 m c b)
  hentry c := by
    rw [Pipeline.ownSems0_none, hV19 m c]
    have hsplit := Pipeline.arrays_of_unscopedBufs (p := 9) (pcfgs (F := F)) adm (pdats m) launch9.win launch9.arr_whole c
      ((pdats m 9 c).share_full fun _ => rfl) (fun b => W19 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    rw [hV20 m c]
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (fun b => W19 m c b) (fun b => W20 m c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/- The frame of the whole program: from any memory with zero counters, every weakly fair execution on the
   TensorCores terminates and every final memory holds each argument array as launched — and holds in the result
   buffer what the fold of boundary contents has there. The ten regions' segment records are chained through the
   host stretches between them. -/
import proofs.«180311_j29308856828500_2_alg».proof.Proof.Gen.Kernel.Launch
import proofs.«180311_j29308856828500_2_alg».proof.Proof.Gen.Kernel.Skeleton
import proofs.«180311_j29308856828500_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.K.Bounds
import proofs.«180311_j29308856828500_2_alg».proof.Proof.K.Seg0
import proofs.«180311_j29308856828500_2_alg».proof.Proof.K.Seg1
import proofs.«180311_j29308856828500_2_alg».proof.Proof.K.Seg2
import proofs.«180311_j29308856828500_2_alg».proof.Proof.K.Seg3
import proofs.«180311_j29308856828500_2_alg».proof.Proof.K.Seg4
import proofs.«180311_j29308856828500_2_alg».proof.Proof.K.Seg5
import proofs.«180311_j29308856828500_2_alg».proof.Proof.K.Seg6
import proofs.«180311_j29308856828500_2_alg».proof.Proof.K.Seg7
import proofs.«180311_j29308856828500_2_alg».proof.Proof.K.Seg8
import proofs.«180311_j29308856828500_2_alg».proof.Proof.K.Seg9
import proofs.«180311_j29308856828500_2_alg».proof.Proof.K.FrameCondNamed

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- Every argument array ends as launched. The rest state between two items is the generator register at some state
    beside the core owing nothing; the launch makes it on every core at once; the launch element is the pipelines'
    own, with no ghost resource beside it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m embL () Variants.none L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

set_option backward.isDefEq.respectTransparency.types false in
/-- The same run, its result named: besides the arguments, the final memory holds in `main_v176` the last boundary's
    contents there, which is what region 9's write-backs leave. -/
theorem run_named : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v176) = W20 m c main_v176) :=
  (θ_run defs _ _).mono (fun _ h c => by
      obtain ⟨h0, h1, h2, h3, h4, h5, h6, h7, h8, h9, hr⟩ := h c
      exact ⟨h0, h1, h2, h3, h4, h5, h6, h7, h8, h9, hr.trans (congrFun (hV20 m c) (Proc.devRef .tc main_v176))⟩)
    (frame_cond_named m embL () Variants.none L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl))

end Cert.Kernel.Hand

end
-- ==== Proof.KI.Reg0Dat.lean ====
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 0: the blocks its windows hold, what its body leaves, and its proof data -/

/-- The block of window `w` at grid point `t`: the part of the window's array, as the region finds it, that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The rectangles the body reads and writes: each is a whole staging buffer. -/
abbrev r0_0 : Rect S2000x64 := Rect.unit (s := S2000x64) ![0, 0] S2000x64.size inb_S2000x64_S2000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- What the body leaves in the output window's buffer, as a function of the input blocks: its single store covers
    the whole buffer, and stores the payload computed from the whole-buffer loads of the inputs. -/
def out0_3 (x0 : Vec F S2000x64 .f32) (x1 : Vec F S64x128 .bf16) (x2 : Vec F S1x128 .f32) : Vec F S2000x128 .f32 :=
  View.canon [⟨r0_3, k0_pay1 (View.ld x0 r0_0) (View.ld x1 r0_1) (View.ld x2 r0_2)⟩]

/-- The proof data of the region on core `c`: the arrays are the entry contents; after the body at point `t`
    every input buffer still holds its block and the output buffer holds `out0_3` of the input blocks; the
    invariant is the one of a body that touches nothing but its windows; full shares, nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- The invariant does not depend on the point. -/
theorem Phi0_eq (c : Dev nD) (t) : (dat0 V c).Φ t = Pipeline.ΦA spec0 c := rfl

end Cert.KernelIdeal.Hand
-- ==== Proof.KI.Reg1Dat.lean ====
/-
  Region 1: the fused projection h · wcat + bcat, cut by columns into k (0:128, rounded to bf16),
  qv (128:384, rounded to bf16) and s (384:512, kept in f32). Definitions only: each window's block
  at a grid point read off the region-entry contents, what the body leaves in each output buffer as a
  function of the three input blocks, and the proof data of the pipeline over them.
-/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the region-entry contents of the core's buffers: a parameter, fixed by whoever assembles the run
variable (V : (c : Dev nD) → (b : Ref sig .tc) → Buf (Elt F) ((c : Thread nD τ).loc b))

/-! ## The windows' blocks -/

/-- Window `w`'s block at point `t`: the rows `2000 t … 2000 t + 1999` of the activations and of the three
    outputs, the whole of the weights and of the bias, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and store takes its whole buffer -/

abbrev r1_0 : Rect S2000x128 := Rect.unit (s := S2000x128) ![0, 0] S2000x128.size inb_S2000x128_S2000x128_0_0
abbrev r1_1 : Rect S128x512 := Rect.unit (s := S128x512) ![0, 0] S128x512.size inb_S128x512_S128x512_0_0
abbrev r1_2 : Rect S1x512 := Rect.unit (s := S1x512) ![0, 0] S1x512.size inb_S1x512_S1x512_0_0
abbrev r1_3 : Rect S2000x256 := Rect.unit (s := S2000x256) ![0, 0] S2000x256.size inb_S2000x256_S2000x256_0_0

/-! ## What the body leaves in each output buffer -/

/-- The k block: columns 0:128 of `h · wcat + bcat` rounded to bf16 — one store over the whole buffer. -/
def out1_3 (x0 : Vec F S2000x128 .f32) (x1 : Vec F S128x512 .bf16) (x2 : Vec F S1x512 .f32) : Vec F S2000x128 .bf16 :=
  View.canon [⟨r1_0, k1_pay2 (View.ld x0 r1_0) (View.ld x1 r1_1) (View.ld x2 r1_2)⟩]

/-- The qv block: columns 128:384 rounded to bf16 — one store over the whole buffer. -/
def out1_4 (x0 : Vec F S2000x128 .f32) (x1 : Vec F S128x512 .bf16) (x2 : Vec F S1x512 .f32) : Vec F S2000x256 .bf16 :=
  View.canon [⟨r1_3, k1_pay3 (View.ld x0 r1_0) (View.ld x1 r1_1) (View.ld x2 r1_2)⟩]

/-- The s block: columns 384:512 in f32 — one store over the whole buffer. -/
def out1_5 (x0 : Vec F S2000x128 .f32) (x1 : Vec F S128x512 .bf16) (x2 : Vec F S1x512 .f32) : Vec F S2000x128 .f32 :=
  View.canon [⟨r1_0, k1_pay4 (View.ld x0 r1_0) (View.ld x1 r1_1) (View.ld x2 r1_2)⟩]

/-! ## The pipeline's proof data -/

/-- The arrays as the region finds them; after the body at point `t` each input buffer still at its block and each
    output buffer at its function of the three input blocks; the invariant is the untouched scoped rest and generator
    register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) := by dsimp only [dat1]

/-- The invariant is the same at every point: the body touches neither the scoped rest nor the generator register. -/
theorem Phi1_eq (c : Dev nD) (t : Fin (cfg1.N + 1)) : (dat1 V c).Φ t = Pipeline.ΦA spec1 c := rfl

end Cert.KernelIdeal.Hand
-- ==== Proof.KI.Reg2Runs.lean ====
/- Region 2 (the fused add and column statistics): what the three cases of the body share. The body adds its two
   input blocks into the output block at every point, and keeps two row accumulators (the column sums of the
   block and of its squares) in buffers of its own between points: zeroed at the first point, copied into the
   two one-row outputs at the last. The cases: A the first point, B a middle point, C the last point. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first point" as the body computes it. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point" as the body computes it. -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

theorem hA0_2 (t : Fin cfg2.N) (h : t.val = 0) : cond2_0 (grid2.coords t) := (hcond2_0 t).mpr h
theorem hA1_2 (t : Fin cfg2.N) (h : t.val = 0) : ¬cond2_1 (grid2.coords t) := fun h' => by have := (hcond2_1 t).mp h'; omega
theorem hB0_2 (t : Fin cfg2.N) (h : ¬t.val = 0) : ¬cond2_0 (grid2.coords t) := fun h' => h ((hcond2_0 t).mp h')
theorem hB1_2 (t : Fin cfg2.N) (h : ¬t.val = 24) : ¬cond2_1 (grid2.coords t) := fun h' => h ((hcond2_1 t).mp h')
theorem hC1_2 (t : Fin cfg2.N) (h : t.val = 24) : cond2_1 (grid2.coords t) := (hcond2_1 t).mpr h

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the two one-row outputs are idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The buffers the body is called on -/

/-- One staging buffer per output window, through which its contents are stated. -/
abbrev VO2_2 : View sig .tc .vmem S2000x128 .f32 := (Memref.whole cc2_stg2_0 : Memref sig .tc .vmem S2000x128 .f32).view
abbrev VO2_3 : View sig .tc .vmem S1x128 .f32 := (Memref.whole cc2_stg3_0 : Memref sig .tc .vmem S1x128 .f32).view
abbrev VO2_4 : View sig .tc .vmem S1x128 .f32 := (Memref.whole cc2_stg4_0 : Memref sig .tc .vmem S1x128 .f32).view
/-- Each window's current staging buffer at point `t`, and its wholeness. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
/-- The two accumulators: whole buffers of the body's own, passed beside the windows. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- Every scoped buffer of the core that is not one of this region's staging buffers nor one of its two accumulators. -/
abbrev restBut2 (c : Dev nD) : sProp 𝕄 :=
  Pipeline.scopedRestBut (Ix := Unit) (Name := ℕ) (U := Pipeline.UD sig nD τ) (Lvl := ℕ) (Val := Elt F) spec2 c [cc2_scratch0, cc2_scratch1]

/-- The region's entry invariant with the two accumulators split out of the scoped rest, each at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 c) ∗ (∃ r, prngReg c r)) := by
  unfold Pipeline.ΦA; rw [scopedRest2_split]; simp only [scM2_0, scM2_1, owns_whole]; try rfl

end Cert.KernelIdeal.Hand

end
-- ==== Proof.KI.Reg2RunA.lean ====
/- Region 2, case A: the body's run at the first point (both accumulators zeroed, then the block's column sums added; the one-row outputs untouched). -/
import proofs.«180311_j29308856828500_2_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc2__fuse_stats_kernel_eq_skeleton]; unfold cc2__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.KernelIdeal.Hand

end
-- ==== Proof.KI.Reg2RunB.lean ====
/- Region 2, case B: the body's run at a middle point (the block's column sums added onto what the point before left; the one-row outputs untouched). -/
import proofs.«180311_j29308856828500_2_alg».proof.Proof.KI.Reg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc2__fuse_stats_kernel_eq_skeleton]; unfold cc2__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.KernelIdeal.Hand

end
-- ==== Proof.KI.Reg2RunC.lean ====
/- Region 2, case C: the body's run at the last point (the column sums added, then both accumulators copied into the one-row outputs). -/
import proofs.«180311_j29308856828500_2_alg».proof.Proof.KI.Reg2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__fuse_stats_kernel i arg1 harg1 arg2 harg2 arg3 harg3 arg4 harg4 arg5 harg5 arg6 harg6 arg7 harg7) K } := by
  refine ⟨?_, ?_, ?_, ?_, ?_, fun E K => ?run⟩
  case run =>
    simp only [cc2__fuse_stats_kernel_eq_skeleton]; unfold cc2__fuse_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Hand

end
-- ==== Proof.KI.Reg2Dat.lean ====
/- Region 2: what each case leaves in the outputs and in the two accumulators, the accumulation point by point,
   the region invariant and the pipeline's proof data. -/
import proofs.«180311_j29308856828500_2_alg».proof.Proof.KI.Reg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Case A's stores into output 2 cover its block. -/
theorem cover2_A_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) (y : S2000x128.Idx) :
    ∃ pc ∈ (kernelRun2_A c i arg1 harg1 arg2 harg2 arg3 harg3 arg4 harg4 arg5 harg5 arg6 harg6 arg7 harg7 hc0 hc1 x0 x1).1, y ∈ pc.1.set :=
  View.cover_of_tiledL (kernelRun2_A c i arg1 harg1 arg2 harg2 arg3 harg3 arg4 harg4 arg5 harg5 arg6 harg6 arg7 harg7 hc0 hc1 x0 x1).1 S2000x128.size (by sl_kernel_rfl) y

/-- What case A leaves in output 2's staging buffer: its pieces read back. -/
def out2_A_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) : Vec F S2000x128 .f32 :=
  VO2_2.read (Elt F) (VO2_2.writes (Elt F) VO2_2.junk (kernelRun2_A c i arg1 harg1 arg2 harg2 arg3 harg3 arg4 harg4 arg5 harg5 arg6 harg6 arg7 harg7 hc0 hc1 x0 x1).1)

/-- Case A's stores into accumulator 0 cover it. -/
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) (y : S1x128.Idx) :
    ∃ pc ∈ (kernelRun2_A c i arg1 harg1 arg2 harg2 arg3 harg3 arg4 harg4 arg5 harg5 arg6 harg6 arg7 harg7 hc0 hc1 x0 x1).2.2.2.1, y ∈ pc.1.set :=
  View.cover_of_tiledL (kernelRun2_A c i arg1 harg1 arg2 harg2 arg3 harg3 arg4 harg4 arg5 harg5 arg6 harg6 arg7 harg7 hc0 hc1 x0 x1).2.2.2.1 S1x128.size (by sl_kernel_rfl) y

/-- What case A leaves in accumulator 0: its pieces read back. -/
def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1).2.2.2.1)

/-- Case A's stores into accumulator 1 cover it. -/
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) (y : S1x128.Idx) :
    ∃ pc ∈ (kernelRun2_A c i arg1 harg1 arg2 harg2 arg3 harg3 arg4 harg4 arg5 harg5 arg6 harg6 arg7 harg7 hc0 hc1 x0 x1).2.2.2.2.1, y ∈ pc.1.set :=
  View.cover_of_tiledL (kernelRun2_A c i arg1 harg1 arg2 harg2 arg3 harg3 arg4 harg4 arg5 harg5 arg6 harg6 arg7 harg7 hc0 hc1 x0 x1).2.2.2.2.1 S1x128.size (by sl_kernel_rfl) y

/-- What case A leaves in accumulator 1: its pieces read back. -/
def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i)
    (x0 : Vec F S2000x128 .f32) (x1 : Vec F S2000x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 hc0 hc1 x0 x1).2.2.2.2.1)

/-- Case B's stores into output 2 cover its block. -/
theorem cover2_B_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) (y : S2000x128.Idx) :
    ∃ pc ∈ (kernelRun2_B c i arg1 harg1 arg2 harg2 arg3 harg3 arg4 harg4 arg5 harg5 arg6 harg6 arg7 harg7 hc0 hc1 x0 x1 xs0 xs1).1, y ∈ pc.1.set :=
  View.cover_of_tiledL (kernelRun2_B c i arg1 harg1 arg2 harg2 arg3 harg3 arg4 harg4 arg5 harg5 arg6 harg6 arg7 harg7 hc0 hc1 x0 x1 xs0 xs1).1 S2000x128.size (by sl_kernel_rfl) y

/-- What case B leaves in output 2's staging buffer: its pieces read back. -/
def out2_B_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) : Vec F S2000x128 .f32 :=
  VO2_2.read (Elt F) (VO2_2.writes (Elt F) VO2_2.junk (kernelRun2_B c i arg1 harg1 arg2 harg2 arg3 harg3 arg4 harg4 arg5 harg5 arg6 harg6 arg7 harg7 hc0 hc1 x0 x1 xs0 xs1).1)

/-- Case B's stores into accumulator 0 cover it. -/
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.2.2.1, y ∈ pc.1.set :=
  View.cover_of_tiledL (kernelRun2_B c i arg1 harg1 arg2 harg2 arg3 harg3 arg4 harg4 arg5 harg5 arg6 harg6 arg7 harg7 hc0 hc1 x0 x1 xs0 xs1).2.2.2.1 S1x128.size (by sl_kernel_rfl) y

/-- What case B leaves in accumulator 0: its pieces read back. -/
def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 xs0 xs1).2.2.2.1)

/-- Case B's stores into accumulator 1 cover it. -/
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 hc0 hc1 x0 x1 xs0 xs1).2.2.2.2.1, y ∈ pc.1.set :=
  View.cover_of_tiledL (kernelRun2_B c i arg1 harg1 arg2 harg2 arg3 harg3 arg4 harg4 arg5 harg5 arg6 harg6 arg7 harg7 hc0 hc1 x0 x1 xs0 xs1).2.2.2.2.1 S1x128.size (by sl_kernel_rfl) y

/-- What case B leaves in accumulator 1: its pieces read back. -/
def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i)
    (x0 : Vec F S2000x128 .f32) (x1 : Vec F S2000x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 hc0 hc1 x0 x1 xs0 xs1).2.2.2.2.1)

/-- Case C's stores into output 2 cover its block. -/
theorem cover2_C_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S2000x128.Idx) :
    ∃ pc ∈ (kernelRun2_C c i arg1 harg1 arg2 harg2 arg3 harg3 arg4 harg4 arg5 harg5 arg6 harg6 arg7 harg7 hc0 hc1 x0 x1 xs0 xs1).1, y ∈ pc.1.set :=
  View.cover_of_tiledL (kernelRun2_C c i arg1 harg1 arg2 harg2 arg3 harg3 arg4 harg4 arg5 harg5 arg6 harg6 arg7 harg7 hc0 hc1 x0 x1 xs0 xs1).1 S2000x128.size (by sl_kernel_rfl) y

/-- What case C leaves in output 2's staging buffer: its pieces read back. -/
def out2_C_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S2000x128 .f32 :=
  VO2_2.read (Elt F) (VO2_2.writes (Elt F) VO2_2.junk (kernelRun2_C c i arg1 harg1 arg2 harg2 arg3 harg3 arg4 harg4 arg5 harg5 arg6 harg6 arg7 harg7 hc0 hc1 x0 x1 xs0 xs1).1)

/-- Case C's stores into output 3 cover its block. -/
theorem cover2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.1, y ∈ pc.1.set :=
  View.cover_of_tiledL (kernelRun2_C c i arg1 harg1 arg2 harg2 arg3 harg3 arg4 harg4 arg5 harg5 arg6 harg6 arg7 harg7 hc0 hc1 x0 x1 xs0 xs1).2.1 S1x128.size (by sl_kernel_rfl) y

/-- What case C leaves in output 3's staging buffer: its pieces read back. -/
def out2_C_3 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VO2_3.read (Elt F) (VO2_3.writes (Elt F) VO2_3.junk (kernelRun2_C c i arg1 harg1 arg2 harg2 arg3 harg3 arg4 harg4 arg5 harg5 arg6 harg6 arg7 harg7 hc0 hc1 x0 x1 xs0 xs1).2.1)

/-- Case C's stores into output 4 cover its block. -/
theorem cover2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.1 S1x128.size (by sl_kernel_rfl) y

/-- What case C leaves in output 4's staging buffer: its pieces read back. -/
def out2_C_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 hc0 hc1 x0 x1 xs0 xs1).2.2.1)

/-- Case C's stores into accumulator 0 cover it. -/
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.1 S1x128.size (by sl_kernel_rfl) y

/-- What case C leaves in accumulator 0: its pieces read back. -/
def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 xs0 xs1).2.2.2.1)

/-- Case C's stores into accumulator 1 cover it. -/
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 hc0 hc1 x0 x1 xs0 xs1).2.2.2.2.1, y ∈ pc.1.set :=
  View.cover_of_tiledL (kernelRun2_C c i arg1 harg1 arg2 harg2 arg3 harg3 arg4 harg4 arg5 harg5 arg6 harg6 arg7 harg7 hc0 hc1 x0 x1 xs0 xs1).2.2.2.2.1 S1x128.size (by sl_kernel_rfl) y

/-- What case C leaves in accumulator 1: its pieces read back. -/
def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i)
    (x0 : Vec F S2000x128 .f32) (x1 : Vec F S2000x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 hc0 hc1 x0 x1 xs0 xs1).2.2.2.2.1)

/-! ## Point by point -/

/-- A placeholder for a one-row output's buffer at a point where it is idle: nothing consults it. -/
def idleOut2 : Vec F S1x128 .f32 := VO2_3.read (Elt F) VO2_3.junk

/-- THE ACCUMULATION. What the two accumulators hold after the body at position `n`: at the first point what case A
    leaves from zeroed accumulators; afterwards what case B (C at the last point) leaves over what the point before left —
    each point adds the column sums of its block `s + agg` (and of the block's squares) onto them. -/
def scratchAt2 (c : Dev nD) : (n : ℕ) → n < cfg2.N → Vec F S1x128 .f32 × Vec F S1x128 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hA0_2 ⟨0, hn⟩ rfl) (hA1_2 ⟨0, hn⟩ rfl) (iblk2 V c 0 ⟨0, hn⟩) (iblk2 V c 1 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hA0_2 ⟨0, hn⟩ rfl) (hA1_2 ⟨0, hn⟩ rfl) (iblk2 V c 0 ⟨0, hn⟩) (iblk2 V c 1 ⟨0, hn⟩))
  | n + 1, hn =>
    if h1 : n + 1 = 24 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hB1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hB1_2 ⟨n + 1, hn⟩ h1) (iblk2 V c 0 ⟨n + 1, hn⟩) (iblk2 V c 1 ⟨n + 1, hn⟩) (scratchAt2 c n (Nat.lt_of_succ_lt hn)).1 (scratchAt2 c n (Nat.lt_of_succ_lt hn)).2)

theorem scratchAt2_A (c : Dev nD) (t : Fin cfg2.N) (h0 : t.val = 0) :
    scratchAt2 V c t.val t.isLt = (sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hA0_2 t h0) (hA1_2 t h0) (iblk2 V c 0 t) (iblk2 V c 1 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hA0_2 t h0) (hA1_2 t h0) (iblk2 V c 0 t) (iblk2 V c 1 t)) := by
  obtain ⟨n, hn⟩ := t
  cases n with
  | zero => rfl
  | succ n => exact absurd h0 (Nat.succ_ne_zero n)

theorem scratchAt2_B (c : Dev nD) (t : Fin cfg2.N) (h0 : ¬t.val = 0) (h1 : ¬t.val = 24) :
    scratchAt2 V c t.val t.isLt = (sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hB1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hB1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2) := by
  obtain ⟨n, hn⟩ := t
  cases n with
  | zero => exact absurd rfl h0
  | succ n => exact (dif_neg h1).trans rfl

theorem scratchAt2_C (c : Dev nD) (t : Fin cfg2.N) (h0 : ¬t.val = 0) (h1 : t.val = 24) :
    scratchAt2 V c t.val t.isLt = (sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2) := by
  obtain ⟨n, hn⟩ := t
  cases n with
  | zero => exact absurd rfl h0
  | succ n => exact (dif_pos h1).trans rfl

/-- What the three outputs' staging buffers hold after the body at position `n`: the block `s + agg` in output 2 at every
    point; at the last point the two accumulators' final contents in outputs 3 and 4 (elsewhere a placeholder). -/
def outsAt2 (c : Dev nD) : (n : ℕ) → n < cfg2.N → Vec F S2000x128 .f32 × Vec F S1x128 .f32 × Vec F S1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) (hA0_2 ⟨0, hn⟩ rfl) (hA1_2 ⟨0, hn⟩ rfl) (iblk2 V c 0 ⟨0, hn⟩) (iblk2 V c 1 ⟨0, hn⟩), idleOut2, idleOut2)
  | n + 1, hn =>
    if h1 : n + 1 = 24 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2,
       out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2,
       out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hC1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (hB0_2 ⟨n + 1, hn⟩ (Nat.succ_ne_zero n)) (hB1_2 ⟨n + 1, hn⟩ h1) (iblk2 V c 0 ⟨n + 1, hn⟩) (iblk2 V c 1 ⟨n + 1, hn⟩) (scratchAt2 V c n (Nat.lt_of_succ_lt hn)).1 (scratchAt2 V c n (Nat.lt_of_succ_lt hn)).2, idleOut2, idleOut2)

theorem outsAt2_A (c : Dev nD) (t : Fin cfg2.N) (h0 : t.val = 0) :
    outsAt2 V c t.val t.isLt = (out2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hA0_2 t h0) (hA1_2 t h0) (iblk2 V c 0 t) (iblk2 V c 1 t), idleOut2, idleOut2) := by
  obtain ⟨n, hn⟩ := t
  cases n with
  | zero => rfl
  | succ n => exact absurd h0 (Nat.succ_ne_zero n)

theorem outsAt2_B (c : Dev nD) (t : Fin cfg2.N) (h0 : ¬t.val = 0) (h1 : ¬t.val = 24) :
    outsAt2 V c t.val t.isLt = (out2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hB1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2, idleOut2, idleOut2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 24) :
    outsAt2 V c t.val t.isLt = (out2_C_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2,
       out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2,
       out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (hB0_2 t h0) (hC1_2 t h1) (iblk2 V c 0 t) (iblk2 V c 1 t) (scratchAt2 V c (t.val - 1) (Nat.lt_of_le_of_lt (Nat.sub_le _ _) t.isLt)).1 (scratchAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the region's entry the scoped rest (both accumulators at some contents) and the generator
    register; after a point, the two accumulators at what that point left, the other scoped buffers, the register. -/
def PhiS2 (c : Dev nD) : (n : ℕ) → n ≤ cfg2.N → sProp 𝕄
  | 0, _ => Pipeline.ΦA spec2 c
  | n + 1, hn => iprop(iprop(iprop(owns (c : Thread nD τ) scM2_0 fullShare (scratchAt2 V c n hn).1 ∗ owns (c : Thread nD τ) scM2_1 fullShare (scratchAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (scratchAt2 V c n hn).1 ∗ owns (c : Thread nD τ) scM2_1 fullShare (scratchAt2 V c n hn).2) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (scratchAt2 V c (n - 1) (by omega)).1 ∗ owns (c : Thread nD τ) scM2_1 fullShare (scratchAt2 V c (n - 1) (by omega)).2) ∗ restBut2 c) ∗ (∃ r, prngReg c r)) := by
  cases n with
  | zero => exact absurd rfl hz
  | succ n => rfl

/-! ## The pipeline's proof data -/

/-- The arrays as the region finds them; after the body at point `t` each input's buffer at its block and the outputs'
    at `outsAt2`; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
    | ⟨4, _⟩ => (outsAt2 V c t.val t.isLt).2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]
theorem after2_4 (c : Dev nD) (t : Fin cfg2.N) : (dat2 V c).after 4 t = (outsAt2 V c t.val t.isLt).2.2 := by dsimp only [dat2]

end Cert.KernelIdeal.Hand

end
-- ==== Proof.KI.Reg3Dat.lean ====
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 3: the blocks its windows hold, what its body leaves, and its proof data -/

/-- The block of window `w` at grid point `t`: the part of the window's array, as the region finds it, that
    the window's index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! The rectangles the body reads and writes: each is a whole staging buffer. -/
abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-- What the body leaves in the output window's buffer, as a function of the input blocks: its single store covers
    the whole buffer, and stores the payload computed from the whole-buffer loads of the inputs. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_0, k3_pay1 (View.ld x0 r3_0) (View.ld x1 r3_1) (View.ld x2 r3_1) (View.ld x3 r3_1) (View.ld x4 r3_1)⟩]

/-- The proof data of the region on core `c`: the arrays are the entry contents; after the body at point `t`
    every input buffer still holds its block and the output buffer holds `out3_5` of the input blocks; the
    invariant is the one of a body that touches nothing but its windows; full shares, nothing owed. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- The invariant does not depend on the point. -/
theorem Phi3_eq (c : Dev nD) (t) : (dat3 V c).Φ t = Pipeline.ΦA spec3 c := rfl

end Cert.KernelIdeal.Hand
-- ==== Proof.KI.Reg4Dat.lean ====
/-
  Region 4: the fused projection h · wcat + bcat, cut by columns into k (0:128, rounded to bf16),
  qv (128:384, rounded to bf16) and s (384:512, kept in f32). Definitions only: each window's block
  at a grid point read off the region-entry contents, what the body leaves in each output buffer as a
  function of the three input blocks, and the proof data of the pipeline over them.
-/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the region-entry contents of the core's buffers: a parameter, fixed by whoever assembles the run
variable (V : (c : Dev nD) → (b : Ref sig .tc) → Buf (Elt F) ((c : Thread nD τ).loc b))

/-! ## The windows' blocks -/

/-- Window `w`'s block at point `t`: the rows `2000 t … 2000 t + 1999` of the activations and of the three
    outputs, the whole of the weights and of the bias, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and store takes its whole buffer -/

abbrev r4_0 : Rect S2000x128 := Rect.unit (s := S2000x128) ![0, 0] S2000x128.size inb_S2000x128_S2000x128_0_0
abbrev r4_1 : Rect S128x512 := Rect.unit (s := S128x512) ![0, 0] S128x512.size inb_S128x512_S128x512_0_0
abbrev r4_2 : Rect S1x512 := Rect.unit (s := S1x512) ![0, 0] S1x512.size inb_S1x512_S1x512_0_0
abbrev r4_3 : Rect S2000x256 := Rect.unit (s := S2000x256) ![0, 0] S2000x256.size inb_S2000x256_S2000x256_0_0

/-! ## What the body leaves in each output buffer -/

/-- The k block: columns 0:128 of `h · wcat + bcat` rounded to bf16 — one store over the whole buffer. -/
def out4_3 (x0 : Vec F S2000x128 .f32) (x1 : Vec F S128x512 .bf16) (x2 : Vec F S1x512 .f32) : Vec F S2000x128 .bf16 :=
  View.canon [⟨r4_0, k4_pay2 (View.ld x0 r4_0) (View.ld x1 r4_1) (View.ld x2 r4_2)⟩]

/-- The qv block: columns 128:384 rounded to bf16 — one store over the whole buffer. -/
def out4_4 (x0 : Vec F S2000x128 .f32) (x1 : Vec F S128x512 .bf16) (x2 : Vec F S1x512 .f32) : Vec F S2000x256 .bf16 :=
  View.canon [⟨r4_3, k4_pay3 (View.ld x0 r4_0) (View.ld x1 r4_1) (View.ld x2 r4_2)⟩]

/-- The s block: columns 384:512 in f32 — one store over the whole buffer. -/
def out4_5 (x0 : Vec F S2000x128 .f32) (x1 : Vec F S128x512 .bf16) (x2 : Vec F S1x512 .f32) : Vec F S2000x128 .f32 :=
  View.canon [⟨r4_0, k4_pay4 (View.ld x0 r4_0) (View.ld x1 r4_1) (View.ld x2 r4_2)⟩]

/-! ## The pipeline's proof data -/

/-- The arrays as the region finds them; after the body at point `t` each input buffer still at its block and each
    output buffer at its function of the three input blocks; the invariant is the untouched scoped rest and generator
    register; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
    | ⟨5, _⟩ => out4_5 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]
theorem after4_5 (c : Dev nD) (t : Fin cfg4.N) : (dat4 V c).after 5 t = out4_5 (iblk4 V c 0 t) (iblk4 V c 1 t) (iblk4 V c 2 t) := by dsimp only [dat4]

/-- The invariant is the same at every point: the body touches neither the scoped rest nor the generator register. -/
theorem Phi4_eq (c : Dev nD) (t : Fin (cfg4.N + 1)) : (dat4 V c).Φ t = Pipeline.ΦA spec4 c := rfl

end Cert.KernelIdeal.Hand
-- ==== Proof.KI.Reg5Runs.lean ====
/- Region 5 (the fused add and column statistics): what the three cases of the body share. The body adds its two
   input blocks into the output block at every point, and keeps two row accumulators (the column sums of the
   block and of its squares) in buffers of its own between points: zeroed at the first point, copied into the
   two one-row outputs at the last. The cases: A the first point, B a middle point, C the last point. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- "This is the first point" as the body computes it. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)
/-- "This is the last point" as the body computes it. -/
abbrev cond5_1 (i : grid5.Coords) : Prop := k5_cond2 i = 1#1
theorem hcond5_1 : ∀ t : Fin cfg5.N, cond5_1 (grid5.coords t) ↔ t.val = 24 :=
  (by decide +kernel : ∀ t : Fin grid5.N, cond5_1 (grid5.coords t) ↔ t.val = 24)

theorem hA0_5 (t : Fin cfg5.N) (h : t.val = 0) : cond5_0 (grid5.coords t) := (hcond5_0 t).mpr h
theorem hA1_5 (t : Fin cfg5.N) (h : t.val = 0) : ¬cond5_1 (grid5.coords t) := fun h' => by have := (hcond5_1 t).mp h'; omega
theorem hB0_5 (t : Fin cfg5.N) (h : ¬t.val = 0) : ¬cond5_0 (grid5.coords t) := fun h' => h ((hcond5_0 t).mp h')
theorem hB1_5 (t : Fin cfg5.N) (h : ¬t.val = 24) : ¬cond5_1 (grid5.coords t) := fun h' => h ((hcond5_1 t).mp h')
theorem hC1_5 (t : Fin cfg5.N) (h : t.val = 24) : cond5_1 (grid5.coords t) := (hcond5_1 t).mpr h

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from the last point the two one-row outputs are idle and not written back. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
/-- At the last point they are live. -/
theorem liveAt5_3 : ∀ t : Fin cfg5.N, cond5_1 (grid5.coords t) → cfg5.idle 3 (grid5.coords t) = false := by decide +kernel
theorem liveAt5_4 : ∀ t : Fin cfg5.N, cond5_1 (grid5.coords t) → cfg5.idle 4 (grid5.coords t) = false := by decide +kernel

/-! ## The buffers the body is called on -/

/-- One staging buffer per output window, through which its contents are stated. -/
abbrev VO5_2 : View sig .tc .vmem S2000x128 .f32 := (Memref.whole cc5_stg2_0 : Memref sig .tc .vmem S2000x128 .f32).view
abbrev VO5_3 : View sig .tc .vmem S1x128 .f32 := (Memref.whole cc5_stg3_0 : Memref sig .tc .vmem S1x128 .f32).view
abbrev VO5_4 : View sig .tc .vmem S1x128 .f32 := (Memref.whole cc5_stg4_0 : Memref sig .tc .vmem S1x128 .f32).view
/-- Each window's current staging buffer at point `t`, and its wholeness. -/
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2000x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
/-- The two accumulators: whole buffers of the body's own, passed beside the windows. -/
abbrev scM5_0 : Memref sig .tc .vmem S1x128 .f32 := Memref.whole cc5_scratch0
abbrev scM5_1 : Memref sig .tc .vmem S1x128 .f32 := Memref.whole cc5_scratch1
abbrev VS5_0 : View sig .tc .vmem S1x128 .f32 := scM5_0.view
abbrev VS5_1 : View sig .tc .vmem S1x128 .f32 := scM5_1.view

/-- Every scoped buffer of the core that is not one of this region's staging buffers nor one of its two accumulators. -/
abbrev restBut5 (c : Dev nD) : sProp 𝕄 :=
  Pipeline.scopedRestBut (Ix := Unit) (Name := ℕ) (U := Pipeline.UD sig nD τ) (Lvl := ℕ) (Val := Elt F) spec5 c [cc5_scratch0, cc5_scratch1]

/-- The region's entry invariant with the two accumulators split out of the scoped rest, each at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ restBut5 c) ∗ (∃ r, prngReg c r)) := by
  unfold Pipeline.ΦA; rw [scopedRest5_split]; simp only [scM5_0, scM5_1, owns_whole]; try rfl

end Cert.KernelIdeal.Hand

end
-- ==== Proof.KI.Reg5RunA.lean ====
/- Region 5, case A: the body's run at the first point (both accumulators zeroed, then the block's column sums added; the one-row outputs untouched). -/
import proofs.«180311_j29308856828500_2_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun5_A (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc5__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc5__fuse_stats_kernel_eq_skeleton]; unfold cc5__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.KernelIdeal.Hand

end
-- ==== Proof.KI.Reg5RunB.lean ====
/- Region 5, case B: the body's run at a middle point (the block's column sums added onto what the point before left; the one-row outputs untouched). -/
import proofs.«180311_j29308856828500_2_alg».proof.Proof.KI.Reg5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun5_B (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc5__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc5__fuse_stats_kernel_eq_skeleton]; unfold cc5__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.KernelIdeal.Hand

end
-- ==== Proof.KI.Reg5RunC.lean ====
/- Region 5, case C: the body's run at the last point (the column sums added, then both accumulators copied into the one-row outputs). -/
import proofs.«180311_j29308856828500_2_alg».proof.Proof.KI.Reg5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun5_C (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc5__fuse_stats_kernel i arg1 harg1 arg2 harg2 arg3 harg3 arg4 harg4 arg5 harg5 arg6 harg6 arg7 harg7) K } := by
  refine ⟨?_, ?_, ?_, ?_, ?_, fun E K => ?run⟩
  case run =>
    simp only [cc5__fuse_stats_kernel_eq_skeleton]; unfold cc5__fuse_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Hand

end
-- ==== Proof.KI.Reg5Dat.lean ====
/- Region 5: what each case leaves in the outputs and in the two accumulators, the accumulation point by point,
   the region invariant and the pipeline's proof data. -/
import proofs.«180311_j29308856828500_2_alg».proof.Proof.KI.Reg5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Case A's stores into output 2 cover its block. -/
theorem cover5_A_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) (y : S2000x128.Idx) :
    ∃ pc ∈ (kernelRun5_A c i arg1 harg1 arg2 harg2 arg3 harg3 arg4 harg4 arg5 harg5 arg6 harg6 arg7 harg7 hc0 hc1 x0 x1).1, y ∈ pc.1.set :=
  View.cover_of_tiledL (kernelRun5_A c i arg1 harg1 arg2 harg2 arg3 harg3 arg4 harg4 arg5 harg5 arg6 harg6 arg7 harg7 hc0 hc1 x0 x1).1 S2000x128.size (by sl_kernel_rfl) y

/-- What case A leaves in output 2's staging buffer: its pieces read back. -/
def out5_A_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) : Vec F S2000x128 .f32 :=
  VO5_2.read (Elt F) (VO5_2.writes (Elt F) VO5_2.junk (kernelRun5_A c i arg1 harg1 arg2 harg2 arg3 harg3 arg4 harg4 arg5 harg5 arg6 harg6 arg7 harg7 hc0 hc1 x0 x1).1)

/-- Case A's stores into accumulator 0 cover it. -/
theorem scover5_A_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) (y : S1x128.Idx) :
    ∃ pc ∈ (kernelRun5_A c i arg1 harg1 arg2 harg2 arg3 harg3 arg4 harg4 arg5 harg5 arg6 harg6 arg7 harg7 hc0 hc1 x0 x1).2.2.2.1, y ∈ pc.1.set :=
  View.cover_of_tiledL (kernelRun5_A c i arg1 harg1 arg2 harg2 arg3 harg3 arg4 harg4 arg5 harg5 arg6 harg6 arg7 harg7 hc0 hc1 x0 x1).2.2.2.1 S1x128.size (by sl_kernel_rfl) y

/-- What case A leaves in accumulator 0: its pieces read back. -/
def sout5_A_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) : Vec F S1x128 .f32 :=
  VS5_0.read (Elt F) (VS5_0.writes (Elt F) VS5_0.junk (kernelRun5_A c i arg1 harg1 arg2 harg2 arg3 harg3 arg4 harg4 arg5 harg5 arg6 harg6 arg7 harg7 hc0 hc1 x0 x1).2.2.2.1)

/-- Case A's stores into accumulator 1 cover it. -/
theorem scover5_A_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) (y : S1x128.Idx) :
    ∃ pc ∈ (kernelRun5_A c i arg1 harg1 arg2 harg2 arg3 harg3 arg4 harg4 arg5 harg5 arg6 harg6 arg7 harg7 hc0 hc1 x0 x1).2.2.2.2.1, y ∈ pc.1.set :=
  View.cover_of_tiledL (kernelRun5_A c i arg1 harg1 arg2 harg2 arg3 harg3 arg4 harg4 arg5 harg5 arg6 harg6 arg7 harg7 hc0 hc1 x0 x1).2.2.2.2.1 S1x128.size (by sl_kernel_rfl) y

/-- What case A leaves in accumulator 1: its pieces read back. -/
def sout5_A_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i)
    (x0 : Vec F S2000x128 .f32) (x1 : Vec F S2000x128 .f32) : Vec F S1x128 .f32 :=
  VS5_1.read (Elt F) (VS5_1.writes (Elt F) VS5_1.junk (kernelRun5_A c i arg1 harg1 arg2 harg2 arg3 harg3 arg4 harg4 arg5 harg5 arg6 harg6 arg7 harg7 hc0 hc1 x0 x1).2.2.2.2.1)

/-- Case B's stores into output 2 cover its block. -/
theorem cover5_B_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) (y : S2000x128.Idx) :
    ∃ pc ∈ (kernelRun5_B c i arg1 harg1 arg2 harg2 arg3 harg3 arg4 harg4 arg5 harg5 arg6 harg6 arg7 harg7 hc0 hc1 x0 x1 xs0 xs1).1, y ∈ pc.1.set :=
  View.cover_of_tiledL (kernelRun5_B c i arg1 harg1 arg2 harg2 arg3 harg3 arg4 harg4 arg5 harg5 arg6 harg6 arg7 harg7 hc0 hc1 x0 x1 xs0 xs1).1 S2000x128.size (by sl_kernel_rfl) y

/-- What case B leaves in output 2's staging buffer: its pieces read back. -/
def out5_B_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) : Vec F S2000x128 .f32 :=
  VO5_2.read (Elt F) (VO5_2.writes (Elt F) VO5_2.junk (kernelRun5_B c i arg1 harg1 arg2 harg2 arg3 harg3 arg4 harg4 arg5 harg5 arg6 harg6 arg7 harg7 hc0 hc1 x0 x1 xs0 xs1).1)

/-- Case B's stores into accumulator 0 cover it. -/
theorem scover5_B_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 hc0 hc1 x0 x1 xs0 xs1).2.2.2.1, y ∈ pc.1.set :=
  View.cover_of_tiledL (kernelRun5_B c i arg1 harg1 arg2 harg2 arg3 harg3 arg4 harg4 arg5 harg5 arg6 harg6 arg7 harg7 hc0 hc1 x0 x1 xs0 xs1).2.2.2.1 S1x128.size (by sl_kernel_rfl) y

/-- What case B leaves in accumulator 0: its pieces read back. -/
def sout5_B_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) : Vec F S1x128 .f32 :=
  VS5_0.read (Elt F) (VS5_0.writes (Elt F) VS5_0.junk (kernelRun5_B c i arg1 harg1 arg2 harg2 arg3 harg3 arg4 harg4 arg5 harg5 arg6 harg6 arg7 harg7 hc0 hc1 x0 x1 xs0 xs1).2.2.2.1)

/-- Case B's stores into accumulator 1 cover it. -/
theorem scover5_B_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 hc0 hc1 x0 x1 xs0 xs1).2.2.2.2.1, y ∈ pc.1.set :=
  View.cover_of_tiledL (kernelRun5_B c i arg1 harg1 arg2 harg2 arg3 harg3 arg4 harg4 arg5 harg5 arg6 harg6 arg7 harg7 hc0 hc1 x0 x1 xs0 xs1).2.2.2.2.1 S1x128.size (by sl_kernel_rfl) y

/-- What case B leaves in accumulator 1: its pieces read back. -/
def sout5_B_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i)
    (x0 : Vec F S2000x128 .f32) (x1 : Vec F S2000x128 .f32) (xs0 : Vec F S1x128 .f32) (xs1 : Vec F S1x128 .f32) : Vec F S1x128 .f32 :=
  VS5_1.read (Elt F) (VS5_1.writes (Elt F) VS5_1.junk (kernelRun5_B c i arg1 harg1 arg2 harg2 arg3 harg3 arg4 harg4 arg5 harg5 arg6 harg6 arg7 harg7 hc0 hc1 x0 x1 xs0 xs1).2.2.2.2.1)

/-- Case C's stores into output 2 cover its block. -/
theorem cover5_C_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S2000x128.Idx) :
    ∃ pc ∈ (kernelRun5_C c i arg1 harg1 arg2 harg2 arg3 harg3 arg4 harg4 arg5 harg5 arg6 harg6 arg7 harg7 hc0 hc1 x0 x1 xs0 xs1).1, y ∈ pc.1.set :=
  View.cover_of_tiledL (kernelRun5_C c i arg1 harg1 arg2 harg2 arg3 harg3 arg4 harg4 arg5 harg5 arg6 harg6 arg7 harg7 hc0 hc1 x0 x1 xs0 xs1).1 S2000x128.size (by sl_kernel_rfl) y

/-- What case C leaves in output 2's staging buffer: its pieces read back. -/
def out5_C_2 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S2000x128 .f32 :=
  VO5_2.read (Elt F) (VO5_2.writes (Elt F) VO5_2.junk (kernelRun5_C c i arg1 harg1 arg2 harg2 arg3 harg3 arg4 harg4 arg5 harg5 arg6 harg6 arg7 harg7 hc0 hc1 x0 x1 xs0 xs1).1)

/-- Case C's stores into output 3 cover its block. -/
theorem cover5_C_3 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.1, y ∈ pc.1.set :=
  View.cover_of_tiledL (kernelRun5_C c i arg1 harg1 arg2 harg2 arg3 harg3 arg4 harg4 arg5 harg5 arg6 harg6 arg7 harg7 hc0 hc1 x0 x1 xs0 xs1).2.1 S1x128.size (by sl_kernel_rfl) y

/-- What case C leaves in output 3's staging buffer: its pieces read back. -/
def out5_C_3 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VO5_3.read (Elt F) (VO5_3.writes (Elt F) VO5_3.junk (kernelRun5_C c i arg1 harg1 arg2 harg2 arg3 harg3 arg4 harg4 arg5 harg5 arg6 harg6 arg7 harg7 hc0 hc1 x0 x1 xs0 xs1).2.1)

/-- Case C's stores into output 4 cover its block. -/
theorem cover5_C_4 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.2.1, y ∈ pc.1.set :=
  View.cover_of_tiledL (kernelRun5_C c i arg1 harg1 arg2 harg2 arg3 harg3 arg4 harg4 arg5 harg5 arg6 harg6 arg7 harg7 hc0 hc1 x0 x1 xs0 xs1).2.2.1 S1x128.size (by sl_kernel_rfl) y

/-- What case C leaves in output 4's staging buffer: its pieces read back. -/
def out5_C_4 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VO5_4.read (Elt F) (VO5_4.writes (Elt F) VO5_4.junk (kernelRun5_C c i arg1 harg1 arg2 harg2 arg3 harg3 arg4 harg4 arg5 harg5 arg6 harg6 arg7 harg7 hc0 hc1 x0 x1 xs0 xs1).2.2.1)

/-- Case C's stores into accumulator 0 cover it. -/
theorem scover5_C_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.2.2.1, y ∈ pc.1.set :=
  View.cover_of_tiledL (kernelRun5_C c i arg1 harg1 arg2 harg2 arg3 harg3 arg4 harg4 arg5 harg5 arg6 harg6 arg7 harg7 hc0 hc1 x0 x1 xs0 xs1).2.2.2.1 S1x128.size (by sl_kernel_rfl) y

/-- What case C leaves in accumulator 0: its pieces read back. -/
def sout5_C_0 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VS5_0.read (Elt F) (VS5_0.writes (Elt F) VS5_0.junk (kernelRun5_C c i arg1 harg1 arg2 harg2 arg3 harg3 arg4 harg4 arg5 harg5 arg6 harg6 arg7 harg7 hc0 hc1 x0 x1 xs0 xs1).2.2.2.1)

/-- Case C's stores into accumulator 1 cover it. -/
theorem scover5_C_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 hc0 hc1 x0 x1 xs0 xs1).2.2.2.2.1, y ∈ pc.1.set :=
  View.cover_of_tiledL (kernelRun5_C c i arg1 harg1 arg2 harg2 arg3 harg3 arg4 harg4 arg5 harg5 arg6 harg6 arg7 harg7 hc0 hc1 x0 x1 xs0 xs1).2.2.2.2.1 S1x128.size (by sl_kernel_rfl) y

/-- What case C leaves in accumulator 1: its pieces read back. -/
def sout5_C_1 (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i)
    (x0 : Vec F S2000x128 .f32) (x1 : Vec F S2000x128 .f32) (xs0 : Vec F S1x128 .f32) (xs1 : Vec F S1x128 .f32) : Vec F S1x128 .f32 :=
  VS5_1.read (Elt F) (VS5_1.writes (Elt F) VS5_1.junk (kernelRun5_C c i arg1 harg1 arg2 harg2 arg3 harg3 arg4 harg4 arg5 harg5 arg6 harg6 arg7 harg7 hc0 hc1 x0 x1 xs0 xs1).2.2.2.2.1)

/-! ## Point by point -/

/-- A placeholder for a one-row output's buffer at a point where it is idle: nothing consults it. -/
def idleOut5 : Vec F S1x128 .f32 := VO5_3.read (Elt F) VO5_3.junk

/-- THE ACCUMULATION. What the two accumulators hold after the body at position `n`: at the first point what case A
    leaves from zeroed accumulators; afterwards what case B (C at the last point) leaves over what the point before left —
    each point adds the column sums of its block `s + agg` (and of the block's squares) onto them. -/
def scratchAt5 (c : Dev nD) : (n : ℕ) → n < cfg5.N → Vec F S1x128 .f32 × Vec F S1x128 .f32
  | 0, hn => (sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) scM5_1 (Memref.isWhole_whole _) (hA0_5 ⟨0, hn⟩ rfl) (hA1_5 ⟨0, hn⟩ rfl) (iblk5 V c 0 ⟨0, hn⟩) (iblk5 V c 1 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) scM5_1 (Memref.isWhole_whole _) (hA0_5 ⟨0, hn⟩ rfl) (hA1_5 ⟨0, hn⟩ rfl) (iblk5 V c 0 ⟨0, hn⟩) (iblk5 V c 1 ⟨0, hn⟩))
  | n + 1, hn =>
    if h1 : n + 1 = 24 then
      (sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2)
    else
      (sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hB1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hB1_5 ⟨n + 1, hn⟩ h1) (iblk5 V c 0 ⟨n + 1, hn⟩) (iblk5 V c 1 ⟨n + 1, hn⟩) (scratchAt5 c n (Nat.lt_of_succ_lt hn)).1 (scratchAt5 c n (Nat.lt_of_succ_lt hn)).2)

theorem scratchAt5_A (c : Dev nD) (t : Fin cfg5.N) (h0 : t.val = 0) :
    scratchAt5 V c t.val t.isLt = (sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hA0_5 t h0) (hA1_5 t h0) (iblk5 V c 0 t) (iblk5 V c 1 t), sout5_A_1 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hA0_5 t h0) (hA1_5 t h0) (iblk5 V c 0 t) (iblk5 V c 1 t)) := by
  obtain ⟨n, hn⟩ := t
  cases n with
  | zero => rfl
  | succ n => exact absurd h0 (Nat.succ_ne_zero n)

theorem scratchAt5_B (c : Dev nD) (t : Fin cfg5.N) (h0 : ¬t.val = 0) (h1 : ¬t.val = 24) :
    scratchAt5 V c t.val t.isLt = (sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hB1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2, sout5_B_1 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hB1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2) := by
  obtain ⟨n, hn⟩ := t
  cases n with
  | zero => exact absurd rfl h0
  | succ n => exact (dif_neg h1).trans rfl

theorem scratchAt5_C (c : Dev nD) (t : Fin cfg5.N) (h0 : ¬t.val = 0) (h1 : t.val = 24) :
    scratchAt5 V c t.val t.isLt = (sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2, sout5_C_1 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2) := by
  obtain ⟨n, hn⟩ := t
  cases n with
  | zero => exact absurd rfl h0
  | succ n => exact (dif_pos h1).trans rfl

/-- What the three outputs' staging buffers hold after the body at position `n`: the block `s + agg` in output 2 at every
    point; at the last point the two accumulators' final contents in outputs 3 and 4 (elsewhere a placeholder). -/
def outsAt5 (c : Dev nD) : (n : ℕ) → n < cfg5.N → Vec F S2000x128 .f32 × Vec F S1x128 .f32 × Vec F S1x128 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) scM5_1 (Memref.isWhole_whole _) (hA0_5 ⟨0, hn⟩ rfl) (hA1_5 ⟨0, hn⟩ rfl) (iblk5 V c 0 ⟨0, hn⟩) (iblk5 V c 1 ⟨0, hn⟩), idleOut5, idleOut5)
  | n + 1, hn =>
    if h1 : n + 1 = 24 then
      (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2,
       out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2,
       out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hC1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2)
    else
      (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) scM5_1 (Memref.isWhole_whole _) (hB0_5 ⟨n + 1, hn⟩ (Nat.succ_ne_zero n)) (hB1_5 ⟨n + 1, hn⟩ h1) (iblk5 V c 0 ⟨n + 1, hn⟩) (iblk5 V c 1 ⟨n + 1, hn⟩) (scratchAt5 V c n (Nat.lt_of_succ_lt hn)).1 (scratchAt5 V c n (Nat.lt_of_succ_lt hn)).2, idleOut5, idleOut5)

theorem outsAt5_A (c : Dev nD) (t : Fin cfg5.N) (h0 : t.val = 0) :
    outsAt5 V c t.val t.isLt = (out5_A_2 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hA0_5 t h0) (hA1_5 t h0) (iblk5 V c 0 t) (iblk5 V c 1 t), idleOut5, idleOut5) := by
  obtain ⟨n, hn⟩ := t
  cases n with
  | zero => rfl
  | succ n => exact absurd h0 (Nat.succ_ne_zero n)

theorem outsAt5_B (c : Dev nD) (t : Fin cfg5.N) (h0 : ¬t.val = 0) (h1 : ¬t.val = 24) :
    outsAt5 V c t.val t.isLt = (out5_B_2 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hB1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2, idleOut5, idleOut5) := by
  obtain ⟨n, hn⟩ := t
  cases n with
  | zero => exact absurd rfl h0
  | succ n => exact (dif_neg h1).trans rfl

theorem outsAt5_C (c : Dev nD) (t : Fin cfg5.N) (h0 : ¬t.val = 0) (h1 : t.val = 24) :
    outsAt5 V c t.val t.isLt = (out5_C_2 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2,
       out5_C_3 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2,
       out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) (hB0_5 t h0) (hC1_5 t h1) (iblk5 V c 0 t) (iblk5 V c 1 t) (scratchAt5 V c (t.val - 1) (Nat.lt_of_le_of_lt (Nat.sub_le _ _) t.isLt)).1 (scratchAt5 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the region's entry the scoped rest (both accumulators at some contents) and the generator
    register; after a point, the two accumulators at what that point left, the other scoped buffers, the register. -/
def PhiS5 (c : Dev nD) : (n : ℕ) → n ≤ cfg5.N → sProp 𝕄
  | 0, _ => Pipeline.ΦA spec5 c
  | n + 1, hn => iprop(iprop(iprop(owns (c : Thread nD τ) scM5_0 fullShare (scratchAt5 V c n hn).1 ∗ owns (c : Thread nD τ) scM5_1 fullShare (scratchAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (scratchAt5 V c n hn).1 ∗ owns (c : Thread nD τ) scM5_1 fullShare (scratchAt5 V c n hn).2) ∗ restBut5 c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (scratchAt5 V c (n - 1) (by omega)).1 ∗ owns (c : Thread nD τ) scM5_1 fullShare (scratchAt5 V c (n - 1) (by omega)).2) ∗ restBut5 c) ∗ (∃ r, prngReg c r)) := by
  cases n with
  | zero => exact absurd rfl hz
  | succ n => rfl

/-! ## The pipeline's proof data -/

/-- The arrays as the region finds them; after the body at point `t` each input's buffer at its block and the outputs'
    at `outsAt5`; the invariant `PhiS5`; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
    | ⟨3, _⟩ => (outsAt5 V c t.val t.isLt).2.1
    | ⟨4, _⟩ => (outsAt5 V c t.val t.isLt).2.2
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem after5_3 (c : Dev nD) (t : Fin cfg5.N) : (dat5 V c).after 3 t = (outsAt5 V c t.val t.isLt).2.1 := by dsimp only [dat5]
theorem after5_4 (c : Dev nD) (t : Fin cfg5.N) : (dat5 V c).after 4 t = (outsAt5 V c t.val t.isLt).2.2 := by dsimp only [dat5]

end Cert.KernelIdeal.Hand

end
-- ==== Proof.KI.Reg6Dat.lean ====
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 6: the blocks its windows hold, what its body leaves, and its proof data -/

/-- The block of window `w` at grid point `t`: the part of the window's array, as the region finds it, that
    the window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! The rectangles the body reads and writes: each is a whole staging buffer. -/
abbrev r6_0 : Rect S2000x128 := Rect.unit (s := S2000x128) ![0, 0] S2000x128.size inb_S2000x128_S2000x128_0_0
abbrev r6_1 : Rect S1x128 := Rect.unit (s := S1x128) ![0, 0] S1x128.size inb_S1x128_S1x128_0_0

/-- What the body leaves in the output window's buffer, as a function of the input blocks: its single store covers
    the whole buffer, and stores the payload computed from the whole-buffer loads of the inputs. -/
def out6_5 (x0 : Vec F S2000x128 .f32) (x1 : Vec F S1x128 .f32) (x2 : Vec F S1x128 .f32) (x3 : Vec F S1x128 .f32) (x4 : Vec F S1x128 .f32) : Vec F S2000x128 .f32 :=
  View.canon [⟨r6_0, k6_pay1 (View.ld x0 r6_0) (View.ld x1 r6_1) (View.ld x2 r6_1) (View.ld x3 r6_1) (View.ld x4 r6_1)⟩]

/-- The proof data of the region on core `c`: the arrays are the entry contents; after the body at point `t`
    every input buffer still holds its block and the output buffer holds `out6_5` of the input blocks; the
    invariant is the one of a body that touches nothing but its windows; full shares, nothing owed. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The arrays of the proof data are the entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- The invariant does not depend on the point. -/
theorem Phi6_eq (c : Dev nD) (t) : (dat6 V c).Φ t = Pipeline.ΦA spec6 c := rfl

end Cert.KernelIdeal.Hand
-- ==== Proof.KI.Reg7Dat.lean ====
/-
  Region 7: the fused projection h · wcat + bcat, cut by columns into k (0:128, rounded to bf16),
  qv (128:384, rounded to bf16) and s (384:512, kept in f32). Definitions only: each window's block
  at a grid point read off the region-entry contents, what the body leaves in each output buffer as a
  function of the three input blocks, and the proof data of the pipeline over them.
-/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the region-entry contents of the core's buffers: a parameter, fixed by whoever assembles the run
variable (V : (c : Dev nD) → (b : Ref sig .tc) → Buf (Elt F) ((c : Thread nD τ).loc b))

/-! ## The windows' blocks -/

/-- Window `w`'s block at point `t`: the rows `2000 t … 2000 t + 1999` of the activations and of the three
    outputs, the whole of the weights and of the bias, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: every load and store takes its whole buffer -/

abbrev r7_0 : Rect S2000x128 := Rect.unit (s := S2000x128) ![0, 0] S2000x128.size inb_S2000x128_S2000x128_0_0
abbrev r7_1 : Rect S128x512 := Rect.unit (s := S128x512) ![0, 0] S128x512.size inb_S128x512_S128x512_0_0
abbrev r7_2 : Rect S1x512 := Rect.unit (s := S1x512) ![0, 0] S1x512.size inb_S1x512_S1x512_0_0
abbrev r7_3 : Rect S2000x256 := Rect.unit (s := S2000x256) ![0, 0] S2000x256.size inb_S2000x256_S2000x256_0_0

/-! ## What the body leaves in each output buffer -/

/-- The k block: columns 0:128 of `h · wcat + bcat` rounded to bf16 — one store over the whole buffer. -/
def out7_3 (x0 : Vec F S2000x128 .f32) (x1 : Vec F S128x512 .bf16) (x2 : Vec F S1x512 .f32) : Vec F S2000x128 .bf16 :=
  View.canon [⟨r7_0, k7_pay2 (View.ld x0 r7_0) (View.ld x1 r7_1) (View.ld x2 r7_2)⟩]

/-- The qv block: columns 128:384 rounded to bf16 — one store over the whole buffer. -/
def out7_4 (x0 : Vec F S2000x128 .f32) (x1 : Vec F S128x512 .bf16) (x2 : Vec F S1x512 .f32) : Vec F S2000x256 .bf16 :=
  View.canon [⟨r7_3, k7_pay3 (View.ld x0 r7_0) (View.ld x1 r7_1) (View.ld x2 r7_2)⟩]

/-- The s block: columns 384:512 in f32 — one store over the whole buffer. -/
def out7_5 (x0 : Vec F S2000x128 .f32) (x1 : Vec F S128x512 .bf16) (x2 : Vec F S1x512 .f32) : Vec F S2000x128 .f32 :=
  View.canon [⟨r7_0, k7_pay4 (View.ld x0 r7_0) (View.ld x1 r7_1) (View.ld x2 r7_2)⟩]

/-! ## The pipeline's proof data -/

/-- The arrays as the region finds them; after the body at point `t` each input buffer still at its block and each
    output buffer at its function of the three input blocks; the invariant is the untouched scoped rest and generator
    register; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => out7_4 (iblk7 V c 0 t) (iblk7 V c 1 t) (iblk7 V c 2 t)
    | ⟨5, _⟩ => out7_5 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = out7_4 (iblk7 V c 0 t) (iblk7 V c 1 t) (iblk7 V c 2 t) := by dsimp only [dat7]
theorem after7_5 (c : Dev nD) (t : Fin cfg7.N) : (dat7 V c).after 5 t = out7_5 (iblk7 V c 0 t) (iblk7 V c 1 t) (iblk7 V c 2 t) := by dsimp only [dat7]

/-- The invariant is the same at every point: the body touches neither the scoped rest nor the generator register. -/
theorem Phi7_eq (c : Dev nD) (t : Fin (cfg7.N + 1)) : (dat7 V c).Φ t = Pipeline.ΦA spec7 c := rfl

end Cert.KernelIdeal.Hand
-- ==== Proof.KI.Reg8Runs.lean ====
/- Region 8 (the fused add and column statistics): what the three cases of the body share. The body adds its two
   input blocks into the output block at every point, and keeps two row accumulators (the column sums of the
   block and of its squares) in buffers of its own between points: zeroed at the first point, copied into the
   two one-row outputs at the last. The cases: A the first point, B a middle point, C the last point. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current buffer holds its block at every point, fetched there or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- "This is the first point" as the body computes it. -/
abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)
/-- "This is the last point" as the body computes it. -/
abbrev cond8_1 (i : grid8.Coords) : Prop := k8_cond2 i = 1#1
theorem hcond8_1 : ∀ t : Fin cfg8.N, cond8_1 (grid8.coords t) ↔ t.val = 24 :=
  (by decide +kernel : ∀ t : Fin grid8.N, cond8_1 (grid8.coords t) ↔ t.val = 24)

theorem hA0_8 (t : Fin cfg8.N) (h : t.val = 0) : cond8_0 (grid8.coords t) := (hcond8_0 t).mpr h
theorem hA1_8 (t : Fin cfg8.N) (h : t.val = 0) : ¬cond8_1 (grid8.coords t) := fun h' => by have := (hcond8_1 t).mp h'; omega
theorem hB0_8 (t : Fin cfg8.N) (h : ¬t.val = 0) : ¬cond8_0 (grid8.coords t) := fun h' => h ((hcond8_0 t).mp h')
theorem hB1_8 (t : Fin cfg8.N) (h : ¬t.val = 24) : ¬cond8_1 (grid8.coords t) := fun h' => h ((hcond8_1 t).mp h')
theorem hC1_8 (t : Fin cfg8.N) (h : t.val = 24) : cond8_1 (grid8.coords t) := (hcond8_1 t).mpr h

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- Away from the last point the two one-row outputs are idle and not written back. -/
theorem idleAt8_3 : ∀ t : Fin cfg8.N, ¬cond8_1 (grid8.coords t) → cfg8.idle 3 (grid8.coords t) = true := by decide +kernel
theorem noFlush8_3 : ∀ t : Fin cfg8.N, ¬cond8_1 (grid8.coords t) → (cfg8.win 3).flush t = false := by decide +kernel
theorem idleAt8_4 : ∀ t : Fin cfg8.N, ¬cond8_1 (grid8.coords t) → cfg8.idle 4 (grid8.coords t) = true := by decide +kernel
theorem noFlush8_4 : ∀ t : Fin cfg8.N, ¬cond8_1 (grid8.coords t) → (cfg8.win 4).flush t = false := by decide +kernel
/-- At the last point they are live. -/
theorem liveAt8_3 : ∀ t : Fin cfg8.N, cond8_1 (grid8.coords t) → cfg8.idle 3 (grid8.coords t) = false := by decide +kernel
theorem liveAt8_4 : ∀ t : Fin cfg8.N, cond8_1 (grid8.coords t) → cfg8.idle 4 (grid8.coords t) = false := by decide +kernel

/-! ## The buffers the body is called on -/

/-- One staging buffer per output window, through which its contents are stated. -/
abbrev VO8_2 : View sig .tc .vmem S2000x128 .f32 := (Memref.whole cc8_stg2_0 : Memref sig .tc .vmem S2000x128 .f32).view
abbrev VO8_3 : View sig .tc .vmem S1x128 .f32 := (Memref.whole cc8_stg3_0 : Memref sig .tc .vmem S1x128 .f32).view
abbrev VO8_4 : View sig .tc .vmem S1x128 .f32 := (Memref.whole cc8_stg4_0 : Memref sig .tc .vmem S1x128 .f32).view
/-- Each window's current staging buffer at point `t`, and its wholeness. -/
abbrev ms8_0 (t : Fin cfg8.N) : Memref sig .tc .vmem S2000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2000x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
/-- The two accumulators: whole buffers of the body's own, passed beside the windows. -/
abbrev scM8_0 : Memref sig .tc .vmem S1x128 .f32 := Memref.whole cc8_scratch0
abbrev scM8_1 : Memref sig .tc .vmem S1x128 .f32 := Memref.whole cc8_scratch1
abbrev VS8_0 : View sig .tc .vmem S1x128 .f32 := scM8_0.view
abbrev VS8_1 : View sig .tc .vmem S1x128 .f32 := scM8_1.view

/-- Every scoped buffer of the core that is not one of this region's staging buffers nor one of its two accumulators. -/
abbrev restBut8 (c : Dev nD) : sProp 𝕄 :=
  Pipeline.scopedRestBut (Ix := Unit) (Name := ℕ) (U := Pipeline.UD sig nD τ) (Lvl := ℕ) (Val := Elt F) spec8 c [cc8_scratch0, cc8_scratch1]

/-- The region's entry invariant with the two accumulators split out of the scoped rest, each at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ restBut8 c) ∗ (∃ r, prngReg c r)) := by
  unfold Pipeline.ΦA; rw [scopedRest8_split]; simp only [scM8_0, scM8_1, owns_whole]; try rfl

end Cert.KernelIdeal.Hand

end
-- ==== Proof.KI.Reg8RunA.lean ====
/- Region 8, case A: the body's run at the first point (both accumulators zeroed, then the block's column sums added; the one-row outputs untouched). -/
import proofs.«180311_j29308856828500_2_alg».proof.Proof.KI.Reg8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun8_A (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc8__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc8__fuse_stats_kernel_eq_skeleton]; unfold cc8__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.KernelIdeal.Hand

end
-- ==== Proof.KI.Reg8RunB.lean ====
/- Region 8, case B: the body's run at a middle point (the block's column sums added onto what the point before left; the one-row outputs untouched). -/
import proofs.«180311_j29308856828500_2_alg».proof.Proof.KI.Reg8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun8_B (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (xi3 : Vec F S1x128 .f32) (xi4 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc8__fuse_stats_kernel i arg1 harg1 arg2 harg2 arg3 harg3 arg4 harg4 arg5 harg5 arg6 harg6 arg7 harg7) K } := by
  refine ⟨?_, [], [], ?_, ?_, fun xi3 xi4 E K => ?run⟩
  case run =>
    simp only [cc8__fuse_stats_kernel_eq_skeleton]; unfold cc8__fuse_stats_kernel_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.KernelIdeal.Hand

end
-- ==== Proof.KI.Reg8RunC.lean ====
/- Region 8, case C: the body's run at the last point (the column sums added, then both accumulators copied into the one-row outputs). -/
import proofs.«180311_j29308856828500_2_alg».proof.Proof.KI.Reg8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in each output buffer and in the two accumulators, as pieces (last first), with the
    proof that from the inputs' buffers at their blocks the body runs to the continuation holding the inputs' as they were and
    each buffer it stored into with its pieces written. -/
noncomputable def kernelRun8_C (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) :
    Σ' (L2 : List (View.Piece (Elt F) S2000x128 .f32)), Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc8__fuse_stats_kernel i arg1 harg1 arg2 harg2 arg3 harg3 arg4 harg4 arg5 harg5 arg6 harg6 arg7 harg7) K } := by
  refine ⟨?_, ?_, ?_, ?_, ?_, fun E K => ?run⟩
  case run =>
    simp only [cc8__fuse_stats_kernel_eq_skeleton]; unfold cc8__fuse_stats_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
    obtain rfl := harg1.eq_unread hf0; obtain rfl := harg2.eq_unread hf1; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Hand

end
-- ==== Proof.KI.Reg8Dat.lean ====
/- Region 8: what each case leaves in the outputs and in the two accumulators, the accumulation point by point,
   the region invariant and the pipeline's proof data. -/
import proofs.«180311_j29308856828500_2_alg».proof.Proof.KI.Reg8RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Case A's stores into output 2 cover its block. -/
theorem cover8_A_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) (y : S2000x128.Idx) :
    ∃ pc ∈ (kernelRun8_A c i arg1 harg1 arg2 harg2 arg3 harg3 arg4 harg4 arg5 harg5 arg6 harg6 arg7 harg7 hc0 hc1 x0 x1).1, y ∈ pc.1.set :=
  View.cover_of_tiledL (kernelRun8_A c i arg1 harg1 arg2 harg2 arg3 harg3 arg4 harg4 arg5 harg5 arg6 harg6 arg7 harg7 hc0 hc1 x0 x1).1 S2000x128.size (by sl_kernel_rfl) y

/-- What case A leaves in output 2's staging buffer: its pieces read back. -/
def out8_A_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) : Vec F S2000x128 .f32 :=
  VO8_2.read (Elt F) (VO8_2.writes (Elt F) VO8_2.junk (kernelRun8_A c i arg1 harg1 arg2 harg2 arg3 harg3 arg4 harg4 arg5 harg5 arg6 harg6 arg7 harg7 hc0 hc1 x0 x1).1)

/-- Case A's stores into accumulator 0 cover it. -/
theorem scover8_A_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) (y : S1x128.Idx) :
    ∃ pc ∈ (kernelRun8_A c i arg1 harg1 arg2 harg2 arg3 harg3 arg4 harg4 arg5 harg5 arg6 harg6 arg7 harg7 hc0 hc1 x0 x1).2.2.2.1, y ∈ pc.1.set :=
  View.cover_of_tiledL (kernelRun8_A c i arg1 harg1 arg2 harg2 arg3 harg3 arg4 harg4 arg5 harg5 arg6 harg6 arg7 harg7 hc0 hc1 x0 x1).2.2.2.1 S1x128.size (by sl_kernel_rfl) y

/-- What case A leaves in accumulator 0: its pieces read back. -/
def sout8_A_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) : Vec F S1x128 .f32 :=
  VS8_0.read (Elt F) (VS8_0.writes (Elt F) VS8_0.junk (kernelRun8_A c i arg1 harg1 arg2 harg2 arg3 harg3 arg4 harg4 arg5 harg5 arg6 harg6 arg7 harg7 hc0 hc1 x0 x1).2.2.2.1)

/-- Case A's stores into accumulator 1 cover it. -/
theorem scover8_A_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) (y : S1x128.Idx) :
    ∃ pc ∈ (kernelRun8_A c i arg1 harg1 arg2 harg2 arg3 harg3 arg4 harg4 arg5 harg5 arg6 harg6 arg7 harg7 hc0 hc1 x0 x1).2.2.2.2.1, y ∈ pc.1.set :=
  View.cover_of_tiledL (kernelRun8_A c i arg1 harg1 arg2 harg2 arg3 harg3 arg4 harg4 arg5 harg5 arg6 harg6 arg7 harg7 hc0 hc1 x0 x1).2.2.2.2.1 S1x128.size (by sl_kernel_rfl) y

/-- What case A leaves in accumulator 1: its pieces read back. -/
def sout8_A_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i)
    (x0 : Vec F S2000x128 .f32) (x1 : Vec F S2000x128 .f32) : Vec F S1x128 .f32 :=
  VS8_1.read (Elt F) (VS8_1.writes (Elt F) VS8_1.junk (kernelRun8_A c i arg1 harg1 arg2 harg2 arg3 harg3 arg4 harg4 arg5 harg5 arg6 harg6 arg7 harg7 hc0 hc1 x0 x1).2.2.2.2.1)

/-- Case B's stores into output 2 cover its block. -/
theorem cover8_B_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) (y : S2000x128.Idx) :
    ∃ pc ∈ (kernelRun8_B c i arg1 harg1 arg2 harg2 arg3 harg3 arg4 harg4 arg5 harg5 arg6 harg6 arg7 harg7 hc0 hc1 x0 x1 xs0 xs1).1, y ∈ pc.1.set :=
  View.cover_of_tiledL (kernelRun8_B c i arg1 harg1 arg2 harg2 arg3 harg3 arg4 harg4 arg5 harg5 arg6 harg6 arg7 harg7 hc0 hc1 x0 x1 xs0 xs1).1 S2000x128.size (by sl_kernel_rfl) y

/-- What case B leaves in output 2's staging buffer: its pieces read back. -/
def out8_B_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) : Vec F S2000x128 .f32 :=
  VO8_2.read (Elt F) (VO8_2.writes (Elt F) VO8_2.junk (kernelRun8_B c i arg1 harg1 arg2 harg2 arg3 harg3 arg4 harg4 arg5 harg5 arg6 harg6 arg7 harg7 hc0 hc1 x0 x1 xs0 xs1).1)

/-- Case B's stores into accumulator 0 cover it. -/
theorem scover8_B_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 hc0 hc1 x0 x1 xs0 xs1).2.2.2.1, y ∈ pc.1.set :=
  View.cover_of_tiledL (kernelRun8_B c i arg1 harg1 arg2 harg2 arg3 harg3 arg4 harg4 arg5 harg5 arg6 harg6 arg7 harg7 hc0 hc1 x0 x1 xs0 xs1).2.2.2.1 S1x128.size (by sl_kernel_rfl) y

/-- What case B leaves in accumulator 0: its pieces read back. -/
def sout8_B_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) : Vec F S1x128 .f32 :=
  VS8_0.read (Elt F) (VS8_0.writes (Elt F) VS8_0.junk (kernelRun8_B c i arg1 harg1 arg2 harg2 arg3 harg3 arg4 harg4 arg5 harg5 arg6 harg6 arg7 harg7 hc0 hc1 x0 x1 xs0 xs1).2.2.2.1)

/-- Case B's stores into accumulator 1 cover it. -/
theorem scover8_B_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 hc0 hc1 x0 x1 xs0 xs1).2.2.2.2.1, y ∈ pc.1.set :=
  View.cover_of_tiledL (kernelRun8_B c i arg1 harg1 arg2 harg2 arg3 harg3 arg4 harg4 arg5 harg5 arg6 harg6 arg7 harg7 hc0 hc1 x0 x1 xs0 xs1).2.2.2.2.1 S1x128.size (by sl_kernel_rfl) y

/-- What case B leaves in accumulator 1: its pieces read back. -/
def sout8_B_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i)
    (x0 : Vec F S2000x128 .f32) (x1 : Vec F S2000x128 .f32) (xs0 : Vec F S1x128 .f32) (xs1 : Vec F S1x128 .f32) : Vec F S1x128 .f32 :=
  VS8_1.read (Elt F) (VS8_1.writes (Elt F) VS8_1.junk (kernelRun8_B c i arg1 harg1 arg2 harg2 arg3 harg3 arg4 harg4 arg5 harg5 arg6 harg6 arg7 harg7 hc0 hc1 x0 x1 xs0 xs1).2.2.2.2.1)

/-- Case C's stores into output 2 cover its block. -/
theorem cover8_C_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S2000x128.Idx) :
    ∃ pc ∈ (kernelRun8_C c i arg1 harg1 arg2 harg2 arg3 harg3 arg4 harg4 arg5 harg5 arg6 harg6 arg7 harg7 hc0 hc1 x0 x1 xs0 xs1).1, y ∈ pc.1.set :=
  View.cover_of_tiledL (kernelRun8_C c i arg1 harg1 arg2 harg2 arg3 harg3 arg4 harg4 arg5 harg5 arg6 harg6 arg7 harg7 hc0 hc1 x0 x1 xs0 xs1).1 S2000x128.size (by sl_kernel_rfl) y

/-- What case C leaves in output 2's staging buffer: its pieces read back. -/
def out8_C_2 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S2000x128 .f32 :=
  VO8_2.read (Elt F) (VO8_2.writes (Elt F) VO8_2.junk (kernelRun8_C c i arg1 harg1 arg2 harg2 arg3 harg3 arg4 harg4 arg5 harg5 arg6 harg6 arg7 harg7 hc0 hc1 x0 x1 xs0 xs1).1)

/-- Case C's stores into output 3 cover its block. -/
theorem cover8_C_3 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.1, y ∈ pc.1.set :=
  View.cover_of_tiledL (kernelRun8_C c i arg1 harg1 arg2 harg2 arg3 harg3 arg4 harg4 arg5 harg5 arg6 harg6 arg7 harg7 hc0 hc1 x0 x1 xs0 xs1).2.1 S1x128.size (by sl_kernel_rfl) y

/-- What case C leaves in output 3's staging buffer: its pieces read back. -/
def out8_C_3 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VO8_3.read (Elt F) (VO8_3.writes (Elt F) VO8_3.junk (kernelRun8_C c i arg1 harg1 arg2 harg2 arg3 harg3 arg4 harg4 arg5 harg5 arg6 harg6 arg7 harg7 hc0 hc1 x0 x1 xs0 xs1).2.1)

/-- Case C's stores into output 4 cover its block. -/
theorem cover8_C_4 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.2.1, y ∈ pc.1.set :=
  View.cover_of_tiledL (kernelRun8_C c i arg1 harg1 arg2 harg2 arg3 harg3 arg4 harg4 arg5 harg5 arg6 harg6 arg7 harg7 hc0 hc1 x0 x1 xs0 xs1).2.2.1 S1x128.size (by sl_kernel_rfl) y

/-- What case C leaves in output 4's staging buffer: its pieces read back. -/
def out8_C_4 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VO8_4.read (Elt F) (VO8_4.writes (Elt F) VO8_4.junk (kernelRun8_C c i arg1 harg1 arg2 harg2 arg3 harg3 arg4 harg4 arg5 harg5 arg6 harg6 arg7 harg7 hc0 hc1 x0 x1 xs0 xs1).2.2.1)

/-- Case C's stores into accumulator 0 cover it. -/
theorem scover8_C_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.2.2.1, y ∈ pc.1.set :=
  View.cover_of_tiledL (kernelRun8_C c i arg1 harg1 arg2 harg2 arg3 harg3 arg4 harg4 arg5 harg5 arg6 harg6 arg7 harg7 hc0 hc1 x0 x1 xs0 xs1).2.2.2.1 S1x128.size (by sl_kernel_rfl) y

/-- What case C leaves in accumulator 0: its pieces read back. -/
def sout8_C_0 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VS8_0.read (Elt F) (VS8_0.writes (Elt F) VS8_0.junk (kernelRun8_C c i arg1 harg1 arg2 harg2 arg3 harg3 arg4 harg4 arg5 harg5 arg6 harg6 arg7 harg7 hc0 hc1 x0 x1 xs0 xs1).2.2.2.1)

/-- Case C's stores into accumulator 1 cover it. -/
theorem scover8_C_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 hc0 hc1 x0 x1 xs0 xs1).2.2.2.2.1, y ∈ pc.1.set :=
  View.cover_of_tiledL (kernelRun8_C c i arg1 harg1 arg2 harg2 arg3 harg3 arg4 harg4 arg5 harg5 arg6 harg6 arg7 harg7 hc0 hc1 x0 x1 xs0 xs1).2.2.2.2.1 S1x128.size (by sl_kernel_rfl) y

/-- What case C leaves in accumulator 1: its pieces read back. -/
def sout8_C_1 (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i)
    (x0 : Vec F S2000x128 .f32) (x1 : Vec F S2000x128 .f32) (xs0 : Vec F S1x128 .f32) (xs1 : Vec F S1x128 .f32) : Vec F S1x128 .f32 :=
  VS8_1.read (Elt F) (VS8_1.writes (Elt F) VS8_1.junk (kernelRun8_C c i arg1 harg1 arg2 harg2 arg3 harg3 arg4 harg4 arg5 harg5 arg6 harg6 arg7 harg7 hc0 hc1 x0 x1 xs0 xs1).2.2.2.2.1)

/-! ## Point by point -/

/-- A placeholder for a one-row output's buffer at a point where it is idle: nothing consults it. -/
def idleOut8 : Vec F S1x128 .f32 := VO8_3.read (Elt F) VO8_3.junk

/-- THE ACCUMULATION. What the two accumulators hold after the body at position `n`: at the first point what case A
    leaves from zeroed accumulators; afterwards what case B (C at the last point) leaves over what the point before left —
    each point adds the column sums of its block `s + agg` (and of the block's squares) onto them. -/
def scratchAt8 (c : Dev nD) : (n : ℕ) → n < cfg8.N → Vec F S1x128 .f32 × Vec F S1x128 .f32
  | 0, hn => (sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) (hA0_8 ⟨0, hn⟩ rfl) (hA1_8 ⟨0, hn⟩ rfl) (iblk8 V c 0 ⟨0, hn⟩) (iblk8 V c 1 ⟨0, hn⟩), sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) (hA0_8 ⟨0, hn⟩ rfl) (hA1_8 ⟨0, hn⟩ rfl) (iblk8 V c 0 ⟨0, hn⟩) (iblk8 V c 1 ⟨0, hn⟩))
  | n + 1, hn =>
    if h1 : n + 1 = 24 then
      (sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2, sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2)
    else
      (sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hB1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2, sout8_B_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hB1_8 ⟨n + 1, hn⟩ h1) (iblk8 V c 0 ⟨n + 1, hn⟩) (iblk8 V c 1 ⟨n + 1, hn⟩) (scratchAt8 c n (Nat.lt_of_succ_lt hn)).1 (scratchAt8 c n (Nat.lt_of_succ_lt hn)).2)

theorem scratchAt8_A (c : Dev nD) (t : Fin cfg8.N) (h0 : t.val = 0) :
    scratchAt8 V c t.val t.isLt = (sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hA0_8 t h0) (hA1_8 t h0) (iblk8 V c 0 t) (iblk8 V c 1 t), sout8_A_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hA0_8 t h0) (hA1_8 t h0) (iblk8 V c 0 t) (iblk8 V c 1 t)) := by
  obtain ⟨n, hn⟩ := t
  cases n with
  | zero => rfl
  | succ n => exact absurd h0 (Nat.succ_ne_zero n)

theorem scratchAt8_B (c : Dev nD) (t : Fin cfg8.N) (h0 : ¬t.val = 0) (h1 : ¬t.val = 24) :
    scratchAt8 V c t.val t.isLt = (sout8_B_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hB1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2, sout8_B_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hB1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2) := by
  obtain ⟨n, hn⟩ := t
  cases n with
  | zero => exact absurd rfl h0
  | succ n => exact (dif_neg h1).trans rfl

theorem scratchAt8_C (c : Dev nD) (t : Fin cfg8.N) (h0 : ¬t.val = 0) (h1 : t.val = 24) :
    scratchAt8 V c t.val t.isLt = (sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2, sout8_C_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2) := by
  obtain ⟨n, hn⟩ := t
  cases n with
  | zero => exact absurd rfl h0
  | succ n => exact (dif_pos h1).trans rfl

/-- What the three outputs' staging buffers hold after the body at position `n`: the block `s + agg` in output 2 at every
    point; at the last point the two accumulators' final contents in outputs 3 and 4 (elsewhere a placeholder). -/
def outsAt8 (c : Dev nD) : (n : ℕ) → n < cfg8.N → Vec F S2000x128 .f32 × Vec F S1x128 .f32 × Vec F S1x128 .f32
  | 0, hn => (out8_A_2 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) (hA0_8 ⟨0, hn⟩ rfl) (hA1_8 ⟨0, hn⟩ rfl) (iblk8 V c 0 ⟨0, hn⟩) (iblk8 V c 1 ⟨0, hn⟩), idleOut8, idleOut8)
  | n + 1, hn =>
    if h1 : n + 1 = 24 then
      (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2,
       out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2,
       out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hC1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2)
    else
      (out8_B_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (hB0_8 ⟨n + 1, hn⟩ (Nat.succ_ne_zero n)) (hB1_8 ⟨n + 1, hn⟩ h1) (iblk8 V c 0 ⟨n + 1, hn⟩) (iblk8 V c 1 ⟨n + 1, hn⟩) (scratchAt8 V c n (Nat.lt_of_succ_lt hn)).1 (scratchAt8 V c n (Nat.lt_of_succ_lt hn)).2, idleOut8, idleOut8)

theorem outsAt8_A (c : Dev nD) (t : Fin cfg8.N) (h0 : t.val = 0) :
    outsAt8 V c t.val t.isLt = (out8_A_2 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hA0_8 t h0) (hA1_8 t h0) (iblk8 V c 0 t) (iblk8 V c 1 t), idleOut8, idleOut8) := by
  obtain ⟨n, hn⟩ := t
  cases n with
  | zero => rfl
  | succ n => exact absurd h0 (Nat.succ_ne_zero n)

theorem outsAt8_B (c : Dev nD) (t : Fin cfg8.N) (h0 : ¬t.val = 0) (h1 : ¬t.val = 24) :
    outsAt8 V c t.val t.isLt = (out8_B_2 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hB1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2, idleOut8, idleOut8) := by
  obtain ⟨n, hn⟩ := t
  cases n with
  | zero => exact absurd rfl h0
  | succ n => exact (dif_neg h1).trans rfl

theorem outsAt8_C (c : Dev nD) (t : Fin cfg8.N) (h0 : ¬t.val = 0) (h1 : t.val = 24) :
    outsAt8 V c t.val t.isLt = (out8_C_2 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2,
       out8_C_3 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2,
       out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (hB0_8 t h0) (hC1_8 t h1) (iblk8 V c 0 t) (iblk8 V c 1 t) (scratchAt8 V c (t.val - 1) (Nat.lt_of_le_of_lt (Nat.sub_le _ _) t.isLt)).1 (scratchAt8 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before position `n`: at the region's entry the scoped rest (both accumulators at some contents) and the generator
    register; after a point, the two accumulators at what that point left, the other scoped buffers, the register. -/
def PhiS8 (c : Dev nD) : (n : ℕ) → n ≤ cfg8.N → sProp 𝕄
  | 0, _ => Pipeline.ΦA spec8 c
  | n + 1, hn => iprop(iprop(iprop(owns (c : Thread nD τ) scM8_0 fullShare (scratchAt8 V c n hn).1 ∗ owns (c : Thread nD τ) scM8_1 fullShare (scratchAt8 V c n hn).2) ∗ restBut8 c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (scratchAt8 V c n hn).1 ∗ owns (c : Thread nD τ) scM8_1 fullShare (scratchAt8 V c n hn).2) ∗ restBut8 c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (scratchAt8 V c (n - 1) (by omega)).1 ∗ owns (c : Thread nD τ) scM8_1 fullShare (scratchAt8 V c (n - 1) (by omega)).2) ∗ restBut8 c) ∗ (∃ r, prngReg c r)) := by
  cases n with
  | zero => exact absurd rfl hz
  | succ n => rfl

/-! ## The pipeline's proof data -/

/-- The arrays as the region finds them; after the body at point `t` each input's buffer at its block and the outputs'
    at `outsAt8`; the invariant `PhiS8`; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
    | ⟨3, _⟩ => (outsAt8 V c t.val t.isLt).2.1
    | ⟨4, _⟩ => (outsAt8 V c t.val t.isLt).2.2
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem after8_3 (c : Dev nD) (t : Fin cfg8.N) : (dat8 V c).after 3 t = (outsAt8 V c t.val t.isLt).2.1 := by dsimp only [dat8]
theorem after8_4 (c : Dev nD) (t : Fin cfg8.N) : (dat8 V c).after 4 t = (outsAt8 V c t.val t.isLt).2.2 := by dsimp only [dat8]

end Cert.KernelIdeal.Hand

end
-- ==== Proof.KI.Reg9Dat.lean ====
/- Region 9 (normalise, rectify, project onto the 32 head columns, add the head bias): the windows' blocks,
   what the body leaves in the output window, and the proof data of the pipeline, all at the contents `V` the
   region is entered with. Definitions only. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rectangles the body reads and writes through: each is the whole of its buffer (the 2000×128 rows; a 1×128
    row vector; the 128×32 head weights; the 1×32 head bias; the 2000×32 result). -/
abbrev r9_0 : Rect S2000x128 := Rect.unit (s := S2000x128) ![0, 0] S2000x128.size inb_S2000x128_S2000x128_0_0
abbrev r9_1 : Rect S1x128 := Rect.unit (s := S1x128) ![0, 0] S1x128.size inb_S1x128_S1x128_0_0
abbrev r9_2 : Rect S128x32 := Rect.unit (s := S128x32) ![0, 0] S128x32.size inb_S128x32_S128x32_0_0
abbrev r9_3 : Rect S1x32 := Rect.unit (s := S1x32) ![0, 0] S1x32.size inb_S1x32_S1x32_0_0
abbrev r9_4 : Rect S2000x32 := Rect.unit (s := S2000x32) ![0, 0] S2000x32.size inb_S2000x32_S2000x32_0_0

/-- The output block after the body, from the seven input blocks (rows `x0`, mean `x1`, variance `x2`, scale `x3`,
    shift `x4`, head weights `x5`, head bias `x6`): its single store, as one piece. -/
def out9_7 (x0 : Vec F S2000x128 .f32) (x1 : Vec F S1x128 .f32) (x2 : Vec F S1x128 .f32) (x3 : Vec F S1x128 .f32) (x4 : Vec F S1x128 .f32)
    (x5 : Vec F S128x32 .bf16) (x6 : Vec F S1x32 .f32) : Vec F S2000x32 .f32 :=
  View.canon [⟨r9_4, k9_pay1 (View.ld x0 r9_0) (View.ld x1 r9_1) (View.ld x2 r9_1) (View.ld x3 r9_1) (View.ld x4 r9_1) (View.ld x5 r9_2) (View.ld x6 r9_3)⟩]

/-- The proof data of pipeline 9 on core `c`: the arrays as entered; after the body at point `t` every input
    window at its block and the output window at `out9_7` of the input blocks; the invariant that of a body
    touching nothing but its windows; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t
    = out9_7 (iblk9 V c 0 t) (iblk9 V c 1 t) (iblk9 V c 2 t) (iblk9 V c 3 t) (iblk9 V c 4 t) (iblk9 V c 5 t) (iblk9 V c 6 t) := by dsimp only [dat9]

/-- The invariant is the same at every point. -/
theorem Phi9_eq (c : Dev nD) (t : Fin (cfg9.N + 1)) : (dat9 V c).Φ t = Pipeline.ΦA spec9 c := rfl

end Cert.KernelIdeal.Hand

end
-- ==== Proof.KI.Bounds.lean ====
/- The buffer contents at every boundary between two items of the program (a host stretch or a kernel region),
   as a fold from the launch memory: a host stretch applies its operations; a region replaces its output arrays
   by what its write-backs leave and changes nothing else. Then the family of proof data, one per region, each
   at the contents its region is entered with. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.Gen.KernelIdeal.Regions
import proofs.«180311_j29308856828500_2_alg».proof.Proof.KI.Reg0Dat
import proofs.«180311_j29308856828500_2_alg».proof.Proof.KI.Reg1Dat
import proofs.«180311_j29308856828500_2_alg».proof.Proof.KI.Reg2Dat
import proofs.«180311_j29308856828500_2_alg».proof.Proof.KI.Reg3Dat
import proofs.«180311_j29308856828500_2_alg».proof.Proof.KI.Reg4Dat
import proofs.«180311_j29308856828500_2_alg».proof.Proof.KI.Reg5Dat
import proofs.«180311_j29308856828500_2_alg».proof.Proof.KI.Reg6Dat
import proofs.«180311_j29308856828500_2_alg».proof.Proof.KI.Reg7Dat
import proofs.«180311_j29308856828500_2_alg».proof.Proof.KI.Reg8Dat
import proofs.«180311_j29308856828500_2_alg».proof.Proof.KI.Reg9Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The contents at each boundary -/

/-- After the first host stretch: what region 0 is entered with. -/
def W1 (c : Dev nD) : Valuation τ sig (Elt F) := Gen.V1 m c

/-! ### Region 0 -/

/-- What region 0's write-backs leave in `main_v6`. -/
def O2 (c : Dev nD) : Buf (Elt F) ((c : Thread nD τ).loc main_v6) := (dat0 (fun c b => W1 m c b) c).arrAt 3 cfg0.N
/-- At region 0's exit: its output array replaced, every other buffer as entered. -/
def W2 (c : Dev nD) : Valuation τ sig (Elt F) := Function.update (W1 m c) main_v6 (O2 m c)
/-- After the host stretch that follows: what region 1 is entered with. -/
def W3 (c : Dev nD) : Valuation τ sig (Elt F) := StableHlo.after hostOps1 (W2 m c)

/-! ### Region 1 -/

/-- What region 1's write-backs leave in `main_v16_0`. -/
def O4_0 (c : Dev nD) : Buf (Elt F) ((c : Thread nD τ).loc main_v16_0) := (dat1 (fun c b => W3 m c b) c).arrAt 3 cfg1.N
/-- What region 1's write-backs leave in `main_v16_1`. -/
def O4_1 (c : Dev nD) : Buf (Elt F) ((c : Thread nD τ).loc main_v16_1) := (dat1 (fun c b => W3 m c b) c).arrAt 4 cfg1.N
/-- What region 1's write-backs leave in `main_v16_2`. -/
def O4_2 (c : Dev nD) : Buf (Elt F) ((c : Thread nD τ).loc main_v16_2) := (dat1 (fun c b => W3 m c b) c).arrAt 5 cfg1.N
/-- At region 1's exit: its output arrays replaced, every other buffer as entered. -/
def W4 (c : Dev nD) : Valuation τ sig (Elt F) := Function.update (Function.update (Function.update (W3 m c) main_v16_0 (O4_0 m c)) main_v16_1 (O4_1 m c)) main_v16_2 (O4_2 m c)
/-- After the host stretch that follows: what region 2 is entered with. -/
def W5 (c : Dev nD) : Valuation τ sig (Elt F) := StableHlo.after hostOps2 (W4 m c)

/-! ### Region 2 -/

/-- What region 2's write-backs leave in `main_v47_0`. -/
def O6_0 (c : Dev nD) : Buf (Elt F) ((c : Thread nD τ).loc main_v47_0) := (dat2 (fun c b => W5 m c b) c).arrAt 2 cfg2.N
/-- What region 2's write-backs leave in `main_v47_1`. -/
def O6_1 (c : Dev nD) : Buf (Elt F) ((c : Thread nD τ).loc main_v47_1) := (dat2 (fun c b => W5 m c b) c).arrAt 3 cfg2.N
/-- What region 2's write-backs leave in `main_v47_2`. -/
def O6_2 (c : Dev nD) : Buf (Elt F) ((c : Thread nD τ).loc main_v47_2) := (dat2 (fun c b => W5 m c b) c).arrAt 4 cfg2.N
/-- At region 2's exit: its output arrays replaced, every other buffer as entered. -/
def W6 (c : Dev nD) : Valuation τ sig (Elt F) := Function.update (Function.update (Function.update (W5 m c) main_v47_0 (O6_0 m c)) main_v47_1 (O6_1 m c)) main_v47_2 (O6_2 m c)
/-- After the host stretch that follows: what region 3 is entered with. -/
def W7 (c : Dev nD) : Valuation τ sig (Elt F) := StableHlo.after hostOps3 (W6 m c)

/-! ### Region 3 -/

/-- What region 3's write-backs leave in `main_v62`. -/
def O8 (c : Dev nD) : Buf (Elt F) ((c : Thread nD τ).loc main_v62) := (dat3 (fun c b => W7 m c b) c).arrAt 5 cfg3.N
/-- At region 3's exit: its output array replaced, every other buffer as entered. -/
def W8 (c : Dev nD) : Valuation τ sig (Elt F) := Function.update (W7 m c) main_v62 (O8 m c)
/-- After the host stretch that follows: what region 4 is entered with. -/
def W9 (c : Dev nD) : Valuation τ sig (Elt F) := StableHlo.after hostOps4 (W8 m c)

/-! ### Region 4 -/

/-- What region 4's write-backs leave in `main_v72_0`. -/
def O10_0 (c : Dev nD) : Buf (Elt F) ((c : Thread nD τ).loc main_v72_0) := (dat4 (fun c b => W9 m c b) c).arrAt 3 cfg4.N
/-- What region 4's write-backs leave in `main_v72_1`. -/
def O10_1 (c : Dev nD) : Buf (Elt F) ((c : Thread nD τ).loc main_v72_1) := (dat4 (fun c b => W9 m c b) c).arrAt 4 cfg4.N
/-- What region 4's write-backs leave in `main_v72_2`. -/
def O10_2 (c : Dev nD) : Buf (Elt F) ((c : Thread nD τ).loc main_v72_2) := (dat4 (fun c b => W9 m c b) c).arrAt 5 cfg4.N
/-- At region 4's exit: its output arrays replaced, every other buffer as entered. -/
def W10 (c : Dev nD) : Valuation τ sig (Elt F) := Function.update (Function.update (Function.update (W9 m c) main_v72_0 (O10_0 m c)) main_v72_1 (O10_1 m c)) main_v72_2 (O10_2 m c)
/-- After the host stretch that follows: what region 5 is entered with. -/
def W11 (c : Dev nD) : Valuation τ sig (Elt F) := StableHlo.after hostOps5 (W10 m c)

/-! ### Region 5 -/

/-- What region 5's write-backs leave in `main_v103_0`. -/
def O12_0 (c : Dev nD) : Buf (Elt F) ((c : Thread nD τ).loc main_v103_0) := (dat5 (fun c b => W11 m c b) c).arrAt 2 cfg5.N
/-- What region 5's write-backs leave in `main_v103_1`. -/
def O12_1 (c : Dev nD) : Buf (Elt F) ((c : Thread nD τ).loc main_v103_1) := (dat5 (fun c b => W11 m c b) c).arrAt 3 cfg5.N
/-- What region 5's write-backs leave in `main_v103_2`. -/
def O12_2 (c : Dev nD) : Buf (Elt F) ((c : Thread nD τ).loc main_v103_2) := (dat5 (fun c b => W11 m c b) c).arrAt 4 cfg5.N
/-- At region 5's exit: its output arrays replaced, every other buffer as entered. -/
def W12 (c : Dev nD) : Valuation τ sig (Elt F) := Function.update (Function.update (Function.update (W11 m c) main_v103_0 (O12_0 m c)) main_v103_1 (O12_1 m c)) main_v103_2 (O12_2 m c)
/-- After the host stretch that follows: what region 6 is entered with. -/
def W13 (c : Dev nD) : Valuation τ sig (Elt F) := StableHlo.after hostOps6 (W12 m c)

/-! ### Region 6 -/

/-- What region 6's write-backs leave in `main_v118`. -/
def O14 (c : Dev nD) : Buf (Elt F) ((c : Thread nD τ).loc main_v118) := (dat6 (fun c b => W13 m c b) c).arrAt 5 cfg6.N
/-- At region 6's exit: its output array replaced, every other buffer as entered. -/
def W14 (c : Dev nD) : Valuation τ sig (Elt F) := Function.update (W13 m c) main_v118 (O14 m c)
/-- After the host stretch that follows: what region 7 is entered with. -/
def W15 (c : Dev nD) : Valuation τ sig (Elt F) := StableHlo.after hostOps7 (W14 m c)

/-! ### Region 7 -/

/-- What region 7's write-backs leave in `main_v128_0`. -/
def O16_0 (c : Dev nD) : Buf (Elt F) ((c : Thread nD τ).loc main_v128_0) := (dat7 (fun c b => W15 m c b) c).arrAt 3 cfg7.N
/-- What region 7's write-backs leave in `main_v128_1`. -/
def O16_1 (c : Dev nD) : Buf (Elt F) ((c : Thread nD τ).loc main_v128_1) := (dat7 (fun c b => W15 m c b) c).arrAt 4 cfg7.N
/-- What region 7's write-backs leave in `main_v128_2`. -/
def O16_2 (c : Dev nD) : Buf (Elt F) ((c : Thread nD τ).loc main_v128_2) := (dat7 (fun c b => W15 m c b) c).arrAt 5 cfg7.N
/-- At region 7's exit: its output arrays replaced, every other buffer as entered. -/
def W16 (c : Dev nD) : Valuation τ sig (Elt F) := Function.update (Function.update (Function.update (W15 m c) main_v128_0 (O16_0 m c)) main_v128_1 (O16_1 m c)) main_v128_2 (O16_2 m c)
/-- After the host stretch that follows: what region 8 is entered with. -/
def W17 (c : Dev nD) : Valuation τ sig (Elt F) := StableHlo.after hostOps8 (W16 m c)

/-! ### Region 8 -/

/-- What region 8's write-backs leave in `main_v159_0`. -/
def O18_0 (c : Dev nD) : Buf (Elt F) ((c : Thread nD τ).loc main_v159_0) := (dat8 (fun c b => W17 m c b) c).arrAt 2 cfg8.N
/-- What region 8's write-backs leave in `main_v159_1`. -/
def O18_1 (c : Dev nD) : Buf (Elt F) ((c : Thread nD τ).loc main_v159_1) := (dat8 (fun c b => W17 m c b) c).arrAt 3 cfg8.N
/-- What region 8's write-backs leave in `main_v159_2`. -/
def O18_2 (c : Dev nD) : Buf (Elt F) ((c : Thread nD τ).loc main_v159_2) := (dat8 (fun c b => W17 m c b) c).arrAt 4 cfg8.N
/-- At region 8's exit: its output arrays replaced, every other buffer as entered. -/
def W18 (c : Dev nD) : Valuation τ sig (Elt F) := Function.update (Function.update (Function.update (W17 m c) main_v159_0 (O18_0 m c)) main_v159_1 (O18_1 m c)) main_v159_2 (O18_2 m c)
/-- After the host stretch that follows: what region 9 is entered with. -/
def W19 (c : Dev nD) : Valuation τ sig (Elt F) := StableHlo.after hostOps9 (W18 m c)

/-! ### Region 9 -/

/-- What region 9's write-backs leave in `main_v176`. -/
def O20 (c : Dev nD) : Buf (Elt F) ((c : Thread nD τ).loc main_v176) := (dat9 (fun c b => W19 m c b) c).arrAt 7 cfg9.N
/-- At region 9's exit: its output array replaced, every other buffer as entered. -/
def W20 (c : Dev nD) : Valuation τ sig (Elt F) := Function.update (W19 m c) main_v176 (O20 m c)

/-! ## The regions' results, as the conditional frame's unknowns -/

/-- What the regions leave in the buffers they may change, read off the boundary contents. -/
def outs : Gen.Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => Gen.V0 m c r

/-! ## The fold agrees with the conditional frame's valuations -/

theorem hV1 (c : Dev nD) : Gen.V1 m c = W1 m c := rfl

/-! ### Region 0 -/

theorem W2_at (c : Dev nD) : W2 m c main_v6 = O2 m c := by
  unfold W2; rw [Function.update_self]
theorem hV2 (c : Dev nD) : Gen.V2 m (outs m) c = W2 m c := by
  have h0 : outs m 2 main_v6 c = O2 m c := W2_at m c
  show Function.update (Gen.V1 m c) main_v6 (outs m 2 main_v6 c) = _
  rw [h0, hV1]; rfl
/-- Off region 0's output array nothing changes. -/
theorem W2_of (c : Dev nD) (r : Ref sig .tc) (h : r ∉ ([main_v6] : List (Ref sig .tc))) : W2 m c r = W1 m c r :=
  (congrFun (hV2 m c) r).symm.trans ((Gen.V2_of m (outs m) c r h).trans (congrFun (hV1 m c) r))
theorem hV3 (c : Dev nD) : Gen.V3 m (outs m) c = W3 m c :=
  congrArg (StableHlo.after hostOps1) (hV2 m c)

/-! ### Region 1 -/

theorem W4_at0 (c : Dev nD) : W4 m c main_v16_0 = O4_0 m c := by
  unfold W4; rw [Function.update_of_ne (StableHlo.devRef_ne_of_ne (by decide) : (Proc.devRef .tc main_v16_0 : DevRef τ sig) ≠ Proc.devRef .tc main_v16_2), Function.update_of_ne (StableHlo.devRef_ne_of_ne (by decide) : (Proc.devRef .tc main_v16_0 : DevRef τ sig) ≠ Proc.devRef .tc main_v16_1), Function.update_self]
theorem W4_at1 (c : Dev nD) : W4 m c main_v16_1 = O4_1 m c := by
  unfold W4; rw [Function.update_of_ne (StableHlo.devRef_ne_of_ne (by decide) : (Proc.devRef .tc main_v16_1 : DevRef τ sig) ≠ Proc.devRef .tc main_v16_2), Function.update_self]
theorem W4_at2 (c : Dev nD) : W4 m c main_v16_2 = O4_2 m c := by
  unfold W4; rw [Function.update_self]
theorem hV4 (c : Dev nD) : Gen.V4 m (outs m) c = W4 m c := by
  have h0 : outs m 4 main_v16_0 c = O4_0 m c := W4_at0 m c
  have h1 : outs m 4 main_v16_1 c = O4_1 m c := W4_at1 m c
  have h2 : outs m 4 main_v16_2 c = O4_2 m c := W4_at2 m c
  show Function.update (Function.update (Function.update (Gen.V3 m (outs m) c) main_v16_0 (outs m 4 main_v16_0 c)) main_v16_1 (outs m 4 main_v16_1 c)) main_v16_2 (outs m 4 main_v16_2 c) = _
  rw [h0, h1, h2, hV3]; rfl
/-- Off region 1's output arrays nothing changes. -/
theorem W4_of (c : Dev nD) (r : Ref sig .tc) (h : r ∉ ([main_v16_0, main_v16_1, main_v16_2] : List (Ref sig .tc))) : W4 m c r = W3 m c r :=
  (congrFun (hV4 m c) r).symm.trans ((Gen.V4_of m (outs m) c r h).trans (congrFun (hV3 m c) r))
theorem hV5 (c : Dev nD) : Gen.V5 m (outs m) c = W5 m c :=
  congrArg (StableHlo.after hostOps2) (hV4 m c)

/-! ### Region 2 -/

theorem W6_at0 (c : Dev nD) : W6 m c main_v47_0 = O6_0 m c := by
  unfold W6; rw [Function.update_of_ne (StableHlo.devRef_ne_of_ne (by decide) : (Proc.devRef .tc main_v47_0 : DevRef τ sig) ≠ Proc.devRef .tc main_v47_2), Function.update_of_ne (StableHlo.devRef_ne_of_ne (by decide) : (Proc.devRef .tc main_v47_0 : DevRef τ sig) ≠ Proc.devRef .tc main_v47_1), Function.update_self]
theorem W6_at1 (c : Dev nD) : W6 m c main_v47_1 = O6_1 m c := by
  unfold W6; rw [Function.update_of_ne (StableHlo.devRef_ne_of_ne (by decide) : (Proc.devRef .tc main_v47_1 : DevRef τ sig) ≠ Proc.devRef .tc main_v47_2), Function.update_self]
theorem W6_at2 (c : Dev nD) : W6 m c main_v47_2 = O6_2 m c := by
  unfold W6; rw [Function.update_self]
theorem hV6 (c : Dev nD) : Gen.V6 m (outs m) c = W6 m c := by
  have h0 : outs m 6 main_v47_0 c = O6_0 m c := W6_at0 m c
  have h1 : outs m 6 main_v47_1 c = O6_1 m c := W6_at1 m c
  have h2 : outs m 6 main_v47_2 c = O6_2 m c := W6_at2 m c
  show Function.update (Function.update (Function.update (Gen.V5 m (outs m) c) main_v47_0 (outs m 6 main_v47_0 c)) main_v47_1 (outs m 6 main_v47_1 c)) main_v47_2 (outs m 6 main_v47_2 c) = _
  rw [h0, h1, h2, hV5]; rfl
/-- Off region 2's output arrays nothing changes. -/
theorem W6_of (c : Dev nD) (r : Ref sig .tc) (h : r ∉ ([main_v47_0, main_v47_1, main_v47_2] : List (Ref sig .tc))) : W6 m c r = W5 m c r :=
  (congrFun (hV6 m c) r).symm.trans ((Gen.V6_of m (outs m) c r h).trans (congrFun (hV5 m c) r))
theorem hV7 (c : Dev nD) : Gen.V7 m (outs m) c = W7 m c :=
  congrArg (StableHlo.after hostOps3) (hV6 m c)

/-! ### Region 3 -/

theorem W8_at (c : Dev nD) : W8 m c main_v62 = O8 m c := by
  unfold W8; rw [Function.update_self]
theorem hV8 (c : Dev nD) : Gen.V8 m (outs m) c = W8 m c := by
  have h0 : outs m 8 main_v62 c = O8 m c := W8_at m c
  show Function.update (Gen.V7 m (outs m) c) main_v62 (outs m 8 main_v62 c) = _
  rw [h0, hV7]; rfl
/-- Off region 3's output array nothing changes. -/
theorem W8_of (c : Dev nD) (r : Ref sig .tc) (h : r ∉ ([main_v62] : List (Ref sig .tc))) : W8 m c r = W7 m c r :=
  (congrFun (hV8 m c) r).symm.trans ((Gen.V8_of m (outs m) c r h).trans (congrFun (hV7 m c) r))
theorem hV9 (c : Dev nD) : Gen.V9 m (outs m) c = W9 m c :=
  congrArg (StableHlo.after hostOps4) (hV8 m c)

/-! ### Region 4 -/

theorem W10_at0 (c : Dev nD) : W10 m c main_v72_0 = O10_0 m c := by
  unfold W10; rw [Function.update_of_ne (StableHlo.devRef_ne_of_ne (by decide) : (Proc.devRef .tc main_v72_0 : DevRef τ sig) ≠ Proc.devRef .tc main_v72_2), Function.update_of_ne (StableHlo.devRef_ne_of_ne (by decide) : (Proc.devRef .tc main_v72_0 : DevRef τ sig) ≠ Proc.devRef .tc main_v72_1), Function.update_self]
theorem W10_at1 (c : Dev nD) : W10 m c main_v72_1 = O10_1 m c := by
  unfold W10; rw [Function.update_of_ne (StableHlo.devRef_ne_of_ne (by decide) : (Proc.devRef .tc main_v72_1 : DevRef τ sig) ≠ Proc.devRef .tc main_v72_2), Function.update_self]
theorem W10_at2 (c : Dev nD) : W10 m c main_v72_2 = O10_2 m c := by
  unfold W10; rw [Function.update_self]
theorem hV10 (c : Dev nD) : Gen.V10 m (outs m) c = W10 m c := by
  have h0 : outs m 10 main_v72_0 c = O10_0 m c := W10_at0 m c
  have h1 : outs m 10 main_v72_1 c = O10_1 m c := W10_at1 m c
  have h2 : outs m 10 main_v72_2 c = O10_2 m c := W10_at2 m c
  show Function.update (Function.update (Function.update (Gen.V9 m (outs m) c) main_v72_0 (outs m 10 main_v72_0 c)) main_v72_1 (outs m 10 main_v72_1 c)) main_v72_2 (outs m 10 main_v72_2 c) = _
  rw [h0, h1, h2, hV9]; rfl
/-- Off region 4's output arrays nothing changes. -/
theorem W10_of (c : Dev nD) (r : Ref sig .tc) (h : r ∉ ([main_v72_0, main_v72_1, main_v72_2] : List (Ref sig .tc))) : W10 m c r = W9 m c r :=
  (congrFun (hV10 m c) r).symm.trans ((Gen.V10_of m (outs m) c r h).trans (congrFun (hV9 m c) r))
theorem hV11 (c : Dev nD) : Gen.V11 m (outs m) c = W11 m c :=
  congrArg (StableHlo.after hostOps5) (hV10 m c)

/-! ### Region 5 -/

theorem W12_at0 (c : Dev nD) : W12 m c main_v103_0 = O12_0 m c := by
  unfold W12; rw [Function.update_of_ne (StableHlo.devRef_ne_of_ne (by decide) : (Proc.devRef .tc main_v103_0 : DevRef τ sig) ≠ Proc.devRef .tc main_v103_2), Function.update_of_ne (StableHlo.devRef_ne_of_ne (by decide) : (Proc.devRef .tc main_v103_0 : DevRef τ sig) ≠ Proc.devRef .tc main_v103_1), Function.update_self]
theorem W12_at1 (c : Dev nD) : W12 m c main_v103_1 = O12_1 m c := by
  unfold W12; rw [Function.update_of_ne (StableHlo.devRef_ne_of_ne (by decide) : (Proc.devRef .tc main_v103_1 : DevRef τ sig) ≠ Proc.devRef .tc main_v103_2), Function.update_self]
theorem W12_at2 (c : Dev nD) : W12 m c main_v103_2 = O12_2 m c := by
  unfold W12; rw [Function.update_self]
theorem hV12 (c : Dev nD) : Gen.V12 m (outs m) c = W12 m c := by
  have h0 : outs m 12 main_v103_0 c = O12_0 m c := W12_at0 m c
  have h1 : outs m 12 main_v103_1 c = O12_1 m c := W12_at1 m c
  have h2 : outs m 12 main_v103_2 c = O12_2 m c := W12_at2 m c
  show Function.update (Function.update (Function.update (Gen.V11 m (outs m) c) main_v103_0 (outs m 12 main_v103_0 c)) main_v103_1 (outs m 12 main_v103_1 c)) main_v103_2 (outs m 12 main_v103_2 c) = _
  rw [h0, h1, h2, hV11]; rfl
/-- Off region 5's output arrays nothing changes. -/
theorem W12_of (c : Dev nD) (r : Ref sig .tc) (h : r ∉ ([main_v103_0, main_v103_1, main_v103_2] : List (Ref sig .tc))) : W12 m c r = W11 m c r :=
  (congrFun (hV12 m c) r).symm.trans ((Gen.V12_of m (outs m) c r h).trans (congrFun (hV11 m c) r))
theorem hV13 (c : Dev nD) : Gen.V13 m (outs m) c = W13 m c :=
  congrArg (StableHlo.after hostOps6) (hV12 m c)

/-! ### Region 6 -/

theorem W14_at (c : Dev nD) : W14 m c main_v118 = O14 m c := by
  unfold W14; rw [Function.update_self]
theorem hV14 (c : Dev nD) : Gen.V14 m (outs m) c = W14 m c := by
  have h0 : outs m 14 main_v118 c = O14 m c := W14_at m c
  show Function.update (Gen.V13 m (outs m) c) main_v118 (outs m 14 main_v118 c) = _
  rw [h0, hV13]; rfl
/-- Off region 6's output array nothing changes. -/
theorem W14_of (c : Dev nD) (r : Ref sig .tc) (h : r ∉ ([main_v118] : List (Ref sig .tc))) : W14 m c r = W13 m c r :=
  (congrFun (hV14 m c) r).symm.trans ((Gen.V14_of m (outs m) c r h).trans (congrFun (hV13 m c) r))
theorem hV15 (c : Dev nD) : Gen.V15 m (outs m) c = W15 m c :=
  congrArg (StableHlo.after hostOps7) (hV14 m c)

/-! ### Region 7 -/

theorem W16_at0 (c : Dev nD) : W16 m c main_v128_0 = O16_0 m c := by
  unfold W16; rw [Function.update_of_ne (StableHlo.devRef_ne_of_ne (by decide) : (Proc.devRef .tc main_v128_0 : DevRef τ sig) ≠ Proc.devRef .tc main_v128_2), Function.update_of_ne (StableHlo.devRef_ne_of_ne (by decide) : (Proc.devRef .tc main_v128_0 : DevRef τ sig) ≠ Proc.devRef .tc main_v128_1), Function.update_self]
theorem W16_at1 (c : Dev nD) : W16 m c main_v128_1 = O16_1 m c := by
  unfold W16; rw [Function.update_of_ne (StableHlo.devRef_ne_of_ne (by decide) : (Proc.devRef .tc main_v128_1 : DevRef τ sig) ≠ Proc.devRef .tc main_v128_2), Function.update_self]
theorem W16_at2 (c : Dev nD) : W16 m c main_v128_2 = O16_2 m c := by
  unfold W16; rw [Function.update_self]
theorem hV16 (c : Dev nD) : Gen.V16 m (outs m) c = W16 m c := by
  have h0 : outs m 16 main_v128_0 c = O16_0 m c := W16_at0 m c
  have h1 : outs m 16 main_v128_1 c = O16_1 m c := W16_at1 m c
  have h2 : outs m 16 main_v128_2 c = O16_2 m c := W16_at2 m c
  show Function.update (Function.update (Function.update (Gen.V15 m (outs m) c) main_v128_0 (outs m 16 main_v128_0 c)) main_v128_1 (outs m 16 main_v128_1 c)) main_v128_2 (outs m 16 main_v128_2 c) = _
  rw [h0, h1, h2, hV15]; rfl
/-- Off region 7's output arrays nothing changes. -/
theorem W16_of (c : Dev nD) (r : Ref sig .tc) (h : r ∉ ([main_v128_0, main_v128_1, main_v128_2] : List (Ref sig .tc))) : W16 m c r = W15 m c r :=
  (congrFun (hV16 m c) r).symm.trans ((Gen.V16_of m (outs m) c r h).trans (congrFun (hV15 m c) r))
theorem hV17 (c : Dev nD) : Gen.V17 m (outs m) c = W17 m c :=
  congrArg (StableHlo.after hostOps8) (hV16 m c)

/-! ### Region 8 -/

theorem W18_at0 (c : Dev nD) : W18 m c main_v159_0 = O18_0 m c := by
  unfold W18; rw [Function.update_of_ne (StableHlo.devRef_ne_of_ne (by decide) : (Proc.devRef .tc main_v159_0 : DevRef τ sig) ≠ Proc.devRef .tc main_v159_2), Function.update_of_ne (StableHlo.devRef_ne_of_ne (by decide) : (Proc.devRef .tc main_v159_0 : DevRef τ sig) ≠ Proc.devRef .tc main_v159_1), Function.update_self]
theorem W18_at1 (c : Dev nD) : W18 m c main_v159_1 = O18_1 m c := by
  unfold W18; rw [Function.update_of_ne (StableHlo.devRef_ne_of_ne (by decide) : (Proc.devRef .tc main_v159_1 : DevRef τ sig) ≠ Proc.devRef .tc main_v159_2), Function.update_self]
theorem W18_at2 (c : Dev nD) : W18 m c main_v159_2 = O18_2 m c := by
  unfold W18; rw [Function.update_self]
theorem hV18 (c : Dev nD) : Gen.V18 m (outs m) c = W18 m c := by
  have h0 : outs m 18 main_v159_0 c = O18_0 m c := W18_at0 m c
  have h1 : outs m 18 main_v159_1 c = O18_1 m c := W18_at1 m c
  have h2 : outs m 18 main_v159_2 c = O18_2 m c := W18_at2 m c
  show Function.update (Function.update (Function.update (Gen.V17 m (outs m) c) main_v159_0 (outs m 18 main_v159_0 c)) main_v159_1 (outs m 18 main_v159_1 c)) main_v159_2 (outs m 18 main_v159_2 c) = _
  rw [h0, h1, h2, hV17]; rfl
/-- Off region 8's output arrays nothing changes. -/
theorem W18_of (c : Dev nD) (r : Ref sig .tc) (h : r ∉ ([main_v159_0, main_v159_1, main_v159_2] : List (Ref sig .tc))) : W18 m c r = W17 m c r :=
  (congrFun (hV18 m c) r).symm.trans ((Gen.V18_of m (outs m) c r h).trans (congrFun (hV17 m c) r))
theorem hV19 (c : Dev nD) : Gen.V19 m (outs m) c = W19 m c :=
  congrArg (StableHlo.after hostOps9) (hV18 m c)

/-! ### Region 9 -/

theorem W20_at (c : Dev nD) : W20 m c main_v176 = O20 m c := by
  unfold W20; rw [Function.update_self]
theorem hV20 (c : Dev nD) : Gen.V20 m (outs m) c = W20 m c := by
  have h0 : outs m 20 main_v176 c = O20 m c := W20_at m c
  show Function.update (Gen.V19 m (outs m) c) main_v176 (outs m 20 main_v176 c) = _
  rw [h0, hV19]; rfl
/-- Off region 9's output array nothing changes. -/
theorem W20_of (c : Dev nD) (r : Ref sig .tc) (h : r ∉ ([main_v176] : List (Ref sig .tc))) : W20 m c r = W19 m c r :=
  (congrFun (hV20 m c) r).symm.trans ((Gen.V20_of m (outs m) c r h).trans (congrFun (hV19 m c) r))

/-! ## At a region's exit each of its arrays holds what the pipeline leaves, every other buffer what it held at entry -/

theorem hF0_0 (c : Dev nD) : (dat0 (fun c b => W1 m c b) c).arrAt 0 cfg0.N = W2 m c main_arg0 :=
  (((dat0 (fun c b => W1 m c b) c).arrAt_in 0 rfl _).trans (A_eq0 (fun c b => W1 m c b) c 0)).trans (W2_of m c main_arg0 (by decide)).symm
theorem hF0_1 (c : Dev nD) : (dat0 (fun c b => W1 m c b) c).arrAt 1 cfg0.N = W2 m c main_v4 :=
  (((dat0 (fun c b => W1 m c b) c).arrAt_in 1 rfl _).trans (A_eq0 (fun c b => W1 m c b) c 1)).trans (W2_of m c main_v4 (by decide)).symm
theorem hF0_2 (c : Dev nD) : (dat0 (fun c b => W1 m c b) c).arrAt 2 cfg0.N = W2 m c main_v5 :=
  (((dat0 (fun c b => W1 m c b) c).arrAt_in 2 rfl _).trans (A_eq0 (fun c b => W1 m c b) c 2)).trans (W2_of m c main_v5 (by decide)).symm
theorem hF0 (c : Dev nD) : ∀ w : Fin 4, (dat0 (fun c b => W1 m c b) c).arrAt w cfg0.N = W2 m c (Pipeline.arrRef spec0 w) := fun
  | 0 => hF0_0 m c
  | 1 => hF0_1 m c
  | 2 => hF0_2 m c
  | 3 => (W2_at m c).symm
  | ⟨_ + 4, h⟩ => absurd h (Nat.not_lt.2 (Nat.le_add_left _ _))
theorem hrest0 (c : Dev nD) : ∀ b, b ∉ Finset.univ.image (Pipeline.arrRef spec0) → W2 m c b = W1 m c b :=
  fun b hb => W2_of m c b fun h => hb (by
    simp only [List.mem_cons, List.not_mem_nil, or_false] at h
    rcases h with rfl
    · exact Finset.mem_image.mpr ⟨3, Finset.mem_univ _, rfl⟩)

theorem hF1_0 (c : Dev nD) : (dat1 (fun c b => W3 m c b) c).arrAt 0 cfg1.N = W4 m c main_v6 :=
  (((dat1 (fun c b => W3 m c b) c).arrAt_in 0 rfl _).trans (A_eq1 (fun c b => W3 m c b) c 0)).trans (W4_of m c main_v6 (by decide)).symm
theorem hF1_1 (c : Dev nD) : (dat1 (fun c b => W3 m c b) c).arrAt 1 cfg1.N = W4 m c main_v13 :=
  (((dat1 (fun c b => W3 m c b) c).arrAt_in 1 rfl _).trans (A_eq1 (fun c b => W3 m c b) c 1)).trans (W4_of m c main_v13 (by decide)).symm
theorem hF1_2 (c : Dev nD) : (dat1 (fun c b => W3 m c b) c).arrAt 2 cfg1.N = W4 m c main_v15 :=
  (((dat1 (fun c b => W3 m c b) c).arrAt_in 2 rfl _).trans (A_eq1 (fun c b => W3 m c b) c 2)).trans (W4_of m c main_v15 (by decide)).symm
theorem hF1 (c : Dev nD) : ∀ w : Fin 6, (dat1 (fun c b => W3 m c b) c).arrAt w cfg1.N = W4 m c (Pipeline.arrRef spec1 w) := fun
  | 0 => hF1_0 m c
  | 1 => hF1_1 m c
  | 2 => hF1_2 m c
  | 3 => (W4_at0 m c).symm
  | 4 => (W4_at1 m c).symm
  | 5 => (W4_at2 m c).symm
  | ⟨_ + 6, h⟩ => absurd h (Nat.not_lt.2 (Nat.le_add_left _ _))
theorem hrest1 (c : Dev nD) : ∀ b, b ∉ Finset.univ.image (Pipeline.arrRef spec1) → W4 m c b = W3 m c b :=
  fun b hb => W4_of m c b fun h => hb (by
    simp only [List.mem_cons, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem hF2_0 (c : Dev nD) : (dat2 (fun c b => W5 m c b) c).arrAt 0 cfg2.N = W6 m c main_v16_2 :=
  (((dat2 (fun c b => W5 m c b) c).arrAt_in 0 rfl _).trans (A_eq2 (fun c b => W5 m c b) c 0)).trans (W6_of m c main_v16_2 (by decide)).symm
theorem hF2_1 (c : Dev nD) : (dat2 (fun c b => W5 m c b) c).arrAt 1 cfg2.N = W6 m c main_v46 :=
  (((dat2 (fun c b => W5 m c b) c).arrAt_in 1 rfl _).trans (A_eq2 (fun c b => W5 m c b) c 1)).trans (W6_of m c main_v46 (by decide)).symm
theorem hF2 (c : Dev nD) : ∀ w : Fin 5, (dat2 (fun c b => W5 m c b) c).arrAt w cfg2.N = W6 m c (Pipeline.arrRef spec2 w) := fun
  | 0 => hF2_0 m c
  | 1 => hF2_1 m c
  | 2 => (W6_at0 m c).symm
  | 3 => (W6_at1 m c).symm
  | 4 => (W6_at2 m c).symm
  | ⟨_ + 5, h⟩ => absurd h (Nat.not_lt.2 (Nat.le_add_left _ _))
theorem hrest2 (c : Dev nD) : ∀ b, b ∉ Finset.univ.image (Pipeline.arrRef spec2) → W6 m c b = W5 m c b :=
  fun b hb => W6_of m c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

theorem hF3_0 (c : Dev nD) : (dat3 (fun c b => W7 m c b) c).arrAt 0 cfg3.N = W8 m c main_v47_0 :=
  (((dat3 (fun c b => W7 m c b) c).arrAt_in 0 rfl _).trans (A_eq3 (fun c b => W7 m c b) c 0)).trans (W8_of m c main_v47_0 (by decide)).symm
theorem hF3_1 (c : Dev nD) : (dat3 (fun c b => W7 m c b) c).arrAt 1 cfg3.N = W8 m c main_v49 :=
  (((dat3 (fun c b => W7 m c b) c).arrAt_in 1 rfl _).trans (A_eq3 (fun c b => W7 m c b) c 1)).trans (W8_of m c main_v49 (by decide)).symm
theorem hF3_2 (c : Dev nD) : (dat3 (fun c b => W7 m c b) c).arrAt 2 cfg3.N = W8 m c main_v55 :=
  (((dat3 (fun c b => W7 m c b) c).arrAt_in 2 rfl _).trans (A_eq3 (fun c b => W7 m c b) c 2)).trans (W8_of m c main_v55 (by decide)).symm
theorem hF3_3 (c : Dev nD) : (dat3 (fun c b => W7 m c b) c).arrAt 3 cfg3.N = W8 m c main_v60 :=
  (((dat3 (fun c b => W7 m c b) c).arrAt_in 3 rfl _).trans (A_eq3 (fun c b => W7 m c b) c 3)).trans (W8_of m c main_v60 (by decide)).symm
theorem hF3_4 (c : Dev nD) : (dat3 (fun c b => W7 m c b) c).arrAt 4 cfg3.N = W8 m c main_v61 :=
  (((dat3 (fun c b => W7 m c b) c).arrAt_in 4 rfl _).trans (A_eq3 (fun c b => W7 m c b) c 4)).trans (W8_of m c main_v61 (by decide)).symm
theorem hF3 (c : Dev nD) : ∀ w : Fin 6, (dat3 (fun c b => W7 m c b) c).arrAt w cfg3.N = W8 m c (Pipeline.arrRef spec3 w) := fun
  | 0 => hF3_0 m c
  | 1 => hF3_1 m c
  | 2 => hF3_2 m c
  | 3 => hF3_3 m c
  | 4 => hF3_4 m c
  | 5 => (W8_at m c).symm
  | ⟨_ + 6, h⟩ => absurd h (Nat.not_lt.2 (Nat.le_add_left _ _))
theorem hrest3 (c : Dev nD) : ∀ b, b ∉ Finset.univ.image (Pipeline.arrRef spec3) → W8 m c b = W7 m c b :=
  fun b hb => W8_of m c b fun h => hb (by
    simp only [List.mem_cons, List.not_mem_nil, or_false] at h
    rcases h with rfl
    · exact Finset.mem_image.mpr ⟨5, Finset.mem_univ _, rfl⟩)

theorem hF4_0 (c : Dev nD) : (dat4 (fun c b => W9 m c b) c).arrAt 0 cfg4.N = W10 m c main_v62 :=
  (((dat4 (fun c b => W9 m c b) c).arrAt_in 0 rfl _).trans (A_eq4 (fun c b => W9 m c b) c 0)).trans (W10_of m c main_v62 (by decide)).symm
theorem hF4_1 (c : Dev nD) : (dat4 (fun c b => W9 m c b) c).arrAt 1 cfg4.N = W10 m c main_v69 :=
  (((dat4 (fun c b => W9 m c b) c).arrAt_in 1 rfl _).trans (A_eq4 (fun c b => W9 m c b) c 1)).trans (W10_of m c main_v69 (by decide)).symm
theorem hF4_2 (c : Dev nD) : (dat4 (fun c b => W9 m c b) c).arrAt 2 cfg4.N = W10 m c main_v71 :=
  (((dat4 (fun c b => W9 m c b) c).arrAt_in 2 rfl _).trans (A_eq4 (fun c b => W9 m c b) c 2)).trans (W10_of m c main_v71 (by decide)).symm
theorem hF4 (c : Dev nD) : ∀ w : Fin 6, (dat4 (fun c b => W9 m c b) c).arrAt w cfg4.N = W10 m c (Pipeline.arrRef spec4 w) := fun
  | 0 => hF4_0 m c
  | 1 => hF4_1 m c
  | 2 => hF4_2 m c
  | 3 => (W10_at0 m c).symm
  | 4 => (W10_at1 m c).symm
  | 5 => (W10_at2 m c).symm
  | ⟨_ + 6, h⟩ => absurd h (Nat.not_lt.2 (Nat.le_add_left _ _))
theorem hrest4 (c : Dev nD) : ∀ b, b ∉ Finset.univ.image (Pipeline.arrRef spec4) → W10 m c b = W9 m c b :=
  fun b hb => W10_of m c b fun h => hb (by
    simp only [List.mem_cons, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem hF5_0 (c : Dev nD) : (dat5 (fun c b => W11 m c b) c).arrAt 0 cfg5.N = W12 m c main_v72_2 :=
  (((dat5 (fun c b => W11 m c b) c).arrAt_in 0 rfl _).trans (A_eq5 (fun c b => W11 m c b) c 0)).trans (W12_of m c main_v72_2 (by decide)).symm
theorem hF5_1 (c : Dev nD) : (dat5 (fun c b => W11 m c b) c).arrAt 1 cfg5.N = W12 m c main_v102 :=
  (((dat5 (fun c b => W11 m c b) c).arrAt_in 1 rfl _).trans (A_eq5 (fun c b => W11 m c b) c 1)).trans (W12_of m c main_v102 (by decide)).symm
theorem hF5 (c : Dev nD) : ∀ w : Fin 5, (dat5 (fun c b => W11 m c b) c).arrAt w cfg5.N = W12 m c (Pipeline.arrRef spec5 w) := fun
  | 0 => hF5_0 m c
  | 1 => hF5_1 m c
  | 2 => (W12_at0 m c).symm
  | 3 => (W12_at1 m c).symm
  | 4 => (W12_at2 m c).symm
  | ⟨_ + 5, h⟩ => absurd h (Nat.not_lt.2 (Nat.le_add_left _ _))
theorem hrest5 (c : Dev nD) : ∀ b, b ∉ Finset.univ.image (Pipeline.arrRef spec5) → W12 m c b = W11 m c b :=
  fun b hb => W12_of m c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

theorem hF6_0 (c : Dev nD) : (dat6 (fun c b => W13 m c b) c).arrAt 0 cfg6.N = W14 m c main_v103_0 :=
  (((dat6 (fun c b => W13 m c b) c).arrAt_in 0 rfl _).trans (A_eq6 (fun c b => W13 m c b) c 0)).trans (W14_of m c main_v103_0 (by decide)).symm
theorem hF6_1 (c : Dev nD) : (dat6 (fun c b => W13 m c b) c).arrAt 1 cfg6.N = W14 m c main_v105 :=
  (((dat6 (fun c b => W13 m c b) c).arrAt_in 1 rfl _).trans (A_eq6 (fun c b => W13 m c b) c 1)).trans (W14_of m c main_v105 (by decide)).symm
theorem hF6_2 (c : Dev nD) : (dat6 (fun c b => W13 m c b) c).arrAt 2 cfg6.N = W14 m c main_v111 :=
  (((dat6 (fun c b => W13 m c b) c).arrAt_in 2 rfl _).trans (A_eq6 (fun c b => W13 m c b) c 2)).trans (W14_of m c main_v111 (by decide)).symm
theorem hF6_3 (c : Dev nD) : (dat6 (fun c b => W13 m c b) c).arrAt 3 cfg6.N = W14 m c main_v116 :=
  (((dat6 (fun c b => W13 m c b) c).arrAt_in 3 rfl _).trans (A_eq6 (fun c b => W13 m c b) c 3)).trans (W14_of m c main_v116 (by decide)).symm
theorem hF6_4 (c : Dev nD) : (dat6 (fun c b => W13 m c b) c).arrAt 4 cfg6.N = W14 m c main_v117 :=
  (((dat6 (fun c b => W13 m c b) c).arrAt_in 4 rfl _).trans (A_eq6 (fun c b => W13 m c b) c 4)).trans (W14_of m c main_v117 (by decide)).symm
theorem hF6 (c : Dev nD) : ∀ w : Fin 6, (dat6 (fun c b => W13 m c b) c).arrAt w cfg6.N = W14 m c (Pipeline.arrRef spec6 w) := fun
  | 0 => hF6_0 m c
  | 1 => hF6_1 m c
  | 2 => hF6_2 m c
  | 3 => hF6_3 m c
  | 4 => hF6_4 m c
  | 5 => (W14_at m c).symm
  | ⟨_ + 6, h⟩ => absurd h (Nat.not_lt.2 (Nat.le_add_left _ _))
theorem hrest6 (c : Dev nD) : ∀ b, b ∉ Finset.univ.image (Pipeline.arrRef spec6) → W14 m c b = W13 m c b :=
  fun b hb => W14_of m c b fun h => hb (by
    simp only [List.mem_cons, List.not_mem_nil, or_false] at h
    rcases h with rfl
    · exact Finset.mem_image.mpr ⟨5, Finset.mem_univ _, rfl⟩)

theorem hF7_0 (c : Dev nD) : (dat7 (fun c b => W15 m c b) c).arrAt 0 cfg7.N = W16 m c main_v118 :=
  (((dat7 (fun c b => W15 m c b) c).arrAt_in 0 rfl _).trans (A_eq7 (fun c b => W15 m c b) c 0)).trans (W16_of m c main_v118 (by decide)).symm
theorem hF7_1 (c : Dev nD) : (dat7 (fun c b => W15 m c b) c).arrAt 1 cfg7.N = W16 m c main_v125 :=
  (((dat7 (fun c b => W15 m c b) c).arrAt_in 1 rfl _).trans (A_eq7 (fun c b => W15 m c b) c 1)).trans (W16_of m c main_v125 (by decide)).symm
theorem hF7_2 (c : Dev nD) : (dat7 (fun c b => W15 m c b) c).arrAt 2 cfg7.N = W16 m c main_v127 :=
  (((dat7 (fun c b => W15 m c b) c).arrAt_in 2 rfl _).trans (A_eq7 (fun c b => W15 m c b) c 2)).trans (W16_of m c main_v127 (by decide)).symm
theorem hF7 (c : Dev nD) : ∀ w : Fin 6, (dat7 (fun c b => W15 m c b) c).arrAt w cfg7.N = W16 m c (Pipeline.arrRef spec7 w) := fun
  | 0 => hF7_0 m c
  | 1 => hF7_1 m c
  | 2 => hF7_2 m c
  | 3 => (W16_at0 m c).symm
  | 4 => (W16_at1 m c).symm
  | 5 => (W16_at2 m c).symm
  | ⟨_ + 6, h⟩ => absurd h (Nat.not_lt.2 (Nat.le_add_left _ _))
theorem hrest7 (c : Dev nD) : ∀ b, b ∉ Finset.univ.image (Pipeline.arrRef spec7) → W16 m c b = W15 m c b :=
  fun b hb => W16_of m c b fun h => hb (by
    simp only [List.mem_cons, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

theorem hF8_0 (c : Dev nD) : (dat8 (fun c b => W17 m c b) c).arrAt 0 cfg8.N = W18 m c main_v128_2 :=
  (((dat8 (fun c b => W17 m c b) c).arrAt_in 0 rfl _).trans (A_eq8 (fun c b => W17 m c b) c 0)).trans (W18_of m c main_v128_2 (by decide)).symm
theorem hF8_1 (c : Dev nD) : (dat8 (fun c b => W17 m c b) c).arrAt 1 cfg8.N = W18 m c main_v158 :=
  (((dat8 (fun c b => W17 m c b) c).arrAt_in 1 rfl _).trans (A_eq8 (fun c b => W17 m c b) c 1)).trans (W18_of m c main_v158 (by decide)).symm
theorem hF8 (c : Dev nD) : ∀ w : Fin 5, (dat8 (fun c b => W17 m c b) c).arrAt w cfg8.N = W18 m c (Pipeline.arrRef spec8 w) := fun
  | 0 => hF8_0 m c
  | 1 => hF8_1 m c
  | 2 => (W18_at0 m c).symm
  | 3 => (W18_at1 m c).symm
  | 4 => (W18_at2 m c).symm
  | ⟨_ + 5, h⟩ => absurd h (Nat.not_lt.2 (Nat.le_add_left _ _))
theorem hrest8 (c : Dev nD) : ∀ b, b ∉ Finset.univ.image (Pipeline.arrRef spec8) → W18 m c b = W17 m c b :=
  fun b hb => W18_of m c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

theorem hF9_0 (c : Dev nD) : (dat9 (fun c b => W19 m c b) c).arrAt 0 cfg9.N = W20 m c main_v159_0 :=
  (((dat9 (fun c b => W19 m c b) c).arrAt_in 0 rfl _).trans (A_eq9 (fun c b => W19 m c b) c 0)).trans (W20_of m c main_v159_0 (by decide)).symm
theorem hF9_1 (c : Dev nD) : (dat9 (fun c b => W19 m c b) c).arrAt 1 cfg9.N = W20 m c main_v161 :=
  (((dat9 (fun c b => W19 m c b) c).arrAt_in 1 rfl _).trans (A_eq9 (fun c b => W19 m c b) c 1)).trans (W20_of m c main_v161 (by decide)).symm
theorem hF9_2 (c : Dev nD) : (dat9 (fun c b => W19 m c b) c).arrAt 2 cfg9.N = W20 m c main_v167 :=
  (((dat9 (fun c b => W19 m c b) c).arrAt_in 2 rfl _).trans (A_eq9 (fun c b => W19 m c b) c 2)).trans (W20_of m c main_v167 (by decide)).symm
theorem hF9_3 (c : Dev nD) : (dat9 (fun c b => W19 m c b) c).arrAt 3 cfg9.N = W20 m c main_v173 :=
  (((dat9 (fun c b => W19 m c b) c).arrAt_in 3 rfl _).trans (A_eq9 (fun c b => W19 m c b) c 3)).trans (W20_of m c main_v173 (by decide)).symm
theorem hF9_4 (c : Dev nD) : (dat9 (fun c b => W19 m c b) c).arrAt 4 cfg9.N = W20 m c main_v174 :=
  (((dat9 (fun c b => W19 m c b) c).arrAt_in 4 rfl _).trans (A_eq9 (fun c b => W19 m c b) c 4)).trans (W20_of m c main_v174 (by decide)).symm
theorem hF9_5 (c : Dev nD) : (dat9 (fun c b => W19 m c b) c).arrAt 5 cfg9.N = W20 m c main_v168 :=
  (((dat9 (fun c b => W19 m c b) c).arrAt_in 5 rfl _).trans (A_eq9 (fun c b => W19 m c b) c 5)).trans (W20_of m c main_v168 (by decide)).symm
theorem hF9_6 (c : Dev nD) : (dat9 (fun c b => W19 m c b) c).arrAt 6 cfg9.N = W20 m c main_v175 :=
  (((dat9 (fun c b => W19 m c b) c).arrAt_in 6 rfl _).trans (A_eq9 (fun c b => W19 m c b) c 6)).trans (W20_of m c main_v175 (by decide)).symm
theorem hF9 (c : Dev nD) : ∀ w : Fin 8, (dat9 (fun c b => W19 m c b) c).arrAt w cfg9.N = W20 m c (Pipeline.arrRef spec9 w) := fun
  | 0 => hF9_0 m c
  | 1 => hF9_1 m c
  | 2 => hF9_2 m c
  | 3 => hF9_3 m c
  | 4 => hF9_4 m c
  | 5 => hF9_5 m c
  | 6 => hF9_6 m c
  | 7 => (W20_at m c).symm
  | ⟨_ + 8, h⟩ => absurd h (Nat.not_lt.2 (Nat.le_add_left _ _))
theorem hrest9 (c : Dev nD) : ∀ b, b ∉ Finset.univ.image (Pipeline.arrRef spec9) → W20 m c b = W19 m c b :=
  fun b hb => W20_of m c b fun h => hb (by
    simp only [List.mem_cons, List.not_mem_nil, or_false] at h
    rcases h with rfl
    · exact Finset.mem_image.mpr ⟨7, Finset.mem_univ _, rfl⟩)

/-! ## The proof data family -/

/-- Every pipeline's proof data, each at its region's entry contents. -/
def pdats : (p : Fin 10) → (c : Dev nD) → Dat τ (Elt F) Unit ℕ (Pipeline.UD sig nD τ) ℕ (Pipeline.pin (pcfgs (F := F)) adm p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c
  | ⟨8, _⟩ => fun c => dat8 (fun c b => W17 m c b) c
  | ⟨9, _⟩ => fun c => dat9 (fun c b => W19 m c b) c

/-! ## What rides beside the buffers through every segment -/

/-- No core owes another anything: no level is assigned. -/
abbrev L : GSem nD τ sig → Finset Unit := fun _ => ∅
abbrev lv : GSem nD τ sig → Unit → ℕ := fun _ _ => 0
/-- The core's generator register at some state, and its dues, at nothing. -/
abbrev R (c : Dev nD) : sProp 𝕄 := iprop((∃ r, prngReg c r) ∗ ∃ W, owes (c : Thread nD τ) (0 : CellTallies nD τ sig Unit) W)

end Cert.KernelIdeal.Hand

end
-- ==== Proof.KI.Reg0Body.lean ====
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import proofs.«180311_j29308856828500_2_alg».proof.Proof.KI.Reg0Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 0: the body's triple and the obligation of its proof data -/

/-- Input window 0's current buffer holds its block at every point, whether or not it was fetched there (an unfetched
    input has not moved its index, so the previous point's block is this point's): for any proof data whose array is
    the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not it was fetched there (an unfetched
    input has not moved its index, so the previous point's block is this point's): for any proof data whose array is
    the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not it was fetched there (an unfetched
    input has not moved its index, so the previous point's block is this point's): for any proof data whose array is
    the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The single store of the body is the whole output buffer, so it covers it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in
/-- The body on whole staging memrefs, the inputs' reading `x_i` and the output's anything, runs to the continuation
    with the inputs as they were and the output reading `out0_3` of the inputs: every load reads a whole input,
    the one store writes the payload of those loads over the whole output. -/
theorem sound_kernel0 (c : Dev nD) (E : Set ℕ) (i : grid0.Coords) (arg1 : Memref sig .tc .vmem S2000x64 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x64 .f32) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what the core owes, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation of the proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Seg0.lean ====
/- Region 0 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 0 over the thread state "every unscoped buffer at the boundary's contents, the generator register at
    some state, nothing owed". -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => W1 m c b) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => W1 m c b)
  hentry c := by
    rw [Pipeline.ownSems0_none, hV1 m c]
    have hsplit := Pipeline.arrays_of_unscopedBufs (p := 0) (pcfgs (F := F)) adm (pdats m) launch0.win launch0.arr_whole c
      ((pdats m 0 c).share_full fun _ => rfl) (fun b => W1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [hV2 m c]
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (fun b => W1 m c b) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1Body.lean ====
/-
  Region 1: the body's triple and the pipeline's body obligation. The body loads its three input buffers whole,
  forms h · wcat + bcat once, and stores its three column ranges, each by one store over a whole output buffer; so
  each output buffer ends at the canonical contents of that one piece, whatever it held before.
-/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import proofs.«180311_j29308856828500_2_alg».proof.Proof.KI.Reg1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in its input buffers -/

/-- Input window 0's current buffer holds its block at every point, fetched there or not, for any proof data whose
    array is the region-entry one and whose body leaves the block in place: where the pipeline does not fetch, the block
    index has not moved since the point before (the weights and the bias are fetched once, the activations at every point). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not, for any proof data whose
    array is the region-entry one and whose body leaves the block in place: where the pipeline does not fetch, the block
    index has not moved since the point before (the weights and the bias are fetched once, the activations at every point). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not, for any proof data whose
    array is the region-entry one and whose body leaves the block in place: where the pipeline does not fetch, the block
    index has not moved since the point before (the weights and the bias are fetched once, the activations at every point). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover the output buffers -/

/-- The one store into window 3's buffer takes the whole of it, so every index is covered. -/
theorem cover1_3 (p0 : Vec F S2000x128 .bf16) (y : S2000x128.Idx) :
    ∃ pc ∈ ([⟨r1_0, p0⟩] : List (View.Piece (Elt F) S2000x128 .bf16)), y ∈ pc.1.set :=
  View.cover_of_tiled [⟨r1_0, p0⟩] S2000x128.size (by rfl) y
/-- The one store into window 4's buffer takes the whole of it, so every index is covered. -/
theorem cover1_4 (p0 : Vec F S2000x256 .bf16) (y : S2000x256.Idx) :
    ∃ pc ∈ ([⟨r1_3, p0⟩] : List (View.Piece (Elt F) S2000x256 .bf16)), y ∈ pc.1.set :=
  View.cover_of_tiled [⟨r1_3, p0⟩] S2000x256.size (by rfl) y
/-- The one store into window 5's buffer takes the whole of it, so every index is covered. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- On whole buffers, the inputs' reading `x0 x1 x2` and the outputs' holding anything, the body runs to the
    continuation with the inputs' as they were and each output's at its function of `x0 x1 x2`. -/
theorem sound_kernel1 (c : Dev nD) (E : Set ℕ) (i : grid1.Coords) (arg1 : Memref sig .tc .vmem S2000x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S2000x128 .bf16) (harg4 : arg4.IsWhole) (arg5 : Memref sig .tc .vmem S2000x256 .bf16) (harg5 : arg5.IsWhole) (arg6 : Memref sig .tc .vmem S2000x128 .f32) (harg6 : arg6.IsWhole)
    (x0 : Vec F S2000x128 .f32) (x1 : Vec F S128x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)
            ∗ owns (c : Thread nD τ) arg6 fullShare (out1_5 x0 x1 x2)) -∗ K ⟨⟩))
      ⊢ wp frame (wpE (defs₀ (F := F)) Variants.none c none) E (cc1__kqvs_kernel i arg1 harg1 arg2 harg2 arg3 harg3 arg4 harg4 arg5 harg5 arg6 harg6) K := by
  simp only [cc1__kqvs_kernel_eq_skeleton]; unfold cc1__kqvs_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The inputs' buffers under the region's own proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Seg1.lean ====
/- Region 1 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 1 over the thread state "every unscoped buffer at the boundary's contents, the generator register at
    some state, nothing owed". -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => W3 m c b) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => W3 m c b)
  hentry c := by
    rw [Pipeline.ownSems0_none, hV3 m c]
    have hsplit := Pipeline.arrays_of_unscopedBufs (p := 1) (pcfgs (F := F)) adm (pdats m) launch1.win launch1.arr_whole c
      ((pdats m 1 c).share_full fun _ => rfl) (fun b => W3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [hV4 m c]
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (fun b => W3 m c b) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2Body.lean ====
/- Region 2: the body obligation of its pipeline, and the invariant at the region's entry and exit. -/
import proofs.«180311_j29308856828500_2_alg».proof.Proof.KI.Reg2Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point is the first, a middle or the last one, and that
    case's run applies; the invariant hands the body the two accumulators at what the point before left (at anything at the
    first point) and takes them back at this point's contents; the one-row outputs come back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val = 0
  · have h1 : ¬t.val = 24 := by omega
    rw [Dat.leavesExact_idle (dat2 V c) 3 t (idleAt2_3 t (hA1_2 t h0)) (noFlush2_3 t (hA1_2 t h0))]
    rw [Dat.leavesExact_idle (dat2 V c) 4 t (idleAt2_4 t (hA1_2 t h0)) (noFlush2_4 t (hA1_2 t h0))]
    rw [outsAt2_A V c t h0, scratchAt2_A V c t h0]
    unfold out2_A_2 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ _ _ (hA0_2 t h0) (hA1_2 t h0) (iblk2 V c 0 t) (iblk2 V c 1 t)).2.2.2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2_A_2 c _ _ _ _ _ _ _ _ _ _ _ _ _ _ _ _ _ _ _)
    isplitl [H3]; · iexists _; iexact H3
    iexists _; iexact H4
  · by_cases h1 : t.val = 24
    · rw [show (dat2 V c).leavesExact 3 t = owns (c : Thread nD τ) (ms2_3 t) fullShare ((dat2 V c).after 3 t) from by
          unfold Dat.leavesExact; rw [liveAt2_3 t (hC1_2 t h1)], after2_3]
      rw [show (dat2 V c).leavesExact 4 t = owns (c : Thread nD τ) (ms2_4 t) fullShare ((dat2 V c).after 4 t) from by
          unfold Dat.leavesExact; rw [liveAt2_4 t (hC1_2 t h1)], after2_4]
      rw [outsAt2_C V c t h0 h1, scratchAt2_C V c t h0 h1]
      unfold out2_C_2 out2_C_3 out2_C_4 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (hB0_2 t h0) (hC1_2 t h1) (iblk2 V c 0 t) (iblk2 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C_2 c _ _ _ _ _ _ _ _ _ _ _ _ _ _ _ _ _ _ _ _ _)
      isplitl [H3]
      · unfold owns; iexists _; isplitr
        swap; · iexact H3
        ipureintro; exact View.read_writes_of_cover _ _ _ _ _ (cover2_C_3 c _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _)
    · rw [Dat.leavesExact_idle (dat2 V c) 3 t (idleAt2_3 t (hB1_2 t h1)) (noFlush2_3 t (hB1_2 t h1))]
      rw [Dat.leavesExact_idle (dat2 V c) 4 t (idleAt2_4 t (hB1_2 t h1)) (noFlush2_4 t (hB1_2 t h1))]
      rw [outsAt2_B V c t h0 h1, scratchAt2_B V c t h0 h1]
      unfold out2_B_2 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (hB0_2 t h0) (hB1_2 t h1) (iblk2 V c 0 t) (iblk2 V c 1 t) _ _).2.2.2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B_2 c _ _ _ _ _ _ _ _ _ _ _ _ _ _ _ _ _ _ _ _ _)
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the region is entered with — the generator register and the scoped rest — is the invariant before the first point. -/
theorem Phi2_in (c : Dev nD) : iprop((∃ r, prngReg c r) ∗ Pipeline.scopedRest (Ix := Unit) (Name := ℕ) (U := Pipeline.UD sig nD τ) (Lvl := ℕ) (Val := Elt F) spec2 c) ⊢ ((dat2 V c).Φ 0 : sProp 𝕄) := by
  rw [show (dat2 V c).Φ 0 = PhiS2 V c 0 (Nat.zero_le _) from rfl, PhiS2_zero V c 0 _ rfl]
  unfold Pipeline.ΦA
  iintro ⟨Hp, Hr⟩
  isplitl [Hr]; · iexact Hr
  iexact Hp

/-- After the last point the invariant gives them back: the accumulators' named contents are forgotten. -/
theorem Phi2_out (c : Dev nD) : ((dat2 V c).Φ (Fin.last _) : sProp 𝕄) ⊢ iprop((∃ r, prngReg c r) ∗ Pipeline.scopedRest (Ix := Unit) (Name := ℕ) (U := Pipeline.UD sig nD τ) (Lvl := ℕ) (Val := Elt F) spec2 c) := by
  rw [show (dat2 V c).Φ (Fin.last _) = PhiS2 V c (Fin.last cfg2.N).val (Nat.le_of_lt_succ (Fin.last cfg2.N).isLt) from rfl,
    PhiS2_pos V c _ _ (by rw [Fin.val_last]; have : cfg2.N = 25 := N_2; omega)]
  have hA : (Pipeline.ΦA spec2 c : sProp 𝕄) ⊢ iprop((∃ r, prngReg c r) ∗ Pipeline.scopedRest (Ix := Unit) (Name := ℕ) (U := Pipeline.UD sig nD τ) (Lvl := ℕ) (Val := Elt F) spec2 c) := by
    unfold Pipeline.ΦA
    iintro ⟨Hr, Hp⟩
    isplitl [Hp]; · iexact Hp
    iexact Hr
  rw [PhiA2_eq] at hA
  iintro ⟨⟨⟨HS0, HS1⟩, HR⟩, Hg⟩
  iapply hA
  isplitl [HS0 HS1 HR]
  · isplitl [HS0 HS1]
    · isplitl [HS0]; · iexists _; iexact HS0
      iexists _; iexact HS1
    iexact HR
  iexact Hg

end Cert.KernelIdeal.Hand

end
-- ==== Proof.KI.Seg2.lean ====
/- Region 2 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 2 over the thread state "every unscoped buffer at the boundary's contents, the generator register at
    some state, nothing owed". -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => W5 m c b) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (fun b => W5 m c b)
  hentry c := by
    rw [Pipeline.ownSems0_none, hV5 m c]
    have hsplit := Pipeline.arrays_of_unscopedBufs (p := 2) (pcfgs (F := F)) adm (pdats m) launch2.win launch2.arr_whole c
      ((pdats m 2 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => W5 m c b) c).Φ 0 from rfl]
    refine BIBase.Entails.trans ?_ (Phi2_in (fun c b => W5 m c b) c)
    iintro ⟨Hp, -, Hr⟩
    isplitl [Hp]; · iexact Hp
    iexact Hr
  hout c := by
    rw [Pipeline.ownSems0_none, show (pdats m 2 c).Φ (Fin.last _) = (dat2 (fun c b => W5 m c b) c).Φ (Fin.last _) from rfl]
    refine (Phi2_out (fun c b => W5 m c b) c).trans ?_
    iintro ⟨Hp, Hr⟩
    isplitl [Hp]; · iexact Hp
    isplitr; · iempintro
    iexact Hr
  hexit c := by
    rw [hV6 m c]
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (fun b => W5 m c b) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3Body.lean ====
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import proofs.«180311_j29308856828500_2_alg».proof.Proof.KI.Reg3Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 3: the body's triple and the obligation of its proof data -/

/-- Input window 0's current buffer holds its block at every point, whether or not it was fetched there (an unfetched
    input has not moved its index, so the previous point's block is this point's): for any proof data whose array is
    the entry contents and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, whether or not it was fetched there (an unfetched
    input has not moved its index, so the previous point's block is this point's): for any proof data whose array is
    the entry contents and whose body leaves the block in place. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, whether or not it was fetched there (an unfetched
    input has not moved its index, so the previous point's block is this point's): for any proof data whose array is
    the entry contents and whose body leaves the block in place. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, whether or not it was fetched there (an unfetched
    input has not moved its index, so the previous point's block is this point's): for any proof data whose array is
    the entry contents and whose body leaves the block in place. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, whether or not it was fetched there (an unfetched
    input has not moved its index, so the previous point's block is this point's): for any proof data whose array is
    the entry contents and whose body leaves the block in place. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The single store of the body is the whole output buffer, so it covers it. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs, the inputs' reading `x_i` and the output's anything, runs to the continuation
    with the inputs as they were and the output reading `out3_5` of the inputs: every load reads a whole input,
    the one store writes the payload of those loads over the whole output. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`: the invariant, what the core owes, and every window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the kernel's triple applies; the invariant and
    what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation of the proof data, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Seg3.lean ====
/- Region 3 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg3Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 3 over the thread state "every unscoped buffer at the boundary's contents, the generator register at
    some state, nothing owed". -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => W7 m c b) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec3 c (fun b => W7 m c b)
  hentry c := by
    rw [Pipeline.ownSems0_none, hV7 m c]
    have hsplit := Pipeline.arrays_of_unscopedBufs (p := 3) (pcfgs (F := F)) adm (pdats m) launch3.win launch3.arr_whole c
      ((pdats m 3 c).share_full fun _ => rfl) (fun b => W7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [hV8 m c]
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (fun b => W7 m c b) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4Body.lean ====
/-
  Region 4: the body's triple and the pipeline's body obligation. The body loads its three input buffers whole,
  forms h · wcat + bcat once, and stores its three column ranges, each by one store over a whole output buffer; so
  each output buffer ends at the canonical contents of that one piece, whatever it held before.
-/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import proofs.«180311_j29308856828500_2_alg».proof.Proof.KI.Reg4Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in its input buffers -/

/-- Input window 0's current buffer holds its block at every point, fetched there or not, for any proof data whose
    array is the region-entry one and whose body leaves the block in place: where the pipeline does not fetch, the block
    index has not moved since the point before (the weights and the bias are fetched once, the activations at every point). -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current buffer holds its block at every point, fetched there or not, for any proof data whose
    array is the region-entry one and whose body leaves the block in place: where the pipeline does not fetch, the block
    index has not moved since the point before (the weights and the bias are fetched once, the activations at every point). -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current buffer holds its block at every point, fetched there or not, for any proof data whose
    array is the region-entry one and whose body leaves the block in place: where the pipeline does not fetch, the block
    index has not moved since the point before (the weights and the bias are fetched once, the activations at every point). -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The stores cover the output buffers -/

/-- The one store into window 3's buffer takes the whole of it, so every index is covered. -/
theorem cover4_3 (p0 : Vec F S2000x128 .bf16) (y : S2000x128.Idx) :
    ∃ pc ∈ ([⟨r4_0, p0⟩] : List (View.Piece (Elt F) S2000x128 .bf16)), y ∈ pc.1.set :=
  View.cover_of_tiled [⟨r4_0, p0⟩] S2000x128.size (by rfl) y
/-- The one store into window 4's buffer takes the whole of it, so every index is covered. -/
theorem cover4_4 (p0 : Vec F S2000x256 .bf16) (y : S2000x256.Idx) :
    ∃ pc ∈ ([⟨r4_3, p0⟩] : List (View.Piece (Elt F) S2000x256 .bf16)), y ∈ pc.1.set :=
  View.cover_of_tiled [⟨r4_3, p0⟩] S2000x256.size (by rfl) y
/-- The one store into window 5's buffer takes the whole of it, so every index is covered. -/
theorem cover4_5 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- On whole buffers, the inputs' reading `x0 x1 x2` and the outputs' holding anything, the body runs to the
    continuation with the inputs' as they were and each output's at its function of `x0 x1 x2`. -/
theorem sound_kernel4 (c : Dev nD) (E : Set ℕ) (i : grid4.Coords) (arg1 : Memref sig .tc .vmem S2000x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S2000x128 .bf16) (harg4 : arg4.IsWhole) (arg5 : Memref sig .tc .vmem S2000x256 .bf16) (harg5 : arg5.IsWhole) (arg6 : Memref sig .tc .vmem S2000x128 .f32) (harg6 : arg6.IsWhole)
    (x0 : Vec F S2000x128 .f32) (x1 : Vec F S128x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2) ∗ owns (c : Thread nD τ) arg5 fullShare (out4_4 x0 x1 x2)
            ∗ owns (c : Thread nD τ) arg6 fullShare (out4_5 x0 x1 x2)) -∗ K ⟨⟩))
      ⊢ wp frame (wpE (defs₀ (F := F)) Variants.none c none) E (cc4__kqvs_kernel i arg1 harg1 arg2 harg2 arg3 harg3 arg4 harg4 arg5 harg5 arg6 harg6) K := by
  simp only [cc4__kqvs_kernel_eq_skeleton]; unfold cc4__kqvs_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  isplitl [H4]
  · iexists _; isplitr
    swap; · iexact H4
    ipureintro
    exact View.read_writes_eq_canon _ _ _ (cover4_4 _)
  iexists _; isplitr
  swap; · iexact H5
  ipureintro
  exact View.read_writes_eq_canon _ _ _ (cover4_5 _)

/-! ## The inputs' buffers under the region's own proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Seg4.lean ====
/- Region 4 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg4Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 4 over the thread state "every unscoped buffer at the boundary's contents, the generator register at
    some state, nothing owed". -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => W9 m c b) c).loose
  hwaits := Pipeline.hwaits_of_owed_zero _ _ _ _ L lv 4 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec4 c (fun b => W9 m c b)
  hentry c := by
    rw [Pipeline.ownSems0_none, hV9 m c]
    have hsplit := Pipeline.arrays_of_unscopedBufs (p := 4) (pcfgs (F := F)) adm (pdats m) launch4.win launch4.arr_whole c
      ((pdats m 4 c).share_full fun _ => rfl) (fun b => W9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    rw [hV10 m c]
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (fun b => W9 m c b) (fun b => W10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5Body.lean ====
/- Region 5: the body obligation of its pipeline, and the invariant at the region's entry and exit. -/
import proofs.«180311_j29308856828500_2_alg».proof.Proof.KI.Reg5Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' buffers hold their blocks; the point is the first, a middle or the last one, and that
    case's run applies; the invariant hands the body the two accumulators at what the point before left (at anything at the
    first point) and takes them back at this point's contents; the one-row outputs come back untouched except at the last point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  by_cases h0 : t.val = 0
  · have h1 : ¬t.val = 24 := by omega
    rw [Dat.leavesExact_idle (dat5 V c) 3 t (idleAt5_3 t (hA1_5 t h0)) (noFlush5_3 t (hA1_5 t h0))]
    rw [Dat.leavesExact_idle (dat5 V c) 4 t (idleAt5_4 t (hA1_5 t h0)) (noFlush5_4 t (hA1_5 t h0))]
    rw [outsAt5_A V c t h0, scratchAt5_A V c t h0]
    unfold out5_A_2 sout5_A_0 sout5_A_1; (try dsimp only)
    rw [PhiS5_castSucc V c t, PhiS5_zero V c _ _ h0, PhiA5_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun5_A c (grid5.coords t) _ _ _ _ _ _ _ _ _ _ _ _ _ _ (hA0_5 t h0) (hA1_5 t h0) (iblk5 V c 0 t) (iblk5 V c 1 t)).2.2.2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover5_A_0 c _ _ _ _ _ _ _ _ _ _ _ _ _ _ _ _ _ _ _)
          unfold owns; iexists _; isplitr
          swap; · iexact HS1
          ipureintro; exact View.read_writes_of_cover _ _ _ _ _ (scover5_A_1 c _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover5_A_2 c _ _ _ _ _ _ _ _ _ _ _ _ _ _ _ _ _ _ _)
    isplitl [H3]; · iexists _; iexact H3
    iexists _; iexact H4
  · by_cases h1 : t.val = 24
    · rw [show (dat5 V c).leavesExact 3 t = owns (c : Thread nD τ) (ms5_3 t) fullShare ((dat5 V c).after 3 t) from by
          unfold Dat.leavesExact; rw [liveAt5_3 t (hC1_5 t h1)], after5_3]
      rw [show (dat5 V c).leavesExact 4 t = owns (c : Thread nD τ) (ms5_4 t) fullShare ((dat5 V c).after 4 t) from by
          unfold Dat.leavesExact; rw [liveAt5_4 t (hC1_5 t h1)], after5_4]
      rw [outsAt5_C V c t h0 h1, scratchAt5_C V c t h0 h1]
      unfold out5_C_2 out5_C_3 out5_C_4 sout5_C_0 sout5_C_1; (try dsimp only)
      rw [PhiS5_castSucc V c t, PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun5_C c (grid5.coords t) _ _ _ _ _ _ _ _ _ _ _ _ _ _ (hB0_5 t h0) (hC1_5 t h1) (iblk5 V c 0 t) (iblk5 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _)
            unfold owns; iexists _; isplitr
            swap; · iexact HS1
            ipureintro; exact View.read_writes_of_cover _ _ _ _ _ (scover5_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_C_2 c _ _ _ _ _ _ _ _ _ _ _ _ _ _ _ _ _ _ _ _ _)
      isplitl [H3]
      · unfold owns; iexists _; isplitr
        swap; · iexact H3
        ipureintro; exact View.read_writes_of_cover _ _ _ _ _ (cover5_C_3 c _ _ _ _ _ _ _ _ _ _ _ _ _ _ _ _ _ _ _ _ _)
      unfold owns; iexists _; isplitr
      swap; · iexact H4
      ipureintro; exact View.read_writes_of_cover _ _ _ _ _ (cover5_C_4 c _ _ _ _ _ _ _ _ _ _ _ _ _ _ _ _ _ _ _ _ _)
    · rw [Dat.leavesExact_idle (dat5 V c) 3 t (idleAt5_3 t (hB1_5 t h1)) (noFlush5_3 t (hB1_5 t h1))]
      rw [Dat.leavesExact_idle (dat5 V c) 4 t (idleAt5_4 t (hB1_5 t h1)) (noFlush5_4 t (hB1_5 t h1))]
      rw [outsAt5_B V c t h0 h1, scratchAt5_B V c t h0 h1]
      unfold out5_B_2 sout5_B_0 sout5_B_1; (try dsimp only)
      rw [PhiS5_castSucc V c t, PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ _ _ (hB0_5 t h0) (hB1_5 t h1) (iblk5 V c 0 t) (iblk5 V c 1 t) _ _).2.2.2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _)
            unfold owns; iexists _; isplitr
            swap; · iexact HS1
            ipureintro; exact View.read_writes_of_cover _ _ _ _ _ (scover5_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover5_B_2 c _ _ _ _ _ _ _ _ _ _ _ _ _ _ _ _ _ _ _ _ _)
      isplitl [H3]; · iexists _; iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- What the region is entered with — the generator register and the scoped rest — is the invariant before the first point. -/
theorem Phi5_in (c : Dev nD) : iprop((∃ r, prngReg c r) ∗ Pipeline.scopedRest (Ix := Unit) (Name := ℕ) (U := Pipeline.UD sig nD τ) (Lvl := ℕ) (Val := Elt F) spec5 c) ⊢ ((dat5 V c).Φ 0 : sProp 𝕄) := by
  rw [show (dat5 V c).Φ 0 = PhiS5 V c 0 (Nat.zero_le _) from rfl, PhiS5_zero V c 0 _ rfl]
  unfold Pipeline.ΦA
  iintro ⟨Hp, Hr⟩
  isplitl [Hr]; · iexact Hr
  iexact Hp

/-- After the last point the invariant gives them back: the accumulators' named contents are forgotten. -/
theorem Phi5_out (c : Dev nD) : ((dat5 V c).Φ (Fin.last _) : sProp 𝕄) ⊢ iprop((∃ r, prngReg c r) ∗ Pipeline.scopedRest (Ix := Unit) (Name := ℕ) (U := Pipeline.UD sig nD τ) (Lvl := ℕ) (Val := Elt F) spec5 c) := by
  rw [show (dat5 V c).Φ (Fin.last _) = PhiS5 V c (Fin.last cfg5.N).val (Nat.le_of_lt_succ (Fin.last cfg5.N).isLt) from rfl,
    PhiS5_pos V c _ _ (by rw [Fin.val_last]; have : cfg5.N = 25 := N_5; omega)]
  have hA : (Pipeline.ΦA spec5 c : sProp 𝕄) ⊢ iprop((∃ r, prngReg c r) ∗ Pipeline.scopedRest (Ix := Unit) (Name := ℕ) (U := Pipeline.UD sig nD τ) (Lvl := ℕ) (Val := Elt F) spec5 c) := by
    unfold Pipeline.ΦA
    iintro ⟨Hr, Hp⟩
    isplitl [Hp]; · iexact Hp
    iexact Hr
  rw [PhiA5_eq] at hA
  iintro ⟨⟨⟨HS0, HS1⟩, HR⟩, Hg⟩
  iapply hA
  isplitl [HS0 HS1 HR]
  · isplitl [HS0 HS1]
    · isplitl [HS0]; · iexists _; iexact HS0
      iexists _; iexact HS1
    iexact HR
  iexact Hg

end Cert.KernelIdeal.Hand

end
-- ==== Proof.KI.Seg5.lean ====
/- Region 5 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg5Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 5 over the thread state "every unscoped buffer at the boundary's contents, the generator register at
    some state, nothing owed". -/
def reg5 : Pipeline.RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => W11 m c b) c).loose
  hwaits := Pipeline.hwaits_of_owed_zero _ _ _ _ L lv 5 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec5 c (fun b => W11 m c b)
  hentry c := by
    rw [Pipeline.ownSems0_none, hV11 m c]
    have hsplit := Pipeline.arrays_of_unscopedBufs (p := 5) (pcfgs (F := F)) adm (pdats m) launch5.win launch5.arr_whole c
      ((pdats m 5 c).share_full fun _ => rfl) (fun b => W11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (fun c b => W11 m c b) c).Φ 0 from rfl]
    refine BIBase.Entails.trans ?_ (Phi5_in (fun c b => W11 m c b) c)
    iintro ⟨Hp, -, Hr⟩
    isplitl [Hp]; · iexact Hp
    iexact Hr
  hout c := by
    rw [Pipeline.ownSems0_none, show (pdats m 5 c).Φ (Fin.last _) = (dat5 (fun c b => W11 m c b) c).Φ (Fin.last _) from rfl]
    refine (Phi5_out (fun c b => W11 m c b) c).trans ?_
    iintro ⟨Hp, Hr⟩
    isplitl [Hp]; · iexact Hp
    isplitr; · iempintro
    iexact Hr
  hexit c := by
    rw [hV12 m c]
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (fun b => W11 m c b) (fun b => W12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6Body.lean ====
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import proofs.«180311_j29308856828500_2_alg».proof.Proof.KI.Reg6Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- The contents of the core's buffers when the region is entered: every statement below is at this parameter. -/
variable (V : (c : Dev nD) → (b : Ref sig .tc) → Buf (Elt F) ((c : Thread nD τ).loc b))

/-! # Region 6: the body's triple and the obligation of its proof data -/

/-- Input window 0's current buffer holds its block at every point, whether or not it was fetched there (an unfetched
    input has not moved its index, so the previous point's block is this point's): for any proof data whose array is
    the entry contents and whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current buffer holds its block at every point, whether or not it was fetched there (an unfetched
    input has not moved its index, so the previous point's block is this point's): for any proof data whose array is
    the entry contents and whose body leaves the block in place. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current buffer holds its block at every point, whether or not it was fetched there (an unfetched
    input has not moved its index, so the previous point's block is this point's): for any proof data whose array is
    the entry contents and whose body leaves the block in place. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current buffer holds its block at every point, whether or not it was fetched there (an unfetched
    input has not moved its index, so the previous point's block is this point's): for any proof data whose array is
    the entry contents and whose body leaves the block in place. -/
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current buffer holds its block at every point, whether or not it was fetched there (an unfetched
    input has not moved its index, so the previous point's block is this point's): for any proof data whose array is
    the entry contents and whose body leaves the block in place. -/
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The single store of the body is the whole output buffer, so it covers it. -/
theorem cover6_5 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

set_option maxHeartbeats 1000000 in
/-- The body on whole staging memrefs, the inputs' reading `x_i` and the output's anything, runs to the continuation
    with the inputs as they were and the output reading `out6_5` of the inputs: every load reads a whole input,
    the one store writes the payload of those loads over the whole output. -/
theorem sound_kernel6 (c : Dev nD) (E : Set ℕ) (i : grid6.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__bn_relu_kernel i arg1 harg1 arg2 harg2 arg3 harg3 arg4 harg4 arg5 harg5 arg6 harg6) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! Each input's current buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`: the invariant, what the core owes, and every window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the kernel's triple applies; the invariant and
    what the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation of the proof data, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Seg6.lean ====
/- Region 6 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg6Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 6 over the thread state "every unscoped buffer at the boundary's contents, the generator register at
    some state, nothing owed". -/
def reg6 : Pipeline.RegionSeg (pcfgs (F := F)) adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => W13 m c b) c).loose
  hwaits := Pipeline.hwaits_of_owed_zero _ _ _ _ L lv 6 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec6 c (fun b => W13 m c b)
  hentry c := by
    rw [Pipeline.ownSems0_none, hV13 m c]
    have hsplit := Pipeline.arrays_of_unscopedBufs (p := 6) (pcfgs (F := F)) adm (pdats m) launch6.win launch6.arr_whole c
      ((pdats m 6 c).share_full fun _ => rfl) (fun b => W13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    rw [hV14 m c]
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (fun b => W13 m c b) (fun b => W14 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7Body.lean ====
/-
  Region 7: the body's triple and the pipeline's body obligation. The body loads its three input buffers whole,
  forms h · wcat + bcat once, and stores its three column ranges, each by one store over a whole output buffer; so
  each output buffer ends at the canonical contents of that one piece, whatever it held before.
-/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import proofs.«180311_j29308856828500_2_alg».proof.Proof.KI.Reg7Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What the body finds in its input buffers -/

/-- Input window 0's current buffer holds its block at every point, fetched there or not, for any proof data whose
    array is the region-entry one and whose body leaves the block in place: where the pipeline does not fetch, the block
    index has not moved since the point before (the weights and the bias are fetched once, the activations at every point). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current buffer holds its block at every point, fetched there or not, for any proof data whose
    array is the region-entry one and whose body leaves the block in place: where the pipeline does not fetch, the block
    index has not moved since the point before (the weights and the bias are fetched once, the activations at every point). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current buffer holds its block at every point, fetched there or not, for any proof data whose
    array is the region-entry one and whose body leaves the block in place: where the pipeline does not fetch, the block
    index has not moved since the point before (the weights and the bias are fetched once, the activations at every point). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The stores cover the output buffers -/

/-- The one store into window 3's buffer takes the whole of it, so every index is covered. -/
theorem cover7_3 (p0 : Vec F S2000x128 .bf16) (y : S2000x128.Idx) :
    ∃ pc ∈ ([⟨r7_0, p0⟩] : List (View.Piece (Elt F) S2000x128 .bf16)), y ∈ pc.1.set :=
  View.cover_of_tiled [⟨r7_0, p0⟩] S2000x128.size (by rfl) y
/-- The one store into window 4's buffer takes the whole of it, so every index is covered. -/
theorem cover7_4 (p0 : Vec F S2000x256 .bf16) (y : S2000x256.Idx) :
    ∃ pc ∈ ([⟨r7_3, p0⟩] : List (View.Piece (Elt F) S2000x256 .bf16)), y ∈ pc.1.set :=
  View.cover_of_tiled [⟨r7_3, p0⟩] S2000x256.size (by rfl) y
/-- The one store into window 5's buffer takes the whole of it, so every index is covered. -/
theorem cover7_5 (p0 : Vec F S2000x128 .f32) (y : S2000x128.Idx) :
    ∃ pc ∈ ([⟨r7_0, p0⟩] : List (View.Piece (Elt F) S2000x128 .f32)), y ∈ pc.1.set :=
  View.cover_of_tiled [⟨r7_0, p0⟩] S2000x128.size (by rfl) y

/-! ## The body's triple -/

set_option maxHeartbeats 1000000 in
/-- On whole buffers, the inputs' reading `x0 x1 x2` and the outputs' holding anything, the body runs to the
    continuation with the inputs' as they were and each output's at its function of `x0 x1 x2`. -/
theorem sound_kernel7 (c : Dev nD) (E : Set ℕ) (i : grid7.Coords) (arg1 : Memref sig .tc .vmem S2000x128 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S2000x128 .bf16) (harg4 : arg4.IsWhole) (arg5 : Memref sig .tc .vmem S2000x256 .bf16) (harg5 : arg5.IsWhole) (arg6 : Memref sig .tc .vmem S2000x128 .f32) (harg6 : arg6.IsWhole)
    (x0 : Vec F S2000x128 .f32) (x1 : Vec F S128x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2) ∗ owns (c : Thread nD τ) arg5 fullShare (out7_4 x0 x1 x2)
            ∗ owns (c : Thread nD τ) arg6 fullShare (out7_5 x0 x1 x2)) -∗ K ⟨⟩))
      ⊢ wp frame (wpE (defs₀ (F := F)) Variants.none c none) E (cc7__kqvs_kernel i arg1 harg1 arg2 harg2 arg3 harg3 arg4 harg4 arg5 harg5 arg6 harg6) K := by
  simp only [cc7__kqvs_kernel_eq_skeleton]; unfold cc7__kqvs_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  isplitl [H4]
  · iexists _; isplitr
    swap; · iexact H4
    ipureintro
    exact View.read_writes_eq_canon _ _ _ (cover7_4 _)
  iexists _; isplitr
  swap; · iexact H5
  ipureintro
  exact View.read_writes_eq_canon _ _ _ (cover7_5 _)

/-! ## The inputs' buffers under the region's own proof data -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Seg7.lean ====
/- Region 7 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg7Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 7 over the thread state "every unscoped buffer at the boundary's contents, the generator register at
    some state, nothing owed". -/
def reg7 : Pipeline.RegionSeg (pcfgs (F := F)) adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => W15 m c b) c).loose
  hwaits := Pipeline.hwaits_of_owed_zero _ _ _ _ L lv 7 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec7 c (fun b => W15 m c b)
  hentry c := by
    rw [Pipeline.ownSems0_none, hV15 m c]
    have hsplit := Pipeline.arrays_of_unscopedBufs (p := 7) (pcfgs (F := F)) adm (pdats m) launch7.win launch7.arr_whole c
      ((pdats m 7 c).share_full fun _ => rfl) (fun b => W15 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    rw [hV16 m c]
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (fun b => W15 m c b) (fun b => W16 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8Body.lean ====
/- Region 8: the body obligation of its pipeline, and the invariant at the region's entry and exit. -/
import proofs.«180311_j29308856828500_2_alg».proof.Proof.KI.Reg8Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point: the inputs' buffers hold their blocks; the point is the first, a middle or the last one, and that
    case's run applies; the invariant hands the body the two accumulators at what the point before left (at anything at the
    first point) and takes them back at this point's contents; the one-row outputs come back untouched except at the last point. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 25 := lt_of_lt_of_eq t.isLt (show cfg8.N = 25 from N_8)
  rw [show (dat8 V c).leavesExact 0 t = owns (c : Thread nD τ) (ms8_0 t) fullShare ((dat8 V c).after 0 t) from by
      unfold Dat.leavesExact; rw [liveAt8_0 t], after8_0]
  rw [show (dat8 V c).leavesExact 1 t = owns (c : Thread nD τ) (ms8_1 t) fullShare ((dat8 V c).after 1 t) from by
      unfold Dat.leavesExact; rw [liveAt8_1 t], after8_1]
  rw [show (dat8 V c).leavesExact 2 t = owns (c : Thread nD τ) (ms8_2 t) fullShare ((dat8 V c).after 2 t) from by
      unfold Dat.leavesExact; rw [liveAt8_2 t], after8_2]
  by_cases h0 : t.val = 0
  · have h1 : ¬t.val = 24 := by omega
    rw [Dat.leavesExact_idle (dat8 V c) 3 t (idleAt8_3 t (hA1_8 t h0)) (noFlush8_3 t (hA1_8 t h0))]
    rw [Dat.leavesExact_idle (dat8 V c) 4 t (idleAt8_4 t (hA1_8 t h0)) (noFlush8_4 t (hA1_8 t h0))]
    rw [outsAt8_A V c t h0, scratchAt8_A V c t h0]
    unfold out8_A_2 sout8_A_0 sout8_A_1; (try dsimp only)
    rw [PhiS8_castSucc V c t, PhiS8_zero V c _ _ h0, PhiA8_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun8_A c (grid8.coords t) _ _ _ _ _ _ _ _ _ _ _ _ _ _ (hA0_8 t h0) (hA1_8 t h0) (iblk8 V c 0 t) (iblk8 V c 1 t)).2.2.2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _ _ _ _ _)
          unfold owns; iexists _; isplitr
          swap; · iexact HS1
          ipureintro; exact View.read_writes_of_cover _ _ _ _ _ (scover8_A_1 c _ _ _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover8_A_2 c _ _ _ _ _ _ _ _ _ _ _ _ _ _ _ _ _ _ _)
    isplitl [H3]; · iexists _; iexact H3
    iexists _; iexact H4
  · by_cases h1 : t.val = 24
    · rw [show (dat8 V c).leavesExact 3 t = owns (c : Thread nD τ) (ms8_3 t) fullShare ((dat8 V c).after 3 t) from by
          unfold Dat.leavesExact; rw [liveAt8_3 t (hC1_8 t h1)], after8_3]
      rw [show (dat8 V c).leavesExact 4 t = owns (c : Thread nD τ) (ms8_4 t) fullShare ((dat8 V c).after 4 t) from by
          unfold Dat.leavesExact; rw [liveAt8_4 t (hC1_8 t h1)], after8_4]
      rw [outsAt8_C V c t h0 h1, scratchAt8_C V c t h0 h1]
      unfold out8_C_2 out8_C_3 out8_C_4 sout8_C_0 sout8_C_1; (try dsimp only)
      rw [PhiS8_castSucc V c t, PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun8_C c (grid8.coords t) _ _ _ _ _ _ _ _ _ _ _ _ _ _ (hB0_8 t h0) (hC1_8 t h1) (iblk8 V c 0 t) (iblk8 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_C_0 c _ _ _ _ _ _ _ _ _ _ _ _ _ _ _ _ _ _ _ _ _)
            unfold owns; iexists _; isplitr
            swap; · iexact HS1
            ipureintro; exact View.read_writes_of_cover _ _ _ _ _ (scover8_C_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover8_C_2 c _ _ _ _ _ _ _ _ _ _ _ _ _ _ _ _ _ _ _ _ _)
      isplitl [H3]
      · unfold owns; iexists _; isplitr
        swap; · iexact H3
        ipureintro; exact View.read_writes_of_cover _ _ _ _ _ (cover8_C_3 c _ _ _ _ _ _ _ _ _ _ _ _ _ _ _ _ _ _ _ _ _)
      unfold owns; iexists _; isplitr
      swap; · iexact H4
      ipureintro; exact View.read_writes_of_cover _ _ _ _ _ (cover8_C_4 c _ _ _ _ _ _ _ _ _ _ _ _ _ _ _ _ _ _ _ _ _)
    · rw [Dat.leavesExact_idle (dat8 V c) 3 t (idleAt8_3 t (hB1_8 t h1)) (noFlush8_3 t (hB1_8 t h1))]
      rw [Dat.leavesExact_idle (dat8 V c) 4 t (idleAt8_4 t (hB1_8 t h1)) (noFlush8_4 t (hB1_8 t h1))]
      rw [outsAt8_B V c t h0 h1, scratchAt8_B V c t h0 h1]
      unfold out8_B_2 sout8_B_0 sout8_B_1; (try dsimp only)
      rw [PhiS8_castSucc V c t, PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun8_B c (grid8.coords t) _ _ _ _ _ _ _ _ _ _ _ _ _ _ (hB0_8 t h0) (hB1_8 t h1) (iblk8 V c 0 t) (iblk8 V c 1 t) _ _).2.2.2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_B_0 c _ _ _ _ _ _ _ _ _ _ _ _ _ _ _ _ _ _ _ _ _)
            unfold owns; iexists _; isplitr
            swap; · iexact HS1
            ipureintro; exact View.read_writes_of_cover _ _ _ _ _ (scover8_B_1 c _ _ _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover8_B_2 c _ _ _ _ _ _ _ _ _ _ _ _ _ _ _ _ _ _ _ _ _)
      isplitl [H3]; · iexists _; iexact H3
      iexists _; iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- What the region is entered with — the generator register and the scoped rest — is the invariant before the first point. -/
theorem Phi8_in (c : Dev nD) : iprop((∃ r, prngReg c r) ∗ Pipeline.scopedRest (Ix := Unit) (Name := ℕ) (U := Pipeline.UD sig nD τ) (Lvl := ℕ) (Val := Elt F) spec8 c) ⊢ ((dat8 V c).Φ 0 : sProp 𝕄) := by
  rw [show (dat8 V c).Φ 0 = PhiS8 V c 0 (Nat.zero_le _) from rfl, PhiS8_zero V c 0 _ rfl]
  unfold Pipeline.ΦA
  iintro ⟨Hp, Hr⟩
  isplitl [Hr]; · iexact Hr
  iexact Hp

/-- After the last point the invariant gives them back: the accumulators' named contents are forgotten. -/
theorem Phi8_out (c : Dev nD) : ((dat8 V c).Φ (Fin.last _) : sProp 𝕄) ⊢ iprop((∃ r, prngReg c r) ∗ Pipeline.scopedRest (Ix := Unit) (Name := ℕ) (U := Pipeline.UD sig nD τ) (Lvl := ℕ) (Val := Elt F) spec8 c) := by
  rw [show (dat8 V c).Φ (Fin.last _) = PhiS8 V c (Fin.last cfg8.N).val (Nat.le_of_lt_succ (Fin.last cfg8.N).isLt) from rfl,
    PhiS8_pos V c _ _ (by rw [Fin.val_last]; have : cfg8.N = 25 := N_8; omega)]
  have hA : (Pipeline.ΦA spec8 c : sProp 𝕄) ⊢ iprop((∃ r, prngReg c r) ∗ Pipeline.scopedRest (Ix := Unit) (Name := ℕ) (U := Pipeline.UD sig nD τ) (Lvl := ℕ) (Val := Elt F) spec8 c) := by
    unfold Pipeline.ΦA
    iintro ⟨Hr, Hp⟩
    isplitl [Hp]; · iexact Hp
    iexact Hr
  rw [PhiA8_eq] at hA
  iintro ⟨⟨⟨HS0, HS1⟩, HR⟩, Hg⟩
  iapply hA
  isplitl [HS0 HS1 HR]
  · isplitl [HS0 HS1]
    · isplitl [HS0]; · iexists _; iexact HS0
      iexists _; iexact HS1
    iexact HR
  iexact Hg

end Cert.KernelIdeal.Hand

end
-- ==== Proof.KI.Seg8.lean ====
/- Region 8 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg8Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 8 over the thread state "every unscoped buffer at the boundary's contents, the generator register at
    some state, nothing owed". -/
def reg8 : Pipeline.RegionSeg (pcfgs (F := F)) adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => W17 m c b) c).loose
  hwaits := Pipeline.hwaits_of_owed_zero _ _ _ _ L lv 8 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec8 c (fun b => W17 m c b)
  hentry c := by
    rw [Pipeline.ownSems0_none, hV17 m c]
    have hsplit := Pipeline.arrays_of_unscopedBufs (p := 8) (pcfgs (F := F)) adm (pdats m) launch8.win launch8.arr_whole c
      ((pdats m 8 c).share_full fun _ => rfl) (fun b => W17 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (fun c b => W17 m c b) c).Φ 0 from rfl]
    refine BIBase.Entails.trans ?_ (Phi8_in (fun c b => W17 m c b) c)
    iintro ⟨Hp, -, Hr⟩
    isplitl [Hp]; · iexact Hp
    iexact Hr
  hout c := by
    rw [Pipeline.ownSems0_none, show (pdats m 8 c).Φ (Fin.last _) = (dat8 (fun c b => W17 m c b) c).Φ (Fin.last _) from rfl]
    refine (Phi8_out (fun c b => W17 m c b) c).trans ?_
    iintro ⟨Hp, Hr⟩
    isplitl [Hp]; · iexact Hp
    isplitr; · iempintro
    iexact Hr
  hexit c := by
    rw [hV18 m c]
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (fun b => W17 m c b) (fun b => W18 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9Body.lean ====
/- Region 9: the body's triple on whole staging buffers, and from it the pipeline's body obligation at every
   point of the grid. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Reg9Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## An input window's staging buffer holds its block at every point

Whether or not the window is fetched at the point: where it is not, its block index has not moved, so the block
fetched earlier is still this point's. Stated for any proof data with the entry arrays and a body that leaves the
input blocks in place. -/

theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (Pipeline.UD sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (Pipeline.UD sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (Pipeline.UD sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's triple -/

/-- The body's single store is of the whole output block, so it covers it. -/
theorem cover9_7 (p0 : Vec F S2000x32 .f32) (y : S2000x32.Idx) :
    ∃ pc ∈ ([⟨r9_4, p0⟩] : List (View.Piece (Elt F) S2000x32 .f32)), y ∈ pc.1.set :=
  View.cover_of_tiled [⟨r9_4, p0⟩] S2000x32.size (by rfl) y

set_option maxHeartbeats 1000000 in
/-- On whole staging buffers — the seven inputs' holding `x0 … x6`, the output's holding anything — the body runs
    to the continuation with the inputs' as they were and the output's at `out9_7 x0 … x6`. -/
theorem sound_kernel9 (c : Dev nD) (E : Set ℕ) (i : grid9.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x32 .bf16) (harg6 : arg6.IsWhole) (arg7 : Memref sig .tc .vmem S1x32 .f32) (harg7 : arg7.IsWhole) (arg8 : Memref sig .tc .vmem S2000x32 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x32 .bf16) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__bn_relu_head_kernel i arg1 harg1 arg2 harg2 arg3 harg3 arg4 harg4 arg5 harg5 arg6 harg6 arg7 harg7 arg8 harg8) K := by
  simp only [cc9__bn_relu_head_kernel_eq_skeleton]; unfold cc9__bn_relu_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The input windows under the pipeline's proof data -/

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point `t`: the invariant, the core's dues, every window's current staging buffer. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the triple applies; the invariant and the
    core's dues pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Seg9.lean ====
/- Region 9 as a segment of the program: entered from every unscoped buffer held at the contents of the boundary
   before it, left with them at the contents of the boundary after it. Its arrays are split out of the unscoped
   buffers at entry and put back at their final contents at exit; the generator register goes into the pipeline's
   invariant and comes back; the core owes nothing throughout; the kernel has no semaphore of its own. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Reg9Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 9 over the thread state "every unscoped buffer at the boundary's contents, the generator register at
    some state, nothing owed". -/
def reg9 : Pipeline.RegionSeg (pcfgs (F := F)) adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (fun c b => W19 m c b) c).loose
  hwaits := Pipeline.hwaits_of_owed_zero _ _ _ _ L lv 9 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec9 c (fun b => W19 m c b)
  hentry c := by
    rw [Pipeline.ownSems0_none, hV19 m c]
    have hsplit := Pipeline.arrays_of_unscopedBufs (p := 9) (pcfgs (F := F)) adm (pdats m) launch9.win launch9.arr_whole c
      ((pdats m 9 c).share_full fun _ => rfl) (fun b => W19 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    rw [hV20 m c]
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (fun b => W19 m c b) (fun b => W20 m c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/- The frame of the whole program: from any memory with zero counters, every weakly fair execution on the
   TensorCores terminates and every final memory holds each argument array as launched — and holds in the result
   buffer what the fold of boundary contents has there. The ten regions' segment records are chained through the
   host stretches between them. -/
import proofs.«180311_j29308856828500_2_alg».proof.Proof.Gen.KernelIdeal.Launch
import proofs.«180311_j29308856828500_2_alg».proof.Proof.Gen.KernelIdeal.Skeleton
import proofs.«180311_j29308856828500_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180311_j29308856828500_2_alg».proof.Proof.KI.Bounds
import proofs.«180311_j29308856828500_2_alg».proof.Proof.KI.Seg0
import proofs.«180311_j29308856828500_2_alg».proof.Proof.KI.Seg1
import proofs.«180311_j29308856828500_2_alg».proof.Proof.KI.Seg2
import proofs.«180311_j29308856828500_2_alg».proof.Proof.KI.Seg3
import proofs.«180311_j29308856828500_2_alg».proof.Proof.KI.Seg4
import proofs.«180311_j29308856828500_2_alg».proof.Proof.KI.Seg5
import proofs.«180311_j29308856828500_2_alg».proof.Proof.KI.Seg6
import proofs.«180311_j29308856828500_2_alg».proof.Proof.KI.Seg7
import proofs.«180311_j29308856828500_2_alg».proof.Proof.KI.Seg8
import proofs.«180311_j29308856828500_2_alg».proof.Proof.KI.Seg9
import proofs.«180311_j29308856828500_2_alg».proof.Proof.KI.FrameCondNamed

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- Every argument array ends as launched. The rest state between two items is the generator register at some state
    beside the core owing nothing; the launch makes it on every core at once; the launch element is the pipelines'
    own, with no ghost resource beside it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m embL () Variants.none L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

set_option backward.isDefEq.respectTransparency.types false in
/-- The same run, its result named: besides the arguments, the final memory holds in `main_v176` the last boundary's
    contents there, which is what region 9's write-backs leave. -/
theorem run_named : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v176) = W20 m c main_v176) :=
  (θ_run defs _ _).mono (fun _ h c => by
      obtain ⟨h0, h1, h2, h3, h4, h5, h6, h7, h8, h9, hr⟩ := h c
      exact ⟨h0, h1, h2, h3, h4, h5, h6, h7, h8, h9, hr.trans (congrFun (hV20 m c) (Proc.devRef .tc main_v176))⟩)
    (frame_cond_named m embL () Variants.none L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl))

end Cert.KernelIdeal.Hand

end
-- ==== Proof.Ref.Ops0.lean ====
import proofs.«180311_j29308856828500_2_alg».proof.Proof.Gen.ReferenceIdeal
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Statements 1 … 60 of @main as the list of their 62 operations, in order: a call stands as the
    callee's own operations over the buffers that call names (its record), the operands in place of the
    callee's arguments. -/
abbrev ops0 : List (HloOp τ sig (Elt F)) :=
  ( StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F))
  :: StableHlo.reshape main_v0 main_v1 rfl shapeCasts_S1x600000_S600000
  :: StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F))
  :: StableHlo.reshape main_v2 main_v3 rfl shapeCasts_S1x600000_S600000
  :: StableHlo.binary main_arg0 main_arg2 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F))
  :: StableHlo.unary main_arg3 main_v5 (broadcastInDim S1x128 ![1] bcast_S128_S1x128_1 : (⟨S128, .f32⟩ : BufTy).Contents (Elt F) → (⟨S1x128, .f32⟩ : BufTy).Contents (Elt F))
  :: StableHlo.unary main_v5 main_v6 (broadcastInDim S50000x128 ![0, 1] bcast_S1x128_S50000x128_0_1 : (⟨S1x128, .f32⟩ : BufTy).Contents (Elt F) → (⟨S50000x128, .f32⟩ : BufTy).Contents (Elt F))
  :: StableHlo.binary main_v4 main_v6 main_v7 (addf : (⟨S50000x128, .f32⟩ : BufTy).Contents (Elt F) → (⟨S50000x128, .f32⟩ : BufTy).Contents (Elt F) → (⟨S50000x128, .f32⟩ : BufTy).Contents (Elt F))
  :: StableHlo.TRef.nullary main_call0.cst (constant S_ .f32 0x00000000#32)
  :: StableHlo.TRef.unary main_call0.cst main_call0.v0 (broadcastInDim S50000x128 ![] bcast_S_S50000x128)
  :: StableHlo.TRef.binary (.of main_v7) main_call0.v0 main_call0.v1 maximumf
  :: StableHlo.unary main_arg4 main_v9 ((extractStridedSlice S1x4x128x128 ![0, 0, 0, 0] · slices_S3x4x128x128_S1x4x128x128_0_0_0_0) : (⟨S3x4x128x128, .f32⟩ : BufTy).Contents (Elt F) → (⟨S1x4x128x128, .f32⟩ : BufTy).Contents (Elt F))
  :: StableHlo.reshape main_v9 main_v10 rfl shapeCasts_S1x4x128x128_S4x128x128
  :: StableHlo.unary main_arg5 main_v11 ((extractStridedSlice S1x4x128 ![0, 0, 0] · slices_S3x4x128_S1x4x128_0_0_0) : (⟨S3x4x128, .f32⟩ : BufTy).Contents (Elt F) → (⟨S1x4x128, .f32⟩ : BufTy).Contents (Elt F))
  :: StableHlo.reshape main_v11 main_v12 rfl shapeCasts_S1x4x128_S4x128
  :: StableHlo.unary main_v10 main_v13 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v13 main_v14 rfl shapeCasts_S1x128x128_S128x128
  :: StableHlo.binary main_v8 main_v14 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v16 ((extractStridedSlice S1x128 ![0, 0] · slices_S4x128_S1x128_0_0) : (⟨S4x128, .f32⟩ : BufTy).Contents (Elt F) → (⟨S1x128, .f32⟩ : BufTy).Contents (Elt F))
  :: StableHlo.reshape main_v16 main_v17 rfl shapeCasts_S1x128_S128
  :: StableHlo.unary main_v17 main_v18 (broadcastInDim S1x128 ![1] bcast_S128_S1x128_1 : (⟨S128, .f32⟩ : BufTy).Contents (Elt F) → (⟨S1x128, .f32⟩ : BufTy).Contents (Elt F))
  :: StableHlo.unary main_v18 main_v19 (broadcastInDim S50000x128 ![0, 1] bcast_S1x128_S50000x128_0_1 : (⟨S1x128, .f32⟩ : BufTy).Contents (Elt F) → (⟨S50000x128, .f32⟩ : BufTy).Contents (Elt F))
  :: StableHlo.binary main_v15 main_v19 main_v20 (addf : (⟨S50000x128, .f32⟩ : BufTy).Contents (Elt F) → (⟨S50000x128, .f32⟩ : BufTy).Contents (Elt F) → (⟨S50000x128, .f32⟩ : BufTy).Contents (Elt F))
  :: StableHlo.unary main_v10 main_v21 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v21 main_v22 rfl shapeCasts_S1x128x128_S128x128
  :: StableHlo.binary main_v8 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v24 ((extractStridedSlice S1x128 ![1, 0] · slices_S4x128_S1x128_1_0) : (⟨S4x128, .f32⟩ : BufTy).Contents (Elt F) → (⟨S1x128, .f32⟩ : BufTy).Contents (Elt F))
  :: StableHlo.reshape main_v24 main_v25 rfl shapeCasts_S1x128_S128
  :: StableHlo.unary main_v25 main_v26 (broadcastInDim S1x128 ![1] bcast_S128_S1x128_1 : (⟨S128, .f32⟩ : BufTy).Contents (Elt F) → (⟨S1x128, .f32⟩ : BufTy).Contents (Elt F))
  :: StableHlo.unary main_v26 main_v27 (broadcastInDim S50000x128 ![0, 1] bcast_S1x128_S50000x128_0_1 : (⟨S1x128, .f32⟩ : BufTy).Contents (Elt F) → (⟨S50000x128, .f32⟩ : BufTy).Contents (Elt F))
  :: StableHlo.binary main_v23 main_v27 main_v28 (addf : (⟨S50000x128, .f32⟩ : BufTy).Contents (Elt F) → (⟨S50000x128, .f32⟩ : BufTy).Contents (Elt F) → (⟨S50000x128, .f32⟩ : BufTy).Contents (Elt F))
  :: StableHlo.unary main_v10 main_v29 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v29 main_v30 rfl shapeCasts_S1x128x128_S128x128
  :: StableHlo.binary main_v8 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v32 ((extractStridedSlice S1x128 ![2, 0] · slices_S4x128_S1x128_2_0) : (⟨S4x128, .f32⟩ : BufTy).Contents (Elt F) → (⟨S1x128, .f32⟩ : BufTy).Contents (Elt F))
  :: StableHlo.reshape main_v32 main_v33 rfl shapeCasts_S1x128_S128
  :: StableHlo.unary main_v33 main_v34 (broadcastInDim S1x128 ![1] bcast_S128_S1x128_1 : (⟨S128, .f32⟩ : BufTy).Contents (Elt F) → (⟨S1x128, .f32⟩ : BufTy).Contents (Elt F))
  :: StableHlo.unary main_v34 main_v35 (broadcastInDim S50000x128 ![0, 1] bcast_S1x128_S50000x128_0_1 : (⟨S1x128, .f32⟩ : BufTy).Contents (Elt F) → (⟨S50000x128, .f32⟩ : BufTy).Contents (Elt F))
  :: StableHlo.binary main_v31 main_v35 main_v36 (addf : (⟨S50000x128, .f32⟩ : BufTy).Contents (Elt F) → (⟨S50000x128, .f32⟩ : BufTy).Contents (Elt F) → (⟨S50000x128, .f32⟩ : BufTy).Contents (Elt F))
  :: StableHlo.nullary main_c (constantI S_ 32 0#32)
  :: StableHlo.unary main_c main_v37 (broadcastInDim S600000 ![] bcast_S_S600000 : (⟨S_, .i32⟩ : BufTy).Contents (Elt F) → (⟨S600000, .i32⟩ : BufTy).Contents (Elt F))
  :: StableHlo.binary main_v3 main_v37 main_v38 (cmpi .slt : (⟨S600000, .i32⟩ : BufTy).Contents (Elt F) → (⟨S600000, .i32⟩ : BufTy).Contents (Elt F) → (⟨S600000, .i1⟩ : BufTy).Contents (Elt F))
  :: StableHlo.nullary main_c_0 (constantI S_ 32 50000#32)
  :: StableHlo.unary main_c_0 main_v39 (broadcastInDim S600000 ![] bcast_S_S600000 : (⟨S_, .i32⟩ : BufTy).Contents (Elt F) → (⟨S600000, .i32⟩ : BufTy).Contents (Elt F))
  :: StableHlo.binary main_v3 main_v39 main_v40 (addi : (⟨S600000, .i32⟩ : BufTy).Contents (Elt F) → (⟨S600000, .i32⟩ : BufTy).Contents (Elt F) → (⟨S600000, .i32⟩ : BufTy).Contents (Elt F))
  :: StableHlo.ternary main_v38 main_v40 main_v3 main_v41 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v41 main_v42 (broadcastInDim S600000x1 ![0] bcast_S600000_S600000x1_0 : (⟨S600000, .i32⟩ : BufTy).Contents (Elt F) → (⟨S600000x1, .i32⟩ : BufTy).Contents (Elt F))
  :: StableHlo.binary main_v20 main_v42 main_v43 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.nullary main_c_1 (constantI S_ 32 0#32)
  :: StableHlo.unary main_c_1 main_v44 (broadcastInDim S600000 ![] bcast_S_S600000 : (⟨S_, .i32⟩ : BufTy).Contents (Elt F) → (⟨S600000, .i32⟩ : BufTy).Contents (Elt F))
  :: StableHlo.binary main_v1 main_v44 main_v45 (cmpi .slt : (⟨S600000, .i32⟩ : BufTy).Contents (Elt F) → (⟨S600000, .i32⟩ : BufTy).Contents (Elt F) → (⟨S600000, .i1⟩ : BufTy).Contents (Elt F))
  :: StableHlo.nullary main_c_2 (constantI S_ 32 50000#32)
  :: StableHlo.unary main_c_2 main_v46 (broadcastInDim S600000 ![] bcast_S_S600000 : (⟨S_, .i32⟩ : BufTy).Contents (Elt F) → (⟨S600000, .i32⟩ : BufTy).Contents (Elt F))
  :: StableHlo.binary main_v1 main_v46 main_v47 (addi : (⟨S600000, .i32⟩ : BufTy).Contents (Elt F) → (⟨S600000, .i32⟩ : BufTy).Contents (Elt F) → (⟨S600000, .i32⟩ : BufTy).Contents (Elt F))
  :: StableHlo.ternary main_v45 main_v47 main_v1 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v48 main_v49 (broadcastInDim S600000x1 ![0] bcast_S600000_S600000x1_0 : (⟨S600000, .i32⟩ : BufTy).Contents (Elt F) → (⟨S600000x1, .i32⟩ : BufTy).Contents (Elt F))
  :: StableHlo.binary main_v28 main_v49 main_v50 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v43 main_v50 main_v51 (addf : (⟨S600000x128, .f32⟩ : BufTy).Contents (Elt F) → (⟨S600000x128, .f32⟩ : BufTy).Contents (Elt F) → (⟨S600000x128, .f32⟩ : BufTy).Contents (Elt F))
  :: StableHlo.unary main_v51 main_v52 (Host.negf : (⟨S600000x128, .f32⟩ : BufTy).Contents (Elt F) → (⟨S600000x128, .f32⟩ : BufTy).Contents (Elt F))
  :: StableHlo.unary main_v52 main_v53 (Host.exp : (⟨S600000x128, .f32⟩ : BufTy).Contents (Elt F) → (⟨S600000x128, .f32⟩ : BufTy).Contents (Elt F))
  :: StableHlo.nullary main_cst (constant S_ .f32 0x3F800000#32)
  :: StableHlo.unary main_cst main_v54 (broadcastInDim S600000x128 ![] bcast_S_S600000x128 : (⟨S_, .f32⟩ : BufTy).Contents (Elt F) → (⟨S600000x128, .f32⟩ : BufTy).Contents (Elt F))
  :: [] )

/-- Every operation of the list touches TensorCore references only. -/
theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub ..⟩

/-- The operations leave nothing undetermined: none of them is an allocation. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window is the straight line of its operations: a callee's definition unfolded at its call and the record at
    its fields, both sides are one right-nested chain of the same steps (the window ends in its last operation's step, which is that step followed by the empty return), so the
    equation holds by unfolding alone. -/
theorem main_part0_eq (c : Dev nD) : main_part0 (F := F) c = StableHlo.seq ops0 := by
  chain_rfl

/-- The 62 buffers the window's operations write, one each, in order. -/
abbrev ops0_W : List (Ref sig .tc) :=
  [main_v0, main_v1, main_v2, main_v3, main_v4, main_v5, main_v6, main_v7, main_call0_cst, main_call0_v0, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_c, main_v37, main_v38, main_c_0, main_v39, main_v40, main_v41, main_v42, main_v43, main_c_1, main_v44, main_v45, main_c_2, main_v46, main_v47, main_v48, main_v49, main_v50, main_v51, main_v52, main_v53, main_cst, main_v54]

/-- Each operation writes its one result buffer, which is in the list. -/
theorem ops0_writes : (ops0 : List (HloOp τ sig (Elt F))).Forall fun op =>
    op.writes ⊆ (ops0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the window does not write keeps its contents through it. -/
theorem keep0 (V : Valuation τ sig (Elt F)) (r : Ref sig .tc) (h : r ∉ ops0_W) :
    StableHlo.after ops0 V (Proc.devRef .tc r) = V (Proc.devRef .tc r) :=
  StableHlo.after_of_writes_sub ops0 V ops0_writes h

end Cert.ReferenceIdeal.Hand

end
-- ==== Proof.Ref.Ops1.lean ====
import proofs.«180311_j29308856828500_2_alg».proof.Proof.Gen.ReferenceIdeal
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Statements 61 … 120 of @main as the list of their 83 operations, in order: a call stands as the
    callee's own operations over the buffers that call names (its record), the operands in place of the
    callee's arguments. -/
abbrev ops1 : List (HloOp τ sig (Elt F)) :=
  ( StableHlo.binary main_v54 main_v53 main_v55 (addf : (⟨S600000x128, .f32⟩ : BufTy).Contents (Elt F) → (⟨S600000x128, .f32⟩ : BufTy).Contents (Elt F) → (⟨S600000x128, .f32⟩ : BufTy).Contents (Elt F))
  :: StableHlo.nullary main_cst_3 (constant S_ .f32 0x3F800000#32)
  :: StableHlo.unary main_cst_3 main_v56 (broadcastInDim S600000x128 ![] bcast_S_S600000x128 : (⟨S_, .f32⟩ : BufTy).Contents (Elt F) → (⟨S600000x128, .f32⟩ : BufTy).Contents (Elt F))
  :: StableHlo.binary main_v56 main_v55 main_v57 (Host.divf : (⟨S600000x128, .f32⟩ : BufTy).Contents (Elt F) → (⟨S600000x128, .f32⟩ : BufTy).Contents (Elt F) → (⟨S600000x128, .f32⟩ : BufTy).Contents (Elt F))
  :: StableHlo.nullary main_c_4 (constantI S_ 32 0#32)
  :: StableHlo.unary main_c_4 main_v58 (broadcastInDim S600000 ![] bcast_S_S600000 : (⟨S_, .i32⟩ : BufTy).Contents (Elt F) → (⟨S600000, .i32⟩ : BufTy).Contents (Elt F))
  :: StableHlo.binary main_v1 main_v58 main_v59 (cmpi .slt : (⟨S600000, .i32⟩ : BufTy).Contents (Elt F) → (⟨S600000, .i32⟩ : BufTy).Contents (Elt F) → (⟨S600000, .i1⟩ : BufTy).Contents (Elt F))
  :: StableHlo.nullary main_c_5 (constantI S_ 32 50000#32)
  :: StableHlo.unary main_c_5 main_v60 (broadcastInDim S600000 ![] bcast_S_S600000 : (⟨S_, .i32⟩ : BufTy).Contents (Elt F) → (⟨S600000, .i32⟩ : BufTy).Contents (Elt F))
  :: StableHlo.binary main_v1 main_v60 main_v61 (addi : (⟨S600000, .i32⟩ : BufTy).Contents (Elt F) → (⟨S600000, .i32⟩ : BufTy).Contents (Elt F) → (⟨S600000, .i32⟩ : BufTy).Contents (Elt F))
  :: StableHlo.ternary main_v59 main_v61 main_v1 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v62 main_v63 (broadcastInDim S600000x1 ![0] bcast_S600000_S600000x1_0 : (⟨S600000, .i32⟩ : BufTy).Contents (Elt F) → (⟨S600000x1, .i32⟩ : BufTy).Contents (Elt F))
  :: StableHlo.binary main_v36 main_v63 main_v64 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v57 main_v64 main_v65 (mulf : (⟨S600000x128, .f32⟩ : BufTy).Contents (Elt F) → (⟨S600000x128, .f32⟩ : BufTy).Contents (Elt F) → (⟨S600000x128, .f32⟩ : BufTy).Contents (Elt F))
  :: StableHlo.nullary main_cst_6 (constant S_ .f32 0x00000000#32)
  :: StableHlo.unary main_cst_6 main_v66 (broadcastInDim S50000x128 ![] bcast_S_S50000x128 : (⟨S_, .f32⟩ : BufTy).Contents (Elt F) → (⟨S50000x128, .f32⟩ : BufTy).Contents (Elt F))
  :: StableHlo.unary main_v3 main_v67 (broadcastInDim S600000x1 ![0] bcast_S600000_S600000x1_0 : (⟨S600000, .i32⟩ : BufTy).Contents (Elt F) → (⟨S600000x1, .i32⟩ : BufTy).Contents (Elt F))
  :: StableHlo.ternary main_v66 main_v67 main_v65 main_v68 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))
  :: StableHlo.unary main_v10 main_v69 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v69 main_v70 rfl shapeCasts_S1x128x128_S128x128
  :: StableHlo.binary main_v8 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v72 ((extractStridedSlice S1x128 ![3, 0] · slices_S4x128_S1x128_3_0) : (⟨S4x128, .f32⟩ : BufTy).Contents (Elt F) → (⟨S1x128, .f32⟩ : BufTy).Contents (Elt F))
  :: StableHlo.reshape main_v72 main_v73 rfl shapeCasts_S1x128_S128
  :: StableHlo.unary main_v73 main_v74 (broadcastInDim S1x128 ![1] bcast_S128_S1x128_1 : (⟨S128, .f32⟩ : BufTy).Contents (Elt F) → (⟨S1x128, .f32⟩ : BufTy).Contents (Elt F))
  :: StableHlo.unary main_v74 main_v75 (broadcastInDim S50000x128 ![0, 1] bcast_S1x128_S50000x128_0_1 : (⟨S1x128, .f32⟩ : BufTy).Contents (Elt F) → (⟨S50000x128, .f32⟩ : BufTy).Contents (Elt F))
  :: StableHlo.binary main_v71 main_v75 main_v76 (addf : (⟨S50000x128, .f32⟩ : BufTy).Contents (Elt F) → (⟨S50000x128, .f32⟩ : BufTy).Contents (Elt F) → (⟨S50000x128, .f32⟩ : BufTy).Contents (Elt F))
  :: StableHlo.binary main_v76 main_v68 main_v77 (addf : (⟨S50000x128, .f32⟩ : BufTy).Contents (Elt F) → (⟨S50000x128, .f32⟩ : BufTy).Contents (Elt F) → (⟨S50000x128, .f32⟩ : BufTy).Contents (Elt F))
  :: StableHlo.unary main_arg6 main_v78 ((extractStridedSlice S1x128 ![0, 0] · slices_S3x128_S1x128_0_0) : (⟨S3x128, .f32⟩ : BufTy).Contents (Elt F) → (⟨S1x128, .f32⟩ : BufTy).Contents (Elt F))
  :: StableHlo.reshape main_v78 main_v79 rfl shapeCasts_S1x128_S128
  :: StableHlo.unary main_arg7 main_v80 ((extractStridedSlice S1x128 ![0, 0] · slices_S3x128_S1x128_0_0) : (⟨S3x128, .f32⟩ : BufTy).Contents (Elt F) → (⟨S1x128, .f32⟩ : BufTy).Contents (Elt F))
  :: StableHlo.reshape main_v80 main_v81 rfl shapeCasts_S1x128_S128
  :: StableHlo.nullary main_cst_7 (constant S_ .f32 0x00000000#32)
  :: StableHlo.binary main_v77 main_cst_7 main_v82 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_8 (constant S_ .f32 0x47435000#32)
  :: StableHlo.unary main_cst_8 main_v83 (broadcastInDim S128 ![] bcast_S_S128 : (⟨S_, .f32⟩ : BufTy).Contents (Elt F) → (⟨S128, .f32⟩ : BufTy).Contents (Elt F))
  :: StableHlo.binary main_v82 main_v83 main_v84 (Host.divf : (⟨S128, .f32⟩ : BufTy).Contents (Elt F) → (⟨S128, .f32⟩ : BufTy).Contents (Elt F) → (⟨S128, .f32⟩ : BufTy).Contents (Elt F))
  :: StableHlo.nullary main_c_9 (constantI S_ 32 0#32)
  :: StableHlo.TRef.nullary main_call1.cst (constant S_ .f32 0x00000000#32)
  :: StableHlo.TRef.binary (.of main_v77) main_call1.cst main_call1.v0 (fun x v => Host.reduceAdd x v reducesTo_S50000x128_S128_d0 h_S_)
  :: StableHlo.TRef.unary main_call1.v0 main_call1.v1 (broadcastInDim S1x128 ![1] bcast_S128_S1x128_1)
  :: StableHlo.TRef.nullary main_call1.cst_0 (constant S_ .f32 0x47435000#32)
  :: StableHlo.TRef.unary main_call1.cst_0 main_call1.v2 (broadcastInDim S1x128 ![] bcast_S_S1x128)
  :: StableHlo.TRef.binary main_call1.v1 main_call1.v2 main_call1.v3 Host.divf
  :: StableHlo.TRef.unary main_call1.v3 main_call1.v4 (broadcastInDim S50000x128 ![0, 1] bcast_S1x128_S50000x128_0_1)
  :: StableHlo.TRef.binary (.of main_v77) main_call1.v4 main_call1.v5 subf
  :: StableHlo.TRef.binary main_call1.v5 main_call1.v5 main_call1.v6 mulf
  :: StableHlo.TRef.unary (.of main_c_9) main_call1.v7 (sitofp .f32)
  :: StableHlo.TRef.nullary main_call1.cst_1 (constant S_ .f32 0x47435000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x128_S128_d0 h_S_)
  :: StableHlo.TRef.unary main_call1.v8 main_call1.v10 (broadcastInDim S128 ![] bcast_S_S128)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S128 ![] bcast_S_S128)
  :: StableHlo.TRef.ternary main_call1.v12 main_call1.v11 main_call1.call0.v1 main_call1.call0.v2 (fun p a b => select (broadcastInDim S128 ![] bcast_S_S128 p) a b)
  :: StableHlo.unary main_v84 main_v86 (broadcastInDim S1x128 ![1] bcast_S128_S1x128_1 : (⟨S128, .f32⟩ : BufTy).Contents (Elt F) → (⟨S1x128, .f32⟩ : BufTy).Contents (Elt F))
  :: StableHlo.unary main_v86 main_v87 (broadcastInDim S50000x128 ![0, 1] bcast_S1x128_S50000x128_0_1 : (⟨S1x128, .f32⟩ : BufTy).Contents (Elt F) → (⟨S50000x128, .f32⟩ : BufTy).Contents (Elt F))
  :: StableHlo.binary main_v77 main_v87 main_v88 (subf : (⟨S50000x128, .f32⟩ : BufTy).Contents (Elt F) → (⟨S50000x128, .f32⟩ : BufTy).Contents (Elt F) → (⟨S50000x128, .f32⟩ : BufTy).Contents (Elt F))
  :: StableHlo.unary main_v79 main_v89 (broadcastInDim S1x128 ![1] bcast_S128_S1x128_1 : (⟨S128, .f32⟩ : BufTy).Contents (Elt F) → (⟨S1x128, .f32⟩ : BufTy).Contents (Elt F))
  :: StableHlo.unary main_v89 main_v90 (broadcastInDim S50000x128 ![0, 1] bcast_S1x128_S50000x128_0_1 : (⟨S1x128, .f32⟩ : BufTy).Contents (Elt F) → (⟨S50000x128, .f32⟩ : BufTy).Contents (Elt F))
  :: StableHlo.binary main_v90 main_v88 main_v91 (mulf : (⟨S50000x128, .f32⟩ : BufTy).Contents (Elt F) → (⟨S50000x128, .f32⟩ : BufTy).Contents (Elt F) → (⟨S50000x128, .f32⟩ : BufTy).Contents (Elt F))
  :: StableHlo.nullary main_cst_10 (constant S_ .f32 0x3727C5AC#32)
  :: StableHlo.unary main_cst_10 main_v92 (broadcastInDim S128 ![] bcast_S_S128 : (⟨S_, .f32⟩ : BufTy).Contents (Elt F) → (⟨S128, .f32⟩ : BufTy).Contents (Elt F))
  :: StableHlo.binary main_v85 main_v92 main_v93 (addf : (⟨S128, .f32⟩ : BufTy).Contents (Elt F) → (⟨S128, .f32⟩ : BufTy).Contents (Elt F) → (⟨S128, .f32⟩ : BufTy).Contents (Elt F))
  :: StableHlo.unary main_v93 main_v94 (Host.rsqrt : (⟨S128, .f32⟩ : BufTy).Contents (Elt F) → (⟨S128, .f32⟩ : BufTy).Contents (Elt F))
  :: StableHlo.unary main_v94 main_v95 (broadcastInDim S1x128 ![1] bcast_S128_S1x128_1 : (⟨S128, .f32⟩ : BufTy).Contents (Elt F) → (⟨S1x128, .f32⟩ : BufTy).Contents (Elt F))
  :: StableHlo.unary main_v95 main_v96 (broadcastInDim S50000x128 ![0, 1] bcast_S1x128_S50000x128_0_1 : (⟨S1x128, .f32⟩ : BufTy).Contents (Elt F) → (⟨S50000x128, .f32⟩ : BufTy).Contents (Elt F))
  :: StableHlo.binary main_v91 main_v96 main_v97 (mulf : (⟨S50000x128, .f32⟩ : BufTy).Contents (Elt F) → (⟨S50000x128, .f32⟩ : BufTy).Contents (Elt F) → (⟨S50000x128, .f32⟩ : BufTy).Contents (Elt F))
  :: StableHlo.unary main_v81 main_v98 (broadcastInDim S1x128 ![1] bcast_S128_S1x128_1 : (⟨S128, .f32⟩ : BufTy).Contents (Elt F) → (⟨S1x128, .f32⟩ : BufTy).Contents (Elt F))
  :: StableHlo.unary main_v98 main_v99 (broadcastInDim S50000x128 ![0, 1] bcast_S1x128_S50000x128_0_1 : (⟨S1x128, .f32⟩ : BufTy).Contents (Elt F) → (⟨S50000x128, .f32⟩ : BufTy).Contents (Elt F))
  :: StableHlo.binary main_v97 main_v99 main_v100 (addf : (⟨S50000x128, .f32⟩ : BufTy).Contents (Elt F) → (⟨S50000x128, .f32⟩ : BufTy).Contents (Elt F) → (⟨S50000x128, .f32⟩ : BufTy).Contents (Elt F))
  :: StableHlo.TRef.nullary main_call2.cst (constant S_ .f32 0x00000000#32)
  :: StableHlo.TRef.unary main_call2.cst main_call2.v0 (broadcastInDim S50000x128 ![] bcast_S_S50000x128)
  :: StableHlo.TRef.binary (.of main_v100) main_call2.v0 main_call2.v1 maximumf
  :: StableHlo.unary main_arg4 main_v102 ((extractStridedSlice S1x4x128x128 ![1, 0, 0, 0] · slices_S3x4x128x128_S1x4x128x128_1_0_0_0) : (⟨S3x4x128x128, .f32⟩ : BufTy).Contents (Elt F) → (⟨S1x4x128x128, .f32⟩ : BufTy).Contents (Elt F))
  :: StableHlo.reshape main_v102 main_v103 rfl shapeCasts_S1x4x128x128_S4x128x128
  :: StableHlo.unary main_arg5 main_v104 ((extractStridedSlice S1x4x128 ![1, 0, 0] · slices_S3x4x128_S1x4x128_1_0_0) : (⟨S3x4x128, .f32⟩ : BufTy).Contents (Elt F) → (⟨S1x4x128, .f32⟩ : BufTy).Contents (Elt F))
  :: StableHlo.reshape main_v104 main_v105 rfl shapeCasts_S1x4x128_S4x128
  :: StableHlo.unary main_v103 main_v106 ((extractStridedSlice S1x128x128 ![0, 0, 0] · slices_S4x128x128_S1x128x128_0_0_0) : (⟨S4x128x128, .f32⟩ : BufTy).Contents (Elt F) → (⟨S1x128x128, .f32⟩ : BufTy).Contents (Elt F))
  :: [] )

/-- Every operation of the list touches TensorCore references only. -/
theorem ops1_sub : (ops1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub ..⟩

/-- The operations leave nothing undetermined: none of them is an allocation. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window is the straight line of its operations: a callee's definition unfolded at its call and the record at
    its fields, both sides are one right-nested chain of the same steps (the window ends in its last operation's step, which is that step followed by the empty return), so the
    equation holds by unfolding alone. -/
theorem main_part1_eq (c : Dev nD) : main_part1 (F := F) c = StableHlo.seq ops1 := by
  chain_rfl

/-- The 83 buffers the window's operations write, one each, in order. -/
abbrev ops1_W : List (Ref sig .tc) :=
  [main_v55, main_cst_3, main_v56, main_v57, main_c_4, main_v58, main_v59, main_c_5, main_v60, main_v61, main_v62, main_v63, main_v64, main_v65, main_cst_6, main_v66, main_v67, main_v68, main_v69, main_v70, main_v71, main_v72, main_v73, main_v74, main_v75, main_v76, main_v77, main_v78, main_v79, main_v80, main_v81, main_cst_7, main_v82, main_cst_8, main_v83, main_v84, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v85, main_v86, main_v87, main_v88, main_v89, main_v90, main_v91, main_cst_10, main_v92, main_v93, main_v94, main_v95, main_v96, main_v97, main_v98, main_v99, main_v100, main_call2_cst, main_call2_v0, main_v101, main_v102, main_v103, main_v104, main_v105, main_v106]

/-- Each operation writes its one result buffer, which is in the list. -/
theorem ops1_writes : (ops1 : List (HloOp τ sig (Elt F))).Forall fun op =>
    op.writes ⊆ (ops1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the window does not write keeps its contents through it. -/
theorem keep1 (V : Valuation τ sig (Elt F)) (r : Ref sig .tc) (h : r ∉ ops1_W) :
    StableHlo.after ops1 V (Proc.devRef .tc r) = V (Proc.devRef .tc r) :=
  StableHlo.after_of_writes_sub ops1 V ops1_writes h

end Cert.ReferenceIdeal.Hand

end
-- ==== Proof.Ref.Ops2.lean ====
import proofs.«180311_j29308856828500_2_alg».proof.Proof.Gen.ReferenceIdeal
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Statements 121 … 180 of @main as the list of their 60 operations, in order: a call stands as the
    callee's own operations over the buffers that call names (its record), the operands in place of the
    callee's arguments. -/
abbrev ops2 : List (HloOp τ sig (Elt F)) :=
  ( StableHlo.reshape main_v106 main_v107 rfl shapeCasts_S1x128x128_S128x128
  :: StableHlo.binary main_v101 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v109 ((extractStridedSlice S1x128 ![0, 0] · slices_S4x128_S1x128_0_0) : (⟨S4x128, .f32⟩ : BufTy).Contents (Elt F) → (⟨S1x128, .f32⟩ : BufTy).Contents (Elt F))
  :: StableHlo.reshape main_v109 main_v110 rfl shapeCasts_S1x128_S128
  :: StableHlo.unary main_v110 main_v111 (broadcastInDim S1x128 ![1] bcast_S128_S1x128_1 : (⟨S128, .f32⟩ : BufTy).Contents (Elt F) → (⟨S1x128, .f32⟩ : BufTy).Contents (Elt F))
  :: StableHlo.unary main_v111 main_v112 (broadcastInDim S50000x128 ![0, 1] bcast_S1x128_S50000x128_0_1 : (⟨S1x128, .f32⟩ : BufTy).Contents (Elt F) → (⟨S50000x128, .f32⟩ : BufTy).Contents (Elt F))
  :: StableHlo.binary main_v108 main_v112 main_v113 (addf : (⟨S50000x128, .f32⟩ : BufTy).Contents (Elt F) → (⟨S50000x128, .f32⟩ : BufTy).Contents (Elt F) → (⟨S50000x128, .f32⟩ : BufTy).Contents (Elt F))
  :: StableHlo.unary main_v103 main_v114 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v114 main_v115 rfl shapeCasts_S1x128x128_S128x128
  :: StableHlo.binary main_v101 main_v115 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v117 ((extractStridedSlice S1x128 ![1, 0] · slices_S4x128_S1x128_1_0) : (⟨S4x128, .f32⟩ : BufTy).Contents (Elt F) → (⟨S1x128, .f32⟩ : BufTy).Contents (Elt F))
  :: StableHlo.reshape main_v117 main_v118 rfl shapeCasts_S1x128_S128
  :: StableHlo.unary main_v118 main_v119 (broadcastInDim S1x128 ![1] bcast_S128_S1x128_1 : (⟨S128, .f32⟩ : BufTy).Contents (Elt F) → (⟨S1x128, .f32⟩ : BufTy).Contents (Elt F))
  :: StableHlo.unary main_v119 main_v120 (broadcastInDim S50000x128 ![0, 1] bcast_S1x128_S50000x128_0_1 : (⟨S1x128, .f32⟩ : BufTy).Contents (Elt F) → (⟨S50000x128, .f32⟩ : BufTy).Contents (Elt F))
  :: StableHlo.binary main_v116 main_v120 main_v121 (addf : (⟨S50000x128, .f32⟩ : BufTy).Contents (Elt F) → (⟨S50000x128, .f32⟩ : BufTy).Contents (Elt F) → (⟨S50000x128, .f32⟩ : BufTy).Contents (Elt F))
  :: StableHlo.unary main_v103 main_v122 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v122 main_v123 rfl shapeCasts_S1x128x128_S128x128
  :: StableHlo.binary main_v101 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v125 ((extractStridedSlice S1x128 ![2, 0] · slices_S4x128_S1x128_2_0) : (⟨S4x128, .f32⟩ : BufTy).Contents (Elt F) → (⟨S1x128, .f32⟩ : BufTy).Contents (Elt F))
  :: StableHlo.reshape main_v125 main_v126 rfl shapeCasts_S1x128_S128
  :: StableHlo.unary main_v126 main_v127 (broadcastInDim S1x128 ![1] bcast_S128_S1x128_1 : (⟨S128, .f32⟩ : BufTy).Contents (Elt F) → (⟨S1x128, .f32⟩ : BufTy).Contents (Elt F))
  :: StableHlo.unary main_v127 main_v128 (broadcastInDim S50000x128 ![0, 1] bcast_S1x128_S50000x128_0_1 : (⟨S1x128, .f32⟩ : BufTy).Contents (Elt F) → (⟨S50000x128, .f32⟩ : BufTy).Contents (Elt F))
  :: StableHlo.binary main_v124 main_v128 main_v129 (addf : (⟨S50000x128, .f32⟩ : BufTy).Contents (Elt F) → (⟨S50000x128, .f32⟩ : BufTy).Contents (Elt F) → (⟨S50000x128, .f32⟩ : BufTy).Contents (Elt F))
  :: StableHlo.nullary main_c_11 (constantI S_ 32 0#32)
  :: StableHlo.unary main_c_11 main_v130 (broadcastInDim S600000 ![] bcast_S_S600000 : (⟨S_, .i32⟩ : BufTy).Contents (Elt F) → (⟨S600000, .i32⟩ : BufTy).Contents (Elt F))
  :: StableHlo.binary main_v3 main_v130 main_v131 (cmpi .slt : (⟨S600000, .i32⟩ : BufTy).Contents (Elt F) → (⟨S600000, .i32⟩ : BufTy).Contents (Elt F) → (⟨S600000, .i1⟩ : BufTy).Contents (Elt F))
  :: StableHlo.nullary main_c_12 (constantI S_ 32 50000#32)
  :: StableHlo.unary main_c_12 main_v132 (broadcastInDim S600000 ![] bcast_S_S600000 : (⟨S_, .i32⟩ : BufTy).Contents (Elt F) → (⟨S600000, .i32⟩ : BufTy).Contents (Elt F))
  :: StableHlo.binary main_v3 main_v132 main_v133 (addi : (⟨S600000, .i32⟩ : BufTy).Contents (Elt F) → (⟨S600000, .i32⟩ : BufTy).Contents (Elt F) → (⟨S600000, .i32⟩ : BufTy).Contents (Elt F))
  :: StableHlo.ternary main_v131 main_v133 main_v3 main_v134 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v134 main_v135 (broadcastInDim S600000x1 ![0] bcast_S600000_S600000x1_0 : (⟨S600000, .i32⟩ : BufTy).Contents (Elt F) → (⟨S600000x1, .i32⟩ : BufTy).Contents (Elt F))
  :: StableHlo.binary main_v113 main_v135 main_v136 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.nullary main_c_13 (constantI S_ 32 0#32)
  :: StableHlo.unary main_c_13 main_v137 (broadcastInDim S600000 ![] bcast_S_S600000 : (⟨S_, .i32⟩ : BufTy).Contents (Elt F) → (⟨S600000, .i32⟩ : BufTy).Contents (Elt F))
  :: StableHlo.binary main_v1 main_v137 main_v138 (cmpi .slt : (⟨S600000, .i32⟩ : BufTy).Contents (Elt F) → (⟨S600000, .i32⟩ : BufTy).Contents (Elt F) → (⟨S600000, .i1⟩ : BufTy).Contents (Elt F))
  :: StableHlo.nullary main_c_14 (constantI S_ 32 50000#32)
  :: StableHlo.unary main_c_14 main_v139 (broadcastInDim S600000 ![] bcast_S_S600000 : (⟨S_, .i32⟩ : BufTy).Contents (Elt F) → (⟨S600000, .i32⟩ : BufTy).Contents (Elt F))
  :: StableHlo.binary main_v1 main_v139 main_v140 (addi : (⟨S600000, .i32⟩ : BufTy).Contents (Elt F) → (⟨S600000, .i32⟩ : BufTy).Contents (Elt F) → (⟨S600000, .i32⟩ : BufTy).Contents (Elt F))
  :: StableHlo.ternary main_v138 main_v140 main_v1 main_v141 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v141 main_v142 (broadcastInDim S600000x1 ![0] bcast_S600000_S600000x1_0 : (⟨S600000, .i32⟩ : BufTy).Contents (Elt F) → (⟨S600000x1, .i32⟩ : BufTy).Contents (Elt F))
  :: StableHlo.binary main_v121 main_v142 main_v143 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v136 main_v143 main_v144 (addf : (⟨S600000x128, .f32⟩ : BufTy).Contents (Elt F) → (⟨S600000x128, .f32⟩ : BufTy).Contents (Elt F) → (⟨S600000x128, .f32⟩ : BufTy).Contents (Elt F))
  :: StableHlo.unary main_v144 main_v145 (Host.negf : (⟨S600000x128, .f32⟩ : BufTy).Contents (Elt F) → (⟨S600000x128, .f32⟩ : BufTy).Contents (Elt F))
  :: StableHlo.unary main_v145 main_v146 (Host.exp : (⟨S600000x128, .f32⟩ : BufTy).Contents (Elt F) → (⟨S600000x128, .f32⟩ : BufTy).Contents (Elt F))
  :: StableHlo.nullary main_cst_15 (constant S_ .f32 0x3F800000#32)
  :: StableHlo.unary main_cst_15 main_v147 (broadcastInDim S600000x128 ![] bcast_S_S600000x128 : (⟨S_, .f32⟩ : BufTy).Contents (Elt F) → (⟨S600000x128, .f32⟩ : BufTy).Contents (Elt F))
  :: StableHlo.binary main_v147 main_v146 main_v148 (addf : (⟨S600000x128, .f32⟩ : BufTy).Contents (Elt F) → (⟨S600000x128, .f32⟩ : BufTy).Contents (Elt F) → (⟨S600000x128, .f32⟩ : BufTy).Contents (Elt F))
  :: StableHlo.nullary main_cst_16 (constant S_ .f32 0x3F800000#32)
  :: StableHlo.unary main_cst_16 main_v149 (broadcastInDim S600000x128 ![] bcast_S_S600000x128 : (⟨S_, .f32⟩ : BufTy).Contents (Elt F) → (⟨S600000x128, .f32⟩ : BufTy).Contents (Elt F))
  :: StableHlo.binary main_v149 main_v148 main_v150 (Host.divf : (⟨S600000x128, .f32⟩ : BufTy).Contents (Elt F) → (⟨S600000x128, .f32⟩ : BufTy).Contents (Elt F) → (⟨S600000x128, .f32⟩ : BufTy).Contents (Elt F))
  :: StableHlo.nullary main_c_17 (constantI S_ 32 0#32)
  :: StableHlo.unary main_c_17 main_v151 (broadcastInDim S600000 ![] bcast_S_S600000 : (⟨S_, .i32⟩ : BufTy).Contents (Elt F) → (⟨S600000, .i32⟩ : BufTy).Contents (Elt F))
  :: StableHlo.binary main_v1 main_v151 main_v152 (cmpi .slt : (⟨S600000, .i32⟩ : BufTy).Contents (Elt F) → (⟨S600000, .i32⟩ : BufTy).Contents (Elt F) → (⟨S600000, .i1⟩ : BufTy).Contents (Elt F))
  :: StableHlo.nullary main_c_18 (constantI S_ 32 50000#32)
  :: StableHlo.unary main_c_18 main_v153 (broadcastInDim S600000 ![] bcast_S_S600000 : (⟨S_, .i32⟩ : BufTy).Contents (Elt F) → (⟨S600000, .i32⟩ : BufTy).Contents (Elt F))
  :: StableHlo.binary main_v1 main_v153 main_v154 (addi : (⟨S600000, .i32⟩ : BufTy).Contents (Elt F) → (⟨S600000, .i32⟩ : BufTy).Contents (Elt F) → (⟨S600000, .i32⟩ : BufTy).Contents (Elt F))
  :: StableHlo.ternary main_v152 main_v154 main_v1 main_v155 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v155 main_v156 (broadcastInDim S600000x1 ![0] bcast_S600000_S600000x1_0 : (⟨S600000, .i32⟩ : BufTy).Contents (Elt F) → (⟨S600000x1, .i32⟩ : BufTy).Contents (Elt F))
  :: StableHlo.binary main_v129 main_v156 main_v157 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v150 main_v157 main_v158 (mulf : (⟨S600000x128, .f32⟩ : BufTy).Contents (Elt F) → (⟨S600000x128, .f32⟩ : BufTy).Contents (Elt F) → (⟨S600000x128, .f32⟩ : BufTy).Contents (Elt F))
  :: [] )

/-- Every operation of the list touches TensorCore references only. -/
theorem ops2_sub : (ops2 : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- The operations leave nothing undetermined: none of them is an allocation. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window is the straight line of its operations: a callee's definition unfolded at its call and the record at
    its fields, both sides are one right-nested chain of the same steps (the window ends in its last operation's step, which is that step followed by the empty return), so the
    equation holds by unfolding alone. -/
theorem main_part2_eq (c : Dev nD) : main_part2 (F := F) c = StableHlo.seq ops2 := by
  chain_rfl

/-- The 60 buffers the window's operations write, one each, in order. -/
abbrev ops2_W : List (Ref sig .tc) :=
  [main_v107, main_v108, main_v109, main_v110, main_v111, main_v112, main_v113, main_v114, main_v115, main_v116, main_v117, main_v118, main_v119, main_v120, main_v121, main_v122, main_v123, main_v124, main_v125, main_v126, main_v127, main_v128, main_v129, main_c_11, main_v130, main_v131, main_c_12, main_v132, main_v133, main_v134, main_v135, main_v136, main_c_13, main_v137, main_v138, main_c_14, main_v139, main_v140, main_v141, main_v142, main_v143, main_v144, main_v145, main_v146, main_cst_15, main_v147, main_v148, main_cst_16, main_v149, main_v150, main_c_17, main_v151, main_v152, main_c_18, main_v153, main_v154, main_v155, main_v156, main_v157, main_v158]

/-- Each operation writes its one result buffer, which is in the list. -/
theorem ops2_writes : (ops2 : List (HloOp τ sig (Elt F))).Forall fun op =>
    op.writes ⊆ (ops2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the window does not write keeps its contents through it. -/
theorem keep2 (V : Valuation τ sig (Elt F)) (r : Ref sig .tc) (h : r ∉ ops2_W) :
    StableHlo.after ops2 V (Proc.devRef .tc r) = V (Proc.devRef .tc r) :=
  StableHlo.after_of_writes_sub ops2 V ops2_writes h

end Cert.ReferenceIdeal.Hand

end
-- ==== Proof.Ref.Ops3.lean ====
import proofs.«180311_j29308856828500_2_alg».proof.Proof.Gen.ReferenceIdeal
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Statements 181 … 240 of @main as the list of their 83 operations, in order: a call stands as the
    callee's own operations over the buffers that call names (its record), the operands in place of the
    callee's arguments. -/
abbrev ops3 : List (HloOp τ sig (Elt F)) :=
  ( StableHlo.nullary main_cst_19 (constant S_ .f32 0x00000000#32)
  :: StableHlo.unary main_cst_19 main_v159 (broadcastInDim S50000x128 ![] bcast_S_S50000x128 : (⟨S_, .f32⟩ : BufTy).Contents (Elt F) → (⟨S50000x128, .f32⟩ : BufTy).Contents (Elt F))
  :: StableHlo.unary main_v3 main_v160 (broadcastInDim S600000x1 ![0] bcast_S600000_S600000x1_0 : (⟨S600000, .i32⟩ : BufTy).Contents (Elt F) → (⟨S600000x1, .i32⟩ : BufTy).Contents (Elt F))
  :: StableHlo.ternary main_v159 main_v160 main_v158 main_v161 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))
  :: StableHlo.unary main_v103 main_v162 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v162 main_v163 rfl shapeCasts_S1x128x128_S128x128
  :: StableHlo.binary main_v101 main_v163 main_v164 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v165 ((extractStridedSlice S1x128 ![3, 0] · slices_S4x128_S1x128_3_0) : (⟨S4x128, .f32⟩ : BufTy).Contents (Elt F) → (⟨S1x128, .f32⟩ : BufTy).Contents (Elt F))
  :: StableHlo.reshape main_v165 main_v166 rfl shapeCasts_S1x128_S128
  :: StableHlo.unary main_v166 main_v167 (broadcastInDim S1x128 ![1] bcast_S128_S1x128_1 : (⟨S128, .f32⟩ : BufTy).Contents (Elt F) → (⟨S1x128, .f32⟩ : BufTy).Contents (Elt F))
  :: StableHlo.unary main_v167 main_v168 (broadcastInDim S50000x128 ![0, 1] bcast_S1x128_S50000x128_0_1 : (⟨S1x128, .f32⟩ : BufTy).Contents (Elt F) → (⟨S50000x128, .f32⟩ : BufTy).Contents (Elt F))
  :: StableHlo.binary main_v164 main_v168 main_v169 (addf : (⟨S50000x128, .f32⟩ : BufTy).Contents (Elt F) → (⟨S50000x128, .f32⟩ : BufTy).Contents (Elt F) → (⟨S50000x128, .f32⟩ : BufTy).Contents (Elt F))
  :: StableHlo.binary main_v169 main_v161 main_v170 (addf : (⟨S50000x128, .f32⟩ : BufTy).Contents (Elt F) → (⟨S50000x128, .f32⟩ : BufTy).Contents (Elt F) → (⟨S50000x128, .f32⟩ : BufTy).Contents (Elt F))
  :: StableHlo.unary main_arg6 main_v171 ((extractStridedSlice S1x128 ![1, 0] · slices_S3x128_S1x128_1_0) : (⟨S3x128, .f32⟩ : BufTy).Contents (Elt F) → (⟨S1x128, .f32⟩ : BufTy).Contents (Elt F))
  :: StableHlo.reshape main_v171 main_v172 rfl shapeCasts_S1x128_S128
  :: StableHlo.unary main_arg7 main_v173 ((extractStridedSlice S1x128 ![1, 0] · slices_S3x128_S1x128_1_0) : (⟨S3x128, .f32⟩ : BufTy).Contents (Elt F) → (⟨S1x128, .f32⟩ : BufTy).Contents (Elt F))
  :: StableHlo.reshape main_v173 main_v174 rfl shapeCasts_S1x128_S128
  :: StableHlo.nullary main_cst_20 (constant S_ .f32 0x00000000#32)
  :: StableHlo.binary main_v170 main_cst_20 main_v175 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_21 (constant S_ .f32 0x47435000#32)
  :: StableHlo.unary main_cst_21 main_v176 (broadcastInDim S128 ![] bcast_S_S128 : (⟨S_, .f32⟩ : BufTy).Contents (Elt F) → (⟨S128, .f32⟩ : BufTy).Contents (Elt F))
  :: StableHlo.binary main_v175 main_v176 main_v177 (Host.divf : (⟨S128, .f32⟩ : BufTy).Contents (Elt F) → (⟨S128, .f32⟩ : BufTy).Contents (Elt F) → (⟨S128, .f32⟩ : BufTy).Contents (Elt F))
  :: StableHlo.nullary main_c_22 (constantI S_ 32 0#32)
  :: StableHlo.TRef.nullary main_call3.cst (constant S_ .f32 0x00000000#32)
  :: StableHlo.TRef.binary (.of main_v170) main_call3.cst main_call3.v0 (fun x v => Host.reduceAdd x v reducesTo_S50000x128_S128_d0 h_S_)
  :: StableHlo.TRef.unary main_call3.v0 main_call3.v1 (broadcastInDim S1x128 ![1] bcast_S128_S1x128_1)
  :: StableHlo.TRef.nullary main_call3.cst_0 (constant S_ .f32 0x47435000#32)
  :: StableHlo.TRef.unary main_call3.cst_0 main_call3.v2 (broadcastInDim S1x128 ![] bcast_S_S1x128)
  :: StableHlo.TRef.binary main_call3.v1 main_call3.v2 main_call3.v3 Host.divf
  :: StableHlo.TRef.unary main_call3.v3 main_call3.v4 (broadcastInDim S50000x128 ![0, 1] bcast_S1x128_S50000x128_0_1)
  :: StableHlo.TRef.binary (.of main_v170) main_call3.v4 main_call3.v5 subf
  :: StableHlo.TRef.binary main_call3.v5 main_call3.v5 main_call3.v6 mulf
  :: StableHlo.TRef.unary (.of main_c_22) main_call3.v7 (sitofp .f32)
  :: StableHlo.TRef.nullary main_call3.cst_1 (constant S_ .f32 0x47435000#32)
  :: StableHlo.TRef.binary main_call3.cst_1 main_call3.v7 main_call3.v8 subf
  :: StableHlo.TRef.nullary main_call3.cst_2 (constant S_ .f32 0x00000000#32)
  :: StableHlo.TRef.binary main_call3.v6 main_call3.cst_2 main_call3.v9 (fun x v => Host.reduceAdd x v reducesTo_S50000x128_S128_d0 h_S_)
  :: StableHlo.TRef.unary main_call3.v8 main_call3.v10 (broadcastInDim S128 ![] bcast_S_S128)
  :: StableHlo.TRef.binary main_call3.v9 main_call3.v10 main_call3.v11 Host.divf
  :: StableHlo.TRef.nullary main_call3.cst_3 (constant S_ .f32 0x00000000#32)
  :: StableHlo.TRef.binary main_call3.v8 main_call3.cst_3 main_call3.v12 (cmpf .ogt)
  :: StableHlo.TRef.nullary main_call3.cst_4 (constant S_ .f32 0x7FC00000#32)
  :: StableHlo.TRef.unary main_call3.cst_4 main_call3.call0.v0 id
  :: StableHlo.TRef.unary main_call3.call0.v0 main_call3.call0.v1 (broadcastInDim S128 ![] bcast_S_S128)
  :: StableHlo.TRef.ternary main_call3.v12 main_call3.v11 main_call3.call0.v1 main_call3.call0.v2 (fun p a b => select (broadcastInDim S128 ![] bcast_S_S128 p) a b)
  :: StableHlo.unary main_v177 main_v179 (broadcastInDim S1x128 ![1] bcast_S128_S1x128_1 : (⟨S128, .f32⟩ : BufTy).Contents (Elt F) → (⟨S1x128, .f32⟩ : BufTy).Contents (Elt F))
  :: StableHlo.unary main_v179 main_v180 (broadcastInDim S50000x128 ![0, 1] bcast_S1x128_S50000x128_0_1 : (⟨S1x128, .f32⟩ : BufTy).Contents (Elt F) → (⟨S50000x128, .f32⟩ : BufTy).Contents (Elt F))
  :: StableHlo.binary main_v170 main_v180 main_v181 (subf : (⟨S50000x128, .f32⟩ : BufTy).Contents (Elt F) → (⟨S50000x128, .f32⟩ : BufTy).Contents (Elt F) → (⟨S50000x128, .f32⟩ : BufTy).Contents (Elt F))
  :: StableHlo.unary main_v172 main_v182 (broadcastInDim S1x128 ![1] bcast_S128_S1x128_1 : (⟨S128, .f32⟩ : BufTy).Contents (Elt F) → (⟨S1x128, .f32⟩ : BufTy).Contents (Elt F))
  :: StableHlo.unary main_v182 main_v183 (broadcastInDim S50000x128 ![0, 1] bcast_S1x128_S50000x128_0_1 : (⟨S1x128, .f32⟩ : BufTy).Contents (Elt F) → (⟨S50000x128, .f32⟩ : BufTy).Contents (Elt F))
  :: StableHlo.binary main_v183 main_v181 main_v184 (mulf : (⟨S50000x128, .f32⟩ : BufTy).Contents (Elt F) → (⟨S50000x128, .f32⟩ : BufTy).Contents (Elt F) → (⟨S50000x128, .f32⟩ : BufTy).Contents (Elt F))
  :: StableHlo.nullary main_cst_23 (constant S_ .f32 0x3727C5AC#32)
  :: StableHlo.unary main_cst_23 main_v185 (broadcastInDim S128 ![] bcast_S_S128 : (⟨S_, .f32⟩ : BufTy).Contents (Elt F) → (⟨S128, .f32⟩ : BufTy).Contents (Elt F))
  :: StableHlo.binary main_v178 main_v185 main_v186 (addf : (⟨S128, .f32⟩ : BufTy).Contents (Elt F) → (⟨S128, .f32⟩ : BufTy).Contents (Elt F) → (⟨S128, .f32⟩ : BufTy).Contents (Elt F))
  :: StableHlo.unary main_v186 main_v187 (Host.rsqrt : (⟨S128, .f32⟩ : BufTy).Contents (Elt F) → (⟨S128, .f32⟩ : BufTy).Contents (Elt F))
  :: StableHlo.unary main_v187 main_v188 (broadcastInDim S1x128 ![1] bcast_S128_S1x128_1 : (⟨S128, .f32⟩ : BufTy).Contents (Elt F) → (⟨S1x128, .f32⟩ : BufTy).Contents (Elt F))
  :: StableHlo.unary main_v188 main_v189 (broadcastInDim S50000x128 ![0, 1] bcast_S1x128_S50000x128_0_1 : (⟨S1x128, .f32⟩ : BufTy).Contents (Elt F) → (⟨S50000x128, .f32⟩ : BufTy).Contents (Elt F))
  :: StableHlo.binary main_v184 main_v189 main_v190 (mulf : (⟨S50000x128, .f32⟩ : BufTy).Contents (Elt F) → (⟨S50000x128, .f32⟩ : BufTy).Contents (Elt F) → (⟨S50000x128, .f32⟩ : BufTy).Contents (Elt F))
  :: StableHlo.unary main_v174 main_v191 (broadcastInDim S1x128 ![1] bcast_S128_S1x128_1 : (⟨S128, .f32⟩ : BufTy).Contents (Elt F) → (⟨S1x128, .f32⟩ : BufTy).Contents (Elt F))
  :: StableHlo.unary main_v191 main_v192 (broadcastInDim S50000x128 ![0, 1] bcast_S1x128_S50000x128_0_1 : (⟨S1x128, .f32⟩ : BufTy).Contents (Elt F) → (⟨S50000x128, .f32⟩ : BufTy).Contents (Elt F))
  :: StableHlo.binary main_v190 main_v192 main_v193 (addf : (⟨S50000x128, .f32⟩ : BufTy).Contents (Elt F) → (⟨S50000x128, .f32⟩ : BufTy).Contents (Elt F) → (⟨S50000x128, .f32⟩ : BufTy).Contents (Elt F))
  :: StableHlo.TRef.nullary main_call4.cst (constant S_ .f32 0x00000000#32)
  :: StableHlo.TRef.unary main_call4.cst main_call4.v0 (broadcastInDim S50000x128 ![] bcast_S_S50000x128)
  :: StableHlo.TRef.binary (.of main_v193) main_call4.v0 main_call4.v1 maximumf
  :: StableHlo.unary main_arg4 main_v195 ((extractStridedSlice S1x4x128x128 ![2, 0, 0, 0] · slices_S3x4x128x128_S1x4x128x128_2_0_0_0) : (⟨S3x4x128x128, .f32⟩ : BufTy).Contents (Elt F) → (⟨S1x4x128x128, .f32⟩ : BufTy).Contents (Elt F))
  :: StableHlo.reshape main_v195 main_v196 rfl shapeCasts_S1x4x128x128_S4x128x128
  :: StableHlo.unary main_arg5 main_v197 ((extractStridedSlice S1x4x128 ![2, 0, 0] · slices_S3x4x128_S1x4x128_2_0_0) : (⟨S3x4x128, .f32⟩ : BufTy).Contents (Elt F) → (⟨S1x4x128, .f32⟩ : BufTy).Contents (Elt F))
  :: StableHlo.reshape main_v197 main_v198 rfl shapeCasts_S1x4x128_S4x128
  :: StableHlo.unary main_v196 main_v199 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v199 main_v200 rfl shapeCasts_S1x128x128_S128x128
  :: StableHlo.binary main_v194 main_v200 main_v201 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v202 ((extractStridedSlice S1x128 ![0, 0] · slices_S4x128_S1x128_0_0) : (⟨S4x128, .f32⟩ : BufTy).Contents (Elt F) → (⟨S1x128, .f32⟩ : BufTy).Contents (Elt F))
  :: StableHlo.reshape main_v202 main_v203 rfl shapeCasts_S1x128_S128
  :: StableHlo.unary main_v203 main_v204 (broadcastInDim S1x128 ![1] bcast_S128_S1x128_1 : (⟨S128, .f32⟩ : BufTy).Contents (Elt F) → (⟨S1x128, .f32⟩ : BufTy).Contents (Elt F))
  :: StableHlo.unary main_v204 main_v205 (broadcastInDim S50000x128 ![0, 1] bcast_S1x128_S50000x128_0_1 : (⟨S1x128, .f32⟩ : BufTy).Contents (Elt F) → (⟨S50000x128, .f32⟩ : BufTy).Contents (Elt F))
  :: StableHlo.binary main_v201 main_v205 main_v206 (addf : (⟨S50000x128, .f32⟩ : BufTy).Contents (Elt F) → (⟨S50000x128, .f32⟩ : BufTy).Contents (Elt F) → (⟨S50000x128, .f32⟩ : BufTy).Contents (Elt F))
  :: StableHlo.unary main_v196 main_v207 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v207 main_v208 rfl shapeCasts_S1x128x128_S128x128
  :: StableHlo.binary main_v194 main_v208 main_v209 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v210 ((extractStridedSlice S1x128 ![1, 0] · slices_S4x128_S1x128_1_0) : (⟨S4x128, .f32⟩ : BufTy).Contents (Elt F) → (⟨S1x128, .f32⟩ : BufTy).Contents (Elt F))
  :: StableHlo.reshape main_v210 main_v211 rfl shapeCasts_S1x128_S128
  :: StableHlo.unary main_v211 main_v212 (broadcastInDim S1x128 ![1] bcast_S128_S1x128_1 : (⟨S128, .f32⟩ : BufTy).Contents (Elt F) → (⟨S1x128, .f32⟩ : BufTy).Contents (Elt F))
  :: StableHlo.unary main_v212 main_v213 (broadcastInDim S50000x128 ![0, 1] bcast_S1x128_S50000x128_0_1 : (⟨S1x128, .f32⟩ : BufTy).Contents (Elt F) → (⟨S50000x128, .f32⟩ : BufTy).Contents (Elt F))
  :: [] )

/-- Every operation of the list touches TensorCore references only. -/
theorem ops3_sub : (ops3 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub ..⟩

/-- The operations leave nothing undetermined: none of them is an allocation. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window is the straight line of its operations: a callee's definition unfolded at its call and the record at
    its fields, both sides are one right-nested chain of the same steps (the window ends in its last operation's step, which is that step followed by the empty return), so the
    equation holds by unfolding alone. -/
theorem main_part3_eq (c : Dev nD) : main_part3 (F := F) c = StableHlo.seq ops3 := by
  chain_rfl

/-- The 83 buffers the window's operations write, one each, in order. -/
abbrev ops3_W : List (Ref sig .tc) :=
  [main_cst_19, main_v159, main_v160, main_v161, main_v162, main_v163, main_v164, main_v165, main_v166, main_v167, main_v168, main_v169, main_v170, main_v171, main_v172, main_v173, main_v174, main_cst_20, main_v175, main_cst_21, main_v176, main_v177, main_c_22, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v178, main_v179, main_v180, main_v181, main_v182, main_v183, main_v184, main_cst_23, main_v185, main_v186, main_v187, main_v188, main_v189, main_v190, main_v191, main_v192, main_v193, main_call4_cst, main_call4_v0, main_v194, main_v195, main_v196, main_v197, main_v198, main_v199, main_v200, main_v201, main_v202, main_v203, main_v204, main_v205, main_v206, main_v207, main_v208, main_v209, main_v210, main_v211, main_v212, main_v213]

/-- Each operation writes its one result buffer, which is in the list. -/
theorem ops3_writes : (ops3 : List (HloOp τ sig (Elt F))).Forall fun op =>
    op.writes ⊆ (ops3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the window does not write keeps its contents through it. -/
theorem keep3 (V : Valuation τ sig (Elt F)) (r : Ref sig .tc) (h : r ∉ ops3_W) :
    StableHlo.after ops3 V (Proc.devRef .tc r) = V (Proc.devRef .tc r) :=
  StableHlo.after_of_writes_sub ops3 V ops3_writes h

end Cert.ReferenceIdeal.Hand

end
-- ==== Proof.Ref.Ops4.lean ====
import proofs.«180311_j29308856828500_2_alg».proof.Proof.Gen.ReferenceIdeal
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Statements 241 … 300 of @main as the list of their 60 operations, in order: a call stands as the
    callee's own operations over the buffers that call names (its record), the operands in place of the
    callee's arguments. -/
abbrev ops4 : List (HloOp τ sig (Elt F)) :=
  ( StableHlo.binary main_v209 main_v213 main_v214 (addf : (⟨S50000x128, .f32⟩ : BufTy).Contents (Elt F) → (⟨S50000x128, .f32⟩ : BufTy).Contents (Elt F) → (⟨S50000x128, .f32⟩ : BufTy).Contents (Elt F))
  :: StableHlo.unary main_v196 main_v215 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v215 main_v216 rfl shapeCasts_S1x128x128_S128x128
  :: StableHlo.binary main_v194 main_v216 main_v217 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v218 ((extractStridedSlice S1x128 ![2, 0] · slices_S4x128_S1x128_2_0) : (⟨S4x128, .f32⟩ : BufTy).Contents (Elt F) → (⟨S1x128, .f32⟩ : BufTy).Contents (Elt F))
  :: StableHlo.reshape main_v218 main_v219 rfl shapeCasts_S1x128_S128
  :: StableHlo.unary main_v219 main_v220 (broadcastInDim S1x128 ![1] bcast_S128_S1x128_1 : (⟨S128, .f32⟩ : BufTy).Contents (Elt F) → (⟨S1x128, .f32⟩ : BufTy).Contents (Elt F))
  :: StableHlo.unary main_v220 main_v221 (broadcastInDim S50000x128 ![0, 1] bcast_S1x128_S50000x128_0_1 : (⟨S1x128, .f32⟩ : BufTy).Contents (Elt F) → (⟨S50000x128, .f32⟩ : BufTy).Contents (Elt F))
  :: StableHlo.binary main_v217 main_v221 main_v222 (addf : (⟨S50000x128, .f32⟩ : BufTy).Contents (Elt F) → (⟨S50000x128, .f32⟩ : BufTy).Contents (Elt F) → (⟨S50000x128, .f32⟩ : BufTy).Contents (Elt F))
  :: StableHlo.nullary main_c_24 (constantI S_ 32 0#32)
  :: StableHlo.unary main_c_24 main_v223 (broadcastInDim S600000 ![] bcast_S_S600000 : (⟨S_, .i32⟩ : BufTy).Contents (Elt F) → (⟨S600000, .i32⟩ : BufTy).Contents (Elt F))
  :: StableHlo.binary main_v3 main_v223 main_v224 (cmpi .slt : (⟨S600000, .i32⟩ : BufTy).Contents (Elt F) → (⟨S600000, .i32⟩ : BufTy).Contents (Elt F) → (⟨S600000, .i1⟩ : BufTy).Contents (Elt F))
  :: StableHlo.nullary main_c_25 (constantI S_ 32 50000#32)
  :: StableHlo.unary main_c_25 main_v225 (broadcastInDim S600000 ![] bcast_S_S600000 : (⟨S_, .i32⟩ : BufTy).Contents (Elt F) → (⟨S600000, .i32⟩ : BufTy).Contents (Elt F))
  :: StableHlo.binary main_v3 main_v225 main_v226 (addi : (⟨S600000, .i32⟩ : BufTy).Contents (Elt F) → (⟨S600000, .i32⟩ : BufTy).Contents (Elt F) → (⟨S600000, .i32⟩ : BufTy).Contents (Elt F))
  :: StableHlo.ternary main_v224 main_v226 main_v3 main_v227 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v227 main_v228 (broadcastInDim S600000x1 ![0] bcast_S600000_S600000x1_0 : (⟨S600000, .i32⟩ : BufTy).Contents (Elt F) → (⟨S600000x1, .i32⟩ : BufTy).Contents (Elt F))
  :: StableHlo.binary main_v206 main_v228 main_v229 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.nullary main_c_26 (constantI S_ 32 0#32)
  :: StableHlo.unary main_c_26 main_v230 (broadcastInDim S600000 ![] bcast_S_S600000 : (⟨S_, .i32⟩ : BufTy).Contents (Elt F) → (⟨S600000, .i32⟩ : BufTy).Contents (Elt F))
  :: StableHlo.binary main_v1 main_v230 main_v231 (cmpi .slt : (⟨S600000, .i32⟩ : BufTy).Contents (Elt F) → (⟨S600000, .i32⟩ : BufTy).Contents (Elt F) → (⟨S600000, .i1⟩ : BufTy).Contents (Elt F))
  :: StableHlo.nullary main_c_27 (constantI S_ 32 50000#32)
  :: StableHlo.unary main_c_27 main_v232 (broadcastInDim S600000 ![] bcast_S_S600000 : (⟨S_, .i32⟩ : BufTy).Contents (Elt F) → (⟨S600000, .i32⟩ : BufTy).Contents (Elt F))
  :: StableHlo.binary main_v1 main_v232 main_v233 (addi : (⟨S600000, .i32⟩ : BufTy).Contents (Elt F) → (⟨S600000, .i32⟩ : BufTy).Contents (Elt F) → (⟨S600000, .i32⟩ : BufTy).Contents (Elt F))
  :: StableHlo.ternary main_v231 main_v233 main_v1 main_v234 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v234 main_v235 (broadcastInDim S600000x1 ![0] bcast_S600000_S600000x1_0 : (⟨S600000, .i32⟩ : BufTy).Contents (Elt F) → (⟨S600000x1, .i32⟩ : BufTy).Contents (Elt F))
  :: StableHlo.binary main_v214 main_v235 main_v236 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v229 main_v236 main_v237 (addf : (⟨S600000x128, .f32⟩ : BufTy).Contents (Elt F) → (⟨S600000x128, .f32⟩ : BufTy).Contents (Elt F) → (⟨S600000x128, .f32⟩ : BufTy).Contents (Elt F))
  :: StableHlo.unary main_v237 main_v238 (Host.negf : (⟨S600000x128, .f32⟩ : BufTy).Contents (Elt F) → (⟨S600000x128, .f32⟩ : BufTy).Contents (Elt F))
  :: StableHlo.unary main_v238 main_v239 (Host.exp : (⟨S600000x128, .f32⟩ : BufTy).Contents (Elt F) → (⟨S600000x128, .f32⟩ : BufTy).Contents (Elt F))
  :: StableHlo.nullary main_cst_28 (constant S_ .f32 0x3F800000#32)
  :: StableHlo.unary main_cst_28 main_v240 (broadcastInDim S600000x128 ![] bcast_S_S600000x128 : (⟨S_, .f32⟩ : BufTy).Contents (Elt F) → (⟨S600000x128, .f32⟩ : BufTy).Contents (Elt F))
  :: StableHlo.binary main_v240 main_v239 main_v241 (addf : (⟨S600000x128, .f32⟩ : BufTy).Contents (Elt F) → (⟨S600000x128, .f32⟩ : BufTy).Contents (Elt F) → (⟨S600000x128, .f32⟩ : BufTy).Contents (Elt F))
  :: StableHlo.nullary main_cst_29 (constant S_ .f32 0x3F800000#32)
  :: StableHlo.unary main_cst_29 main_v242 (broadcastInDim S600000x128 ![] bcast_S_S600000x128 : (⟨S_, .f32⟩ : BufTy).Contents (Elt F) → (⟨S600000x128, .f32⟩ : BufTy).Contents (Elt F))
  :: StableHlo.binary main_v242 main_v241 main_v243 (Host.divf : (⟨S600000x128, .f32⟩ : BufTy).Contents (Elt F) → (⟨S600000x128, .f32⟩ : BufTy).Contents (Elt F) → (⟨S600000x128, .f32⟩ : BufTy).Contents (Elt F))
  :: StableHlo.nullary main_c_30 (constantI S_ 32 0#32)
  :: StableHlo.unary main_c_30 main_v244 (broadcastInDim S600000 ![] bcast_S_S600000 : (⟨S_, .i32⟩ : BufTy).Contents (Elt F) → (⟨S600000, .i32⟩ : BufTy).Contents (Elt F))
  :: StableHlo.binary main_v1 main_v244 main_v245 (cmpi .slt : (⟨S600000, .i32⟩ : BufTy).Contents (Elt F) → (⟨S600000, .i32⟩ : BufTy).Contents (Elt F) → (⟨S600000, .i1⟩ : BufTy).Contents (Elt F))
  :: StableHlo.nullary main_c_31 (constantI S_ 32 50000#32)
  :: StableHlo.unary main_c_31 main_v246 (broadcastInDim S600000 ![] bcast_S_S600000 : (⟨S_, .i32⟩ : BufTy).Contents (Elt F) → (⟨S600000, .i32⟩ : BufTy).Contents (Elt F))
  :: StableHlo.binary main_v1 main_v246 main_v247 (addi : (⟨S600000, .i32⟩ : BufTy).Contents (Elt F) → (⟨S600000, .i32⟩ : BufTy).Contents (Elt F) → (⟨S600000, .i32⟩ : BufTy).Contents (Elt F))
  :: StableHlo.ternary main_v245 main_v247 main_v1 main_v248 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v248 main_v249 (broadcastInDim S600000x1 ![0] bcast_S600000_S600000x1_0 : (⟨S600000, .i32⟩ : BufTy).Contents (Elt F) → (⟨S600000x1, .i32⟩ : BufTy).Contents (Elt F))
  :: StableHlo.binary main_v222 main_v249 main_v250 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v243 main_v250 main_v251 (mulf : (⟨S600000x128, .f32⟩ : BufTy).Contents (Elt F) → (⟨S600000x128, .f32⟩ : BufTy).Contents (Elt F) → (⟨S600000x128, .f32⟩ : BufTy).Contents (Elt F))
  :: StableHlo.nullary main_cst_32 (constant S_ .f32 0x00000000#32)
  :: StableHlo.unary main_cst_32 main_v252 (broadcastInDim S50000x128 ![] bcast_S_S50000x128 : (⟨S_, .f32⟩ : BufTy).Contents (Elt F) → (⟨S50000x128, .f32⟩ : BufTy).Contents (Elt F))
  :: StableHlo.unary main_v3 main_v253 (broadcastInDim S600000x1 ![0] bcast_S600000_S600000x1_0 : (⟨S600000, .i32⟩ : BufTy).Contents (Elt F) → (⟨S600000x1, .i32⟩ : BufTy).Contents (Elt F))
  :: StableHlo.ternary main_v252 main_v253 main_v251 main_v254 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))
  :: StableHlo.unary main_v196 main_v255 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v255 main_v256 rfl shapeCasts_S1x128x128_S128x128
  :: StableHlo.binary main_v194 main_v256 main_v257 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v258 ((extractStridedSlice S1x128 ![3, 0] · slices_S4x128_S1x128_3_0) : (⟨S4x128, .f32⟩ : BufTy).Contents (Elt F) → (⟨S1x128, .f32⟩ : BufTy).Contents (Elt F))
  :: StableHlo.reshape main_v258 main_v259 rfl shapeCasts_S1x128_S128
  :: StableHlo.unary main_v259 main_v260 (broadcastInDim S1x128 ![1] bcast_S128_S1x128_1 : (⟨S128, .f32⟩ : BufTy).Contents (Elt F) → (⟨S1x128, .f32⟩ : BufTy).Contents (Elt F))
  :: StableHlo.unary main_v260 main_v261 (broadcastInDim S50000x128 ![0, 1] bcast_S1x128_S50000x128_0_1 : (⟨S1x128, .f32⟩ : BufTy).Contents (Elt F) → (⟨S50000x128, .f32⟩ : BufTy).Contents (Elt F))
  :: StableHlo.binary main_v257 main_v261 main_v262 (addf : (⟨S50000x128, .f32⟩ : BufTy).Contents (Elt F) → (⟨S50000x128, .f32⟩ : BufTy).Contents (Elt F) → (⟨S50000x128, .f32⟩ : BufTy).Contents (Elt F))
  :: StableHlo.binary main_v262 main_v254 main_v263 (addf : (⟨S50000x128, .f32⟩ : BufTy).Contents (Elt F) → (⟨S50000x128, .f32⟩ : BufTy).Contents (Elt F) → (⟨S50000x128, .f32⟩ : BufTy).Contents (Elt F))
  :: StableHlo.unary main_arg6 main_v264 ((extractStridedSlice S1x128 ![2, 0] · slices_S3x128_S1x128_2_0) : (⟨S3x128, .f32⟩ : BufTy).Contents (Elt F) → (⟨S1x128, .f32⟩ : BufTy).Contents (Elt F))
  :: [] )

/-- Every operation of the list touches TensorCore references only. -/
theorem ops4_sub : (ops4 : List (HloOp τ sig (Elt F))).Forall fun op => op.bufs ⊆ StableHlo.tcRefs τ sig :=
  ⟨StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub ..⟩

/-- The operations leave nothing undetermined: none of them is an allocation. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window is the straight line of its operations: a callee's definition unfolded at its call and the record at
    its fields, both sides are one right-nested chain of the same steps (the window ends in its last operation's step, which is that step followed by the empty return), so the
    equation holds by unfolding alone. -/
theorem main_part4_eq (c : Dev nD) : main_part4 (F := F) c = StableHlo.seq ops4 := by
  chain_rfl

/-- The 60 buffers the window's operations write, one each, in order. -/
abbrev ops4_W : List (Ref sig .tc) :=
  [main_v214, main_v215, main_v216, main_v217, main_v218, main_v219, main_v220, main_v221, main_v222, main_c_24, main_v223, main_v224, main_c_25, main_v225, main_v226, main_v227, main_v228, main_v229, main_c_26, main_v230, main_v231, main_c_27, main_v232, main_v233, main_v234, main_v235, main_v236, main_v237, main_v238, main_v239, main_cst_28, main_v240, main_v241, main_cst_29, main_v242, main_v243, main_c_30, main_v244, main_v245, main_c_31, main_v246, main_v247, main_v248, main_v249, main_v250, main_v251, main_cst_32, main_v252, main_v253, main_v254, main_v255, main_v256, main_v257, main_v258, main_v259, main_v260, main_v261, main_v262, main_v263, main_v264]

/-- Each operation writes its one result buffer, which is in the list. -/
theorem ops4_writes : (ops4 : List (HloOp τ sig (Elt F))).Forall fun op =>
    op.writes ⊆ (ops4_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the window does not write keeps its contents through it. -/
theorem keep4 (V : Valuation τ sig (Elt F)) (r : Ref sig .tc) (h : r ∉ ops4_W) :
    StableHlo.after ops4 V (Proc.devRef .tc r) = V (Proc.devRef .tc r) :=
  StableHlo.after_of_writes_sub ops4 V ops4_writes h

end Cert.ReferenceIdeal.Hand

end
-- ==== Proof.Ref.Ops5.lean ====
import proofs.«180311_j29308856828500_2_alg».proof.Proof.Gen.ReferenceIdeal
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Statements 301 … 332 of @main as the list of their 54 operations, in order: a call stands as the
    callee's own operations over the buffers that call names (its record), the operands in place of the
    callee's arguments. -/
abbrev ops5 : List (HloOp τ sig (Elt F)) :=
  ( StableHlo.reshape main_v264 main_v265 rfl shapeCasts_S1x128_S128
  :: StableHlo.unary main_arg7 main_v266 ((extractStridedSlice S1x128 ![2, 0] · slices_S3x128_S1x128_2_0) : (⟨S3x128, .f32⟩ : BufTy).Contents (Elt F) → (⟨S1x128, .f32⟩ : BufTy).Contents (Elt F))
  :: StableHlo.reshape main_v266 main_v267 rfl shapeCasts_S1x128_S128
  :: StableHlo.nullary main_cst_33 (constant S_ .f32 0x00000000#32)
  :: StableHlo.binary main_v263 main_cst_33 main_v268 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_34 (constant S_ .f32 0x47435000#32)
  :: StableHlo.unary main_cst_34 main_v269 (broadcastInDim S128 ![] bcast_S_S128 : (⟨S_, .f32⟩ : BufTy).Contents (Elt F) → (⟨S128, .f32⟩ : BufTy).Contents (Elt F))
  :: StableHlo.binary main_v268 main_v269 main_v270 (Host.divf : (⟨S128, .f32⟩ : BufTy).Contents (Elt F) → (⟨S128, .f32⟩ : BufTy).Contents (Elt F) → (⟨S128, .f32⟩ : BufTy).Contents (Elt F))
  :: StableHlo.nullary main_c_35 (constantI S_ 32 0#32)
  :: StableHlo.TRef.nullary main_call5.cst (constant S_ .f32 0x00000000#32)
  :: StableHlo.TRef.binary (.of main_v263) main_call5.cst main_call5.v0 (fun x v => Host.reduceAdd x v reducesTo_S50000x128_S128_d0 h_S_)
  :: StableHlo.TRef.unary main_call5.v0 main_call5.v1 (broadcastInDim S1x128 ![1] bcast_S128_S1x128_1)
  :: StableHlo.TRef.nullary main_call5.cst_0 (constant S_ .f32 0x47435000#32)
  :: StableHlo.TRef.unary main_call5.cst_0 main_call5.v2 (broadcastInDim S1x128 ![] bcast_S_S1x128)
  :: StableHlo.TRef.binary main_call5.v1 main_call5.v2 main_call5.v3 Host.divf
  :: StableHlo.TRef.unary main_call5.v3 main_call5.v4 (broadcastInDim S50000x128 ![0, 1] bcast_S1x128_S50000x128_0_1)
  :: StableHlo.TRef.binary (.of main_v263) main_call5.v4 main_call5.v5 subf
  :: StableHlo.TRef.binary main_call5.v5 main_call5.v5 main_call5.v6 mulf
  :: StableHlo.TRef.unary (.of main_c_35) main_call5.v7 (sitofp .f32)
  :: StableHlo.TRef.nullary main_call5.cst_1 (constant S_ .f32 0x47435000#32)
  :: StableHlo.TRef.binary main_call5.cst_1 main_call5.v7 main_call5.v8 subf
  :: StableHlo.TRef.nullary main_call5.cst_2 (constant S_ .f32 0x00000000#32)
  :: StableHlo.TRef.binary main_call5.v6 main_call5.cst_2 main_call5.v9 (fun x v => Host.reduceAdd x v reducesTo_S50000x128_S128_d0 h_S_)
  :: StableHlo.TRef.unary main_call5.v8 main_call5.v10 (broadcastInDim S128 ![] bcast_S_S128)
  :: StableHlo.TRef.binary main_call5.v9 main_call5.v10 main_call5.v11 Host.divf
  :: StableHlo.TRef.nullary main_call5.cst_3 (constant S_ .f32 0x00000000#32)
  :: StableHlo.TRef.binary main_call5.v8 main_call5.cst_3 main_call5.v12 (cmpf .ogt)
  :: StableHlo.TRef.nullary main_call5.cst_4 (constant S_ .f32 0x7FC00000#32)
  :: StableHlo.TRef.unary main_call5.cst_4 main_call5.call0.v0 id
  :: StableHlo.TRef.unary main_call5.call0.v0 main_call5.call0.v1 (broadcastInDim S128 ![] bcast_S_S128)
  :: StableHlo.TRef.ternary main_call5.v12 main_call5.v11 main_call5.call0.v1 main_call5.call0.v2 (fun p a b => select (broadcastInDim S128 ![] bcast_S_S128 p) a b)
  :: StableHlo.unary main_v270 main_v272 (broadcastInDim S1x128 ![1] bcast_S128_S1x128_1 : (⟨S128, .f32⟩ : BufTy).Contents (Elt F) → (⟨S1x128, .f32⟩ : BufTy).Contents (Elt F))
  :: StableHlo.unary main_v272 main_v273 (broadcastInDim S50000x128 ![0, 1] bcast_S1x128_S50000x128_0_1 : (⟨S1x128, .f32⟩ : BufTy).Contents (Elt F) → (⟨S50000x128, .f32⟩ : BufTy).Contents (Elt F))
  :: StableHlo.binary main_v263 main_v273 main_v274 (subf : (⟨S50000x128, .f32⟩ : BufTy).Contents (Elt F) → (⟨S50000x128, .f32⟩ : BufTy).Contents (Elt F) → (⟨S50000x128, .f32⟩ : BufTy).Contents (Elt F))
  :: StableHlo.unary main_v265 main_v275 (broadcastInDim S1x128 ![1] bcast_S128_S1x128_1 : (⟨S128, .f32⟩ : BufTy).Contents (Elt F) → (⟨S1x128, .f32⟩ : BufTy).Contents (Elt F))
  :: StableHlo.unary main_v275 main_v276 (broadcastInDim S50000x128 ![0, 1] bcast_S1x128_S50000x128_0_1 : (⟨S1x128, .f32⟩ : BufTy).Contents (Elt F) → (⟨S50000x128, .f32⟩ : BufTy).Contents (Elt F))
  :: StableHlo.binary main_v276 main_v274 main_v277 (mulf : (⟨S50000x128, .f32⟩ : BufTy).Contents (Elt F) → (⟨S50000x128, .f32⟩ : BufTy).Contents (Elt F) → (⟨S50000x128, .f32⟩ : BufTy).Contents (Elt F))
  :: StableHlo.nullary main_cst_36 (constant S_ .f32 0x3727C5AC#32)
  :: StableHlo.unary main_cst_36 main_v278 (broadcastInDim S128 ![] bcast_S_S128 : (⟨S_, .f32⟩ : BufTy).Contents (Elt F) → (⟨S128, .f32⟩ : BufTy).Contents (Elt F))
  :: StableHlo.binary main_v271 main_v278 main_v279 (addf : (⟨S128, .f32⟩ : BufTy).Contents (Elt F) → (⟨S128, .f32⟩ : BufTy).Contents (Elt F) → (⟨S128, .f32⟩ : BufTy).Contents (Elt F))
  :: StableHlo.unary main_v279 main_v280 (Host.rsqrt : (⟨S128, .f32⟩ : BufTy).Contents (Elt F) → (⟨S128, .f32⟩ : BufTy).Contents (Elt F))
  :: StableHlo.unary main_v280 main_v281 (broadcastInDim S1x128 ![1] bcast_S128_S1x128_1 : (⟨S128, .f32⟩ : BufTy).Contents (Elt F) → (⟨S1x128, .f32⟩ : BufTy).Contents (Elt F))
  :: StableHlo.unary main_v281 main_v282 (broadcastInDim S50000x128 ![0, 1] bcast_S1x128_S50000x128_0_1 : (⟨S1x128, .f32⟩ : BufTy).Contents (Elt F) → (⟨S50000x128, .f32⟩ : BufTy).Contents (Elt F))
  :: StableHlo.binary main_v277 main_v282 main_v283 (mulf : (⟨S50000x128, .f32⟩ : BufTy).Contents (Elt F) → (⟨S50000x128, .f32⟩ : BufTy).Contents (Elt F) → (⟨S50000x128, .f32⟩ : BufTy).Contents (Elt F))
  :: StableHlo.unary main_v267 main_v284 (broadcastInDim S1x128 ![1] bcast_S128_S1x128_1 : (⟨S128, .f32⟩ : BufTy).Contents (Elt F) → (⟨S1x128, .f32⟩ : BufTy).Contents (Elt F))
  :: StableHlo.unary main_v284 main_v285 (broadcastInDim S50000x128 ![0, 1] bcast_S1x128_S50000x128_0_1 : (⟨S1x128, .f32⟩ : BufTy).Contents (Elt F) → (⟨S50000x128, .f32⟩ : BufTy).Contents (Elt F))
  :: StableHlo.binary main_v283 main_v285 main_v286 (addf : (⟨S50000x128, .f32⟩ : BufTy).Contents (Elt F) → (⟨S50000x128, .f32⟩ : BufTy).Contents (Elt F) → (⟨S50000x128, .f32⟩ : BufTy).Contents (Elt F))
  :: StableHlo.TRef.nullary main_call6.cst (constant S_ .f32 0x00000000#32)
  :: StableHlo.TRef.unary main_call6.cst main_call6.v0 (broadcastInDim S50000x128 ![] bcast_S_S50000x128)
  :: StableHlo.TRef.binary (.of main_v286) main_call6.v0 main_call6.v1 maximumf
  :: StableHlo.binary main_v287 main_arg8 main_v288 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F))
  :: StableHlo.unary main_arg9 main_v289 (broadcastInDim S1x32 ![1] bcast_S32_S1x32_1 : (⟨S32, .f32⟩ : BufTy).Contents (Elt F) → (⟨S1x32, .f32⟩ : BufTy).Contents (Elt F))
  :: StableHlo.unary main_v289 main_v290 (broadcastInDim S50000x32 ![0, 1] bcast_S1x32_S50000x32_0_1 : (⟨S1x32, .f32⟩ : BufTy).Contents (Elt F) → (⟨S50000x32, .f32⟩ : BufTy).Contents (Elt F))
  :: StableHlo.binary main_v288 main_v290 main_v291 (addf : (⟨S50000x32, .f32⟩ : BufTy).Contents (Elt F) → (⟨S50000x32, .f32⟩ : BufTy).Contents (Elt F) → (⟨S50000x32, .f32⟩ : BufTy).Contents (Elt F))
  :: [] )

/-- Every operation of the list touches TensorCore references only. -/
theorem ops5_sub : (ops5 : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- The operations leave nothing undetermined: none of them is an allocation. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window is the straight line of its operations: a callee's definition unfolded at its call and the record at
    its fields, both sides are one right-nested chain of the same steps (the window ends in the return), so the
    equation holds by unfolding alone. -/
theorem main_part5_eq (c : Dev nD) : main_part5 (F := F) c = StableHlo.seq ops5 := by
  chain_rfl

/-- The 54 buffers the window's operations write, one each, in order. -/
abbrev ops5_W : List (Ref sig .tc) :=
  [main_v265, main_v266, main_v267, main_cst_33, main_v268, main_cst_34, main_v269, main_v270, main_c_35, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v271, main_v272, main_v273, main_v274, main_v275, main_v276, main_v277, main_cst_36, main_v278, main_v279, main_v280, main_v281, main_v282, main_v283, main_v284, main_v285, main_v286, main_call6_cst, main_call6_v0, main_v287, main_v288, main_v289, main_v290, main_v291]

/-- Each operation writes its one result buffer, which is in the list. -/
theorem ops5_writes : (ops5 : List (HloOp τ sig (Elt F))).Forall fun op =>
    op.writes ⊆ (ops5_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the window does not write keeps its contents through it. -/
theorem keep5 (V : Valuation τ sig (Elt F)) (r : Ref sig .tc) (h : r ∉ ops5_W) :
    StableHlo.after ops5 V (Proc.devRef .tc r) = V (Proc.devRef .tc r) :=
  StableHlo.after_of_writes_sub ops5 V ops5_writes h

end Cert.ReferenceIdeal.Hand

end
-- ==== Proof.Ref.Run.lean ====
import proofs.«180311_j29308856828500_2_alg».proof.Proof.Ref.Ops0
import proofs.«180311_j29308856828500_2_alg».proof.Proof.Ref.Ops1
import proofs.«180311_j29308856828500_2_alg».proof.Proof.Ref.Ops2
import proofs.«180311_j29308856828500_2_alg».proof.Proof.Ref.Ops3
import proofs.«180311_j29308856828500_2_alg».proof.Proof.Ref.Ops4
import proofs.«180311_j29308856828500_2_alg».proof.Proof.Ref.Ops5

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations in order: the six windows' lists, one after the other. -/
abbrev ops : List (HloOp τ sig (Elt F)) :=
  ops0 ++ (ops1 ++ (ops2 ++ (ops3 ++ (ops4 ++ ops5))))

/-- @main runs its windows in order, each the straight line of its operations; a line then a line is the line of
    the concatenation. -/
theorem main_eq (c : Dev nD) : main (F := F) c = StableHlo.seq ops := by
  have h : main (F := F) c
      = (main_part0 c >>= fun _ => main_part1 c >>= fun _ => main_part2 c >>= fun _ => main_part3 c >>= fun _ =>
          main_part4 c >>= fun _ => main_part5 c) := rfl
  rw [h, main_part0_eq, main_part1_eq, main_part2_eq, main_part3_eq, main_part4_eq, main_part5_eq]
  show _ = StableHlo.seq (ops0 ++ (ops1 ++ (ops2 ++ (ops3 ++ (ops4 ++ ops5)))))
  rw [StableHlo.seq_append, StableHlo.seq_append, StableHlo.seq_append, StableHlo.seq_append, StableHlo.seq_append]

/-- The signature scopes no buffer and no semaphore: the program launches no kernel. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ StableHlo.tcRefs τ sig :=
  List.forall_append.2 ⟨ops0_sub, List.forall_append.2 ⟨ops1_sub, List.forall_append.2 ⟨ops2_sub,
    List.forall_append.2 ⟨ops3_sub, List.forall_append.2 ⟨ops4_sub, ops5_sub⟩⟩⟩⟩⟩

/-- No operation is an allocation: window by window. -/
theorem ops_fresh : ∀ op ∈ (ops : List (HloOp τ sig (Elt F))), op.fresh = ∅ :=
  List.forall_iff_forall_mem.1 (List.forall_append.2 ⟨ops0_fresh, List.forall_append.2 ⟨ops1_fresh,
    List.forall_append.2 ⟨ops2_fresh, List.forall_append.2 ⟨ops3_fresh, List.forall_append.2 ⟨ops4_fresh, ops5_fresh⟩⟩⟩⟩⟩)

/-- The contents after two lines in a row are those after the second from those after the first. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The contents after all the operations are those after the last window's, from those after the fifth's, and so
    on down to the first's from the start. -/
theorem after_ops (V : Valuation τ sig (Elt F)) :
    StableHlo.after ops V
      = StableHlo.after ops5 (StableHlo.after ops4 (StableHlo.after ops3 (StableHlo.after ops2
          (StableHlo.after ops1 (StableHlo.after ops0 V))))) := by
  show StableHlo.after (ops0 ++ (ops1 ++ (ops2 ++ (ops3 ++ (ops4 ++ ops5))))) V = _
  rw [after_app, after_app, after_app, after_app, after_app]

/-- A buffer no window writes keeps its contents through the whole run: through each window in turn. -/
theorem keep (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) :
    StableHlo.after ops V (Proc.devRef .tc r) = V (Proc.devRef .tc r) := by
  rw [after_ops, keep5 _ r h5, keep4 _ r h4, keep3 _ r h3, keep2 _ r h2, keep1 _ r h1, keep0 _ r h0]

/-- An argument buffer is written by no operation (each operation writes the buffer of the one value it defines), so
    it ends as it started. -/
theorem keep_arg (V : Valuation τ sig (Elt F)) (r : Ref sig .tc)
    (h : r ∈ [main_arg0, main_arg1, main_arg2, main_arg3, main_arg4, main_arg5, main_arg6, main_arg7, main_arg8, main_arg9]) :
    StableHlo.after ops V (Proc.devRef .tc r) = V (Proc.devRef .tc r) := by
  have hW : r ∉ ops0_W ∧ r ∉ ops1_W ∧ r ∉ ops2_W ∧ r ∉ ops3_W ∧ r ∉ ops4_W ∧ r ∉ ops5_W := by
    simp only [List.mem_cons, List.not_mem_nil, or_false] at h
    rcases h with rfl | rfl | rfl | rfl | rfl | rfl | rfl | rfl | rfl | rfl <;> decide
  exact keep V r hW.1 hW.2.1 hW.2.2.1 hW.2.2.2.1 hW.2.2.2.2.1 hW.2.2.2.2.2

/-- On the device, for any float values, from any memory with zero counters: every weakly fair execution of @main
    terminates, and every final state has each TensorCore buffer at the fold of the operations over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => ops_fresh)

/-- The run with the result named: @main terminates with the result buffer at the operations' fold over the launch
    contents (kept folded) and the ten argument buffers as the launch left them. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v291) = StableHlo.after ops (fun b => m (c, b)) (Proc.devRef .tc main_v291)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v291,
      (h c main_arg0).trans (keep_arg _ main_arg0 (by decide)),
      (h c main_arg1).trans (keep_arg _ main_arg1 (by decide)),
      (h c main_arg2).trans (keep_arg _ main_arg2 (by decide)),
      (h c main_arg3).trans (keep_arg _ main_arg3 (by decide)),
      (h c main_arg4).trans (keep_arg _ main_arg4 (by decide)),
      (h c main_arg5).trans (keep_arg _ main_arg5 (by decide)),
      (h c main_arg6).trans (keep_arg _ main_arg6 (by decide)),
      (h c main_arg7).trans (keep_arg _ main_arg7 (by decide)),
      (h c main_arg8).trans (keep_arg _ main_arg8 (by decide)),
      (h c main_arg9).trans (keep_arg _ main_arg9 (by decide))⟩)
    (run_all m ρ)

/-- The frame: @main terminates and its ten argument buffers end as the launch left them. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => (h c).2) (run m ρ)

end Cert.ReferenceIdeal.Hand

end
-- ==== Proof.Math.Spec.lean ====
/-
  The network both programs compute, index by index on the extended reals.

  A layer input is a matrix `h` of N rows and H columns. The four linear maps of a gated graph convolution are
  `lin h W b = h · W + b`; every edge `e` from `src e` to `dst e` sends the message
  `sigmoid (key (dst e) + query (src e)) * value (src e)`, and a node adds the messages of the edges that end in it to its
  skip term. Batch normalisation takes, per column, the mean and the variance over the rows; the variance is spelt in two
  ways — the mean of the squared deviations, or the mean of the squares minus the square of the mean, cut off below at
  zero — which agree when every entry is a real number (Cert.Math, `var_eq`). The result is
  `max (γ * (x − mean) * rsqrt (var + ε) + β) 0`.
-/
import Idealize.ShloMosaic.PureOps.Ideal
import Idealize.ShloMosaic.Lib.ValueIdx

noncomputable section

open scoped BigOperators

namespace Cert.Spec

open Idealize.ShloMosaic

/-- A matrix of extended reals, by row and column. -/
abbrev Mat (r c : Nat) : Type := Fin r → Fin c → EReal

/-- Every entry is a real number. -/
def Real2 {r c : Nat} (x : Mat r c) : Prop := ∀ i j, ∃ a : ℝ, x i j = (a : EReal)
/-- Every entry of a row vector is a real number. -/
def Real1 {c : Nat} (x : Fin c → EReal) : Prop := ∀ j, ∃ a : ℝ, x j = (a : EReal)

/-- `x · w + b`: entry `(i, j)` is the sum over `q` of `x i q * w q j`, plus `b j`. -/
def lin {r k c : Nat} (x : Mat r k) (w : Mat k c) (b : Fin c → EReal) : Mat r c :=
  fun i j => (∑ q : Fin k, x i q * w q j) + b j

/-- The positive part, entry by entry. -/
def relu {r c : Nat} (x : Mat r c) : Mat r c := fun i j => max (x i j) 0

/-- The logistic function as both programs spell it: `1 / (1 + exp (−z))`. -/
def sigmoid (z : EReal) : EReal := Ideal.div 1 (1 + Ideal.exp (-z))

/-- The sum of a column. -/
def colSum {r c : Nat} (x : Mat r c) : Fin c → EReal := fun j => ∑ i : Fin r, x i j

/-- The mean of a column: its sum divided by `n`. -/
def mean {r c : Nat} (n : EReal) (x : Mat r c) : Fin c → EReal := fun j => Ideal.div (colSum x j) n

/-- The variance of a column as the mean of the squares minus the square of the mean, cut off below at zero. -/
def varSq {r c : Nat} (n : EReal) (x : Mat r c) : Fin c → EReal :=
  fun j => max (Ideal.div (colSum (fun i j => x i j * x i j) j) n - mean n x j * mean n x j) 0

/-- The variance of a column as the mean of the squared deviations from the mean. -/
def varDev {r c : Nat} (n : EReal) (x : Mat r c) : Fin c → EReal :=
  fun j => Ideal.div (colSum (fun i j => (x i j - mean n x j) * (x i j - mean n x j)) j) n

/-- Batch normalisation with given column statistics, then the positive part. -/
def bnRelu {r c : Nat} (x : Mat r c) (mu var γ β : Fin c → EReal) (ε : EReal) : Mat r c :=
  fun i j => max (γ j * (x i j - mu j) * Ideal.rsqrt (var j + ε) + β j) 0

end Cert.Spec

end
-- ==== Proof.Math.Net.lean ====
/-
  The three-layer network as one function of its arguments, in the two spellings of the batch variance.

  A layer adds to the skip term `lin x (W 3) (b 3)` the aggregated messages `A key query value` of the three other linear
  maps (`A` is the edge aggregation: gather, gate, scatter-add — the same function in both programs), normalises every
  column by its mean and variance over the rows and takes the positive part. The network is the input projection's positive
  part, three such layers, and a last linear map. `netDev` takes the variance as the mean of the squared deviations,
  `netSq` as the mean of the squares minus the square of the mean cut off at zero; they agree when all entries are real
  and `A` sends real matrices to real matrices.
-/
import proofs.«180311_j29308856828500_2_alg».proof.Proof.Math.Spec

noncomputable section

open scoped BigOperators

namespace Cert.Spec

open Idealize.ShloMosaic Idealize.ShloMosaic.ValueIdx

/-- A rank-2 array of extended reals read by row and column, and back. -/
abbrev toMat {r c : Nat} (a : (⟨2, ![r, c]⟩ : Shape).Idx → EReal) : Mat r c := fun i j => a (ix2 i j)
abbrev ofMat {r c : Nat} (x : Mat r c) : (⟨2, ![r, c]⟩ : Shape).Idx → EReal := fun i => x (i 0) (i 1)

variable {n h : Nat}

/-- A layer before normalisation: the skip term plus the aggregated messages. `W 0 … W 3` are key, query, value, skip. -/
def conv (A : Mat n h → Mat n h → Mat n h → Mat n h) (x : Mat n h) (W : Fin 4 → Mat h h) (b : Fin 4 → Fin h → EReal) :
    Mat n h :=
  fun i j => lin x (W 3) (b 3) i j + A (lin x (W 0) (b 0)) (lin x (W 1) (b 1)) (lin x (W 2) (b 2)) i j

/-- Normalise by the column statistics (variance: mean of squared deviations), positive part. -/
def normDev (nn ε : EReal) (y : Mat n h) (γ β : Fin h → EReal) : Mat n h :=
  bnRelu y (mean nn y) (varDev nn y) γ β ε
/-- Normalise by the column statistics (variance: mean of squares minus squared mean, cut off at zero), positive part. -/
def normSq (nn ε : EReal) (y : Mat n h) (γ β : Fin h → EReal) : Mat n h :=
  bnRelu y (mean nn y) (varSq nn y) γ β ε

/-- The whole network with the deviations' variance. `W l`, `b l`, `γ l`, `β l` are layer `l`'s parameters. -/
def netDev {ic oc : Nat} (A : Mat n h → Mat n h → Mat n h → Mat n h) (nn ε : EReal) (x : Mat n ic) (pw : Mat ic h)
    (pb : Fin h → EReal) (W : Fin 3 → Fin 4 → Mat h h) (b : Fin 3 → Fin 4 → Fin h → EReal) (γ β : Fin 3 → Fin h → EReal)
    (hw : Mat h oc) (hb : Fin oc → EReal) : Mat n oc :=
  let h0 := relu (lin x pw pb)
  let h1 := normDev nn ε (conv A h0 (W 0) (b 0)) (γ 0) (β 0)
  let h2 := normDev nn ε (conv A h1 (W 1) (b 1)) (γ 1) (β 1)
  let h3 := normDev nn ε (conv A h2 (W 2) (b 2)) (γ 2) (β 2)
  lin h3 hw hb

/-- The whole network with the cut-off variance. -/
def netSq {ic oc : Nat} (A : Mat n h → Mat n h → Mat n h → Mat n h) (nn ε : EReal) (x : Mat n ic) (pw : Mat ic h)
    (pb : Fin h → EReal) (W : Fin 3 → Fin 4 → Mat h h) (b : Fin 3 → Fin 4 → Fin h → EReal) (γ β : Fin 3 → Fin h → EReal)
    (hw : Mat h oc) (hb : Fin oc → EReal) : Mat n oc :=
  let h0 := relu (lin x pw pb)
  let h1 := normSq nn ε (conv A h0 (W 0) (b 0)) (γ 0) (β 0)
  let h2 := normSq nn ε (conv A h1 (W 1) (b 1)) (γ 1) (β 1)
  let h3 := normSq nn ε (conv A h2 (W 2) (b 2)) (γ 2) (β 2)
  lin h3 hw hb

end Cert.Spec

end
-- ==== Proof.KI.Chain0.lean ====
import proofs.«180311_j29308856828500_2_alg».proof.Proof.KI.Bounds
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

/-! # The network's parameters, read off the launch memory -/

/-- The node features, by row and column. -/
abbrev netX : Cert.Spec.Mat 50000 64 := Cert.Spec.toMat (m ((c : Thread nD τ).loc main_arg0) : S50000x64.Idx → EReal)
/-- The input projection's weights and bias. -/
abbrev netPW : Cert.Spec.Mat 64 128 := Cert.Spec.toMat (m ((c : Thread nD τ).loc main_arg2) : S64x128.Idx → EReal)
abbrev netPB : Fin 128 → EReal := fun j => (m ((c : Thread nD τ).loc main_arg3) : S128.Idx → EReal) (ix1 j)
/-- Layer `l`'s four linear maps (key, query, value, skip): weights and biases. -/
abbrev netW (l : Fin 3) (a : Fin 4) : Cert.Spec.Mat 128 128 :=
  fun q j => (m ((c : Thread nD τ).loc main_arg4) : S3x4x128x128.Idx → EReal) (ix4 l a q j)
abbrev netB (l : Fin 3) (a : Fin 4) : Fin 128 → EReal :=
  fun j => (m ((c : Thread nD τ).loc main_arg5) : S3x4x128.Idx → EReal) (ix3 l a j)
/-- Layer `l`'s normalisation scale and shift. -/
abbrev netGam (l : Fin 3) : Fin 128 → EReal := fun j => (m ((c : Thread nD τ).loc main_arg6) : S3x128.Idx → EReal) (ix2 l j)
abbrev netBet (l : Fin 3) : Fin 128 → EReal := fun j => (m ((c : Thread nD τ).loc main_arg7) : S3x128.Idx → EReal) (ix2 l j)
/-- The head's weights and bias. -/
abbrev netHW : Cert.Spec.Mat 128 32 := Cert.Spec.toMat (m ((c : Thread nD τ).loc main_arg8) : S128x32.Idx → EReal)
abbrev netHB : Fin 32 → EReal := fun j => (m ((c : Thread nD τ).loc main_arg9) : S32.Idx → EReal) (ix1 j)
/-- The number of rows, as the float word the program divides the column sums by. -/
abbrev netNN : EReal := Ideal.ofBits .f32 0x47435000#32

namespace Chain

/-! # What a stretch of host operations leaves unchanged: every buffer it does not write -/
theorem W1_of (r : Ref sig .tc) (h : r ∉ Gen.hostOps0_W) : W1 m c r = Gen.V0 m c r :=
  StableHlo.after_of_writes_sub hostOps0 _ Gen.hostOps0_writes h
theorem W3_of (r : Ref sig .tc) (h : r ∉ Gen.hostOps1_W) : W3 m c r = W2 m c r :=
  StableHlo.after_of_writes_sub hostOps1 _ Gen.hostOps1_writes h
theorem W5_of (r : Ref sig .tc) (h : r ∉ Gen.hostOps2_W) : W5 m c r = W4 m c r :=
  StableHlo.after_of_writes_sub hostOps2 _ Gen.hostOps2_writes h
theorem W7_of (r : Ref sig .tc) (h : r ∉ Gen.hostOps3_W) : W7 m c r = W6 m c r :=
  StableHlo.after_of_writes_sub hostOps3 _ Gen.hostOps3_writes h
theorem W9_of (r : Ref sig .tc) (h : r ∉ Gen.hostOps4_W) : W9 m c r = W8 m c r :=
  StableHlo.after_of_writes_sub hostOps4 _ Gen.hostOps4_writes h
theorem W11_of (r : Ref sig .tc) (h : r ∉ Gen.hostOps5_W) : W11 m c r = W10 m c r :=
  StableHlo.after_of_writes_sub hostOps5 _ Gen.hostOps5_writes h
theorem W13_of (r : Ref sig .tc) (h : r ∉ Gen.hostOps6_W) : W13 m c r = W12 m c r :=
  StableHlo.after_of_writes_sub hostOps6 _ Gen.hostOps6_writes h
theorem W15_of (r : Ref sig .tc) (h : r ∉ Gen.hostOps7_W) : W15 m c r = W14 m c r :=
  StableHlo.after_of_writes_sub hostOps7 _ Gen.hostOps7_writes h
theorem W17_of (r : Ref sig .tc) (h : r ∉ Gen.hostOps8_W) : W17 m c r = W16 m c r :=
  StableHlo.after_of_writes_sub hostOps8 _ Gen.hostOps8_writes h
theorem W19_of (r : Ref sig .tc) (h : r ∉ Gen.hostOps9_W) : W19 m c r = W18 m c r :=
  StableHlo.after_of_writes_sub hostOps9 _ Gen.hostOps9_writes h

/-! # Buffers that reach a boundary unchanged -/
theorem keep1_0_main_arg0 : W1 m c main_arg0 = m ((c : Thread nD τ).loc main_arg0) :=
  (W1_of m c main_arg0 (by decide))
theorem keep2_0_main_arg4 : W2 m c main_arg4 = m ((c : Thread nD τ).loc main_arg4) :=
  (W2_of m c main_arg4 (by decide)).trans <| (W1_of m c main_arg4 (by decide))
theorem keep2_0_main_arg5 : W2 m c main_arg5 = m ((c : Thread nD τ).loc main_arg5) :=
  (W2_of m c main_arg5 (by decide)).trans <| (W1_of m c main_arg5 (by decide))
theorem keep8_0_main_arg4 : W8 m c main_arg4 = m ((c : Thread nD τ).loc main_arg4) :=
  (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide))
theorem keep8_0_main_arg5 : W8 m c main_arg5 = m ((c : Thread nD τ).loc main_arg5) :=
  (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide))
theorem keep14_0_main_arg4 : W14 m c main_arg4 = m ((c : Thread nD τ).loc main_arg4) :=
  (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide))
theorem keep14_0_main_arg5 : W14 m c main_arg5 = m ((c : Thread nD τ).loc main_arg5) :=
  (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide))
theorem keep6_0_main_arg6 : W6 m c main_arg6 = m ((c : Thread nD τ).loc main_arg6) :=
  (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide))
theorem keep6_0_main_arg7 : W6 m c main_arg7 = m ((c : Thread nD τ).loc main_arg7) :=
  (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide))
theorem keep12_0_main_arg6 : W12 m c main_arg6 = m ((c : Thread nD τ).loc main_arg6) :=
  (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide))
theorem keep12_0_main_arg7 : W12 m c main_arg7 = m ((c : Thread nD τ).loc main_arg7) :=
  (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide))
theorem keep18_0_main_arg6 : W18 m c main_arg6 = m ((c : Thread nD τ).loc main_arg6) :=
  (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide))
theorem keep18_0_main_arg7 : W18 m c main_arg7 = m ((c : Thread nD τ).loc main_arg7) :=
  (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide))
theorem keep18_0_main_arg8 : W18 m c main_arg8 = m ((c : Thread nD τ).loc main_arg8) :=
  (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide))
theorem keep18_0_main_arg9 : W18 m c main_arg9 = m ((c : Thread nD τ).loc main_arg9) :=
  (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide))
theorem keep4_1_main_v1 : W4 m c main_v1 = W1 m c main_v1 :=
  (W4_of m c main_v1 (by decide)).trans <| (W3_of m c main_v1 (by decide)).trans <| (W2_of m c main_v1 (by decide))
theorem keep4_1_main_v3 : W4 m c main_v3 = W1 m c main_v3 :=
  (W4_of m c main_v3 (by decide)).trans <| (W3_of m c main_v3 (by decide)).trans <| (W2_of m c main_v3 (by decide))
theorem keep10_1_main_v1 : W10 m c main_v1 = W1 m c main_v1 :=
  (W10_of m c main_v1 (by decide)).trans <| (W9_of m c main_v1 (by decide)).trans <| (W8_of m c main_v1 (by decide)).trans <| (W7_of m c main_v1 (by decide)).trans <| (W6_of m c main_v1 (by decide)).trans <| (W5_of m c main_v1 (by decide)).trans <| (W4_of m c main_v1 (by decide)).trans <| (W3_of m c main_v1 (by decide)).trans <| (W2_of m c main_v1 (by decide))
theorem keep10_1_main_v3 : W10 m c main_v3 = W1 m c main_v3 :=
  (W10_of m c main_v3 (by decide)).trans <| (W9_of m c main_v3 (by decide)).trans <| (W8_of m c main_v3 (by decide)).trans <| (W7_of m c main_v3 (by decide)).trans <| (W6_of m c main_v3 (by decide)).trans <| (W5_of m c main_v3 (by decide)).trans <| (W4_of m c main_v3 (by decide)).trans <| (W3_of m c main_v3 (by decide)).trans <| (W2_of m c main_v3 (by decide))
theorem keep16_1_main_v1 : W16 m c main_v1 = W1 m c main_v1 :=
  (W16_of m c main_v1 (by decide)).trans <| (W15_of m c main_v1 (by decide)).trans <| (W14_of m c main_v1 (by decide)).trans <| (W13_of m c main_v1 (by decide)).trans <| (W12_of m c main_v1 (by decide)).trans <| (W11_of m c main_v1 (by decide)).trans <| (W10_of m c main_v1 (by decide)).trans <| (W9_of m c main_v1 (by decide)).trans <| (W8_of m c main_v1 (by decide)).trans <| (W7_of m c main_v1 (by decide)).trans <| (W6_of m c main_v1 (by decide)).trans <| (W5_of m c main_v1 (by decide)).trans <| (W4_of m c main_v1 (by decide)).trans <| (W3_of m c main_v1 (by decide)).trans <| (W2_of m c main_v1 (by decide))
theorem keep16_1_main_v3 : W16 m c main_v3 = W1 m c main_v3 :=
  (W16_of m c main_v3 (by decide)).trans <| (W15_of m c main_v3 (by decide)).trans <| (W14_of m c main_v3 (by decide)).trans <| (W13_of m c main_v3 (by decide)).trans <| (W12_of m c main_v3 (by decide)).trans <| (W11_of m c main_v3 (by decide)).trans <| (W10_of m c main_v3 (by decide)).trans <| (W9_of m c main_v3 (by decide)).trans <| (W8_of m c main_v3 (by decide)).trans <| (W7_of m c main_v3 (by decide)).trans <| (W6_of m c main_v3 (by decide)).trans <| (W5_of m c main_v3 (by decide)).trans <| (W4_of m c main_v3 (by decide)).trans <| (W3_of m c main_v3 (by decide)).trans <| (W2_of m c main_v3 (by decide))

end Chain

end Cert.KernelIdeal.Hand
-- ==== Proof.KI.Val0.lean ====
import proofs.«180311_j29308856828500_2_alg».proof.Proof.KI.Reg0Dat
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The contents of the core's buffers when the region is entered, at the extended reals. -/
variable (V : (c : Dev nD) → (b : Ref sig .tc) → Buf (Elt Ideal) ((c : Thread nD τ).loc b))

/-! ## The body's arithmetic at an index

The operand indices of the matrix product at output index `i` and contraction index `q`: the left operand's row is
`i`'s row and its column is `q`; the right operand's row is `q` and its column is `i`'s column. -/
theorem lhs0_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs0_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs0_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs0_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The body's result at row `p`, column `q`: the product of the input block's row `p` with the weights' column `q`
    (the change of float format is the identity on the extended reals, and the accumulator starts at zero), plus the
    bias at `q`, cut off below at zero. -/
theorem pay0_apply (x0 : Vec Ideal S2000x64 .f32) (x1 : Vec Ideal S64x128 .bf16) (x2 : Vec Ideal S1x128 .f32) (p : Fin 2000) (q : Fin 128) :
    k0_pay1 (F := Ideal) x0 x1 x2 (ix2 p q) = max ((∑ k : Fin 64, x0 (ix2 p k) * x1 (ix2 k q)) + x2 (ix2 0 q)) 0 := by
  unfold k0_pay1
  rw [maximumf_apply, addf_apply, broadcast_apply, shapeCast_self, shapeCast_self]
  simp only [matmul]
  rw [Ideal.matmul_constant_zero_apply, ← Equiv.sum_comp (contrEquiv1 dot_S2000x64_S64x128_S2000x128_1_0_0_1_n_n 64 rfl rfl).symm]
  rw [broadcastTo_apply x2 broadcasts_S1x128_S2000x128 (ix2 p q) (ix2 0 q) (fun a => by match a with | ⟨0, _⟩ => rfl | ⟨1, _⟩ => rfl)]
  have hsum : ∀ k : Fin 64,
      (truncf .bf16 x0 bitsLt_bf16_f32 : FVec Ideal S2000x64 .bf16) (dot_S2000x64_S64x128_S2000x128_1_0_0_1_n_n.lhsIdx (ix2 p q) ((contrEquiv1 dot_S2000x64_S64x128_S2000x128_1_0_0_1_n_n 64 rfl rfl).symm k))
        * x1 (dot_S2000x64_S64x128_S2000x128_1_0_0_1_n_n.rhsIdx (ix2 p q) ((contrEquiv1 dot_S2000x64_S64x128_S2000x128_1_0_0_1_n_n 64 rfl rfl).symm k)) = x0 (ix2 p k) * x1 (ix2 k q) := by
    intro k
    have hk := contrEquiv1_symm_val dot_S2000x64_S64x128_S2000x128_1_0_0_1_n_n 64 rfl rfl k
    have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
      match a with
      | ⟨0, _⟩ => exact lhs0_0 _ _
      | ⟨1, _⟩ => exact (lhs0_1 _ _).trans hk)
    have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
      match a with
      | ⟨0, _⟩ => exact (rhs0_0 _ _).trans hk
      | ⟨1, _⟩ => exact rhs0_1 _ _)
    rw [el, er, truncf_apply]
  rw [Finset.sum_congr rfl fun k _ => hsum k]
  show max _ (Ideal.ofBits .f32 0x00000000#32) = _
  rw [Ideal.ofBits_zero_f32]

/-- The body's result at any index of the block. -/
theorem pay0_at (x0 : Vec Ideal S2000x64 .f32) (x1 : Vec Ideal S64x128 .bf16) (x2 : Vec Ideal S1x128 .f32) (j : S2000x128.Idx) :
    k0_pay1 (F := Ideal) x0 x1 x2 j = max ((∑ k : Fin 64, x0 (ix2 (j 0) k) * x1 (ix2 k (j 1))) + x2 (ix2 0 (j 1))) 0 := by
  obtain ⟨p, q, rfl⟩ : ∃ (p : Fin 2000) (q : Fin 128), j = ix2 p q := ⟨j 0, j 1, eq_ix2 j⟩
  exact pay0_apply x0 x1 x2 p q

/-! ## From blocks to the array -/

theorem hz0 : (![0, 0] : Fin 2 → Nat) = fun _ => 0 := funext fun a => by fin_cases a <;> rfl

/-- The array the region leaves, as one function of the arrays it reads: row `i` of the input times the weights, plus
    the bias, cut off below at zero. -/
def G0 (a0 : S50000x64.Idx → EReal) (a1 : S64x128.Idx → EReal) (a2 : S1x128.Idx → EReal) : S50000x128.Idx → EReal :=
  fun i => max ((∑ k : Fin 64, a0 (ix2 (i 0) k) * a1 (ix2 k (i 1))) + a2 (ix2 0 (i 1))) 0

/-- The index maps over the grid: the input's and the output's row block is the point's number, every other block
    index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point `t` is rows `2000 t … 2000 t + 1999` of its array. -/
theorem iblk0_0_apply (c : Dev nD) (t : Fin cfg0.N) (x : S2000x64.Idx) (k : S50000x64.Idx)
    (hk0 : (k 0).val = 2000 * t.val + (x 0).val) (hk1 : (k 1).val = (x 1).val) :
    (iblk0 V c 0 t : Vec Ideal S2000x64 .f32) x = (V c main_arg0 : S50000x64.Idx → EReal) k := by
  obtain ⟨e00, e01, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * (x 0).val = (k 0).val; rw [e00, hk0]; omega
  | ⟨1, _⟩ => show win0_0.index t (1 : Fin 2) * 64 + 1 * (x 1).val = (k 1).val; rw [e01, hk1]; omega

/-- The weights' block at every point is the whole array. -/
theorem iblk0_1_apply (c : Dev nD) (t : Fin cfg0.N) (x : S64x128.Idx) (k : S64x128.Idx)
    (hk0 : (k 0).val = (x 0).val) (hk1 : (k 1).val = (x 1).val) :
    (iblk0 V c 1 t : Vec Ideal S64x128 .bf16) x = (V c main_v4 : S64x128.Idx → EReal) k := by
  obtain ⟨-, -, e10, e11, -⟩ := idx_facts0 t
  unfold iblk0
  rw [View.read_apply]
  show V c main_v4 _ = V c main_v4 _
  congr 1
  funext a
  apply Fin.ext
  match a with
  | ⟨0, _⟩ => show win0_1.index t (0 : Fin 2) * 64 + 1 * (x 0).val = (k 0).val; rw [e10, hk0]; omega
  | ⟨1, _⟩ => show win0_1.index t (1 : Fin 2) * 128 + 1 * (x 1).val = (k 1).val; rw [e11, hk1]; omega

/-- The bias' block at every point is the whole array. -/
theorem iblk0_2_apply (c : Dev nD) (t : Fin cfg0.N) (x : S1x128.Idx) (k : S1x128.Idx)
    (hk0 : (k 0).val = (x 0).val) (hk1 : (k 1).val = (x 1).val) :
    (iblk0 V c 2 t : Vec Ideal S1x128 .f32) x = (V c main_v5 : S1x128.Idx → EReal) k := by
  obtain ⟨-, -, -, -, e20, e21, -⟩ := idx_facts0 t
  unfold iblk0
  rw [View.read_apply]
  show V c main_v5 _ = V c main_v5 _
  congr 1
  funext a
  apply Fin.ext
  match a with
  | ⟨0, _⟩ => show win0_2.index t (0 : Fin 2) * 1 + 1 * (x 0).val = (k 0).val; rw [e20, hk0]; omega
  | ⟨1, _⟩ => show win0_2.index t (1 : Fin 2) * 128 + 1 * (x 1).val = (k 1).val; rw [e21, hk1]; omega

/-- What point `t` writes back is block `t` of `G0` of the arrays as the region finds them. -/
theorem flushed0_eq (c : Dev nD) (t : Fin cfg0.N) :
    (dat0 V c).flushed 3 t = ((cfg0.win 3).blk t).view.read (Elt Ideal) (G0 (V c main_arg0) (V c main_v4) (V c main_v5)) := by
  show (cfg0.win 3).cut (grid0.coords t) ((dat0 V c).after 3 t) = _
  rw [after0_3]
  unfold out0_3
  rw [View.canon_unit_zero hz0]
  simp only [View.ld_unit_zero (S := S2000x64) hz0, View.ld_unit_zero (S := S64x128) hz0, View.ld_unit_zero (S := S1x128) hz0]
  obtain ⟨e00, e01, e10, e11, e20, e21, e30, e31⟩ := idx_facts0 t
  funext j
  show k0_pay1 (F := Ideal) (iblk0 V c 0 t) (iblk0 V c 1 t) (iblk0 V c 2 t) j
    = G0 (V c main_arg0) (V c main_v4) (V c main_v5) (((cfg0.win 3).blk t).view.emb j)
  refine (pay0_at (iblk0 V c 0 t) (iblk0 V c 1 t) (iblk0 V c 2 t) j).trans ?_
  have h0 : ((((cfg0.win 3).blk t).view.emb j) 0).val = 2000 * t.val + (j 0).val := by
    show win0_3.index t (0 : Fin 2) * 2000 + 1 * (j 0).val = _
    omega
  have h1 : ((((cfg0.win 3).blk t).view.emb j) 1).val = (j 1).val := by
    show win0_3.index t (1 : Fin 2) * 128 + 1 * (j 1).val = _
    omega
  unfold G0
  refine congrArg₂ max (congrArg₂ (· + ·) (Finset.sum_congr rfl fun k _ => congrArg₂ (· * ·) ?_ ?_) ?_) rfl
  · exact iblk0_0_apply V c t (ix2 (j 0) k) (ix2 ((((cfg0.win 3).blk t).view.emb j) 0) k) h0 rfl
  · exact iblk0_1_apply V c t (ix2 k (j 1)) (ix2 k ((((cfg0.win 3).blk t).view.emb j) 1)) rfl h1
  · exact iblk0_2_apply V c t (ix2 0 (j 1)) (ix2 0 ((((cfg0.win 3).blk t).view.emb j) 1)) rfl h1

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v6).slice (win0_3.rect t)).set ↔ _
  rw [View.set_slice_whole, Rect.mem_set_unit]
  exact Iff.rfl

/-- Every index of the array is in the block of the point its row falls in: row `r` is in block `r / 2000`. -/
theorem cover0 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The array after the region is `G0` of the arrays it read. -/
theorem arr0 (c : Dev nD) : (dat0 V c).arrAt 3 cfg0.N = G0 (V c main_arg0) (V c main_v4) (V c main_v5) :=
  (dat0 V c).arrAt_eq_of_cover 3 (G0 (V c main_arg0) (V c main_v4) (V c main_v5)) (fun t _ => flushed0_eq V c t) cover0

/-- The region's result, by row and column: the positive part of the input times the weights plus the bias. -/
theorem final0 (c : Dev nD) : Cert.Spec.toMat ((dat0 V c).arrAt 3 cfg0.N : S50000x128.Idx → EReal)
    = Cert.Spec.relu (Cert.Spec.lin (Cert.Spec.toMat (V c main_arg0 : S50000x64.Idx → EReal)) (Cert.Spec.toMat (V c main_v4 : S64x128.Idx → EReal)) (fun j => (V c main_v5 : S1x128.Idx → EReal) (ix2 0 j))) := by
  rw [arr0]
  rfl

end Cert.KernelIdeal.Hand
-- ==== Proof.KI.Host0Val.lean ====
/-
  What the host prepares before the first region, read entry by entry on the extended reals: the projection's weight is the
  argument itself (a change of float format is the identity here), its bias the argument laid out as a one-row array; the two
  rows of the edge array are the source and the target node of every edge.
-/
import proofs.«180311_j29308856828500_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.ValueIdx
open Cert.KernelIdeal Cert.KernelIdeal.Gen

variable (Vin : Valuation τ sig (Elt Ideal))

/-- The projection's weight as the first region reads it. -/
theorem host0_projw (i : S64x128.Idx) :
    (StableHlo.after (hostOps0 (F := Ideal)) Vin (Proc.devRef .tc main_v4) : S64x128.Idx → EReal) i
      = (Vin (Proc.devRef .tc main_arg2) : S64x128.Idx → EReal) i := by
  have e : (StableHlo.after (hostOps0 (F := Ideal)) Vin (Proc.devRef .tc main_v4) : S64x128.Idx → EReal)
      = truncf (F := Ideal) .bf16 (Vin (Proc.devRef .tc main_arg2) : FVec Ideal S64x128 .f32) bitsLt_bf16_f32 := by
    after_results <;> rfl
  rw [e]; rfl

/-- The projection's bias laid out as a one-row array. -/
theorem host0_projb (j : Fin 128) :
    (StableHlo.after (hostOps0 (F := Ideal)) Vin (Proc.devRef .tc main_v5) : S1x128.Idx → EReal) (ix2 (0 : Fin 1) j)
      = (Vin (Proc.devRef .tc main_arg3) : S128.Idx → EReal) (ix1 j) := by
  have e : (StableHlo.after (hostOps0 (F := Ideal)) Vin (Proc.devRef .tc main_v5) : S1x128.Idx → EReal)
      = shapeCast S1x128 (Vin (Proc.devRef .tc main_arg3) : S128.Idx → EReal) shapeCasts_S128_S1x128 := by
    after_results <;> rfl
  rw [e, shapeCast_a_1a_apply]

/-- The source nodes: row 0 of the edge array as a flat array. -/
theorem host0_src :
    (StableHlo.after (hostOps0 (F := Ideal)) Vin (Proc.devRef .tc main_v1) : IVec S600000 32)
      = shapeCast S600000 (extractStridedSlice S1x600000 ![0, 0] (Vin (Proc.devRef .tc main_arg1) : IVec S2x600000 32) slices_S2x600000_S1x600000_0_0) shapeCasts_S1x600000_S600000 := by
  after_results <;> rfl

/-- The target nodes: row 1 of the edge array as a flat array. -/
theorem host0_dst :
    (StableHlo.after (hostOps0 (F := Ideal)) Vin (Proc.devRef .tc main_v3) : IVec S600000 32)
      = shapeCast S600000 (extractStridedSlice S1x600000 ![1, 0] (Vin (Proc.devRef .tc main_arg1) : IVec S2x600000 32) slices_S2x600000_S1x600000_1_0) shapeCasts_S1x600000_S600000 := by
  after_results <;> rfl

end Cert.KernelIdeal.Hand

end
-- ==== Proof.KI.ChainProj.lean ====
import proofs.«180311_j29308856828500_2_alg».proof.Proof.KI.Chain0
import proofs.«180311_j29308856828500_2_alg».proof.Proof.KI.Val0
import proofs.«180311_j29308856828500_2_alg».proof.Proof.KI.Host0Val
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

/-- The first hidden layer: the positive part of the node features times the projection's weights plus its bias. -/
theorem chain_proj :
    Cert.Spec.toMat (W2 m c main_v6 : S50000x128.Idx → EReal)
      = Cert.Spec.relu (Cert.Spec.lin (netX m c) (netPW m c) (netPB m c)) := by
  rw [W2_at]
  unfold O2
  refine (final0 (fun c b => W1 m c b) c).trans ?_
  show Cert.Spec.relu (Cert.Spec.lin (Cert.Spec.toMat (W1 m c main_arg0 : S50000x64.Idx → EReal))
      (Cert.Spec.toMat (W1 m c main_v4 : S64x128.Idx → EReal)) (fun j => (W1 m c main_v5 : S1x128.Idx → EReal) (ix2 0 j))) = _
  have h0 : (W1 m c main_arg0 : S50000x64.Idx → EReal) = m ((c : Thread nD τ).loc main_arg0) := Chain.keep1_0_main_arg0 m c
  have h4 : (W1 m c main_v4 : S64x128.Idx → EReal) = m ((c : Thread nD τ).loc main_arg2) := by
    funext i; exact host0_projw (Gen.V0 m c) i
  have h5 : (fun j : Fin 128 => (W1 m c main_v5 : S1x128.Idx → EReal) (ix2 0 j)) = netPB m c :=
    funext fun j => host0_projb (Gen.V0 m c) j
  rw [h0, h4, h5]

end Cert.KernelIdeal.Hand
-- ==== Proof.Math.EdgeGather.lean ====
/-
  THE EDGE CHAIN, 1 — a row gather read at an index.

  A gather of whole rows of a two-axis array `x : [N, C]` at a column of start indices `idx : [E, 1]`
  (offset axis 1, collapsed axis 0, start index map [0], index vector axis 1, slices 1 × C): result element
  `(e, j)` is `x` at row `row idx e` and column `j`, where the row is the start index `idx[e, 0]` read as a
  signed integer and clamped into `[0, N − 1]`. The row is one function of the index array and the edge:
  it does not depend on the number of columns. Hence a column block of a row gather is the row gather of
  the column block.
-/
import Idealize.ShloMosaic.Lib.ValueIdx
import Idealize.ShloMosaic.PureOps.Contract

noncomputable section

namespace Cert.Edge

open Idealize.ShloMosaic Idealize.ShloMosaic.ValueIdx

variable {α : Type}

/-- The source row of edge `e`: the start index `idx[e, 0]` read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The dimension numbers of a row gather, for an operand `[N, C]`, start indices `[E, 1]` and a result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index a row gather reads for result index `(e, j)`: row `row idx e`, column `j`. -/
theorem rowsDims_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (j : Fin C) :
    (rowsDims N E C wf).operandIdx (ix2 e j) idx = ix2 (row hN idx e) j := by
  funext a
  refine Fin.ext ?_
  match a with
  | ⟨0, _⟩ =>
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e j) idx 1 + (rowsDims N E C wf).batchCoord (ix2 e j) 1
        + (rowsDims N E C wf).offCoord (ix2 e j) 1 = _
    rw [GatherDims.batchCoord_eq_zero _ _ _ List.not_mem_nil]
    unfold GatherDims.start
    rw [dif_neg (show (1 : Fin 2) ∉ (rowsDims N E C wf).startIndexMap from
      fun h => absurd (congrArg Fin.val (List.mem_singleton.mp h)) Nat.one_ne_zero)]
    simp only [Nat.add_zero, Nat.zero_add]
    rfl

/-- A ROW GATHER READ AT `(e, j)`: the operand at row `row idx e`, column `j`. -/
theorem gather_rowsDims_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j) = x (ix2 (row hN idx e) j) := by
  unfold Host.gather
  rw [rowsDims_operandIdx hN]

/-- The same for any record with those fields. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (j : Fin C) :
    Host.gather d x idx (ix2 e j) = x (ix2 (row hN idx e) j) := by
  obtain ⟨od, cd, ob, sb, sm, iv, ss, wf⟩ := d
  simp only at h1 h2 h3 h4 h5 h6 h7
  subst h1 h2 h3 h4 h5 h6 h7
  exact gather_rowsDims_apply hN wf x idx e j

/-! ### A column block of a row gather -/

/-- A column block `[:, o : o + c]` of a two-axis array read at `(a, j)`: the array at `(a, o + j)`. -/
theorem cols_apply {n m c o : Nat} (hoc : o + c ≤ m) (x : (⟨2, ![n, m]⟩ : Shape).Idx → α)
    (hs : (⟨2, ![n, m]⟩ : Shape).Slices ![0, o] ⟨2, ![n, c]⟩) (a : Fin n) (j : Fin c) :
    extractStridedSlice ⟨2, ![n, c]⟩ ![0, o] x hs (ix2 a j) = x (ix2 a ⟨o + j.val, by omega⟩) := by
  unfold extractStridedSlice
  congr 1
  funext b
  refine Fin.ext ?_
  match b with
  | ⟨0, _⟩ => exact Nat.zero_add _
  | ⟨1, _⟩ => rfl

/-- THE RE-ARRANGEMENT: the column block `[:, o : o + C]` of the gather of whole rows of `qv : [N, M]` is the
    gather of rows of the column block of `qv` — both read `qv` at row `row idx e`, column `o + j`. -/
theorem slice_gather {N E M C o w : Nat} (hN : 0 < N) (hoc : o + C ≤ M)
    (dM : GatherDims ⟨2, ![N, M]⟩ ⟨2, ![E, 1]⟩ ⟨2, ![E, M]⟩)
    (g1 : dM.offsetDims = [1]) (g2 : dM.collapsedSliceDims = [0]) (g3 : dM.operandBatchingDims = [])
    (g4 : dM.startIndicesBatchingDims = []) (g5 : dM.startIndexMap = [0]) (g6 : dM.indexVectorDim = 1)
    (g7 : dM.sliceSizes = ![1, M])
    (dC : GatherDims ⟨2, ![N, C]⟩ ⟨2, ![E, 1]⟩ ⟨2, ![E, C]⟩)
    (h1 : dC.offsetDims = [1]) (h2 : dC.collapsedSliceDims = [0]) (h3 : dC.operandBatchingDims = [])
    (h4 : dC.startIndicesBatchingDims = []) (h5 : dC.startIndexMap = [0]) (h6 : dC.indexVectorDim = 1)
    (h7 : dC.sliceSizes = ![1, C])
    (qv : (⟨2, ![N, M]⟩ : Shape).Idx → α) (idx : IVec ⟨2, ![E, 1]⟩ w)
    (hs : (⟨2, ![E, M]⟩ : Shape).Slices ![0, o] ⟨2, ![E, C]⟩)
    (hs' : (⟨2, ![N, M]⟩ : Shape).Slices ![0, o] ⟨2, ![N, C]⟩) :
    extractStridedSlice ⟨2, ![E, C]⟩ ![0, o] (Host.gather dM qv idx) hs
      = Host.gather dC (extractStridedSlice ⟨2, ![N, C]⟩ ![0, o] qv hs') idx := by
  funext i
  obtain ⟨e, j, rfl⟩ : ∃ (e : Fin E) (j : Fin C), i = ix2 e j := ⟨i 0, i 1, eq_ix2 i⟩
  rw [cols_apply hoc, gather_rows_apply hN dM g1 g2 g3 g4 g5 g6 g7,
    gather_rows_apply hN dC h1 h2 h3 h4 h5 h6 h7, cols_apply hoc]

/-- Both sides at `(e, j)`: `qv` at row `row idx e`, column `o + j`. -/
theorem slice_gather_apply {N E M C o w : Nat} (hN : 0 < N) (hoc : o + C ≤ M)
    (dM : GatherDims ⟨2, ![N, M]⟩ ⟨2, ![E, 1]⟩ ⟨2, ![E, M]⟩)
    (g1 : dM.offsetDims = [1]) (g2 : dM.collapsedSliceDims = [0]) (g3 : dM.operandBatchingDims = [])
    (g4 : dM.startIndicesBatchingDims = []) (g5 : dM.startIndexMap = [0]) (g6 : dM.indexVectorDim = 1)
    (g7 : dM.sliceSizes = ![1, M])
    (qv : (⟨2, ![N, M]⟩ : Shape).Idx → α) (idx : IVec ⟨2, ![E, 1]⟩ w)
    (hs : (⟨2, ![E, M]⟩ : Shape).Slices ![0, o] ⟨2, ![E, C]⟩) (e : Fin E) (j : Fin C) :
    extractStridedSlice ⟨2, ![E, C]⟩ ![0, o] (Host.gather dM qv idx) hs (ix2 e j)
      = qv (ix2 (row hN idx e) ⟨o + j.val, by omega⟩) := by
  rw [cols_apply hoc, gather_rows_apply hN dM g1 g2 g3 g4 g5 g6 g7]

end Cert.Edge

end
-- ==== Proof.Math.EdgeFinite.lean ====
/-
  THE EDGE CHAIN, 3 — entries that are real numbers stay real along the chain.

  An extended real is real when it is the image of a real number. An entry of a gather IS an entry of its
  operand, so a gather of an array of reals is an array of reals. The accumulating scatter gives each operand
  entry plus a finite sum of update entries: reals, when the operand and the updates are. The gate's pointwise
  steps keep reals real: negation, the exponential, a sum, a product, and the quotient `1 / (1 + exp (−z))`,
  whose denominator is a positive real.
-/
import Idealize.ShloMosaic.Lib.ValueIdx
import Idealize.ShloMosaic.PureOps.Contract

noncomputable section

namespace Cert.Edge

open Idealize.ShloMosaic Idealize.ShloMosaic.ValueIdx
open scoped BigOperators

/-! ### Scalars -/

/-- A finite sum of reals is real. -/
theorem real_sum {ι : Type*} (s : Finset ι) (f : ι → EReal) (h : ∀ i ∈ s, ∃ r : ℝ, f i = (r : EReal)) :
    ∃ r : ℝ, ∑ i ∈ s, f i = (r : EReal) := by
  classical
  revert h
  refine Finset.induction_on s ?_ ?_
  · intro _
    exact ⟨0, by rw [Finset.sum_empty, EReal.coe_zero]⟩
  · intro a s ha ih h
    obtain ⟨p, hp⟩ := h a (Finset.mem_insert_self a s)
    obtain ⟨q, hq⟩ := ih fun i hi => h i (Finset.mem_insert_of_mem hi)
    exact ⟨p + q, by rw [Finset.sum_insert ha, hp, hq, EReal.coe_add]⟩

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The negation of a real is real. -/
theorem real_neg {x : EReal} (hx : ∃ r : ℝ, x = (r : EReal)) : ∃ r : ℝ, -x = (r : EReal) := by
  obtain ⟨a, rfl⟩ := hx
  exact ⟨-a, (EReal.coe_neg a).symm⟩

/-- The exponential of a real is the real exponential. -/
theorem real_exp {x : EReal} (hx : ∃ r : ℝ, x = (r : EReal)) : ∃ r : ℝ, Ideal.exp x = (r : EReal) := by
  obtain ⟨a, rfl⟩ := hx
  exact ⟨Real.exp a, Ideal.exp_coe a⟩

/-- `1 / (1 + exp (−z))` at a real `z` is the real `(1 + e^(−z))⁻¹`: the denominator is a positive real. -/
theorem div_one_add_exp_neg_coe (z : ℝ) :
    Ideal.div 1 (1 + Ideal.exp (-(z : EReal))) = (((1 + Real.exp (-z))⁻¹ : ℝ) : EReal) := by
  have h : (1 : EReal) + Ideal.exp (-(z : EReal)) = ((1 + Real.exp (-z) : ℝ) : EReal) := by
    rw [← EReal.coe_neg, Ideal.exp_coe, ← EReal.coe_one, ← EReal.coe_add]
  have hpos : (0 : ℝ) < 1 + Real.exp (-z) := add_pos_of_pos_of_nonneg one_pos (Real.exp_pos _).le
  rw [h, Ideal.div_coe hpos.ne', one_mul, one_div]

/-- The gate `1 / (1 + exp (−z))` of a real is real. -/
theorem real_gate {z : EReal} (hz : ∃ r : ℝ, z = (r : EReal)) :
    ∃ r : ℝ, Ideal.div 1 (1 + Ideal.exp (-z)) = (r : EReal) := by
  obtain ⟨a, rfl⟩ := hz
  exact ⟨(1 + Real.exp (-a))⁻¹, div_one_add_exp_neg_coe a⟩

/-- A real divided by a nonzero real is real. -/
theorem real_div {x y : EReal} (hx : ∃ r : ℝ, x = (r : EReal)) (hy : ∃ r : ℝ, y = (r : EReal) ∧ r ≠ 0) :
    ∃ r : ℝ, Ideal.div x y = (r : EReal) := by
  obtain ⟨a, rfl⟩ := hx
  obtain ⟨b, rfl, hb⟩ := hy
  exact ⟨a * (1 / b), by rw [Ideal.div_coe hb, EReal.coe_mul]⟩

/-! ### Arrays -/

section Arrays
variable {s si t u : Shape} {φ : FTy} {w : Nat}

/-- An entry of a gather is an entry of its operand: a gather of reals is an array of reals. -/
theorem gather_real (d : GatherDims s si t) (x : FVec Ideal s φ) (idx : IVec si w)
    (hx : ∀ i, ∃ r : ℝ, x i = (r : EReal)) : ∀ j, ∃ r : ℝ, Host.gather d x idx j = (r : EReal) :=
  fun j => hx (d.operandIdx j idx)

/-- The accumulating scatter at an index: the operand's entry plus the sum of the updates landing there. -/
theorem scatterAdd_apply (d : ScatterDims s si u) (x : FVec Ideal s φ) (idx : IVec si w) (upd : FVec Ideal u φ)
    (i : s.Idx) :
    Host.scatterAdd d x idx upd i = x i + ∑ j ∈ Finset.univ.filter (fun j => d.resultIdx? j idx = some i), upd j :=
  rfl

/-- The accumulating scatter of reals into reals is an array of reals. -/
theorem scatterAdd_real (d : ScatterDims s si u) (x : FVec Ideal s φ) (idx : IVec si w) (upd : FVec Ideal u φ)
    (hx : ∀ i, ∃ r : ℝ, x i = (r : EReal)) (hu : ∀ j, ∃ r : ℝ, upd j = (r : EReal)) :
    ∀ i, ∃ r : ℝ, Host.scatterAdd d x idx upd i = (r : EReal) := by
  intro i
  rw [scatterAdd_apply]
  exact real_add (hx i) (real_sum _ _ fun j _ => hu j)

/-- A column block of an array of reals is an array of reals. -/
theorem extractStridedSlice_real (t : Shape) (off : Fin s.rank → Nat) (x : FVec Ideal s φ) (h : s.Slices off t)
    (hx : ∀ i, ∃ r : ℝ, x i = (r : EReal)) : ∀ j, ∃ r : ℝ, extractStridedSlice t off x h j = (r : EReal) :=
  fun _ => hx _

/-- A widening of the format changes no entry. -/
theorem extf_real {ψ : FTy} (x : FVec Ideal s φ) (h : φ.bits < ψ.bits)
    (hx : ∀ i, ∃ r : ℝ, x i = (r : EReal)) : ∀ i, ∃ r : ℝ, (extf ψ x h : FVec Ideal s ψ) i = (r : EReal) :=
  fun i => hx i

/-- The negation of an array of reals. -/
theorem negf_real (x : FVec Ideal s φ) (hx : ∀ i, ∃ r : ℝ, x i = (r : EReal)) :
    ∀ i, ∃ r : ℝ, Host.negf x i = (r : EReal) :=
  fun i => real_neg (hx i)

/-- The exponential of an array of reals. -/
theorem exp_real (x : FVec Ideal s φ) (hx : ∀ i, ∃ r : ℝ, x i = (r : EReal)) :
    ∀ i, ∃ r : ℝ, Host.exp x i = (r : EReal) :=
  fun i => real_exp (hx i)

/-- The sum of two arrays of reals. -/
theorem addf_real (x y : FVec Ideal s φ) (hx : ∀ i, ∃ r : ℝ, x i = (r : EReal))
    (hy : ∀ i, ∃ r : ℝ, y i = (r : EReal)) : ∀ i, ∃ r : ℝ, addf x y i = (r : EReal) :=
  fun i => real_add (hx i) (hy i)

/-- The product of two arrays of reals. -/
theorem mulf_real (x y : FVec Ideal s φ) (hx : ∀ i, ∃ r : ℝ, x i = (r : EReal))
    (hy : ∀ i, ∃ r : ℝ, y i = (r : EReal)) : ∀ i, ∃ r : ℝ, mulf x y i = (r : EReal) :=
  fun i => real_mul (hx i) (hy i)

/-- The quotient of an array of reals by an array of nonzero reals. -/
theorem divf_real (x y : FVec Ideal s φ) (hx : ∀ i, ∃ r : ℝ, x i = (r : EReal))
    (hy : ∀ i, ∃ r : ℝ, y i = (r : EReal) ∧ r ≠ 0) : ∀ i, ∃ r : ℝ, Host.divf x y i = (r : EReal) :=
  fun i => real_div (hx i) (hy i)

/-- THE GATE at an index: with `one` the array of ones, `one / (one + exp (−z))` reads `1 / (1 + exp (−z i))`. -/
theorem gate_apply (one z : FVec Ideal s φ) (h1 : ∀ i, one i = 1) (i : s.Idx) :
    Host.divf one (addf one (Host.exp (Host.negf z))) i = Ideal.div 1 (1 + Ideal.exp (-(z i))) := by
  show Ideal.div (one i) (one i + Ideal.exp (-(z i))) = _
  rw [h1 i]

/-- The gate of an array of reals is an array of reals. -/
theorem gate_real (one z : FVec Ideal s φ) (h1 : ∀ i, one i = 1) (hz : ∀ i, ∃ r : ℝ, z i = (r : EReal)) :
    ∀ i, ∃ r : ℝ, Host.divf one (addf one (Host.exp (Host.negf z))) i = (r : EReal) := by
  intro i
  rw [gate_apply one z h1 i]
  exact real_gate (hz i)

/-- The gated message `gate · v` of arrays of reals is an array of reals. -/
theorem gated_real (one z v : FVec Ideal s φ) (h1 : ∀ i, one i = 1) (hz : ∀ i, ∃ r : ℝ, z i = (r : EReal))
    (hv : ∀ i, ∃ r : ℝ, v i = (r : EReal)) :
    ∀ i, ∃ r : ℝ, mulf (Host.divf one (addf one (Host.exp (Host.negf z)))) v i = (r : EReal) :=
  mulf_real _ _ (gate_real one z h1 hz) hv

end Arrays

end Cert.Edge

end
-- ==== Proof.Math.EdgeChain.lean ====
/-
  THE EDGE CHAIN, 2 — the two programs' aggregation chains, and their agreement.

  Both programs turn the node arrays into one aggregated array `[50000, 128]` by the same steps: each of the
  two index arrays `[600000]` is normalised (a negative index has 50000 added) and made a column
  `[600000, 1]`; rows are gathered at the columns; the gate `1 / (1 + exp (−(k[dst] + q[src])))` multiplies
  `v[src]`; the products are added into an array of zeros at the RAW destination column.

  The reference gathers rows of three arrays `k, q, v : [50000, 128]`. The kernel gathers rows of `k` and of ONE
  array `qv : [50000, 256]`, then takes the column blocks `[:, 0:128]` and `[:, 128:256]` of the gathered rows,
  and widens the three from the narrow format. A column block of a row gather is the row gather of the column
  block, and a widening commutes with a gather (both re-index), so the kernel's chain IS the reference's at
  `k`, `qv[:, 0:128]`, `qv[:, 128:256]` widened.
-/
import proofs.«180311_j29308856828500_2_alg».proof.Proof.Math.EdgeGather
import proofs.«180311_j29308856828500_2_alg».proof.Proof.Math.EdgeFinite
import Idealize.ShloMosaic.PureOps.Ideal.Laws

noncomputable section

namespace Cert.Edge

open Idealize.ShloMosaic Idealize.ShloMosaic.ValueIdx

/-! ### The shapes and their facts -/

abbrev SS : Shape := ⟨0, ![]⟩
abbrev SE : Shape := ⟨1, ![600000]⟩
abbrev SE1 : Shape := ⟨2, ![600000, 1]⟩
abbrev SEC : Shape := ⟨2, ![600000, 128]⟩
abbrev SEM : Shape := ⟨2, ![600000, 256]⟩
abbrev SNC : Shape := ⟨2, ![50000, 128]⟩
abbrev SNM : Shape := ⟨2, ![50000, 256]⟩

theorem bcast_SS_SE : SS.BroadcastsInDim SE (![] : Fin 0 → Fin SE.rank) := by decide
theorem bcast_SE_SE1 : SE.BroadcastsInDim SE1 (![0] : Fin 1 → Fin SE1.rank) := by decide
theorem bcast_SS_SEC : SS.BroadcastsInDim SEC (![] : Fin 0 → Fin SEC.rank) := by decide
theorem bcast_SS_SNC : SS.BroadcastsInDim SNC (![] : Fin 0 → Fin SNC.rank) := by decide
theorem slices_SEM_0 : SEM.Slices ![0, 0] SEC := by decide
theorem slices_SEM_128 : SEM.Slices ![0, 128] SEC := by decide
theorem slices_SNM_0 : SNM.Slices ![0, 0] SNC := by decide
theorem slices_SNM_128 : SNM.Slices ![0, 128] SNC := by decide
theorem bitsLt_bf16_f32 : FTy.bits .bf16 < FTy.bits .f32 := by decide

section Chain
variable {F : FTy → Type} [FloatOps F]

/-- An index array normalised (a negative index has 50000 added) and made a column. -/
def normCol (idx : IVec SE 32) : IVec SE1 32 :=
  broadcastInDim SE1 ![0] bcast_SE_SE1
    (select (cmpi .slt idx (broadcastInDim SE ![] bcast_SS_SE (constantI SS 32 0#32)))
      (addi idx (broadcastInDim SE ![] bcast_SS_SE (constantI SS 32 50000#32))) idx)

/-- An index array made a column as it is. -/
def rawCol (idx : IVec SE 32) : IVec SE1 32 := broadcastInDim SE1 ![0] bcast_SE_SE1 idx

/-- The array of ones `[600000, 128]`. -/
def ones : FVec F SEC .f32 := broadcastInDim SEC ![] bcast_SS_SEC (constant SS .f32 0x3F800000#32)

/-- The array of zeros `[50000, 128]`. -/
def zeros : FVec F SNC .f32 := broadcastInDim SNC ![] bcast_SS_SNC (constant SS .f32 0x00000000#32)

/-- The gate `1 / (1 + exp (−z))`, entry by entry. -/
def gate (z : FVec F SEC .f32) : FVec F SEC .f32 := Host.divf ones (addf ones (Host.exp (Host.negf z)))

/-- The reference's chain. -/
def aggR (dG : GatherDims SNC SE1 SEC) (dS : ScatterDims SNC SE1 SEC) (k q v : FVec F SNC .f32)
    (src dst : IVec SE 32) : FVec F SNC .f32 :=
  Host.scatterAdd dS zeros (rawCol dst)
    (mulf (gate (addf (Host.gather dG k (normCol dst)) (Host.gather dG q (normCol src))))
      (Host.gather dG v (normCol src)))

/-- The kernel's chain. -/
def aggK (dG : GatherDims SNC SE1 SEC) (dGM : GatherDims SNM SE1 SEM) (dS : ScatterDims SNC SE1 SEC)
    (k : FVec F SNC .bf16) (qv : FVec F SNM .bf16) (src dst : IVec SE 32) : FVec F SNC .f32 :=
  Host.scatterAdd dS zeros (rawCol dst)
    (mulf
      (gate (addf (extf .f32 (Host.gather dG k (normCol dst)) bitsLt_bf16_f32)
        (extf .f32 (extractStridedSlice SEC ![0, 0] (Host.gather dGM qv (normCol src)) slices_SEM_0) bitsLt_bf16_f32)))
      (extf .f32 (extractStridedSlice SEC ![0, 128] (Host.gather dGM qv (normCol src)) slices_SEM_128) bitsLt_bf16_f32))

/-- THE KERNEL'S CHAIN IS THE REFERENCE'S at `k`, `qv[:, 0:128]`, `qv[:, 128:256]`, each widened. -/
theorem aggK_eq (dG : GatherDims SNC SE1 SEC)
    (h1 : dG.offsetDims = [1]) (h2 : dG.collapsedSliceDims = [0]) (h3 : dG.operandBatchingDims = [])
    (h4 : dG.startIndicesBatchingDims = []) (h5 : dG.startIndexMap = [0]) (h6 : dG.indexVectorDim = 1)
    (h7 : dG.sliceSizes = ![1, 128])
    (dGM : GatherDims SNM SE1 SEM)
    (g1 : dGM.offsetDims = [1]) (g2 : dGM.collapsedSliceDims = [0]) (g3 : dGM.operandBatchingDims = [])
    (g4 : dGM.startIndicesBatchingDims = []) (g5 : dGM.startIndexMap = [0]) (g6 : dGM.indexVectorDim = 1)
    (g7 : dGM.sliceSizes = ![1, 256])
    (dS : ScatterDims SNC SE1 SEC) (k : FVec F SNC .bf16) (qv : FVec F SNM .bf16) (src dst : IVec SE 32) :
    aggK dG dGM dS k qv src dst
      = aggR dG dS (extf .f32 k bitsLt_bf16_f32)
          (extf .f32 (extractStridedSlice SNC ![0, 0] qv slices_SNM_0) bitsLt_bf16_f32)
          (extf .f32 (extractStridedSlice SNC ![0, 128] qv slices_SNM_128) bitsLt_bf16_f32) src dst := by
  unfold aggK aggR
  rw [slice_gather (o := 0) (by decide) (by decide) dGM g1 g2 g3 g4 g5 g6 g7 dG h1 h2 h3 h4 h5 h6 h7 qv (normCol src)
      slices_SEM_0 slices_SNM_0,
    slice_gather (o := 128) (by decide) (by decide) dGM g1 g2 g3 g4 g5 g6 g7 dG h1 h2 h3 h4 h5 h6 h7 qv (normCol src)
      slices_SEM_128 slices_SNM_128]
  rfl

end Chain

/-! ### At the ideal instance: real entries stay real -/

/-- The pattern of `1.0` at the 32-bit format denotes `1`. -/
theorem ofBits_one_f32 : Ideal.ofBits .f32 0x3F800000#32 = 1 := by
  simp [Ideal.ofBits, Ideal.ieee, -EReal.coe_mul]; norm_num

theorem ones_apply (i : SEC.Idx) : (ones : FVec Ideal SEC .f32) i = 1 := ofBits_one_f32

theorem zeros_apply (i : SNC.Idx) : (zeros : FVec Ideal SNC .f32) i = 0 := Ideal.ofBits_zero_f32

/-- The gate at an index. -/
theorem gate_ideal_apply (z : FVec Ideal SEC .f32) (i : SEC.Idx) :
    gate z i = Ideal.div 1 (1 + Ideal.exp (-(z i))) :=
  gate_apply ones z ones_apply i

/-- The reference's chain at an index: the sum, over the edges landing at the row, of gate times value. -/
theorem aggR_apply (dG : GatherDims SNC SE1 SEC) (dS : ScatterDims SNC SE1 SEC) (k q v : FVec Ideal SNC .f32)
    (src dst : IVec SE 32) (i : SNC.Idx) :
    aggR dG dS k q v src dst i
      = 0 + ∑ j ∈ Finset.univ.filter (fun j => dS.resultIdx? j (rawCol dst) = some i),
          Ideal.div 1 (1 + Ideal.exp (-(Host.gather dG k (normCol dst) j + Host.gather dG q (normCol src) j)))
            * Host.gather dG v (normCol src) j := by
  unfold aggR
  rw [scatterAdd_apply, zeros_apply]
  refine congrArg _ (Finset.sum_congr rfl fun j _ => ?_)
  show gate _ j * _ = _
  rw [gate_ideal_apply]
  rfl

/-- If every entry of `k`, `q`, `v` is real then so is every entry of the reference's chain. -/
theorem aggR_real (dG : GatherDims SNC SE1 SEC) (dS : ScatterDims SNC SE1 SEC) (k q v : FVec Ideal SNC .f32)
    (src dst : IVec SE 32) (hk : ∀ i, ∃ r : ℝ, k i = (r : EReal)) (hq : ∀ i, ∃ r : ℝ, q i = (r : EReal))
    (hv : ∀ i, ∃ r : ℝ, v i = (r : EReal)) : ∀ i, ∃ r : ℝ, aggR dG dS k q v src dst i = (r : EReal) := by
  unfold aggR
  refine scatterAdd_real dS _ _ _ (fun i => ⟨0, by rw [zeros_apply, EReal.coe_zero]⟩) ?_
  exact gated_real ones _ _ ones_apply
    (addf_real _ _ (gather_real dG k _ hk) (gather_real dG q _ hq)) (gather_real dG v _ hv)

/-- The chain respects equality of its three arrays. -/
theorem aggR_congr {F : FTy → Type} [FloatOps F] (dG : GatherDims SNC SE1 SEC) (dS : ScatterDims SNC SE1 SEC)
    {k k' q q' v v' : FVec F SNC .f32} (hk : k = k') (hq : q = q') (hv : v = v') (src dst : IVec SE 32) :
    aggR dG dS k q v src dst = aggR dG dS k' q' v' src dst := by
  rw [hk, hq, hv]

end Cert.Edge

end
-- ==== Proof.KI.EdgeMap.lean ====
/-
  The edge aggregation of the network as the kernel's program spells it, as a function of the key, query and value
  matrices: the two rows of the edge array are the source and the target node of every edge; rows of the three matrices
  are gathered at them, the gate of key-at-target plus query-at-source multiplies value-at-source, and the products are
  added up at the target rows.
-/
import proofs.«180311_j29308856828500_2_alg».proof.Proof.Gen.KernelIdeal
import proofs.«180311_j29308856828500_2_alg».proof.Proof.Math.Net
import proofs.«180311_j29308856828500_2_alg».proof.Proof.Math.EdgeChain
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-- Row 0 of the edge array (the sources), as 600000 node numbers. -/
def edgeSrc (ei : IVec S2x600000 32) : IVec S600000 32 :=
  shapeCast S600000 (extractStridedSlice S1x600000 ![0, 0] ei slices_S2x600000_S1x600000_0_0) shapeCasts_S1x600000_S600000

/-- Row 1 of the edge array (the targets), as 600000 node numbers. -/
def edgeDst (ei : IVec S2x600000 32) : IVec S600000 32 :=
  shapeCast S600000 (extractStridedSlice S1x600000 ![1, 0] ei slices_S2x600000_S1x600000_1_0) shapeCasts_S1x600000_S600000

/-- The edge aggregation as a function of the key, query and value MATRICES, at given source and target rows: the
    whole-array chain (index normalisation, gathers, gate, scatter-add) on the matrices written back as arrays. -/
def edgeA (src dst : IVec S600000 32) (k q v : Cert.Spec.Mat 50000 128) : Cert.Spec.Mat 50000 128 :=
  Cert.Spec.toMat (Cert.Edge.aggR (F := Ideal) gather_S50000x128_S600000x1_S600000x128_1_0_n_n_0_1_1128
    scatter_S50000x128_S600000x1_S600000x128_1_0_0_1 (Cert.Spec.ofMat k) (Cert.Spec.ofMat q) (Cert.Spec.ofMat v) src dst)

/- The launch memory, at the extended reals, and a core. -/
variable (m : (ℓ : Loc nD τ sig) → Buf (Elt Ideal) ℓ) (c : Dev nD)

/-- The sources and the targets of the launch memory's edge array. -/
abbrev netSrc : IVec S600000 32 := edgeSrc (m ((c : Thread nD τ).loc main_arg1) : IVec S2x600000 32)
abbrev netDst : IVec S600000 32 := edgeDst (m ((c : Thread nD τ).loc main_arg1) : IVec S2x600000 32)

/-- The edge aggregation at the launch memory's edges. -/
abbrev netA : Cert.Spec.Mat 50000 128 → Cert.Spec.Mat 50000 128 → Cert.Spec.Mat 50000 128 → Cert.Spec.Mat 50000 128 :=
  edgeA (netSrc m c) (netDst m c)

end Cert.KernelIdeal.Hand

end
-- ==== Proof.KI.ChainEdge.lean ====
import proofs.«180311_j29308856828500_2_alg».proof.Proof.KI.Chain0
import proofs.«180311_j29308856828500_2_alg».proof.Proof.KI.EdgeMap
import proofs.«180311_j29308856828500_2_alg».proof.Proof.KI.Host0Val
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

namespace Chain

/-- The two index arrays the first stretch of host operations lays out are the edge array's two rows. -/
theorem src1 : (W1 m c main_v1 : IVec S600000 32) = netSrc m c := host0_src (Gen.V0 m c)
theorem dst1 : (W1 m c main_v3 : IVec S600000 32) = netDst m c := host0_dst (Gen.V0 m c)

end Chain

end Cert.KernelIdeal.Hand
-- ==== Proof.KI.Val1.lean ====
/-
  Region 1 at the extended reals: the three arrays it writes are the column ranges 0:128, 128:384 and 384:512 of
  `h · wcat + bcat`, where h, wcat and bcat are the activations, the concatenated weights and the concatenated bias as
  the region finds them. First the body's arithmetic at one entry of a block (the roundings to bf16 are the identity
  and the accumulator is zero, so the product is the plain sum over the 128 inner positions); then, since the
  activations and the outputs move one block of 2000 rows per grid point while the weights and the bias stay, what
  point t writes back is rows 2000 t … 2000 t + 1999 of one whole-array function; the 25 blocks cover the 50000 rows
  (row r lies in block r / 2000), so each array ends at that function.
-/
import proofs.«180311_j29308856828500_2_alg».proof.Proof.KI.Reg1Dat
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- The dot's left operand index at output `(p, q)` and contraction position `r` is `(p, r)`. -/
theorem dot1_lhs (p : Fin 2000) (q : Fin 512) (r : Fin 128) :
    dot_S2000x128_S128x512_S2000x512_1_0_0_1_n_n.lhsIdx (ix2 p q)
      ((contrEquiv1 dot_S2000x128_S128x512_S2000x512_1_0_0_1_n_n 128 rfl rfl).symm r) = ix2 p r := by
  funext a; apply Fin.ext
  match a with
  | ⟨0, _⟩ => rfl
  | ⟨1, _⟩ =>
    exact (dot_S2000x128_S128x512_S2000x512_1_0_0_1_n_n.lhsIdx_val_of_single (cl := 1) rfl _ _).trans
      (contrEquiv1_symm_val _ 128 rfl rfl r)

/-- The dot's right operand index there is `(r, q)`. -/
theorem dot1_rhs (p : Fin 2000) (q : Fin 512) (r : Fin 128) :
    dot_S2000x128_S128x512_S2000x512_1_0_0_1_n_n.rhsIdx (ix2 p q)
      ((contrEquiv1 dot_S2000x128_S128x512_S2000x512_1_0_0_1_n_n 128 rfl rfl).symm r) = ix2 r q := by
  funext a; apply Fin.ext
  match a with
  | ⟨0, _⟩ =>
    exact (dot_S2000x128_S128x512_S2000x512_1_0_0_1_n_n.rhsIdx_val_of_single (cr := 0) rfl _ _).trans
      (contrEquiv1_symm_val _ 128 rfl rfl r)
  | ⟨1, _⟩ => rfl

/-- Entry `(p, q)` of `h · wcat + bcat` on a block: the row of the activations against the column of the weights,
    plus the bias of the column (the roundings to bf16 are the identity on the extended reals, the accumulator is zero). -/
theorem pay1_1_apply (x0 : Vec Ideal S2000x128 .f32) (x1 : Vec Ideal S128x512 .bf16) (x2 : Vec Ideal S1x512 .f32)
    (p : Fin 2000) (q : Fin 512) :
    (k1_pay1 x0 x1 x2 (ix2 p q) : EReal)
      = (∑ r : Fin 128, (x0 (ix2 p r) : EReal) * (x1 (ix2 r q) : EReal)) + (x2 (ix2 (0 : Fin 1) q) : EReal) := by
  unfold k1_pay1
  simp only [matmul]
  rw [addf_apply, Ideal.matmul_constant_zero_apply, broadcastTo_1b_ab_apply,
    ← Equiv.sum_comp (contrEquiv1 dot_S2000x128_S128x512_S2000x512_1_0_0_1_n_n 128 rfl rfl).symm]
  simp only [dot1_lhs, dot1_rhs, Idealize.ShloMosaic.shapeCast_self, truncf_apply]

/-- The k block at `(p, j)` is column `j` of the product. -/
theorem pay1_2_apply (x0 : Vec Ideal S2000x128 .f32) (x1 : Vec Ideal S128x512 .bf16) (x2 : Vec Ideal S1x512 .f32)
    (p : Fin 2000) (j : Fin 128) :
    (k1_pay2 x0 x1 x2 (ix2 p j) : EReal) = k1_pay1 x0 x1 x2 (ix2 p (⟨j.val, by omega⟩ : Fin 512)) := by
  unfold k1_pay2
  rw [truncf_apply]
  exact slice2_axis1_apply 0 _ _ p j _ (by show j.val = 0 + j.val; omega)

/-- The qv block at `(p, j)` is column `128 + j` of the product. -/
theorem pay1_3_apply (x0 : Vec Ideal S2000x128 .f32) (x1 : Vec Ideal S128x512 .bf16) (x2 : Vec Ideal S1x512 .f32)
    (p : Fin 2000) (j : Fin 256) :
    (k1_pay3 x0 x1 x2 (ix2 p j) : EReal) = k1_pay1 x0 x1 x2 (ix2 p (⟨128 + j.val, by omega⟩ : Fin 512)) := by
  unfold k1_pay3
  rw [truncf_apply]
  exact slice2_axis1_apply 128 _ _ p j _ rfl

/-- The s block at `(p, j)` is column `384 + j` of the product. -/
theorem pay1_4_apply (x0 : Vec Ideal S2000x128 .f32) (x1 : Vec Ideal S128x512 .bf16) (x2 : Vec Ideal S1x512 .f32)
    (p : Fin 2000) (j : Fin 128) :
    (k1_pay4 x0 x1 x2 (ix2 p j) : EReal) = k1_pay1 x0 x1 x2 (ix2 p (⟨384 + j.val, by omega⟩ : Fin 512)) := by
  unfold k1_pay4
  exact slice2_axis1_apply 384 _ _ p j _ rfl

/-! ## The whole-array function -/

variable (V : (c : Dev nD) → (b : Ref sig .tc) → Buf (Elt Ideal) ((c : Thread nD τ).loc b))

/-- The activations, the concatenated weights and the concatenated bias as the region finds them, as matrices. -/
abbrev H1 (c : Dev nD) : Cert.Spec.Mat 50000 128 := Cert.Spec.toMat (r := 50000) (c := 128) (V c main_v6)
abbrev Wc1 (c : Dev nD) : Cert.Spec.Mat 128 512 := Cert.Spec.toMat (r := 128) (c := 512) (V c main_v13)
abbrev bc1 (c : Dev nD) : Fin 512 → EReal := fun j => V c main_v15 (ix2 (0 : Fin 1) j)

/-- A matrix entry depends on the values of its two coordinates only. -/
theorem mat_congr_val1 {r k : Nat} (M : Cert.Spec.Mat r k) {a a' b b' : Nat} (ha : a < r) (ha' : a' < r) (hb : b < k) (hb' : b' < k)
    (ea : a = a') (eb : b = b') : M ⟨a, ha⟩ ⟨b, hb⟩ = M ⟨a', ha'⟩ ⟨b', hb'⟩ := by
  subst ea; subst eb; rfl

/-- What the k array ends holding: columns 0:128 of `h · wcat + bcat`. -/
def G1_3 (c : Dev nD) : S50000x128.Idx → EReal :=
  fun i => Cert.Spec.lin (H1 V c) (Wc1 V c) (bc1 V c) ⟨(i 0).val, idx2_lt0 i⟩ ⟨(i 1).val, by have := idx2_lt1 i; omega⟩
/-- What the qv array ends holding: columns 128:384. -/
def G1_4 (c : Dev nD) : S50000x256.Idx → EReal :=
  fun i => Cert.Spec.lin (H1 V c) (Wc1 V c) (bc1 V c) ⟨(i 0).val, idx2_lt0 i⟩ ⟨128 + (i 1).val, by have := idx2_lt1 i; omega⟩
/-- What the s array ends holding: columns 384:512. -/
def G1_5 (c : Dev nD) : S50000x128.Idx → EReal :=
  fun i => Cert.Spec.lin (H1 V c) (Wc1 V c) (bc1 V c) ⟨(i 0).val, idx2_lt0 i⟩ ⟨384 + (i 1).val, by have := idx2_lt1 i; omega⟩

/-! ## One block of the product, from the blocks of its operands -/

/-- If the activations' block is rows `2000 tt …` of `Hm`, the weights' block all of `Wm` and the bias block all of `bm`,
    entry `(p, q)` of the body's product is entry `(2000 tt + p, q)` of `Hm · Wm + bm`. -/
theorem block1_lin (x0 : Vec Ideal S2000x128 .f32) (x1 : Vec Ideal S128x512 .bf16) (x2 : Vec Ideal S1x512 .f32)
    (Hm : Cert.Spec.Mat 50000 128) (Wm : Cert.Spec.Mat 128 512) (bm : Fin 512 → EReal) (tt : Nat) (htt : tt < 25)
    (h0 : ∀ (p : Fin 2000) (r : Fin 128), (x0 (ix2 p r) : EReal) = Hm ⟨tt * 2000 + p.val, by omega⟩ r)
    (h1 : ∀ (r : Fin 128) (q : Fin 512), (x1 (ix2 r q) : EReal) = Wm r q)
    (h2 : ∀ q : Fin 512, (x2 (ix2 (0 : Fin 1) q) : EReal) = bm q) (p : Fin 2000) (q : Fin 512) :
    (k1_pay1 x0 x1 x2 (ix2 p q) : EReal) = Cert.Spec.lin Hm Wm bm ⟨tt * 2000 + p.val, by omega⟩ q := by
  rw [pay1_1_apply]
  unfold Cert.Spec.lin
  simp only [h0, h1, h2]

/-! ## The windows' index maps, decided once over the grid -/

theorem hz1 : (![0, 0] : Fin 2 → Nat) = fun _ => 0 := funext fun a => by fin_cases a <;> rfl

theorem cfgN1 : cfg1.N = 25 := N_1

/-- A grid point's number is below 25. -/
theorem t_lt1 (t : Fin cfg1.N) : t.val < 25 := Nat.lt_of_lt_of_eq t.isLt cfgN1

/-- The activations and the three outputs move one block of rows per point; the weights and the bias stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The input blocks at a point, read off the arrays -/

theorem iblk1_0_apply (c : Dev nD) (t : Fin cfg1.N) (p : Fin 2000) (r : Fin 128) :
    (iblk1 V c 0 t (ix2 p r) : EReal) = H1 V c ⟨t.val * 2000 + p.val, by have := t_lt1 t; omega⟩ r := by
  obtain ⟨e0, e1, -⟩ := idx_facts1 t
  show V c main_v6 (((cfg1.win 0).blk t).view.emb (ix2 p r)) = V c main_v6 (ix2 _ r)
  refine congrArg (V c main_v6) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * r.val = r.val; omega

theorem iblk1_1_apply (c : Dev nD) (t : Fin cfg1.N) (r : Fin 128) (q : Fin 512) :
    (iblk1 V c 1 t (ix2 r q) : EReal) = Wc1 V c r q := by
  obtain ⟨-, -, e2, e3, -⟩ := idx_facts1 t
  show V c main_v13 (((cfg1.win 1).blk t).view.emb (ix2 r q)) = V c main_v13 (ix2 r q)
  refine congrArg (V c main_v13) (funext fun a => Fin.ext ?_)
  match a with
  | ⟨0, _⟩ => show win1_1.index t (0 : Fin 2) * 128 + 1 * r.val = r.val; omega
  | ⟨1, _⟩ => show win1_1.index t (1 : Fin 2) * 512 + 1 * q.val = q.val; omega

theorem iblk1_2_apply (c : Dev nD) (t : Fin cfg1.N) (q : Fin 512) :
    (iblk1 V c 2 t (ix2 (0 : Fin 1) q) : EReal) = bc1 V c q := by
  obtain ⟨-, -, -, -, e4, e5, -⟩ := idx_facts1 t
  show V c main_v15 (((cfg1.win 2).blk t).view.emb (ix2 (0 : Fin 1) q)) = V c main_v15 (ix2 (0 : Fin 1) q)
  refine congrArg (V c main_v15) (funext fun a => Fin.ext ?_)
  match a with
  | ⟨0, _⟩ => show win1_2.index t (0 : Fin 2) * 1 + 1 * 0 = 0; omega
  | ⟨1, _⟩ => show win1_2.index t (1 : Fin 2) * 512 + 1 * q.val = q.val; omega

/-! ## Output window 3 -/

/-- What point `t` writes back to window 3's array is block `t` of `G1_3`. -/
theorem flushed1_3_eq (c : Dev nD) (t : Fin cfg1.N) :
    (dat1 V c).flushed 3 t = ((cfg1.win 3).blk t).view.read (Elt Ideal) (G1_3 V c) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S128x512) hz1, View.ld_unit_zero (S := S1x512) hz1]
  have ht : t.val < 25 := t_lt1 t
  obtain ⟨-, -, -, -, -, -, f0, f1, -⟩ := idx_facts1 t
  funext y
  obtain ⟨p, j, rfl⟩ : ∃ (p : Fin 2000) (j : Fin 128), y = ix2 p j := ⟨y 0, y 1, eq_ix2 y⟩
  show (k1_pay2 (iblk1 V c 0 t) (iblk1 V c 1 t) (iblk1 V c 2 t) (ix2 p j) : EReal)
    = G1_3 V c (((cfg1.win 3).blk t).view.emb (ix2 p j))
  rw [pay1_2_apply, block1_lin _ _ _ (H1 V c) (Wc1 V c) (bc1 V c) t.val ht
    (fun p r => iblk1_0_apply V c t p r) (fun r q => iblk1_1_apply V c t r q) (fun q => iblk1_2_apply V c t q)]
  unfold G1_3
  refine mat_congr_val1 _ _ _ _ _ ?_ ?_
  · show t.val * 2000 + p.val = win1_3.index t (0 : Fin 2) * 2000 + 1 * p.val; omega
  · show j.val = win1_3.index t (1 : Fin 2) * 128 + 1 * j.val; omega

/-- An index of the array is in point `t`'s block iff each coordinate is in the block's range on its axis. -/
theorem mem_blk1_3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v16_0).slice (win1_3.rect t)).set ↔ _
  rw [View.set_slice_whole, Rect.mem_set_unit]
  exact Iff.rfl

/-- Every row of the array is in the block of the point `row / 2000`. -/
theorem arrCover1_3 (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have hN := cfgN1
  let t : Fin cfg1.N := ⟨(i 0).val / 2000, by rw [hN]; omega⟩
  obtain ⟨-, -, -, -, -, -, f0, f1, -⟩ := idx_facts1 t
  have q0 : win1_3.index t (0 : Fin 2) = (i 0).val / 2000 := f0
  refine ⟨t, flush1_3 t, ?_⟩
  rw [mem_blk1_3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The array after the region. -/
theorem final1_3 (c : Dev nD) : (dat1 V c).arrAt 3 cfg1.N = G1_3 V c :=
  (dat1 V c).arrAt_eq_of_cover 3 (G1_3 V c) (fun t _ => flushed1_3_eq V c t) (arrCover1_3)

/-! ## Output window 4 -/

/-- What point `t` writes back to window 4's array is block `t` of `G1_4`. -/
theorem flushed1_4_eq (c : Dev nD) (t : Fin cfg1.N) :
    (dat1 V c).flushed 4 t = ((cfg1.win 4).blk t).view.read (Elt Ideal) (G1_4 V c) := by
  show (cfg1.win 4).cut (grid1.coords t) ((dat1 V c).after 4 t) = _
  rw [after1_4]
  unfold out1_4
  rw [View.canon_unit_zero hz1]
  simp only [View.ld_unit_zero (S := S2000x128) hz1, View.ld_unit_zero (S := S128x512) hz1, View.ld_unit_zero (S := S1x512) hz1]
  have ht : t.val < 25 := t_lt1 t
  obtain ⟨-, -, -, -, -, -, -, -, f0, f1, -⟩ := idx_facts1 t
  funext y
  obtain ⟨p, j, rfl⟩ : ∃ (p : Fin 2000) (j : Fin 256), y = ix2 p j := ⟨y 0, y 1, eq_ix2 y⟩
  show (k1_pay3 (iblk1 V c 0 t) (iblk1 V c 1 t) (iblk1 V c 2 t) (ix2 p j) : EReal)
    = G1_4 V c (((cfg1.win 4).blk t).view.emb (ix2 p j))
  rw [pay1_3_apply, block1_lin _ _ _ (H1 V c) (Wc1 V c) (bc1 V c) t.val ht
    (fun p r => iblk1_0_apply V c t p r) (fun r q => iblk1_1_apply V c t r q) (fun q => iblk1_2_apply V c t q)]
  unfold G1_4
  refine mat_congr_val1 _ _ _ _ _ ?_ ?_
  · show t.val * 2000 + p.val = win1_4.index t (0 : Fin 2) * 2000 + 1 * p.val; omega
  · show 128 + j.val = 128 + (win1_4.index t (1 : Fin 2) * 256 + 1 * j.val); omega

/-- An index of the array is in point `t`'s block iff each coordinate is in the block's range on its axis. -/
theorem mem_blk1_4 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v16_1).slice (win1_4.rect t)).set ↔ _
  rw [View.set_slice_whole, Rect.mem_set_unit]
  exact Iff.rfl

/-- Every row of the array is in the block of the point `row / 2000`. -/
theorem arrCover1_4 (i : S50000x256.Idx) :
    ∃ t : Fin cfg1.N, (cfg1.win 4).flush t = true ∧ i ∈ ((cfg1.win 4).blk t).view.set := by
  have hi0 : (i 0).val < 50000 := idx2_lt0 i
  have hi1 : (i 1).val < 256 := idx2_lt1 i
  have hN := cfgN1
  let t : Fin cfg1.N := ⟨(i 0).val / 2000, by rw [hN]; omega⟩
  obtain ⟨-, -, -, -, -, -, -, -, f0, f1, -⟩ := idx_facts1 t
  have q0 : win1_4.index t (0 : Fin 2) = (i 0).val / 2000 := f0
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The array after the region. -/
theorem final1_4 (c : Dev nD) : (dat1 V c).arrAt 4 cfg1.N = G1_4 V c :=
  (dat1 V c).arrAt_eq_of_cover 4 (G1_4 V c) (fun t _ => flushed1_4_eq V c t) (arrCover1_4)

/-! ## Output window 5 -/

/-- What point `t` writes back to window 5's array is block `t` of `G1_5`. -/
theorem flushed1_5_eq (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S128x512) hz1, View.ld_unit_zero (S := S1x512) hz1]
  have ht : t.val < 25 := t_lt1 t
  obtain ⟨-, -, -, -, -, -, -, -, -, -, f0, f1⟩ := idx_facts1 t
  funext y
  obtain ⟨p, j, rfl⟩ : ∃ (p : Fin 2000) (j : Fin 128), y = ix2 p j := ⟨y 0, y 1, eq_ix2 y⟩
  show (k1_pay4 (iblk1 V c 0 t) (iblk1 V c 1 t) (iblk1 V c 2 t) (ix2 p j) : EReal)
    = G1_5 V c (((cfg1.win 5).blk t).view.emb (ix2 p j))
  rw [pay1_4_apply, block1_lin _ _ _ (H1 V c) (Wc1 V c) (bc1 V c) t.val ht
    (fun p r => iblk1_0_apply V c t p r) (fun r q => iblk1_1_apply V c t r q) (fun q => iblk1_2_apply V c t q)]
  unfold G1_5
  refine mat_congr_val1 _ _ _ _ _ ?_ ?_
  · show t.val * 2000 + p.val = win1_5.index t (0 : Fin 2) * 2000 + 1 * p.val; omega
  · show 384 + j.val = 384 + (win1_5.index t (1 : Fin 2) * 128 + 1 * j.val); omega

/-- An index of the array is in point `t`'s block iff each coordinate is in the block's range on its axis. -/
theorem mem_blk1_5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v16_2).slice (win1_5.rect t)).set ↔ _
  rw [View.set_slice_whole, Rect.mem_set_unit]
  exact Iff.rfl

/-- Every row of the array is in the block of the point `row / 2000`. -/
theorem arrCover1_5 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  have hN := cfgN1
  let t : Fin cfg1.N := ⟨(i 0).val / 2000, by rw [hN]; omega⟩
  obtain ⟨-, -, -, -, -, -, -, -, -, -, f0, f1⟩ := idx_facts1 t
  have q0 : win1_5.index t (0 : Fin 2) = (i 0).val / 2000 := f0
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The array after the region. -/
theorem final1_5 (c : Dev nD) : (dat1 V c).arrAt 5 cfg1.N = G1_5 V c :=
  (dat1 V c).arrAt_eq_of_cover 5 (G1_5 V c) (fun t _ => flushed1_5_eq V c t) (arrCover1_5)

/-! ## The three arrays after the region, entry by entry -/

/-- The k array: columns 0:128 of `h · wcat + bcat`. -/
theorem final1_k (c : Dev nD) : ∀ (i : Fin 50000) (j : Fin 128),
    ((dat1 V c).arrAt 3 cfg1.N) (ix2 i j) = Cert.Spec.lin (H1 V c) (Wc1 V c) (bc1 V c) i ⟨j.val, by omega⟩ := by
  intro i j; rw [final1_3]; rfl

/-- The qv array: columns 128:384. -/
theorem final1_qv (c : Dev nD) : ∀ (i : Fin 50000) (j : Fin 256),
    ((dat1 V c).arrAt 4 cfg1.N) (ix2 i j) = Cert.Spec.lin (H1 V c) (Wc1 V c) (bc1 V c) i ⟨128 + j.val, by omega⟩ := by
  intro i j; rw [final1_4]; rfl

/-- The s array: columns 384:512. -/
theorem final1_s (c : Dev nD) : ∀ (i : Fin 50000) (j : Fin 128),
    ((dat1 V c).arrAt 5 cfg1.N) (ix2 i j) = Cert.Spec.lin (H1 V c) (Wc1 V c) (bc1 V c) i ⟨384 + j.val, by omega⟩ := by
  intro i j; rw [final1_5]; rfl

end Cert.KernelIdeal.Hand
-- ==== Proof.KI.Val4.lean ====
/-
  Region 4 at the extended reals: the three arrays it writes are the column ranges 0:128, 128:384 and 384:512 of
  `h · wcat + bcat`, where h, wcat and bcat are the activations, the concatenated weights and the concatenated bias as
  the region finds them. First the body's arithmetic at one entry of a block (the roundings to bf16 are the identity
  and the accumulator is zero, so the product is the plain sum over the 128 inner positions); then, since the
  activations and the outputs move one block of 2000 rows per grid point while the weights and the bias stay, what
  point t writes back is rows 2000 t … 2000 t + 1999 of one whole-array function; the 25 blocks cover the 50000 rows
  (row r lies in block r / 2000), so each array ends at that function.
-/
import proofs.«180311_j29308856828500_2_alg».proof.Proof.KI.Reg4Dat
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- The dot's left operand index at output `(p, q)` and contraction position `r` is `(p, r)`. -/
theorem dot4_lhs (p : Fin 2000) (q : Fin 512) (r : Fin 128) :
    dot_S2000x128_S128x512_S2000x512_1_0_0_1_n_n.lhsIdx (ix2 p q)
      ((contrEquiv1 dot_S2000x128_S128x512_S2000x512_1_0_0_1_n_n 128 rfl rfl).symm r) = ix2 p r := by
  funext a; apply Fin.ext
  match a with
  | ⟨0, _⟩ => rfl
  | ⟨1, _⟩ =>
    exact (dot_S2000x128_S128x512_S2000x512_1_0_0_1_n_n.lhsIdx_val_of_single (cl := 1) rfl _ _).trans
      (contrEquiv1_symm_val _ 128 rfl rfl r)

/-- The dot's right operand index there is `(r, q)`. -/
theorem dot4_rhs (p : Fin 2000) (q : Fin 512) (r : Fin 128) :
    dot_S2000x128_S128x512_S2000x512_1_0_0_1_n_n.rhsIdx (ix2 p q)
      ((contrEquiv1 dot_S2000x128_S128x512_S2000x512_1_0_0_1_n_n 128 rfl rfl).symm r) = ix2 r q := by
  funext a; apply Fin.ext
  match a with
  | ⟨0, _⟩ =>
    exact (dot_S2000x128_S128x512_S2000x512_1_0_0_1_n_n.rhsIdx_val_of_single (cr := 0) rfl _ _).trans
      (contrEquiv1_symm_val _ 128 rfl rfl r)
  | ⟨1, _⟩ => rfl

/-- Entry `(p, q)` of `h · wcat + bcat` on a block: the row of the activations against the column of the weights,
    plus the bias of the column (the roundings to bf16 are the identity on the extended reals, the accumulator is zero). -/
theorem pay4_1_apply (x0 : Vec Ideal S2000x128 .f32) (x1 : Vec Ideal S128x512 .bf16) (x2 : Vec Ideal S1x512 .f32)
    (p : Fin 2000) (q : Fin 512) :
    (k4_pay1 x0 x1 x2 (ix2 p q) : EReal)
      = (∑ r : Fin 128, (x0 (ix2 p r) : EReal) * (x1 (ix2 r q) : EReal)) + (x2 (ix2 (0 : Fin 1) q) : EReal) := by
  unfold k4_pay1
  simp only [matmul]
  rw [addf_apply, Ideal.matmul_constant_zero_apply, broadcastTo_1b_ab_apply,
    ← Equiv.sum_comp (contrEquiv1 dot_S2000x128_S128x512_S2000x512_1_0_0_1_n_n 128 rfl rfl).symm]
  simp only [dot4_lhs, dot4_rhs, Idealize.ShloMosaic.shapeCast_self, truncf_apply]

/-- The k block at `(p, j)` is column `j` of the product. -/
theorem pay4_2_apply (x0 : Vec Ideal S2000x128 .f32) (x1 : Vec Ideal S128x512 .bf16) (x2 : Vec Ideal S1x512 .f32)
    (p : Fin 2000) (j : Fin 128) :
    (k4_pay2 x0 x1 x2 (ix2 p j) : EReal) = k4_pay1 x0 x1 x2 (ix2 p (⟨j.val, by omega⟩ : Fin 512)) := by
  unfold k4_pay2
  rw [truncf_apply]
  exact slice2_axis1_apply 0 _ _ p j _ (by show j.val = 0 + j.val; omega)

/-- The qv block at `(p, j)` is column `128 + j` of the product. -/
theorem pay4_3_apply (x0 : Vec Ideal S2000x128 .f32) (x1 : Vec Ideal S128x512 .bf16) (x2 : Vec Ideal S1x512 .f32)
    (p : Fin 2000) (j : Fin 256) :
    (k4_pay3 x0 x1 x2 (ix2 p j) : EReal) = k4_pay1 x0 x1 x2 (ix2 p (⟨128 + j.val, by omega⟩ : Fin 512)) := by
  unfold k4_pay3
  rw [truncf_apply]
  exact slice2_axis1_apply 128 _ _ p j _ rfl

/-- The s block at `(p, j)` is column `384 + j` of the product. -/
theorem pay4_4_apply (x0 : Vec Ideal S2000x128 .f32) (x1 : Vec Ideal S128x512 .bf16) (x2 : Vec Ideal S1x512 .f32)
    (p : Fin 2000) (j : Fin 128) :
    (k4_pay4 x0 x1 x2 (ix2 p j) : EReal) = k4_pay1 x0 x1 x2 (ix2 p (⟨384 + j.val, by omega⟩ : Fin 512)) := by
  unfold k4_pay4
  exact slice2_axis1_apply 384 _ _ p j _ rfl

/-! ## The whole-array function -/

variable (V : (c : Dev nD) → (b : Ref sig .tc) → Buf (Elt Ideal) ((c : Thread nD τ).loc b))

/-- The activations, the concatenated weights and the concatenated bias as the region finds them, as matrices. -/
abbrev H4 (c : Dev nD) : Cert.Spec.Mat 50000 128 := Cert.Spec.toMat (r := 50000) (c := 128) (V c main_v62)
abbrev Wc4 (c : Dev nD) : Cert.Spec.Mat 128 512 := Cert.Spec.toMat (r := 128) (c := 512) (V c main_v69)
abbrev bc4 (c : Dev nD) : Fin 512 → EReal := fun j => V c main_v71 (ix2 (0 : Fin 1) j)

/-- A matrix entry depends on the values of its two coordinates only. -/
theorem mat_congr_val4 {r k : Nat} (M : Cert.Spec.Mat r k) {a a' b b' : Nat} (ha : a < r) (ha' : a' < r) (hb : b < k) (hb' : b' < k)
    (ea : a = a') (eb : b = b') : M ⟨a, ha⟩ ⟨b, hb⟩ = M ⟨a', ha'⟩ ⟨b', hb'⟩ := by
  subst ea; subst eb; rfl

/-- What the k array ends holding: columns 0:128 of `h · wcat + bcat`. -/
def G4_3 (c : Dev nD) : S50000x128.Idx → EReal :=
  fun i => Cert.Spec.lin (H4 V c) (Wc4 V c) (bc4 V c) ⟨(i 0).val, idx2_lt0 i⟩ ⟨(i 1).val, by have := idx2_lt1 i; omega⟩
/-- What the qv array ends holding: columns 128:384. -/
def G4_4 (c : Dev nD) : S50000x256.Idx → EReal :=
  fun i => Cert.Spec.lin (H4 V c) (Wc4 V c) (bc4 V c) ⟨(i 0).val, idx2_lt0 i⟩ ⟨128 + (i 1).val, by have := idx2_lt1 i; omega⟩
/-- What the s array ends holding: columns 384:512. -/
def G4_5 (c : Dev nD) : S50000x128.Idx → EReal :=
  fun i => Cert.Spec.lin (H4 V c) (Wc4 V c) (bc4 V c) ⟨(i 0).val, idx2_lt0 i⟩ ⟨384 + (i 1).val, by have := idx2_lt1 i; omega⟩

/-! ## One block of the product, from the blocks of its operands -/

/-- If the activations' block is rows `2000 tt …` of `Hm`, the weights' block all of `Wm` and the bias block all of `bm`,
    entry `(p, q)` of the body's product is entry `(2000 tt + p, q)` of `Hm · Wm + bm`. -/
theorem block4_lin (x0 : Vec Ideal S2000x128 .f32) (x1 : Vec Ideal S128x512 .bf16) (x2 : Vec Ideal S1x512 .f32)
    (Hm : Cert.Spec.Mat 50000 128) (Wm : Cert.Spec.Mat 128 512) (bm : Fin 512 → EReal) (tt : Nat) (htt : tt < 25)
    (h0 : ∀ (p : Fin 2000) (r : Fin 128), (x0 (ix2 p r) : EReal) = Hm ⟨tt * 2000 + p.val, by omega⟩ r)
    (h1 : ∀ (r : Fin 128) (q : Fin 512), (x1 (ix2 r q) : EReal) = Wm r q)
    (h2 : ∀ q : Fin 512, (x2 (ix2 (0 : Fin 1) q) : EReal) = bm q) (p : Fin 2000) (q : Fin 512) :
    (k4_pay1 x0 x1 x2 (ix2 p q) : EReal) = Cert.Spec.lin Hm Wm bm ⟨tt * 2000 + p.val, by omega⟩ q := by
  rw [pay4_1_apply]
  unfold Cert.Spec.lin
  simp only [h0, h1, h2]

/-! ## The windows' index maps, decided once over the grid -/

theorem hz4 : (![0, 0] : Fin 2 → Nat) = fun _ => 0 := funext fun a => by fin_cases a <;> rfl

theorem cfgN4 : cfg4.N = 25 := N_4

/-- A grid point's number is below 25. -/
theorem t_lt4 (t : Fin cfg4.N) : t.val < 25 := Nat.lt_of_lt_of_eq t.isLt cfgN4

/-- The activations and the three outputs move one block of rows per point; the weights and the bias stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-! ## The input blocks at a point, read off the arrays -/

theorem iblk4_0_apply (c : Dev nD) (t : Fin cfg4.N) (p : Fin 2000) (r : Fin 128) :
    (iblk4 V c 0 t (ix2 p r) : EReal) = H4 V c ⟨t.val * 2000 + p.val, by have := t_lt4 t; omega⟩ r := by
  obtain ⟨e0, e1, -⟩ := idx_facts4 t
  show V c main_v62 (((cfg4.win 0).blk t).view.emb (ix2 p r)) = V c main_v62 (ix2 _ r)
  refine congrArg (V c main_v62) (funext fun a => Fin.ext ?_)
  match a with
  | ⟨0, _⟩ => show win4_0.index t (0 : Fin 2) * 2000 + 1 * p.val = t.val * 2000 + p.val; omega
  | ⟨1, _⟩ => show win4_0.index t (1 : Fin 2) * 128 + 1 * r.val = r.val; omega

theorem iblk4_1_apply (c : Dev nD) (t : Fin cfg4.N) (r : Fin 128) (q : Fin 512) :
    (iblk4 V c 1 t (ix2 r q) : EReal) = Wc4 V c r q := by
  obtain ⟨-, -, e2, e3, -⟩ := idx_facts4 t
  show V c main_v69 (((cfg4.win 1).blk t).view.emb (ix2 r q)) = V c main_v69 (ix2 r q)
  refine congrArg (V c main_v69) (funext fun a => Fin.ext ?_)
  match a with
  | ⟨0, _⟩ => show win4_1.index t (0 : Fin 2) * 128 + 1 * r.val = r.val; omega
  | ⟨1, _⟩ => show win4_1.index t (1 : Fin 2) * 512 + 1 * q.val = q.val; omega

theorem iblk4_2_apply (c : Dev nD) (t : Fin cfg4.N) (q : Fin 512) :
    (iblk4 V c 2 t (ix2 (0 : Fin 1) q) : EReal) = bc4 V c q := by
  obtain ⟨-, -, -, -, e4, e5, -⟩ := idx_facts4 t
  show V c main_v71 (((cfg4.win 2).blk t).view.emb (ix2 (0 : Fin 1) q)) = V c main_v71 (ix2 (0 : Fin 1) q)
  refine congrArg (V c main_v71) (funext fun a => Fin.ext ?_)
  match a with
  | ⟨0, _⟩ => show win4_2.index t (0 : Fin 2) * 1 + 1 * 0 = 0; omega
  | ⟨1, _⟩ => show win4_2.index t (1 : Fin 2) * 512 + 1 * q.val = q.val; omega

/-! ## Output window 3 -/

/-- What point `t` writes back to window 3's array is block `t` of `G4_3`. -/
theorem flushed4_3_eq (c : Dev nD) (t : Fin cfg4.N) :
    (dat4 V c).flushed 3 t = ((cfg4.win 3).blk t).view.read (Elt Ideal) (G4_3 V c) := by
  show (cfg4.win 3).cut (grid4.coords t) ((dat4 V c).after 3 t) = _
  rw [after4_3]
  unfold out4_3
  rw [View.canon_unit_zero hz4]
  simp only [View.ld_unit_zero (S := S2000x128) hz4, View.ld_unit_zero (S := S128x512) hz4, View.ld_unit_zero (S := S1x512) hz4]
  have ht : t.val < 25 := t_lt4 t
  obtain ⟨-, -, -, -, -, -, f0, f1, -⟩ := idx_facts4 t
  funext y
  obtain ⟨p, j, rfl⟩ : ∃ (p : Fin 2000) (j : Fin 128), y = ix2 p j := ⟨y 0, y 1, eq_ix2 y⟩
  show (k4_pay2 (iblk4 V c 0 t) (iblk4 V c 1 t) (iblk4 V c 2 t) (ix2 p j) : EReal)
    = G4_3 V c (((cfg4.win 3).blk t).view.emb (ix2 p j))
  rw [pay4_2_apply, block4_lin _ _ _ (H4 V c) (Wc4 V c) (bc4 V c) t.val ht
    (fun p r => iblk4_0_apply V c t p r) (fun r q => iblk4_1_apply V c t r q) (fun q => iblk4_2_apply V c t q)]
  unfold G4_3
  refine mat_congr_val4 _ _ _ _ _ ?_ ?_
  · show t.val * 2000 + p.val = win4_3.index t (0 : Fin 2) * 2000 + 1 * p.val; omega
  · show j.val = win4_3.index t (1 : Fin 2) * 128 + 1 * j.val; omega

/-- An index of the array is in point `t`'s block iff each coordinate is in the block's range on its axis. -/
theorem mem_blk4_3 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v72_0).slice (win4_3.rect t)).set ↔ _
  rw [View.set_slice_whole, Rect.mem_set_unit]
  exact Iff.rfl

/-- Every row of the array is in the block of the point `row / 2000`. -/
theorem arrCover4_3 (i : S50000x128.Idx) :
    ∃ t : Fin cfg4.N, (cfg4.win 3).flush t = true ∧ i ∈ ((cfg4.win 3).blk t).view.set := by
  have hi0 : (i 0).val < 50000 := idx2_lt0 i
  have hi1 : (i 1).val < 128 := idx2_lt1 i
  have hN := cfgN4
  let t : Fin cfg4.N := ⟨(i 0).val / 2000, by rw [hN]; omega⟩
  obtain ⟨-, -, -, -, -, -, f0, f1, -⟩ := idx_facts4 t
  have q0 : win4_3.index t (0 : Fin 2) = (i 0).val / 2000 := f0
  refine ⟨t, flush4_3 t, ?_⟩
  rw [mem_blk4_3]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The array after the region. -/
theorem final4_3 (c : Dev nD) : (dat4 V c).arrAt 3 cfg4.N = G4_3 V c :=
  (dat4 V c).arrAt_eq_of_cover 3 (G4_3 V c) (fun t _ => flushed4_3_eq V c t) (arrCover4_3)

/-! ## Output window 4 -/

/-- What point `t` writes back to window 4's array is block `t` of `G4_4`. -/
theorem flushed4_4_eq (c : Dev nD) (t : Fin cfg4.N) :
    (dat4 V c).flushed 4 t = ((cfg4.win 4).blk t).view.read (Elt Ideal) (G4_4 V c) := by
  show (cfg4.win 4).cut (grid4.coords t) ((dat4 V c).after 4 t) = _
  rw [after4_4]
  unfold out4_4
  rw [View.canon_unit_zero hz4]
  simp only [View.ld_unit_zero (S := S2000x128) hz4, View.ld_unit_zero (S := S128x512) hz4, View.ld_unit_zero (S := S1x512) hz4]
  have ht : t.val < 25 := t_lt4 t
  obtain ⟨-, -, -, -, -, -, -, -, f0, f1, -⟩ := idx_facts4 t
  funext y
  obtain ⟨p, j, rfl⟩ : ∃ (p : Fin 2000) (j : Fin 256), y = ix2 p j := ⟨y 0, y 1, eq_ix2 y⟩
  show (k4_pay3 (iblk4 V c 0 t) (iblk4 V c 1 t) (iblk4 V c 2 t) (ix2 p j) : EReal)
    = G4_4 V c (((cfg4.win 4).blk t).view.emb (ix2 p j))
  rw [pay4_3_apply, block4_lin _ _ _ (H4 V c) (Wc4 V c) (bc4 V c) t.val ht
    (fun p r => iblk4_0_apply V c t p r) (fun r q => iblk4_1_apply V c t r q) (fun q => iblk4_2_apply V c t q)]
  unfold G4_4
  refine mat_congr_val4 _ _ _ _ _ ?_ ?_
  · show t.val * 2000 + p.val = win4_4.index t (0 : Fin 2) * 2000 + 1 * p.val; omega
  · show 128 + j.val = 128 + (win4_4.index t (1 : Fin 2) * 256 + 1 * j.val); omega

/-- An index of the array is in point `t`'s block iff each coordinate is in the block's range on its axis. -/
theorem mem_blk4_4 (t : Fin cfg4.N) (i : S50000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v72_1).slice (win4_4.rect t)).set ↔ _
  rw [View.set_slice_whole, Rect.mem_set_unit]
  exact Iff.rfl

/-- Every row of the array is in the block of the point `row / 2000`. -/
theorem arrCover4_4 (i : S50000x256.Idx) :
    ∃ t : Fin cfg4.N, (cfg4.win 4).flush t = true ∧ i ∈ ((cfg4.win 4).blk t).view.set := by
  have hi0 : (i 0).val < 50000 := idx2_lt0 i
  have hi1 : (i 1).val < 256 := idx2_lt1 i
  have hN := cfgN4
  let t : Fin cfg4.N := ⟨(i 0).val / 2000, by rw [hN]; omega⟩
  obtain ⟨-, -, -, -, -, -, -, -, f0, f1, -⟩ := idx_facts4 t
  have q0 : win4_4.index t (0 : Fin 2) = (i 0).val / 2000 := f0
  refine ⟨t, flush4_4 t, ?_⟩
  rw [mem_blk4_4]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 256 ≤ (i 1).val ∧ (i 1).val < win4_4.index t (1 : Fin 2) * 256 + 256; omega

/-- The array after the region. -/
theorem final4_4 (c : Dev nD) : (dat4 V c).arrAt 4 cfg4.N = G4_4 V c :=
  (dat4 V c).arrAt_eq_of_cover 4 (G4_4 V c) (fun t _ => flushed4_4_eq V c t) (arrCover4_4)

/-! ## Output window 5 -/

/-- What point `t` writes back to window 5's array is block `t` of `G4_5`. -/
theorem flushed4_5_eq (c : Dev nD) (t : Fin cfg4.N) :
    (dat4 V c).flushed 5 t = ((cfg4.win 5).blk t).view.read (Elt Ideal) (G4_5 V c) := by
  show (cfg4.win 5).cut (grid4.coords t) ((dat4 V c).after 5 t) = _
  rw [after4_5]
  unfold out4_5
  rw [View.canon_unit_zero hz4]
  simp only [View.ld_unit_zero (S := S2000x128) hz4, View.ld_unit_zero (S := S128x512) hz4, View.ld_unit_zero (S := S1x512) hz4]
  have ht : t.val < 25 := t_lt4 t
  obtain ⟨-, -, -, -, -, -, -, -, -, -, f0, f1⟩ := idx_facts4 t
  funext y
  obtain ⟨p, j, rfl⟩ : ∃ (p : Fin 2000) (j : Fin 128), y = ix2 p j := ⟨y 0, y 1, eq_ix2 y⟩
  show (k4_pay4 (iblk4 V c 0 t) (iblk4 V c 1 t) (iblk4 V c 2 t) (ix2 p j) : EReal)
    = G4_5 V c (((cfg4.win 5).blk t).view.emb (ix2 p j))
  rw [pay4_4_apply, block4_lin _ _ _ (H4 V c) (Wc4 V c) (bc4 V c) t.val ht
    (fun p r => iblk4_0_apply V c t p r) (fun r q => iblk4_1_apply V c t r q) (fun q => iblk4_2_apply V c t q)]
  unfold G4_5
  refine mat_congr_val4 _ _ _ _ _ ?_ ?_
  · show t.val * 2000 + p.val = win4_5.index t (0 : Fin 2) * 2000 + 1 * p.val; omega
  · show 384 + j.val = 384 + (win4_5.index t (1 : Fin 2) * 128 + 1 * j.val); omega

/-- An index of the array is in point `t`'s block iff each coordinate is in the block's range on its axis. -/
theorem mem_blk4_5 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v72_2).slice (win4_5.rect t)).set ↔ _
  rw [View.set_slice_whole, Rect.mem_set_unit]
  exact Iff.rfl

/-- Every row of the array is in the block of the point `row / 2000`. -/
theorem arrCover4_5 (i : S50000x128.Idx) :
    ∃ t : Fin cfg4.N, (cfg4.win 5).flush t = true ∧ i ∈ ((cfg4.win 5).blk t).view.set := by
  have hi0 : (i 0).val < 50000 := idx2_lt0 i
  have hi1 : (i 1).val < 128 := idx2_lt1 i
  have hN := cfgN4
  let t : Fin cfg4.N := ⟨(i 0).val / 2000, by rw [hN]; omega⟩
  obtain ⟨-, -, -, -, -, -, -, -, -, -, f0, f1⟩ := idx_facts4 t
  have q0 : win4_5.index t (0 : Fin 2) = (i 0).val / 2000 := f0
  refine ⟨t, flush4_5 t, ?_⟩
  rw [mem_blk4_5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- The array after the region. -/
theorem final4_5 (c : Dev nD) : (dat4 V c).arrAt 5 cfg4.N = G4_5 V c :=
  (dat4 V c).arrAt_eq_of_cover 5 (G4_5 V c) (fun t _ => flushed4_5_eq V c t) (arrCover4_5)

/-! ## The three arrays after the region, entry by entry -/

/-- The k array: columns 0:128 of `h · wcat + bcat`. -/
theorem final4_k (c : Dev nD) : ∀ (i : Fin 50000) (j : Fin 128),
    ((dat4 V c).arrAt 3 cfg4.N) (ix2 i j) = Cert.Spec.lin (H4 V c) (Wc4 V c) (bc4 V c) i ⟨j.val, by omega⟩ := by
  intro i j; rw [final4_3]; rfl

/-- The qv array: columns 128:384. -/
theorem final4_qv (c : Dev nD) : ∀ (i : Fin 50000) (j : Fin 256),
    ((dat4 V c).arrAt 4 cfg4.N) (ix2 i j) = Cert.Spec.lin (H4 V c) (Wc4 V c) (bc4 V c) i ⟨128 + j.val, by omega⟩ := by
  intro i j; rw [final4_4]; rfl

/-- The s array: columns 384:512. -/
theorem final4_s (c : Dev nD) : ∀ (i : Fin 50000) (j : Fin 128),
    ((dat4 V c).arrAt 5 cfg4.N) (ix2 i j) = Cert.Spec.lin (H4 V c) (Wc4 V c) (bc4 V c) i ⟨384 + j.val, by omega⟩ := by
  intro i j; rw [final4_5]; rfl

end Cert.KernelIdeal.Hand
-- ==== Proof.KI.Val7.lean ====
/-
  Region 7 at the extended reals: the three arrays it writes are the column ranges 0:128, 128:384 and 384:512 of
  `h · wcat + bcat`, where h, wcat and bcat are the activations, the concatenated weights and the concatenated bias as
  the region finds them. First the body's arithmetic at one entry of a block (the roundings to bf16 are the identity
  and the accumulator is zero, so the product is the plain sum over the 128 inner positions); then, since the
  activations and the outputs move one block of 2000 rows per grid point while the weights and the bias stay, what
  point t writes back is rows 2000 t … 2000 t + 1999 of one whole-array function; the 25 blocks cover the 50000 rows
  (row r lies in block r / 2000), so each array ends at that function.
-/
import proofs.«180311_j29308856828500_2_alg».proof.Proof.KI.Reg7Dat
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- The dot's left operand index at output `(p, q)` and contraction position `r` is `(p, r)`. -/
theorem dot7_lhs (p : Fin 2000) (q : Fin 512) (r : Fin 128) :
    dot_S2000x128_S128x512_S2000x512_1_0_0_1_n_n.lhsIdx (ix2 p q)
      ((contrEquiv1 dot_S2000x128_S128x512_S2000x512_1_0_0_1_n_n 128 rfl rfl).symm r) = ix2 p r := by
  funext a; apply Fin.ext
  match a with
  | ⟨0, _⟩ => rfl
  | ⟨1, _⟩ =>
    exact (dot_S2000x128_S128x512_S2000x512_1_0_0_1_n_n.lhsIdx_val_of_single (cl := 1) rfl _ _).trans
      (contrEquiv1_symm_val _ 128 rfl rfl r)

/-- The dot's right operand index there is `(r, q)`. -/
theorem dot7_rhs (p : Fin 2000) (q : Fin 512) (r : Fin 128) :
    dot_S2000x128_S128x512_S2000x512_1_0_0_1_n_n.rhsIdx (ix2 p q)
      ((contrEquiv1 dot_S2000x128_S128x512_S2000x512_1_0_0_1_n_n 128 rfl rfl).symm r) = ix2 r q := by
  funext a; apply Fin.ext
  match a with
  | ⟨0, _⟩ =>
    exact (dot_S2000x128_S128x512_S2000x512_1_0_0_1_n_n.rhsIdx_val_of_single (cr := 0) rfl _ _).trans
      (contrEquiv1_symm_val _ 128 rfl rfl r)
  | ⟨1, _⟩ => rfl

/-- Entry `(p, q)` of `h · wcat + bcat` on a block: the row of the activations against the column of the weights,
    plus the bias of the column (the roundings to bf16 are the identity on the extended reals, the accumulator is zero). -/
theorem pay7_1_apply (x0 : Vec Ideal S2000x128 .f32) (x1 : Vec Ideal S128x512 .bf16) (x2 : Vec Ideal S1x512 .f32)
    (p : Fin 2000) (q : Fin 512) :
    (k7_pay1 x0 x1 x2 (ix2 p q) : EReal)
      = (∑ r : Fin 128, (x0 (ix2 p r) : EReal) * (x1 (ix2 r q) : EReal)) + (x2 (ix2 (0 : Fin 1) q) : EReal) := by
  unfold k7_pay1
  simp only [matmul]
  rw [addf_apply, Ideal.matmul_constant_zero_apply, broadcastTo_1b_ab_apply,
    ← Equiv.sum_comp (contrEquiv1 dot_S2000x128_S128x512_S2000x512_1_0_0_1_n_n 128 rfl rfl).symm]
  simp only [dot7_lhs, dot7_rhs, Idealize.ShloMosaic.shapeCast_self, truncf_apply]

/-- The k block at `(p, j)` is column `j` of the product. -/
theorem pay7_2_apply (x0 : Vec Ideal S2000x128 .f32) (x1 : Vec Ideal S128x512 .bf16) (x2 : Vec Ideal S1x512 .f32)
    (p : Fin 2000) (j : Fin 128) :
    (k7_pay2 x0 x1 x2 (ix2 p j) : EReal) = k7_pay1 x0 x1 x2 (ix2 p (⟨j.val, by omega⟩ : Fin 512)) := by
  unfold k7_pay2
  rw [truncf_apply]
  exact slice2_axis1_apply 0 _ _ p j _ (by show j.val = 0 + j.val; omega)

/-- The qv block at `(p, j)` is column `128 + j` of the product. -/
theorem pay7_3_apply (x0 : Vec Ideal S2000x128 .f32) (x1 : Vec Ideal S128x512 .bf16) (x2 : Vec Ideal S1x512 .f32)
    (p : Fin 2000) (j : Fin 256) :
    (k7_pay3 x0 x1 x2 (ix2 p j) : EReal) = k7_pay1 x0 x1 x2 (ix2 p (⟨128 + j.val, by omega⟩ : Fin 512)) := by
  unfold k7_pay3
  rw [truncf_apply]
  exact slice2_axis1_apply 128 _ _ p j _ rfl

/-- The s block at `(p, j)` is column `384 + j` of the product. -/
theorem pay7_4_apply (x0 : Vec Ideal S2000x128 .f32) (x1 : Vec Ideal S128x512 .bf16) (x2 : Vec Ideal S1x512 .f32)
    (p : Fin 2000) (j : Fin 128) :
    (k7_pay4 x0 x1 x2 (ix2 p j) : EReal) = k7_pay1 x0 x1 x2 (ix2 p (⟨384 + j.val, by omega⟩ : Fin 512)) := by
  unfold k7_pay4
  exact slice2_axis1_apply 384 _ _ p j _ rfl

/-! ## The whole-array function -/

variable (V : (c : Dev nD) → (b : Ref sig .tc) → Buf (Elt Ideal) ((c : Thread nD τ).loc b))

/-- The activations, the concatenated weights and the concatenated bias as the region finds them, as matrices. -/
abbrev H7 (c : Dev nD) : Cert.Spec.Mat 50000 128 := Cert.Spec.toMat (r := 50000) (c := 128) (V c main_v118)
abbrev Wc7 (c : Dev nD) : Cert.Spec.Mat 128 512 := Cert.Spec.toMat (r := 128) (c := 512) (V c main_v125)
abbrev bc7 (c : Dev nD) : Fin 512 → EReal := fun j => V c main_v127 (ix2 (0 : Fin 1) j)

/-- A matrix entry depends on the values of its two coordinates only. -/
theorem mat_congr_val7 {r k : Nat} (M : Cert.Spec.Mat r k) {a a' b b' : Nat} (ha : a < r) (ha' : a' < r) (hb : b < k) (hb' : b' < k)
    (ea : a = a') (eb : b = b') : M ⟨a, ha⟩ ⟨b, hb⟩ = M ⟨a', ha'⟩ ⟨b', hb'⟩ := by
  subst ea; subst eb; rfl

/-- What the k array ends holding: columns 0:128 of `h · wcat + bcat`. -/
def G7_3 (c : Dev nD) : S50000x128.Idx → EReal :=
  fun i => Cert.Spec.lin (H7 V c) (Wc7 V c) (bc7 V c) ⟨(i 0).val, idx2_lt0 i⟩ ⟨(i 1).val, by have := idx2_lt1 i; omega⟩
/-- What the qv array ends holding: columns 128:384. -/
def G7_4 (c : Dev nD) : S50000x256.Idx → EReal :=
  fun i => Cert.Spec.lin (H7 V c) (Wc7 V c) (bc7 V c) ⟨(i 0).val, idx2_lt0 i⟩ ⟨128 + (i 1).val, by have := idx2_lt1 i; omega⟩
/-- What the s array ends holding: columns 384:512. -/
def G7_5 (c : Dev nD) : S50000x128.Idx → EReal :=
  fun i => Cert.Spec.lin (H7 V c) (Wc7 V c) (bc7 V c) ⟨(i 0).val, idx2_lt0 i⟩ ⟨384 + (i 1).val, by have := idx2_lt1 i; omega⟩

/-! ## One block of the product, from the blocks of its operands -/

/-- If the activations' block is rows `2000 tt …` of `Hm`, the weights' block all of `Wm` and the bias block all of `bm`,
    entry `(p, q)` of the body's product is entry `(2000 tt + p, q)` of `Hm · Wm + bm`. -/
theorem block7_lin (x0 : Vec Ideal S2000x128 .f32) (x1 : Vec Ideal S128x512 .bf16) (x2 : Vec Ideal S1x512 .f32)
    (Hm : Cert.Spec.Mat 50000 128) (Wm : Cert.Spec.Mat 128 512) (bm : Fin 512 → EReal) (tt : Nat) (htt : tt < 25)
    (h0 : ∀ (p : Fin 2000) (r : Fin 128), (x0 (ix2 p r) : EReal) = Hm ⟨tt * 2000 + p.val, by omega⟩ r)
    (h1 : ∀ (r : Fin 128) (q : Fin 512), (x1 (ix2 r q) : EReal) = Wm r q)
    (h2 : ∀ q : Fin 512, (x2 (ix2 (0 : Fin 1) q) : EReal) = bm q) (p : Fin 2000) (q : Fin 512) :
    (k7_pay1 x0 x1 x2 (ix2 p q) : EReal) = Cert.Spec.lin Hm Wm bm ⟨tt * 2000 + p.val, by omega⟩ q := by
  rw [pay7_1_apply]
  unfold Cert.Spec.lin
  simp only [h0, h1, h2]

/-! ## The windows' index maps, decided once over the grid -/

theorem hz7 : (![0, 0] : Fin 2 → Nat) = fun _ => 0 := funext fun a => by fin_cases a <;> rfl

theorem cfgN7 : cfg7.N = 25 := N_7

/-- A grid point's number is below 25. -/
theorem t_lt7 (t : Fin cfg7.N) : t.val < 25 := Nat.lt_of_lt_of_eq t.isLt cfgN7

/-- The activations and the three outputs move one block of rows per point; the weights and the bias stay. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-! ## The input blocks at a point, read off the arrays -/

theorem iblk7_0_apply (c : Dev nD) (t : Fin cfg7.N) (p : Fin 2000) (r : Fin 128) :
    (iblk7 V c 0 t (ix2 p r) : EReal) = H7 V c ⟨t.val * 2000 + p.val, by have := t_lt7 t; omega⟩ r := by
  obtain ⟨e0, e1, -⟩ := idx_facts7 t
  show V c main_v118 (((cfg7.win 0).blk t).view.emb (ix2 p r)) = V c main_v118 (ix2 _ r)
  refine congrArg (V c main_v118) (funext fun a => Fin.ext ?_)
  match a with
  | ⟨0, _⟩ => show win7_0.index t (0 : Fin 2) * 2000 + 1 * p.val = t.val * 2000 + p.val; omega
  | ⟨1, _⟩ => show win7_0.index t (1 : Fin 2) * 128 + 1 * r.val = r.val; omega

theorem iblk7_1_apply (c : Dev nD) (t : Fin cfg7.N) (r : Fin 128) (q : Fin 512) :
    (iblk7 V c 1 t (ix2 r q) : EReal) = Wc7 V c r q := by
  obtain ⟨-, -, e2, e3, -⟩ := idx_facts7 t
  show V c main_v125 (((cfg7.win 1).blk t).view.emb (ix2 r q)) = V c main_v125 (ix2 r q)
  refine congrArg (V c main_v125) (funext fun a => Fin.ext ?_)
  match a with
  | ⟨0, _⟩ => show win7_1.index t (0 : Fin 2) * 128 + 1 * r.val = r.val; omega
  | ⟨1, _⟩ => show win7_1.index t (1 : Fin 2) * 512 + 1 * q.val = q.val; omega

theorem iblk7_2_apply (c : Dev nD) (t : Fin cfg7.N) (q : Fin 512) :
    (iblk7 V c 2 t (ix2 (0 : Fin 1) q) : EReal) = bc7 V c q := by
  obtain ⟨-, -, -, -, e4, e5, -⟩ := idx_facts7 t
  show V c main_v127 (((cfg7.win 2).blk t).view.emb (ix2 (0 : Fin 1) q)) = V c main_v127 (ix2 (0 : Fin 1) q)
  refine congrArg (V c main_v127) (funext fun a => Fin.ext ?_)
  match a with
  | ⟨0, _⟩ => show win7_2.index t (0 : Fin 2) * 1 + 1 * 0 = 0; omega
  | ⟨1, _⟩ => show win7_2.index t (1 : Fin 2) * 512 + 1 * q.val = q.val; omega

/-! ## Output window 3 -/

/-- What point `t` writes back to window 3's array is block `t` of `G7_3`. -/
theorem flushed7_3_eq (c : Dev nD) (t : Fin cfg7.N) :
    (dat7 V c).flushed 3 t = ((cfg7.win 3).blk t).view.read (Elt Ideal) (G7_3 V c) := by
  show (cfg7.win 3).cut (grid7.coords t) ((dat7 V c).after 3 t) = _
  rw [after7_3]
  unfold out7_3
  rw [View.canon_unit_zero hz7]
  simp only [View.ld_unit_zero (S := S2000x128) hz7, View.ld_unit_zero (S := S128x512) hz7, View.ld_unit_zero (S := S1x512) hz7]
  have ht : t.val < 25 := t_lt7 t
  obtain ⟨-, -, -, -, -, -, f0, f1, -⟩ := idx_facts7 t
  funext y
  obtain ⟨p, j, rfl⟩ : ∃ (p : Fin 2000) (j : Fin 128), y = ix2 p j := ⟨y 0, y 1, eq_ix2 y⟩
  show (k7_pay2 (iblk7 V c 0 t) (iblk7 V c 1 t) (iblk7 V c 2 t) (ix2 p j) : EReal)
    = G7_3 V c (((cfg7.win 3).blk t).view.emb (ix2 p j))
  rw [pay7_2_apply, block7_lin _ _ _ (H7 V c) (Wc7 V c) (bc7 V c) t.val ht
    (fun p r => iblk7_0_apply V c t p r) (fun r q => iblk7_1_apply V c t r q) (fun q => iblk7_2_apply V c t q)]
  unfold G7_3
  refine mat_congr_val7 _ _ _ _ _ ?_ ?_
  · show t.val * 2000 + p.val = win7_3.index t (0 : Fin 2) * 2000 + 1 * p.val; omega
  · show j.val = win7_3.index t (1 : Fin 2) * 128 + 1 * j.val; omega

/-- An index of the array is in point `t`'s block iff each coordinate is in the block's range on its axis. -/
theorem mem_blk7_3 (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v128_0).slice (win7_3.rect t)).set ↔ _
  rw [View.set_slice_whole, Rect.mem_set_unit]
  exact Iff.rfl

/-- Every row of the array is in the block of the point `row / 2000`. -/
theorem arrCover7_3 (i : S50000x128.Idx) :
    ∃ t : Fin cfg7.N, (cfg7.win 3).flush t = true ∧ i ∈ ((cfg7.win 3).blk t).view.set := by
  have hi0 : (i 0).val < 50000 := idx2_lt0 i
  have hi1 : (i 1).val < 128 := idx2_lt1 i
  have hN := cfgN7
  let t : Fin cfg7.N := ⟨(i 0).val / 2000, by rw [hN]; omega⟩
  obtain ⟨-, -, -, -, -, -, f0, f1, -⟩ := idx_facts7 t
  have q0 : win7_3.index t (0 : Fin 2) = (i 0).val / 2000 := f0
  refine ⟨t, flush7_3 t, ?_⟩
  rw [mem_blk7_3]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 128 ≤ (i 1).val ∧ (i 1).val < win7_3.index t (1 : Fin 2) * 128 + 128; omega

/-- The array after the region. -/
theorem final7_3 (c : Dev nD) : (dat7 V c).arrAt 3 cfg7.N = G7_3 V c :=
  (dat7 V c).arrAt_eq_of_cover 3 (G7_3 V c) (fun t _ => flushed7_3_eq V c t) (arrCover7_3)

/-! ## Output window 4 -/

/-- What point `t` writes back to window 4's array is block `t` of `G7_4`. -/
theorem flushed7_4_eq (c : Dev nD) (t : Fin cfg7.N) :
    (dat7 V c).flushed 4 t = ((cfg7.win 4).blk t).view.read (Elt Ideal) (G7_4 V c) := by
  show (cfg7.win 4).cut (grid7.coords t) ((dat7 V c).after 4 t) = _
  rw [after7_4]
  unfold out7_4
  rw [View.canon_unit_zero hz7]
  simp only [View.ld_unit_zero (S := S2000x128) hz7, View.ld_unit_zero (S := S128x512) hz7, View.ld_unit_zero (S := S1x512) hz7]
  have ht : t.val < 25 := t_lt7 t
  obtain ⟨-, -, -, -, -, -, -, -, f0, f1, -⟩ := idx_facts7 t
  funext y
  obtain ⟨p, j, rfl⟩ : ∃ (p : Fin 2000) (j : Fin 256), y = ix2 p j := ⟨y 0, y 1, eq_ix2 y⟩
  show (k7_pay3 (iblk7 V c 0 t) (iblk7 V c 1 t) (iblk7 V c 2 t) (ix2 p j) : EReal)
    = G7_4 V c (((cfg7.win 4).blk t).view.emb (ix2 p j))
  rw [pay7_3_apply, block7_lin _ _ _ (H7 V c) (Wc7 V c) (bc7 V c) t.val ht
    (fun p r => iblk7_0_apply V c t p r) (fun r q => iblk7_1_apply V c t r q) (fun q => iblk7_2_apply V c t q)]
  unfold G7_4
  refine mat_congr_val7 _ _ _ _ _ ?_ ?_
  · show t.val * 2000 + p.val = win7_4.index t (0 : Fin 2) * 2000 + 1 * p.val; omega
  · show 128 + j.val = 128 + (win7_4.index t (1 : Fin 2) * 256 + 1 * j.val); omega

/-- An index of the array is in point `t`'s block iff each coordinate is in the block's range on its axis. -/
theorem mem_blk7_4 (t : Fin cfg7.N) (i : S50000x256.Idx) :
    i ∈ ((cfg7.win 4).blk t).view.set ↔ ∀ a : Fin 2, win7_4.index t a * S2000x256.size a ≤ (i a).val ∧ (i a).val < win7_4.index t a * S2000x256.size a + S2000x256.size a := by
  show i ∈ ((View.whole main_v128_1).slice (win7_4.rect t)).set ↔ _
  rw [View.set_slice_whole, Rect.mem_set_unit]
  exact Iff.rfl

/-- Every row of the array is in the block of the point `row / 2000`. -/
theorem arrCover7_4 (i : S50000x256.Idx) :
    ∃ t : Fin cfg7.N, (cfg7.win 4).flush t = true ∧ i ∈ ((cfg7.win 4).blk t).view.set := by
  have hi0 : (i 0).val < 50000 := idx2_lt0 i
  have hi1 : (i 1).val < 256 := idx2_lt1 i
  have hN := cfgN7
  let t : Fin cfg7.N := ⟨(i 0).val / 2000, by rw [hN]; omega⟩
  obtain ⟨-, -, -, -, -, -, -, -, f0, f1, -⟩ := idx_facts7 t
  have q0 : win7_4.index t (0 : Fin 2) = (i 0).val / 2000 := f0
  refine ⟨t, flush7_4 t, ?_⟩
  rw [mem_blk7_4]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 256 ≤ (i 1).val ∧ (i 1).val < win7_4.index t (1 : Fin 2) * 256 + 256; omega

/-- The array after the region. -/
theorem final7_4 (c : Dev nD) : (dat7 V c).arrAt 4 cfg7.N = G7_4 V c :=
  (dat7 V c).arrAt_eq_of_cover 4 (G7_4 V c) (fun t _ => flushed7_4_eq V c t) (arrCover7_4)

/-! ## Output window 5 -/

/-- What point `t` writes back to window 5's array is block `t` of `G7_5`. -/
theorem flushed7_5_eq (c : Dev nD) (t : Fin cfg7.N) :
    (dat7 V c).flushed 5 t = ((cfg7.win 5).blk t).view.read (Elt Ideal) (G7_5 V c) := by
  show (cfg7.win 5).cut (grid7.coords t) ((dat7 V c).after 5 t) = _
  rw [after7_5]
  unfold out7_5
  rw [View.canon_unit_zero hz7]
  simp only [View.ld_unit_zero (S := S2000x128) hz7, View.ld_unit_zero (S := S128x512) hz7, View.ld_unit_zero (S := S1x512) hz7]
  have ht : t.val < 25 := t_lt7 t
  obtain ⟨-, -, -, -, -, -, -, -, -, -, f0, f1⟩ := idx_facts7 t
  funext y
  obtain ⟨p, j, rfl⟩ : ∃ (p : Fin 2000) (j : Fin 128), y = ix2 p j := ⟨y 0, y 1, eq_ix2 y⟩
  show (k7_pay4 (iblk7 V c 0 t) (iblk7 V c 1 t) (iblk7 V c 2 t) (ix2 p j) : EReal)
    = G7_5 V c (((cfg7.win 5).blk t).view.emb (ix2 p j))
  rw [pay7_4_apply, block7_lin _ _ _ (H7 V c) (Wc7 V c) (bc7 V c) t.val ht
    (fun p r => iblk7_0_apply V c t p r) (fun r q => iblk7_1_apply V c t r q) (fun q => iblk7_2_apply V c t q)]
  unfold G7_5
  refine mat_congr_val7 _ _ _ _ _ ?_ ?_
  · show t.val * 2000 + p.val = win7_5.index t (0 : Fin 2) * 2000 + 1 * p.val; omega
  · show 384 + j.val = 384 + (win7_5.index t (1 : Fin 2) * 128 + 1 * j.val); omega

/-- An index of the array is in point `t`'s block iff each coordinate is in the block's range on its axis. -/
theorem mem_blk7_5 (t : Fin cfg7.N) (i : S50000x128.Idx) :
    i ∈ ((cfg7.win 5).blk t).view.set ↔ ∀ a : Fin 2, win7_5.index t a * S2000x128.size a ≤ (i a).val ∧ (i a).val < win7_5.index t a * S2000x128.size a + S2000x128.size a := by
  show i ∈ ((View.whole main_v128_2).slice (win7_5.rect t)).set ↔ _
  rw [View.set_slice_whole, Rect.mem_set_unit]
  exact Iff.rfl

/-- Every row of the array is in the block of the point `row / 2000`. -/
theorem arrCover7_5 (i : S50000x128.Idx) :
    ∃ t : Fin cfg7.N, (cfg7.win 5).flush t = true ∧ i ∈ ((cfg7.win 5).blk t).view.set := by
  have hi0 : (i 0).val < 50000 := idx2_lt0 i
  have hi1 : (i 1).val < 128 := idx2_lt1 i
  have hN := cfgN7
  let t : Fin cfg7.N := ⟨(i 0).val / 2000, by rw [hN]; omega⟩
  obtain ⟨-, -, -, -, -, -, -, -, -, -, f0, f1⟩ := idx_facts7 t
  have q0 : win7_5.index t (0 : Fin 2) = (i 0).val / 2000 := f0
  refine ⟨t, flush7_5 t, ?_⟩
  rw [mem_blk7_5]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 128 ≤ (i 1).val ∧ (i 1).val < win7_5.index t (1 : Fin 2) * 128 + 128; omega

/-- The array after the region. -/
theorem final7_5 (c : Dev nD) : (dat7 V c).arrAt 5 cfg7.N = G7_5 V c :=
  (dat7 V c).arrAt_eq_of_cover 5 (G7_5 V c) (fun t _ => flushed7_5_eq V c t) (arrCover7_5)

/-! ## The three arrays after the region, entry by entry -/

/-- The k array: columns 0:128 of `h · wcat + bcat`. -/
theorem final7_k (c : Dev nD) : ∀ (i : Fin 50000) (j : Fin 128),
    ((dat7 V c).arrAt 3 cfg7.N) (ix2 i j) = Cert.Spec.lin (H7 V c) (Wc7 V c) (bc7 V c) i ⟨j.val, by omega⟩ := by
  intro i j; rw [final7_3]; rfl

/-- The qv array: columns 128:384. -/
theorem final7_qv (c : Dev nD) : ∀ (i : Fin 50000) (j : Fin 256),
    ((dat7 V c).arrAt 4 cfg7.N) (ix2 i j) = Cert.Spec.lin (H7 V c) (Wc7 V c) (bc7 V c) i ⟨128 + j.val, by omega⟩ := by
  intro i j; rw [final7_4]; rfl

/-- The s array: columns 384:512. -/
theorem final7_s (c : Dev nD) : ∀ (i : Fin 50000) (j : Fin 128),
    ((dat7 V c).arrAt 5 cfg7.N) (ix2 i j) = Cert.Spec.lin (H7 V c) (Wc7 V c) (bc7 V c) i ⟨384 + j.val, by omega⟩ := by
  intro i j; rw [final7_5]; rfl

end Cert.KernelIdeal.Hand
-- ==== Proof.KI.Host1Val.lean ====
/-
  The host stretch before region 1: layer 0's four weight matrices and four bias rows, laid side by side.

  The stretch cuts layer 0 out of the stacked weights [3, 4, 128, 128] and biases [3, 4, 128], drops the unit axis,
  swaps the first two axes of the weights, and flattens: entry (q, 128 a + j) of the concatenated weight matrix is
  entry (q, j) of the layer's matrix a, and entry 128 a + j of the concatenated bias is entry j of its bias a (the
  rounding of the weights to bf16 is the identity on the extended reals). So column 128 a + j of
  `h · wcat + bcat` is column j of `h · W a + b a`.
-/
import proofs.«180311_j29308856828500_2_alg».proof.Proof.Gen.KernelIdeal.Launch
import proofs.«180311_j29308856828500_2_alg».proof.Proof.Math.Spec
import proofs.«180311_j29308856828500_2_alg».proof.Proof.Math.Net
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-- The concatenated weights at `(q, 128 a + j)`: matrix `a` of layer 0 at `(q, j)`. -/
theorem hostOps1_w (Vin : Valuation τ sig (Elt Ideal)) (a : Fin 4) (q j : Fin 128) :
    (StableHlo.after hostOps1 Vin (Proc.devRef .tc main_v13)) (ix2 q (⟨128 * a.val + j.val, by omega⟩ : Fin 512))
      = Vin (Proc.devRef .tc main_arg4) (ix4 (0 : Fin 3) a q j) := by
  after_results_simp
  refine (truncf_apply (φ := .f32) (ψ := .bf16) _ bitsLt_bf16_f32 _).trans ?_
  -- [128, 4, 128] flattened to [128, 512]: the same row-major position
  refine (shapeCast_apply _ _ (ix2 q (⟨128 * a.val + j.val, by omega⟩ : Fin 512)) (ix3 q a j) ?_).trans ?_
  · rw [Shape.rowMajor_val_three, Shape.rowMajor_val_two]
    show (q.val * 4 + a.val) * 128 + j.val = q.val * 512 + (128 * a.val + j.val)
    omega
  -- the first two axes swapped
  refine (transpose_apply _ _ _ (ix3 q a j) (ix3 a q j)
    (fun bb => match bb with | ⟨0, _⟩ => rfl | ⟨1, _⟩ => rfl | ⟨2, _⟩ => rfl)).trans ?_
  -- the unit axis dropped
  refine (shapeCast_1abc_abc_apply _ _ a q j).trans ?_
  -- layer 0 cut out of the stack
  exact extractStridedSlice_apply _ _ _ _ (ix4 (0 : Fin 3) a q j)
    (fun ax => match ax with
      | ⟨0, _⟩ => rfl
      | ⟨1, _⟩ => (Nat.zero_add _).symm
      | ⟨2, _⟩ => (Nat.zero_add _).symm
      | ⟨3, _⟩ => (Nat.zero_add _).symm)

/-- The concatenated bias at `128 a + j`: bias `a` of layer 0 at `j`. -/
theorem hostOps1_b (Vin : Valuation τ sig (Elt Ideal)) (a : Fin 4) (j : Fin 128) :
    (StableHlo.after hostOps1 Vin (Proc.devRef .tc main_v15)) (ix2 (0 : Fin 1) (⟨128 * a.val + j.val, by omega⟩ : Fin 512))
      = Vin (Proc.devRef .tc main_arg5) (ix3 (0 : Fin 3) a j) := by
  after_results_simp
  -- a unit axis put in front of [512]
  refine (shapeCast_a_1a_apply _ _ (0 : Fin 1) (⟨128 * a.val + j.val, by omega⟩ : Fin 512)).trans ?_
  -- [4, 128] flattened to [512]: the same row-major position
  refine (shapeCast_apply _ _ (ix1 (⟨128 * a.val + j.val, by omega⟩ : Fin 512)) (ix2 a j) ?_).trans ?_
  · rw [Shape.rowMajor_val_two, Shape.rowMajor_val_one]
    show a.val * 128 + j.val = 128 * a.val + j.val
    omega
  -- the unit axis dropped
  refine (shapeCast_1ab_ab_apply _ _ a j).trans ?_
  -- layer 0 cut out of the stack
  exact extractStridedSlice_apply _ _ _ _ (ix3 (0 : Fin 3) a j)
    (fun ax => match ax with
      | ⟨0, _⟩ => rfl
      | ⟨1, _⟩ => (Nat.zero_add _).symm
      | ⟨2, _⟩ => (Nat.zero_add _).symm)

/-- Column `128 a + j` of `h · wcat + bcat` is column `j` of `h · W a + b a`, for layer 0's matrix and bias `a`. -/
theorem hostOps1_lin {n : Nat} (Vin : Valuation τ sig (Elt Ideal)) (H : Cert.Spec.Mat n 128) (a : Fin 4) (i : Fin n) (j : Fin 128) :
    Cert.Spec.lin H (Cert.Spec.toMat (r := 128) (c := 512) (StableHlo.after hostOps1 Vin (Proc.devRef .tc main_v13)))
        (fun jj : Fin 512 => (StableHlo.after hostOps1 Vin (Proc.devRef .tc main_v15) (ix2 (0 : Fin 1) jj) : EReal)) i
        (⟨128 * a.val + j.val, by omega⟩ : Fin 512)
      = Cert.Spec.lin H (fun q jj : Fin 128 => (Vin (Proc.devRef .tc main_arg4) (ix4 (0 : Fin 3) a q jj) : EReal))
          (fun jj : Fin 128 => (Vin (Proc.devRef .tc main_arg5) (ix3 (0 : Fin 3) a jj) : EReal)) i j := by
  unfold Cert.Spec.lin
  show (∑ q : Fin 128, H i q * (StableHlo.after hostOps1 Vin (Proc.devRef .tc main_v13) (ix2 q (⟨128 * a.val + j.val, by omega⟩ : Fin 512)) : EReal))
      + (StableHlo.after hostOps1 Vin (Proc.devRef .tc main_v15) (ix2 (0 : Fin 1) (⟨128 * a.val + j.val, by omega⟩ : Fin 512)) : EReal) = _
  rw [hostOps1_b Vin a j]
  exact congrArg (· + _) (Finset.sum_congr rfl fun q _ => by rw [hostOps1_w Vin a q j])

end Cert.KernelIdeal.Hand
-- ==== Proof.KI.Host4Val.lean ====
/-
  The host stretch before region 4: layer 1's four weight matrices and four bias rows, laid side by side.

  The stretch cuts layer 1 out of the stacked weights [3, 4, 128, 128] and biases [3, 4, 128], drops the unit axis,
  swaps the first two axes of the weights, and flattens: entry (q, 128 a + j) of the concatenated weight matrix is
  entry (q, j) of the layer's matrix a, and entry 128 a + j of the concatenated bias is entry j of its bias a (the
  rounding of the weights to bf16 is the identity on the extended reals). So column 128 a + j of
  `h · wcat + bcat` is column j of `h · W a + b a`.
-/
import proofs.«180311_j29308856828500_2_alg».proof.Proof.Gen.KernelIdeal.Launch
import proofs.«180311_j29308856828500_2_alg».proof.Proof.Math.Spec
import proofs.«180311_j29308856828500_2_alg».proof.Proof.Math.Net
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-- The concatenated weights at `(q, 128 a + j)`: matrix `a` of layer 1 at `(q, j)`. -/
theorem hostOps4_w (Vin : Valuation τ sig (Elt Ideal)) (a : Fin 4) (q j : Fin 128) :
    (StableHlo.after hostOps4 Vin (Proc.devRef .tc main_v69)) (ix2 q (⟨128 * a.val + j.val, by omega⟩ : Fin 512))
      = Vin (Proc.devRef .tc main_arg4) (ix4 (1 : Fin 3) a q j) := by
  after_results_simp
  refine (truncf_apply (φ := .f32) (ψ := .bf16) _ bitsLt_bf16_f32 _).trans ?_
  -- [128, 4, 128] flattened to [128, 512]: the same row-major position
  refine (shapeCast_apply _ _ (ix2 q (⟨128 * a.val + j.val, by omega⟩ : Fin 512)) (ix3 q a j) ?_).trans ?_
  · rw [Shape.rowMajor_val_three, Shape.rowMajor_val_two]
    show (q.val * 4 + a.val) * 128 + j.val = q.val * 512 + (128 * a.val + j.val)
    omega
  -- the first two axes swapped
  refine (transpose_apply _ _ _ (ix3 q a j) (ix3 a q j)
    (fun bb => match bb with | ⟨0, _⟩ => rfl | ⟨1, _⟩ => rfl | ⟨2, _⟩ => rfl)).trans ?_
  -- the unit axis dropped
  refine (shapeCast_1abc_abc_apply _ _ a q j).trans ?_
  -- layer 1 cut out of the stack
  exact extractStridedSlice_apply _ _ _ _ (ix4 (1 : Fin 3) a q j)
    (fun ax => match ax with
      | ⟨0, _⟩ => rfl
      | ⟨1, _⟩ => (Nat.zero_add _).symm
      | ⟨2, _⟩ => (Nat.zero_add _).symm
      | ⟨3, _⟩ => (Nat.zero_add _).symm)

/-- The concatenated bias at `128 a + j`: bias `a` of layer 1 at `j`. -/
theorem hostOps4_b (Vin : Valuation τ sig (Elt Ideal)) (a : Fin 4) (j : Fin 128) :
    (StableHlo.after hostOps4 Vin (Proc.devRef .tc main_v71)) (ix2 (0 : Fin 1) (⟨128 * a.val + j.val, by omega⟩ : Fin 512))
      = Vin (Proc.devRef .tc main_arg5) (ix3 (1 : Fin 3) a j) := by
  after_results_simp
  -- a unit axis put in front of [512]
  refine (shapeCast_a_1a_apply _ _ (0 : Fin 1) (⟨128 * a.val + j.val, by omega⟩ : Fin 512)).trans ?_
  -- [4, 128] flattened to [512]: the same row-major position
  refine (shapeCast_apply _ _ (ix1 (⟨128 * a.val + j.val, by omega⟩ : Fin 512)) (ix2 a j) ?_).trans ?_
  · rw [Shape.rowMajor_val_two, Shape.rowMajor_val_one]
    show a.val * 128 + j.val = 128 * a.val + j.val
    omega
  -- the unit axis dropped
  refine (shapeCast_1ab_ab_apply _ _ a j).trans ?_
  -- layer 1 cut out of the stack
  exact extractStridedSlice_apply _ _ _ _ (ix3 (1 : Fin 3) a j)
    (fun ax => match ax with
      | ⟨0, _⟩ => rfl
      | ⟨1, _⟩ => (Nat.zero_add _).symm
      | ⟨2, _⟩ => (Nat.zero_add _).symm)

/-- Column `128 a + j` of `h · wcat + bcat` is column `j` of `h · W a + b a`, for layer 1's matrix and bias `a`. -/
theorem hostOps4_lin {n : Nat} (Vin : Valuation τ sig (Elt Ideal)) (H : Cert.Spec.Mat n 128) (a : Fin 4) (i : Fin n) (j : Fin 128) :
    Cert.Spec.lin H (Cert.Spec.toMat (r := 128) (c := 512) (StableHlo.after hostOps4 Vin (Proc.devRef .tc main_v69)))
        (fun jj : Fin 512 => (StableHlo.after hostOps4 Vin (Proc.devRef .tc main_v71) (ix2 (0 : Fin 1) jj) : EReal)) i
        (⟨128 * a.val + j.val, by omega⟩ : Fin 512)
      = Cert.Spec.lin H (fun q jj : Fin 128 => (Vin (Proc.devRef .tc main_arg4) (ix4 (1 : Fin 3) a q jj) : EReal))
          (fun jj : Fin 128 => (Vin (Proc.devRef .tc main_arg5) (ix3 (1 : Fin 3) a jj) : EReal)) i j := by
  unfold Cert.Spec.lin
  show (∑ q : Fin 128, H i q * (StableHlo.after hostOps4 Vin (Proc.devRef .tc main_v69) (ix2 q (⟨128 * a.val + j.val, by omega⟩ : Fin 512)) : EReal))
      + (StableHlo.after hostOps4 Vin (Proc.devRef .tc main_v71) (ix2 (0 : Fin 1) (⟨128 * a.val + j.val, by omega⟩ : Fin 512)) : EReal) = _
  rw [hostOps4_b Vin a j]
  exact congrArg (· + _) (Finset.sum_congr rfl fun q _ => by rw [hostOps4_w Vin a q j])

end Cert.KernelIdeal.Hand
-- ==== Proof.KI.Host7Val.lean ====
/-
  The host stretch before region 7: layer 2's four weight matrices and four bias rows, laid side by side.

  The stretch cuts layer 2 out of the stacked weights [3, 4, 128, 128] and biases [3, 4, 128], drops the unit axis,
  swaps the first two axes of the weights, and flattens: entry (q, 128 a + j) of the concatenated weight matrix is
  entry (q, j) of the layer's matrix a, and entry 128 a + j of the concatenated bias is entry j of its bias a (the
  rounding of the weights to bf16 is the identity on the extended reals). So column 128 a + j of
  `h · wcat + bcat` is column j of `h · W a + b a`.
-/
import proofs.«180311_j29308856828500_2_alg».proof.Proof.Gen.KernelIdeal.Launch
import proofs.«180311_j29308856828500_2_alg».proof.Proof.Math.Spec
import proofs.«180311_j29308856828500_2_alg».proof.Proof.Math.Net
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-- The concatenated weights at `(q, 128 a + j)`: matrix `a` of layer 2 at `(q, j)`. -/
theorem hostOps7_w (Vin : Valuation τ sig (Elt Ideal)) (a : Fin 4) (q j : Fin 128) :
    (StableHlo.after hostOps7 Vin (Proc.devRef .tc main_v125)) (ix2 q (⟨128 * a.val + j.val, by omega⟩ : Fin 512))
      = Vin (Proc.devRef .tc main_arg4) (ix4 (2 : Fin 3) a q j) := by
  after_results_simp
  refine (truncf_apply (φ := .f32) (ψ := .bf16) _ bitsLt_bf16_f32 _).trans ?_
  -- [128, 4, 128] flattened to [128, 512]: the same row-major position
  refine (shapeCast_apply _ _ (ix2 q (⟨128 * a.val + j.val, by omega⟩ : Fin 512)) (ix3 q a j) ?_).trans ?_
  · rw [Shape.rowMajor_val_three, Shape.rowMajor_val_two]
    show (q.val * 4 + a.val) * 128 + j.val = q.val * 512 + (128 * a.val + j.val)
    omega
  -- the first two axes swapped
  refine (transpose_apply _ _ _ (ix3 q a j) (ix3 a q j)
    (fun bb => match bb with | ⟨0, _⟩ => rfl | ⟨1, _⟩ => rfl | ⟨2, _⟩ => rfl)).trans ?_
  -- the unit axis dropped
  refine (shapeCast_1abc_abc_apply _ _ a q j).trans ?_
  -- layer 2 cut out of the stack
  exact extractStridedSlice_apply _ _ _ _ (ix4 (2 : Fin 3) a q j)
    (fun ax => match ax with
      | ⟨0, _⟩ => rfl
      | ⟨1, _⟩ => (Nat.zero_add _).symm
      | ⟨2, _⟩ => (Nat.zero_add _).symm
      | ⟨3, _⟩ => (Nat.zero_add _).symm)

/-- The concatenated bias at `128 a + j`: bias `a` of layer 2 at `j`. -/
theorem hostOps7_b (Vin : Valuation τ sig (Elt Ideal)) (a : Fin 4) (j : Fin 128) :
    (StableHlo.after hostOps7 Vin (Proc.devRef .tc main_v127)) (ix2 (0 : Fin 1) (⟨128 * a.val + j.val, by omega⟩ : Fin 512))
      = Vin (Proc.devRef .tc main_arg5) (ix3 (2 : Fin 3) a j) := by
  after_results_simp
  -- a unit axis put in front of [512]
  refine (shapeCast_a_1a_apply _ _ (0 : Fin 1) (⟨128 * a.val + j.val, by omega⟩ : Fin 512)).trans ?_
  -- [4, 128] flattened to [512]: the same row-major position
  refine (shapeCast_apply _ _ (ix1 (⟨128 * a.val + j.val, by omega⟩ : Fin 512)) (ix2 a j) ?_).trans ?_
  · rw [Shape.rowMajor_val_two, Shape.rowMajor_val_one]
    show a.val * 128 + j.val = 128 * a.val + j.val
    omega
  -- the unit axis dropped
  refine (shapeCast_1ab_ab_apply _ _ a j).trans ?_
  -- layer 2 cut out of the stack
  exact extractStridedSlice_apply _ _ _ _ (ix3 (2 : Fin 3) a j)
    (fun ax => match ax with
      | ⟨0, _⟩ => rfl
      | ⟨1, _⟩ => (Nat.zero_add _).symm
      | ⟨2, _⟩ => (Nat.zero_add _).symm)

/-- Column `128 a + j` of `h · wcat + bcat` is column `j` of `h · W a + b a`, for layer 2's matrix and bias `a`. -/
theorem hostOps7_lin {n : Nat} (Vin : Valuation τ sig (Elt Ideal)) (H : Cert.Spec.Mat n 128) (a : Fin 4) (i : Fin n) (j : Fin 128) :
    Cert.Spec.lin H (Cert.Spec.toMat (r := 128) (c := 512) (StableHlo.after hostOps7 Vin (Proc.devRef .tc main_v125)))
        (fun jj : Fin 512 => (StableHlo.after hostOps7 Vin (Proc.devRef .tc main_v127) (ix2 (0 : Fin 1) jj) : EReal)) i
        (⟨128 * a.val + j.val, by omega⟩ : Fin 512)
      = Cert.Spec.lin H (fun q jj : Fin 128 => (Vin (Proc.devRef .tc main_arg4) (ix4 (2 : Fin 3) a q jj) : EReal))
          (fun jj : Fin 128 => (Vin (Proc.devRef .tc main_arg5) (ix3 (2 : Fin 3) a jj) : EReal)) i j := by
  unfold Cert.Spec.lin
  show (∑ q : Fin 128, H i q * (StableHlo.after hostOps7 Vin (Proc.devRef .tc main_v125) (ix2 q (⟨128 * a.val + j.val, by omega⟩ : Fin 512)) : EReal))
      + (StableHlo.after hostOps7 Vin (Proc.devRef .tc main_v127) (ix2 (0 : Fin 1) (⟨128 * a.val + j.val, by omega⟩ : Fin 512)) : EReal) = _
  rw [hostOps7_b Vin a j]
  exact congrArg (· + _) (Finset.sum_congr rfl fun q _ => by rw [hostOps7_w Vin a q j])

end Cert.KernelIdeal.Hand
-- ==== Proof.KI.Host2Val.lean ====
/-
  The host stretches between the projection and the fused update, read as one function.

  Each of the three stretches normalises the two index arrays, gathers rows of the projected arrays, forms the
  gate and the gated values and adds them into an array of zeros. Operation by operation its result buffer holds
  the kernel's aggregation chain of the two projected arrays and the two index arrays it found.
-/
import proofs.«180311_j29308856828500_2_alg».proof.Proof.Gen.KernelIdeal.Launch
import proofs.«180311_j29308856828500_2_alg».proof.Proof.Math.EdgeChain
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- After the first stretch the aggregate buffer holds the kernel's chain of `k`, `qv`, the sources, the destinations. -/
theorem hostOps2_val (Vin : Valuation τ sig (Elt F)) :
    StableHlo.after hostOps2 Vin (Proc.devRef .tc main_v46)
      = Cert.Edge.aggK gather_S50000x128_S600000x1_S600000x128_1_0_n_n_0_1_1128
          gather_S50000x256_S600000x1_S600000x256_1_0_n_n_0_1_1256 scatter_S50000x128_S600000x1_S600000x128_1_0_0_1
          (Vin (Proc.devRef .tc main_v16_0)) (Vin (Proc.devRef .tc main_v16_1))
          (Vin (Proc.devRef .tc main_v1)) (Vin (Proc.devRef .tc main_v3)) := by
  after_results_simp
  rfl

/-- After the second stretch, likewise. -/
theorem hostOps5_val (Vin : Valuation τ sig (Elt F)) :
    StableHlo.after hostOps5 Vin (Proc.devRef .tc main_v102)
      = Cert.Edge.aggK gather_S50000x128_S600000x1_S600000x128_1_0_n_n_0_1_1128
          gather_S50000x256_S600000x1_S600000x256_1_0_n_n_0_1_1256 scatter_S50000x128_S600000x1_S600000x128_1_0_0_1
          (Vin (Proc.devRef .tc main_v72_0)) (Vin (Proc.devRef .tc main_v72_1))
          (Vin (Proc.devRef .tc main_v1)) (Vin (Proc.devRef .tc main_v3)) := by
  after_results_simp
  rfl

/-- After the third stretch, likewise. -/
theorem hostOps8_val (Vin : Valuation τ sig (Elt F)) :
    StableHlo.after hostOps8 Vin (Proc.devRef .tc main_v158)
      = Cert.Edge.aggK gather_S50000x128_S600000x1_S600000x128_1_0_n_n_0_1_1128
          gather_S50000x256_S600000x1_S600000x256_1_0_n_n_0_1_1256 scatter_S50000x128_S600000x1_S600000x128_1_0_0_1
          (Vin (Proc.devRef .tc main_v128_0)) (Vin (Proc.devRef .tc main_v128_1))
          (Vin (Proc.devRef .tc main_v1)) (Vin (Proc.devRef .tc main_v3)) := by
  after_results_simp
  rfl

/-- The kernel's chain is the reference's at `k`, `qv[:, 0:128]`, `qv[:, 128:256]` widened: the printed records. -/
theorem aggK_printed_eq (k : FVec F Cert.Edge.SNC .bf16) (qv : FVec F Cert.Edge.SNM .bf16) (src dst : IVec Cert.Edge.SE 32) :
    Cert.Edge.aggK gather_S50000x128_S600000x1_S600000x128_1_0_n_n_0_1_1128
        gather_S50000x256_S600000x1_S600000x256_1_0_n_n_0_1_1256 scatter_S50000x128_S600000x1_S600000x128_1_0_0_1 k qv src dst
      = Cert.Edge.aggR gather_S50000x128_S600000x1_S600000x128_1_0_n_n_0_1_1128
          scatter_S50000x128_S600000x1_S600000x128_1_0_0_1
          (extf .f32 k Cert.Edge.bitsLt_bf16_f32)
          (extf .f32 (extractStridedSlice Cert.Edge.SNC ![0, 0] qv Cert.Edge.slices_SNM_0) Cert.Edge.bitsLt_bf16_f32)
          (extf .f32 (extractStridedSlice Cert.Edge.SNC ![0, 128] qv Cert.Edge.slices_SNM_128) Cert.Edge.bitsLt_bf16_f32)
          src dst :=
  Cert.Edge.aggK_eq _ rfl rfl rfl rfl rfl rfl rfl _ rfl rfl rfl rfl rfl rfl rfl _ k qv src dst

end Cert.KernelIdeal.Hand

end
-- ==== Proof.KI.ChainLin.lean ====
import proofs.«180311_j29308856828500_2_alg».proof.Proof.KI.ChainEdge
import proofs.«180311_j29308856828500_2_alg».proof.Proof.KI.Val1
import proofs.«180311_j29308856828500_2_alg».proof.Proof.KI.Val4
import proofs.«180311_j29308856828500_2_alg».proof.Proof.KI.Val7
import proofs.«180311_j29308856828500_2_alg».proof.Proof.KI.Host1Val
import proofs.«180311_j29308856828500_2_alg».proof.Proof.KI.Host4Val
import proofs.«180311_j29308856828500_2_alg».proof.Proof.KI.Host7Val
import proofs.«180311_j29308856828500_2_alg».proof.Proof.KI.Host2Val
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

namespace Chain

/-! ## Layer 0: the four linear maps and the aggregate -/

/-- Column `128 a + j` of the activations times the concatenated weights plus the concatenated bias is column `j` of
    the activations times the layer's matrix `a` plus its bias `a`. -/
theorem lin0_col (H : Cert.Spec.Mat 50000 128) (hH : Cert.Spec.toMat (W2 m c main_v6 : S50000x128.Idx → EReal) = H) (a : Fin 4) (i : Fin 50000) (j : Fin 128) (col : Fin 512) (hcol : col.val = 128 * a.val + j.val) :
    Cert.Spec.lin (H1 (fun c b => W3 m c b) c) (Wc1 (fun c b => W3 m c b) c) (bc1 (fun c b => W3 m c b) c) i col = Cert.Spec.lin H (netW m c 0 a) (netB m c 0 a) i j := by
  obtain ⟨cv, hcv⟩ := col
  obtain rfl : cv = 128 * a.val + j.val := hcol
  have eH : H1 (fun c b => W3 m c b) c = H := by
    show Cert.Spec.toMat (W3 m c main_v6 : S50000x128.Idx → EReal) = H
    rw [W3_of m c main_v6 (by decide)]; exact hH
  rw [eH]
  refine (hostOps1_lin (W2 m c) H a i j).trans ?_
  show Cert.Spec.lin H (fun q jj : Fin 128 => (W2 m c main_arg4 : S3x4x128x128.Idx → EReal) (ix4 (0 : Fin 3) a q jj))
      (fun jj : Fin 128 => (W2 m c main_arg5 : S3x4x128.Idx → EReal) (ix3 (0 : Fin 3) a jj)) i j = _
  rw [keep2_0_main_arg4 m c, keep2_0_main_arg5 m c]

/-- The keys. -/
theorem k0 (H : Cert.Spec.Mat 50000 128) (hH : Cert.Spec.toMat (W2 m c main_v6 : S50000x128.Idx → EReal) = H) (i : Fin 50000) (j : Fin 128) :
    (W4 m c main_v16_0 : S50000x128.Idx → EReal) (ix2 i j) = Cert.Spec.lin H (netW m c 0 0) (netB m c 0 0) i j := by
  rw [W4_at0]
  unfold O4_0
  refine (final1_k (fun c b => W3 m c b) c i j).trans ?_
  exact lin0_col m c H hH 0 i j _ (by show j.val = 128 * 0 + j.val; omega)

/-- The queries: the first 128 columns of the second output. -/
theorem q0 (H : Cert.Spec.Mat 50000 128) (hH : Cert.Spec.toMat (W2 m c main_v6 : S50000x128.Idx → EReal) = H) (i : Fin 50000) (j : Fin 128) (col : Fin 256) (hcol : col.val = j.val) :
    (W4 m c main_v16_1 : S50000x256.Idx → EReal) (ix2 i col) = Cert.Spec.lin H (netW m c 0 1) (netB m c 0 1) i j := by
  rw [W4_at1]
  unfold O4_1
  refine (final1_qv (fun c b => W3 m c b) c i col).trans ?_
  exact lin0_col m c H hH 1 i j _ (by show 128 + col.val = 128 * 1 + j.val; omega)

/-- The values: the last 128 columns of the second output. -/
theorem v0 (H : Cert.Spec.Mat 50000 128) (hH : Cert.Spec.toMat (W2 m c main_v6 : S50000x128.Idx → EReal) = H) (i : Fin 50000) (j : Fin 128) (col : Fin 256) (hcol : col.val = 128 + j.val) :
    (W4 m c main_v16_1 : S50000x256.Idx → EReal) (ix2 i col) = Cert.Spec.lin H (netW m c 0 2) (netB m c 0 2) i j := by
  rw [W4_at1]
  unfold O4_1
  refine (final1_qv (fun c b => W3 m c b) c i col).trans ?_
  exact lin0_col m c H hH 2 i j _ (by show 128 + col.val = 128 * 2 + j.val; omega)

/-- The skip term. -/
theorem s0 (H : Cert.Spec.Mat 50000 128) (hH : Cert.Spec.toMat (W2 m c main_v6 : S50000x128.Idx → EReal) = H) (i : Fin 50000) (j : Fin 128) :
    (W4 m c main_v16_2 : S50000x128.Idx → EReal) (ix2 i j) = Cert.Spec.lin H (netW m c 0 3) (netB m c 0 3) i j := by
  rw [W4_at2]
  unfold O4_2
  refine (final1_s (fun c b => W3 m c b) c i j).trans ?_
  exact lin0_col m c H hH 3 i j _ (by show 384 + j.val = 128 * 3 + j.val; omega)

/-- The aggregate the host computes between the two regions: the aggregation of the layer's keys, queries and values
    along the edges (widening a float format is the identity on the extended reals). -/
theorem agg0 (H : Cert.Spec.Mat 50000 128) (hH : Cert.Spec.toMat (W2 m c main_v6 : S50000x128.Idx → EReal) = H) :
    Cert.Spec.toMat (W5 m c main_v46 : S50000x128.Idx → EReal) = netA m c (Cert.Spec.lin H (netW m c 0 0) (netB m c 0 0)) (Cert.Spec.lin H (netW m c 0 1) (netB m c 0 1)) (Cert.Spec.lin H (netW m c 0 2) (netB m c 0 2)) := by
  have e : @Eq (FVec Ideal Cert.Edge.SNC .f32) (W5 m c main_v46)
      (Cert.Edge.aggR (F := Ideal) gather_S50000x128_S600000x1_S600000x128_1_0_n_n_0_1_1128 scatter_S50000x128_S600000x1_S600000x128_1_0_0_1
          (Cert.Spec.ofMat (Cert.Spec.lin H (netW m c 0 0) (netB m c 0 0))) (Cert.Spec.ofMat (Cert.Spec.lin H (netW m c 0 1) (netB m c 0 1))) (Cert.Spec.ofMat (Cert.Spec.lin H (netW m c 0 2) (netB m c 0 2))) (netSrc m c) (netDst m c)) := by
    refine (hostOps2_val (W4 m c)).trans ?_
    rw [aggK_printed_eq, keep4_1_main_v1 m c, keep4_1_main_v3 m c, src1 m c, dst1 m c]
    refine Cert.Edge.aggR_congr _ _ ?_ ?_ ?_ _ _
    · funext idx
      obtain ⟨i, j, rfl⟩ : ∃ (i : Fin 50000) (j : Fin 128), idx = ix2 i j := ⟨idx 0, idx 1, eq_ix2 idx⟩
      exact k0 m c H hH i j
    · funext idx
      obtain ⟨i, j, rfl⟩ : ∃ (i : Fin 50000) (j : Fin 128), idx = ix2 i j := ⟨idx 0, idx 1, eq_ix2 idx⟩
      refine (extf_apply (φ := .bf16) (ψ := .f32) _ Cert.Edge.bitsLt_bf16_f32 _).trans ?_
      refine (Cert.Edge.cols_apply (by decide : 0 + 128 ≤ 256) _ _ i j).trans ?_
      exact q0 m c H hH i j _ (by show 0 + j.val = j.val; omega)
    · funext idx
      obtain ⟨i, j, rfl⟩ : ∃ (i : Fin 50000) (j : Fin 128), idx = ix2 i j := ⟨idx 0, idx 1, eq_ix2 idx⟩
      refine (extf_apply (φ := .bf16) (ψ := .f32) _ Cert.Edge.bitsLt_bf16_f32 _).trans ?_
      refine (Cert.Edge.cols_apply (by decide : 128 + 128 ≤ 256) _ _ i j).trans ?_
      exact v0 m c H hH i j _ rfl
  exact congrArg (fun f : Cert.Edge.SNC.Idx → EReal => Cert.Spec.toMat f) e

/-! ## Layer 1: the four linear maps and the aggregate -/

/-- Column `128 a + j` of the activations times the concatenated weights plus the concatenated bias is column `j` of
    the activations times the layer's matrix `a` plus its bias `a`. -/
theorem lin1_col (H : Cert.Spec.Mat 50000 128) (hH : Cert.Spec.toMat (W8 m c main_v62 : S50000x128.Idx → EReal) = H) (a : Fin 4) (i : Fin 50000) (j : Fin 128) (col : Fin 512) (hcol : col.val = 128 * a.val + j.val) :
    Cert.Spec.lin (H4 (fun c b => W9 m c b) c) (Wc4 (fun c b => W9 m c b) c) (bc4 (fun c b => W9 m c b) c) i col = Cert.Spec.lin H (netW m c 1 a) (netB m c 1 a) i j := by
  obtain ⟨cv, hcv⟩ := col
  obtain rfl : cv = 128 * a.val + j.val := hcol
  have eH : H4 (fun c b => W9 m c b) c = H := by
    show Cert.Spec.toMat (W9 m c main_v62 : S50000x128.Idx → EReal) = H
    rw [W9_of m c main_v62 (by decide)]; exact hH
  rw [eH]
  refine (hostOps4_lin (W8 m c) H a i j).trans ?_
  show Cert.Spec.lin H (fun q jj : Fin 128 => (W8 m c main_arg4 : S3x4x128x128.Idx → EReal) (ix4 (1 : Fin 3) a q jj))
      (fun jj : Fin 128 => (W8 m c main_arg5 : S3x4x128.Idx → EReal) (ix3 (1 : Fin 3) a jj)) i j = _
  rw [keep8_0_main_arg4 m c, keep8_0_main_arg5 m c]

/-- The keys. -/
theorem k1 (H : Cert.Spec.Mat 50000 128) (hH : Cert.Spec.toMat (W8 m c main_v62 : S50000x128.Idx → EReal) = H) (i : Fin 50000) (j : Fin 128) :
    (W10 m c main_v72_0 : S50000x128.Idx → EReal) (ix2 i j) = Cert.Spec.lin H (netW m c 1 0) (netB m c 1 0) i j := by
  rw [W10_at0]
  unfold O10_0
  refine (final4_k (fun c b => W9 m c b) c i j).trans ?_
  exact lin1_col m c H hH 0 i j _ (by show j.val = 128 * 0 + j.val; omega)

/-- The queries: the first 128 columns of the second output. -/
theorem q1 (H : Cert.Spec.Mat 50000 128) (hH : Cert.Spec.toMat (W8 m c main_v62 : S50000x128.Idx → EReal) = H) (i : Fin 50000) (j : Fin 128) (col : Fin 256) (hcol : col.val = j.val) :
    (W10 m c main_v72_1 : S50000x256.Idx → EReal) (ix2 i col) = Cert.Spec.lin H (netW m c 1 1) (netB m c 1 1) i j := by
  rw [W10_at1]
  unfold O10_1
  refine (final4_qv (fun c b => W9 m c b) c i col).trans ?_
  exact lin1_col m c H hH 1 i j _ (by show 128 + col.val = 128 * 1 + j.val; omega)

/-- The values: the last 128 columns of the second output. -/
theorem v1 (H : Cert.Spec.Mat 50000 128) (hH : Cert.Spec.toMat (W8 m c main_v62 : S50000x128.Idx → EReal) = H) (i : Fin 50000) (j : Fin 128) (col : Fin 256) (hcol : col.val = 128 + j.val) :
    (W10 m c main_v72_1 : S50000x256.Idx → EReal) (ix2 i col) = Cert.Spec.lin H (netW m c 1 2) (netB m c 1 2) i j := by
  rw [W10_at1]
  unfold O10_1
  refine (final4_qv (fun c b => W9 m c b) c i col).trans ?_
  exact lin1_col m c H hH 2 i j _ (by show 128 + col.val = 128 * 2 + j.val; omega)

/-- The skip term. -/
theorem s1 (H : Cert.Spec.Mat 50000 128) (hH : Cert.Spec.toMat (W8 m c main_v62 : S50000x128.Idx → EReal) = H) (i : Fin 50000) (j : Fin 128) :
    (W10 m c main_v72_2 : S50000x128.Idx → EReal) (ix2 i j) = Cert.Spec.lin H (netW m c 1 3) (netB m c 1 3) i j := by
  rw [W10_at2]
  unfold O10_2
  refine (final4_s (fun c b => W9 m c b) c i j).trans ?_
  exact lin1_col m c H hH 3 i j _ (by show 384 + j.val = 128 * 3 + j.val; omega)

/-- The aggregate the host computes between the two regions: the aggregation of the layer's keys, queries and values
    along the edges (widening a float format is the identity on the extended reals). -/
theorem agg1 (H : Cert.Spec.Mat 50000 128) (hH : Cert.Spec.toMat (W8 m c main_v62 : S50000x128.Idx → EReal) = H) :
    Cert.Spec.toMat (W11 m c main_v102 : S50000x128.Idx → EReal) = netA m c (Cert.Spec.lin H (netW m c 1 0) (netB m c 1 0)) (Cert.Spec.lin H (netW m c 1 1) (netB m c 1 1)) (Cert.Spec.lin H (netW m c 1 2) (netB m c 1 2)) := by
  have e : @Eq (FVec Ideal Cert.Edge.SNC .f32) (W11 m c main_v102)
      (Cert.Edge.aggR (F := Ideal) gather_S50000x128_S600000x1_S600000x128_1_0_n_n_0_1_1128 scatter_S50000x128_S600000x1_S600000x128_1_0_0_1
          (Cert.Spec.ofMat (Cert.Spec.lin H (netW m c 1 0) (netB m c 1 0))) (Cert.Spec.ofMat (Cert.Spec.lin H (netW m c 1 1) (netB m c 1 1))) (Cert.Spec.ofMat (Cert.Spec.lin H (netW m c 1 2) (netB m c 1 2))) (netSrc m c) (netDst m c)) := by
    refine (hostOps5_val (W10 m c)).trans ?_
    rw [aggK_printed_eq, keep10_1_main_v1 m c, keep10_1_main_v3 m c, src1 m c, dst1 m c]
    refine Cert.Edge.aggR_congr _ _ ?_ ?_ ?_ _ _
    · funext idx
      obtain ⟨i, j, rfl⟩ : ∃ (i : Fin 50000) (j : Fin 128), idx = ix2 i j := ⟨idx 0, idx 1, eq_ix2 idx⟩
      exact k1 m c H hH i j
    · funext idx
      obtain ⟨i, j, rfl⟩ : ∃ (i : Fin 50000) (j : Fin 128), idx = ix2 i j := ⟨idx 0, idx 1, eq_ix2 idx⟩
      refine (extf_apply (φ := .bf16) (ψ := .f32) _ Cert.Edge.bitsLt_bf16_f32 _).trans ?_
      refine (Cert.Edge.cols_apply (by decide : 0 + 128 ≤ 256) _ _ i j).trans ?_
      exact q1 m c H hH i j _ (by show 0 + j.val = j.val; omega)
    · funext idx
      obtain ⟨i, j, rfl⟩ : ∃ (i : Fin 50000) (j : Fin 128), idx = ix2 i j := ⟨idx 0, idx 1, eq_ix2 idx⟩
      refine (extf_apply (φ := .bf16) (ψ := .f32) _ Cert.Edge.bitsLt_bf16_f32 _).trans ?_
      refine (Cert.Edge.cols_apply (by decide : 128 + 128 ≤ 256) _ _ i j).trans ?_
      exact v1 m c H hH i j _ rfl
  exact congrArg (fun f : Cert.Edge.SNC.Idx → EReal => Cert.Spec.toMat f) e

/-! ## Layer 2: the four linear maps and the aggregate -/

/-- Column `128 a + j` of the activations times the concatenated weights plus the concatenated bias is column `j` of
    the activations times the layer's matrix `a` plus its bias `a`. -/
theorem lin2_col (H : Cert.Spec.Mat 50000 128) (hH : Cert.Spec.toMat (W14 m c main_v118 : S50000x128.Idx → EReal) = H) (a : Fin 4) (i : Fin 50000) (j : Fin 128) (col : Fin 512) (hcol : col.val = 128 * a.val + j.val) :
    Cert.Spec.lin (H7 (fun c b => W15 m c b) c) (Wc7 (fun c b => W15 m c b) c) (bc7 (fun c b => W15 m c b) c) i col = Cert.Spec.lin H (netW m c 2 a) (netB m c 2 a) i j := by
  obtain ⟨cv, hcv⟩ := col
  obtain rfl : cv = 128 * a.val + j.val := hcol
  have eH : H7 (fun c b => W15 m c b) c = H := by
    show Cert.Spec.toMat (W15 m c main_v118 : S50000x128.Idx → EReal) = H
    rw [W15_of m c main_v118 (by decide)]; exact hH
  rw [eH]
  refine (hostOps7_lin (W14 m c) H a i j).trans ?_
  show Cert.Spec.lin H (fun q jj : Fin 128 => (W14 m c main_arg4 : S3x4x128x128.Idx → EReal) (ix4 (2 : Fin 3) a q jj))
      (fun jj : Fin 128 => (W14 m c main_arg5 : S3x4x128.Idx → EReal) (ix3 (2 : Fin 3) a jj)) i j = _
  rw [keep14_0_main_arg4 m c, keep14_0_main_arg5 m c]

/-- The keys. -/
theorem k2 (H : Cert.Spec.Mat 50000 128) (hH : Cert.Spec.toMat (W14 m c main_v118 : S50000x128.Idx → EReal) = H) (i : Fin 50000) (j : Fin 128) :
    (W16 m c main_v128_0 : S50000x128.Idx → EReal) (ix2 i j) = Cert.Spec.lin H (netW m c 2 0) (netB m c 2 0) i j := by
  rw [W16_at0]
  unfold O16_0
  refine (final7_k (fun c b => W15 m c b) c i j).trans ?_
  exact lin2_col m c H hH 0 i j _ (by show j.val = 128 * 0 + j.val; omega)

/-- The queries: the first 128 columns of the second output. -/
theorem q2 (H : Cert.Spec.Mat 50000 128) (hH : Cert.Spec.toMat (W14 m c main_v118 : S50000x128.Idx → EReal) = H) (i : Fin 50000) (j : Fin 128) (col : Fin 256) (hcol : col.val = j.val) :
    (W16 m c main_v128_1 : S50000x256.Idx → EReal) (ix2 i col) = Cert.Spec.lin H (netW m c 2 1) (netB m c 2 1) i j := by
  rw [W16_at1]
  unfold O16_1
  refine (final7_qv (fun c b => W15 m c b) c i col).trans ?_
  exact lin2_col m c H hH 1 i j _ (by show 128 + col.val = 128 * 1 + j.val; omega)

/-- The values: the last 128 columns of the second output. -/
theorem v2 (H : Cert.Spec.Mat 50000 128) (hH : Cert.Spec.toMat (W14 m c main_v118 : S50000x128.Idx → EReal) = H) (i : Fin 50000) (j : Fin 128) (col : Fin 256) (hcol : col.val = 128 + j.val) :
    (W16 m c main_v128_1 : S50000x256.Idx → EReal) (ix2 i col) = Cert.Spec.lin H (netW m c 2 2) (netB m c 2 2) i j := by
  rw [W16_at1]
  unfold O16_1
  refine (final7_qv (fun c b => W15 m c b) c i col).trans ?_
  exact lin2_col m c H hH 2 i j _ (by show 128 + col.val = 128 * 2 + j.val; omega)

/-- The skip term. -/
theorem s2 (H : Cert.Spec.Mat 50000 128) (hH : Cert.Spec.toMat (W14 m c main_v118 : S50000x128.Idx → EReal) = H) (i : Fin 50000) (j : Fin 128) :
    (W16 m c main_v128_2 : S50000x128.Idx → EReal) (ix2 i j) = Cert.Spec.lin H (netW m c 2 3) (netB m c 2 3) i j := by
  rw [W16_at2]
  unfold O16_2
  refine (final7_s (fun c b => W15 m c b) c i j).trans ?_
  exact lin2_col m c H hH 3 i j _ (by show 384 + j.val = 128 * 3 + j.val; omega)

/-- The aggregate the host computes between the two regions: the aggregation of the layer's keys, queries and values
    along the edges (widening a float format is the identity on the extended reals). -/
theorem agg2 (H : Cert.Spec.Mat 50000 128) (hH : Cert.Spec.toMat (W14 m c main_v118 : S50000x128.Idx → EReal) = H) :
    Cert.Spec.toMat (W17 m c main_v158 : S50000x128.Idx → EReal) = netA m c (Cert.Spec.lin H (netW m c 2 0) (netB m c 2 0)) (Cert.Spec.lin H (netW m c 2 1) (netB m c 2 1)) (Cert.Spec.lin H (netW m c 2 2) (netB m c 2 2)) := by
  have e : @Eq (FVec Ideal Cert.Edge.SNC .f32) (W17 m c main_v158)
      (Cert.Edge.aggR (F := Ideal) gather_S50000x128_S600000x1_S600000x128_1_0_n_n_0_1_1128 scatter_S50000x128_S600000x1_S600000x128_1_0_0_1
          (Cert.Spec.ofMat (Cert.Spec.lin H (netW m c 2 0) (netB m c 2 0))) (Cert.Spec.ofMat (Cert.Spec.lin H (netW m c 2 1) (netB m c 2 1))) (Cert.Spec.ofMat (Cert.Spec.lin H (netW m c 2 2) (netB m c 2 2))) (netSrc m c) (netDst m c)) := by
    refine (hostOps8_val (W16 m c)).trans ?_
    rw [aggK_printed_eq, keep16_1_main_v1 m c, keep16_1_main_v3 m c, src1 m c, dst1 m c]
    refine Cert.Edge.aggR_congr _ _ ?_ ?_ ?_ _ _
    · funext idx
      obtain ⟨i, j, rfl⟩ : ∃ (i : Fin 50000) (j : Fin 128), idx = ix2 i j := ⟨idx 0, idx 1, eq_ix2 idx⟩
      exact k2 m c H hH i j
    · funext idx
      obtain ⟨i, j, rfl⟩ : ∃ (i : Fin 50000) (j : Fin 128), idx = ix2 i j := ⟨idx 0, idx 1, eq_ix2 idx⟩
      refine (extf_apply (φ := .bf16) (ψ := .f32) _ Cert.Edge.bitsLt_bf16_f32 _).trans ?_
      refine (Cert.Edge.cols_apply (by decide : 0 + 128 ≤ 256) _ _ i j).trans ?_
      exact q2 m c H hH i j _ (by show 0 + j.val = j.val; omega)
    · funext idx
      obtain ⟨i, j, rfl⟩ : ∃ (i : Fin 50000) (j : Fin 128), idx = ix2 i j := ⟨idx 0, idx 1, eq_ix2 idx⟩
      refine (extf_apply (φ := .bf16) (ψ := .f32) _ Cert.Edge.bitsLt_bf16_f32 _).trans ?_
      refine (Cert.Edge.cols_apply (by decide : 128 + 128 ≤ 256) _ _ i j).trans ?_
      exact v2 m c H hH i j _ rfl
  exact congrArg (fun f : Cert.Edge.SNC.Idx → EReal => Cert.Spec.toMat f) e

end Chain

end Cert.KernelIdeal.Hand
-- ==== Proof.KI.Reg2Forms.lean ====
/- Region 2: what its body computes, read off the runs — output 2 holds the sum of the two input blocks after every point; the two
   accumulators hold, after point n, the zero row plus the column sums (of the block, of its squares) of points 0..n, added in the
   grid's order; after the last point outputs 3 and 4 hold the accumulators. -/
import proofs.«180311_j29308856828500_2_alg».proof.Proof.KI.Reg2Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

theorem hz2 : (![0, 0] : Fin 2 → Nat) = fun _ => 0 := funext fun a => by fin_cases a <;> rfl

/-! ## What each case leaves, as terms of the point's two input blocks and of what the accumulators held -/

theorem out2_A_2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i) (x0 : Vec F S2000x128 .f32) (x1 : Vec F S2000x128 .f32) :
    out2_A_2 c i arg1 harg1 arg2 harg2 arg3 harg3 arg4 harg4 arg5 harg5 arg6 harg6 arg7 harg7 hc0 hc1 x0 x1 = k2_pay3 x0 x1 := by
  unfold out2_A_2
  rw [View.read_writes_eq_canon _ _ _ (cover2_A_2 c i arg1 harg1 arg2 harg2 arg3 harg3 arg4 harg4 arg5 harg5 arg6 harg6 arg7 harg7 hc0 hc1 x0 x1)]
  unfold kernelRun2_A
  dsimp only
  try sl_unfold_words
  rw [View.canon_unit_zero hz2]
  simp only [View.readAt_eq_ld, harg1.read_unread, harg2.read_unread, View.ld_unit_zero (S := S2000x128) hz2, View.ld_unit_zero (S := S1x128) hz2]

theorem sout2_A_0_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i) (x0 : Vec F S2000x128 .f32) (x1 : Vec F S2000x128 .f32) :
    sout2_A_0 c i arg1 harg1 arg2 harg2 arg3 harg3 arg4 harg4 arg5 harg5 arg6 harg6 arg7 harg7 hc0 hc1 x0 x1 = k2_pay4 x0 x1 (k2_pay1 (F := F)) := by
  unfold sout2_A_0
  rw [View.read_writes_eq_canon _ _ _ (scover2_A_0 c i arg1 harg1 arg2 harg2 arg3 harg3 arg4 harg4 arg5 harg5 arg6 harg6 arg7 harg7 hc0 hc1 x0 x1)]
  unfold kernelRun2_A
  dsimp only
  try sl_unfold_words
  rw [View.canon_cons_unit_zero hz2]
  rw [View.readCov_unit_zero (S := S1x128) _ hz2]
  simp only [View.readAt_eq_ld, harg1.read_unread, harg2.read_unread, View.ld_unit_zero (S := S2000x128) hz2, View.ld_unit_zero (S := S1x128) hz2]

theorem sout2_A_1_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond2_0 i) (hc1 : ¬cond2_1 i) (x0 : Vec F S2000x128 .f32) (x1 : Vec F S2000x128 .f32) :
    sout2_A_1 c i arg1 harg1 arg2 harg2 arg3 harg3 arg4 harg4 arg5 harg5 arg6 harg6 arg7 harg7 hc0 hc1 x0 x1 = k2_pay5 x0 x1 (k2_pay2 (F := F)) := by
  unfold sout2_A_1
  rw [View.read_writes_eq_canon _ _ _ (scover2_A_1 c i arg1 harg1 arg2 harg2 arg3 harg3 arg4 harg4 arg5 harg5 arg6 harg6 arg7 harg7 hc0 hc1 x0 x1)]
  unfold kernelRun2_A
  dsimp only
  try sl_unfold_words
  rw [View.canon_cons_unit_zero hz2]
  rw [View.readCov_unit_zero (S := S1x128) _ hz2]
  simp only [View.readAt_eq_ld, harg1.read_unread, harg2.read_unread, View.ld_unit_zero (S := S2000x128) hz2, View.ld_unit_zero (S := S1x128) hz2]

theorem out2_B_2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i) (x0 : Vec F S2000x128 .f32) (x1 : Vec F S2000x128 .f32) (xs0 : Vec F S1x128 .f32) (xs1 : Vec F S1x128 .f32) :
    out2_B_2 c i arg1 harg1 arg2 harg2 arg3 harg3 arg4 harg4 arg5 harg5 arg6 harg6 arg7 harg7 hc0 hc1 x0 x1 xs0 xs1 = k2_pay3 x0 x1 := by
  unfold out2_B_2
  rw [View.read_writes_eq_canon _ _ _ (cover2_B_2 c i arg1 harg1 arg2 harg2 arg3 harg3 arg4 harg4 arg5 harg5 arg6 harg6 arg7 harg7 hc0 hc1 x0 x1 xs0 xs1)]
  unfold kernelRun2_B
  dsimp only
  try sl_unfold_words
  rw [View.canon_unit_zero hz2]
  simp only [View.readAt_eq_ld, harg1.read_unread, harg2.read_unread, View.ld_unit_zero (S := S2000x128) hz2, View.ld_unit_zero (S := S1x128) hz2]

theorem sout2_B_0_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i) (x0 : Vec F S2000x128 .f32) (x1 : Vec F S2000x128 .f32) (xs0 : Vec F S1x128 .f32) (xs1 : Vec F S1x128 .f32) :
    sout2_B_0 c i arg1 harg1 arg2 harg2 arg3 harg3 arg4 harg4 arg5 harg5 arg6 harg6 arg7 harg7 hc0 hc1 x0 x1 xs0 xs1 = k2_pay4 x0 x1 xs0 := by
  unfold sout2_B_0
  rw [View.read_writes_eq_canon _ _ _ (scover2_B_0 c i arg1 harg1 arg2 harg2 arg3 harg3 arg4 harg4 arg5 harg5 arg6 harg6 arg7 harg7 hc0 hc1 x0 x1 xs0 xs1)]
  unfold kernelRun2_B
  dsimp only
  try sl_unfold_words
  rw [View.canon_unit_zero hz2]
  simp only [View.readAt_eq_ld, harg1.read_unread, harg2.read_unread, harg6.read_unread, View.ld_unit_zero (S := S2000x128) hz2, View.ld_unit_zero (S := S1x128) hz2]

theorem sout2_B_1_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : ¬cond2_1 i) (x0 : Vec F S2000x128 .f32) (x1 : Vec F S2000x128 .f32) (xs0 : Vec F S1x128 .f32) (xs1 : Vec F S1x128 .f32) :
    sout2_B_1 c i arg1 harg1 arg2 harg2 arg3 harg3 arg4 harg4 arg5 harg5 arg6 harg6 arg7 harg7 hc0 hc1 x0 x1 xs0 xs1 = k2_pay5 x0 x1 xs1 := by
  unfold sout2_B_1
  rw [View.read_writes_eq_canon _ _ _ (scover2_B_1 c i arg1 harg1 arg2 harg2 arg3 harg3 arg4 harg4 arg5 harg5 arg6 harg6 arg7 harg7 hc0 hc1 x0 x1 xs0 xs1)]
  unfold kernelRun2_B
  dsimp only
  try sl_unfold_words
  rw [View.canon_unit_zero hz2]
  simp only [View.readAt_eq_ld, harg1.read_unread, harg2.read_unread, harg7.read_unread, View.ld_unit_zero (S := S2000x128) hz2, View.ld_unit_zero (S := S1x128) hz2]

theorem out2_C_2_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i) (x0 : Vec F S2000x128 .f32) (x1 : Vec F S2000x128 .f32) (xs0 : Vec F S1x128 .f32) (xs1 : Vec F S1x128 .f32) :
    out2_C_2 c i arg1 harg1 arg2 harg2 arg3 harg3 arg4 harg4 arg5 harg5 arg6 harg6 arg7 harg7 hc0 hc1 x0 x1 xs0 xs1 = k2_pay3 x0 x1 := by
  unfold out2_C_2
  rw [View.read_writes_eq_canon _ _ _ (cover2_C_2 c i arg1 harg1 arg2 harg2 arg3 harg3 arg4 harg4 arg5 harg5 arg6 harg6 arg7 harg7 hc0 hc1 x0 x1 xs0 xs1)]
  unfold kernelRun2_C
  dsimp only
  try sl_unfold_words
  rw [View.canon_unit_zero hz2]
  simp only [View.readAt_eq_ld, harg1.read_unread, harg2.read_unread, View.ld_unit_zero (S := S2000x128) hz2, View.ld_unit_zero (S := S1x128) hz2]

theorem sout2_C_0_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i) (x0 : Vec F S2000x128 .f32) (x1 : Vec F S2000x128 .f32) (xs0 : Vec F S1x128 .f32) (xs1 : Vec F S1x128 .f32) :
    sout2_C_0 c i arg1 harg1 arg2 harg2 arg3 harg3 arg4 harg4 arg5 harg5 arg6 harg6 arg7 harg7 hc0 hc1 x0 x1 xs0 xs1 = k2_pay4 x0 x1 xs0 := by
  unfold sout2_C_0
  rw [View.read_writes_eq_canon _ _ _ (scover2_C_0 c i arg1 harg1 arg2 harg2 arg3 harg3 arg4 harg4 arg5 harg5 arg6 harg6 arg7 harg7 hc0 hc1 x0 x1 xs0 xs1)]
  unfold kernelRun2_C
  dsimp only
  try sl_unfold_words
  rw [View.canon_unit_zero hz2]
  simp only [View.readAt_eq_ld, harg1.read_unread, harg2.read_unread, harg6.read_unread, View.ld_unit_zero (S := S2000x128) hz2, View.ld_unit_zero (S := S1x128) hz2]

theorem sout2_C_1_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i) (x0 : Vec F S2000x128 .f32) (x1 : Vec F S2000x128 .f32) (xs0 : Vec F S1x128 .f32) (xs1 : Vec F S1x128 .f32) :
    sout2_C_1 c i arg1 harg1 arg2 harg2 arg3 harg3 arg4 harg4 arg5 harg5 arg6 harg6 arg7 harg7 hc0 hc1 x0 x1 xs0 xs1 = k2_pay5 x0 x1 xs1 := by
  unfold sout2_C_1
  rw [View.read_writes_eq_canon _ _ _ (scover2_C_1 c i arg1 harg1 arg2 harg2 arg3 harg3 arg4 harg4 arg5 harg5 arg6 harg6 arg7 harg7 hc0 hc1 x0 x1 xs0 xs1)]
  unfold kernelRun2_C
  dsimp only
  try sl_unfold_words
  rw [View.canon_unit_zero hz2]
  simp only [View.readAt_eq_ld, harg1.read_unread, harg2.read_unread, harg7.read_unread, View.ld_unit_zero (S := S2000x128) hz2, View.ld_unit_zero (S := S1x128) hz2]

theorem out2_C_3_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i) (x0 : Vec F S2000x128 .f32) (x1 : Vec F S2000x128 .f32) (xs0 : Vec F S1x128 .f32) (xs1 : Vec F S1x128 .f32) :
    out2_C_3 c i arg1 harg1 arg2 harg2 arg3 harg3 arg4 harg4 arg5 harg5 arg6 harg6 arg7 harg7 hc0 hc1 x0 x1 xs0 xs1 = k2_pay4 x0 x1 xs0 := by
  unfold out2_C_3
  rw [View.read_writes_eq_canon _ _ _ (cover2_C_3 c i arg1 harg1 arg2 harg2 arg3 harg3 arg4 harg4 arg5 harg5 arg6 harg6 arg7 harg7 hc0 hc1 x0 x1 xs0 xs1)]
  unfold kernelRun2_C
  dsimp only
  try sl_unfold_words
  rw [View.canon_unit_zero hz2]
  rw [View.readCov_unit_zero (S := S1x128) _ hz2]
  simp only [View.readAt_eq_ld, harg1.read_unread, harg2.read_unread, harg6.read_unread, View.ld_unit_zero (S := S2000x128) hz2, View.ld_unit_zero (S := S1x128) hz2]

theorem out2_C_4_eq (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i) (hc1 : cond2_1 i) (x0 : Vec F S2000x128 .f32) (x1 : Vec F S2000x128 .f32) (xs0 : Vec F S1x128 .f32) (xs1 : Vec F S1x128 .f32) :
    out2_C_4 c i arg1 harg1 arg2 harg2 arg3 harg3 arg4 harg4 arg5 harg5 arg6 harg6 arg7 harg7 hc0 hc1 x0 x1 xs0 xs1 = k2_pay5 x0 x1 xs1 := by
  unfold out2_C_4
  rw [View.read_writes_eq_canon _ _ _ (cover2_C_4 c i arg1 harg1 arg2 harg2 arg3 harg3 arg4 harg4 arg5 harg5 arg6 harg6 arg7 harg7 hc0 hc1 x0 x1 xs0 xs1)]
  unfold kernelRun2_C
  dsimp only
  try sl_unfold_words
  rw [View.canon_unit_zero hz2]
  rw [View.readCov_unit_zero (S := S1x128) _ hz2]
  simp only [View.readAt_eq_ld, harg1.read_unread, harg2.read_unread, harg7.read_unread, View.ld_unit_zero (S := S2000x128) hz2, View.ld_unit_zero (S := S1x128) hz2]

/-! ## The accumulation in closed form

`k2_pay3 x0 x1` is the block `x0 + x1`; `k2_pay4 x0 x1 a` is `a` plus the column sums of that block, `k2_pay5 x0 x1 a` is `a`
plus the column sums of its squares; `k2_pay1`, `k2_pay2` are the zero rows. -/

/-- After the first point: the zero rows plus the first block's column sums (of the block, of its squares). -/
theorem scratchAt2_zero (c : Dev nD) (hn : 0 < cfg2.N) :
    scratchAt2 V c 0 hn = (k2_pay4 (iblk2 V c 0 ⟨0, hn⟩) (iblk2 V c 1 ⟨0, hn⟩) (k2_pay1 (F := F)), k2_pay5 (iblk2 V c 0 ⟨0, hn⟩) (iblk2 V c 1 ⟨0, hn⟩) (k2_pay2 (F := F))) := by
  have := scratchAt2_A V c ⟨0, hn⟩ rfl
  rw [sout2_A_0_eq, sout2_A_1_eq] at this; exact this

/-- After a later point: what the point before left plus this block's column sums. -/
theorem scratchAt2_succ (c : Dev nD) (n : ℕ) (hn : n + 1 < cfg2.N) :
    scratchAt2 V c (n + 1) hn = (k2_pay4 (iblk2 V c 0 ⟨n + 1, hn⟩) (iblk2 V c 1 ⟨n + 1, hn⟩) (scratchAt2 V c n (Nat.lt_of_succ_lt hn)).1, k2_pay5 (iblk2 V c 0 ⟨n + 1, hn⟩) (iblk2 V c 1 ⟨n + 1, hn⟩) (scratchAt2 V c n (Nat.lt_of_succ_lt hn)).2) := by
  by_cases h1 : n + 1 = 24
  · have := scratchAt2_C V c ⟨n + 1, hn⟩ (Nat.succ_ne_zero n) h1
    rw [sout2_C_0_eq, sout2_C_1_eq] at this; exact this
  · have := scratchAt2_B V c ⟨n + 1, hn⟩ (Nat.succ_ne_zero n) h1
    rw [sout2_B_0_eq, sout2_B_1_eq] at this; exact this

/-- Output 2's buffer after any point: the sum of the point's two input blocks. -/
theorem outsAt2_fst (c : Dev nD) (t : Fin cfg2.N) :
    (outsAt2 V c t.val t.isLt).1 = k2_pay3 (iblk2 V c 0 t) (iblk2 V c 1 t) := by
  by_cases h0 : t.val = 0
  · rw [outsAt2_A V c t h0]; dsimp only; rw [out2_A_2_eq]
  · by_cases h1 : t.val = 24
    · rw [outsAt2_C V c t h0 h1]; dsimp only; rw [out2_C_2_eq]
    · rw [outsAt2_B V c t h0 h1]; dsimp only; rw [out2_B_2_eq]

/-- After the last point the two one-row outputs' buffers hold the two accumulators' final contents. -/
theorem outsAt2_last (c : Dev nD) (t : Fin cfg2.N) (h1 : t.val = 24) :
    (outsAt2 V c t.val t.isLt).2.1 = (scratchAt2 V c t.val t.isLt).1 ∧ (outsAt2 V c t.val t.isLt).2.2 = (scratchAt2 V c t.val t.isLt).2 := by
  have h0 : ¬t.val = 0 := by omega
  rw [outsAt2_C V c t h0 h1, scratchAt2_C V c t h0 h1]; dsimp only
  rw [out2_C_3_eq, out2_C_4_eq, sout2_C_0_eq, sout2_C_1_eq]; exact ⟨rfl, rfl⟩

end Cert.KernelIdeal.Hand

end
-- ==== Proof.Math.Regroup.lean ====
/-
  A sum over `a · b` consecutive indices, regrouped into `a` blocks of `b`.

  The index `b · t + r` (block `t`, place `r` within it) runs over `Fin (a * b)` exactly once
  as `(t, r)` runs over `Fin a × Fin b`, so in any commutative additive monoid the sum over
  all indices is the sum over the blocks of the sums within each block. The instance used: the
  50000 rows are 25 blocks of 2000.
-/
import Mathlib.Algebra.BigOperators.Fin
import Mathlib.Algebra.BigOperators.Group.Finset.Basic
import Mathlib.Logic.Equiv.Fin.Basic
import Mathlib.Tactic.Ring
import Mathlib.Tactic.Linarith

namespace Cert.Math

open scoped BigOperators

/-- Place `r` of block `t`, among `a` blocks of `b`, is an index below `a * b`. -/
theorem block_index_lt {a b : ℕ} (t : Fin a) (r : Fin b) : b * t.val + r.val < a * b := by
  have h1 : t.val + 1 ≤ a := t.isLt
  have h2 : r.val < b := r.isLt
  calc b * t.val + r.val < b * t.val + b := Nat.add_lt_add_left h2 _
    _ = b * (t.val + 1) := (Nat.mul_succ b t.val).symm
    _ ≤ b * a := Nat.mul_le_mul_left b h1
    _ = a * b := Nat.mul_comm b a

/-- The index `b · t + r` as an element of `Fin (a * b)`. -/
def blockIndex {a b : ℕ} (t : Fin a) (r : Fin b) : Fin (a * b) := ⟨b * t.val + r.val, block_index_lt t r⟩

@[simp] theorem blockIndex_val {a b : ℕ} (t : Fin a) (r : Fin b) : (blockIndex t r).val = b * t.val + r.val := rfl

/-- It is the standard equivalence `Fin a × Fin b ≃ Fin (a * b)` at `(t, r)`. -/
theorem blockIndex_eq {a b : ℕ} (t : Fin a) (r : Fin b) : blockIndex t r = finProdFinEquiv (t, r) :=
  Fin.ext (Nat.add_comm (b * t.val) r.val)

/-- Regrouping: the sum over `Fin (a * b)` is the sum over the `a` blocks of the sums over the
    `b` places of each, in any commutative additive monoid. -/
theorem sum_blocks {M : Type*} [AddCommMonoid M] (a b : ℕ) (f : Fin (a * b) → M) :
    ∑ i, f i = ∑ t : Fin a, ∑ r : Fin b, f (blockIndex t r) := by
  have h1 : ∑ p : Fin a × Fin b, f (finProdFinEquiv p) = ∑ i, f i :=
    Fintype.sum_equiv finProdFinEquiv (fun p => f (finProdFinEquiv p)) f fun _ => rfl
  have h2 : ∑ p : Fin a × Fin b, f (finProdFinEquiv p) = ∑ t : Fin a, ∑ r : Fin b, f (finProdFinEquiv (t, r)) :=
    Fintype.sum_prod_type fun p => f (finProdFinEquiv p)
  rw [← h1, h2]
  exact Finset.sum_congr rfl fun t _ => Finset.sum_congr rfl fun r _ => by rw [blockIndex_eq]

/-- The 50000 rows as 25 blocks of 2000 rows: row `2000 · t + r` is place `r` of block `t`. -/
theorem row_index_lt (t : Fin 25) (r : Fin 2000) : 2000 * t.val + r.val < 50000 := by
  have h1 := t.isLt
  have h2 := r.isLt
  omega

/-- The sum over the 50000 rows is the sum over the 25 blocks of the sums over each block's 2000 rows. -/
theorem sum_rows_blocks {M : Type*} [AddCommMonoid M] (f : Fin 50000 → M) :
    ∑ i, f i = ∑ t : Fin 25, ∑ r : Fin 2000, f ⟨2000 * t.val + r.val, row_index_lt t r⟩ :=
  sum_blocks 25 2000 f

/-- The same with the rows' function given on natural numbers (a row read at `2000 · t + r`). -/
theorem sum_rows_blocks_nat {M : Type*} [AddCommMonoid M] (g : ℕ → M) :
    ∑ i : Fin 50000, g i.val = ∑ t : Fin 25, ∑ r : Fin 2000, g (2000 * t.val + r.val) :=
  sum_rows_blocks fun i => g i.val

end Cert.Math
-- ==== Proof.Math.Accumulate.lean ====
/-
  A running total is a sum.

  A sequence that starts at `0` and at each step adds the next term, `acc (t + 1) = acc t + s t`, has after
  `n` steps the value `∑ t < n, s t`, in any commutative additive monoid. With the regrouping of the rows
  into blocks, a total accumulated block by block is the sum over all rows.
-/
import Mathlib.Algebra.BigOperators.Fin
import Mathlib.Algebra.BigOperators.Group.Finset.Basic
import proofs.«180311_j29308856828500_2_alg».proof.Proof.Math.Regroup

namespace Cert.Math

open scoped BigOperators

/-- After `n` steps the running total is the sum of the first `n` terms. -/
theorem running_total_eq_sum_range {M : Type*} [AddCommMonoid M] (s acc : ℕ → M) (h0 : acc 0 = 0)
    (hs : ∀ t, acc (t + 1) = acc t + s t) (n : ℕ) : acc n = ∑ t ∈ Finset.range n, s t := by
  induction n with
  | zero => rw [Finset.range_zero, Finset.sum_empty, h0]
  | succ n ih => rw [hs, ih, Finset.sum_range_succ]

/-- The same over `Fin n`. -/
theorem running_total_eq_sum_fin {M : Type*} [AddCommMonoid M] (s acc : ℕ → M) (h0 : acc 0 = 0)
    (hs : ∀ t, acc (t + 1) = acc t + s t) (n : ℕ) : acc n = ∑ t : Fin n, s t.val := by
  rw [running_total_eq_sum_range s acc h0 hs n, Finset.sum_range]

/-- The steps need only hold below `n`. -/
theorem running_total_eq_sum_fin_of_lt {M : Type*} [AddCommMonoid M] (s acc : ℕ → M) (n : ℕ) (h0 : acc 0 = 0)
    (hs : ∀ t, t < n → acc (t + 1) = acc t + s t) : acc n = ∑ t : Fin n, s t.val := by
  have key : ∀ k, k ≤ n → acc k = ∑ t ∈ Finset.range k, s t := by
    intro k
    induction k with
    | zero => intro _; rw [Finset.range_zero, Finset.sum_empty, h0]
    | succ k ih =>
      intro hk
      rw [hs k (Nat.lt_of_succ_le hk), ih (Nat.le_of_succ_le hk), Finset.sum_range_succ]
  rw [key n le_rfl, Finset.sum_range]

/-- A total over the 50000 rows accumulated in 25 blocks of 2000: starting at `0` and adding, at block `t`,
    the sum of `g` over that block's rows `2000 · t + r`, gives after the 25 blocks the sum of `g` over all rows. -/
theorem block_running_total {M : Type*} [AddCommMonoid M] (g : ℕ → M) (acc : ℕ → M) (h0 : acc 0 = 0)
    (hs : ∀ t, t < 25 → acc (t + 1) = acc t + ∑ r : Fin 2000, g (2000 * t + r.val)) :
    acc 25 = ∑ i : Fin 50000, g i.val := by
  rw [running_total_eq_sum_fin_of_lt (fun t => ∑ r : Fin 2000, g (2000 * t + r.val)) acc 25 h0 hs, sum_rows_blocks_nat]

end Cert.Math
-- ==== Proof.KI.Val2.lean ====
/- Region 2 at the extended reals: after the region output 2's array is the matrix `s + agg`, and outputs 3 and 4 are, column by
   column, the sum of that matrix's column and the sum of its squares over all 50000 rows — the accumulators are running totals over
   the 25 row blocks, and a total accumulated block by block is the sum over all rows. -/
import proofs.«180311_j29308856828500_2_alg».proof.Proof.KI.Reg2Forms
import proofs.«180311_j29308856828500_2_alg».proof.Proof.Math.Spec
import proofs.«180311_j29308856828500_2_alg».proof.Proof.Math.Net
import proofs.«180311_j29308856828500_2_alg».proof.Proof.Math.Regroup
import proofs.«180311_j29308856828500_2_alg».proof.Proof.Math.Accumulate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The body's arithmetic at an index -/

/-- The stored block is the sum of the two loaded blocks. -/
theorem pay3_eq2 {F : FTy → Type} [FloatOps F] (x0 x1 : Vec F S2000x128 .f32) : k2_pay3 x0 x1 = addf x0 x1 := by
  unfold k2_pay3
  simp only [shapeCast_self]

/-- The index a reduction over the rows puts back: row `k`, column `j`. -/
theorem lift_row2 (j : Fin 128) (k : Fin 2000) : reduces_S2000x128_S128.lift (ix1 j) k = ix2 k j := by
  funext a
  match a with
  | ⟨0, _⟩ => exact Fin.ext rfl
  | ⟨1, _⟩ => exact Fin.ext rfl

/-- The first accumulator's new contents at column `j`: what it held plus the column's sum over the block's 2000 rows. -/
theorem pay4_apply2 (x0 x1 : Vec Ideal S2000x128 .f32) (a : Vec Ideal S1x128 .f32) (j : Fin 128) :
    k2_pay4 x0 x1 a (ix2 (0 : Fin 1) j) = a (ix2 (0 : Fin 1) j) + ∑ r : Fin 2000, (x0 (ix2 r j) + x1 (ix2 r j)) := by
  unfold k2_pay4
  refine (congrFun (shapeCast_self _ _) _).trans ?_
  show a (ix2 (0 : Fin 1) j) + _ = _
  refine congrArg (a (ix2 (0 : Fin 1) j) + ·) ?_
  refine (shapeCast_a_1a_apply _ _ (0 : Fin 1) j).trans ?_
  refine (Ideal.multiReduction_add_single _ _ _ _ _ (ix1 j)).trans ?_
  refine Finset.sum_congr rfl fun k _ => ?_
  refine (congrFun (pay3_eq2 x0 x1) _).trans ?_
  exact congrArg (fun i => x0 i + x1 i) (lift_row2 j k)

/-- The second accumulator's: what it held plus the sum of the column's squares over the block's rows. -/
theorem pay5_apply2 (x0 x1 : Vec Ideal S2000x128 .f32) (a : Vec Ideal S1x128 .f32) (j : Fin 128) :
    k2_pay5 x0 x1 a (ix2 (0 : Fin 1) j) = a (ix2 (0 : Fin 1) j) + ∑ r : Fin 2000, (x0 (ix2 r j) + x1 (ix2 r j)) * (x0 (ix2 r j) + x1 (ix2 r j)) := by
  unfold k2_pay5
  refine (congrFun (shapeCast_self _ _) _).trans ?_
  show a (ix2 (0 : Fin 1) j) + _ = _
  refine congrArg (a (ix2 (0 : Fin 1) j) + ·) ?_
  refine (shapeCast_a_1a_apply _ _ (0 : Fin 1) j).trans ?_
  refine (Ideal.multiReduction_add_single _ _ _ _ _ (ix1 j)).trans ?_
  refine Finset.sum_congr rfl fun k _ => ?_
  show k2_pay3 x0 x1 _ * k2_pay3 x0 x1 _ = _
  rw [pay3_eq2 x0 x1]
  exact congrArg (fun i => (x0 i + x1 i) * (x0 i + x1 i)) (lift_row2 j k)

/-- The rows the accumulators are reset to are zero. -/
theorem pay1_apply2 (j : Fin 128) : (k2_pay1 (F := Ideal)) (ix2 (0 : Fin 1) j) = 0 := by
  unfold k2_pay1
  refine (congrFun (shapeCast_self _ _) _).trans ?_
  exact Ideal.ofBits_zero_f32
theorem pay2_apply2 (j : Fin 128) : (k2_pay2 (F := Ideal)) (ix2 (0 : Fin 1) j) = 0 := by
  unfold k2_pay2
  refine (congrFun (shapeCast_self _ _) _).trans ?_
  exact Ideal.ofBits_zero_f32

/-! ## The windows' blocks on the grid -/

/-- At point `t` the three row-blocked windows are all on block `(t, 0)`; the one-row outputs stay on block `(0, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The two inputs as the region finds them, and the matrix `s + agg`. -/
abbrev sArr2 (c : Dev nD) : S50000x128.Idx → EReal := V c main_v16_2
abbrev gArr2 (c : Dev nD) : S50000x128.Idx → EReal := V c main_v46
abbrev hnArr2 (c : Dev nD) : S50000x128.Idx → EReal := fun i => sArr2 V c i + gArr2 V c i

/-- The two input blocks at point `t`, as blocks of extended reals. -/
abbrev xs2 (c : Dev nD) (t : Fin cfg2.N) : Vec Ideal S2000x128 .f32 := iblk2 V c 0 t
abbrev xg2 (c : Dev nD) (t : Fin cfg2.N) : Vec Ideal S2000x128 .f32 := iblk2 V c 1 t

/-- Input block `t` is rows `2000 t … 2000 t + 1999` of its array. -/
theorem iblk2_0_apply (c : Dev nD) (t : Fin cfg2.N) (r : Fin 2000) (j : Fin 128) (hr : 2000 * t.val + r.val < 50000) :
    xs2 V c t (ix2 r j) = sArr2 V c (ix2 ⟨2000 * t.val + r.val, hr⟩ j) := by
  obtain ⟨e0, e1, -⟩ := idx_facts2 t
  unfold xs2 iblk2
  rw [View.read_apply]
  show V c main_v16_2 _ = V c main_v16_2 _
  congr 1
  funext a
  apply Fin.ext
  match a with
  | ⟨0, _⟩ => show win2_0.index t (0 : Fin 2) * 2000 + 1 * r.val = 2000 * t.val + r.val; rw [e0]; omega
  | ⟨1, _⟩ => show win2_0.index t (1 : Fin 2) * 128 + 1 * j.val = j.val; rw [e1]; omega
theorem iblk2_1_apply (c : Dev nD) (t : Fin cfg2.N) (r : Fin 2000) (j : Fin 128) (hr : 2000 * t.val + r.val < 50000) :
    xg2 V c t (ix2 r j) = gArr2 V c (ix2 ⟨2000 * t.val + r.val, hr⟩ j) := by
  obtain ⟨-, -, e0, e1, -⟩ := idx_facts2 t
  unfold xg2 iblk2
  rw [View.read_apply]
  show V c main_v46 _ = V c main_v46 _
  congr 1
  funext a
  apply Fin.ext
  match a with
  | ⟨0, _⟩ => show win2_1.index t (0 : Fin 2) * 2000 + 1 * r.val = 2000 * t.val + r.val; rw [e0]; omega
  | ⟨1, _⟩ => show win2_1.index t (1 : Fin 2) * 128 + 1 * j.val = j.val; rw [e1]; omega

/-! ## Output 2: the array `s + agg` -/

/-- What point `t` writes back is block `t` of `s + agg`. -/
theorem flushed2_2_eq (c : Dev nD) (t : Fin cfg2.N) :
    (dat2 V c).flushed 2 t = ((cfg2.win 2).blk t).view.read (Elt Ideal) (hnArr2 V c) := by
  show (cfg2.win 2).cut (grid2.coords t) ((dat2 V c).after 2 t) = _
  rw [after2_2, outsAt2_fst, pay3_eq2]
  obtain ⟨e0, e1, e2, e3, e4, e5, -⟩ := idx_facts2 t
  funext j
  show sArr2 V c (((cfg2.win 0).blk t).view.emb j) + gArr2 V c (((cfg2.win 1).blk t).view.emb j) = sArr2 V c (((cfg2.win 2).blk t).view.emb j) + gArr2 V c (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 128 + 1 * (j 1).val = win2_2.index t (1 : Fin 2) * 128 + 1 * (j 1).val; omega
  rw [h0, h1]

/-- An index of the array is in point `t`'s block iff each coordinate is in the block's range on its axis. -/
theorem mem_blk2_2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v47_0).slice (win2_2.rect t)).set ↔ _
  rw [View.set_slice_whole, Rect.mem_set_unit]
  exact Iff.rfl

/-- Row `r` is in the block of point `r / 2000`. -/
theorem cover2_2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hlt : (i 0).val / 2000 < cfg2.N := by rw [show cfg2.N = 25 from N_2]; omega
  refine ⟨⟨(i 0).val / 2000, hlt⟩, flush2_2 _, ?_⟩
  rw [mem_blk2_2]
  obtain ⟨-, -, -, -, e4, e5, -⟩ := idx_facts2 ⟨(i 0).val / 2000, hlt⟩
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 128 ≤ (i 1).val ∧ (i 1).val < win2_2.index ⟨(i 0).val / 2000, hlt⟩ (1 : Fin 2) * 128 + 128
    rw [e5]; omega

/-- After the region, output 2's array is `s + agg`. -/
theorem final2_arr2 (c : Dev nD) : (dat2 V c).arrAt 2 cfg2.N = hnArr2 V c :=
  (dat2 V c).arrAt_eq_of_cover 2 (hnArr2 V c) (fun t _ => flushed2_2_eq V c t) cover2_2

theorem final2_h (c : Dev nD) :
    Cert.Spec.toMat ((dat2 V c).arrAt 2 cfg2.N) = fun i j => Cert.Spec.toMat (V c main_v16_2) i j + Cert.Spec.toMat (V c main_v46) i j := by
  funext i j
  exact congrFun (final2_arr2 V c) (ix2 i j)

/-! ## Outputs 3 and 4: the column sums -/

/-- The last point. -/
abbrev tLast2 : Fin cfg2.N := ⟨24, by rw [show cfg2.N = 25 from N_2]; decide⟩

/-- The one point that writes outputs 3 and 4 back, the last, writes the accumulators' final contents. -/
theorem flushed2_3_eq (c : Dev nD) (t : Fin cfg2.N) (hf : (cfg2.win 3).flush t = true) :
    (dat2 V c).flushed 3 t = ((cfg2.win 3).blk t).view.read (Elt Ideal) ((scratchAt2 V c tLast2.val tLast2.isLt).1) := by
  have hN : cfg2.N = 25 := N_2
  have h1 : t.val = 24 := by have := (flush2_3 t).mp hf; have := t.isLt; omega
  obtain rfl : t = tLast2 := Fin.ext h1
  show (cfg2.win 3).cut (grid2.coords tLast2) ((dat2 V c).after 3 tLast2) = _
  rw [after2_3, (outsAt2_last V c tLast2 rfl).1]
  have hz' : (fun a => win2_3.index tLast2 a * main_v47_1.ty.shape.size a) = fun _ => 0 := funext fun a => by fin_cases a <;> decide +kernel
  exact (Memref.read_access_unit_zero (Elt Ideal) main_v47_1 hz' (fun a => by rw [congrFun hz' a]; simp) _).symm
theorem flushed2_4_eq (c : Dev nD) (t : Fin cfg2.N) (hf : (cfg2.win 4).flush t = true) :
    (dat2 V c).flushed 4 t = ((cfg2.win 4).blk t).view.read (Elt Ideal) ((scratchAt2 V c tLast2.val tLast2.isLt).2) := by
  have hN : cfg2.N = 25 := N_2
  have h1 : t.val = 24 := by have := (flush2_4 t).mp hf; have := t.isLt; omega
  obtain rfl : t = tLast2 := Fin.ext h1
  show (cfg2.win 4).cut (grid2.coords tLast2) ((dat2 V c).after 4 tLast2) = _
  rw [after2_4, (outsAt2_last V c tLast2 rfl).2]
  have hz' : (fun a => win2_4.index tLast2 a * main_v47_2.ty.shape.size a) = fun _ => 0 := funext fun a => by fin_cases a <;> decide +kernel
  exact (Memref.read_access_unit_zero (Elt Ideal) main_v47_2 hz' (fun a => by rw [congrFun hz' a]; simp) _).symm

theorem mem_blk2_3 (t : Fin cfg2.N) (i : S1x128.Idx) :
    i ∈ ((cfg2.win 3).blk t).view.set ↔ ∀ a : Fin 2, win2_3.index t a * S1x128.size a ≤ (i a).val ∧ (i a).val < win2_3.index t a * S1x128.size a + S1x128.size a := by
  show i ∈ ((View.whole main_v47_1).slice (win2_3.rect t)).set ↔ _
  rw [View.set_slice_whole, Rect.mem_set_unit]
  exact Iff.rfl
theorem mem_blk2_4 (t : Fin cfg2.N) (i : S1x128.Idx) :
    i ∈ ((cfg2.win 4).blk t).view.set ↔ ∀ a : Fin 2, win2_4.index t a * S1x128.size a ≤ (i a).val ∧ (i a).val < win2_4.index t a * S1x128.size a + S1x128.size a := by
  show i ∈ ((View.whole main_v47_2).slice (win2_4.rect t)).set ↔ _
  rw [View.set_slice_whole, Rect.mem_set_unit]
  exact Iff.rfl

/-- The last point's block is the whole one-row array. -/
theorem cover2_3 (i : S1x128.Idx) : ∃ t : Fin cfg2.N, (cfg2.win 3).flush t = true ∧ i ∈ ((cfg2.win 3).blk t).view.set := by
  have hi0 : (i 0).val < 1 := (i 0).isLt
  have hi1 : (i 1).val < 128 := (i 1).isLt
  refine ⟨tLast2, (flush2_3 tLast2).mpr rfl, ?_⟩
  rw [mem_blk2_3]
  obtain ⟨-, -, -, -, -, -, e6, e7, -⟩ := idx_facts2 tLast2
  intro a
  match a with
  | ⟨0, _⟩ => show win2_3.index tLast2 (0 : Fin 2) * 1 ≤ (i 0).val ∧ (i 0).val < win2_3.index tLast2 (0 : Fin 2) * 1 + 1; rw [e6]; omega
  | ⟨1, _⟩ => show win2_3.index tLast2 (1 : Fin 2) * 128 ≤ (i 1).val ∧ (i 1).val < win2_3.index tLast2 (1 : Fin 2) * 128 + 128; rw [e7]; omega
theorem cover2_4 (i : S1x128.Idx) : ∃ t : Fin cfg2.N, (cfg2.win 4).flush t = true ∧ i ∈ ((cfg2.win 4).blk t).view.set := by
  have hi0 : (i 0).val < 1 := (i 0).isLt
  have hi1 : (i 1).val < 128 := (i 1).isLt
  refine ⟨tLast2, (flush2_4 tLast2).mpr rfl, ?_⟩
  rw [mem_blk2_4]
  obtain ⟨-, -, -, -, -, -, -, -, e8, e9⟩ := idx_facts2 tLast2
  intro a
  match a with
  | ⟨0, _⟩ => show win2_4.index tLast2 (0 : Fin 2) * 1 ≤ (i 0).val ∧ (i 0).val < win2_4.index tLast2 (0 : Fin 2) * 1 + 1; rw [e8]; omega
  | ⟨1, _⟩ => show win2_4.index tLast2 (1 : Fin 2) * 128 ≤ (i 1).val ∧ (i 1).val < win2_4.index tLast2 (1 : Fin 2) * 128 + 128; rw [e9]; omega

/-- After the region, outputs 3 and 4 hold the accumulators' contents after the last point. -/
theorem final2_arr3 (c : Dev nD) : (dat2 V c).arrAt 3 cfg2.N = (scratchAt2 V c tLast2.val tLast2.isLt).1 :=
  (dat2 V c).arrAt_eq_of_cover 3 _ (flushed2_3_eq V c) cover2_3
theorem final2_arr4 (c : Dev nD) : (dat2 V c).arrAt 4 cfg2.N = (scratchAt2 V c tLast2.val tLast2.isLt).2 :=
  (dat2 V c).arrAt_eq_of_cover 4 _ (flushed2_4_eq V c) cover2_4

/-! ## The accumulators as running totals -/

/-- Row `n` of `s + agg` at column `j` (zero past the last row), and its square. -/
def rowAt2 (c : Dev nD) (j : Fin 128) (n : ℕ) : EReal := if h : n < 50000 then hnArr2 V c (ix2 ⟨n, h⟩ j) else 0
def rowSqAt2 (c : Dev nD) (j : Fin 128) (n : ℕ) : EReal := if h : n < 50000 then hnArr2 V c (ix2 ⟨n, h⟩ j) * hnArr2 V c (ix2 ⟨n, h⟩ j) else 0

/-- The accumulators at column `j` before point `n`: zero before the first. -/
def accS2 (c : Dev nD) (j : Fin 128) : ℕ → EReal
  | 0 => 0
  | n + 1 => if h : n < cfg2.N then ((scratchAt2 V c n h).1 : Vec Ideal S1x128 .f32) (ix2 (0 : Fin 1) j) else 0
def accQ2 (c : Dev nD) (j : Fin 128) : ℕ → EReal
  | 0 => 0
  | n + 1 => if h : n < cfg2.N then ((scratchAt2 V c n h).2 : Vec Ideal S1x128 .f32) (ix2 (0 : Fin 1) j) else 0

/-- The block sums the body adds at point `t`, over the rows of the array. -/
theorem blockSum2 (c : Dev nD) (j : Fin 128) (t : Fin cfg2.N) :
    ∑ r : Fin 2000, (xs2 V c t (ix2 r j) + xg2 V c t (ix2 r j)) = ∑ r : Fin 2000, rowAt2 V c j (2000 * t.val + r.val) := by
  have hN : cfg2.N = 25 := N_2
  refine Finset.sum_congr rfl fun r _ => ?_
  have hr : 2000 * t.val + r.val < 50000 := by have := t.isLt; have := r.isLt; omega
  rw [iblk2_0_apply V c t r j hr, iblk2_1_apply V c t r j hr]
  unfold rowAt2; rw [dif_pos hr]
theorem blockSqSum2 (c : Dev nD) (j : Fin 128) (t : Fin cfg2.N) :
    ∑ r : Fin 2000, (xs2 V c t (ix2 r j) + xg2 V c t (ix2 r j)) * (xs2 V c t (ix2 r j) + xg2 V c t (ix2 r j)) = ∑ r : Fin 2000, rowSqAt2 V c j (2000 * t.val + r.val) := by
  have hN : cfg2.N = 25 := N_2
  refine Finset.sum_congr rfl fun r _ => ?_
  have hr : 2000 * t.val + r.val < 50000 := by have := t.isLt; have := r.isLt; omega
  rw [iblk2_0_apply V c t r j hr, iblk2_1_apply V c t r j hr]
  unfold rowSqAt2; rw [dif_pos hr]

/-- Each point adds its block's column sum onto the first accumulator. -/
theorem accS2_step (c : Dev nD) (j : Fin 128) (t : ℕ) (ht : t < 25) :
    accS2 V c j (t + 1) = accS2 V c j t + ∑ r : Fin 2000, rowAt2 V c j (2000 * t + r.val) := by
  have hlt : t < cfg2.N := by rw [show cfg2.N = 25 from N_2]; exact ht
  show (if h : t < cfg2.N then ((scratchAt2 V c t h).1 : Vec Ideal S1x128 .f32) (ix2 (0 : Fin 1) j) else 0) = _
  rw [dif_pos hlt]
  cases t with
  | zero =>
    rw [scratchAt2_zero V c hlt]
    refine (pay4_apply2 _ _ _ j).trans ?_
    rw [pay1_apply2 j]
    exact congrArg ((0 : EReal) + ·) (blockSum2 V c j ⟨0, hlt⟩)
  | succ n =>
    rw [scratchAt2_succ V c n hlt]
    refine (pay4_apply2 _ _ _ j).trans ?_
    have hn : n < cfg2.N := Nat.lt_of_succ_lt hlt
    have e : accS2 V c j (n + 1) = ((scratchAt2 V c n hn).1 : Vec Ideal S1x128 .f32) (ix2 (0 : Fin 1) j) := dif_pos hn
    rw [e]
    exact congrArg (((scratchAt2 V c n hn).1 : Vec Ideal S1x128 .f32) (ix2 (0 : Fin 1) j) + ·) (blockSum2 V c j ⟨n + 1, hlt⟩)
theorem accQ2_step (c : Dev nD) (j : Fin 128) (t : ℕ) (ht : t < 25) :
    accQ2 V c j (t + 1) = accQ2 V c j t + ∑ r : Fin 2000, rowSqAt2 V c j (2000 * t + r.val) := by
  have hlt : t < cfg2.N := by rw [show cfg2.N = 25 from N_2]; exact ht
  show (if h : t < cfg2.N then ((scratchAt2 V c t h).2 : Vec Ideal S1x128 .f32) (ix2 (0 : Fin 1) j) else 0) = _
  rw [dif_pos hlt]
  cases t with
  | zero =>
    rw [scratchAt2_zero V c hlt]
    refine (pay5_apply2 _ _ _ j).trans ?_
    rw [pay2_apply2 j]
    exact congrArg ((0 : EReal) + ·) (blockSqSum2 V c j ⟨0, hlt⟩)
  | succ n =>
    rw [scratchAt2_succ V c n hlt]
    refine (pay5_apply2 _ _ _ j).trans ?_
    have hn : n < cfg2.N := Nat.lt_of_succ_lt hlt
    have e : accQ2 V c j (n + 1) = ((scratchAt2 V c n hn).2 : Vec Ideal S1x128 .f32) (ix2 (0 : Fin 1) j) := dif_pos hn
    rw [e]
    exact congrArg (((scratchAt2 V c n hn).2 : Vec Ideal S1x128 .f32) (ix2 (0 : Fin 1) j) + ·) (blockSqSum2 V c j ⟨n + 1, hlt⟩)

/-- After the region, output 3 at column `j` is the column's sum of `s + agg` over all 50000 rows, -/
theorem final2_sum (c : Dev nD) (j : Fin 128) :
    ((dat2 V c).arrAt 3 cfg2.N) (ix2 (0 : Fin 1) j) = Cert.Spec.colSum (fun i j => Cert.Spec.toMat (V c main_v16_2) i j + Cert.Spec.toMat (V c main_v46) i j) j := by
  rw [final2_arr3 V c]
  have h25 : accS2 V c j (24 + 1) = ((scratchAt2 V c tLast2.val tLast2.isLt).1 : Vec Ideal S1x128 .f32) (ix2 (0 : Fin 1) j) := by
    show (if h : 24 < cfg2.N then ((scratchAt2 V c 24 h).1 : Vec Ideal S1x128 .f32) (ix2 (0 : Fin 1) j) else 0) = _
    exact dif_pos tLast2.isLt
  refine (h25.symm.trans (Cert.Math.block_running_total (rowAt2 V c j) (accS2 V c j) rfl (accS2_step V c j))).trans ?_
  unfold Cert.Spec.colSum
  refine Finset.sum_congr rfl fun i _ => ?_
  unfold rowAt2; rw [dif_pos i.isLt]

/-- and output 4 the column's sum of squares. -/
theorem final2_sq (c : Dev nD) (j : Fin 128) :
    ((dat2 V c).arrAt 4 cfg2.N) (ix2 (0 : Fin 1) j) = Cert.Spec.colSum (fun i j => (Cert.Spec.toMat (V c main_v16_2) i j + Cert.Spec.toMat (V c main_v46) i j) * (Cert.Spec.toMat (V c main_v16_2) i j + Cert.Spec.toMat (V c main_v46) i j)) j := by
  rw [final2_arr4 V c]
  have h25 : accQ2 V c j (24 + 1) = ((scratchAt2 V c tLast2.val tLast2.isLt).2 : Vec Ideal S1x128 .f32) (ix2 (0 : Fin 1) j) := by
    show (if h : 24 < cfg2.N then ((scratchAt2 V c 24 h).2 : Vec Ideal S1x128 .f32) (ix2 (0 : Fin 1) j) else 0) = _
    exact dif_pos tLast2.isLt
  refine (h25.symm.trans (Cert.Math.block_running_total (rowSqAt2 V c j) (accQ2 V c j) rfl (accQ2_step V c j))).trans ?_
  unfold Cert.Spec.colSum
  refine Finset.sum_congr rfl fun i _ => ?_
  unfold rowSqAt2; rw [dif_pos i.isLt]

end Cert.KernelIdeal.Hand

end
-- ==== Proof.KI.Reg5Forms.lean ====
/- Region 5: what its body computes, read off the runs — output 2 holds the sum of the two input blocks after every point; the two
   accumulators hold, after point n, the zero row plus the column sums (of the block, of its squares) of points 0..n, added in the
   grid's order; after the last point outputs 3 and 4 hold the accumulators. -/
import proofs.«180311_j29308856828500_2_alg».proof.Proof.KI.Reg5Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

theorem hz5 : (![0, 0] : Fin 2 → Nat) = fun _ => 0 := funext fun a => by fin_cases a <;> rfl

/-! ## What each case leaves, as terms of the point's two input blocks and of what the accumulators held -/

theorem out5_A_2_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i) (x0 : Vec F S2000x128 .f32) (x1 : Vec F S2000x128 .f32) :
    out5_A_2 c i arg1 harg1 arg2 harg2 arg3 harg3 arg4 harg4 arg5 harg5 arg6 harg6 arg7 harg7 hc0 hc1 x0 x1 = k5_pay3 x0 x1 := by
  unfold out5_A_2
  rw [View.read_writes_eq_canon _ _ _ (cover5_A_2 c i arg1 harg1 arg2 harg2 arg3 harg3 arg4 harg4 arg5 harg5 arg6 harg6 arg7 harg7 hc0 hc1 x0 x1)]
  unfold kernelRun5_A
  dsimp only
  try sl_unfold_words
  rw [View.canon_unit_zero hz5]
  simp only [View.readAt_eq_ld, harg1.read_unread, harg2.read_unread, View.ld_unit_zero (S := S2000x128) hz5, View.ld_unit_zero (S := S1x128) hz5]

theorem sout5_A_0_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i) (x0 : Vec F S2000x128 .f32) (x1 : Vec F S2000x128 .f32) :
    sout5_A_0 c i arg1 harg1 arg2 harg2 arg3 harg3 arg4 harg4 arg5 harg5 arg6 harg6 arg7 harg7 hc0 hc1 x0 x1 = k5_pay4 x0 x1 (k5_pay1 (F := F)) := by
  unfold sout5_A_0
  rw [View.read_writes_eq_canon _ _ _ (scover5_A_0 c i arg1 harg1 arg2 harg2 arg3 harg3 arg4 harg4 arg5 harg5 arg6 harg6 arg7 harg7 hc0 hc1 x0 x1)]
  unfold kernelRun5_A
  dsimp only
  try sl_unfold_words
  rw [View.canon_cons_unit_zero hz5]
  rw [View.readCov_unit_zero (S := S1x128) _ hz5]
  simp only [View.readAt_eq_ld, harg1.read_unread, harg2.read_unread, View.ld_unit_zero (S := S2000x128) hz5, View.ld_unit_zero (S := S1x128) hz5]

theorem sout5_A_1_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond5_0 i) (hc1 : ¬cond5_1 i) (x0 : Vec F S2000x128 .f32) (x1 : Vec F S2000x128 .f32) :
    sout5_A_1 c i arg1 harg1 arg2 harg2 arg3 harg3 arg4 harg4 arg5 harg5 arg6 harg6 arg7 harg7 hc0 hc1 x0 x1 = k5_pay5 x0 x1 (k5_pay2 (F := F)) := by
  unfold sout5_A_1
  rw [View.read_writes_eq_canon _ _ _ (scover5_A_1 c i arg1 harg1 arg2 harg2 arg3 harg3 arg4 harg4 arg5 harg5 arg6 harg6 arg7 harg7 hc0 hc1 x0 x1)]
  unfold kernelRun5_A
  dsimp only
  try sl_unfold_words
  rw [View.canon_cons_unit_zero hz5]
  rw [View.readCov_unit_zero (S := S1x128) _ hz5]
  simp only [View.readAt_eq_ld, harg1.read_unread, harg2.read_unread, View.ld_unit_zero (S := S2000x128) hz5, View.ld_unit_zero (S := S1x128) hz5]

theorem out5_B_2_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i) (x0 : Vec F S2000x128 .f32) (x1 : Vec F S2000x128 .f32) (xs0 : Vec F S1x128 .f32) (xs1 : Vec F S1x128 .f32) :
    out5_B_2 c i arg1 harg1 arg2 harg2 arg3 harg3 arg4 harg4 arg5 harg5 arg6 harg6 arg7 harg7 hc0 hc1 x0 x1 xs0 xs1 = k5_pay3 x0 x1 := by
  unfold out5_B_2
  rw [View.read_writes_eq_canon _ _ _ (cover5_B_2 c i arg1 harg1 arg2 harg2 arg3 harg3 arg4 harg4 arg5 harg5 arg6 harg6 arg7 harg7 hc0 hc1 x0 x1 xs0 xs1)]
  unfold kernelRun5_B
  dsimp only
  try sl_unfold_words
  rw [View.canon_unit_zero hz5]
  simp only [View.readAt_eq_ld, harg1.read_unread, harg2.read_unread, View.ld_unit_zero (S := S2000x128) hz5, View.ld_unit_zero (S := S1x128) hz5]

theorem sout5_B_0_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i) (x0 : Vec F S2000x128 .f32) (x1 : Vec F S2000x128 .f32) (xs0 : Vec F S1x128 .f32) (xs1 : Vec F S1x128 .f32) :
    sout5_B_0 c i arg1 harg1 arg2 harg2 arg3 harg3 arg4 harg4 arg5 harg5 arg6 harg6 arg7 harg7 hc0 hc1 x0 x1 xs0 xs1 = k5_pay4 x0 x1 xs0 := by
  unfold sout5_B_0
  rw [View.read_writes_eq_canon _ _ _ (scover5_B_0 c i arg1 harg1 arg2 harg2 arg3 harg3 arg4 harg4 arg5 harg5 arg6 harg6 arg7 harg7 hc0 hc1 x0 x1 xs0 xs1)]
  unfold kernelRun5_B
  dsimp only
  try sl_unfold_words
  rw [View.canon_unit_zero hz5]
  simp only [View.readAt_eq_ld, harg1.read_unread, harg2.read_unread, harg6.read_unread, View.ld_unit_zero (S := S2000x128) hz5, View.ld_unit_zero (S := S1x128) hz5]

theorem sout5_B_1_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : ¬cond5_1 i) (x0 : Vec F S2000x128 .f32) (x1 : Vec F S2000x128 .f32) (xs0 : Vec F S1x128 .f32) (xs1 : Vec F S1x128 .f32) :
    sout5_B_1 c i arg1 harg1 arg2 harg2 arg3 harg3 arg4 harg4 arg5 harg5 arg6 harg6 arg7 harg7 hc0 hc1 x0 x1 xs0 xs1 = k5_pay5 x0 x1 xs1 := by
  unfold sout5_B_1
  rw [View.read_writes_eq_canon _ _ _ (scover5_B_1 c i arg1 harg1 arg2 harg2 arg3 harg3 arg4 harg4 arg5 harg5 arg6 harg6 arg7 harg7 hc0 hc1 x0 x1 xs0 xs1)]
  unfold kernelRun5_B
  dsimp only
  try sl_unfold_words
  rw [View.canon_unit_zero hz5]
  simp only [View.readAt_eq_ld, harg1.read_unread, harg2.read_unread, harg7.read_unread, View.ld_unit_zero (S := S2000x128) hz5, View.ld_unit_zero (S := S1x128) hz5]

theorem out5_C_2_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i) (x0 : Vec F S2000x128 .f32) (x1 : Vec F S2000x128 .f32) (xs0 : Vec F S1x128 .f32) (xs1 : Vec F S1x128 .f32) :
    out5_C_2 c i arg1 harg1 arg2 harg2 arg3 harg3 arg4 harg4 arg5 harg5 arg6 harg6 arg7 harg7 hc0 hc1 x0 x1 xs0 xs1 = k5_pay3 x0 x1 := by
  unfold out5_C_2
  rw [View.read_writes_eq_canon _ _ _ (cover5_C_2 c i arg1 harg1 arg2 harg2 arg3 harg3 arg4 harg4 arg5 harg5 arg6 harg6 arg7 harg7 hc0 hc1 x0 x1 xs0 xs1)]
  unfold kernelRun5_C
  dsimp only
  try sl_unfold_words
  rw [View.canon_unit_zero hz5]
  simp only [View.readAt_eq_ld, harg1.read_unread, harg2.read_unread, View.ld_unit_zero (S := S2000x128) hz5, View.ld_unit_zero (S := S1x128) hz5]

theorem sout5_C_0_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i) (x0 : Vec F S2000x128 .f32) (x1 : Vec F S2000x128 .f32) (xs0 : Vec F S1x128 .f32) (xs1 : Vec F S1x128 .f32) :
    sout5_C_0 c i arg1 harg1 arg2 harg2 arg3 harg3 arg4 harg4 arg5 harg5 arg6 harg6 arg7 harg7 hc0 hc1 x0 x1 xs0 xs1 = k5_pay4 x0 x1 xs0 := by
  unfold sout5_C_0
  rw [View.read_writes_eq_canon _ _ _ (scover5_C_0 c i arg1 harg1 arg2 harg2 arg3 harg3 arg4 harg4 arg5 harg5 arg6 harg6 arg7 harg7 hc0 hc1 x0 x1 xs0 xs1)]
  unfold kernelRun5_C
  dsimp only
  try sl_unfold_words
  rw [View.canon_unit_zero hz5]
  simp only [View.readAt_eq_ld, harg1.read_unread, harg2.read_unread, harg6.read_unread, View.ld_unit_zero (S := S2000x128) hz5, View.ld_unit_zero (S := S1x128) hz5]

theorem sout5_C_1_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i) (x0 : Vec F S2000x128 .f32) (x1 : Vec F S2000x128 .f32) (xs0 : Vec F S1x128 .f32) (xs1 : Vec F S1x128 .f32) :
    sout5_C_1 c i arg1 harg1 arg2 harg2 arg3 harg3 arg4 harg4 arg5 harg5 arg6 harg6 arg7 harg7 hc0 hc1 x0 x1 xs0 xs1 = k5_pay5 x0 x1 xs1 := by
  unfold sout5_C_1
  rw [View.read_writes_eq_canon _ _ _ (scover5_C_1 c i arg1 harg1 arg2 harg2 arg3 harg3 arg4 harg4 arg5 harg5 arg6 harg6 arg7 harg7 hc0 hc1 x0 x1 xs0 xs1)]
  unfold kernelRun5_C
  dsimp only
  try sl_unfold_words
  rw [View.canon_unit_zero hz5]
  simp only [View.readAt_eq_ld, harg1.read_unread, harg2.read_unread, harg7.read_unread, View.ld_unit_zero (S := S2000x128) hz5, View.ld_unit_zero (S := S1x128) hz5]

theorem out5_C_3_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i) (x0 : Vec F S2000x128 .f32) (x1 : Vec F S2000x128 .f32) (xs0 : Vec F S1x128 .f32) (xs1 : Vec F S1x128 .f32) :
    out5_C_3 c i arg1 harg1 arg2 harg2 arg3 harg3 arg4 harg4 arg5 harg5 arg6 harg6 arg7 harg7 hc0 hc1 x0 x1 xs0 xs1 = k5_pay4 x0 x1 xs0 := by
  unfold out5_C_3
  rw [View.read_writes_eq_canon _ _ _ (cover5_C_3 c i arg1 harg1 arg2 harg2 arg3 harg3 arg4 harg4 arg5 harg5 arg6 harg6 arg7 harg7 hc0 hc1 x0 x1 xs0 xs1)]
  unfold kernelRun5_C
  dsimp only
  try sl_unfold_words
  rw [View.canon_unit_zero hz5]
  rw [View.readCov_unit_zero (S := S1x128) _ hz5]
  simp only [View.readAt_eq_ld, harg1.read_unread, harg2.read_unread, harg6.read_unread, View.ld_unit_zero (S := S2000x128) hz5, View.ld_unit_zero (S := S1x128) hz5]

theorem out5_C_4_eq (c : Dev nD) (i : grid5.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i) (hc1 : cond5_1 i) (x0 : Vec F S2000x128 .f32) (x1 : Vec F S2000x128 .f32) (xs0 : Vec F S1x128 .f32) (xs1 : Vec F S1x128 .f32) :
    out5_C_4 c i arg1 harg1 arg2 harg2 arg3 harg3 arg4 harg4 arg5 harg5 arg6 harg6 arg7 harg7 hc0 hc1 x0 x1 xs0 xs1 = k5_pay5 x0 x1 xs1 := by
  unfold out5_C_4
  rw [View.read_writes_eq_canon _ _ _ (cover5_C_4 c i arg1 harg1 arg2 harg2 arg3 harg3 arg4 harg4 arg5 harg5 arg6 harg6 arg7 harg7 hc0 hc1 x0 x1 xs0 xs1)]
  unfold kernelRun5_C
  dsimp only
  try sl_unfold_words
  rw [View.canon_unit_zero hz5]
  rw [View.readCov_unit_zero (S := S1x128) _ hz5]
  simp only [View.readAt_eq_ld, harg1.read_unread, harg2.read_unread, harg7.read_unread, View.ld_unit_zero (S := S2000x128) hz5, View.ld_unit_zero (S := S1x128) hz5]

/-! ## The accumulation in closed form

`k5_pay3 x0 x1` is the block `x0 + x1`; `k5_pay4 x0 x1 a` is `a` plus the column sums of that block, `k5_pay5 x0 x1 a` is `a`
plus the column sums of its squares; `k5_pay1`, `k5_pay2` are the zero rows. -/

/-- After the first point: the zero rows plus the first block's column sums (of the block, of its squares). -/
theorem scratchAt5_zero (c : Dev nD) (hn : 0 < cfg5.N) :
    scratchAt5 V c 0 hn = (k5_pay4 (iblk5 V c 0 ⟨0, hn⟩) (iblk5 V c 1 ⟨0, hn⟩) (k5_pay1 (F := F)), k5_pay5 (iblk5 V c 0 ⟨0, hn⟩) (iblk5 V c 1 ⟨0, hn⟩) (k5_pay2 (F := F))) := by
  have := scratchAt5_A V c ⟨0, hn⟩ rfl
  rw [sout5_A_0_eq, sout5_A_1_eq] at this; exact this

/-- After a later point: what the point before left plus this block's column sums. -/
theorem scratchAt5_succ (c : Dev nD) (n : ℕ) (hn : n + 1 < cfg5.N) :
    scratchAt5 V c (n + 1) hn = (k5_pay4 (iblk5 V c 0 ⟨n + 1, hn⟩) (iblk5 V c 1 ⟨n + 1, hn⟩) (scratchAt5 V c n (Nat.lt_of_succ_lt hn)).1, k5_pay5 (iblk5 V c 0 ⟨n + 1, hn⟩) (iblk5 V c 1 ⟨n + 1, hn⟩) (scratchAt5 V c n (Nat.lt_of_succ_lt hn)).2) := by
  by_cases h1 : n + 1 = 24
  · have := scratchAt5_C V c ⟨n + 1, hn⟩ (Nat.succ_ne_zero n) h1
    rw [sout5_C_0_eq, sout5_C_1_eq] at this; exact this
  · have := scratchAt5_B V c ⟨n + 1, hn⟩ (Nat.succ_ne_zero n) h1
    rw [sout5_B_0_eq, sout5_B_1_eq] at this; exact this

/-- Output 2's buffer after any point: the sum of the point's two input blocks. -/
theorem outsAt5_fst (c : Dev nD) (t : Fin cfg5.N) :
    (outsAt5 V c t.val t.isLt).1 = k5_pay3 (iblk5 V c 0 t) (iblk5 V c 1 t) := by
  by_cases h0 : t.val = 0
  · rw [outsAt5_A V c t h0]; dsimp only; rw [out5_A_2_eq]
  · by_cases h1 : t.val = 24
    · rw [outsAt5_C V c t h0 h1]; dsimp only; rw [out5_C_2_eq]
    · rw [outsAt5_B V c t h0 h1]; dsimp only; rw [out5_B_2_eq]

/-- After the last point the two one-row outputs' buffers hold the two accumulators' final contents. -/
theorem outsAt5_last (c : Dev nD) (t : Fin cfg5.N) (h1 : t.val = 24) :
    (outsAt5 V c t.val t.isLt).2.1 = (scratchAt5 V c t.val t.isLt).1 ∧ (outsAt5 V c t.val t.isLt).2.2 = (scratchAt5 V c t.val t.isLt).2 := by
  have h0 : ¬t.val = 0 := by omega
  rw [outsAt5_C V c t h0 h1, scratchAt5_C V c t h0 h1]; dsimp only
  rw [out5_C_3_eq, out5_C_4_eq, sout5_C_0_eq, sout5_C_1_eq]; exact ⟨rfl, rfl⟩

end Cert.KernelIdeal.Hand

end
-- ==== Proof.KI.Val5.lean ====
/- Region 5 at the extended reals: after the region output 2's array is the matrix `s + agg`, and outputs 3 and 4 are, column by
   column, the sum of that matrix's column and the sum of its squares over all 50000 rows — the accumulators are running totals over
   the 25 row blocks, and a total accumulated block by block is the sum over all rows. -/
import proofs.«180311_j29308856828500_2_alg».proof.Proof.KI.Reg5Forms
import proofs.«180311_j29308856828500_2_alg».proof.Proof.Math.Spec
import proofs.«180311_j29308856828500_2_alg».proof.Proof.Math.Net
import proofs.«180311_j29308856828500_2_alg».proof.Proof.Math.Regroup
import proofs.«180311_j29308856828500_2_alg».proof.Proof.Math.Accumulate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The body's arithmetic at an index -/

/-- The stored block is the sum of the two loaded blocks. -/
theorem pay3_eq5 {F : FTy → Type} [FloatOps F] (x0 x1 : Vec F S2000x128 .f32) : k5_pay3 x0 x1 = addf x0 x1 := by
  unfold k5_pay3
  simp only [shapeCast_self]

/-- The index a reduction over the rows puts back: row `k`, column `j`. -/
theorem lift_row5 (j : Fin 128) (k : Fin 2000) : reduces_S2000x128_S128.lift (ix1 j) k = ix2 k j := by
  funext a
  match a with
  | ⟨0, _⟩ => exact Fin.ext rfl
  | ⟨1, _⟩ => exact Fin.ext rfl

/-- The first accumulator's new contents at column `j`: what it held plus the column's sum over the block's 2000 rows. -/
theorem pay4_apply5 (x0 x1 : Vec Ideal S2000x128 .f32) (a : Vec Ideal S1x128 .f32) (j : Fin 128) :
    k5_pay4 x0 x1 a (ix2 (0 : Fin 1) j) = a (ix2 (0 : Fin 1) j) + ∑ r : Fin 2000, (x0 (ix2 r j) + x1 (ix2 r j)) := by
  unfold k5_pay4
  refine (congrFun (shapeCast_self _ _) _).trans ?_
  show a (ix2 (0 : Fin 1) j) + _ = _
  refine congrArg (a (ix2 (0 : Fin 1) j) + ·) ?_
  refine (shapeCast_a_1a_apply _ _ (0 : Fin 1) j).trans ?_
  refine (Ideal.multiReduction_add_single _ _ _ _ _ (ix1 j)).trans ?_
  refine Finset.sum_congr rfl fun k _ => ?_
  refine (congrFun (pay3_eq5 x0 x1) _).trans ?_
  exact congrArg (fun i => x0 i + x1 i) (lift_row5 j k)

/-- The second accumulator's: what it held plus the sum of the column's squares over the block's rows. -/
theorem pay5_apply5 (x0 x1 : Vec Ideal S2000x128 .f32) (a : Vec Ideal S1x128 .f32) (j : Fin 128) :
    k5_pay5 x0 x1 a (ix2 (0 : Fin 1) j) = a (ix2 (0 : Fin 1) j) + ∑ r : Fin 2000, (x0 (ix2 r j) + x1 (ix2 r j)) * (x0 (ix2 r j) + x1 (ix2 r j)) := by
  unfold k5_pay5
  refine (congrFun (shapeCast_self _ _) _).trans ?_
  show a (ix2 (0 : Fin 1) j) + _ = _
  refine congrArg (a (ix2 (0 : Fin 1) j) + ·) ?_
  refine (shapeCast_a_1a_apply _ _ (0 : Fin 1) j).trans ?_
  refine (Ideal.multiReduction_add_single _ _ _ _ _ (ix1 j)).trans ?_
  refine Finset.sum_congr rfl fun k _ => ?_
  show k5_pay3 x0 x1 _ * k5_pay3 x0 x1 _ = _
  rw [pay3_eq5 x0 x1]
  exact congrArg (fun i => (x0 i + x1 i) * (x0 i + x1 i)) (lift_row5 j k)

/-- The rows the accumulators are reset to are zero. -/
theorem pay1_apply5 (j : Fin 128) : (k5_pay1 (F := Ideal)) (ix2 (0 : Fin 1) j) = 0 := by
  unfold k5_pay1
  refine (congrFun (shapeCast_self _ _) _).trans ?_
  exact Ideal.ofBits_zero_f32
theorem pay2_apply5 (j : Fin 128) : (k5_pay2 (F := Ideal)) (ix2 (0 : Fin 1) j) = 0 := by
  unfold k5_pay2
  refine (congrFun (shapeCast_self _ _) _).trans ?_
  exact Ideal.ofBits_zero_f32

/-! ## The windows' blocks on the grid -/

/-- At point `t` the three row-blocked windows are all on block `(t, 0)`; the one-row outputs stay on block `(0, 0)`. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The two inputs as the region finds them, and the matrix `s + agg`. -/
abbrev sArr5 (c : Dev nD) : S50000x128.Idx → EReal := V c main_v72_2
abbrev gArr5 (c : Dev nD) : S50000x128.Idx → EReal := V c main_v102
abbrev hnArr5 (c : Dev nD) : S50000x128.Idx → EReal := fun i => sArr5 V c i + gArr5 V c i

/-- The two input blocks at point `t`, as blocks of extended reals. -/
abbrev xs5 (c : Dev nD) (t : Fin cfg5.N) : Vec Ideal S2000x128 .f32 := iblk5 V c 0 t
abbrev xg5 (c : Dev nD) (t : Fin cfg5.N) : Vec Ideal S2000x128 .f32 := iblk5 V c 1 t

/-- Input block `t` is rows `2000 t … 2000 t + 1999` of its array. -/
theorem iblk5_0_apply (c : Dev nD) (t : Fin cfg5.N) (r : Fin 2000) (j : Fin 128) (hr : 2000 * t.val + r.val < 50000) :
    xs5 V c t (ix2 r j) = sArr5 V c (ix2 ⟨2000 * t.val + r.val, hr⟩ j) := by
  obtain ⟨e0, e1, -⟩ := idx_facts5 t
  unfold xs5 iblk5
  rw [View.read_apply]
  show V c main_v72_2 _ = V c main_v72_2 _
  congr 1
  funext a
  apply Fin.ext
  match a with
  | ⟨0, _⟩ => show win5_0.index t (0 : Fin 2) * 2000 + 1 * r.val = 2000 * t.val + r.val; rw [e0]; omega
  | ⟨1, _⟩ => show win5_0.index t (1 : Fin 2) * 128 + 1 * j.val = j.val; rw [e1]; omega
theorem iblk5_1_apply (c : Dev nD) (t : Fin cfg5.N) (r : Fin 2000) (j : Fin 128) (hr : 2000 * t.val + r.val < 50000) :
    xg5 V c t (ix2 r j) = gArr5 V c (ix2 ⟨2000 * t.val + r.val, hr⟩ j) := by
  obtain ⟨-, -, e0, e1, -⟩ := idx_facts5 t
  unfold xg5 iblk5
  rw [View.read_apply]
  show V c main_v102 _ = V c main_v102 _
  congr 1
  funext a
  apply Fin.ext
  match a with
  | ⟨0, _⟩ => show win5_1.index t (0 : Fin 2) * 2000 + 1 * r.val = 2000 * t.val + r.val; rw [e0]; omega
  | ⟨1, _⟩ => show win5_1.index t (1 : Fin 2) * 128 + 1 * j.val = j.val; rw [e1]; omega

/-! ## Output 2: the array `s + agg` -/

/-- What point `t` writes back is block `t` of `s + agg`. -/
theorem flushed5_2_eq (c : Dev nD) (t : Fin cfg5.N) :
    (dat5 V c).flushed 2 t = ((cfg5.win 2).blk t).view.read (Elt Ideal) (hnArr5 V c) := by
  show (cfg5.win 2).cut (grid5.coords t) ((dat5 V c).after 2 t) = _
  rw [after5_2, outsAt5_fst, pay3_eq5]
  obtain ⟨e0, e1, e2, e3, e4, e5, -⟩ := idx_facts5 t
  funext j
  show sArr5 V c (((cfg5.win 0).blk t).view.emb j) + gArr5 V c (((cfg5.win 1).blk t).view.emb j) = sArr5 V c (((cfg5.win 2).blk t).view.emb j) + gArr5 V c (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 128 + 1 * (j 1).val = win5_2.index t (1 : Fin 2) * 128 + 1 * (j 1).val; omega
  rw [h0, h1]

/-- An index of the array is in point `t`'s block iff each coordinate is in the block's range on its axis. -/
theorem mem_blk5_2 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v103_0).slice (win5_2.rect t)).set ↔ _
  rw [View.set_slice_whole, Rect.mem_set_unit]
  exact Iff.rfl

/-- Row `r` is in the block of point `r / 2000`. -/
theorem cover5_2 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hlt : (i 0).val / 2000 < cfg5.N := by rw [show cfg5.N = 25 from N_5]; omega
  refine ⟨⟨(i 0).val / 2000, hlt⟩, flush5_2 _, ?_⟩
  rw [mem_blk5_2]
  obtain ⟨-, -, -, -, e4, e5, -⟩ := idx_facts5 ⟨(i 0).val / 2000, hlt⟩
  intro a
  match a with
  | ⟨0, _⟩ =>
    show win5_2.index ⟨(i 0).val / 2000, hlt⟩ (0 : Fin 2) * 2000 ≤ (i 0).val ∧ (i 0).val < win5_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win5_2.index ⟨(i 0).val / 2000, hlt⟩ (1 : Fin 2) * 128 ≤ (i 1).val ∧ (i 1).val < win5_2.index ⟨(i 0).val / 2000, hlt⟩ (1 : Fin 2) * 128 + 128
    rw [e5]; omega

/-- After the region, output 2's array is `s + agg`. -/
theorem final5_arr2 (c : Dev nD) : (dat5 V c).arrAt 2 cfg5.N = hnArr5 V c :=
  (dat5 V c).arrAt_eq_of_cover 2 (hnArr5 V c) (fun t _ => flushed5_2_eq V c t) cover5_2

theorem final5_h (c : Dev nD) :
    Cert.Spec.toMat ((dat5 V c).arrAt 2 cfg5.N) = fun i j => Cert.Spec.toMat (V c main_v72_2) i j + Cert.Spec.toMat (V c main_v102) i j := by
  funext i j
  exact congrFun (final5_arr2 V c) (ix2 i j)

/-! ## Outputs 3 and 4: the column sums -/

/-- The last point. -/
abbrev tLast5 : Fin cfg5.N := ⟨24, by rw [show cfg5.N = 25 from N_5]; decide⟩

/-- The one point that writes outputs 3 and 4 back, the last, writes the accumulators' final contents. -/
theorem flushed5_3_eq (c : Dev nD) (t : Fin cfg5.N) (hf : (cfg5.win 3).flush t = true) :
    (dat5 V c).flushed 3 t = ((cfg5.win 3).blk t).view.read (Elt Ideal) ((scratchAt5 V c tLast5.val tLast5.isLt).1) := by
  have hN : cfg5.N = 25 := N_5
  have h1 : t.val = 24 := by have := (flush5_3 t).mp hf; have := t.isLt; omega
  obtain rfl : t = tLast5 := Fin.ext h1
  show (cfg5.win 3).cut (grid5.coords tLast5) ((dat5 V c).after 3 tLast5) = _
  rw [after5_3, (outsAt5_last V c tLast5 rfl).1]
  have hz' : (fun a => win5_3.index tLast5 a * main_v103_1.ty.shape.size a) = fun _ => 0 := funext fun a => by fin_cases a <;> decide +kernel
  exact (Memref.read_access_unit_zero (Elt Ideal) main_v103_1 hz' (fun a => by rw [congrFun hz' a]; simp) _).symm
theorem flushed5_4_eq (c : Dev nD) (t : Fin cfg5.N) (hf : (cfg5.win 4).flush t = true) :
    (dat5 V c).flushed 4 t = ((cfg5.win 4).blk t).view.read (Elt Ideal) ((scratchAt5 V c tLast5.val tLast5.isLt).2) := by
  have hN : cfg5.N = 25 := N_5
  have h1 : t.val = 24 := by have := (flush5_4 t).mp hf; have := t.isLt; omega
  obtain rfl : t = tLast5 := Fin.ext h1
  show (cfg5.win 4).cut (grid5.coords tLast5) ((dat5 V c).after 4 tLast5) = _
  rw [after5_4, (outsAt5_last V c tLast5 rfl).2]
  have hz' : (fun a => win5_4.index tLast5 a * main_v103_2.ty.shape.size a) = fun _ => 0 := funext fun a => by fin_cases a <;> decide +kernel
  exact (Memref.read_access_unit_zero (Elt Ideal) main_v103_2 hz' (fun a => by rw [congrFun hz' a]; simp) _).symm

theorem mem_blk5_3 (t : Fin cfg5.N) (i : S1x128.Idx) :
    i ∈ ((cfg5.win 3).blk t).view.set ↔ ∀ a : Fin 2, win5_3.index t a * S1x128.size a ≤ (i a).val ∧ (i a).val < win5_3.index t a * S1x128.size a + S1x128.size a := by
  show i ∈ ((View.whole main_v103_1).slice (win5_3.rect t)).set ↔ _
  rw [View.set_slice_whole, Rect.mem_set_unit]
  exact Iff.rfl
theorem mem_blk5_4 (t : Fin cfg5.N) (i : S1x128.Idx) :
    i ∈ ((cfg5.win 4).blk t).view.set ↔ ∀ a : Fin 2, win5_4.index t a * S1x128.size a ≤ (i a).val ∧ (i a).val < win5_4.index t a * S1x128.size a + S1x128.size a := by
  show i ∈ ((View.whole main_v103_2).slice (win5_4.rect t)).set ↔ _
  rw [View.set_slice_whole, Rect.mem_set_unit]
  exact Iff.rfl

/-- The last point's block is the whole one-row array. -/
theorem cover5_3 (i : S1x128.Idx) : ∃ t : Fin cfg5.N, (cfg5.win 3).flush t = true ∧ i ∈ ((cfg5.win 3).blk t).view.set := by
  have hi0 : (i 0).val < 1 := (i 0).isLt
  have hi1 : (i 1).val < 128 := (i 1).isLt
  refine ⟨tLast5, (flush5_3 tLast5).mpr rfl, ?_⟩
  rw [mem_blk5_3]
  obtain ⟨-, -, -, -, -, -, e6, e7, -⟩ := idx_facts5 tLast5
  intro a
  match a with
  | ⟨0, _⟩ => show win5_3.index tLast5 (0 : Fin 2) * 1 ≤ (i 0).val ∧ (i 0).val < win5_3.index tLast5 (0 : Fin 2) * 1 + 1; rw [e6]; omega
  | ⟨1, _⟩ => show win5_3.index tLast5 (1 : Fin 2) * 128 ≤ (i 1).val ∧ (i 1).val < win5_3.index tLast5 (1 : Fin 2) * 128 + 128; rw [e7]; omega
theorem cover5_4 (i : S1x128.Idx) : ∃ t : Fin cfg5.N, (cfg5.win 4).flush t = true ∧ i ∈ ((cfg5.win 4).blk t).view.set := by
  have hi0 : (i 0).val < 1 := (i 0).isLt
  have hi1 : (i 1).val < 128 := (i 1).isLt
  refine ⟨tLast5, (flush5_4 tLast5).mpr rfl, ?_⟩
  rw [mem_blk5_4]
  obtain ⟨-, -, -, -, -, -, -, -, e8, e9⟩ := idx_facts5 tLast5
  intro a
  match a with
  | ⟨0, _⟩ => show win5_4.index tLast5 (0 : Fin 2) * 1 ≤ (i 0).val ∧ (i 0).val < win5_4.index tLast5 (0 : Fin 2) * 1 + 1; rw [e8]; omega
  | ⟨1, _⟩ => show win5_4.index tLast5 (1 : Fin 2) * 128 ≤ (i 1).val ∧ (i 1).val < win5_4.index tLast5 (1 : Fin 2) * 128 + 128; rw [e9]; omega

/-- After the region, outputs 3 and 4 hold the accumulators' contents after the last point. -/
theorem final5_arr3 (c : Dev nD) : (dat5 V c).arrAt 3 cfg5.N = (scratchAt5 V c tLast5.val tLast5.isLt).1 :=
  (dat5 V c).arrAt_eq_of_cover 3 _ (flushed5_3_eq V c) cover5_3
theorem final5_arr4 (c : Dev nD) : (dat5 V c).arrAt 4 cfg5.N = (scratchAt5 V c tLast5.val tLast5.isLt).2 :=
  (dat5 V c).arrAt_eq_of_cover 4 _ (flushed5_4_eq V c) cover5_4

/-! ## The accumulators as running totals -/

/-- Row `n` of `s + agg` at column `j` (zero past the last row), and its square. -/
def rowAt5 (c : Dev nD) (j : Fin 128) (n : ℕ) : EReal := if h : n < 50000 then hnArr5 V c (ix2 ⟨n, h⟩ j) else 0
def rowSqAt5 (c : Dev nD) (j : Fin 128) (n : ℕ) : EReal := if h : n < 50000 then hnArr5 V c (ix2 ⟨n, h⟩ j) * hnArr5 V c (ix2 ⟨n, h⟩ j) else 0

/-- The accumulators at column `j` before point `n`: zero before the first. -/
def accS5 (c : Dev nD) (j : Fin 128) : ℕ → EReal
  | 0 => 0
  | n + 1 => if h : n < cfg5.N then ((scratchAt5 V c n h).1 : Vec Ideal S1x128 .f32) (ix2 (0 : Fin 1) j) else 0
def accQ5 (c : Dev nD) (j : Fin 128) : ℕ → EReal
  | 0 => 0
  | n + 1 => if h : n < cfg5.N then ((scratchAt5 V c n h).2 : Vec Ideal S1x128 .f32) (ix2 (0 : Fin 1) j) else 0

/-- The block sums the body adds at point `t`, over the rows of the array. -/
theorem blockSum5 (c : Dev nD) (j : Fin 128) (t : Fin cfg5.N) :
    ∑ r : Fin 2000, (xs5 V c t (ix2 r j) + xg5 V c t (ix2 r j)) = ∑ r : Fin 2000, rowAt5 V c j (2000 * t.val + r.val) := by
  have hN : cfg5.N = 25 := N_5
  refine Finset.sum_congr rfl fun r _ => ?_
  have hr : 2000 * t.val + r.val < 50000 := by have := t.isLt; have := r.isLt; omega
  rw [iblk5_0_apply V c t r j hr, iblk5_1_apply V c t r j hr]
  unfold rowAt5; rw [dif_pos hr]
theorem blockSqSum5 (c : Dev nD) (j : Fin 128) (t : Fin cfg5.N) :
    ∑ r : Fin 2000, (xs5 V c t (ix2 r j) + xg5 V c t (ix2 r j)) * (xs5 V c t (ix2 r j) + xg5 V c t (ix2 r j)) = ∑ r : Fin 2000, rowSqAt5 V c j (2000 * t.val + r.val) := by
  have hN : cfg5.N = 25 := N_5
  refine Finset.sum_congr rfl fun r _ => ?_
  have hr : 2000 * t.val + r.val < 50000 := by have := t.isLt; have := r.isLt; omega
  rw [iblk5_0_apply V c t r j hr, iblk5_1_apply V c t r j hr]
  unfold rowSqAt5; rw [dif_pos hr]

/-- Each point adds its block's column sum onto the first accumulator. -/
theorem accS5_step (c : Dev nD) (j : Fin 128) (t : ℕ) (ht : t < 25) :
    accS5 V c j (t + 1) = accS5 V c j t + ∑ r : Fin 2000, rowAt5 V c j (2000 * t + r.val) := by
  have hlt : t < cfg5.N := by rw [show cfg5.N = 25 from N_5]; exact ht
  show (if h : t < cfg5.N then ((scratchAt5 V c t h).1 : Vec Ideal S1x128 .f32) (ix2 (0 : Fin 1) j) else 0) = _
  rw [dif_pos hlt]
  cases t with
  | zero =>
    rw [scratchAt5_zero V c hlt]
    refine (pay4_apply5 _ _ _ j).trans ?_
    rw [pay1_apply5 j]
    exact congrArg ((0 : EReal) + ·) (blockSum5 V c j ⟨0, hlt⟩)
  | succ n =>
    rw [scratchAt5_succ V c n hlt]
    refine (pay4_apply5 _ _ _ j).trans ?_
    have hn : n < cfg5.N := Nat.lt_of_succ_lt hlt
    have e : accS5 V c j (n + 1) = ((scratchAt5 V c n hn).1 : Vec Ideal S1x128 .f32) (ix2 (0 : Fin 1) j) := dif_pos hn
    rw [e]
    exact congrArg (((scratchAt5 V c n hn).1 : Vec Ideal S1x128 .f32) (ix2 (0 : Fin 1) j) + ·) (blockSum5 V c j ⟨n + 1, hlt⟩)
theorem accQ5_step (c : Dev nD) (j : Fin 128) (t : ℕ) (ht : t < 25) :
    accQ5 V c j (t + 1) = accQ5 V c j t + ∑ r : Fin 2000, rowSqAt5 V c j (2000 * t + r.val) := by
  have hlt : t < cfg5.N := by rw [show cfg5.N = 25 from N_5]; exact ht
  show (if h : t < cfg5.N then ((scratchAt5 V c t h).2 : Vec Ideal S1x128 .f32) (ix2 (0 : Fin 1) j) else 0) = _
  rw [dif_pos hlt]
  cases t with
  | zero =>
    rw [scratchAt5_zero V c hlt]
    refine (pay5_apply5 _ _ _ j).trans ?_
    rw [pay2_apply5 j]
    exact congrArg ((0 : EReal) + ·) (blockSqSum5 V c j ⟨0, hlt⟩)
  | succ n =>
    rw [scratchAt5_succ V c n hlt]
    refine (pay5_apply5 _ _ _ j).trans ?_
    have hn : n < cfg5.N := Nat.lt_of_succ_lt hlt
    have e : accQ5 V c j (n + 1) = ((scratchAt5 V c n hn).2 : Vec Ideal S1x128 .f32) (ix2 (0 : Fin 1) j) := dif_pos hn
    rw [e]
    exact congrArg (((scratchAt5 V c n hn).2 : Vec Ideal S1x128 .f32) (ix2 (0 : Fin 1) j) + ·) (blockSqSum5 V c j ⟨n + 1, hlt⟩)

/-- After the region, output 3 at column `j` is the column's sum of `s + agg` over all 50000 rows, -/
theorem final5_sum (c : Dev nD) (j : Fin 128) :
    ((dat5 V c).arrAt 3 cfg5.N) (ix2 (0 : Fin 1) j) = Cert.Spec.colSum (fun i j => Cert.Spec.toMat (V c main_v72_2) i j + Cert.Spec.toMat (V c main_v102) i j) j := by
  rw [final5_arr3 V c]
  have h25 : accS5 V c j (24 + 1) = ((scratchAt5 V c tLast5.val tLast5.isLt).1 : Vec Ideal S1x128 .f32) (ix2 (0 : Fin 1) j) := by
    show (if h : 24 < cfg5.N then ((scratchAt5 V c 24 h).1 : Vec Ideal S1x128 .f32) (ix2 (0 : Fin 1) j) else 0) = _
    exact dif_pos tLast5.isLt
  refine (h25.symm.trans (Cert.Math.block_running_total (rowAt5 V c j) (accS5 V c j) rfl (accS5_step V c j))).trans ?_
  unfold Cert.Spec.colSum
  refine Finset.sum_congr rfl fun i _ => ?_
  unfold rowAt5; rw [dif_pos i.isLt]

/-- and output 4 the column's sum of squares. -/
theorem final5_sq (c : Dev nD) (j : Fin 128) :
    ((dat5 V c).arrAt 4 cfg5.N) (ix2 (0 : Fin 1) j) = Cert.Spec.colSum (fun i j => (Cert.Spec.toMat (V c main_v72_2) i j + Cert.Spec.toMat (V c main_v102) i j) * (Cert.Spec.toMat (V c main_v72_2) i j + Cert.Spec.toMat (V c main_v102) i j)) j := by
  rw [final5_arr4 V c]
  have h25 : accQ5 V c j (24 + 1) = ((scratchAt5 V c tLast5.val tLast5.isLt).2 : Vec Ideal S1x128 .f32) (ix2 (0 : Fin 1) j) := by
    show (if h : 24 < cfg5.N then ((scratchAt5 V c 24 h).2 : Vec Ideal S1x128 .f32) (ix2 (0 : Fin 1) j) else 0) = _
    exact dif_pos tLast5.isLt
  refine (h25.symm.trans (Cert.Math.block_running_total (rowSqAt5 V c j) (accQ5 V c j) rfl (accQ5_step V c j))).trans ?_
  unfold Cert.Spec.colSum
  refine Finset.sum_congr rfl fun i _ => ?_
  unfold rowSqAt5; rw [dif_pos i.isLt]

end Cert.KernelIdeal.Hand

end
-- ==== Proof.KI.Reg8Forms.lean ====
/- Region 8: what its body computes, read off the runs — output 2 holds the sum of the two input blocks after every point; the two
   accumulators hold, after point n, the zero row plus the column sums (of the block, of its squares) of points 0..n, added in the
   grid's order; after the last point outputs 3 and 4 hold the accumulators. -/
import proofs.«180311_j29308856828500_2_alg».proof.Proof.KI.Reg8Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
variable (V : (c : Dev nD) → (b : Ref sig .tc) → Buf (Elt F) ((c : Thread nD τ).loc b))

theorem hz8 : (![0, 0] : Fin 2 → Nat) = fun _ => 0 := funext fun a => by fin_cases a <;> rfl

/-! ## What each case leaves, as terms of the point's two input blocks and of what the accumulators held -/

theorem out8_A_2_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i) (x0 : Vec F S2000x128 .f32) (x1 : Vec F S2000x128 .f32) :
    out8_A_2 c i arg1 harg1 arg2 harg2 arg3 harg3 arg4 harg4 arg5 harg5 arg6 harg6 arg7 harg7 hc0 hc1 x0 x1 = k8_pay3 x0 x1 := by
  unfold out8_A_2
  rw [View.read_writes_eq_canon _ _ _ (cover8_A_2 c i arg1 harg1 arg2 harg2 arg3 harg3 arg4 harg4 arg5 harg5 arg6 harg6 arg7 harg7 hc0 hc1 x0 x1)]
  unfold kernelRun8_A
  dsimp only
  try sl_unfold_words
  rw [View.canon_unit_zero hz8]
  simp only [View.readAt_eq_ld, harg1.read_unread, harg2.read_unread, View.ld_unit_zero (S := S2000x128) hz8, View.ld_unit_zero (S := S1x128) hz8]

theorem sout8_A_0_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i) (x0 : Vec F S2000x128 .f32) (x1 : Vec F S2000x128 .f32) :
    sout8_A_0 c i arg1 harg1 arg2 harg2 arg3 harg3 arg4 harg4 arg5 harg5 arg6 harg6 arg7 harg7 hc0 hc1 x0 x1 = k8_pay4 x0 x1 (k8_pay1 (F := F)) := by
  unfold sout8_A_0
  rw [View.read_writes_eq_canon _ _ _ (scover8_A_0 c i arg1 harg1 arg2 harg2 arg3 harg3 arg4 harg4 arg5 harg5 arg6 harg6 arg7 harg7 hc0 hc1 x0 x1)]
  unfold kernelRun8_A
  dsimp only
  try sl_unfold_words
  rw [View.canon_cons_unit_zero hz8]
  rw [View.readCov_unit_zero (S := S1x128) _ hz8]
  simp only [View.readAt_eq_ld, harg1.read_unread, harg2.read_unread, View.ld_unit_zero (S := S2000x128) hz8, View.ld_unit_zero (S := S1x128) hz8]

theorem sout8_A_1_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond8_0 i) (hc1 : ¬cond8_1 i) (x0 : Vec F S2000x128 .f32) (x1 : Vec F S2000x128 .f32) :
    sout8_A_1 c i arg1 harg1 arg2 harg2 arg3 harg3 arg4 harg4 arg5 harg5 arg6 harg6 arg7 harg7 hc0 hc1 x0 x1 = k8_pay5 x0 x1 (k8_pay2 (F := F)) := by
  unfold sout8_A_1
  rw [View.read_writes_eq_canon _ _ _ (scover8_A_1 c i arg1 harg1 arg2 harg2 arg3 harg3 arg4 harg4 arg5 harg5 arg6 harg6 arg7 harg7 hc0 hc1 x0 x1)]
  unfold kernelRun8_A
  dsimp only
  try sl_unfold_words
  rw [View.canon_cons_unit_zero hz8]
  rw [View.readCov_unit_zero (S := S1x128) _ hz8]
  simp only [View.readAt_eq_ld, harg1.read_unread, harg2.read_unread, View.ld_unit_zero (S := S2000x128) hz8, View.ld_unit_zero (S := S1x128) hz8]

theorem out8_B_2_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i) (x0 : Vec F S2000x128 .f32) (x1 : Vec F S2000x128 .f32) (xs0 : Vec F S1x128 .f32) (xs1 : Vec F S1x128 .f32) :
    out8_B_2 c i arg1 harg1 arg2 harg2 arg3 harg3 arg4 harg4 arg5 harg5 arg6 harg6 arg7 harg7 hc0 hc1 x0 x1 xs0 xs1 = k8_pay3 x0 x1 := by
  unfold out8_B_2
  rw [View.read_writes_eq_canon _ _ _ (cover8_B_2 c i arg1 harg1 arg2 harg2 arg3 harg3 arg4 harg4 arg5 harg5 arg6 harg6 arg7 harg7 hc0 hc1 x0 x1 xs0 xs1)]
  unfold kernelRun8_B
  dsimp only
  try sl_unfold_words
  rw [View.canon_unit_zero hz8]
  simp only [View.readAt_eq_ld, harg1.read_unread, harg2.read_unread, View.ld_unit_zero (S := S2000x128) hz8, View.ld_unit_zero (S := S1x128) hz8]

theorem sout8_B_0_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i) (x0 : Vec F S2000x128 .f32) (x1 : Vec F S2000x128 .f32) (xs0 : Vec F S1x128 .f32) (xs1 : Vec F S1x128 .f32) :
    sout8_B_0 c i arg1 harg1 arg2 harg2 arg3 harg3 arg4 harg4 arg5 harg5 arg6 harg6 arg7 harg7 hc0 hc1 x0 x1 xs0 xs1 = k8_pay4 x0 x1 xs0 := by
  unfold sout8_B_0
  rw [View.read_writes_eq_canon _ _ _ (scover8_B_0 c i arg1 harg1 arg2 harg2 arg3 harg3 arg4 harg4 arg5 harg5 arg6 harg6 arg7 harg7 hc0 hc1 x0 x1 xs0 xs1)]
  unfold kernelRun8_B
  dsimp only
  try sl_unfold_words
  rw [View.canon_unit_zero hz8]
  simp only [View.readAt_eq_ld, harg1.read_unread, harg2.read_unread, harg6.read_unread, View.ld_unit_zero (S := S2000x128) hz8, View.ld_unit_zero (S := S1x128) hz8]

theorem sout8_B_1_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : ¬cond8_1 i) (x0 : Vec F S2000x128 .f32) (x1 : Vec F S2000x128 .f32) (xs0 : Vec F S1x128 .f32) (xs1 : Vec F S1x128 .f32) :
    sout8_B_1 c i arg1 harg1 arg2 harg2 arg3 harg3 arg4 harg4 arg5 harg5 arg6 harg6 arg7 harg7 hc0 hc1 x0 x1 xs0 xs1 = k8_pay5 x0 x1 xs1 := by
  unfold sout8_B_1
  rw [View.read_writes_eq_canon _ _ _ (scover8_B_1 c i arg1 harg1 arg2 harg2 arg3 harg3 arg4 harg4 arg5 harg5 arg6 harg6 arg7 harg7 hc0 hc1 x0 x1 xs0 xs1)]
  unfold kernelRun8_B
  dsimp only
  try sl_unfold_words
  rw [View.canon_unit_zero hz8]
  simp only [View.readAt_eq_ld, harg1.read_unread, harg2.read_unread, harg7.read_unread, View.ld_unit_zero (S := S2000x128) hz8, View.ld_unit_zero (S := S1x128) hz8]

theorem out8_C_2_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i) (x0 : Vec F S2000x128 .f32) (x1 : Vec F S2000x128 .f32) (xs0 : Vec F S1x128 .f32) (xs1 : Vec F S1x128 .f32) :
    out8_C_2 c i arg1 harg1 arg2 harg2 arg3 harg3 arg4 harg4 arg5 harg5 arg6 harg6 arg7 harg7 hc0 hc1 x0 x1 xs0 xs1 = k8_pay3 x0 x1 := by
  unfold out8_C_2
  rw [View.read_writes_eq_canon _ _ _ (cover8_C_2 c i arg1 harg1 arg2 harg2 arg3 harg3 arg4 harg4 arg5 harg5 arg6 harg6 arg7 harg7 hc0 hc1 x0 x1 xs0 xs1)]
  unfold kernelRun8_C
  dsimp only
  try sl_unfold_words
  rw [View.canon_unit_zero hz8]
  simp only [View.readAt_eq_ld, harg1.read_unread, harg2.read_unread, View.ld_unit_zero (S := S2000x128) hz8, View.ld_unit_zero (S := S1x128) hz8]

theorem sout8_C_0_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i) (x0 : Vec F S2000x128 .f32) (x1 : Vec F S2000x128 .f32) (xs0 : Vec F S1x128 .f32) (xs1 : Vec F S1x128 .f32) :
    sout8_C_0 c i arg1 harg1 arg2 harg2 arg3 harg3 arg4 harg4 arg5 harg5 arg6 harg6 arg7 harg7 hc0 hc1 x0 x1 xs0 xs1 = k8_pay4 x0 x1 xs0 := by
  unfold sout8_C_0
  rw [View.read_writes_eq_canon _ _ _ (scover8_C_0 c i arg1 harg1 arg2 harg2 arg3 harg3 arg4 harg4 arg5 harg5 arg6 harg6 arg7 harg7 hc0 hc1 x0 x1 xs0 xs1)]
  unfold kernelRun8_C
  dsimp only
  try sl_unfold_words
  rw [View.canon_unit_zero hz8]
  simp only [View.readAt_eq_ld, harg1.read_unread, harg2.read_unread, harg6.read_unread, View.ld_unit_zero (S := S2000x128) hz8, View.ld_unit_zero (S := S1x128) hz8]

theorem sout8_C_1_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i) (x0 : Vec F S2000x128 .f32) (x1 : Vec F S2000x128 .f32) (xs0 : Vec F S1x128 .f32) (xs1 : Vec F S1x128 .f32) :
    sout8_C_1 c i arg1 harg1 arg2 harg2 arg3 harg3 arg4 harg4 arg5 harg5 arg6 harg6 arg7 harg7 hc0 hc1 x0 x1 xs0 xs1 = k8_pay5 x0 x1 xs1 := by
  unfold sout8_C_1
  rw [View.read_writes_eq_canon _ _ _ (scover8_C_1 c i arg1 harg1 arg2 harg2 arg3 harg3 arg4 harg4 arg5 harg5 arg6 harg6 arg7 harg7 hc0 hc1 x0 x1 xs0 xs1)]
  unfold kernelRun8_C
  dsimp only
  try sl_unfold_words
  rw [View.canon_unit_zero hz8]
  simp only [View.readAt_eq_ld, harg1.read_unread, harg2.read_unread, harg7.read_unread, View.ld_unit_zero (S := S2000x128) hz8, View.ld_unit_zero (S := S1x128) hz8]

theorem out8_C_3_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i) (x0 : Vec F S2000x128 .f32) (x1 : Vec F S2000x128 .f32) (xs0 : Vec F S1x128 .f32) (xs1 : Vec F S1x128 .f32) :
    out8_C_3 c i arg1 harg1 arg2 harg2 arg3 harg3 arg4 harg4 arg5 harg5 arg6 harg6 arg7 harg7 hc0 hc1 x0 x1 xs0 xs1 = k8_pay4 x0 x1 xs0 := by
  unfold out8_C_3
  rw [View.read_writes_eq_canon _ _ _ (cover8_C_3 c i arg1 harg1 arg2 harg2 arg3 harg3 arg4 harg4 arg5 harg5 arg6 harg6 arg7 harg7 hc0 hc1 x0 x1 xs0 xs1)]
  unfold kernelRun8_C
  dsimp only
  try sl_unfold_words
  rw [View.canon_unit_zero hz8]
  rw [View.readCov_unit_zero (S := S1x128) _ hz8]
  simp only [View.readAt_eq_ld, harg1.read_unread, harg2.read_unread, harg6.read_unread, View.ld_unit_zero (S := S2000x128) hz8, View.ld_unit_zero (S := S1x128) hz8]

theorem out8_C_4_eq (c : Dev nD) (i : grid8.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i) (hc1 : cond8_1 i) (x0 : Vec F S2000x128 .f32) (x1 : Vec F S2000x128 .f32) (xs0 : Vec F S1x128 .f32) (xs1 : Vec F S1x128 .f32) :
    out8_C_4 c i arg1 harg1 arg2 harg2 arg3 harg3 arg4 harg4 arg5 harg5 arg6 harg6 arg7 harg7 hc0 hc1 x0 x1 xs0 xs1 = k8_pay5 x0 x1 xs1 := by
  unfold out8_C_4
  rw [View.read_writes_eq_canon _ _ _ (cover8_C_4 c i arg1 harg1 arg2 harg2 arg3 harg3 arg4 harg4 arg5 harg5 arg6 harg6 arg7 harg7 hc0 hc1 x0 x1 xs0 xs1)]
  unfold kernelRun8_C
  dsimp only
  try sl_unfold_words
  rw [View.canon_unit_zero hz8]
  rw [View.readCov_unit_zero (S := S1x128) _ hz8]
  simp only [View.readAt_eq_ld, harg1.read_unread, harg2.read_unread, harg7.read_unread, View.ld_unit_zero (S := S2000x128) hz8, View.ld_unit_zero (S := S1x128) hz8]

/-! ## The accumulation in closed form

`k8_pay3 x0 x1` is the block `x0 + x1`; `k8_pay4 x0 x1 a` is `a` plus the column sums of that block, `k8_pay5 x0 x1 a` is `a`
plus the column sums of its squares; `k8_pay1`, `k8_pay2` are the zero rows. -/

/-- After the first point: the zero rows plus the first block's column sums (of the block, of its squares). -/
theorem scratchAt8_zero (c : Dev nD) (hn : 0 < cfg8.N) :
    scratchAt8 V c 0 hn = (k8_pay4 (iblk8 V c 0 ⟨0, hn⟩) (iblk8 V c 1 ⟨0, hn⟩) (k8_pay1 (F := F)), k8_pay5 (iblk8 V c 0 ⟨0, hn⟩) (iblk8 V c 1 ⟨0, hn⟩) (k8_pay2 (F := F))) := by
  have := scratchAt8_A V c ⟨0, hn⟩ rfl
  rw [sout8_A_0_eq, sout8_A_1_eq] at this; exact this

/-- After a later point: what the point before left plus this block's column sums. -/
theorem scratchAt8_succ (c : Dev nD) (n : ℕ) (hn : n + 1 < cfg8.N) :
    scratchAt8 V c (n + 1) hn = (k8_pay4 (iblk8 V c 0 ⟨n + 1, hn⟩) (iblk8 V c 1 ⟨n + 1, hn⟩) (scratchAt8 V c n (Nat.lt_of_succ_lt hn)).1, k8_pay5 (iblk8 V c 0 ⟨n + 1, hn⟩) (iblk8 V c 1 ⟨n + 1, hn⟩) (scratchAt8 V c n (Nat.lt_of_succ_lt hn)).2) := by
  by_cases h1 : n + 1 = 24
  · have := scratchAt8_C V c ⟨n + 1, hn⟩ (Nat.succ_ne_zero n) h1
    rw [sout8_C_0_eq, sout8_C_1_eq] at this; exact this
  · have := scratchAt8_B V c ⟨n + 1, hn⟩ (Nat.succ_ne_zero n) h1
    rw [sout8_B_0_eq, sout8_B_1_eq] at this; exact this

/-- Output 2's buffer after any point: the sum of the point's two input blocks. -/
theorem outsAt8_fst (c : Dev nD) (t : Fin cfg8.N) :
    (outsAt8 V c t.val t.isLt).1 = k8_pay3 (iblk8 V c 0 t) (iblk8 V c 1 t) := by
  by_cases h0 : t.val = 0
  · rw [outsAt8_A V c t h0]; dsimp only; rw [out8_A_2_eq]
  · by_cases h1 : t.val = 24
    · rw [outsAt8_C V c t h0 h1]; dsimp only; rw [out8_C_2_eq]
    · rw [outsAt8_B V c t h0 h1]; dsimp only; rw [out8_B_2_eq]

/-- After the last point the two one-row outputs' buffers hold the two accumulators' final contents. -/
theorem outsAt8_last (c : Dev nD) (t : Fin cfg8.N) (h1 : t.val = 24) :
    (outsAt8 V c t.val t.isLt).2.1 = (scratchAt8 V c t.val t.isLt).1 ∧ (outsAt8 V c t.val t.isLt).2.2 = (scratchAt8 V c t.val t.isLt).2 := by
  have h0 : ¬t.val = 0 := by omega
  rw [outsAt8_C V c t h0 h1, scratchAt8_C V c t h0 h1]; dsimp only
  rw [out8_C_3_eq, out8_C_4_eq, sout8_C_0_eq, sout8_C_1_eq]; exact ⟨rfl, rfl⟩

end Cert.KernelIdeal.Hand

end
-- ==== Proof.KI.Val8.lean ====
/- Region 8 at the extended reals: after the region output 2's array is the matrix `s + agg`, and outputs 3 and 4 are, column by
   column, the sum of that matrix's column and the sum of its squares over all 50000 rows — the accumulators are running totals over
   the 25 row blocks, and a total accumulated block by block is the sum over all rows. -/
import proofs.«180311_j29308856828500_2_alg».proof.Proof.KI.Reg8Forms
import proofs.«180311_j29308856828500_2_alg».proof.Proof.Math.Spec
import proofs.«180311_j29308856828500_2_alg».proof.Proof.Math.Net
import proofs.«180311_j29308856828500_2_alg».proof.Proof.Math.Regroup
import proofs.«180311_j29308856828500_2_alg».proof.Proof.Math.Accumulate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The body's arithmetic at an index -/

/-- The stored block is the sum of the two loaded blocks. -/
theorem pay3_eq8 {F : FTy → Type} [FloatOps F] (x0 x1 : Vec F S2000x128 .f32) : k8_pay3 x0 x1 = addf x0 x1 := by
  unfold k8_pay3
  simp only [shapeCast_self]

/-- The index a reduction over the rows puts back: row `k`, column `j`. -/
theorem lift_row8 (j : Fin 128) (k : Fin 2000) : reduces_S2000x128_S128.lift (ix1 j) k = ix2 k j := by
  funext a
  match a with
  | ⟨0, _⟩ => exact Fin.ext rfl
  | ⟨1, _⟩ => exact Fin.ext rfl

/-- The first accumulator's new contents at column `j`: what it held plus the column's sum over the block's 2000 rows. -/
theorem pay4_apply8 (x0 x1 : Vec Ideal S2000x128 .f32) (a : Vec Ideal S1x128 .f32) (j : Fin 128) :
    k8_pay4 x0 x1 a (ix2 (0 : Fin 1) j) = a (ix2 (0 : Fin 1) j) + ∑ r : Fin 2000, (x0 (ix2 r j) + x1 (ix2 r j)) := by
  unfold k8_pay4
  refine (congrFun (shapeCast_self _ _) _).trans ?_
  show a (ix2 (0 : Fin 1) j) + _ = _
  refine congrArg (a (ix2 (0 : Fin 1) j) + ·) ?_
  refine (shapeCast_a_1a_apply _ _ (0 : Fin 1) j).trans ?_
  refine (Ideal.multiReduction_add_single _ _ _ _ _ (ix1 j)).trans ?_
  refine Finset.sum_congr rfl fun k _ => ?_
  refine (congrFun (pay3_eq8 x0 x1) _).trans ?_
  exact congrArg (fun i => x0 i + x1 i) (lift_row8 j k)

/-- The second accumulator's: what it held plus the sum of the column's squares over the block's rows. -/
theorem pay5_apply8 (x0 x1 : Vec Ideal S2000x128 .f32) (a : Vec Ideal S1x128 .f32) (j : Fin 128) :
    k8_pay5 x0 x1 a (ix2 (0 : Fin 1) j) = a (ix2 (0 : Fin 1) j) + ∑ r : Fin 2000, (x0 (ix2 r j) + x1 (ix2 r j)) * (x0 (ix2 r j) + x1 (ix2 r j)) := by
  unfold k8_pay5
  refine (congrFun (shapeCast_self _ _) _).trans ?_
  show a (ix2 (0 : Fin 1) j) + _ = _
  refine congrArg (a (ix2 (0 : Fin 1) j) + ·) ?_
  refine (shapeCast_a_1a_apply _ _ (0 : Fin 1) j).trans ?_
  refine (Ideal.multiReduction_add_single _ _ _ _ _ (ix1 j)).trans ?_
  refine Finset.sum_congr rfl fun k _ => ?_
  show k8_pay3 x0 x1 _ * k8_pay3 x0 x1 _ = _
  rw [pay3_eq8 x0 x1]
  exact congrArg (fun i => (x0 i + x1 i) * (x0 i + x1 i)) (lift_row8 j k)

/-- The rows the accumulators are reset to are zero. -/
theorem pay1_apply8 (j : Fin 128) : (k8_pay1 (F := Ideal)) (ix2 (0 : Fin 1) j) = 0 := by
  unfold k8_pay1
  refine (congrFun (shapeCast_self _ _) _).trans ?_
  exact Ideal.ofBits_zero_f32
theorem pay2_apply8 (j : Fin 128) : (k8_pay2 (F := Ideal)) (ix2 (0 : Fin 1) j) = 0 := by
  unfold k8_pay2
  refine (congrFun (shapeCast_self _ _) _).trans ?_
  exact Ideal.ofBits_zero_f32

/-! ## The windows' blocks on the grid -/

/-- At point `t` the three row-blocked windows are all on block `(t, 0)`; the one-row outputs stay on block `(0, 0)`. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- The two inputs as the region finds them, and the matrix `s + agg`. -/
abbrev sArr8 (c : Dev nD) : S50000x128.Idx → EReal := V c main_v128_2
abbrev gArr8 (c : Dev nD) : S50000x128.Idx → EReal := V c main_v158
abbrev hnArr8 (c : Dev nD) : S50000x128.Idx → EReal := fun i => sArr8 V c i + gArr8 V c i

/-- The two input blocks at point `t`, as blocks of extended reals. -/
abbrev xs8 (c : Dev nD) (t : Fin cfg8.N) : Vec Ideal S2000x128 .f32 := iblk8 V c 0 t
abbrev xg8 (c : Dev nD) (t : Fin cfg8.N) : Vec Ideal S2000x128 .f32 := iblk8 V c 1 t

/-- Input block `t` is rows `2000 t … 2000 t + 1999` of its array. -/
theorem iblk8_0_apply (c : Dev nD) (t : Fin cfg8.N) (r : Fin 2000) (j : Fin 128) (hr : 2000 * t.val + r.val < 50000) :
    xs8 V c t (ix2 r j) = sArr8 V c (ix2 ⟨2000 * t.val + r.val, hr⟩ j) := by
  obtain ⟨e0, e1, -⟩ := idx_facts8 t
  unfold xs8 iblk8
  rw [View.read_apply]
  show V c main_v128_2 _ = V c main_v128_2 _
  congr 1
  funext a
  apply Fin.ext
  match a with
  | ⟨0, _⟩ => show win8_0.index t (0 : Fin 2) * 2000 + 1 * r.val = 2000 * t.val + r.val; rw [e0]; omega
  | ⟨1, _⟩ => show win8_0.index t (1 : Fin 2) * 128 + 1 * j.val = j.val; rw [e1]; omega
theorem iblk8_1_apply (c : Dev nD) (t : Fin cfg8.N) (r : Fin 2000) (j : Fin 128) (hr : 2000 * t.val + r.val < 50000) :
    xg8 V c t (ix2 r j) = gArr8 V c (ix2 ⟨2000 * t.val + r.val, hr⟩ j) := by
  obtain ⟨-, -, e0, e1, -⟩ := idx_facts8 t
  unfold xg8 iblk8
  rw [View.read_apply]
  show V c main_v158 _ = V c main_v158 _
  congr 1
  funext a
  apply Fin.ext
  match a with
  | ⟨0, _⟩ => show win8_1.index t (0 : Fin 2) * 2000 + 1 * r.val = 2000 * t.val + r.val; rw [e0]; omega
  | ⟨1, _⟩ => show win8_1.index t (1 : Fin 2) * 128 + 1 * j.val = j.val; rw [e1]; omega

/-! ## Output 2: the array `s + agg` -/

/-- What point `t` writes back is block `t` of `s + agg`. -/
theorem flushed8_2_eq (c : Dev nD) (t : Fin cfg8.N) :
    (dat8 V c).flushed 2 t = ((cfg8.win 2).blk t).view.read (Elt Ideal) (hnArr8 V c) := by
  show (cfg8.win 2).cut (grid8.coords t) ((dat8 V c).after 2 t) = _
  rw [after8_2, outsAt8_fst, pay3_eq8]
  obtain ⟨e0, e1, e2, e3, e4, e5, -⟩ := idx_facts8 t
  funext j
  show sArr8 V c (((cfg8.win 0).blk t).view.emb j) + gArr8 V c (((cfg8.win 1).blk t).view.emb j) = sArr8 V c (((cfg8.win 2).blk t).view.emb j) + gArr8 V c (((cfg8.win 2).blk t).view.emb j)
  have h0 : ((cfg8.win 0).blk t).view.emb j = ((cfg8.win 2).blk t).view.emb j := by
    funext a; apply Fin.ext
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 128 + 1 * (j 1).val = win8_2.index t (1 : Fin 2) * 128 + 1 * (j 1).val; omega
  have h1 : ((cfg8.win 1).blk t).view.emb j = ((cfg8.win 2).blk t).view.emb j := by
    funext a; apply Fin.ext
    match a with
    | ⟨0, _⟩ => show win8_1.index t (0 : Fin 2) * 2000 + 1 * (j 0).val = win8_2.index t (0 : Fin 2) * 2000 + 1 * (j 0).val; omega
    | ⟨1, _⟩ => show win8_1.index t (1 : Fin 2) * 128 + 1 * (j 1).val = win8_2.index t (1 : Fin 2) * 128 + 1 * (j 1).val; omega
  rw [h0, h1]

/-- An index of the array is in point `t`'s block iff each coordinate is in the block's range on its axis. -/
theorem mem_blk8_2 (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v159_0).slice (win8_2.rect t)).set ↔ _
  rw [View.set_slice_whole, Rect.mem_set_unit]
  exact Iff.rfl

/-- Row `r` is in the block of point `r / 2000`. -/
theorem cover8_2 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  have hlt : (i 0).val / 2000 < cfg8.N := by rw [show cfg8.N = 25 from N_8]; omega
  refine ⟨⟨(i 0).val / 2000, hlt⟩, flush8_2 _, ?_⟩
  rw [mem_blk8_2]
  obtain ⟨-, -, -, -, e4, e5, -⟩ := idx_facts8 ⟨(i 0).val / 2000, hlt⟩
  intro a
  match a with
  | ⟨0, _⟩ =>
    show win8_2.index ⟨(i 0).val / 2000, hlt⟩ (0 : Fin 2) * 2000 ≤ (i 0).val ∧ (i 0).val < win8_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win8_2.index ⟨(i 0).val / 2000, hlt⟩ (1 : Fin 2) * 128 ≤ (i 1).val ∧ (i 1).val < win8_2.index ⟨(i 0).val / 2000, hlt⟩ (1 : Fin 2) * 128 + 128
    rw [e5]; omega

/-- After the region, output 2's array is `s + agg`. -/
theorem final8_arr2 (c : Dev nD) : (dat8 V c).arrAt 2 cfg8.N = hnArr8 V c :=
  (dat8 V c).arrAt_eq_of_cover 2 (hnArr8 V c) (fun t _ => flushed8_2_eq V c t) cover8_2

theorem final8_h (c : Dev nD) :
    Cert.Spec.toMat ((dat8 V c).arrAt 2 cfg8.N) = fun i j => Cert.Spec.toMat (V c main_v128_2) i j + Cert.Spec.toMat (V c main_v158) i j := by
  funext i j
  exact congrFun (final8_arr2 V c) (ix2 i j)

/-! ## Outputs 3 and 4: the column sums -/

/-- The last point. -/
abbrev tLast8 : Fin cfg8.N := ⟨24, by rw [show cfg8.N = 25 from N_8]; decide⟩

/-- The one point that writes outputs 3 and 4 back, the last, writes the accumulators' final contents. -/
theorem flushed8_3_eq (c : Dev nD) (t : Fin cfg8.N) (hf : (cfg8.win 3).flush t = true) :
    (dat8 V c).flushed 3 t = ((cfg8.win 3).blk t).view.read (Elt Ideal) ((scratchAt8 V c tLast8.val tLast8.isLt).1) := by
  have hN : cfg8.N = 25 := N_8
  have h1 : t.val = 24 := by have := (flush8_3 t).mp hf; have := t.isLt; omega
  obtain rfl : t = tLast8 := Fin.ext h1
  show (cfg8.win 3).cut (grid8.coords tLast8) ((dat8 V c).after 3 tLast8) = _
  rw [after8_3, (outsAt8_last V c tLast8 rfl).1]
  have hz' : (fun a => win8_3.index tLast8 a * main_v159_1.ty.shape.size a) = fun _ => 0 := funext fun a => by fin_cases a <;> decide +kernel
  exact (Memref.read_access_unit_zero (Elt Ideal) main_v159_1 hz' (fun a => by rw [congrFun hz' a]; simp) _).symm
theorem flushed8_4_eq (c : Dev nD) (t : Fin cfg8.N) (hf : (cfg8.win 4).flush t = true) :
    (dat8 V c).flushed 4 t = ((cfg8.win 4).blk t).view.read (Elt Ideal) ((scratchAt8 V c tLast8.val tLast8.isLt).2) := by
  have hN : cfg8.N = 25 := N_8
  have h1 : t.val = 24 := by have := (flush8_4 t).mp hf; have := t.isLt; omega
  obtain rfl : t = tLast8 := Fin.ext h1
  show (cfg8.win 4).cut (grid8.coords tLast8) ((dat8 V c).after 4 tLast8) = _
  rw [after8_4, (outsAt8_last V c tLast8 rfl).2]
  have hz' : (fun a => win8_4.index tLast8 a * main_v159_2.ty.shape.size a) = fun _ => 0 := funext fun a => by fin_cases a <;> decide +kernel
  exact (Memref.read_access_unit_zero (Elt Ideal) main_v159_2 hz' (fun a => by rw [congrFun hz' a]; simp) _).symm

theorem mem_blk8_3 (t : Fin cfg8.N) (i : S1x128.Idx) :
    i ∈ ((cfg8.win 3).blk t).view.set ↔ ∀ a : Fin 2, win8_3.index t a * S1x128.size a ≤ (i a).val ∧ (i a).val < win8_3.index t a * S1x128.size a + S1x128.size a := by
  show i ∈ ((View.whole main_v159_1).slice (win8_3.rect t)).set ↔ _
  rw [View.set_slice_whole, Rect.mem_set_unit]
  exact Iff.rfl
theorem mem_blk8_4 (t : Fin cfg8.N) (i : S1x128.Idx) :
    i ∈ ((cfg8.win 4).blk t).view.set ↔ ∀ a : Fin 2, win8_4.index t a * S1x128.size a ≤ (i a).val ∧ (i a).val < win8_4.index t a * S1x128.size a + S1x128.size a := by
  show i ∈ ((View.whole main_v159_2).slice (win8_4.rect t)).set ↔ _
  rw [View.set_slice_whole, Rect.mem_set_unit]
  exact Iff.rfl

/-- The last point's block is the whole one-row array. -/
theorem cover8_3 (i : S1x128.Idx) : ∃ t : Fin cfg8.N, (cfg8.win 3).flush t = true ∧ i ∈ ((cfg8.win 3).blk t).view.set := by
  have hi0 : (i 0).val < 1 := (i 0).isLt
  have hi1 : (i 1).val < 128 := (i 1).isLt
  refine ⟨tLast8, (flush8_3 tLast8).mpr rfl, ?_⟩
  rw [mem_blk8_3]
  obtain ⟨-, -, -, -, -, -, e6, e7, -⟩ := idx_facts8 tLast8
  intro a
  match a with
  | ⟨0, _⟩ => show win8_3.index tLast8 (0 : Fin 2) * 1 ≤ (i 0).val ∧ (i 0).val < win8_3.index tLast8 (0 : Fin 2) * 1 + 1; rw [e6]; omega
  | ⟨1, _⟩ => show win8_3.index tLast8 (1 : Fin 2) * 128 ≤ (i 1).val ∧ (i 1).val < win8_3.index tLast8 (1 : Fin 2) * 128 + 128; rw [e7]; omega
theorem cover8_4 (i : S1x128.Idx) : ∃ t : Fin cfg8.N, (cfg8.win 4).flush t = true ∧ i ∈ ((cfg8.win 4).blk t).view.set := by
  have hi0 : (i 0).val < 1 := (i 0).isLt
  have hi1 : (i 1).val < 128 := (i 1).isLt
  refine ⟨tLast8, (flush8_4 tLast8).mpr rfl, ?_⟩
  rw [mem_blk8_4]
  obtain ⟨-, -, -, -, -, -, -, -, e8, e9⟩ := idx_facts8 tLast8
  intro a
  match a with
  | ⟨0, _⟩ => show win8_4.index tLast8 (0 : Fin 2) * 1 ≤ (i 0).val ∧ (i 0).val < win8_4.index tLast8 (0 : Fin 2) * 1 + 1; rw [e8]; omega
  | ⟨1, _⟩ => show win8_4.index tLast8 (1 : Fin 2) * 128 ≤ (i 1).val ∧ (i 1).val < win8_4.index tLast8 (1 : Fin 2) * 128 + 128; rw [e9]; omega

/-- After the region, outputs 3 and 4 hold the accumulators' contents after the last point. -/
theorem final8_arr3 (c : Dev nD) : (dat8 V c).arrAt 3 cfg8.N = (scratchAt8 V c tLast8.val tLast8.isLt).1 :=
  (dat8 V c).arrAt_eq_of_cover 3 _ (flushed8_3_eq V c) cover8_3
theorem final8_arr4 (c : Dev nD) : (dat8 V c).arrAt 4 cfg8.N = (scratchAt8 V c tLast8.val tLast8.isLt).2 :=
  (dat8 V c).arrAt_eq_of_cover 4 _ (flushed8_4_eq V c) cover8_4

/-! ## The accumulators as running totals -/

/-- Row `n` of `s + agg` at column `j` (zero past the last row), and its square. -/
def rowAt8 (c : Dev nD) (j : Fin 128) (n : ℕ) : EReal := if h : n < 50000 then hnArr8 V c (ix2 ⟨n, h⟩ j) else 0
def rowSqAt8 (c : Dev nD) (j : Fin 128) (n : ℕ) : EReal := if h : n < 50000 then hnArr8 V c (ix2 ⟨n, h⟩ j) * hnArr8 V c (ix2 ⟨n, h⟩ j) else 0

/-- The accumulators at column `j` before point `n`: zero before the first. -/
def accS8 (c : Dev nD) (j : Fin 128) : ℕ → EReal
  | 0 => 0
  | n + 1 => if h : n < cfg8.N then ((scratchAt8 V c n h).1 : Vec Ideal S1x128 .f32) (ix2 (0 : Fin 1) j) else 0
def accQ8 (c : Dev nD) (j : Fin 128) : ℕ → EReal
  | 0 => 0
  | n + 1 => if h : n < cfg8.N then ((scratchAt8 V c n h).2 : Vec Ideal S1x128 .f32) (ix2 (0 : Fin 1) j) else 0

/-- The block sums the body adds at point `t`, over the rows of the array. -/
theorem blockSum8 (c : Dev nD) (j : Fin 128) (t : Fin cfg8.N) :
    ∑ r : Fin 2000, (xs8 V c t (ix2 r j) + xg8 V c t (ix2 r j)) = ∑ r : Fin 2000, rowAt8 V c j (2000 * t.val + r.val) := by
  have hN : cfg8.N = 25 := N_8
  refine Finset.sum_congr rfl fun r _ => ?_
  have hr : 2000 * t.val + r.val < 50000 := by have := t.isLt; have := r.isLt; omega
  rw [iblk8_0_apply V c t r j hr, iblk8_1_apply V c t r j hr]
  unfold rowAt8; rw [dif_pos hr]
theorem blockSqSum8 (c : Dev nD) (j : Fin 128) (t : Fin cfg8.N) :
    ∑ r : Fin 2000, (xs8 V c t (ix2 r j) + xg8 V c t (ix2 r j)) * (xs8 V c t (ix2 r j) + xg8 V c t (ix2 r j)) = ∑ r : Fin 2000, rowSqAt8 V c j (2000 * t.val + r.val) := by
  have hN : cfg8.N = 25 := N_8
  refine Finset.sum_congr rfl fun r _ => ?_
  have hr : 2000 * t.val + r.val < 50000 := by have := t.isLt; have := r.isLt; omega
  rw [iblk8_0_apply V c t r j hr, iblk8_1_apply V c t r j hr]
  unfold rowSqAt8; rw [dif_pos hr]

/-- Each point adds its block's column sum onto the first accumulator. -/
theorem accS8_step (c : Dev nD) (j : Fin 128) (t : ℕ) (ht : t < 25) :
    accS8 V c j (t + 1) = accS8 V c j t + ∑ r : Fin 2000, rowAt8 V c j (2000 * t + r.val) := by
  have hlt : t < cfg8.N := by rw [show cfg8.N = 25 from N_8]; exact ht
  show (if h : t < cfg8.N then ((scratchAt8 V c t h).1 : Vec Ideal S1x128 .f32) (ix2 (0 : Fin 1) j) else 0) = _
  rw [dif_pos hlt]
  cases t with
  | zero =>
    rw [scratchAt8_zero V c hlt]
    refine (pay4_apply8 _ _ _ j).trans ?_
    rw [pay1_apply8 j]
    exact congrArg ((0 : EReal) + ·) (blockSum8 V c j ⟨0, hlt⟩)
  | succ n =>
    rw [scratchAt8_succ V c n hlt]
    refine (pay4_apply8 _ _ _ j).trans ?_
    have hn : n < cfg8.N := Nat.lt_of_succ_lt hlt
    have e : accS8 V c j (n + 1) = ((scratchAt8 V c n hn).1 : Vec Ideal S1x128 .f32) (ix2 (0 : Fin 1) j) := dif_pos hn
    rw [e]
    exact congrArg (((scratchAt8 V c n hn).1 : Vec Ideal S1x128 .f32) (ix2 (0 : Fin 1) j) + ·) (blockSum8 V c j ⟨n + 1, hlt⟩)
theorem accQ8_step (c : Dev nD) (j : Fin 128) (t : ℕ) (ht : t < 25) :
    accQ8 V c j (t + 1) = accQ8 V c j t + ∑ r : Fin 2000, rowSqAt8 V c j (2000 * t + r.val) := by
  have hlt : t < cfg8.N := by rw [show cfg8.N = 25 from N_8]; exact ht
  show (if h : t < cfg8.N then ((scratchAt8 V c t h).2 : Vec Ideal S1x128 .f32) (ix2 (0 : Fin 1) j) else 0) = _
  rw [dif_pos hlt]
  cases t with
  | zero =>
    rw [scratchAt8_zero V c hlt]
    refine (pay5_apply8 _ _ _ j).trans ?_
    rw [pay2_apply8 j]
    exact congrArg ((0 : EReal) + ·) (blockSqSum8 V c j ⟨0, hlt⟩)
  | succ n =>
    rw [scratchAt8_succ V c n hlt]
    refine (pay5_apply8 _ _ _ j).trans ?_
    have hn : n < cfg8.N := Nat.lt_of_succ_lt hlt
    have e : accQ8 V c j (n + 1) = ((scratchAt8 V c n hn).2 : Vec Ideal S1x128 .f32) (ix2 (0 : Fin 1) j) := dif_pos hn
    rw [e]
    exact congrArg (((scratchAt8 V c n hn).2 : Vec Ideal S1x128 .f32) (ix2 (0 : Fin 1) j) + ·) (blockSqSum8 V c j ⟨n + 1, hlt⟩)

/-- After the region, output 3 at column `j` is the column's sum of `s + agg` over all 50000 rows, -/
theorem final8_sum (c : Dev nD) (j : Fin 128) :
    ((dat8 V c).arrAt 3 cfg8.N) (ix2 (0 : Fin 1) j) = Cert.Spec.colSum (fun i j => Cert.Spec.toMat (V c main_v128_2) i j + Cert.Spec.toMat (V c main_v158) i j) j := by
  rw [final8_arr3 V c]
  have h25 : accS8 V c j (24 + 1) = ((scratchAt8 V c tLast8.val tLast8.isLt).1 : Vec Ideal S1x128 .f32) (ix2 (0 : Fin 1) j) := by
    show (if h : 24 < cfg8.N then ((scratchAt8 V c 24 h).1 : Vec Ideal S1x128 .f32) (ix2 (0 : Fin 1) j) else 0) = _
    exact dif_pos tLast8.isLt
  refine (h25.symm.trans (Cert.Math.block_running_total (rowAt8 V c j) (accS8 V c j) rfl (accS8_step V c j))).trans ?_
  unfold Cert.Spec.colSum
  refine Finset.sum_congr rfl fun i _ => ?_
  unfold rowAt8; rw [dif_pos i.isLt]

/-- and output 4 the column's sum of squares. -/
theorem final8_sq (c : Dev nD) (j : Fin 128) :
    ((dat8 V c).arrAt 4 cfg8.N) (ix2 (0 : Fin 1) j) = Cert.Spec.colSum (fun i j => (Cert.Spec.toMat (V c main_v128_2) i j + Cert.Spec.toMat (V c main_v158) i j) * (Cert.Spec.toMat (V c main_v128_2) i j + Cert.Spec.toMat (V c main_v158) i j)) j := by
  rw [final8_arr4 V c]
  have h25 : accQ8 V c j (24 + 1) = ((scratchAt8 V c tLast8.val tLast8.isLt).2 : Vec Ideal S1x128 .f32) (ix2 (0 : Fin 1) j) := by
    show (if h : 24 < cfg8.N then ((scratchAt8 V c 24 h).2 : Vec Ideal S1x128 .f32) (ix2 (0 : Fin 1) j) else 0) = _
    exact dif_pos tLast8.isLt
  refine (h25.symm.trans (Cert.Math.block_running_total (rowSqAt8 V c j) (accQ8 V c j) rfl (accQ8_step V c j))).trans ?_
  unfold Cert.Spec.colSum
  refine Finset.sum_congr rfl fun i _ => ?_
  unfold rowSqAt8; rw [dif_pos i.isLt]

end Cert.KernelIdeal.Hand

end
-- ==== Proof.KI.ChainMid.lean ====
import proofs.«180311_j29308856828500_2_alg».proof.Proof.KI.ChainLin
import proofs.«180311_j29308856828500_2_alg».proof.Proof.KI.Val2
import proofs.«180311_j29308856828500_2_alg».proof.Proof.KI.Val5
import proofs.«180311_j29308856828500_2_alg».proof.Proof.KI.Val8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

namespace Chain

/-- Layer 0: the skip term plus the aggregate, as the accumulating region finds them, is the layer before
    normalisation. -/
theorem sg0 (H : Cert.Spec.Mat 50000 128) (hH : Cert.Spec.toMat (W2 m c main_v6 : S50000x128.Idx → EReal) = H) :
    (fun i j => Cert.Spec.toMat (W5 m c main_v16_2 : S50000x128.Idx → EReal) i j + Cert.Spec.toMat (W5 m c main_v46 : S50000x128.Idx → EReal) i j) = Cert.Spec.conv (netA m c) H (netW m c 0) (netB m c 0) := by
  funext i j
  have es : Cert.Spec.toMat (W5 m c main_v16_2 : S50000x128.Idx → EReal) i j = Cert.Spec.lin H (netW m c 0 3) (netB m c 0 3) i j := by
    show (W5 m c main_v16_2 : S50000x128.Idx → EReal) (ix2 i j) = _
    rw [W5_of m c main_v16_2 (by decide)]
    exact s0 m c H hH i j
  rw [es, agg0 m c H hH]
  rfl

/-- Layer 0: what the accumulating region leaves — the layer before normalisation, its column sums, and its column
    sums of squares. -/
theorem mid0_h (H : Cert.Spec.Mat 50000 128) (hH : Cert.Spec.toMat (W2 m c main_v6 : S50000x128.Idx → EReal) = H) :
    Cert.Spec.toMat (W6 m c main_v47_0 : S50000x128.Idx → EReal) = Cert.Spec.conv (netA m c) H (netW m c 0) (netB m c 0) := by
  rw [W6_at0]
  unfold O6_0
  exact (final2_h (fun c b => W5 m c b) c).trans (sg0 m c H hH)

theorem mid0_sum (H : Cert.Spec.Mat 50000 128) (hH : Cert.Spec.toMat (W2 m c main_v6 : S50000x128.Idx → EReal) = H) (j : Fin 128) :
    (W6 m c main_v47_1 : S1x128.Idx → EReal) (ix2 0 j) = Cert.Spec.colSum (Cert.Spec.conv (netA m c) H (netW m c 0) (netB m c 0)) j := by
  rw [W6_at1]
  unfold O6_1
  refine (final2_sum (fun c b => W5 m c b) c j).trans ?_
  exact congrArg (fun y : Cert.Spec.Mat 50000 128 => Cert.Spec.colSum y j) (sg0 m c H hH)

theorem mid0_sq (H : Cert.Spec.Mat 50000 128) (hH : Cert.Spec.toMat (W2 m c main_v6 : S50000x128.Idx → EReal) = H) (j : Fin 128) :
    (W6 m c main_v47_2 : S1x128.Idx → EReal) (ix2 0 j) = Cert.Spec.colSum (fun i j => (Cert.Spec.conv (netA m c) H (netW m c 0) (netB m c 0)) i j * (Cert.Spec.conv (netA m c) H (netW m c 0) (netB m c 0)) i j) j := by
  rw [W6_at2]
  unfold O6_2
  refine (final2_sq (fun c b => W5 m c b) c j).trans ?_
  exact congrArg (fun y : Cert.Spec.Mat 50000 128 => Cert.Spec.colSum (fun i j => y i j * y i j) j) (sg0 m c H hH)

/-- Layer 1: the skip term plus the aggregate, as the accumulating region finds them, is the layer before
    normalisation. -/
theorem sg1 (H : Cert.Spec.Mat 50000 128) (hH : Cert.Spec.toMat (W8 m c main_v62 : S50000x128.Idx → EReal) = H) :
    (fun i j => Cert.Spec.toMat (W11 m c main_v72_2 : S50000x128.Idx → EReal) i j + Cert.Spec.toMat (W11 m c main_v102 : S50000x128.Idx → EReal) i j) = Cert.Spec.conv (netA m c) H (netW m c 1) (netB m c 1) := by
  funext i j
  have es : Cert.Spec.toMat (W11 m c main_v72_2 : S50000x128.Idx → EReal) i j = Cert.Spec.lin H (netW m c 1 3) (netB m c 1 3) i j := by
    show (W11 m c main_v72_2 : S50000x128.Idx → EReal) (ix2 i j) = _
    rw [W11_of m c main_v72_2 (by decide)]
    exact s1 m c H hH i j
  rw [es, agg1 m c H hH]
  rfl

/-- Layer 1: what the accumulating region leaves — the layer before normalisation, its column sums, and its column
    sums of squares. -/
theorem mid1_h (H : Cert.Spec.Mat 50000 128) (hH : Cert.Spec.toMat (W8 m c main_v62 : S50000x128.Idx → EReal) = H) :
    Cert.Spec.toMat (W12 m c main_v103_0 : S50000x128.Idx → EReal) = Cert.Spec.conv (netA m c) H (netW m c 1) (netB m c 1) := by
  rw [W12_at0]
  unfold O12_0
  exact (final5_h (fun c b => W11 m c b) c).trans (sg1 m c H hH)

theorem mid1_sum (H : Cert.Spec.Mat 50000 128) (hH : Cert.Spec.toMat (W8 m c main_v62 : S50000x128.Idx → EReal) = H) (j : Fin 128) :
    (W12 m c main_v103_1 : S1x128.Idx → EReal) (ix2 0 j) = Cert.Spec.colSum (Cert.Spec.conv (netA m c) H (netW m c 1) (netB m c 1)) j := by
  rw [W12_at1]
  unfold O12_1
  refine (final5_sum (fun c b => W11 m c b) c j).trans ?_
  exact congrArg (fun y : Cert.Spec.Mat 50000 128 => Cert.Spec.colSum y j) (sg1 m c H hH)

theorem mid1_sq (H : Cert.Spec.Mat 50000 128) (hH : Cert.Spec.toMat (W8 m c main_v62 : S50000x128.Idx → EReal) = H) (j : Fin 128) :
    (W12 m c main_v103_2 : S1x128.Idx → EReal) (ix2 0 j) = Cert.Spec.colSum (fun i j => (Cert.Spec.conv (netA m c) H (netW m c 1) (netB m c 1)) i j * (Cert.Spec.conv (netA m c) H (netW m c 1) (netB m c 1)) i j) j := by
  rw [W12_at2]
  unfold O12_2
  refine (final5_sq (fun c b => W11 m c b) c j).trans ?_
  exact congrArg (fun y : Cert.Spec.Mat 50000 128 => Cert.Spec.colSum (fun i j => y i j * y i j) j) (sg1 m c H hH)

/-- Layer 2: the skip term plus the aggregate, as the accumulating region finds them, is the layer before
    normalisation. -/
theorem sg2 (H : Cert.Spec.Mat 50000 128) (hH : Cert.Spec.toMat (W14 m c main_v118 : S50000x128.Idx → EReal) = H) :
    (fun i j => Cert.Spec.toMat (W17 m c main_v128_2 : S50000x128.Idx → EReal) i j + Cert.Spec.toMat (W17 m c main_v158 : S50000x128.Idx → EReal) i j) = Cert.Spec.conv (netA m c) H (netW m c 2) (netB m c 2) := by
  funext i j
  have es : Cert.Spec.toMat (W17 m c main_v128_2 : S50000x128.Idx → EReal) i j = Cert.Spec.lin H (netW m c 2 3) (netB m c 2 3) i j := by
    show (W17 m c main_v128_2 : S50000x128.Idx → EReal) (ix2 i j) = _
    rw [W17_of m c main_v128_2 (by decide)]
    exact s2 m c H hH i j
  rw [es, agg2 m c H hH]
  rfl

/-- Layer 2: what the accumulating region leaves — the layer before normalisation, its column sums, and its column
    sums of squares. -/
theorem mid2_h (H : Cert.Spec.Mat 50000 128) (hH : Cert.Spec.toMat (W14 m c main_v118 : S50000x128.Idx → EReal) = H) :
    Cert.Spec.toMat (W18 m c main_v159_0 : S50000x128.Idx → EReal) = Cert.Spec.conv (netA m c) H (netW m c 2) (netB m c 2) := by
  rw [W18_at0]
  unfold O18_0
  exact (final8_h (fun c b => W17 m c b) c).trans (sg2 m c H hH)

theorem mid2_sum (H : Cert.Spec.Mat 50000 128) (hH : Cert.Spec.toMat (W14 m c main_v118 : S50000x128.Idx → EReal) = H) (j : Fin 128) :
    (W18 m c main_v159_1 : S1x128.Idx → EReal) (ix2 0 j) = Cert.Spec.colSum (Cert.Spec.conv (netA m c) H (netW m c 2) (netB m c 2)) j := by
  rw [W18_at1]
  unfold O18_1
  refine (final8_sum (fun c b => W17 m c b) c j).trans ?_
  exact congrArg (fun y : Cert.Spec.Mat 50000 128 => Cert.Spec.colSum y j) (sg2 m c H hH)

theorem mid2_sq (H : Cert.Spec.Mat 50000 128) (hH : Cert.Spec.toMat (W14 m c main_v118 : S50000x128.Idx → EReal) = H) (j : Fin 128) :
    (W18 m c main_v159_2 : S1x128.Idx → EReal) (ix2 0 j) = Cert.Spec.colSum (fun i j => (Cert.Spec.conv (netA m c) H (netW m c 2) (netB m c 2)) i j * (Cert.Spec.conv (netA m c) H (netW m c 2) (netB m c 2)) i j) j := by
  rw [W18_at2]
  unfold O18_2
  refine (final8_sq (fun c b => W17 m c b) c j).trans ?_
  exact congrArg (fun y : Cert.Spec.Mat 50000 128 => Cert.Spec.colSum (fun i j => y i j * y i j) j) (sg2 m c H hH)

end Chain

end Cert.KernelIdeal.Hand
-- ==== Proof.KI.Val3.lean ====
import proofs.«180311_j29308856828500_2_alg».proof.Proof.KI.Reg3Dat
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The contents of the core's buffers when the region is entered, at the extended reals. -/
variable (V : (c : Dev nD) → (b : Ref sig .tc) → Buf (Elt Ideal) ((c : Thread nD τ).loc b))

/-- The small constant the body adds to the variance before the inverse square root, kept as the float word it prints. -/
def epsK : EReal := Ideal.ofBits .f32 0x3727C5AC#32

/-! ## The body's arithmetic at an index -/

/-- A row vector spread over the rows of the block, read at row `p`, column `q`, is the vector at column `q`. -/
theorem bcast_row3 {α : Type} (x : S1x128.Idx → α) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => by match a with | ⟨0, _⟩ => rfl | ⟨1, _⟩ => rfl)

/-- The body's result at row `p`, column `q`: the entry minus the column's mean, times the column's scale and the
    inverse square root of the column's variance plus the small constant, plus the column's shift, cut off below at zero. -/
theorem pay3_apply (x0 : Vec Ideal S2000x128 .f32) (x1 x2 x3 x4 : Vec Ideal S1x128 .f32) (p : Fin 2000) (q : Fin 128) :
    k3_pay1 (F := Ideal) x0 x1 x2 x3 x4 (ix2 p q)
      = max (x3 (ix2 0 q) * (x0 (ix2 p q) - x1 (ix2 0 q)) * Ideal.rsqrt (x2 (ix2 0 q) + epsK) + x4 (ix2 0 q)) 0 := by
  unfold k3_pay1
  simp only [shapeCast_self]
  rw [maximumf_apply, addf_apply, mulf_apply, mulf_apply, subf_apply, broadcast_apply,
    bcast_row3, bcast_row3, bcast_row3, bcast_row3]
  show max _ (Ideal.ofBits .f32 0x00000000#32) = _
  rw [Ideal.ofBits_zero_f32]
  rfl

/-- The body's result at any index of the block. -/
theorem pay3_at (x0 : Vec Ideal S2000x128 .f32) (x1 x2 x3 x4 : Vec Ideal S1x128 .f32) (j : S2000x128.Idx) :
    k3_pay1 (F := Ideal) x0 x1 x2 x3 x4 j
      = max (x3 (ix2 0 (j 1)) * (x0 (ix2 (j 0) (j 1)) - x1 (ix2 0 (j 1))) * Ideal.rsqrt (x2 (ix2 0 (j 1)) + epsK) + x4 (ix2 0 (j 1))) 0 := by
  obtain ⟨p, q, rfl⟩ : ∃ (p : Fin 2000) (q : Fin 128), j = ix2 p q := ⟨j 0, j 1, eq_ix2 j⟩
  exact pay3_apply x0 x1 x2 x3 x4 p q

/-! ## From blocks to the array -/

theorem hz3 : (![0, 0] : Fin 2 → Nat) = fun _ => 0 := funext fun a => by fin_cases a <;> rfl

/-- The array the region leaves, as one function of the arrays it reads: every entry normalised by its column's mean
    and variance, scaled and shifted by its column's parameters, cut off below at zero. -/
def G3 (a0 : S50000x128.Idx → EReal) (a1 a2 a3 a4 : S1x128.Idx → EReal) : S50000x128.Idx → EReal :=
  fun i => max (a3 (ix2 0 (i 1)) * (a0 (ix2 (i 0) (i 1)) - a1 (ix2 0 (i 1))) * Ideal.rsqrt (a2 (ix2 0 (i 1)) + epsK) + a4 (ix2 0 (i 1))) 0

/-- The index maps over the grid: the input's and the output's row block is the point's number, every other block
    index is zero. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The input's block at point `t` is rows `2000 t … 2000 t + 1999` of its array. -/
theorem iblk3_0_apply (c : Dev nD) (t : Fin cfg3.N) (x : S2000x128.Idx) (k : S50000x128.Idx)
    (hk0 : (k 0).val = 2000 * t.val + (x 0).val) (hk1 : (k 1).val = (x 1).val) :
    (iblk3 V c 0 t : Vec Ideal S2000x128 .f32) x = (V c main_v47_0 : S50000x128.Idx → EReal) k := by
  obtain ⟨e00, e01, -, -, -, -, -, -, -, -, -, -⟩ := idx_facts3 t
  unfold iblk3
  rw [View.read_apply]
  show V c main_v47_0 _ = V c main_v47_0 _
  congr 1
  funext a
  apply Fin.ext
  match a with
  | ⟨0, _⟩ => show win3_0.index t (0 : Fin 2) * 2000 + 1 * (x 0).val = (k 0).val; rw [e00, hk0]; omega
  | ⟨1, _⟩ => show win3_0.index t (1 : Fin 2) * 128 + 1 * (x 1).val = (k 1).val; rw [e01, hk1]; omega

/-- The means' block at every point is the whole array. -/
theorem iblk3_1_apply (c : Dev nD) (t : Fin cfg3.N) (x : S1x128.Idx) (k : S1x128.Idx)
    (hk0 : (k 0).val = (x 0).val) (hk1 : (k 1).val = (x 1).val) :
    (iblk3 V c 1 t : Vec Ideal S1x128 .f32) x = (V c main_v49 : S1x128.Idx → EReal) k := by
  obtain ⟨-, -, e10, e11, -, -, -, -, -, -, -, -⟩ := idx_facts3 t
  unfold iblk3
  rw [View.read_apply]
  show V c main_v49 _ = V c main_v49 _
  congr 1
  funext a
  apply Fin.ext
  match a with
  | ⟨0, _⟩ => show win3_1.index t (0 : Fin 2) * 1 + 1 * (x 0).val = (k 0).val; rw [e10, hk0]; omega
  | ⟨1, _⟩ => show win3_1.index t (1 : Fin 2) * 128 + 1 * (x 1).val = (k 1).val; rw [e11, hk1]; omega

/-- The variances' block at every point is the whole array. -/
theorem iblk3_2_apply (c : Dev nD) (t : Fin cfg3.N) (x : S1x128.Idx) (k : S1x128.Idx)
    (hk0 : (k 0).val = (x 0).val) (hk1 : (k 1).val = (x 1).val) :
    (iblk3 V c 2 t : Vec Ideal S1x128 .f32) x = (V c main_v55 : S1x128.Idx → EReal) k := by
  obtain ⟨-, -, -, -, e20, e21, -, -, -, -, -, -⟩ := idx_facts3 t
  unfold iblk3
  rw [View.read_apply]
  show V c main_v55 _ = V c main_v55 _
  congr 1
  funext a
  apply Fin.ext
  match a with
  | ⟨0, _⟩ => show win3_2.index t (0 : Fin 2) * 1 + 1 * (x 0).val = (k 0).val; rw [e20, hk0]; omega
  | ⟨1, _⟩ => show win3_2.index t (1 : Fin 2) * 128 + 1 * (x 1).val = (k 1).val; rw [e21, hk1]; omega

/-- The scales' block at every point is the whole array. -/
theorem iblk3_3_apply (c : Dev nD) (t : Fin cfg3.N) (x : S1x128.Idx) (k : S1x128.Idx)
    (hk0 : (k 0).val = (x 0).val) (hk1 : (k 1).val = (x 1).val) :
    (iblk3 V c 3 t : Vec Ideal S1x128 .f32) x = (V c main_v60 : S1x128.Idx → EReal) k := by
  obtain ⟨-, -, -, -, -, -, e30, e31, -, -, -, -⟩ := idx_facts3 t
  unfold iblk3
  rw [View.read_apply]
  show V c main_v60 _ = V c main_v60 _
  congr 1
  funext a
  apply Fin.ext
  match a with
  | ⟨0, _⟩ => show win3_3.index t (0 : Fin 2) * 1 + 1 * (x 0).val = (k 0).val; rw [e30, hk0]; omega
  | ⟨1, _⟩ => show win3_3.index t (1 : Fin 2) * 128 + 1 * (x 1).val = (k 1).val; rw [e31, hk1]; omega

/-- The shifts' block at every point is the whole array. -/
theorem iblk3_4_apply (c : Dev nD) (t : Fin cfg3.N) (x : S1x128.Idx) (k : S1x128.Idx)
    (hk0 : (k 0).val = (x 0).val) (hk1 : (k 1).val = (x 1).val) :
    (iblk3 V c 4 t : Vec Ideal S1x128 .f32) x = (V c main_v61 : S1x128.Idx → EReal) k := by
  obtain ⟨-, -, -, -, -, -, -, -, e40, e41, -, -⟩ := idx_facts3 t
  unfold iblk3
  rw [View.read_apply]
  show V c main_v61 _ = V c main_v61 _
  congr 1
  funext a
  apply Fin.ext
  match a with
  | ⟨0, _⟩ => show win3_4.index t (0 : Fin 2) * 1 + 1 * (x 0).val = (k 0).val; rw [e40, hk0]; omega
  | ⟨1, _⟩ => show win3_4.index t (1 : Fin 2) * 128 + 1 * (x 1).val = (k 1).val; rw [e41, hk1]; omega

/-- What point `t` writes back is block `t` of `G3` of the arrays as the region finds them. -/
theorem flushed3_eq (c : Dev nD) (t : Fin cfg3.N) :
    (dat3 V c).flushed 5 t = ((cfg3.win 5).blk t).view.read (Elt Ideal) (G3 (V c main_v47_0) (V c main_v49) (V c main_v55) (V c main_v60) (V c main_v61)) := by
  show (cfg3.win 5).cut (grid3.coords t) ((dat3 V c).after 5 t) = _
  rw [after3_5]
  unfold out3_5
  rw [View.canon_unit_zero hz3]
  simp only [View.ld_unit_zero (S := S2000x128) hz3, View.ld_unit_zero (S := S1x128) hz3]
  obtain ⟨-, -, -, -, -, -, -, -, -, -, e50, e51⟩ := idx_facts3 t
  funext j
  show k3_pay1 (F := Ideal) (iblk3 V c 0 t) (iblk3 V c 1 t) (iblk3 V c 2 t) (iblk3 V c 3 t) (iblk3 V c 4 t) j
    = G3 (V c main_v47_0) (V c main_v49) (V c main_v55) (V c main_v60) (V c main_v61) (((cfg3.win 5).blk t).view.emb j)
  refine (pay3_at (iblk3 V c 0 t) (iblk3 V c 1 t) (iblk3 V c 2 t) (iblk3 V c 3 t) (iblk3 V c 4 t) j).trans ?_
  have h0 : ((((cfg3.win 5).blk t).view.emb j) 0).val = 2000 * t.val + (j 0).val := by
    show win3_5.index t (0 : Fin 2) * 2000 + 1 * (j 0).val = _
    omega
  have h1 : ((((cfg3.win 5).blk t).view.emb j) 1).val = (j 1).val := by
    show win3_5.index t (1 : Fin 2) * 128 + 1 * (j 1).val = _
    omega
  unfold G3
  refine congrArg₂ max (congrArg₂ (· + ·) (congrArg₂ (· * ·) (congrArg₂ (· * ·) ?_ (congrArg₂ (· - ·) ?_ ?_)) (congrArg Ideal.rsqrt (congrArg (· + epsK) ?_))) ?_) rfl
  · exact iblk3_3_apply V c t (ix2 0 (j 1)) (ix2 0 ((((cfg3.win 5).blk t).view.emb j) 1)) rfl h1
  · exact iblk3_0_apply V c t (ix2 (j 0) (j 1)) (ix2 ((((cfg3.win 5).blk t).view.emb j) 0) ((((cfg3.win 5).blk t).view.emb j) 1)) h0 h1
  · exact iblk3_1_apply V c t (ix2 0 (j 1)) (ix2 0 ((((cfg3.win 5).blk t).view.emb j) 1)) rfl h1
  · exact iblk3_2_apply V c t (ix2 0 (j 1)) (ix2 0 ((((cfg3.win 5).blk t).view.emb j) 1)) rfl h1
  · exact iblk3_4_apply V c t (ix2 0 (j 1)) (ix2 0 ((((cfg3.win 5).blk t).view.emb j) 1)) rfl h1

/-- An index of the array is in point `t`'s block iff each coordinate is in the block's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v62).slice (win3_5.rect t)).set ↔ _
  rw [View.set_slice_whole, Rect.mem_set_unit]
  exact Iff.rfl

/-- Every index of the array is in the block of the point its row falls in: row `r` is in block `r / 2000`. -/
theorem cover3 (i : S50000x128.Idx) : ∃ t : Fin cfg3.N, (cfg3.win 5).flush t = true ∧ i ∈ ((cfg3.win 5).blk t).view.set := by
  have hi0 : (i 0).val < 50000 := idx2_lt0 i
  have hi1 : (i 1).val < 128 := idx2_lt1 i
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, e50, e51⟩ := idx_facts3 t
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The array after the region is `G3` of the arrays it read. -/
theorem arr3 (c : Dev nD) : (dat3 V c).arrAt 5 cfg3.N = G3 (V c main_v47_0) (V c main_v49) (V c main_v55) (V c main_v60) (V c main_v61) :=
  (dat3 V c).arrAt_eq_of_cover 5 (G3 (V c main_v47_0) (V c main_v49) (V c main_v55) (V c main_v60) (V c main_v61)) (fun t _ => flushed3_eq V c t) cover3

/-- The region's result, by row and column: the input normalised by the given column statistics, positive part. -/
theorem final3 (c : Dev nD) : Cert.Spec.toMat ((dat3 V c).arrAt 5 cfg3.N : S50000x128.Idx → EReal)
    = Cert.Spec.bnRelu (Cert.Spec.toMat (V c main_v47_0 : S50000x128.Idx → EReal))
        (fun j => (V c main_v49 : S1x128.Idx → EReal) (ix2 0 j)) (fun j => (V c main_v55 : S1x128.Idx → EReal) (ix2 0 j))
        (fun j => (V c main_v60 : S1x128.Idx → EReal) (ix2 0 j)) (fun j => (V c main_v61 : S1x128.Idx → EReal) (ix2 0 j)) epsK := by
  rw [arr3]
  rfl

end Cert.KernelIdeal.Hand
-- ==== Proof.KI.Val6.lean ====
import proofs.«180311_j29308856828500_2_alg».proof.Proof.KI.Reg6Dat
import proofs.«180311_j29308856828500_2_alg».proof.Proof.KI.Val3
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The contents of the core's buffers when the region is entered, at the extended reals. -/
variable (V : (c : Dev nD) → (b : Ref sig .tc) → Buf (Elt Ideal) ((c : Thread nD τ).loc b))

/-! ## The body's arithmetic at an index -/

/-- A row vector spread over the rows of the block, read at row `p`, column `q`, is the vector at column `q`. -/
theorem bcast_row6 {α : Type} (x : S1x128.Idx → α) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => by match a with | ⟨0, _⟩ => rfl | ⟨1, _⟩ => rfl)

/-- The body's result at row `p`, column `q`: the entry minus the column's mean, times the column's scale and the
    inverse square root of the column's variance plus the small constant, plus the column's shift, cut off below at zero. -/
theorem pay6_apply (x0 : Vec Ideal S2000x128 .f32) (x1 x2 x3 x4 : Vec Ideal S1x128 .f32) (p : Fin 2000) (q : Fin 128) :
    k6_pay1 (F := Ideal) x0 x1 x2 x3 x4 (ix2 p q)
      = max (x3 (ix2 0 q) * (x0 (ix2 p q) - x1 (ix2 0 q)) * Ideal.rsqrt (x2 (ix2 0 q) + epsK) + x4 (ix2 0 q)) 0 := by
  unfold k6_pay1
  simp only [shapeCast_self]
  rw [maximumf_apply, addf_apply, mulf_apply, mulf_apply, subf_apply, broadcast_apply,
    bcast_row6, bcast_row6, bcast_row6, bcast_row6]
  show max _ (Ideal.ofBits .f32 0x00000000#32) = _
  rw [Ideal.ofBits_zero_f32]
  rfl

/-- The body's result at any index of the block. -/
theorem pay6_at (x0 : Vec Ideal S2000x128 .f32) (x1 x2 x3 x4 : Vec Ideal S1x128 .f32) (j : S2000x128.Idx) :
    k6_pay1 (F := Ideal) x0 x1 x2 x3 x4 j
      = max (x3 (ix2 0 (j 1)) * (x0 (ix2 (j 0) (j 1)) - x1 (ix2 0 (j 1))) * Ideal.rsqrt (x2 (ix2 0 (j 1)) + epsK) + x4 (ix2 0 (j 1))) 0 := by
  obtain ⟨p, q, rfl⟩ : ∃ (p : Fin 2000) (q : Fin 128), j = ix2 p q := ⟨j 0, j 1, eq_ix2 j⟩
  exact pay6_apply x0 x1 x2 x3 x4 p q

/-! ## From blocks to the array -/

theorem hz6 : (![0, 0] : Fin 2 → Nat) = fun _ => 0 := funext fun a => by fin_cases a <;> rfl

/-- The array the region leaves, as one function of the arrays it reads: every entry normalised by its column's mean
    and variance, scaled and shifted by its column's parameters, cut off below at zero. -/
def G6 (a0 : S50000x128.Idx → EReal) (a1 a2 a3 a4 : S1x128.Idx → EReal) : S50000x128.Idx → EReal :=
  fun i => max (a3 (ix2 0 (i 1)) * (a0 (ix2 (i 0) (i 1)) - a1 (ix2 0 (i 1))) * Ideal.rsqrt (a2 (ix2 0 (i 1)) + epsK) + a4 (ix2 0 (i 1))) 0

/-- The index maps over the grid: the input's and the output's row block is the point's number, every other block
    index is zero. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The input's block at point `t` is rows `2000 t … 2000 t + 1999` of its array. -/
theorem iblk6_0_apply (c : Dev nD) (t : Fin cfg6.N) (x : S2000x128.Idx) (k : S50000x128.Idx)
    (hk0 : (k 0).val = 2000 * t.val + (x 0).val) (hk1 : (k 1).val = (x 1).val) :
    (iblk6 V c 0 t : Vec Ideal S2000x128 .f32) x = (V c main_v103_0 : S50000x128.Idx → EReal) k := by
  obtain ⟨e00, e01, -, -, -, -, -, -, -, -, -, -⟩ := idx_facts6 t
  unfold iblk6
  rw [View.read_apply]
  show V c main_v103_0 _ = V c main_v103_0 _
  congr 1
  funext a
  apply Fin.ext
  match a with
  | ⟨0, _⟩ => show win6_0.index t (0 : Fin 2) * 2000 + 1 * (x 0).val = (k 0).val; rw [e00, hk0]; omega
  | ⟨1, _⟩ => show win6_0.index t (1 : Fin 2) * 128 + 1 * (x 1).val = (k 1).val; rw [e01, hk1]; omega

/-- The means' block at every point is the whole array. -/
theorem iblk6_1_apply (c : Dev nD) (t : Fin cfg6.N) (x : S1x128.Idx) (k : S1x128.Idx)
    (hk0 : (k 0).val = (x 0).val) (hk1 : (k 1).val = (x 1).val) :
    (iblk6 V c 1 t : Vec Ideal S1x128 .f32) x = (V c main_v105 : S1x128.Idx → EReal) k := by
  obtain ⟨-, -, e10, e11, -, -, -, -, -, -, -, -⟩ := idx_facts6 t
  unfold iblk6
  rw [View.read_apply]
  show V c main_v105 _ = V c main_v105 _
  congr 1
  funext a
  apply Fin.ext
  match a with
  | ⟨0, _⟩ => show win6_1.index t (0 : Fin 2) * 1 + 1 * (x 0).val = (k 0).val; rw [e10, hk0]; omega
  | ⟨1, _⟩ => show win6_1.index t (1 : Fin 2) * 128 + 1 * (x 1).val = (k 1).val; rw [e11, hk1]; omega

/-- The variances' block at every point is the whole array. -/
theorem iblk6_2_apply (c : Dev nD) (t : Fin cfg6.N) (x : S1x128.Idx) (k : S1x128.Idx)
    (hk0 : (k 0).val = (x 0).val) (hk1 : (k 1).val = (x 1).val) :
    (iblk6 V c 2 t : Vec Ideal S1x128 .f32) x = (V c main_v111 : S1x128.Idx → EReal) k := by
  obtain ⟨-, -, -, -, e20, e21, -, -, -, -, -, -⟩ := idx_facts6 t
  unfold iblk6
  rw [View.read_apply]
  show V c main_v111 _ = V c main_v111 _
  congr 1
  funext a
  apply Fin.ext
  match a with
  | ⟨0, _⟩ => show win6_2.index t (0 : Fin 2) * 1 + 1 * (x 0).val = (k 0).val; rw [e20, hk0]; omega
  | ⟨1, _⟩ => show win6_2.index t (1 : Fin 2) * 128 + 1 * (x 1).val = (k 1).val; rw [e21, hk1]; omega

/-- The scales' block at every point is the whole array. -/
theorem iblk6_3_apply (c : Dev nD) (t : Fin cfg6.N) (x : S1x128.Idx) (k : S1x128.Idx)
    (hk0 : (k 0).val = (x 0).val) (hk1 : (k 1).val = (x 1).val) :
    (iblk6 V c 3 t : Vec Ideal S1x128 .f32) x = (V c main_v116 : S1x128.Idx → EReal) k := by
  obtain ⟨-, -, -, -, -, -, e30, e31, -, -, -, -⟩ := idx_facts6 t
  unfold iblk6
  rw [View.read_apply]
  show V c main_v116 _ = V c main_v116 _
  congr 1
  funext a
  apply Fin.ext
  match a with
  | ⟨0, _⟩ => show win6_3.index t (0 : Fin 2) * 1 + 1 * (x 0).val = (k 0).val; rw [e30, hk0]; omega
  | ⟨1, _⟩ => show win6_3.index t (1 : Fin 2) * 128 + 1 * (x 1).val = (k 1).val; rw [e31, hk1]; omega

/-- The shifts' block at every point is the whole array. -/
theorem iblk6_4_apply (c : Dev nD) (t : Fin cfg6.N) (x : S1x128.Idx) (k : S1x128.Idx)
    (hk0 : (k 0).val = (x 0).val) (hk1 : (k 1).val = (x 1).val) :
    (iblk6 V c 4 t : Vec Ideal S1x128 .f32) x = (V c main_v117 : S1x128.Idx → EReal) k := by
  obtain ⟨-, -, -, -, -, -, -, -, e40, e41, -, -⟩ := idx_facts6 t
  unfold iblk6
  rw [View.read_apply]
  show V c main_v117 _ = V c main_v117 _
  congr 1
  funext a
  apply Fin.ext
  match a with
  | ⟨0, _⟩ => show win6_4.index t (0 : Fin 2) * 1 + 1 * (x 0).val = (k 0).val; rw [e40, hk0]; omega
  | ⟨1, _⟩ => show win6_4.index t (1 : Fin 2) * 128 + 1 * (x 1).val = (k 1).val; rw [e41, hk1]; omega

/-- What point `t` writes back is block `t` of `G6` of the arrays as the region finds them. -/
theorem flushed6_eq (c : Dev nD) (t : Fin cfg6.N) :
    (dat6 V c).flushed 5 t = ((cfg6.win 5).blk t).view.read (Elt Ideal) (G6 (V c main_v103_0) (V c main_v105) (V c main_v111) (V c main_v116) (V c main_v117)) := by
  show (cfg6.win 5).cut (grid6.coords t) ((dat6 V c).after 5 t) = _
  rw [after6_5]
  unfold out6_5
  rw [View.canon_unit_zero hz6]
  simp only [View.ld_unit_zero (S := S2000x128) hz6, View.ld_unit_zero (S := S1x128) hz6]
  obtain ⟨-, -, -, -, -, -, -, -, -, -, e50, e51⟩ := idx_facts6 t
  funext j
  show k6_pay1 (F := Ideal) (iblk6 V c 0 t) (iblk6 V c 1 t) (iblk6 V c 2 t) (iblk6 V c 3 t) (iblk6 V c 4 t) j
    = G6 (V c main_v103_0) (V c main_v105) (V c main_v111) (V c main_v116) (V c main_v117) (((cfg6.win 5).blk t).view.emb j)
  refine (pay6_at (iblk6 V c 0 t) (iblk6 V c 1 t) (iblk6 V c 2 t) (iblk6 V c 3 t) (iblk6 V c 4 t) j).trans ?_
  have h0 : ((((cfg6.win 5).blk t).view.emb j) 0).val = 2000 * t.val + (j 0).val := by
    show win6_5.index t (0 : Fin 2) * 2000 + 1 * (j 0).val = _
    omega
  have h1 : ((((cfg6.win 5).blk t).view.emb j) 1).val = (j 1).val := by
    show win6_5.index t (1 : Fin 2) * 128 + 1 * (j 1).val = _
    omega
  unfold G6
  refine congrArg₂ max (congrArg₂ (· + ·) (congrArg₂ (· * ·) (congrArg₂ (· * ·) ?_ (congrArg₂ (· - ·) ?_ ?_)) (congrArg Ideal.rsqrt (congrArg (· + epsK) ?_))) ?_) rfl
  · exact iblk6_3_apply V c t (ix2 0 (j 1)) (ix2 0 ((((cfg6.win 5).blk t).view.emb j) 1)) rfl h1
  · exact iblk6_0_apply V c t (ix2 (j 0) (j 1)) (ix2 ((((cfg6.win 5).blk t).view.emb j) 0) ((((cfg6.win 5).blk t).view.emb j) 1)) h0 h1
  · exact iblk6_1_apply V c t (ix2 0 (j 1)) (ix2 0 ((((cfg6.win 5).blk t).view.emb j) 1)) rfl h1
  · exact iblk6_2_apply V c t (ix2 0 (j 1)) (ix2 0 ((((cfg6.win 5).blk t).view.emb j) 1)) rfl h1
  · exact iblk6_4_apply V c t (ix2 0 (j 1)) (ix2 0 ((((cfg6.win 5).blk t).view.emb j) 1)) rfl h1

/-- An index of the array is in point `t`'s block iff each coordinate is in the block's range on its axis. -/
theorem mem_blk6 (t : Fin cfg6.N) (i : S50000x128.Idx) :
    i ∈ ((cfg6.win 5).blk t).view.set ↔ ∀ a : Fin 2, win6_5.index t a * S2000x128.size a ≤ (i a).val ∧ (i a).val < win6_5.index t a * S2000x128.size a + S2000x128.size a := by
  show i ∈ ((View.whole main_v118).slice (win6_5.rect t)).set ↔ _
  rw [View.set_slice_whole, Rect.mem_set_unit]
  exact Iff.rfl

/-- Every index of the array is in the block of the point its row falls in: row `r` is in block `r / 2000`. -/
theorem cover6 (i : S50000x128.Idx) : ∃ t : Fin cfg6.N, (cfg6.win 5).flush t = true ∧ i ∈ ((cfg6.win 5).blk t).view.set := by
  have hi0 : (i 0).val < 50000 := idx2_lt0 i
  have hi1 : (i 1).val < 128 := idx2_lt1 i
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, -, -, -, -, -, -, e50, e51⟩ := idx_facts6 t
  refine ⟨t, flush6_5 t, ?_⟩
  rw [mem_blk6]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 128 ≤ (i 1).val ∧ (i 1).val < win6_5.index t (1 : Fin 2) * 128 + 128; omega

/-- The array after the region is `G6` of the arrays it read. -/
theorem arr6 (c : Dev nD) : (dat6 V c).arrAt 5 cfg6.N = G6 (V c main_v103_0) (V c main_v105) (V c main_v111) (V c main_v116) (V c main_v117) :=
  (dat6 V c).arrAt_eq_of_cover 5 (G6 (V c main_v103_0) (V c main_v105) (V c main_v111) (V c main_v116) (V c main_v117)) (fun t _ => flushed6_eq V c t) cover6

/-- The region's result, by row and column: the input normalised by the given column statistics, positive part. -/
theorem final6 (c : Dev nD) : Cert.Spec.toMat ((dat6 V c).arrAt 5 cfg6.N : S50000x128.Idx → EReal)
    = Cert.Spec.bnRelu (Cert.Spec.toMat (V c main_v103_0 : S50000x128.Idx → EReal))
        (fun j => (V c main_v105 : S1x128.Idx → EReal) (ix2 0 j)) (fun j => (V c main_v111 : S1x128.Idx → EReal) (ix2 0 j))
        (fun j => (V c main_v116 : S1x128.Idx → EReal) (ix2 0 j)) (fun j => (V c main_v117 : S1x128.Idx → EReal) (ix2 0 j)) epsK := by
  rw [arr6]
  rfl

end Cert.KernelIdeal.Hand
-- ==== Proof.KI.Host3Val.lean ====
/-
  The column statistics the host computes between the accumulating region and the normalising one, read entry by entry on the
  extended reals: the mean is the column sum divided by the number of rows, the variance the column sum of squares divided by
  the number of rows minus the square of the mean, cut off below at zero.
-/
import proofs.«180311_j29308856828500_2_alg».proof.Proof.Gen.KernelIdeal.Launch
import proofs.«180311_j29308856828500_2_alg».proof.Proof.Math.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.ValueIdx
open Cert.KernelIdeal Cert.KernelIdeal.Gen

variable (Vin : Valuation τ sig (Elt Ideal))

/-- The row of the number of rows, as the program writes it: the f32 word of 50000 at every column. -/
abbrev nnRow3 : FVec Ideal S1x128 .f32 := broadcastInDim S1x128 ![] bcast_S_S1x128 (constant (F := Ideal) S_ .f32 0x47435000#32)

/-- The mean row as an array: the sum row divided by the row of the number of rows. -/
theorem host3_mean_arr :
    StableHlo.after (hostOps3 (F := Ideal)) Vin (Proc.devRef .tc main_v49)
      = Host.divf (F := Ideal) (Vin (Proc.devRef .tc main_v47_1)) nnRow3 := by
  after_results

/-- The variance row as an array. -/
theorem host3_var_arr :
    StableHlo.after (hostOps3 (F := Ideal)) Vin (Proc.devRef .tc main_v55)
      = maximumf (subf (Host.divf (F := Ideal) (Vin (Proc.devRef .tc main_v47_2)) nnRow3)
          (mulf (Host.divf (F := Ideal) (Vin (Proc.devRef .tc main_v47_1)) nnRow3) (Host.divf (F := Ideal) (Vin (Proc.devRef .tc main_v47_1)) nnRow3)))
          (broadcastInDim S1x128 ![] bcast_S_S1x128 (constant (F := Ideal) S_ .f32 0x00000000#32)) := by
  after_results

/-- The mean row entry by entry. -/
theorem host3_mean (j : S1x128.Idx) :
    StableHlo.after (hostOps3 (F := Ideal)) Vin (Proc.devRef .tc main_v49) j
      = Ideal.div (Vin (Proc.devRef .tc main_v47_1) j) (Ideal.ofBits .f32 0x47435000#32) := by
  rw [host3_mean_arr]; rfl

/-- The variance row entry by entry. -/
theorem host3_var (j : S1x128.Idx) :
    StableHlo.after (hostOps3 (F := Ideal)) Vin (Proc.devRef .tc main_v55) j
      = max (Ideal.div (Vin (Proc.devRef .tc main_v47_2) j) (Ideal.ofBits .f32 0x47435000#32)
          - Ideal.div (Vin (Proc.devRef .tc main_v47_1) j) (Ideal.ofBits .f32 0x47435000#32)
            * Ideal.div (Vin (Proc.devRef .tc main_v47_1) j) (Ideal.ofBits .f32 0x47435000#32))
          (Ideal.ofBits .f32 0x00000000#32) := by
  rw [host3_var_arr]; rfl

/-- Row 0 of the parameter array `main_arg6`, laid out as a one-row array. -/
theorem host3_row_main_v60 (j : Fin 128) :
    (StableHlo.after (hostOps3 (F := Ideal)) Vin (Proc.devRef .tc main_v60) : S1x128.Idx → EReal) (ix2 (0 : Fin 1) j)
      = (Vin (Proc.devRef .tc main_arg6) : S3x128.Idx → EReal) (ix2 (0 : Fin 3) j) := by
  have e : (StableHlo.after (hostOps3 (F := Ideal)) Vin (Proc.devRef .tc main_v60) : S1x128.Idx → EReal)
      = shapeCast S1x128 (shapeCast S128 (extractStridedSlice S1x128 ![0, 0] (Vin (Proc.devRef .tc main_arg6) : S3x128.Idx → EReal) slices_S3x128_S1x128_0_0) shapeCasts_S1x128_S128) shapeCasts_S128_S1x128 := by
    after_results; rfl
  rw [e, shapeCast_a_1a_apply, shapeCast_1a_a_apply]
  exact extractStridedSlice_apply _ _ _ _ _ (fun a => by
    match a with
    | ⟨0, _⟩ => rfl
    | ⟨1, _⟩ => show j.val = 0 + j.val; omega)

/-- Row 0 of the parameter array `main_arg7`, laid out as a one-row array. -/
theorem host3_row_main_v61 (j : Fin 128) :
    (StableHlo.after (hostOps3 (F := Ideal)) Vin (Proc.devRef .tc main_v61) : S1x128.Idx → EReal) (ix2 (0 : Fin 1) j)
      = (Vin (Proc.devRef .tc main_arg7) : S3x128.Idx → EReal) (ix2 (0 : Fin 3) j) := by
  have e : (StableHlo.after (hostOps3 (F := Ideal)) Vin (Proc.devRef .tc main_v61) : S1x128.Idx → EReal)
      = shapeCast S1x128 (shapeCast S128 (extractStridedSlice S1x128 ![0, 0] (Vin (Proc.devRef .tc main_arg7) : S3x128.Idx → EReal) slices_S3x128_S1x128_0_0) shapeCasts_S1x128_S128) shapeCasts_S128_S1x128 := by
    after_results; rfl
  rw [e, shapeCast_a_1a_apply, shapeCast_1a_a_apply]
  exact extractStridedSlice_apply _ _ _ _ _ (fun a => by
    match a with
    | ⟨0, _⟩ => rfl
    | ⟨1, _⟩ => show j.val = 0 + j.val; omega)

end Cert.KernelIdeal.Hand

end
-- ==== Proof.KI.Host6Val.lean ====
/-
  The column statistics the host computes between the accumulating region and the normalising one, read entry by entry on the
  extended reals: the mean is the column sum divided by the number of rows, the variance the column sum of squares divided by
  the number of rows minus the square of the mean, cut off below at zero.
-/
import proofs.«180311_j29308856828500_2_alg».proof.Proof.Gen.KernelIdeal.Launch
import proofs.«180311_j29308856828500_2_alg».proof.Proof.Math.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.ValueIdx
open Cert.KernelIdeal Cert.KernelIdeal.Gen

variable (Vin : Valuation τ sig (Elt Ideal))

/-- The row of the number of rows, as the program writes it: the f32 word of 50000 at every column. -/
abbrev nnRow6 : FVec Ideal S1x128 .f32 := broadcastInDim S1x128 ![] bcast_S_S1x128 (constant (F := Ideal) S_ .f32 0x47435000#32)

/-- The mean row as an array: the sum row divided by the row of the number of rows. -/
theorem host6_mean_arr :
    StableHlo.after (hostOps6 (F := Ideal)) Vin (Proc.devRef .tc main_v105)
      = Host.divf (F := Ideal) (Vin (Proc.devRef .tc main_v103_1)) nnRow6 := by
  after_results

/-- The variance row as an array. -/
theorem host6_var_arr :
    StableHlo.after (hostOps6 (F := Ideal)) Vin (Proc.devRef .tc main_v111)
      = maximumf (subf (Host.divf (F := Ideal) (Vin (Proc.devRef .tc main_v103_2)) nnRow6)
          (mulf (Host.divf (F := Ideal) (Vin (Proc.devRef .tc main_v103_1)) nnRow6) (Host.divf (F := Ideal) (Vin (Proc.devRef .tc main_v103_1)) nnRow6)))
          (broadcastInDim S1x128 ![] bcast_S_S1x128 (constant (F := Ideal) S_ .f32 0x00000000#32)) := by
  after_results

/-- The mean row entry by entry. -/
theorem host6_mean (j : S1x128.Idx) :
    StableHlo.after (hostOps6 (F := Ideal)) Vin (Proc.devRef .tc main_v105) j
      = Ideal.div (Vin (Proc.devRef .tc main_v103_1) j) (Ideal.ofBits .f32 0x47435000#32) := by
  rw [host6_mean_arr]; rfl

/-- The variance row entry by entry. -/
theorem host6_var (j : S1x128.Idx) :
    StableHlo.after (hostOps6 (F := Ideal)) Vin (Proc.devRef .tc main_v111) j
      = max (Ideal.div (Vin (Proc.devRef .tc main_v103_2) j) (Ideal.ofBits .f32 0x47435000#32)
          - Ideal.div (Vin (Proc.devRef .tc main_v103_1) j) (Ideal.ofBits .f32 0x47435000#32)
            * Ideal.div (Vin (Proc.devRef .tc main_v103_1) j) (Ideal.ofBits .f32 0x47435000#32))
          (Ideal.ofBits .f32 0x00000000#32) := by
  rw [host6_var_arr]; rfl

/-- Row 1 of the parameter array `main_arg6`, laid out as a one-row array. -/
theorem host6_row_main_v116 (j : Fin 128) :
    (StableHlo.after (hostOps6 (F := Ideal)) Vin (Proc.devRef .tc main_v116) : S1x128.Idx → EReal) (ix2 (0 : Fin 1) j)
      = (Vin (Proc.devRef .tc main_arg6) : S3x128.Idx → EReal) (ix2 (1 : Fin 3) j) := by
  have e : (StableHlo.after (hostOps6 (F := Ideal)) Vin (Proc.devRef .tc main_v116) : S1x128.Idx → EReal)
      = shapeCast S1x128 (shapeCast S128 (extractStridedSlice S1x128 ![1, 0] (Vin (Proc.devRef .tc main_arg6) : S3x128.Idx → EReal) slices_S3x128_S1x128_1_0) shapeCasts_S1x128_S128) shapeCasts_S128_S1x128 := by
    after_results; rfl
  rw [e, shapeCast_a_1a_apply, shapeCast_1a_a_apply]
  exact extractStridedSlice_apply _ _ _ _ _ (fun a => by
    match a with
    | ⟨0, _⟩ => rfl
    | ⟨1, _⟩ => show j.val = 0 + j.val; omega)

/-- Row 1 of the parameter array `main_arg7`, laid out as a one-row array. -/
theorem host6_row_main_v117 (j : Fin 128) :
    (StableHlo.after (hostOps6 (F := Ideal)) Vin (Proc.devRef .tc main_v117) : S1x128.Idx → EReal) (ix2 (0 : Fin 1) j)
      = (Vin (Proc.devRef .tc main_arg7) : S3x128.Idx → EReal) (ix2 (1 : Fin 3) j) := by
  have e : (StableHlo.after (hostOps6 (F := Ideal)) Vin (Proc.devRef .tc main_v117) : S1x128.Idx → EReal)
      = shapeCast S1x128 (shapeCast S128 (extractStridedSlice S1x128 ![1, 0] (Vin (Proc.devRef .tc main_arg7) : S3x128.Idx → EReal) slices_S3x128_S1x128_1_0) shapeCasts_S1x128_S128) shapeCasts_S128_S1x128 := by
    after_results; rfl
  rw [e, shapeCast_a_1a_apply, shapeCast_1a_a_apply]
  exact extractStridedSlice_apply _ _ _ _ _ (fun a => by
    match a with
    | ⟨0, _⟩ => rfl
    | ⟨1, _⟩ => show j.val = 0 + j.val; omega)

end Cert.KernelIdeal.Hand

end
-- ==== Proof.KI.ChainNorm.lean ====
import proofs.«180311_j29308856828500_2_alg».proof.Proof.KI.Chain0
import proofs.«180311_j29308856828500_2_alg».proof.Proof.KI.Val3
import proofs.«180311_j29308856828500_2_alg».proof.Proof.KI.Val6
import proofs.«180311_j29308856828500_2_alg».proof.Proof.KI.Host3Val
import proofs.«180311_j29308856828500_2_alg».proof.Proof.KI.Host6Val
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

/-- Layer 0's normalisation: if the accumulating region left the matrix `Y` with its column sums and its column sums
    of squares, the normalising region leaves `Y` normalised by its column means and cut-off variances, scaled and
    shifted by the layer's parameters, positive part. -/
theorem chain_norm0 (Y : Cert.Spec.Mat 50000 128)
    (hY : Cert.Spec.toMat (W6 m c main_v47_0 : S50000x128.Idx → EReal) = Y)
    (hS : ∀ j : Fin 128, (W6 m c main_v47_1 : S1x128.Idx → EReal) (ix2 0 j) = Cert.Spec.colSum Y j)
    (hQ : ∀ j : Fin 128, (W6 m c main_v47_2 : S1x128.Idx → EReal) (ix2 0 j) = Cert.Spec.colSum (fun i j => Y i j * Y i j) j) :
    Cert.Spec.toMat (W8 m c main_v62 : S50000x128.Idx → EReal)
      = Cert.Spec.normSq netNN epsK Y (netGam m c 0) (netBet m c 0) := by
  rw [W8_at]
  unfold O8
  refine (final3 (fun c b => W7 m c b) c).trans ?_
  show Cert.Spec.bnRelu (Cert.Spec.toMat (W7 m c main_v47_0 : S50000x128.Idx → EReal))
      (fun j => (W7 m c main_v49 : S1x128.Idx → EReal) (ix2 0 j)) (fun j => (W7 m c main_v55 : S1x128.Idx → EReal) (ix2 0 j))
      (fun j => (W7 m c main_v60 : S1x128.Idx → EReal) (ix2 0 j)) (fun j => (W7 m c main_v61 : S1x128.Idx → EReal) (ix2 0 j)) epsK = _
  have e0 : Cert.Spec.toMat (W7 m c main_v47_0 : S50000x128.Idx → EReal) = Y := by
    rw [Chain.W7_of m c main_v47_0 (by decide)]; exact hY
  have e1 : (fun j : Fin 128 => (W7 m c main_v49 : S1x128.Idx → EReal) (ix2 0 j)) = Cert.Spec.mean netNN Y :=
    funext fun j => (host3_mean (W6 m c) (ix2 0 j)).trans (congrArg (fun z => Ideal.div z netNN) (hS j))
  have e2 : (fun j : Fin 128 => (W7 m c main_v55 : S1x128.Idx → EReal) (ix2 0 j)) = Cert.Spec.varSq netNN Y :=
    funext fun j => by
      refine (host3_var (W6 m c) (ix2 0 j)).trans ?_
      rw [Ideal.ofBits_zero_f32]
      show max (Ideal.div ((W6 m c main_v47_2 : S1x128.Idx → EReal) (ix2 0 j)) netNN
        - Ideal.div ((W6 m c main_v47_1 : S1x128.Idx → EReal) (ix2 0 j)) netNN * Ideal.div ((W6 m c main_v47_1 : S1x128.Idx → EReal) (ix2 0 j)) netNN) 0 = _
      rw [hS j, hQ j]
      rfl
  have e3 : (fun j : Fin 128 => (W7 m c main_v60 : S1x128.Idx → EReal) (ix2 0 j)) = netGam m c 0 :=
    funext fun j => (host3_row_main_v60 (W6 m c) j).trans (congrFun (Chain.keep6_0_main_arg6 m c) (ix2 0 j))
  have e4 : (fun j : Fin 128 => (W7 m c main_v61 : S1x128.Idx → EReal) (ix2 0 j)) = netBet m c 0 :=
    funext fun j => (host3_row_main_v61 (W6 m c) j).trans (congrFun (Chain.keep6_0_main_arg7 m c) (ix2 0 j))
  rw [e0, e1, e2, e3, e4]
  rfl

/-- Layer 1's normalisation: if the accumulating region left the matrix `Y` with its column sums and its column sums
    of squares, the normalising region leaves `Y` normalised by its column means and cut-off variances, scaled and
    shifted by the layer's parameters, positive part. -/
theorem chain_norm1 (Y : Cert.Spec.Mat 50000 128)
    (hY : Cert.Spec.toMat (W12 m c main_v103_0 : S50000x128.Idx → EReal) = Y)
    (hS : ∀ j : Fin 128, (W12 m c main_v103_1 : S1x128.Idx → EReal) (ix2 0 j) = Cert.Spec.colSum Y j)
    (hQ : ∀ j : Fin 128, (W12 m c main_v103_2 : S1x128.Idx → EReal) (ix2 0 j) = Cert.Spec.colSum (fun i j => Y i j * Y i j) j) :
    Cert.Spec.toMat (W14 m c main_v118 : S50000x128.Idx → EReal)
      = Cert.Spec.normSq netNN epsK Y (netGam m c 1) (netBet m c 1) := by
  rw [W14_at]
  unfold O14
  refine (final6 (fun c b => W13 m c b) c).trans ?_
  show Cert.Spec.bnRelu (Cert.Spec.toMat (W13 m c main_v103_0 : S50000x128.Idx → EReal))
      (fun j => (W13 m c main_v105 : S1x128.Idx → EReal) (ix2 0 j)) (fun j => (W13 m c main_v111 : S1x128.Idx → EReal) (ix2 0 j))
      (fun j => (W13 m c main_v116 : S1x128.Idx → EReal) (ix2 0 j)) (fun j => (W13 m c main_v117 : S1x128.Idx → EReal) (ix2 0 j)) epsK = _
  have e0 : Cert.Spec.toMat (W13 m c main_v103_0 : S50000x128.Idx → EReal) = Y := by
    rw [Chain.W13_of m c main_v103_0 (by decide)]; exact hY
  have e1 : (fun j : Fin 128 => (W13 m c main_v105 : S1x128.Idx → EReal) (ix2 0 j)) = Cert.Spec.mean netNN Y :=
    funext fun j => (host6_mean (W12 m c) (ix2 0 j)).trans (congrArg (fun z => Ideal.div z netNN) (hS j))
  have e2 : (fun j : Fin 128 => (W13 m c main_v111 : S1x128.Idx → EReal) (ix2 0 j)) = Cert.Spec.varSq netNN Y :=
    funext fun j => by
      refine (host6_var (W12 m c) (ix2 0 j)).trans ?_
      rw [Ideal.ofBits_zero_f32]
      show max (Ideal.div ((W12 m c main_v103_2 : S1x128.Idx → EReal) (ix2 0 j)) netNN
        - Ideal.div ((W12 m c main_v103_1 : S1x128.Idx → EReal) (ix2 0 j)) netNN * Ideal.div ((W12 m c main_v103_1 : S1x128.Idx → EReal) (ix2 0 j)) netNN) 0 = _
      rw [hS j, hQ j]
      rfl
  have e3 : (fun j : Fin 128 => (W13 m c main_v116 : S1x128.Idx → EReal) (ix2 0 j)) = netGam m c 1 :=
    funext fun j => (host6_row_main_v116 (W12 m c) j).trans (congrFun (Chain.keep12_0_main_arg6 m c) (ix2 1 j))
  have e4 : (fun j : Fin 128 => (W13 m c main_v117 : S1x128.Idx → EReal) (ix2 0 j)) = netBet m c 1 :=
    funext fun j => (host6_row_main_v117 (W12 m c) j).trans (congrFun (Chain.keep12_0_main_arg7 m c) (ix2 1 j))
  rw [e0, e1, e2, e3, e4]
  rfl

end Cert.KernelIdeal.Hand
-- ==== Proof.KI.Val9.lean ====
import proofs.«180311_j29308856828500_2_alg».proof.Proof.KI.Reg9Dat
import proofs.«180311_j29308856828500_2_alg».proof.Proof.KI.Val3
import proofs.«180311_j29308856828500_2_alg».proof.Proof.Math.Spec
import proofs.«180311_j29308856828500_2_alg».proof.Proof.Math.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The contents of the core's buffers when the region is entered, at the extended reals. -/
variable (V : (c : Dev nD) → (b : Ref sig .tc) → Buf (Elt Ideal) ((c : Thread nD τ).loc b))

/-! ## The body's arithmetic at an index

The operand indices of the head's matrix product at output index `i` and contraction index `q`: the left operand's
row is `i`'s row and its column is `q`; the right operand's row is `q` and its column is `i`'s column. -/
theorem lhs9_0 (i : S2000x32.Idx) (q : dot_S2000x128_S128x32_S2000x32_1_0_0_1_n_n.contr.Idx) :
    (dot_S2000x128_S128x32_S2000x32_1_0_0_1_n_n.lhsIdx i q 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
theorem lhs9_1 (i : S2000x32.Idx) (q : dot_S2000x128_S128x32_S2000x32_1_0_0_1_n_n.contr.Idx) :
    (dot_S2000x128_S128x32_S2000x32_1_0_0_1_n_n.lhsIdx i q 1).val = (q ⟨0, by decide⟩).val :=
  dot_S2000x128_S128x32_S2000x32_1_0_0_1_n_n.lhsIdx_val_of_single rfl i q
theorem rhs9_0 (i : S2000x32.Idx) (q : dot_S2000x128_S128x32_S2000x32_1_0_0_1_n_n.contr.Idx) :
    (dot_S2000x128_S128x32_S2000x32_1_0_0_1_n_n.rhsIdx i q 0).val = (q ⟨0, by decide⟩).val :=
  dot_S2000x128_S128x32_S2000x32_1_0_0_1_n_n.rhsIdx_val_of_single rfl i q
theorem rhs9_1 (i : S2000x32.Idx) (q : dot_S2000x128_S128x32_S2000x32_1_0_0_1_n_n.contr.Idx) :
    (dot_S2000x128_S128x32_S2000x32_1_0_0_1_n_n.rhsIdx i q 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

/-- A row vector of 128 columns spread over the rows of the block, read at row `p`, column `k`. -/
theorem bcast_row9 {α : Type} (x : S1x128.Idx → α) (p : Fin 2000) (k : Fin 128) :
    broadcastTo S2000x128 x broadcasts_S1x128_S2000x128 (ix2 p k) = x (ix2 0 k) :=
  broadcastTo_apply x broadcasts_S1x128_S2000x128 (ix2 p k) (ix2 0 k) (fun a => by match a with | ⟨0, _⟩ => rfl | ⟨1, _⟩ => rfl)

/-- The head's bias, a row vector of 32 columns spread over the rows of the block, read at row `p`, column `q`. -/
theorem bcast_head9 {α : Type} (x : S1x32.Idx → α) (p : Fin 2000) (q : Fin 32) :
    broadcastTo S2000x32 x broadcasts_S1x32_S2000x32 (ix2 p q) = x (ix2 0 q) :=
  broadcastTo_apply x broadcasts_S1x32_S2000x32 (ix2 p q) (ix2 0 q) (fun a => by match a with | ⟨0, _⟩ => rfl | ⟨1, _⟩ => rfl)

/-- The body's result at row `p`, column `q`: row `p` of the normalised, scaled, shifted and cut-off block (the
    change of float format is the identity on the extended reals) times column `q` of the head's weights, the
    accumulator starting at zero, plus the head's bias at `q`. -/
theorem pay9_apply (x0 : Vec Ideal S2000x128 .f32) (x1 x2 x3 x4 : Vec Ideal S1x128 .f32) (x5 : Vec Ideal S128x32 .bf16)
    (x6 : Vec Ideal S1x32 .f32) (p : Fin 2000) (q : Fin 32) :
    k9_pay1 (F := Ideal) x0 x1 x2 x3 x4 x5 x6 (ix2 p q)
      = (∑ k : Fin 128, max (x3 (ix2 0 k) * (x0 (ix2 p k) - x1 (ix2 0 k)) * Ideal.rsqrt (x2 (ix2 0 k) + epsK) + x4 (ix2 0 k)) 0 * x5 (ix2 k q)) + x6 (ix2 0 q) := by
  unfold k9_pay1
  simp only [shapeCast_self]
  rw [addf_apply]
  simp only [matmul]
  rw [Ideal.matmul_constant_zero_apply, ← Equiv.sum_comp (contrEquiv1 dot_S2000x128_S128x32_S2000x32_1_0_0_1_n_n 128 rfl rfl).symm, bcast_head9]
  refine congrArg₂ (· + ·) (Finset.sum_congr rfl fun k _ => ?_) rfl
  have hk := contrEquiv1_symm_val dot_S2000x128_S128x32_S2000x32_1_0_0_1_n_n 128 rfl rfl k
  have el : dot_S2000x128_S128x32_S2000x32_1_0_0_1_n_n.lhsIdx (ix2 p q) ((contrEquiv1 dot_S2000x128_S128x32_S2000x32_1_0_0_1_n_n 128 rfl rfl).symm k) = ix2 p k := funext fun a => Fin.ext (by
    match a with
    | ⟨0, _⟩ => exact lhs9_0 _ _
    | ⟨1, _⟩ => exact (lhs9_1 _ _).trans hk)
  have er : dot_S2000x128_S128x32_S2000x32_1_0_0_1_n_n.rhsIdx (ix2 p q) ((contrEquiv1 dot_S2000x128_S128x32_S2000x32_1_0_0_1_n_n 128 rfl rfl).symm k) = ix2 k q := funext fun a => Fin.ext (by
    match a with
    | ⟨0, _⟩ => exact (rhs9_0 _ _).trans hk
    | ⟨1, _⟩ => exact rhs9_1 _ _)
  rw [el, er, truncf_apply, maximumf_apply, addf_apply, mulf_apply, mulf_apply, subf_apply, broadcast_apply,
    bcast_row9, bcast_row9, bcast_row9, bcast_row9]
  show max _ (Ideal.ofBits .f32 0x00000000#32) * _ = _
  rw [Ideal.ofBits_zero_f32]
  rfl

/-- The body's result at any index of the block. -/
theorem pay9_at (x0 : Vec Ideal S2000x128 .f32) (x1 x2 x3 x4 : Vec Ideal S1x128 .f32) (x5 : Vec Ideal S128x32 .bf16)
    (x6 : Vec Ideal S1x32 .f32) (j : S2000x32.Idx) :
    k9_pay1 (F := Ideal) x0 x1 x2 x3 x4 x5 x6 j
      = (∑ k : Fin 128, max (x3 (ix2 0 k) * (x0 (ix2 (j 0) k) - x1 (ix2 0 k)) * Ideal.rsqrt (x2 (ix2 0 k) + epsK) + x4 (ix2 0 k)) 0 * x5 (ix2 k (j 1))) + x6 (ix2 0 (j 1)) := by
  obtain ⟨p, q, rfl⟩ : ∃ (p : Fin 2000) (q : Fin 32), j = ix2 p q := ⟨j 0, j 1, eq_ix2 j⟩
  exact pay9_apply x0 x1 x2 x3 x4 x5 x6 p q

/-! ## From blocks to the array -/

theorem hz9 : (![0, 0] : Fin 2 → Nat) = fun _ => 0 := funext fun a => by fin_cases a <;> rfl

/-- The array the region leaves, as one function of the arrays it reads: every row normalised by the column
    statistics, scaled, shifted and cut off below at zero, then times the head's weights, plus the head's bias. -/
def G9 (a0 : S50000x128.Idx → EReal) (a1 a2 a3 a4 : S1x128.Idx → EReal) (a5 : S128x32.Idx → EReal) (a6 : S1x32.Idx → EReal) :
    S50000x32.Idx → EReal :=
  fun i => (∑ k : Fin 128, max (a3 (ix2 0 k) * (a0 (ix2 (i 0) k) - a1 (ix2 0 k)) * Ideal.rsqrt (a2 (ix2 0 k) + epsK) + a4 (ix2 0 k)) 0 * a5 (ix2 k (i 1))) + a6 (ix2 0 (i 1))

/-- The index maps over the grid: the input's and the output's row block is the point's number, every other block
    index is zero. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-- The input's block at point `t` is rows `2000 t … 2000 t + 1999` of its array. -/
theorem iblk9_0_apply (c : Dev nD) (t : Fin cfg9.N) (x : S2000x128.Idx) (k : S50000x128.Idx)
    (hk0 : (k 0).val = 2000 * t.val + (x 0).val) (hk1 : (k 1).val = (x 1).val) :
    (iblk9 V c 0 t : Vec Ideal S2000x128 .f32) x = (V c main_v159_0 : S50000x128.Idx → EReal) k := by
  obtain ⟨e00, e01, -, -, -, -, -, -, -, -, -, -, -, -, -, -⟩ := idx_facts9 t
  unfold iblk9
  rw [View.read_apply]
  show V c main_v159_0 _ = V c main_v159_0 _
  congr 1
  funext a
  apply Fin.ext
  match a with
  | ⟨0, _⟩ => show win9_0.index t (0 : Fin 2) * 2000 + 1 * (x 0).val = (k 0).val; rw [e00, hk0]; omega
  | ⟨1, _⟩ => show win9_0.index t (1 : Fin 2) * 128 + 1 * (x 1).val = (k 1).val; rw [e01, hk1]; omega

/-- The means' block at every point is the whole array. -/
theorem iblk9_1_apply (c : Dev nD) (t : Fin cfg9.N) (x : S1x128.Idx) (k : S1x128.Idx)
    (hk0 : (k 0).val = (x 0).val) (hk1 : (k 1).val = (x 1).val) :
    (iblk9 V c 1 t : Vec Ideal S1x128 .f32) x = (V c main_v161 : S1x128.Idx → EReal) k := by
  obtain ⟨-, -, e10, e11, -, -, -, -, -, -, -, -, -, -, -, -⟩ := idx_facts9 t
  unfold iblk9
  rw [View.read_apply]
  show V c main_v161 _ = V c main_v161 _
  congr 1
  funext a
  apply Fin.ext
  match a with
  | ⟨0, _⟩ => show win9_1.index t (0 : Fin 2) * 1 + 1 * (x 0).val = (k 0).val; rw [e10, hk0]; omega
  | ⟨1, _⟩ => show win9_1.index t (1 : Fin 2) * 128 + 1 * (x 1).val = (k 1).val; rw [e11, hk1]; omega

/-- The variances' block at every point is the whole array. -/
theorem iblk9_2_apply (c : Dev nD) (t : Fin cfg9.N) (x : S1x128.Idx) (k : S1x128.Idx)
    (hk0 : (k 0).val = (x 0).val) (hk1 : (k 1).val = (x 1).val) :
    (iblk9 V c 2 t : Vec Ideal S1x128 .f32) x = (V c main_v167 : S1x128.Idx → EReal) k := by
  obtain ⟨-, -, -, -, e20, e21, -, -, -, -, -, -, -, -, -, -⟩ := idx_facts9 t
  unfold iblk9
  rw [View.read_apply]
  show V c main_v167 _ = V c main_v167 _
  congr 1
  funext a
  apply Fin.ext
  match a with
  | ⟨0, _⟩ => show win9_2.index t (0 : Fin 2) * 1 + 1 * (x 0).val = (k 0).val; rw [e20, hk0]; omega
  | ⟨1, _⟩ => show win9_2.index t (1 : Fin 2) * 128 + 1 * (x 1).val = (k 1).val; rw [e21, hk1]; omega

/-- The scales' block at every point is the whole array. -/
theorem iblk9_3_apply (c : Dev nD) (t : Fin cfg9.N) (x : S1x128.Idx) (k : S1x128.Idx)
    (hk0 : (k 0).val = (x 0).val) (hk1 : (k 1).val = (x 1).val) :
    (iblk9 V c 3 t : Vec Ideal S1x128 .f32) x = (V c main_v173 : S1x128.Idx → EReal) k := by
  obtain ⟨-, -, -, -, -, -, e30, e31, -, -, -, -, -, -, -, -⟩ := idx_facts9 t
  unfold iblk9
  rw [View.read_apply]
  show V c main_v173 _ = V c main_v173 _
  congr 1
  funext a
  apply Fin.ext
  match a with
  | ⟨0, _⟩ => show win9_3.index t (0 : Fin 2) * 1 + 1 * (x 0).val = (k 0).val; rw [e30, hk0]; omega
  | ⟨1, _⟩ => show win9_3.index t (1 : Fin 2) * 128 + 1 * (x 1).val = (k 1).val; rw [e31, hk1]; omega

/-- The shifts' block at every point is the whole array. -/
theorem iblk9_4_apply (c : Dev nD) (t : Fin cfg9.N) (x : S1x128.Idx) (k : S1x128.Idx)
    (hk0 : (k 0).val = (x 0).val) (hk1 : (k 1).val = (x 1).val) :
    (iblk9 V c 4 t : Vec Ideal S1x128 .f32) x = (V c main_v174 : S1x128.Idx → EReal) k := by
  obtain ⟨-, -, -, -, -, -, -, -, e40, e41, -, -, -, -, -, -⟩ := idx_facts9 t
  unfold iblk9
  rw [View.read_apply]
  show V c main_v174 _ = V c main_v174 _
  congr 1
  funext a
  apply Fin.ext
  match a with
  | ⟨0, _⟩ => show win9_4.index t (0 : Fin 2) * 1 + 1 * (x 0).val = (k 0).val; rw [e40, hk0]; omega
  | ⟨1, _⟩ => show win9_4.index t (1 : Fin 2) * 128 + 1 * (x 1).val = (k 1).val; rw [e41, hk1]; omega

/-- The head weights' block at every point is the whole array. -/
theorem iblk9_5_apply (c : Dev nD) (t : Fin cfg9.N) (x : S128x32.Idx) (k : S128x32.Idx)
    (hk0 : (k 0).val = (x 0).val) (hk1 : (k 1).val = (x 1).val) :
    (iblk9 V c 5 t : Vec Ideal S128x32 .bf16) x = (V c main_v168 : S128x32.Idx → EReal) k := by
  obtain ⟨-, -, -, -, -, -, -, -, -, -, e50, e51, -, -, -, -⟩ := idx_facts9 t
  unfold iblk9
  rw [View.read_apply]
  show V c main_v168 _ = V c main_v168 _
  congr 1
  funext a
  apply Fin.ext
  match a with
  | ⟨0, _⟩ => show win9_5.index t (0 : Fin 2) * 128 + 1 * (x 0).val = (k 0).val; rw [e50, hk0]; omega
  | ⟨1, _⟩ => show win9_5.index t (1 : Fin 2) * 32 + 1 * (x 1).val = (k 1).val; rw [e51, hk1]; omega

/-- The head bias' block at every point is the whole array. -/
theorem iblk9_6_apply (c : Dev nD) (t : Fin cfg9.N) (x : S1x32.Idx) (k : S1x32.Idx)
    (hk0 : (k 0).val = (x 0).val) (hk1 : (k 1).val = (x 1).val) :
    (iblk9 V c 6 t : Vec Ideal S1x32 .f32) x = (V c main_v175 : S1x32.Idx → EReal) k := by
  obtain ⟨-, -, -, -, -, -, -, -, -, -, -, -, e60, e61, -, -⟩ := idx_facts9 t
  unfold iblk9
  rw [View.read_apply]
  show V c main_v175 _ = V c main_v175 _
  congr 1
  funext a
  apply Fin.ext
  match a with
  | ⟨0, _⟩ => show win9_6.index t (0 : Fin 2) * 1 + 1 * (x 0).val = (k 0).val; rw [e60, hk0]; omega
  | ⟨1, _⟩ => show win9_6.index t (1 : Fin 2) * 32 + 1 * (x 1).val = (k 1).val; rw [e61, hk1]; omega

/-- What point `t` writes back is block `t` of `G9` of the arrays as the region finds them. -/
theorem flushed9_eq (c : Dev nD) (t : Fin cfg9.N) :
    (dat9 V c).flushed 7 t = ((cfg9.win 7).blk t).view.read (Elt Ideal) (G9 (V c main_v159_0) (V c main_v161) (V c main_v167) (V c main_v173) (V c main_v174) (V c main_v168) (V c main_v175)) := by
  show (cfg9.win 7).cut (grid9.coords t) ((dat9 V c).after 7 t) = _
  rw [after9_7]
  unfold out9_7
  rw [View.canon_unit_zero hz9]
  simp only [View.ld_unit_zero (S := S2000x128) hz9, View.ld_unit_zero (S := S1x128) hz9, View.ld_unit_zero (S := S128x32) hz9,
    View.ld_unit_zero (S := S1x32) hz9]
  obtain ⟨-, -, -, -, -, -, -, -, -, -, -, -, -, -, e70, e71⟩ := idx_facts9 t
  funext j
  show k9_pay1 (F := Ideal) (iblk9 V c 0 t) (iblk9 V c 1 t) (iblk9 V c 2 t) (iblk9 V c 3 t) (iblk9 V c 4 t) (iblk9 V c 5 t) (iblk9 V c 6 t) j
    = G9 (V c main_v159_0) (V c main_v161) (V c main_v167) (V c main_v173) (V c main_v174) (V c main_v168) (V c main_v175) (((cfg9.win 7).blk t).view.emb j)
  refine (pay9_at (iblk9 V c 0 t) (iblk9 V c 1 t) (iblk9 V c 2 t) (iblk9 V c 3 t) (iblk9 V c 4 t) (iblk9 V c 5 t) (iblk9 V c 6 t) j).trans ?_
  have h0 : ((((cfg9.win 7).blk t).view.emb j) 0).val = 2000 * t.val + (j 0).val := by
    show win9_7.index t (0 : Fin 2) * 2000 + 1 * (j 0).val = _
    omega
  have h1 : ((((cfg9.win 7).blk t).view.emb j) 1).val = (j 1).val := by
    show win9_7.index t (1 : Fin 2) * 32 + 1 * (j 1).val = _
    omega
  unfold G9
  refine congrArg₂ (· + ·) (Finset.sum_congr rfl fun k _ => congrArg₂ (· * ·) (congrArg₂ max (congrArg₂ (· + ·)
    (congrArg₂ (· * ·) (congrArg₂ (· * ·) ?_ (congrArg₂ (· - ·) ?_ ?_)) (congrArg Ideal.rsqrt (congrArg (· + epsK) ?_))) ?_) rfl) ?_) ?_
  · exact iblk9_3_apply V c t (ix2 0 k) (ix2 0 k) rfl rfl
  · exact iblk9_0_apply V c t (ix2 (j 0) k) (ix2 ((((cfg9.win 7).blk t).view.emb j) 0) k) h0 rfl
  · exact iblk9_1_apply V c t (ix2 0 k) (ix2 0 k) rfl rfl
  · exact iblk9_2_apply V c t (ix2 0 k) (ix2 0 k) rfl rfl
  · exact iblk9_4_apply V c t (ix2 0 k) (ix2 0 k) rfl rfl
  · exact iblk9_5_apply V c t (ix2 k (j 1)) (ix2 k ((((cfg9.win 7).blk t).view.emb j) 1)) rfl h1
  · exact iblk9_6_apply V c t (ix2 0 (j 1)) (ix2 0 ((((cfg9.win 7).blk t).view.emb j) 1)) rfl h1

/-- An index of the array is in point `t`'s block iff each coordinate is in the block's range on its axis. -/
theorem mem_blk9 (t : Fin cfg9.N) (i : S50000x32.Idx) :
    i ∈ ((cfg9.win 7).blk t).view.set ↔ ∀ a : Fin 2, win9_7.index t a * S2000x32.size a ≤ (i a).val ∧ (i a).val < win9_7.index t a * S2000x32.size a + S2000x32.size a := by
  show i ∈ ((View.whole main_v176).slice (win9_7.rect t)).set ↔ _
  rw [View.set_slice_whole, Rect.mem_set_unit]
  exact Iff.rfl

/-- Every index of the array is in the block of the point its row falls in: row `r` is in block `r / 2000`. -/
theorem cover9 (i : S50000x32.Idx) : ∃ t : Fin cfg9.N, (cfg9.win 7).flush t = true ∧ i ∈ ((cfg9.win 7).blk t).view.set := by
  have hi0 : (i 0).val < 50000 := idx2_lt0 i
  have hi1 : (i 1).val < 32 := idx2_lt1 i
  have hN : cfg9.N = 25 := N_9
  obtain ⟨t, ht⟩ : ∃ t : Fin cfg9.N, t.val = (i 0).val / 2000 := ⟨⟨(i 0).val / 2000, by rw [hN]; omega⟩, rfl⟩
  obtain ⟨-, -, -, -, -, -, -, -, -, -, -, -, -, -, e70, e71⟩ := idx_facts9 t
  refine ⟨t, flush9_7 t, ?_⟩
  rw [mem_blk9]
  intro a
  match a with
  | ⟨0, _⟩ => show win9_7.index t (0 : Fin 2) * 2000 ≤ (i 0).val ∧ (i 0).val < win9_7.index t (0 : Fin 2) * 2000 + 2000; omega
  | ⟨1, _⟩ => show win9_7.index t (1 : Fin 2) * 32 ≤ (i 1).val ∧ (i 1).val < win9_7.index t (1 : Fin 2) * 32 + 32; omega

/-- The array after the region is `G9` of the arrays it read. -/
theorem arr9 (c : Dev nD) : (dat9 V c).arrAt 7 cfg9.N = G9 (V c main_v159_0) (V c main_v161) (V c main_v167) (V c main_v173) (V c main_v174) (V c main_v168) (V c main_v175) :=
  (dat9 V c).arrAt_eq_of_cover 7 (G9 (V c main_v159_0) (V c main_v161) (V c main_v167) (V c main_v173) (V c main_v174) (V c main_v168) (V c main_v175)) (fun t _ => flushed9_eq V c t) cover9

/-- The region's result, by row and column: the input normalised by the given column statistics, positive part,
    times the head's weights plus the head's bias. -/
theorem final9 (c : Dev nD) : Cert.Spec.toMat ((dat9 V c).arrAt 7 cfg9.N : S50000x32.Idx → EReal)
    = Cert.Spec.lin (Cert.Spec.bnRelu (Cert.Spec.toMat (V c main_v159_0 : S50000x128.Idx → EReal))
        (fun j => (V c main_v161 : S1x128.Idx → EReal) (ix2 0 j)) (fun j => (V c main_v167 : S1x128.Idx → EReal) (ix2 0 j))
        (fun j => (V c main_v173 : S1x128.Idx → EReal) (ix2 0 j)) (fun j => (V c main_v174 : S1x128.Idx → EReal) (ix2 0 j)) epsK)
      (Cert.Spec.toMat (V c main_v168 : S128x32.Idx → EReal)) (fun j => (V c main_v175 : S1x32.Idx → EReal) (ix2 0 j)) := by
  rw [arr9]
  rfl

end Cert.KernelIdeal.Hand
-- ==== Proof.KI.Host9Val.lean ====
/-
  The column statistics the host computes between the accumulating region and the normalising one, read entry by entry on the
  extended reals: the mean is the column sum divided by the number of rows, the variance the column sum of squares divided by
  the number of rows minus the square of the mean, cut off below at zero.
-/
import proofs.«180311_j29308856828500_2_alg».proof.Proof.Gen.KernelIdeal.Launch
import proofs.«180311_j29308856828500_2_alg».proof.Proof.Math.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.ValueIdx
open Cert.KernelIdeal Cert.KernelIdeal.Gen

variable (Vin : Valuation τ sig (Elt Ideal))

/-- The row of the number of rows, as the program writes it: the f32 word of 50000 at every column. -/
abbrev nnRow9 : FVec Ideal S1x128 .f32 := broadcastInDim S1x128 ![] bcast_S_S1x128 (constant (F := Ideal) S_ .f32 0x47435000#32)

/-- The mean row as an array: the sum row divided by the row of the number of rows. -/
theorem host9_mean_arr :
    StableHlo.after (hostOps9 (F := Ideal)) Vin (Proc.devRef .tc main_v161)
      = Host.divf (F := Ideal) (Vin (Proc.devRef .tc main_v159_1)) nnRow9 := by
  after_results

/-- The variance row as an array. -/
theorem host9_var_arr :
    StableHlo.after (hostOps9 (F := Ideal)) Vin (Proc.devRef .tc main_v167)
      = maximumf (subf (Host.divf (F := Ideal) (Vin (Proc.devRef .tc main_v159_2)) nnRow9)
          (mulf (Host.divf (F := Ideal) (Vin (Proc.devRef .tc main_v159_1)) nnRow9) (Host.divf (F := Ideal) (Vin (Proc.devRef .tc main_v159_1)) nnRow9)))
          (broadcastInDim S1x128 ![] bcast_S_S1x128 (constant (F := Ideal) S_ .f32 0x00000000#32)) := by
  after_results

/-- The mean row entry by entry. -/
theorem host9_mean (j : S1x128.Idx) :
    StableHlo.after (hostOps9 (F := Ideal)) Vin (Proc.devRef .tc main_v161) j
      = Ideal.div (Vin (Proc.devRef .tc main_v159_1) j) (Ideal.ofBits .f32 0x47435000#32) := by
  rw [host9_mean_arr]; rfl

/-- The variance row entry by entry. -/
theorem host9_var (j : S1x128.Idx) :
    StableHlo.after (hostOps9 (F := Ideal)) Vin (Proc.devRef .tc main_v167) j
      = max (Ideal.div (Vin (Proc.devRef .tc main_v159_2) j) (Ideal.ofBits .f32 0x47435000#32)
          - Ideal.div (Vin (Proc.devRef .tc main_v159_1) j) (Ideal.ofBits .f32 0x47435000#32)
            * Ideal.div (Vin (Proc.devRef .tc main_v159_1) j) (Ideal.ofBits .f32 0x47435000#32))
          (Ideal.ofBits .f32 0x00000000#32) := by
  rw [host9_var_arr]; rfl

/-- Row 2 of the parameter array `main_arg6`, laid out as a one-row array. -/
theorem host9_row_main_v173 (j : Fin 128) :
    (StableHlo.after (hostOps9 (F := Ideal)) Vin (Proc.devRef .tc main_v173) : S1x128.Idx → EReal) (ix2 (0 : Fin 1) j)
      = (Vin (Proc.devRef .tc main_arg6) : S3x128.Idx → EReal) (ix2 (2 : Fin 3) j) := by
  have e : (StableHlo.after (hostOps9 (F := Ideal)) Vin (Proc.devRef .tc main_v173) : S1x128.Idx → EReal)
      = shapeCast S1x128 (shapeCast S128 (extractStridedSlice S1x128 ![2, 0] (Vin (Proc.devRef .tc main_arg6) : S3x128.Idx → EReal) slices_S3x128_S1x128_2_0) shapeCasts_S1x128_S128) shapeCasts_S128_S1x128 := by
    after_results <;> rfl
  rw [e, shapeCast_a_1a_apply, shapeCast_1a_a_apply]
  exact extractStridedSlice_apply _ _ _ _ _ (fun a => by
    match a with
    | ⟨0, _⟩ => rfl
    | ⟨1, _⟩ => show j.val = 0 + j.val; omega)

/-- Row 2 of the parameter array `main_arg7`, laid out as a one-row array. -/
theorem host9_row_main_v174 (j : Fin 128) :
    (StableHlo.after (hostOps9 (F := Ideal)) Vin (Proc.devRef .tc main_v174) : S1x128.Idx → EReal) (ix2 (0 : Fin 1) j)
      = (Vin (Proc.devRef .tc main_arg7) : S3x128.Idx → EReal) (ix2 (2 : Fin 3) j) := by
  have e : (StableHlo.after (hostOps9 (F := Ideal)) Vin (Proc.devRef .tc main_v174) : S1x128.Idx → EReal)
      = shapeCast S1x128 (shapeCast S128 (extractStridedSlice S1x128 ![2, 0] (Vin (Proc.devRef .tc main_arg7) : S3x128.Idx → EReal) slices_S3x128_S1x128_2_0) shapeCasts_S1x128_S128) shapeCasts_S128_S1x128 := by
    after_results <;> rfl
  rw [e, shapeCast_a_1a_apply, shapeCast_1a_a_apply]
  exact extractStridedSlice_apply _ _ _ _ _ (fun a => by
    match a with
    | ⟨0, _⟩ => rfl
    | ⟨1, _⟩ => show j.val = 0 + j.val; omega)

/-- The head's weight as the last region reads it: the argument itself (a change of float format is the identity here). -/
theorem host9_headw (i : S128x32.Idx) :
    (StableHlo.after (hostOps9 (F := Ideal)) Vin (Proc.devRef .tc main_v168) : S128x32.Idx → EReal) i
      = (Vin (Proc.devRef .tc main_arg8) : S128x32.Idx → EReal) i := by
  have e : (StableHlo.after (hostOps9 (F := Ideal)) Vin (Proc.devRef .tc main_v168) : S128x32.Idx → EReal)
      = truncf (F := Ideal) .bf16 (Vin (Proc.devRef .tc main_arg8) : FVec Ideal S128x32 .f32) bitsLt_bf16_f32 := by
    after_results <;> rfl
  rw [e]; rfl

/-- The head's bias laid out as a one-row array. -/
theorem host9_headb (j : Fin 32) :
    (StableHlo.after (hostOps9 (F := Ideal)) Vin (Proc.devRef .tc main_v175) : S1x32.Idx → EReal) (ix2 (0 : Fin 1) j)
      = (Vin (Proc.devRef .tc main_arg9) : S32.Idx → EReal) (ix1 j) := by
  have e : (StableHlo.after (hostOps9 (F := Ideal)) Vin (Proc.devRef .tc main_v175) : S1x32.Idx → EReal)
      = shapeCast S1x32 (Vin (Proc.devRef .tc main_arg9) : S32.Idx → EReal) shapeCasts_S32_S1x32 := by
    after_results <;> rfl
  rw [e, shapeCast_a_1a_apply]

end Cert.KernelIdeal.Hand

end
-- ==== Proof.KI.ChainHead.lean ====
import proofs.«180311_j29308856828500_2_alg».proof.Proof.KI.Chain0
import proofs.«180311_j29308856828500_2_alg».proof.Proof.KI.Val9
import proofs.«180311_j29308856828500_2_alg».proof.Proof.KI.Host9Val
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

/-- Layer 2's normalisation and the head: if the accumulating region left the matrix `Y` with its column sums and
    its column sums of squares, the last region leaves `Y` normalised, scaled, shifted and cut off, times the head's
    weights plus the head's bias. -/
theorem chain_head (Y : Cert.Spec.Mat 50000 128)
    (hY : Cert.Spec.toMat (W18 m c main_v159_0 : S50000x128.Idx → EReal) = Y)
    (hS : ∀ j : Fin 128, (W18 m c main_v159_1 : S1x128.Idx → EReal) (ix2 0 j) = Cert.Spec.colSum Y j)
    (hQ : ∀ j : Fin 128, (W18 m c main_v159_2 : S1x128.Idx → EReal) (ix2 0 j) = Cert.Spec.colSum (fun i j => Y i j * Y i j) j) :
    Cert.Spec.toMat (W20 m c main_v176 : S50000x32.Idx → EReal)
      = Cert.Spec.lin (Cert.Spec.normSq netNN epsK Y (netGam m c 2) (netBet m c 2)) (netHW m c) (netHB m c) := by
  rw [W20_at]
  unfold O20
  refine (final9 (fun c b => W19 m c b) c).trans ?_
  show Cert.Spec.lin (Cert.Spec.bnRelu (Cert.Spec.toMat (W19 m c main_v159_0 : S50000x128.Idx → EReal))
      (fun j => (W19 m c main_v161 : S1x128.Idx → EReal) (ix2 0 j)) (fun j => (W19 m c main_v167 : S1x128.Idx → EReal) (ix2 0 j))
      (fun j => (W19 m c main_v173 : S1x128.Idx → EReal) (ix2 0 j)) (fun j => (W19 m c main_v174 : S1x128.Idx → EReal) (ix2 0 j)) epsK)
      (Cert.Spec.toMat (W19 m c main_v168 : S128x32.Idx → EReal)) (fun j => (W19 m c main_v175 : S1x32.Idx → EReal) (ix2 0 j)) = _
  have e0 : Cert.Spec.toMat (W19 m c main_v159_0 : S50000x128.Idx → EReal) = Y := by
    rw [Chain.W19_of m c main_v159_0 (by decide)]; exact hY
  have e1 : (fun j : Fin 128 => (W19 m c main_v161 : S1x128.Idx → EReal) (ix2 0 j)) = Cert.Spec.mean netNN Y :=
    funext fun j => (host9_mean (W18 m c) (ix2 0 j)).trans (congrArg (fun z => Ideal.div z netNN) (hS j))
  have e2 : (fun j : Fin 128 => (W19 m c main_v167 : S1x128.Idx → EReal) (ix2 0 j)) = Cert.Spec.varSq netNN Y :=
    funext fun j => by
      refine (host9_var (W18 m c) (ix2 0 j)).trans ?_
      rw [Ideal.ofBits_zero_f32]
      show max (Ideal.div ((W18 m c main_v159_2 : S1x128.Idx → EReal) (ix2 0 j)) netNN
        - Ideal.div ((W18 m c main_v159_1 : S1x128.Idx → EReal) (ix2 0 j)) netNN * Ideal.div ((W18 m c main_v159_1 : S1x128.Idx → EReal) (ix2 0 j)) netNN) 0 = _
      rw [hS j, hQ j]
      rfl
  have e3 : (fun j : Fin 128 => (W19 m c main_v173 : S1x128.Idx → EReal) (ix2 0 j)) = netGam m c 2 :=
    funext fun j => (host9_row_main_v173 (W18 m c) j).trans (congrFun (Chain.keep18_0_main_arg6 m c) (ix2 2 j))
  have e4 : (fun j : Fin 128 => (W19 m c main_v174 : S1x128.Idx → EReal) (ix2 0 j)) = netBet m c 2 :=
    funext fun j => (host9_row_main_v174 (W18 m c) j).trans (congrFun (Chain.keep18_0_main_arg7 m c) (ix2 2 j))
  have e5 : Cert.Spec.toMat (W19 m c main_v168 : S128x32.Idx → EReal) = netHW m c := by
    funext i j
    exact (host9_headw (W18 m c) (ix2 i j)).trans (congrFun (Chain.keep18_0_main_arg8 m c) (ix2 i j))
  have e6 : (fun j : Fin 32 => (W19 m c main_v175 : S1x32.Idx → EReal) (ix2 0 j)) = netHB m c :=
    funext fun j => (host9_headb (W18 m c) j).trans (congrFun (Chain.keep18_0_main_arg9 m c) (ix1 j))
  rw [e0, e1, e2, e3, e4, e5, e6]
  rfl

end Cert.KernelIdeal.Hand
-- ==== Proof.KI.ChainLayer.lean ====
import proofs.«180311_j29308856828500_2_alg».proof.Proof.KI.ChainMid
import proofs.«180311_j29308856828500_2_alg».proof.Proof.KI.ChainNorm
import proofs.«180311_j29308856828500_2_alg».proof.Proof.KI.ChainHead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

/-- Layer 0 as a whole: from the layer's input to its normalised output. -/
theorem chain_layer0 (H : Cert.Spec.Mat 50000 128) (hH : Cert.Spec.toMat (W2 m c main_v6 : S50000x128.Idx → EReal) = H) :
    Cert.Spec.toMat (W8 m c main_v62 : S50000x128.Idx → EReal) = Cert.Spec.normSq netNN epsK (Cert.Spec.conv (netA m c) H (netW m c 0) (netB m c 0)) (netGam m c 0) (netBet m c 0) :=
  chain_norm0 m c (Cert.Spec.conv (netA m c) H (netW m c 0) (netB m c 0)) (Chain.mid0_h m c H hH) (Chain.mid0_sum m c H hH) (Chain.mid0_sq m c H hH)

/-- Layer 1 as a whole: from the layer's input to its normalised output. -/
theorem chain_layer1 (H : Cert.Spec.Mat 50000 128) (hH : Cert.Spec.toMat (W8 m c main_v62 : S50000x128.Idx → EReal) = H) :
    Cert.Spec.toMat (W14 m c main_v118 : S50000x128.Idx → EReal) = Cert.Spec.normSq netNN epsK (Cert.Spec.conv (netA m c) H (netW m c 1) (netB m c 1)) (netGam m c 1) (netBet m c 1) :=
  chain_norm1 m c (Cert.Spec.conv (netA m c) H (netW m c 1) (netB m c 1)) (Chain.mid1_h m c H hH) (Chain.mid1_sum m c H hH) (Chain.mid1_sq m c H hH)

/-- Layer 2 as a whole: from the layer's input to the network's result. -/
theorem chain_layer2 (H : Cert.Spec.Mat 50000 128) (hH : Cert.Spec.toMat (W14 m c main_v118 : S50000x128.Idx → EReal) = H) :
    Cert.Spec.toMat (W20 m c main_v176 : S50000x32.Idx → EReal) = Cert.Spec.lin (Cert.Spec.normSq netNN epsK (Cert.Spec.conv (netA m c) H (netW m c 2) (netB m c 2)) (netGam m c 2) (netBet m c 2)) (netHW m c) (netHB m c) :=
  chain_head m c (Cert.Spec.conv (netA m c) H (netW m c 2) (netB m c 2)) (Chain.mid2_h m c H hH) (Chain.mid2_sum m c H hH) (Chain.mid2_sq m c H hH)

end Cert.KernelIdeal.Hand
-- ==== Proof.KI.ChainNet.lean ====
import proofs.«180311_j29308856828500_2_alg».proof.Proof.KI.ChainProj
import proofs.«180311_j29308856828500_2_alg».proof.Proof.KI.ChainLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/- The launch memory, at the extended reals, and a core. -/
variable (m : (ℓ : Loc nD τ sig) → Buf (Elt Ideal) ℓ) (c : Dev nD)

/-- The kernel's result array, by row and column, is the three-layer network of the launch memory's arguments, with
    the variance taken as the mean of the squares minus the square of the mean, cut off below at zero. -/
theorem chain_net :
    Cert.Spec.toMat (W20 m c (Proc.devRef .tc main_v176) : FVec Ideal S50000x32 .f32)
      = Cert.Spec.netSq (netA m c) netNN epsK (netX m c) (netPW m c) (netPB m c) (netW m c) (netB m c) (netGam m c) (netBet m c)
          (netHW m c) (netHB m c) := by
  have h0 := chain_proj m c
  have h1 := chain_layer0 m c _ h0
  have h2 := chain_layer1 m c _ h1
  have h3 := chain_layer2 m c _ h2
  exact h3

end Cert.KernelIdeal.Hand
-- ==== Proof.Ref.Spec.lean ====
import proofs.«180311_j29308856828500_2_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! The reference's arithmetic as functions of its ten arguments, in the order the program computes it: the input
    projection, three gated graph convolutions each followed by batch normalisation over the node axis and a
    rectifier, and the output head. Every function below is the composition the program's operations make, so a
    buffer's contents after a stretch of operations is one of them applied to what the stretch read. -/

/-- Row 0 of the edge table (the sources), as 600000 node numbers. -/
def srcIdx (ei : IVec S2x600000 32) : IVec S600000 32 :=
  shapeCast S600000 (extractStridedSlice S1x600000 ![0, 0] ei slices_S2x600000_S1x600000_0_0) shapeCasts_S1x600000_S600000

/-- Row 1 of the edge table (the targets), as 600000 node numbers. -/
def dstIdx (ei : IVec S2x600000 32) : IVec S600000 32 :=
  shapeCast S600000 (extractStridedSlice S1x600000 ![1, 0] ei slices_S2x600000_S1x600000_1_0) shapeCasts_S1x600000_S600000

/-- A vector of 128 features repeated on each of the 50000 node rows. -/
def rows (b : FVec F S128 .f32) : FVec F S50000x128 .f32 :=
  broadcastInDim S50000x128 ![0, 1] bcast_S1x128_S50000x128_0_1 (broadcastInDim S1x128 ![1] bcast_S128_S1x128_1 b)

/-- The rectifier: the maximum with zero, elementwise. -/
def relu (x : FVec F S50000x128 .f32) : FVec F S50000x128 .f32 :=
  maximumf x (broadcastInDim S50000x128 ![] bcast_S_S50000x128 (constant S_ .f32 0x00000000#32))

/-- The input projection: `relu (x · pw + pb)`. -/
def proj (x : FVec F S50000x64 .f32) (pw : FVec F S64x128 .f32) (pb : FVec F S128 .f32) : FVec F S50000x128 .f32 :=
  relu (addf (Host.dotGeneral dot_S50000x64_S64x128_S50000x128_1_0_0_1_n_n none x pw) (rows pb))

/-- A linear map of the node features: `h · W + b`. -/
def lin (h : FVec F S50000x128 .f32) (W : FVec F S128x128 .f32) (b : FVec F S128 .f32) : FVec F S50000x128 .f32 :=
  addf (Host.dotGeneral dot_S50000x128_S128x128_S50000x128_1_0_0_1_n_n none h W) (rows b)

/-- Layer 0's, 1's, 2's four weight matrices (key, query, value, skip). -/
def convW0 (cw : FVec F S3x4x128x128 .f32) : FVec F S4x128x128 .f32 :=
  shapeCast S4x128x128 (extractStridedSlice S1x4x128x128 ![0, 0, 0, 0] cw slices_S3x4x128x128_S1x4x128x128_0_0_0_0) shapeCasts_S1x4x128x128_S4x128x128
@[inherit_doc convW0]
def convW1 (cw : FVec F S3x4x128x128 .f32) : FVec F S4x128x128 .f32 :=
  shapeCast S4x128x128 (extractStridedSlice S1x4x128x128 ![1, 0, 0, 0] cw slices_S3x4x128x128_S1x4x128x128_1_0_0_0) shapeCasts_S1x4x128x128_S4x128x128
@[inherit_doc convW0]
def convW2 (cw : FVec F S3x4x128x128 .f32) : FVec F S4x128x128 .f32 :=
  shapeCast S4x128x128 (extractStridedSlice S1x4x128x128 ![2, 0, 0, 0] cw slices_S3x4x128x128_S1x4x128x128_2_0_0_0) shapeCasts_S1x4x128x128_S4x128x128

/-- Layer 0's, 1's, 2's four bias vectors. -/
def convB0 (cb : FVec F S3x4x128 .f32) : FVec F S4x128 .f32 :=
  shapeCast S4x128 (extractStridedSlice S1x4x128 ![0, 0, 0] cb slices_S3x4x128_S1x4x128_0_0_0) shapeCasts_S1x4x128_S4x128
@[inherit_doc convB0]
def convB1 (cb : FVec F S3x4x128 .f32) : FVec F S4x128 .f32 :=
  shapeCast S4x128 (extractStridedSlice S1x4x128 ![1, 0, 0] cb slices_S3x4x128_S1x4x128_1_0_0) shapeCasts_S1x4x128_S4x128
@[inherit_doc convB0]
def convB2 (cb : FVec F S3x4x128 .f32) : FVec F S4x128 .f32 :=
  shapeCast S4x128 (extractStridedSlice S1x4x128 ![2, 0, 0] cb slices_S3x4x128_S1x4x128_2_0_0) shapeCasts_S1x4x128_S4x128

/-- Row 0, 1, 2 of a table of three feature vectors (the normalisation's scales, its shifts). -/
def row0 (g : FVec F S3x128 .f32) : FVec F S128 .f32 :=
  shapeCast S128 (extractStridedSlice S1x128 ![0, 0] g slices_S3x128_S1x128_0_0) shapeCasts_S1x128_S128
@[inherit_doc row0]
def row1 (g : FVec F S3x128 .f32) : FVec F S128 .f32 :=
  shapeCast S128 (extractStridedSlice S1x128 ![1, 0] g slices_S3x128_S1x128_1_0) shapeCasts_S1x128_S128
@[inherit_doc row0]
def row2 (g : FVec F S3x128 .f32) : FVec F S128 .f32 :=
  shapeCast S128 (extractStridedSlice S1x128 ![2, 0] g slices_S3x128_S1x128_2_0) shapeCasts_S1x128_S128

/-- Matrix 0 (key), 1 (query), 2 (value), 3 (skip) of a layer's four. -/
def mat0 (w : FVec F S4x128x128 .f32) : FVec F S128x128 .f32 :=
  shapeCast S128x128 (extractStridedSlice S1x128x128 ![0, 0, 0] w slices_S4x128x128_S1x128x128_0_0_0) shapeCasts_S1x128x128_S128x128
@[inherit_doc mat0]
def mat1 (w : FVec F S4x128x128 .f32) : FVec F S128x128 .f32 :=
  shapeCast S128x128 (extractStridedSlice S1x128x128 ![1, 0, 0] w slices_S4x128x128_S1x128x128_1_0_0) shapeCasts_S1x128x128_S128x128
@[inherit_doc mat0]
def mat2 (w : FVec F S4x128x128 .f32) : FVec F S128x128 .f32 :=
  shapeCast S128x128 (extractStridedSlice S1x128x128 ![2, 0, 0] w slices_S4x128x128_S1x128x128_2_0_0) shapeCasts_S1x128x128_S128x128
@[inherit_doc mat0]
def mat3 (w : FVec F S4x128x128 .f32) : FVec F S128x128 .f32 :=
  shapeCast S128x128 (extractStridedSlice S1x128x128 ![3, 0, 0] w slices_S4x128x128_S1x128x128_3_0_0) shapeCasts_S1x128x128_S128x128

/-- Bias 0 (key), 1 (query), 2 (value), 3 (skip) of a layer's four. -/
def vec0 (b : FVec F S4x128 .f32) : FVec F S128 .f32 :=
  shapeCast S128 (extractStridedSlice S1x128 ![0, 0] b slices_S4x128_S1x128_0_0) shapeCasts_S1x128_S128
@[inherit_doc vec0]
def vec1 (b : FVec F S4x128 .f32) : FVec F S128 .f32 :=
  shapeCast S128 (extractStridedSlice S1x128 ![1, 0] b slices_S4x128_S1x128_1_0) shapeCasts_S1x128_S128
@[inherit_doc vec0]
def vec2 (b : FVec F S4x128 .f32) : FVec F S128 .f32 :=
  shapeCast S128 (extractStridedSlice S1x128 ![2, 0] b slices_S4x128_S1x128_2_0) shapeCasts_S1x128_S128
@[inherit_doc vec0]
def vec3 (b : FVec F S4x128 .f32) : FVec F S128 .f32 :=
  shapeCast S128 (extractStridedSlice S1x128 ![3, 0] b slices_S4x128_S1x128_3_0) shapeCasts_S1x128_S128

/-- Node numbers as gather indices: a negative number counts from the end (50000 is added to it), and each becomes
    a one-element row. -/
def wrapIdx (i : IVec S600000 32) : IVec S600000x1 32 :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 50000#32))) i)

/-- The rows of a node table at the edges' node numbers: one row of 128 features per edge. -/
def rowsAt (t : FVec F S50000x128 .f32) (i : IVec S600000 32) : FVec F S600000x128 .f32 :=
  Host.gather gather_S50000x128_S600000x1_S600000x128_1_0_n_n_0_1_1128 t (wrapIdx i)

/-- One, at every edge and feature. -/
def onesE : FVec F S600000x128 .f32 :=
  broadcastInDim S600000x128 ![] bcast_S_S600000x128 (constant S_ .f32 0x3F800000#32)

/-- The gate of each edge: the logistic function of the target's key plus the source's query, `1 / (1 + exp (-(k[dst] + q[src])))`. -/
def gate (k q : FVec F S50000x128 .f32) (src dst : IVec S600000 32) : FVec F S600000x128 .f32 :=
  Host.divf onesE (addf onesE (Host.exp (Host.negf (addf (rowsAt k dst) (rowsAt q src)))))

/-- Messages summed at their targets, from given gates: row `n` is the sum over the edges into node `n` of the
    edge's gate times its source's value. -/
def aggOf (gt : FVec F S600000x128 .f32) (v : FVec F S50000x128 .f32) (src dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (mulf gt (rowsAt v src))

/-- The gated messages summed at their targets. -/
def agg (k q v : FVec F S50000x128 .f32) (src dst : IVec S600000 32) : FVec F S50000x128 .f32 :=
  aggOf (gate k q src dst) v src dst

/-- The gated graph convolution: the skip map of the features plus the summed gated messages. -/
def conv (h : FVec F S50000x128 .f32) (w : FVec F S4x128x128 .f32) (b : FVec F S4x128 .f32) (src dst : IVec S600000 32) :
    FVec F S50000x128 .f32 :=
  addf (lin h (mat3 w) (vec3 b)) (agg (lin h (mat0 w) (vec0 b)) (lin h (mat1 w) (vec1 b)) (lin h (mat2 w) (vec2 b)) src dst)

/-- The sum over the 50000 nodes, per feature. -/
def colSum (x : FVec F S50000x128 .f32) : FVec F S128 .f32 :=
  Host.reduceAdd x (constant S_ .f32 0x00000000#32) reducesTo_S50000x128_S128_d0 h_S_

/-- The mean over the nodes, per feature: the sum divided by 50000. -/
def mean (x : FVec F S50000x128 .f32) : FVec F S128 .f32 :=
  Host.divf (colSum x) (broadcastInDim S128 ![] bcast_S_S128 (constant S_ .f32 0x47435000#32))

/-- The features minus their mean, as the variance computes it (the mean kept as a row while it is divided). -/
def centered (x : FVec F S50000x128 .f32) : FVec F S50000x128 .f32 :=
  subf x (broadcastInDim S50000x128 ![0, 1] bcast_S1x128_S50000x128_0_1
    (Host.divf (broadcastInDim S1x128 ![1] bcast_S128_S1x128_1 (colSum x))
      (broadcastInDim S1x128 ![] bcast_S_S1x128 (constant S_ .f32 0x47435000#32))))

/-- The variance's divisor: 50000 minus the correction (zero), as a float. -/
def varDiv : FVec F S_ .f32 :=
  subf (constant S_ .f32 0x47435000#32) (sitofp .f32 (constantI S_ 32 0#32))

/-- The variance over the nodes, per feature: the sum of the squared centered features divided by the divisor where
    the divisor is positive, the not-a-number constant elsewhere. -/
def var (x : FVec F S50000x128 .f32) : FVec F S128 .f32 :=
  select (broadcastInDim S128 ![] bcast_S_S128 (cmpf .ogt (varDiv (F := F)) (constant S_ .f32 0x00000000#32)))
    (Host.divf (Host.reduceAdd (mulf (centered x) (centered x)) (constant S_ .f32 0x00000000#32) reducesTo_S50000x128_S128_d0 h_S_)
      (broadcastInDim S128 ![] bcast_S_S128 (varDiv (F := F))))
    (broadcastInDim S128 ![] bcast_S_S128 (id (constant S_ .f32 0x7FC00000#32)))

/-- The normalisation from given statistics: `g * (x - m) * rsqrt (v + ε) + b`, the four vectors repeated on every row. -/
def bnWith (x : FVec F S50000x128 .f32) (g b m v : FVec F S128 .f32) : FVec F S50000x128 .f32 :=
  addf (mulf (mulf (rows g) (subf x (rows m)))
      (rows (Host.rsqrt (addf v (broadcastInDim S128 ![] bcast_S_S128 (constant S_ .f32 0x3727C5AC#32))))))
    (rows b)

/-- Batch normalisation over the node axis with the batch's own mean and variance. -/
def bn (x : FVec F S50000x128 .f32) (g b : FVec F S128 .f32) : FVec F S50000x128 .f32 :=
  bnWith x g b (mean x) (var x)

/-- One layer: the convolution, normalised, rectified. -/
def layer (h : FVec F S50000x128 .f32) (w : FVec F S4x128x128 .f32) (b : FVec F S4x128 .f32) (g be : FVec F S128 .f32)
    (src dst : IVec S600000 32) : FVec F S50000x128 .f32 :=
  relu (bn (conv h w b src dst) g be)

/-- The output head: `h · hw + hb`. -/
def head (h : FVec F S50000x128 .f32) (hw : FVec F S128x32 .f32) (hb : FVec F S32 .f32) : FVec F S50000x32 .f32 :=
  addf (Host.dotGeneral dot_S50000x128_S128x32_S50000x32_1_0_0_1_n_n none h hw)
    (broadcastInDim S50000x32 ![0, 1] bcast_S1x32_S50000x32_0_1 (broadcastInDim S1x32 ![1] bcast_S32_S1x32_1 hb))

section Whole
variable (x : FVec F S50000x64 .f32) (ei : IVec S2x600000 32) (pw : FVec F S64x128 .f32) (pb : FVec F S128 .f32)
  (cw : FVec F S3x4x128x128 .f32) (cb : FVec F S3x4x128 .f32) (g be : FVec F S3x128 .f32)
  (hw : FVec F S128x32 .f32) (hb : FVec F S32 .f32)

/-- The node features entering layer 0, 1, 2 and leaving layer 2. -/
def feat0 : FVec F S50000x128 .f32 := proj x pw pb
@[inherit_doc feat0]
def feat1 : FVec F S50000x128 .f32 :=
  layer (feat0 x pw pb) (convW0 cw) (convB0 cb) (row0 g) (row0 be) (srcIdx ei) (dstIdx ei)
@[inherit_doc feat0]
def feat2 : FVec F S50000x128 .f32 :=
  layer (feat1 x ei pw pb cw cb g be) (convW1 cw) (convB1 cb) (row1 g) (row1 be) (srcIdx ei) (dstIdx ei)
@[inherit_doc feat0]
def feat3 : FVec F S50000x128 .f32 :=
  layer (feat2 x ei pw pb cw cb g be) (convW2 cw) (convB2 cb) (row2 g) (row2 be) (srcIdx ei) (dstIdx ei)

/-- What the reference computes from its ten arguments. -/
def out : FVec F S50000x32 .f32 := head (feat3 x ei pw pb cw cb g be) hw hb

end Whole

end Cert.ReferenceIdeal.Hand

end
-- ==== Proof.Ref.NetRead.lean ====
import proofs.«180311_j29308856828500_2_alg».proof.Proof.Ref.Spec
import proofs.«180311_j29308856828500_2_alg».proof.Proof.Math.Spec
import Idealize.ShloMosaic.Lib.StackMember
import Idealize.ShloMosaic.Lib.IdealHost
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.ValueIdx
open scoped BigOperators

/-! The reference's whole-array functions read entry by entry on the extended reals: a matrix product is the sum over
    the contracted coordinate, a broadcast row is the vector's entry, the sum over the nodes is a `Fin`-indexed sum,
    and the variance's divisor and its guard are evaluated on their constants. -/

open Idealize.ShloMosaic.StackMember

/-- The reference's two float literals: the number of nodes, and the normalisation's ε. -/
abbrev nn : EReal := Ideal.ofBits .f32 0x47435000#32
@[inherit_doc nn]
abbrev eps : EReal := Ideal.ofBits .f32 0x3727C5AC#32

/-- The first literal is fifty thousand. -/
theorem nn_eq : nn = ((50000 : ℝ) : EReal) := by
  simp [nn, Ideal.ofBits, Ideal.ieee, -EReal.coe_mul]; norm_num

theorem nn_pos : (0 : EReal) < nn := by rw [nn_eq]; exact EReal.coe_pos.mpr (by norm_num)

/-- A vector repeated on every node row reads the vector's entry at the column. -/
theorem rows_apply (b : FVec Ideal S128 .f32) (i : Fin 50000) (j : Fin 128) : rows b (ix2 i j) = b (ix1 j) := by
  unfold rows
  rw [broadcastInDim_apply ![0, 1] bcast_S1x128_S50000x128_0_1 _ (ix2 i j) (ix2 (0 : Fin 1) j)
      (fun a => match a with | ⟨0, _⟩ => rfl | ⟨1, _⟩ => rfl),
    broadcastInDim_apply ![1] bcast_S128_S1x128_1 _ (ix2 (0 : Fin 1) j) (ix1 j)
      (fun a => match a with | ⟨0, _⟩ => rfl)]

/-- The rectifier at an entry. -/
theorem relu_apply (x : FVec Ideal S50000x128 .f32) (i : S50000x128.Idx) : relu x i = max (x i) 0 := by
  unfold relu
  rw [maximumf_apply, broadcastInDim_scalar_apply, constant_apply, Ideal.ofBits_zero_f32]

/-- A linear map of the features at an entry: the row of `h` against the column of `W`, plus the bias. -/
theorem lin_apply (h : FVec Ideal S50000x128 .f32) (W : FVec Ideal S128x128 .f32) (b : FVec Ideal S128 .f32)
    (i : Fin 50000) (j : Fin 128) :
    lin h W b (ix2 i j) = (∑ q : Fin 128, h (ix2 i q) * W (ix2 q j)) + b (ix1 j) := by
  unfold lin
  rw [addf_apply, rows_apply]
  exact congrArg (· + b (ix1 j)) (dotGeneral_plain_apply (m := 50000) (n := 128) (k := 128) none h W i j)

/-- The input projection at an entry. -/
theorem proj_apply (x : FVec Ideal S50000x64 .f32) (pw : FVec Ideal S64x128 .f32) (pb : FVec Ideal S128 .f32)
    (i : Fin 50000) (j : Fin 128) :
    proj x pw pb (ix2 i j) = max ((∑ q : Fin 64, x (ix2 i q) * pw (ix2 q j)) + pb (ix1 j)) 0 := by
  unfold proj
  rw [relu_apply, addf_apply, rows_apply]
  exact congrArg (fun z => max (z + pb (ix1 j)) 0) (dotGeneral_plain_apply (m := 50000) (n := 128) (k := 64) none x pw i j)

/-- The output head at an entry. -/
theorem head_apply (h : FVec Ideal S50000x128 .f32) (hw : FVec Ideal S128x32 .f32) (hb : FVec Ideal S32 .f32)
    (i : Fin 50000) (j : Fin 32) :
    head h hw hb (ix2 i j) = (∑ q : Fin 128, h (ix2 i q) * hw (ix2 q j)) + hb (ix1 j) := by
  unfold head
  rw [addf_apply,
    broadcastInDim_apply ![0, 1] bcast_S1x32_S50000x32_0_1 _ (ix2 i j) (ix2 (0 : Fin 1) j)
      (fun a => match a with | ⟨0, _⟩ => rfl | ⟨1, _⟩ => rfl),
    broadcastInDim_apply ![1] bcast_S32_S1x32_1 _ (ix2 (0 : Fin 1) j) (ix1 j)
      (fun a => match a with | ⟨0, _⟩ => rfl)]
  exact congrArg (· + hb (ix1 j)) (dotGeneral_plain_apply (m := 50000) (n := 32) (k := 128) none h hw i j)

/-- The node axis is the one summed away. -/
theorem redN : S50000x128.Reduces [0] S128 :=
  ⟨reducesTo_S50000x128_S128_d0.1, by decide, reducesTo_S50000x128_S128_d0.2⟩

/-- A sum over the nodes from a zero start, at a feature: the `Fin`-indexed sum of the column. -/
theorem reduce0_apply (x : FVec Ideal S50000x128 .f32) (j : Fin 128) :
    Host.reduceAdd x (constant S_ .f32 0x00000000#32) reducesTo_S50000x128_S128_d0 h_S_ (ix1 j)
      = ∑ i : Fin 50000, x (ix2 i j) := by
  rw [hostReduceAdd_apply, Ideal.hostReduceAdd_single reducesTo_S50000x128_S128_d0 redN, constant_apply,
    Ideal.ofBits_zero_f32, zero_add]
  exact Finset.sum_congr rfl fun k _ => congrArg x (funext fun c => Fin.ext (match c with | ⟨0, _⟩ => rfl | ⟨1, _⟩ => rfl))

theorem colSum_apply (x : FVec Ideal S50000x128 .f32) (j : Fin 128) :
    colSum x (ix1 j) = ∑ i : Fin 50000, x (ix2 i j) := reduce0_apply x j

/-- The mean at a feature. -/
theorem mean_apply (x : FVec Ideal S50000x128 .f32) (j : Fin 128) :
    mean x (ix1 j) = Ideal.div (∑ i : Fin 50000, x (ix2 i j)) nn := by
  unfold mean
  rw [hostDivf_apply, colSum_apply, broadcastInDim_scalar_apply, constant_apply]

/-- The centered features at an entry: the entry minus its column's mean. -/
theorem centered_apply (x : FVec Ideal S50000x128 .f32) (i : Fin 50000) (j : Fin 128) :
    centered x (ix2 i j) = x (ix2 i j) - Ideal.div (∑ i : Fin 50000, x (ix2 i j)) nn := by
  unfold centered
  rw [subf_apply,
    broadcastInDim_apply ![0, 1] bcast_S1x128_S50000x128_0_1 _ (ix2 i j) (ix2 (0 : Fin 1) j)
      (fun a => match a with | ⟨0, _⟩ => rfl | ⟨1, _⟩ => rfl),
    hostDivf_apply,
    broadcastInDim_apply ![1] bcast_S128_S1x128_1 _ (ix2 (0 : Fin 1) j) (ix1 j)
      (fun a => match a with | ⟨0, _⟩ => rfl),
    colSum_apply, broadcastInDim_scalar_apply, constant_apply]

/-- The variance's divisor is the number of nodes: fifty thousand minus the integer zero. -/
theorem varDiv_apply (i : S_.Idx) : varDiv (F := Ideal) i = nn := by
  unfold varDiv
  rw [subf_apply, constant_apply, sitofp_apply]
  show nn - (((0#32 : BitVec 32).toInt : ℝ) : EReal) = nn
  rw [show ((0#32 : BitVec 32).toInt : ℝ) = 0 by norm_num]
  exact sub_zero nn

/-- The variance at a feature: the guard holds (the divisor is positive), so it is the sum of the squared centered
    entries divided by the number of nodes. -/
theorem var_apply (x : FVec Ideal S50000x128 .f32) (j : Fin 128) :
    var x (ix1 j)
      = Ideal.div (∑ i : Fin 50000, centered x (ix2 i j) * centered x (ix2 i j)) nn := by
  unfold var
  rw [select_apply, broadcastInDim_scalar_apply, cmpf_apply, varDiv_apply, constant_apply, Ideal.ofBits_zero_f32]
  have hg : FloatOps.cmpf (F := Ideal) (φ := .f32) .ogt nn 0 = 1#1 := by
    show Ideal.cmp .ogt nn 0 = 1#1
    simp only [Ideal.cmp, nn_pos, decide_true, BitVec.ofBool_true]
    rfl
  rw [hg, select_one, hostDivf_apply, reduce0_apply, broadcastInDim_scalar_apply, varDiv_apply]
  rfl

/-- The normalisation from given statistics, then the rectifier, at an entry. -/
theorem relu_bnWith_apply (x : FVec Ideal S50000x128 .f32) (g b m v : FVec Ideal S128 .f32) (i : Fin 50000) (j : Fin 128) :
    relu (bnWith x g b m v) (ix2 i j)
      = max (g (ix1 j) * (x (ix2 i j) - m (ix1 j)) * Ideal.rsqrt (v (ix1 j) + eps) + b (ix1 j)) 0 := by
  rw [relu_apply]
  unfold bnWith
  rw [addf_apply, mulf_apply, mulf_apply, subf_apply, rows_apply, rows_apply, rows_apply, rows_apply]
  show max (g (ix1 j) * (x (ix2 i j) - m (ix1 j)) * Ideal.rsqrt (addf v _ (ix1 j)) + b (ix1 j)) 0 = _
  rw [addf_apply, broadcastInDim_scalar_apply, constant_apply]

end Cert.ReferenceIdeal.Hand

end
-- ==== Proof.Ref.Net.lean ====
import proofs.«180311_j29308856828500_2_alg».proof.Proof.Ref.NetRead
import proofs.«180311_j29308856828500_2_alg».proof.Proof.Math.Net
import proofs.«180311_j29308856828500_2_alg».proof.Proof.Math.EdgeChain

set_option maxRecDepth 16384

noncomputable section

namespace Cert.ReferenceIdeal.Hand

open Cert.ReferenceIdeal Cert.ReferenceIdeal.Gen Idealize.ShloMosaic Idealize.ShloMosaic.ValueIdx
open scoped BigOperators

/-! The slices of the stacked parameters, read at an entry: a layer's slab of the stack, a map's matrix or vector of the
    layer's four. A slice shifts the leading coordinate by its offset; the reshape that drops the leading unit axis keeps
    the row-major position. -/

section Slabs
variable {F : FTy → Type} [FloatOps F]

theorem convW0_apply (cw : FVec F S3x4x128x128 .f32) (a : Fin 4) (i j : Fin 128) :
    convW0 cw (ix3 a i j) = cw (ix4 (0 : Fin 3) a i j) := by
  unfold convW0
  rw [shapeCast_apply _ shapeCasts_S1x4x128x128_S4x128x128 (ix3 a i j) (ix4 (0 : Fin 1) a i j)
      (by rw [Shape.rowMajor_val_four, Shape.rowMajor_val_three]; simp),
    extractStridedSlice_apply ![0, 0, 0, 0] cw slices_S3x4x128x128_S1x4x128x128_0_0_0_0 (ix4 (0 : Fin 1) a i j)
      (ix4 (0 : Fin 3) a i j) (fun ax => match ax with | ⟨0, _⟩ => (by first | rfl | simp) | ⟨1, _⟩ => (by first | rfl | simp) | ⟨2, _⟩ => (by first | rfl | simp) | ⟨3, _⟩ => (by first | rfl | simp))]

theorem convB0_apply (cb : FVec F S3x4x128 .f32) (a : Fin 4) (j : Fin 128) :
    convB0 cb (ix2 a j) = cb (ix3 (0 : Fin 3) a j) := by
  unfold convB0
  rw [shapeCast_apply _ shapeCasts_S1x4x128_S4x128 (ix2 a j) (ix3 (0 : Fin 1) a j)
      (by rw [Shape.rowMajor_val_three, Shape.rowMajor_val_two]; simp),
    extractStridedSlice_apply ![0, 0, 0] cb slices_S3x4x128_S1x4x128_0_0_0 (ix3 (0 : Fin 1) a j)
      (ix3 (0 : Fin 3) a j) (fun ax => match ax with | ⟨0, _⟩ => (by first | rfl | simp) | ⟨1, _⟩ => (by first | rfl | simp) | ⟨2, _⟩ => (by first | rfl | simp))]

theorem row0_apply (g : FVec F S3x128 .f32) (j : Fin 128) : row0 g (ix1 j) = g (ix2 (0 : Fin 3) j) := by
  unfold row0
  rw [shapeCast_apply _ shapeCasts_S1x128_S128 (ix1 j) (ix2 (0 : Fin 1) j)
      (by rw [Shape.rowMajor_val_two, Shape.rowMajor_val_one]; simp),
    extractStridedSlice_apply ![0, 0] g slices_S3x128_S1x128_0_0 (ix2 (0 : Fin 1) j) (ix2 (0 : Fin 3) j) (fun ax => match ax with | ⟨0, _⟩ => (by first | rfl | simp) | ⟨1, _⟩ => (by first | rfl | simp))]

theorem convW1_apply (cw : FVec F S3x4x128x128 .f32) (a : Fin 4) (i j : Fin 128) :
    convW1 cw (ix3 a i j) = cw (ix4 (1 : Fin 3) a i j) := by
  unfold convW1
  rw [shapeCast_apply _ shapeCasts_S1x4x128x128_S4x128x128 (ix3 a i j) (ix4 (0 : Fin 1) a i j)
      (by rw [Shape.rowMajor_val_four, Shape.rowMajor_val_three]; simp),
    extractStridedSlice_apply ![1, 0, 0, 0] cw slices_S3x4x128x128_S1x4x128x128_1_0_0_0 (ix4 (0 : Fin 1) a i j)
      (ix4 (1 : Fin 3) a i j) (fun ax => match ax with | ⟨0, _⟩ => (by first | rfl | simp) | ⟨1, _⟩ => (by first | rfl | simp) | ⟨2, _⟩ => (by first | rfl | simp) | ⟨3, _⟩ => (by first | rfl | simp))]

theorem convB1_apply (cb : FVec F S3x4x128 .f32) (a : Fin 4) (j : Fin 128) :
    convB1 cb (ix2 a j) = cb (ix3 (1 : Fin 3) a j) := by
  unfold convB1
  rw [shapeCast_apply _ shapeCasts_S1x4x128_S4x128 (ix2 a j) (ix3 (0 : Fin 1) a j)
      (by rw [Shape.rowMajor_val_three, Shape.rowMajor_val_two]; simp),
    extractStridedSlice_apply ![1, 0, 0] cb slices_S3x4x128_S1x4x128_1_0_0 (ix3 (0 : Fin 1) a j)
      (ix3 (1 : Fin 3) a j) (fun ax => match ax with | ⟨0, _⟩ => (by first | rfl | simp) | ⟨1, _⟩ => (by first | rfl | simp) | ⟨2, _⟩ => (by first | rfl | simp))]

theorem row1_apply (g : FVec F S3x128 .f32) (j : Fin 128) : row1 g (ix1 j) = g (ix2 (1 : Fin 3) j) := by
  unfold row1
  rw [shapeCast_apply _ shapeCasts_S1x128_S128 (ix1 j) (ix2 (0 : Fin 1) j)
      (by rw [Shape.rowMajor_val_two, Shape.rowMajor_val_one]; simp),
    extractStridedSlice_apply ![1, 0] g slices_S3x128_S1x128_1_0 (ix2 (0 : Fin 1) j) (ix2 (1 : Fin 3) j) (fun ax => match ax with | ⟨0, _⟩ => (by first | rfl | simp) | ⟨1, _⟩ => (by first | rfl | simp))]

theorem convW2_apply (cw : FVec F S3x4x128x128 .f32) (a : Fin 4) (i j : Fin 128) :
    convW2 cw (ix3 a i j) = cw (ix4 (2 : Fin 3) a i j) := by
  unfold convW2
  rw [shapeCast_apply _ shapeCasts_S1x4x128x128_S4x128x128 (ix3 a i j) (ix4 (0 : Fin 1) a i j)
      (by rw [Shape.rowMajor_val_four, Shape.rowMajor_val_three]; simp),
    extractStridedSlice_apply ![2, 0, 0, 0] cw slices_S3x4x128x128_S1x4x128x128_2_0_0_0 (ix4 (0 : Fin 1) a i j)
      (ix4 (2 : Fin 3) a i j) (fun ax => match ax with | ⟨0, _⟩ => (by first | rfl | simp) | ⟨1, _⟩ => (by first | rfl | simp) | ⟨2, _⟩ => (by first | rfl | simp) | ⟨3, _⟩ => (by first | rfl | simp))]

theorem convB2_apply (cb : FVec F S3x4x128 .f32) (a : Fin 4) (j : Fin 128) :
    convB2 cb (ix2 a j) = cb (ix3 (2 : Fin 3) a j) := by
  unfold convB2
  rw [shapeCast_apply _ shapeCasts_S1x4x128_S4x128 (ix2 a j) (ix3 (0 : Fin 1) a j)
      (by rw [Shape.rowMajor_val_three, Shape.rowMajor_val_two]; simp),
    extractStridedSlice_apply ![2, 0, 0] cb slices_S3x4x128_S1x4x128_2_0_0 (ix3 (0 : Fin 1) a j)
      (ix3 (2 : Fin 3) a j) (fun ax => match ax with | ⟨0, _⟩ => (by first | rfl | simp) | ⟨1, _⟩ => (by first | rfl | simp) | ⟨2, _⟩ => (by first | rfl | simp))]

theorem row2_apply (g : FVec F S3x128 .f32) (j : Fin 128) : row2 g (ix1 j) = g (ix2 (2 : Fin 3) j) := by
  unfold row2
  rw [shapeCast_apply _ shapeCasts_S1x128_S128 (ix1 j) (ix2 (0 : Fin 1) j)
      (by rw [Shape.rowMajor_val_two, Shape.rowMajor_val_one]; simp),
    extractStridedSlice_apply ![2, 0] g slices_S3x128_S1x128_2_0 (ix2 (0 : Fin 1) j) (ix2 (2 : Fin 3) j) (fun ax => match ax with | ⟨0, _⟩ => (by first | rfl | simp) | ⟨1, _⟩ => (by first | rfl | simp))]

theorem mat0_apply (w : FVec F S4x128x128 .f32) (i j : Fin 128) : mat0 w (ix2 i j) = w (ix3 (0 : Fin 4) i j) := by
  unfold mat0
  rw [shapeCast_apply _ shapeCasts_S1x128x128_S128x128 (ix2 i j) (ix3 (0 : Fin 1) i j)
      (by rw [Shape.rowMajor_val_three, Shape.rowMajor_val_two]; simp),
    extractStridedSlice_apply ![0, 0, 0] w slices_S4x128x128_S1x128x128_0_0_0 (ix3 (0 : Fin 1) i j)
      (ix3 (0 : Fin 4) i j) (fun ax => match ax with | ⟨0, _⟩ => (by first | rfl | simp) | ⟨1, _⟩ => (by first | rfl | simp) | ⟨2, _⟩ => (by first | rfl | simp))]

theorem vec0_apply (b : FVec F S4x128 .f32) (j : Fin 128) : vec0 b (ix1 j) = b (ix2 (0 : Fin 4) j) := by
  unfold vec0
  rw [shapeCast_apply _ shapeCasts_S1x128_S128 (ix1 j) (ix2 (0 : Fin 1) j)
      (by rw [Shape.rowMajor_val_two, Shape.rowMajor_val_one]; simp),
    extractStridedSlice_apply ![0, 0] b slices_S4x128_S1x128_0_0 (ix2 (0 : Fin 1) j) (ix2 (0 : Fin 4) j) (fun ax => match ax with | ⟨0, _⟩ => (by first | rfl | simp) | ⟨1, _⟩ => (by first | rfl | simp))]

theorem mat1_apply (w : FVec F S4x128x128 .f32) (i j : Fin 128) : mat1 w (ix2 i j) = w (ix3 (1 : Fin 4) i j) := by
  unfold mat1
  rw [shapeCast_apply _ shapeCasts_S1x128x128_S128x128 (ix2 i j) (ix3 (0 : Fin 1) i j)
      (by rw [Shape.rowMajor_val_three, Shape.rowMajor_val_two]; simp),
    extractStridedSlice_apply ![1, 0, 0] w slices_S4x128x128_S1x128x128_1_0_0 (ix3 (0 : Fin 1) i j)
      (ix3 (1 : Fin 4) i j) (fun ax => match ax with | ⟨0, _⟩ => (by first | rfl | simp) | ⟨1, _⟩ => (by first | rfl | simp) | ⟨2, _⟩ => (by first | rfl | simp))]

theorem vec1_apply (b : FVec F S4x128 .f32) (j : Fin 128) : vec1 b (ix1 j) = b (ix2 (1 : Fin 4) j) := by
  unfold vec1
  rw [shapeCast_apply _ shapeCasts_S1x128_S128 (ix1 j) (ix2 (0 : Fin 1) j)
      (by rw [Shape.rowMajor_val_two, Shape.rowMajor_val_one]; simp),
    extractStridedSlice_apply ![1, 0] b slices_S4x128_S1x128_1_0 (ix2 (0 : Fin 1) j) (ix2 (1 : Fin 4) j) (fun ax => match ax with | ⟨0, _⟩ => (by first | rfl | simp) | ⟨1, _⟩ => (by first | rfl | simp))]

theorem mat2_apply (w : FVec F S4x128x128 .f32) (i j : Fin 128) : mat2 w (ix2 i j) = w (ix3 (2 : Fin 4) i j) := by
  unfold mat2
  rw [shapeCast_apply _ shapeCasts_S1x128x128_S128x128 (ix2 i j) (ix3 (0 : Fin 1) i j)
      (by rw [Shape.rowMajor_val_three, Shape.rowMajor_val_two]; simp),
    extractStridedSlice_apply ![2, 0, 0] w slices_S4x128x128_S1x128x128_2_0_0 (ix3 (0 : Fin 1) i j)
      (ix3 (2 : Fin 4) i j) (fun ax => match ax with | ⟨0, _⟩ => (by first | rfl | simp) | ⟨1, _⟩ => (by first | rfl | simp) | ⟨2, _⟩ => (by first | rfl | simp))]

theorem vec2_apply (b : FVec F S4x128 .f32) (j : Fin 128) : vec2 b (ix1 j) = b (ix2 (2 : Fin 4) j) := by
  unfold vec2
  rw [shapeCast_apply _ shapeCasts_S1x128_S128 (ix1 j) (ix2 (0 : Fin 1) j)
      (by rw [Shape.rowMajor_val_two, Shape.rowMajor_val_one]; simp),
    extractStridedSlice_apply ![2, 0] b slices_S4x128_S1x128_2_0 (ix2 (0 : Fin 1) j) (ix2 (2 : Fin 4) j) (fun ax => match ax with | ⟨0, _⟩ => (by first | rfl | simp) | ⟨1, _⟩ => (by first | rfl | simp))]

theorem mat3_apply (w : FVec F S4x128x128 .f32) (i j : Fin 128) : mat3 w (ix2 i j) = w (ix3 (3 : Fin 4) i j) := by
  unfold mat3
  rw [shapeCast_apply _ shapeCasts_S1x128x128_S128x128 (ix2 i j) (ix3 (0 : Fin 1) i j)
      (by rw [Shape.rowMajor_val_three, Shape.rowMajor_val_two]; simp),
    extractStridedSlice_apply ![3, 0, 0] w slices_S4x128x128_S1x128x128_3_0_0 (ix3 (0 : Fin 1) i j)
      (ix3 (3 : Fin 4) i j) (fun ax => match ax with | ⟨0, _⟩ => (by first | rfl | simp) | ⟨1, _⟩ => (by first | rfl | simp) | ⟨2, _⟩ => (by first | rfl | simp))]

theorem vec3_apply (b : FVec F S4x128 .f32) (j : Fin 128) : vec3 b (ix1 j) = b (ix2 (3 : Fin 4) j) := by
  unfold vec3
  rw [shapeCast_apply _ shapeCasts_S1x128_S128 (ix1 j) (ix2 (0 : Fin 1) j)
      (by rw [Shape.rowMajor_val_two, Shape.rowMajor_val_one]; simp),
    extractStridedSlice_apply ![3, 0] b slices_S4x128_S1x128_3_0 (ix2 (0 : Fin 1) j) (ix2 (3 : Fin 4) j) (fun ax => match ax with | ⟨0, _⟩ => (by first | rfl | simp) | ⟨1, _⟩ => (by first | rfl | simp))]

end Slabs

/-! The reference's function of its ten arguments, read as matrices of extended reals, IS the network `Cert.Spec.netDev`:
    each whole-array function is its matrix counterpart entry by entry, the edge aggregation kept as one function of the
    key, query and value matrices. -/

/-- A vector's entries by position. -/
abbrev vecOf {n : Nat} (b : (⟨1, ![n]⟩ : Shape).Idx → EReal) : Fin n → EReal := fun j => b (ix1 j)

/-- Matrix `a` of layer `l` in the stack of twelve, bias `a` of layer `l`, row `l` of a table of three vectors. -/
def slabW (cw : FVec Ideal S3x4x128x128 .f32) (l : Fin 3) (a : Fin 4) : Spec.Mat 128 128 := fun i j => cw (ix4 l a i j)
@[inherit_doc slabW]
def slabB (cb : FVec Ideal S3x4x128 .f32) (l : Fin 3) (a : Fin 4) : Fin 128 → EReal := fun j => cb (ix3 l a j)
@[inherit_doc slabW]
def slabR (g : FVec Ideal S3x128 .f32) (l : Fin 3) : Fin 128 → EReal := fun j => g (ix2 l j)

/-- Reading an array as a matrix and writing the matrix back as an array gives the array. -/
theorem ofMat_toMat {r c : Nat} (z : (⟨2, ![r, c]⟩ : Shape).Idx → EReal) : Spec.ofMat (Spec.toMat z) = z := by
  funext i; exact congrArg z (eq_ix2 i).symm

/-- The edge aggregation as a function of the key, query and value MATRICES: the reference's whole-array chain (index
    normalisation, gathers, gate, scatter-add) on the matrices written back as arrays. -/
def Aref (src dst : IVec S600000 32) (k q v : Spec.Mat 50000 128) : Spec.Mat 50000 128 :=
  Spec.toMat (Cert.Edge.aggR (F := Ideal) gather_S50000x128_S600000x1_S600000x128_1_0_n_n_0_1_1128
    scatter_S50000x128_S600000x1_S600000x128_1_0_0_1 (Spec.ofMat k) (Spec.ofMat q) (Spec.ofMat v) src dst)

/-- The reference's aggregation is the edge chain `Cert.Edge.aggR` at the reference's gather and scatter dimension
    numbers: the same composition, term for term. -/
theorem agg_eq_aggR {F : FTy → Type} [FloatOps F] (k q v : FVec F S50000x128 .f32) (src dst : IVec S600000 32) :
    agg k q v src dst
      = Cert.Edge.aggR gather_S50000x128_S600000x1_S600000x128_1_0_n_n_0_1_1128
          scatter_S50000x128_S600000x1_S600000x128_1_0_0_1 k q v src dst := rfl

theorem toMat_lin (h : FVec Ideal S50000x128 .f32) (W : FVec Ideal S128x128 .f32) (b : FVec Ideal S128 .f32) :
    Spec.toMat (lin h W b) = Spec.lin (Spec.toMat h) (Spec.toMat W) (vecOf b) := by
  funext i j; exact lin_apply h W b i j

theorem toMat_proj (x : FVec Ideal S50000x64 .f32) (pw : FVec Ideal S64x128 .f32) (pb : FVec Ideal S128 .f32) :
    Spec.toMat (proj x pw pb) = Spec.relu (Spec.lin (Spec.toMat x) (Spec.toMat pw) (vecOf pb)) := by
  funext i j; exact proj_apply x pw pb i j

theorem toMat_head (h : FVec Ideal S50000x128 .f32) (hw : FVec Ideal S128x32 .f32) (hb : FVec Ideal S32 .f32) :
    Spec.toMat (head h hw hb) = Spec.lin (Spec.toMat h) (Spec.toMat hw) (vecOf hb) := by
  funext i j; exact head_apply h hw hb i j

/-- Normalisation by the batch's own statistics, then the rectifier: the mean is the column mean over fifty thousand,
    the variance the mean of the squared deviations. -/
theorem toMat_norm (y : FVec Ideal S50000x128 .f32) (g be : FVec Ideal S128 .f32) :
    Spec.toMat (relu (bn y g be)) = Spec.normDev nn eps (Spec.toMat y) (vecOf g) (vecOf be) := by
  funext i j
  show relu (bnWith y g be (mean y) (var y)) (ix2 i j) = _
  rw [relu_bnWith_apply, mean_apply, var_apply]
  simp only [centered_apply]
  rfl

/-- The convolution: the skip map plus the aggregation of the key, query and value maps. -/
theorem toMat_conv (h : FVec Ideal S50000x128 .f32) (w : FVec Ideal S4x128x128 .f32) (b : FVec Ideal S4x128 .f32)
    (src dst : IVec S600000 32) (Wf : Fin 4 → Spec.Mat 128 128) (bf : Fin 4 → Fin 128 → EReal)
    (hW0 : Spec.toMat (mat0 w) = Wf 0) (hW1 : Spec.toMat (mat1 w) = Wf 1) (hW2 : Spec.toMat (mat2 w) = Wf 2)
    (hW3 : Spec.toMat (mat3 w) = Wf 3) (hb0 : vecOf (vec0 b) = bf 0) (hb1 : vecOf (vec1 b) = bf 1)
    (hb2 : vecOf (vec2 b) = bf 2) (hb3 : vecOf (vec3 b) = bf 3) :
    Spec.toMat (conv h w b src dst) = Spec.conv (Aref src dst) (Spec.toMat h) Wf bf := by
  funext i j
  show addf (lin h (mat3 w) (vec3 b)) (agg (lin h (mat0 w) (vec0 b)) (lin h (mat1 w) (vec1 b)) (lin h (mat2 w) (vec2 b)) src dst) (ix2 i j) = _
  rw [addf_apply, agg_eq_aggR]
  unfold Spec.conv Aref
  rw [← hW0, ← hW1, ← hW2, ← hW3, ← hb0, ← hb1, ← hb2, ← hb3, ← toMat_lin, ← toMat_lin, ← toMat_lin, ← toMat_lin,
    ofMat_toMat, ofMat_toMat, ofMat_toMat]

/-- Layer 0 on its slab of the stacked parameters. -/
theorem toMat_layer0 (h : FVec Ideal S50000x128 .f32) (cw : FVec Ideal S3x4x128x128 .f32) (cb : FVec Ideal S3x4x128 .f32)
    (g be : FVec Ideal S3x128 .f32) (src dst : IVec S600000 32) :
    Spec.toMat (layer h (convW0 cw) (convB0 cb) (row0 g) (row0 be) src dst)
      = Spec.normDev nn eps (Spec.conv (Aref src dst) (Spec.toMat h) (slabW cw 0) (slabB cb 0)) (slabR g 0) (slabR be 0) := by
  unfold layer
  rw [toMat_norm, toMat_conv h (convW0 cw) (convB0 cb) src dst (slabW cw 0) (slabB cb 0)
      (by funext i j; show mat0 (convW0 cw) (ix2 i j) = cw (ix4 (0 : Fin 3) (0 : Fin 4) i j); rw [mat0_apply, convW0_apply])
      (by funext i j; show mat1 (convW0 cw) (ix2 i j) = cw (ix4 (0 : Fin 3) (1 : Fin 4) i j); rw [mat1_apply, convW0_apply])
      (by funext i j; show mat2 (convW0 cw) (ix2 i j) = cw (ix4 (0 : Fin 3) (2 : Fin 4) i j); rw [mat2_apply, convW0_apply])
      (by funext i j; show mat3 (convW0 cw) (ix2 i j) = cw (ix4 (0 : Fin 3) (3 : Fin 4) i j); rw [mat3_apply, convW0_apply])
      (by funext j; show vec0 (convB0 cb) (ix1 j) = cb (ix3 (0 : Fin 3) (0 : Fin 4) j); rw [vec0_apply, convB0_apply])
      (by funext j; show vec1 (convB0 cb) (ix1 j) = cb (ix3 (0 : Fin 3) (1 : Fin 4) j); rw [vec1_apply, convB0_apply])
      (by funext j; show vec2 (convB0 cb) (ix1 j) = cb (ix3 (0 : Fin 3) (2 : Fin 4) j); rw [vec2_apply, convB0_apply])
      (by funext j; show vec3 (convB0 cb) (ix1 j) = cb (ix3 (0 : Fin 3) (3 : Fin 4) j); rw [vec3_apply, convB0_apply]),
    show vecOf (row0 g) = slabR g 0 from funext fun j => row0_apply g j,
    show vecOf (row0 be) = slabR be 0 from funext fun j => row0_apply be j]

/-- Layer 1 on its slab of the stacked parameters. -/
theorem toMat_layer1 (h : FVec Ideal S50000x128 .f32) (cw : FVec Ideal S3x4x128x128 .f32) (cb : FVec Ideal S3x4x128 .f32)
    (g be : FVec Ideal S3x128 .f32) (src dst : IVec S600000 32) :
    Spec.toMat (layer h (convW1 cw) (convB1 cb) (row1 g) (row1 be) src dst)
      = Spec.normDev nn eps (Spec.conv (Aref src dst) (Spec.toMat h) (slabW cw 1) (slabB cb 1)) (slabR g 1) (slabR be 1) := by
  unfold layer
  rw [toMat_norm, toMat_conv h (convW1 cw) (convB1 cb) src dst (slabW cw 1) (slabB cb 1)
      (by funext i j; show mat0 (convW1 cw) (ix2 i j) = cw (ix4 (1 : Fin 3) (0 : Fin 4) i j); rw [mat0_apply, convW1_apply])
      (by funext i j; show mat1 (convW1 cw) (ix2 i j) = cw (ix4 (1 : Fin 3) (1 : Fin 4) i j); rw [mat1_apply, convW1_apply])
      (by funext i j; show mat2 (convW1 cw) (ix2 i j) = cw (ix4 (1 : Fin 3) (2 : Fin 4) i j); rw [mat2_apply, convW1_apply])
      (by funext i j; show mat3 (convW1 cw) (ix2 i j) = cw (ix4 (1 : Fin 3) (3 : Fin 4) i j); rw [mat3_apply, convW1_apply])
      (by funext j; show vec0 (convB1 cb) (ix1 j) = cb (ix3 (1 : Fin 3) (0 : Fin 4) j); rw [vec0_apply, convB1_apply])
      (by funext j; show vec1 (convB1 cb) (ix1 j) = cb (ix3 (1 : Fin 3) (1 : Fin 4) j); rw [vec1_apply, convB1_apply])
      (by funext j; show vec2 (convB1 cb) (ix1 j) = cb (ix3 (1 : Fin 3) (2 : Fin 4) j); rw [vec2_apply, convB1_apply])
      (by funext j; show vec3 (convB1 cb) (ix1 j) = cb (ix3 (1 : Fin 3) (3 : Fin 4) j); rw [vec3_apply, convB1_apply]),
    show vecOf (row1 g) = slabR g 1 from funext fun j => row1_apply g j,
    show vecOf (row1 be) = slabR be 1 from funext fun j => row1_apply be j]

/-- Layer 2 on its slab of the stacked parameters. -/
theorem toMat_layer2 (h : FVec Ideal S50000x128 .f32) (cw : FVec Ideal S3x4x128x128 .f32) (cb : FVec Ideal S3x4x128 .f32)
    (g be : FVec Ideal S3x128 .f32) (src dst : IVec S600000 32) :
    Spec.toMat (layer h (convW2 cw) (convB2 cb) (row2 g) (row2 be) src dst)
      = Spec.normDev nn eps (Spec.conv (Aref src dst) (Spec.toMat h) (slabW cw 2) (slabB cb 2)) (slabR g 2) (slabR be 2) := by
  unfold layer
  rw [toMat_norm, toMat_conv h (convW2 cw) (convB2 cb) src dst (slabW cw 2) (slabB cb 2)
      (by funext i j; show mat0 (convW2 cw) (ix2 i j) = cw (ix4 (2 : Fin 3) (0 : Fin 4) i j); rw [mat0_apply, convW2_apply])
      (by funext i j; show mat1 (convW2 cw) (ix2 i j) = cw (ix4 (2 : Fin 3) (1 : Fin 4) i j); rw [mat1_apply, convW2_apply])
      (by funext i j; show mat2 (convW2 cw) (ix2 i j) = cw (ix4 (2 : Fin 3) (2 : Fin 4) i j); rw [mat2_apply, convW2_apply])
      (by funext i j; show mat3 (convW2 cw) (ix2 i j) = cw (ix4 (2 : Fin 3) (3 : Fin 4) i j); rw [mat3_apply, convW2_apply])
      (by funext j; show vec0 (convB2 cb) (ix1 j) = cb (ix3 (2 : Fin 3) (0 : Fin 4) j); rw [vec0_apply, convB2_apply])
      (by funext j; show vec1 (convB2 cb) (ix1 j) = cb (ix3 (2 : Fin 3) (1 : Fin 4) j); rw [vec1_apply, convB2_apply])
      (by funext j; show vec2 (convB2 cb) (ix1 j) = cb (ix3 (2 : Fin 3) (2 : Fin 4) j); rw [vec2_apply, convB2_apply])
      (by funext j; show vec3 (convB2 cb) (ix1 j) = cb (ix3 (2 : Fin 3) (3 : Fin 4) j); rw [vec3_apply, convB2_apply]),
    show vecOf (row2 g) = slabR g 2 from funext fun j => row2_apply g j,
    show vecOf (row2 be) = slabR be 2 from funext fun j => row2_apply be j]

/-- THE REFERENCE IS THE NETWORK: its function of the ten arguments, as a matrix, is `netDev` of the arguments read as
    matrices and vectors, the layers' parameters the slabs of the stacked arrays. -/
theorem out_eq_netDev (x : FVec Ideal S50000x64 .f32) (ei : IVec S2x600000 32) (pw : FVec Ideal S64x128 .f32)
    (pb : FVec Ideal S128 .f32) (cw : FVec Ideal S3x4x128x128 .f32) (cb : FVec Ideal S3x4x128 .f32)
    (g be : FVec Ideal S3x128 .f32) (hw : FVec Ideal S128x32 .f32) (hb : FVec Ideal S32 .f32) :
    Spec.toMat (out x ei pw pb cw cb g be hw hb)
      = Spec.netDev (Aref (srcIdx ei) (dstIdx ei)) nn eps (Spec.toMat x) (Spec.toMat pw) (vecOf pb)
          (slabW cw) (slabB cb) (slabR g) (slabR be) (Spec.toMat hw) (vecOf hb) := by
  unfold out feat3 feat2 feat1 feat0
  rw [toMat_head, toMat_layer2, toMat_layer1, toMat_layer0, toMat_proj]
  rfl

end Cert.ReferenceIdeal.Hand

end
-- ==== Proof.Ref.Stretch.lean ====
import proofs.«180311_j29308856828500_2_alg».proof.Proof.Ref.Run

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! @main's 402 operations again, cut where the arithmetic has its joints: the prologue, six stretches per layer, the
    head. A stretch is read on its own, from any contents, and the stretches in order are the whole list. -/

/-- The prologue: the edge table's two rows as index lists, and the input projection. Operations 0 … 10 of the 402. -/
abbrev stP : List (HloOp τ sig (Elt F)) :=
  ( StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F))
  :: StableHlo.reshape main_v0 main_v1 rfl shapeCasts_S1x600000_S600000
  :: StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F))
  :: StableHlo.reshape main_v2 main_v3 rfl shapeCasts_S1x600000_S600000
  :: StableHlo.binary main_arg0 main_arg2 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F))
  :: StableHlo.unary main_arg3 main_v5 (broadcastInDim S1x128 ![1] bcast_S128_S1x128_1 : (⟨S128, .f32⟩ : BufTy).Contents (Elt F) → (⟨S1x128, .f32⟩ : BufTy).Contents (Elt F))
  :: StableHlo.unary main_v5 main_v6 (broadcastInDim S50000x128 ![0, 1] bcast_S1x128_S50000x128_0_1 : (⟨S1x128, .f32⟩ : BufTy).Contents (Elt F) → (⟨S50000x128, .f32⟩ : BufTy).Contents (Elt F))
  :: StableHlo.binary main_v4 main_v6 main_v7 (addf : (⟨S50000x128, .f32⟩ : BufTy).Contents (Elt F) → (⟨S50000x128, .f32⟩ : BufTy).Contents (Elt F) → (⟨S50000x128, .f32⟩ : BufTy).Contents (Elt F))
  :: StableHlo.TRef.nullary main_call0.cst (constant S_ .f32 0x00000000#32)
  :: StableHlo.TRef.unary main_call0.cst main_call0.v0 (broadcastInDim S50000x128 ![] bcast_S_S50000x128)
  :: StableHlo.TRef.binary (.of main_v7) main_call0.v0 main_call0.v1 maximumf
  :: [] )

/-- The buffers the stretch writes, in order. -/
abbrev stP_W : List (Ref sig .tc) :=
  [main_v0, main_v1, main_v2, main_v3, main_v4, main_v5, main_v6, main_v7, main_call0_cst, main_call0_v0, main_v8]

/-- Each operation of the stretch writes its one result buffer, which is in the list. -/
theorem stP_writes : (stP : List (HloOp τ sig (Elt F))).Forall fun op =>
    op.writes ⊆ (stP_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stP_keep (V : Valuation τ sig (Elt F)) (r : Ref sig .tc) (h : r ∉ stP_W) :
    StableHlo.after stP V (Proc.devRef .tc r) = V (Proc.devRef .tc r) :=
  StableHlo.after_of_writes_sub stP V stP_writes h

/-- Layer 0: its weights and biases out of the stacked arrays, and the key, query and value maps of the features. Operations 11 … 38 of the 402. -/
abbrev stA0 : List (HloOp τ sig (Elt F)) :=
  ( StableHlo.unary main_arg4 main_v9 ((extractStridedSlice S1x4x128x128 ![0, 0, 0, 0] · slices_S3x4x128x128_S1x4x128x128_0_0_0_0) : (⟨S3x4x128x128, .f32⟩ : BufTy).Contents (Elt F) → (⟨S1x4x128x128, .f32⟩ : BufTy).Contents (Elt F))
  :: StableHlo.reshape main_v9 main_v10 rfl shapeCasts_S1x4x128x128_S4x128x128
  :: StableHlo.unary main_arg5 main_v11 ((extractStridedSlice S1x4x128 ![0, 0, 0] · slices_S3x4x128_S1x4x128_0_0_0) : (⟨S3x4x128, .f32⟩ : BufTy).Contents (Elt F) → (⟨S1x4x128, .f32⟩ : BufTy).Contents (Elt F))
  :: StableHlo.reshape main_v11 main_v12 rfl shapeCasts_S1x4x128_S4x128
  :: StableHlo.unary main_v10 main_v13 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v13 main_v14 rfl shapeCasts_S1x128x128_S128x128
  :: StableHlo.binary main_v8 main_v14 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v16 ((extractStridedSlice S1x128 ![0, 0] · slices_S4x128_S1x128_0_0) : (⟨S4x128, .f32⟩ : BufTy).Contents (Elt F) → (⟨S1x128, .f32⟩ : BufTy).Contents (Elt F))
  :: StableHlo.reshape main_v16 main_v17 rfl shapeCasts_S1x128_S128
  :: StableHlo.unary main_v17 main_v18 (broadcastInDim S1x128 ![1] bcast_S128_S1x128_1 : (⟨S128, .f32⟩ : BufTy).Contents (Elt F) → (⟨S1x128, .f32⟩ : BufTy).Contents (Elt F))
  :: StableHlo.unary main_v18 main_v19 (broadcastInDim S50000x128 ![0, 1] bcast_S1x128_S50000x128_0_1 : (⟨S1x128, .f32⟩ : BufTy).Contents (Elt F) → (⟨S50000x128, .f32⟩ : BufTy).Contents (Elt F))
  :: StableHlo.binary main_v15 main_v19 main_v20 (addf : (⟨S50000x128, .f32⟩ : BufTy).Contents (Elt F) → (⟨S50000x128, .f32⟩ : BufTy).Contents (Elt F) → (⟨S50000x128, .f32⟩ : BufTy).Contents (Elt F))
  :: StableHlo.unary main_v10 main_v21 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v21 main_v22 rfl shapeCasts_S1x128x128_S128x128
  :: StableHlo.binary main_v8 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v24 ((extractStridedSlice S1x128 ![1, 0] · slices_S4x128_S1x128_1_0) : (⟨S4x128, .f32⟩ : BufTy).Contents (Elt F) → (⟨S1x128, .f32⟩ : BufTy).Contents (Elt F))
  :: StableHlo.reshape main_v24 main_v25 rfl shapeCasts_S1x128_S128
  :: StableHlo.unary main_v25 main_v26 (broadcastInDim S1x128 ![1] bcast_S128_S1x128_1 : (⟨S128, .f32⟩ : BufTy).Contents (Elt F) → (⟨S1x128, .f32⟩ : BufTy).Contents (Elt F))
  :: StableHlo.unary main_v26 main_v27 (broadcastInDim S50000x128 ![0, 1] bcast_S1x128_S50000x128_0_1 : (⟨S1x128, .f32⟩ : BufTy).Contents (Elt F) → (⟨S50000x128, .f32⟩ : BufTy).Contents (Elt F))
  :: StableHlo.binary main_v23 main_v27 main_v28 (addf : (⟨S50000x128, .f32⟩ : BufTy).Contents (Elt F) → (⟨S50000x128, .f32⟩ : BufTy).Contents (Elt F) → (⟨S50000x128, .f32⟩ : BufTy).Contents (Elt F))
  :: StableHlo.unary main_v10 main_v29 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v29 main_v30 rfl shapeCasts_S1x128x128_S128x128
  :: StableHlo.binary main_v8 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v32 ((extractStridedSlice S1x128 ![2, 0] · slices_S4x128_S1x128_2_0) : (⟨S4x128, .f32⟩ : BufTy).Contents (Elt F) → (⟨S1x128, .f32⟩ : BufTy).Contents (Elt F))
  :: StableHlo.reshape main_v32 main_v33 rfl shapeCasts_S1x128_S128
  :: StableHlo.unary main_v33 main_v34 (broadcastInDim S1x128 ![1] bcast_S128_S1x128_1 : (⟨S128, .f32⟩ : BufTy).Contents (Elt F) → (⟨S1x128, .f32⟩ : BufTy).Contents (Elt F))
  :: StableHlo.unary main_v34 main_v35 (broadcastInDim S50000x128 ![0, 1] bcast_S1x128_S50000x128_0_1 : (⟨S1x128, .f32⟩ : BufTy).Contents (Elt F) → (⟨S50000x128, .f32⟩ : BufTy).Contents (Elt F))
  :: StableHlo.binary main_v31 main_v35 main_v36 (addf : (⟨S50000x128, .f32⟩ : BufTy).Contents (Elt F) → (⟨S50000x128, .f32⟩ : BufTy).Contents (Elt F) → (⟨S50000x128, .f32⟩ : BufTy).Contents (Elt F))
  :: [] )

/-- The buffers the stretch writes, in order. -/
abbrev stA0_W : List (Ref sig .tc) :=
  [main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36]

/-- Each operation of the stretch writes its one result buffer, which is in the list. -/
theorem stA0_writes : (stA0 : List (HloOp τ sig (Elt F))).Forall fun op =>
    op.writes ⊆ (stA0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stA0_keep (V : Valuation τ sig (Elt F)) (r : Ref sig .tc) (h : r ∉ stA0_W) :
    StableHlo.after stA0 V (Proc.devRef .tc r) = V (Proc.devRef .tc r) :=
  StableHlo.after_of_writes_sub stA0 V stA0_writes h

/-- Layer 0: the gates, the logistic function of key at the target plus query at the source, per edge. Operations 39 … 65 of the 402. -/
abbrev stG0 : List (HloOp τ sig (Elt F)) :=
  ( StableHlo.nullary main_c (constantI S_ 32 0#32)
  :: StableHlo.unary main_c main_v37 (broadcastInDim S600000 ![] bcast_S_S600000 : (⟨S_, .i32⟩ : BufTy).Contents (Elt F) → (⟨S600000, .i32⟩ : BufTy).Contents (Elt F))
  :: StableHlo.binary main_v3 main_v37 main_v38 (cmpi .slt : (⟨S600000, .i32⟩ : BufTy).Contents (Elt F) → (⟨S600000, .i32⟩ : BufTy).Contents (Elt F) → (⟨S600000, .i1⟩ : BufTy).Contents (Elt F))
  :: StableHlo.nullary main_c_0 (constantI S_ 32 50000#32)
  :: StableHlo.unary main_c_0 main_v39 (broadcastInDim S600000 ![] bcast_S_S600000 : (⟨S_, .i32⟩ : BufTy).Contents (Elt F) → (⟨S600000, .i32⟩ : BufTy).Contents (Elt F))
  :: StableHlo.binary main_v3 main_v39 main_v40 (addi : (⟨S600000, .i32⟩ : BufTy).Contents (Elt F) → (⟨S600000, .i32⟩ : BufTy).Contents (Elt F) → (⟨S600000, .i32⟩ : BufTy).Contents (Elt F))
  :: StableHlo.ternary main_v38 main_v40 main_v3 main_v41 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v41 main_v42 (broadcastInDim S600000x1 ![0] bcast_S600000_S600000x1_0 : (⟨S600000, .i32⟩ : BufTy).Contents (Elt F) → (⟨S600000x1, .i32⟩ : BufTy).Contents (Elt F))
  :: StableHlo.binary main_v20 main_v42 main_v43 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.nullary main_c_1 (constantI S_ 32 0#32)
  :: StableHlo.unary main_c_1 main_v44 (broadcastInDim S600000 ![] bcast_S_S600000 : (⟨S_, .i32⟩ : BufTy).Contents (Elt F) → (⟨S600000, .i32⟩ : BufTy).Contents (Elt F))
  :: StableHlo.binary main_v1 main_v44 main_v45 (cmpi .slt : (⟨S600000, .i32⟩ : BufTy).Contents (Elt F) → (⟨S600000, .i32⟩ : BufTy).Contents (Elt F) → (⟨S600000, .i1⟩ : BufTy).Contents (Elt F))
  :: StableHlo.nullary main_c_2 (constantI S_ 32 50000#32)
  :: StableHlo.unary main_c_2 main_v46 (broadcastInDim S600000 ![] bcast_S_S600000 : (⟨S_, .i32⟩ : BufTy).Contents (Elt F) → (⟨S600000, .i32⟩ : BufTy).Contents (Elt F))
  :: StableHlo.binary main_v1 main_v46 main_v47 (addi : (⟨S600000, .i32⟩ : BufTy).Contents (Elt F) → (⟨S600000, .i32⟩ : BufTy).Contents (Elt F) → (⟨S600000, .i32⟩ : BufTy).Contents (Elt F))
  :: StableHlo.ternary main_v45 main_v47 main_v1 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v48 main_v49 (broadcastInDim S600000x1 ![0] bcast_S600000_S600000x1_0 : (⟨S600000, .i32⟩ : BufTy).Contents (Elt F) → (⟨S600000x1, .i32⟩ : BufTy).Contents (Elt F))
  :: StableHlo.binary main_v28 main_v49 main_v50 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v43 main_v50 main_v51 (addf : (⟨S600000x128, .f32⟩ : BufTy).Contents (Elt F) → (⟨S600000x128, .f32⟩ : BufTy).Contents (Elt F) → (⟨S600000x128, .f32⟩ : BufTy).Contents (Elt F))
  :: StableHlo.unary main_v51 main_v52 (Host.negf : (⟨S600000x128, .f32⟩ : BufTy).Contents (Elt F) → (⟨S600000x128, .f32⟩ : BufTy).Contents (Elt F))
  :: StableHlo.unary main_v52 main_v53 (Host.exp : (⟨S600000x128, .f32⟩ : BufTy).Contents (Elt F) → (⟨S600000x128, .f32⟩ : BufTy).Contents (Elt F))
  :: StableHlo.nullary main_cst (constant S_ .f32 0x3F800000#32)
  :: StableHlo.unary main_cst main_v54 (broadcastInDim S600000x128 ![] bcast_S_S600000x128 : (⟨S_, .f32⟩ : BufTy).Contents (Elt F) → (⟨S600000x128, .f32⟩ : BufTy).Contents (Elt F))
  :: StableHlo.binary main_v54 main_v53 main_v55 (addf : (⟨S600000x128, .f32⟩ : BufTy).Contents (Elt F) → (⟨S600000x128, .f32⟩ : BufTy).Contents (Elt F) → (⟨S600000x128, .f32⟩ : BufTy).Contents (Elt F))
  :: StableHlo.nullary main_cst_3 (constant S_ .f32 0x3F800000#32)
  :: StableHlo.unary main_cst_3 main_v56 (broadcastInDim S600000x128 ![] bcast_S_S600000x128 : (⟨S_, .f32⟩ : BufTy).Contents (Elt F) → (⟨S600000x128, .f32⟩ : BufTy).Contents (Elt F))
  :: StableHlo.binary main_v56 main_v55 main_v57 (Host.divf : (⟨S600000x128, .f32⟩ : BufTy).Contents (Elt F) → (⟨S600000x128, .f32⟩ : BufTy).Contents (Elt F) → (⟨S600000x128, .f32⟩ : BufTy).Contents (Elt F))
  :: [] )

/-- The buffers the stretch writes, in order. -/
abbrev stG0_W : List (Ref sig .tc) :=
  [main_c, main_v37, main_v38, main_c_0, main_v39, main_v40, main_v41, main_v42, main_v43, main_c_1, main_v44, main_v45, main_c_2, main_v46, main_v47, main_v48, main_v49, main_v50, main_v51, main_v52, main_v53, main_cst, main_v54, main_v55, main_cst_3, main_v56, main_v57]

/-- Each operation of the stretch writes its one result buffer, which is in the list. -/
theorem stG0_writes : (stG0 : List (HloOp τ sig (Elt F))).Forall fun op =>
    op.writes ⊆ (stG0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stG0_keep (V : Valuation τ sig (Elt F)) (r : Ref sig .tc) (h : r ∉ stG0_W) :
    StableHlo.after stG0 V (Proc.devRef .tc r) = V (Proc.devRef .tc r) :=
  StableHlo.after_of_writes_sub stG0 V stG0_writes h

/-- Layer 0: the gated values at the sources, summed at the targets. Operations 66 … 79 of the 402. -/
abbrev stE0 : List (HloOp τ sig (Elt F)) :=
  ( StableHlo.nullary main_c_4 (constantI S_ 32 0#32)
  :: StableHlo.unary main_c_4 main_v58 (broadcastInDim S600000 ![] bcast_S_S600000 : (⟨S_, .i32⟩ : BufTy).Contents (Elt F) → (⟨S600000, .i32⟩ : BufTy).Contents (Elt F))
  :: StableHlo.binary main_v1 main_v58 main_v59 (cmpi .slt : (⟨S600000, .i32⟩ : BufTy).Contents (Elt F) → (⟨S600000, .i32⟩ : BufTy).Contents (Elt F) → (⟨S600000, .i1⟩ : BufTy).Contents (Elt F))
  :: StableHlo.nullary main_c_5 (constantI S_ 32 50000#32)
  :: StableHlo.unary main_c_5 main_v60 (broadcastInDim S600000 ![] bcast_S_S600000 : (⟨S_, .i32⟩ : BufTy).Contents (Elt F) → (⟨S600000, .i32⟩ : BufTy).Contents (Elt F))
  :: StableHlo.binary main_v1 main_v60 main_v61 (addi : (⟨S600000, .i32⟩ : BufTy).Contents (Elt F) → (⟨S600000, .i32⟩ : BufTy).Contents (Elt F) → (⟨S600000, .i32⟩ : BufTy).Contents (Elt F))
  :: StableHlo.ternary main_v59 main_v61 main_v1 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v62 main_v63 (broadcastInDim S600000x1 ![0] bcast_S600000_S600000x1_0 : (⟨S600000, .i32⟩ : BufTy).Contents (Elt F) → (⟨S600000x1, .i32⟩ : BufTy).Contents (Elt F))
  :: StableHlo.binary main_v36 main_v63 main_v64 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v57 main_v64 main_v65 (mulf : (⟨S600000x128, .f32⟩ : BufTy).Contents (Elt F) → (⟨S600000x128, .f32⟩ : BufTy).Contents (Elt F) → (⟨S600000x128, .f32⟩ : BufTy).Contents (Elt F))
  :: StableHlo.nullary main_cst_6 (constant S_ .f32 0x00000000#32)
  :: StableHlo.unary main_cst_6 main_v66 (broadcastInDim S50000x128 ![] bcast_S_S50000x128 : (⟨S_, .f32⟩ : BufTy).Contents (Elt F) → (⟨S50000x128, .f32⟩ : BufTy).Contents (Elt F))
  :: StableHlo.unary main_v3 main_v67 (broadcastInDim S600000x1 ![0] bcast_S600000_S600000x1_0 : (⟨S600000, .i32⟩ : BufTy).Contents (Elt F) → (⟨S600000x1, .i32⟩ : BufTy).Contents (Elt F))
  :: StableHlo.ternary main_v66 main_v67 main_v65 main_v68 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))
  :: [] )

/-- The buffers the stretch writes, in order. -/
abbrev stE0_W : List (Ref sig .tc) :=
  [main_c_4, main_v58, main_v59, main_c_5, main_v60, main_v61, main_v62, main_v63, main_v64, main_v65, main_cst_6, main_v66, main_v67, main_v68]

/-- Each operation of the stretch writes its one result buffer, which is in the list. -/
theorem stE0_writes : (stE0 : List (HloOp τ sig (Elt F))).Forall fun op =>
    op.writes ⊆ (stE0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stE0_keep (V : Valuation τ sig (Elt F)) (r : Ref sig .tc) (h : r ∉ stE0_W) :
    StableHlo.after stE0 V (Proc.devRef .tc r) = V (Proc.devRef .tc r) :=
  StableHlo.after_of_writes_sub stE0 V stE0_writes h

/-- Layer 0: the skip map of the features, plus the summed messages. Operations 80 … 88 of the 402. -/
abbrev stS0 : List (HloOp τ sig (Elt F)) :=
  ( StableHlo.unary main_v10 main_v69 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v69 main_v70 rfl shapeCasts_S1x128x128_S128x128
  :: StableHlo.binary main_v8 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v12 main_v72 ((extractStridedSlice S1x128 ![3, 0] · slices_S4x128_S1x128_3_0) : (⟨S4x128, .f32⟩ : BufTy).Contents (Elt F) → (⟨S1x128, .f32⟩ : BufTy).Contents (Elt F))
  :: StableHlo.reshape main_v72 main_v73 rfl shapeCasts_S1x128_S128
  :: StableHlo.unary main_v73 main_v74 (broadcastInDim S1x128 ![1] bcast_S128_S1x128_1 : (⟨S128, .f32⟩ : BufTy).Contents (Elt F) → (⟨S1x128, .f32⟩ : BufTy).Contents (Elt F))
  :: StableHlo.unary main_v74 main_v75 (broadcastInDim S50000x128 ![0, 1] bcast_S1x128_S50000x128_0_1 : (⟨S1x128, .f32⟩ : BufTy).Contents (Elt F) → (⟨S50000x128, .f32⟩ : BufTy).Contents (Elt F))
  :: StableHlo.binary main_v71 main_v75 main_v76 (addf : (⟨S50000x128, .f32⟩ : BufTy).Contents (Elt F) → (⟨S50000x128, .f32⟩ : BufTy).Contents (Elt F) → (⟨S50000x128, .f32⟩ : BufTy).Contents (Elt F))
  :: StableHlo.binary main_v76 main_v68 main_v77 (addf : (⟨S50000x128, .f32⟩ : BufTy).Contents (Elt F) → (⟨S50000x128, .f32⟩ : BufTy).Contents (Elt F) → (⟨S50000x128, .f32⟩ : BufTy).Contents (Elt F))
  :: [] )

/-- The buffers the stretch writes, in order. -/
abbrev stS0_W : List (Ref sig .tc) :=
  [main_v69, main_v70, main_v71, main_v72, main_v73, main_v74, main_v75, main_v76, main_v77]

/-- Each operation of the stretch writes its one result buffer, which is in the list. -/
theorem stS0_writes : (stS0 : List (HloOp τ sig (Elt F))).Forall fun op =>
    op.writes ⊆ (stS0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stS0_keep (V : Valuation τ sig (Elt F)) (r : Ref sig .tc) (h : r ∉ stS0_W) :
    StableHlo.after stS0 V (Proc.devRef .tc r) = V (Proc.devRef .tc r) :=
  StableHlo.after_of_writes_sub stS0 V stS0_writes h

/-- Layer 0: the normalisation's scale and shift rows, and the mean and the variance over the nodes. Operations 89 … 120 of the 402. -/
abbrev stM0 : List (HloOp τ sig (Elt F)) :=
  ( StableHlo.unary main_arg6 main_v78 ((extractStridedSlice S1x128 ![0, 0] · slices_S3x128_S1x128_0_0) : (⟨S3x128, .f32⟩ : BufTy).Contents (Elt F) → (⟨S1x128, .f32⟩ : BufTy).Contents (Elt F))
  :: StableHlo.reshape main_v78 main_v79 rfl shapeCasts_S1x128_S128
  :: StableHlo.unary main_arg7 main_v80 ((extractStridedSlice S1x128 ![0, 0] · slices_S3x128_S1x128_0_0) : (⟨S3x128, .f32⟩ : BufTy).Contents (Elt F) → (⟨S1x128, .f32⟩ : BufTy).Contents (Elt F))
  :: StableHlo.reshape main_v80 main_v81 rfl shapeCasts_S1x128_S128
  :: StableHlo.nullary main_cst_7 (constant S_ .f32 0x00000000#32)
  :: StableHlo.binary main_v77 main_cst_7 main_v82 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_8 (constant S_ .f32 0x47435000#32)
  :: StableHlo.unary main_cst_8 main_v83 (broadcastInDim S128 ![] bcast_S_S128 : (⟨S_, .f32⟩ : BufTy).Contents (Elt F) → (⟨S128, .f32⟩ : BufTy).Contents (Elt F))
  :: StableHlo.binary main_v82 main_v83 main_v84 (Host.divf : (⟨S128, .f32⟩ : BufTy).Contents (Elt F) → (⟨S128, .f32⟩ : BufTy).Contents (Elt F) → (⟨S128, .f32⟩ : BufTy).Contents (Elt F))
  :: StableHlo.nullary main_c_9 (constantI S_ 32 0#32)
  :: StableHlo.TRef.nullary main_call1.cst (constant S_ .f32 0x00000000#32)
  :: StableHlo.TRef.binary (.of main_v77) main_call1.cst main_call1.v0 (fun x v => Host.reduceAdd x v reducesTo_S50000x128_S128_d0 h_S_)
  :: StableHlo.TRef.unary main_call1.v0 main_call1.v1 (broadcastInDim S1x128 ![1] bcast_S128_S1x128_1)
  :: StableHlo.TRef.nullary main_call1.cst_0 (constant S_ .f32 0x47435000#32)
  :: StableHlo.TRef.unary main_call1.cst_0 main_call1.v2 (broadcastInDim S1x128 ![] bcast_S_S1x128)
  :: StableHlo.TRef.binary main_call1.v1 main_call1.v2 main_call1.v3 Host.divf
  :: StableHlo.TRef.unary main_call1.v3 main_call1.v4 (broadcastInDim S50000x128 ![0, 1] bcast_S1x128_S50000x128_0_1)
  :: StableHlo.TRef.binary (.of main_v77) main_call1.v4 main_call1.v5 subf
  :: StableHlo.TRef.binary main_call1.v5 main_call1.v5 main_call1.v6 mulf
  :: StableHlo.TRef.unary (.of main_c_9) main_call1.v7 (sitofp .f32)
  :: StableHlo.TRef.nullary main_call1.cst_1 (constant S_ .f32 0x47435000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S50000x128_S128_d0 h_S_)
  :: StableHlo.TRef.unary main_call1.v8 main_call1.v10 (broadcastInDim S128 ![] bcast_S_S128)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S128 ![] bcast_S_S128)
  :: StableHlo.TRef.ternary main_call1.v12 main_call1.v11 main_call1.call0.v1 main_call1.call0.v2 (fun p a b => select (broadcastInDim S128 ![] bcast_S_S128 p) a b)
  :: [] )

/-- The buffers the stretch writes, in order. -/
abbrev stM0_W : List (Ref sig .tc) :=
  [main_v78, main_v79, main_v80, main_v81, main_cst_7, main_v82, main_cst_8, main_v83, main_v84, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v85]

/-- Each operation of the stretch writes its one result buffer, which is in the list. -/
theorem stM0_writes : (stM0 : List (HloOp τ sig (Elt F))).Forall fun op =>
    op.writes ⊆ (stM0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stM0_keep (V : Valuation τ sig (Elt F)) (r : Ref sig .tc) (h : r ∉ stM0_W) :
    StableHlo.after stM0 V (Proc.devRef .tc r) = V (Proc.devRef .tc r) :=
  StableHlo.after_of_writes_sub stM0 V stM0_writes h

/-- Layer 0: the normalisation applied, then the rectifier. Operations 121 … 139 of the 402. -/
abbrev stN0 : List (HloOp τ sig (Elt F)) :=
  ( StableHlo.unary main_v84 main_v86 (broadcastInDim S1x128 ![1] bcast_S128_S1x128_1 : (⟨S128, .f32⟩ : BufTy).Contents (Elt F) → (⟨S1x128, .f32⟩ : BufTy).Contents (Elt F))
  :: StableHlo.unary main_v86 main_v87 (broadcastInDim S50000x128 ![0, 1] bcast_S1x128_S50000x128_0_1 : (⟨S1x128, .f32⟩ : BufTy).Contents (Elt F) → (⟨S50000x128, .f32⟩ : BufTy).Contents (Elt F))
  :: StableHlo.binary main_v77 main_v87 main_v88 (subf : (⟨S50000x128, .f32⟩ : BufTy).Contents (Elt F) → (⟨S50000x128, .f32⟩ : BufTy).Contents (Elt F) → (⟨S50000x128, .f32⟩ : BufTy).Contents (Elt F))
  :: StableHlo.unary main_v79 main_v89 (broadcastInDim S1x128 ![1] bcast_S128_S1x128_1 : (⟨S128, .f32⟩ : BufTy).Contents (Elt F) → (⟨S1x128, .f32⟩ : BufTy).Contents (Elt F))
  :: StableHlo.unary main_v89 main_v90 (broadcastInDim S50000x128 ![0, 1] bcast_S1x128_S50000x128_0_1 : (⟨S1x128, .f32⟩ : BufTy).Contents (Elt F) → (⟨S50000x128, .f32⟩ : BufTy).Contents (Elt F))
  :: StableHlo.binary main_v90 main_v88 main_v91 (mulf : (⟨S50000x128, .f32⟩ : BufTy).Contents (Elt F) → (⟨S50000x128, .f32⟩ : BufTy).Contents (Elt F) → (⟨S50000x128, .f32⟩ : BufTy).Contents (Elt F))
  :: StableHlo.nullary main_cst_10 (constant S_ .f32 0x3727C5AC#32)
  :: StableHlo.unary main_cst_10 main_v92 (broadcastInDim S128 ![] bcast_S_S128 : (⟨S_, .f32⟩ : BufTy).Contents (Elt F) → (⟨S128, .f32⟩ : BufTy).Contents (Elt F))
  :: StableHlo.binary main_v85 main_v92 main_v93 (addf : (⟨S128, .f32⟩ : BufTy).Contents (Elt F) → (⟨S128, .f32⟩ : BufTy).Contents (Elt F) → (⟨S128, .f32⟩ : BufTy).Contents (Elt F))
  :: StableHlo.unary main_v93 main_v94 (Host.rsqrt : (⟨S128, .f32⟩ : BufTy).Contents (Elt F) → (⟨S128, .f32⟩ : BufTy).Contents (Elt F))
  :: StableHlo.unary main_v94 main_v95 (broadcastInDim S1x128 ![1] bcast_S128_S1x128_1 : (⟨S128, .f32⟩ : BufTy).Contents (Elt F) → (⟨S1x128, .f32⟩ : BufTy).Contents (Elt F))
  :: StableHlo.unary main_v95 main_v96 (broadcastInDim S50000x128 ![0, 1] bcast_S1x128_S50000x128_0_1 : (⟨S1x128, .f32⟩ : BufTy).Contents (Elt F) → (⟨S50000x128, .f32⟩ : BufTy).Contents (Elt F))
  :: StableHlo.binary main_v91 main_v96 main_v97 (mulf : (⟨S50000x128, .f32⟩ : BufTy).Contents (Elt F) → (⟨S50000x128, .f32⟩ : BufTy).Contents (Elt F) → (⟨S50000x128, .f32⟩ : BufTy).Contents (Elt F))
  :: StableHlo.unary main_v81 main_v98 (broadcastInDim S1x128 ![1] bcast_S128_S1x128_1 : (⟨S128, .f32⟩ : BufTy).Contents (Elt F) → (⟨S1x128, .f32⟩ : BufTy).Contents (Elt F))
  :: StableHlo.unary main_v98 main_v99 (broadcastInDim S50000x128 ![0, 1] bcast_S1x128_S50000x128_0_1 : (⟨S1x128, .f32⟩ : BufTy).Contents (Elt F) → (⟨S50000x128, .f32⟩ : BufTy).Contents (Elt F))
  :: StableHlo.binary main_v97 main_v99 main_v100 (addf : (⟨S50000x128, .f32⟩ : BufTy).Contents (Elt F) → (⟨S50000x128, .f32⟩ : BufTy).Contents (Elt F) → (⟨S50000x128, .f32⟩ : BufTy).Contents (Elt F))
  :: StableHlo.TRef.nullary main_call2.cst (constant S_ .f32 0x00000000#32)
  :: StableHlo.TRef.unary main_call2.cst main_call2.v0 (broadcastInDim S50000x128 ![] bcast_S_S50000x128)
  :: StableHlo.TRef.binary (.of main_v100) main_call2.v0 main_call2.v1 maximumf
  :: [] )

/-- The buffers the stretch writes, in order. -/
abbrev stN0_W : List (Ref sig .tc) :=
  [main_v86, main_v87, main_v88, main_v89, main_v90, main_v91, main_cst_10, main_v92, main_v93, main_v94, main_v95, main_v96, main_v97, main_v98, main_v99, main_v100, main_call2_cst, main_call2_v0, main_v101]

/-- Each operation of the stretch writes its one result buffer, which is in the list. -/
theorem stN0_writes : (stN0 : List (HloOp τ sig (Elt F))).Forall fun op =>
    op.writes ⊆ (stN0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stN0_keep (V : Valuation τ sig (Elt F)) (r : Ref sig .tc) (h : r ∉ stN0_W) :
    StableHlo.after stN0 V (Proc.devRef .tc r) = V (Proc.devRef .tc r) :=
  StableHlo.after_of_writes_sub stN0 V stN0_writes h

/-- Layer 1: its weights and biases out of the stacked arrays, and the key, query and value maps of the features. Operations 140 … 167 of the 402. -/
abbrev stA1 : List (HloOp τ sig (Elt F)) :=
  ( StableHlo.unary main_arg4 main_v102 ((extractStridedSlice S1x4x128x128 ![1, 0, 0, 0] · slices_S3x4x128x128_S1x4x128x128_1_0_0_0) : (⟨S3x4x128x128, .f32⟩ : BufTy).Contents (Elt F) → (⟨S1x4x128x128, .f32⟩ : BufTy).Contents (Elt F))
  :: StableHlo.reshape main_v102 main_v103 rfl shapeCasts_S1x4x128x128_S4x128x128
  :: StableHlo.unary main_arg5 main_v104 ((extractStridedSlice S1x4x128 ![1, 0, 0] · slices_S3x4x128_S1x4x128_1_0_0) : (⟨S3x4x128, .f32⟩ : BufTy).Contents (Elt F) → (⟨S1x4x128, .f32⟩ : BufTy).Contents (Elt F))
  :: StableHlo.reshape main_v104 main_v105 rfl shapeCasts_S1x4x128_S4x128
  :: StableHlo.unary main_v103 main_v106 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v106 main_v107 rfl shapeCasts_S1x128x128_S128x128
  :: StableHlo.binary main_v101 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v109 ((extractStridedSlice S1x128 ![0, 0] · slices_S4x128_S1x128_0_0) : (⟨S4x128, .f32⟩ : BufTy).Contents (Elt F) → (⟨S1x128, .f32⟩ : BufTy).Contents (Elt F))
  :: StableHlo.reshape main_v109 main_v110 rfl shapeCasts_S1x128_S128
  :: StableHlo.unary main_v110 main_v111 (broadcastInDim S1x128 ![1] bcast_S128_S1x128_1 : (⟨S128, .f32⟩ : BufTy).Contents (Elt F) → (⟨S1x128, .f32⟩ : BufTy).Contents (Elt F))
  :: StableHlo.unary main_v111 main_v112 (broadcastInDim S50000x128 ![0, 1] bcast_S1x128_S50000x128_0_1 : (⟨S1x128, .f32⟩ : BufTy).Contents (Elt F) → (⟨S50000x128, .f32⟩ : BufTy).Contents (Elt F))
  :: StableHlo.binary main_v108 main_v112 main_v113 (addf : (⟨S50000x128, .f32⟩ : BufTy).Contents (Elt F) → (⟨S50000x128, .f32⟩ : BufTy).Contents (Elt F) → (⟨S50000x128, .f32⟩ : BufTy).Contents (Elt F))
  :: StableHlo.unary main_v103 main_v114 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v114 main_v115 rfl shapeCasts_S1x128x128_S128x128
  :: StableHlo.binary main_v101 main_v115 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v117 ((extractStridedSlice S1x128 ![1, 0] · slices_S4x128_S1x128_1_0) : (⟨S4x128, .f32⟩ : BufTy).Contents (Elt F) → (⟨S1x128, .f32⟩ : BufTy).Contents (Elt F))
  :: StableHlo.reshape main_v117 main_v118 rfl shapeCasts_S1x128_S128
  :: StableHlo.unary main_v118 main_v119 (broadcastInDim S1x128 ![1] bcast_S128_S1x128_1 : (⟨S128, .f32⟩ : BufTy).Contents (Elt F) → (⟨S1x128, .f32⟩ : BufTy).Contents (Elt F))
  :: StableHlo.unary main_v119 main_v120 (broadcastInDim S50000x128 ![0, 1] bcast_S1x128_S50000x128_0_1 : (⟨S1x128, .f32⟩ : BufTy).Contents (Elt F) → (⟨S50000x128, .f32⟩ : BufTy).Contents (Elt F))
  :: StableHlo.binary main_v116 main_v120 main_v121 (addf : (⟨S50000x128, .f32⟩ : BufTy).Contents (Elt F) → (⟨S50000x128, .f32⟩ : BufTy).Contents (Elt F) → (⟨S50000x128, .f32⟩ : BufTy).Contents (Elt F))
  :: StableHlo.unary main_v103 main_v122 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v122 main_v123 rfl shapeCasts_S1x128x128_S128x128
  :: StableHlo.binary main_v101 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v125 ((extractStridedSlice S1x128 ![2, 0] · slices_S4x128_S1x128_2_0) : (⟨S4x128, .f32⟩ : BufTy).Contents (Elt F) → (⟨S1x128, .f32⟩ : BufTy).Contents (Elt F))
  :: StableHlo.reshape main_v125 main_v126 rfl shapeCasts_S1x128_S128
  :: StableHlo.unary main_v126 main_v127 (broadcastInDim S1x128 ![1] bcast_S128_S1x128_1 : (⟨S128, .f32⟩ : BufTy).Contents (Elt F) → (⟨S1x128, .f32⟩ : BufTy).Contents (Elt F))
  :: StableHlo.unary main_v127 main_v128 (broadcastInDim S50000x128 ![0, 1] bcast_S1x128_S50000x128_0_1 : (⟨S1x128, .f32⟩ : BufTy).Contents (Elt F) → (⟨S50000x128, .f32⟩ : BufTy).Contents (Elt F))
  :: StableHlo.binary main_v124 main_v128 main_v129 (addf : (⟨S50000x128, .f32⟩ : BufTy).Contents (Elt F) → (⟨S50000x128, .f32⟩ : BufTy).Contents (Elt F) → (⟨S50000x128, .f32⟩ : BufTy).Contents (Elt F))
  :: [] )

/-- The buffers the stretch writes, in order. -/
abbrev stA1_W : List (Ref sig .tc) :=
  [main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129]

/-- Each operation of the stretch writes its one result buffer, which is in the list. -/
theorem stA1_writes : (stA1 : List (HloOp τ sig (Elt F))).Forall fun op =>
    op.writes ⊆ (stA1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stA1_keep (V : Valuation τ sig (Elt F)) (r : Ref sig .tc) (h : r ∉ stA1_W) :
    StableHlo.after stA1 V (Proc.devRef .tc r) = V (Proc.devRef .tc r) :=
  StableHlo.after_of_writes_sub stA1 V stA1_writes h

/-- Layer 1: the gates, the logistic function of key at the target plus query at the source, per edge. Operations 168 … 194 of the 402. -/
abbrev stG1 : List (HloOp τ sig (Elt F)) :=
  ( StableHlo.nullary main_c_11 (constantI S_ 32 0#32)
  :: StableHlo.unary main_c_11 main_v130 (broadcastInDim S600000 ![] bcast_S_S600000 : (⟨S_, .i32⟩ : BufTy).Contents (Elt F) → (⟨S600000, .i32⟩ : BufTy).Contents (Elt F))
  :: StableHlo.binary main_v3 main_v130 main_v131 (cmpi .slt : (⟨S600000, .i32⟩ : BufTy).Contents (Elt F) → (⟨S600000, .i32⟩ : BufTy).Contents (Elt F) → (⟨S600000, .i1⟩ : BufTy).Contents (Elt F))
  :: StableHlo.nullary main_c_12 (constantI S_ 32 50000#32)
  :: StableHlo.unary main_c_12 main_v132 (broadcastInDim S600000 ![] bcast_S_S600000 : (⟨S_, .i32⟩ : BufTy).Contents (Elt F) → (⟨S600000, .i32⟩ : BufTy).Contents (Elt F))
  :: StableHlo.binary main_v3 main_v132 main_v133 (addi : (⟨S600000, .i32⟩ : BufTy).Contents (Elt F) → (⟨S600000, .i32⟩ : BufTy).Contents (Elt F) → (⟨S600000, .i32⟩ : BufTy).Contents (Elt F))
  :: StableHlo.ternary main_v131 main_v133 main_v3 main_v134 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v134 main_v135 (broadcastInDim S600000x1 ![0] bcast_S600000_S600000x1_0 : (⟨S600000, .i32⟩ : BufTy).Contents (Elt F) → (⟨S600000x1, .i32⟩ : BufTy).Contents (Elt F))
  :: StableHlo.binary main_v113 main_v135 main_v136 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.nullary main_c_13 (constantI S_ 32 0#32)
  :: StableHlo.unary main_c_13 main_v137 (broadcastInDim S600000 ![] bcast_S_S600000 : (⟨S_, .i32⟩ : BufTy).Contents (Elt F) → (⟨S600000, .i32⟩ : BufTy).Contents (Elt F))
  :: StableHlo.binary main_v1 main_v137 main_v138 (cmpi .slt : (⟨S600000, .i32⟩ : BufTy).Contents (Elt F) → (⟨S600000, .i32⟩ : BufTy).Contents (Elt F) → (⟨S600000, .i1⟩ : BufTy).Contents (Elt F))
  :: StableHlo.nullary main_c_14 (constantI S_ 32 50000#32)
  :: StableHlo.unary main_c_14 main_v139 (broadcastInDim S600000 ![] bcast_S_S600000 : (⟨S_, .i32⟩ : BufTy).Contents (Elt F) → (⟨S600000, .i32⟩ : BufTy).Contents (Elt F))
  :: StableHlo.binary main_v1 main_v139 main_v140 (addi : (⟨S600000, .i32⟩ : BufTy).Contents (Elt F) → (⟨S600000, .i32⟩ : BufTy).Contents (Elt F) → (⟨S600000, .i32⟩ : BufTy).Contents (Elt F))
  :: StableHlo.ternary main_v138 main_v140 main_v1 main_v141 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v141 main_v142 (broadcastInDim S600000x1 ![0] bcast_S600000_S600000x1_0 : (⟨S600000, .i32⟩ : BufTy).Contents (Elt F) → (⟨S600000x1, .i32⟩ : BufTy).Contents (Elt F))
  :: StableHlo.binary main_v121 main_v142 main_v143 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v136 main_v143 main_v144 (addf : (⟨S600000x128, .f32⟩ : BufTy).Contents (Elt F) → (⟨S600000x128, .f32⟩ : BufTy).Contents (Elt F) → (⟨S600000x128, .f32⟩ : BufTy).Contents (Elt F))
  :: StableHlo.unary main_v144 main_v145 (Host.negf : (⟨S600000x128, .f32⟩ : BufTy).Contents (Elt F) → (⟨S600000x128, .f32⟩ : BufTy).Contents (Elt F))
  :: StableHlo.unary main_v145 main_v146 (Host.exp : (⟨S600000x128, .f32⟩ : BufTy).Contents (Elt F) → (⟨S600000x128, .f32⟩ : BufTy).Contents (Elt F))
  :: StableHlo.nullary main_cst_15 (constant S_ .f32 0x3F800000#32)
  :: StableHlo.unary main_cst_15 main_v147 (broadcastInDim S600000x128 ![] bcast_S_S600000x128 : (⟨S_, .f32⟩ : BufTy).Contents (Elt F) → (⟨S600000x128, .f32⟩ : BufTy).Contents (Elt F))
  :: StableHlo.binary main_v147 main_v146 main_v148 (addf : (⟨S600000x128, .f32⟩ : BufTy).Contents (Elt F) → (⟨S600000x128, .f32⟩ : BufTy).Contents (Elt F) → (⟨S600000x128, .f32⟩ : BufTy).Contents (Elt F))
  :: StableHlo.nullary main_cst_16 (constant S_ .f32 0x3F800000#32)
  :: StableHlo.unary main_cst_16 main_v149 (broadcastInDim S600000x128 ![] bcast_S_S600000x128 : (⟨S_, .f32⟩ : BufTy).Contents (Elt F) → (⟨S600000x128, .f32⟩ : BufTy).Contents (Elt F))
  :: StableHlo.binary main_v149 main_v148 main_v150 (Host.divf : (⟨S600000x128, .f32⟩ : BufTy).Contents (Elt F) → (⟨S600000x128, .f32⟩ : BufTy).Contents (Elt F) → (⟨S600000x128, .f32⟩ : BufTy).Contents (Elt F))
  :: [] )

/-- The buffers the stretch writes, in order. -/
abbrev stG1_W : List (Ref sig .tc) :=
  [main_c_11, main_v130, main_v131, main_c_12, main_v132, main_v133, main_v134, main_v135, main_v136, main_c_13, main_v137, main_v138, main_c_14, main_v139, main_v140, main_v141, main_v142, main_v143, main_v144, main_v145, main_v146, main_cst_15, main_v147, main_v148, main_cst_16, main_v149, main_v150]

/-- Each operation of the stretch writes its one result buffer, which is in the list. -/
theorem stG1_writes : (stG1 : List (HloOp τ sig (Elt F))).Forall fun op =>
    op.writes ⊆ (stG1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stG1_keep (V : Valuation τ sig (Elt F)) (r : Ref sig .tc) (h : r ∉ stG1_W) :
    StableHlo.after stG1 V (Proc.devRef .tc r) = V (Proc.devRef .tc r) :=
  StableHlo.after_of_writes_sub stG1 V stG1_writes h

/-- Layer 1: the gated values at the sources, summed at the targets. Operations 195 … 208 of the 402. -/
abbrev stE1 : List (HloOp τ sig (Elt F)) :=
  ( StableHlo.nullary main_c_17 (constantI S_ 32 0#32)
  :: StableHlo.unary main_c_17 main_v151 (broadcastInDim S600000 ![] bcast_S_S600000 : (⟨S_, .i32⟩ : BufTy).Contents (Elt F) → (⟨S600000, .i32⟩ : BufTy).Contents (Elt F))
  :: StableHlo.binary main_v1 main_v151 main_v152 (cmpi .slt : (⟨S600000, .i32⟩ : BufTy).Contents (Elt F) → (⟨S600000, .i32⟩ : BufTy).Contents (Elt F) → (⟨S600000, .i1⟩ : BufTy).Contents (Elt F))
  :: StableHlo.nullary main_c_18 (constantI S_ 32 50000#32)
  :: StableHlo.unary main_c_18 main_v153 (broadcastInDim S600000 ![] bcast_S_S600000 : (⟨S_, .i32⟩ : BufTy).Contents (Elt F) → (⟨S600000, .i32⟩ : BufTy).Contents (Elt F))
  :: StableHlo.binary main_v1 main_v153 main_v154 (addi : (⟨S600000, .i32⟩ : BufTy).Contents (Elt F) → (⟨S600000, .i32⟩ : BufTy).Contents (Elt F) → (⟨S600000, .i32⟩ : BufTy).Contents (Elt F))
  :: StableHlo.ternary main_v152 main_v154 main_v1 main_v155 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v155 main_v156 (broadcastInDim S600000x1 ![0] bcast_S600000_S600000x1_0 : (⟨S600000, .i32⟩ : BufTy).Contents (Elt F) → (⟨S600000x1, .i32⟩ : BufTy).Contents (Elt F))
  :: StableHlo.binary main_v129 main_v156 main_v157 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v150 main_v157 main_v158 (mulf : (⟨S600000x128, .f32⟩ : BufTy).Contents (Elt F) → (⟨S600000x128, .f32⟩ : BufTy).Contents (Elt F) → (⟨S600000x128, .f32⟩ : BufTy).Contents (Elt F))
  :: StableHlo.nullary main_cst_19 (constant S_ .f32 0x00000000#32)
  :: StableHlo.unary main_cst_19 main_v159 (broadcastInDim S50000x128 ![] bcast_S_S50000x128 : (⟨S_, .f32⟩ : BufTy).Contents (Elt F) → (⟨S50000x128, .f32⟩ : BufTy).Contents (Elt F))
  :: StableHlo.unary main_v3 main_v160 (broadcastInDim S600000x1 ![0] bcast_S600000_S600000x1_0 : (⟨S600000, .i32⟩ : BufTy).Contents (Elt F) → (⟨S600000x1, .i32⟩ : BufTy).Contents (Elt F))
  :: StableHlo.ternary main_v159 main_v160 main_v158 main_v161 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))
  :: [] )

/-- The buffers the stretch writes, in order. -/
abbrev stE1_W : List (Ref sig .tc) :=
  [main_c_17, main_v151, main_v152, main_c_18, main_v153, main_v154, main_v155, main_v156, main_v157, main_v158, main_cst_19, main_v159, main_v160, main_v161]

/-- Each operation of the stretch writes its one result buffer, which is in the list. -/
theorem stE1_writes : (stE1 : List (HloOp τ sig (Elt F))).Forall fun op =>
    op.writes ⊆ (stE1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stE1_keep (V : Valuation τ sig (Elt F)) (r : Ref sig .tc) (h : r ∉ stE1_W) :
    StableHlo.after stE1 V (Proc.devRef .tc r) = V (Proc.devRef .tc r) :=
  StableHlo.after_of_writes_sub stE1 V stE1_writes h

/-- Layer 1: the skip map of the features, plus the summed messages. Operations 209 … 217 of the 402. -/
abbrev stS1 : List (HloOp τ sig (Elt F)) :=
  ( StableHlo.unary main_v103 main_v162 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v162 main_v163 rfl shapeCasts_S1x128x128_S128x128
  :: StableHlo.binary main_v101 main_v163 main_v164 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v105 main_v165 ((extractStridedSlice S1x128 ![3, 0] · slices_S4x128_S1x128_3_0) : (⟨S4x128, .f32⟩ : BufTy).Contents (Elt F) → (⟨S1x128, .f32⟩ : BufTy).Contents (Elt F))
  :: StableHlo.reshape main_v165 main_v166 rfl shapeCasts_S1x128_S128
  :: StableHlo.unary main_v166 main_v167 (broadcastInDim S1x128 ![1] bcast_S128_S1x128_1 : (⟨S128, .f32⟩ : BufTy).Contents (Elt F) → (⟨S1x128, .f32⟩ : BufTy).Contents (Elt F))
  :: StableHlo.unary main_v167 main_v168 (broadcastInDim S50000x128 ![0, 1] bcast_S1x128_S50000x128_0_1 : (⟨S1x128, .f32⟩ : BufTy).Contents (Elt F) → (⟨S50000x128, .f32⟩ : BufTy).Contents (Elt F))
  :: StableHlo.binary main_v164 main_v168 main_v169 (addf : (⟨S50000x128, .f32⟩ : BufTy).Contents (Elt F) → (⟨S50000x128, .f32⟩ : BufTy).Contents (Elt F) → (⟨S50000x128, .f32⟩ : BufTy).Contents (Elt F))
  :: StableHlo.binary main_v169 main_v161 main_v170 (addf : (⟨S50000x128, .f32⟩ : BufTy).Contents (Elt F) → (⟨S50000x128, .f32⟩ : BufTy).Contents (Elt F) → (⟨S50000x128, .f32⟩ : BufTy).Contents (Elt F))
  :: [] )

/-- The buffers the stretch writes, in order. -/
abbrev stS1_W : List (Ref sig .tc) :=
  [main_v162, main_v163, main_v164, main_v165, main_v166, main_v167, main_v168, main_v169, main_v170]

/-- Each operation of the stretch writes its one result buffer, which is in the list. -/
theorem stS1_writes : (stS1 : List (HloOp τ sig (Elt F))).Forall fun op =>
    op.writes ⊆ (stS1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stS1_keep (V : Valuation τ sig (Elt F)) (r : Ref sig .tc) (h : r ∉ stS1_W) :
    StableHlo.after stS1 V (Proc.devRef .tc r) = V (Proc.devRef .tc r) :=
  StableHlo.after_of_writes_sub stS1 V stS1_writes h

/-- Layer 1: the normalisation's scale and shift rows, and the mean and the variance over the nodes. Operations 218 … 249 of the 402. -/
abbrev stM1 : List (HloOp τ sig (Elt F)) :=
  ( StableHlo.unary main_arg6 main_v171 ((extractStridedSlice S1x128 ![1, 0] · slices_S3x128_S1x128_1_0) : (⟨S3x128, .f32⟩ : BufTy).Contents (Elt F) → (⟨S1x128, .f32⟩ : BufTy).Contents (Elt F))
  :: StableHlo.reshape main_v171 main_v172 rfl shapeCasts_S1x128_S128
  :: StableHlo.unary main_arg7 main_v173 ((extractStridedSlice S1x128 ![1, 0] · slices_S3x128_S1x128_1_0) : (⟨S3x128, .f32⟩ : BufTy).Contents (Elt F) → (⟨S1x128, .f32⟩ : BufTy).Contents (Elt F))
  :: StableHlo.reshape main_v173 main_v174 rfl shapeCasts_S1x128_S128
  :: StableHlo.nullary main_cst_20 (constant S_ .f32 0x00000000#32)
  :: StableHlo.binary main_v170 main_cst_20 main_v175 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_21 (constant S_ .f32 0x47435000#32)
  :: StableHlo.unary main_cst_21 main_v176 (broadcastInDim S128 ![] bcast_S_S128 : (⟨S_, .f32⟩ : BufTy).Contents (Elt F) → (⟨S128, .f32⟩ : BufTy).Contents (Elt F))
  :: StableHlo.binary main_v175 main_v176 main_v177 (Host.divf : (⟨S128, .f32⟩ : BufTy).Contents (Elt F) → (⟨S128, .f32⟩ : BufTy).Contents (Elt F) → (⟨S128, .f32⟩ : BufTy).Contents (Elt F))
  :: StableHlo.nullary main_c_22 (constantI S_ 32 0#32)
  :: StableHlo.TRef.nullary main_call3.cst (constant S_ .f32 0x00000000#32)
  :: StableHlo.TRef.binary (.of main_v170) main_call3.cst main_call3.v0 (fun x v => Host.reduceAdd x v reducesTo_S50000x128_S128_d0 h_S_)
  :: StableHlo.TRef.unary main_call3.v0 main_call3.v1 (broadcastInDim S1x128 ![1] bcast_S128_S1x128_1)
  :: StableHlo.TRef.nullary main_call3.cst_0 (constant S_ .f32 0x47435000#32)
  :: StableHlo.TRef.unary main_call3.cst_0 main_call3.v2 (broadcastInDim S1x128 ![] bcast_S_S1x128)
  :: StableHlo.TRef.binary main_call3.v1 main_call3.v2 main_call3.v3 Host.divf
  :: StableHlo.TRef.unary main_call3.v3 main_call3.v4 (broadcastInDim S50000x128 ![0, 1] bcast_S1x128_S50000x128_0_1)
  :: StableHlo.TRef.binary (.of main_v170) main_call3.v4 main_call3.v5 subf
  :: StableHlo.TRef.binary main_call3.v5 main_call3.v5 main_call3.v6 mulf
  :: StableHlo.TRef.unary (.of main_c_22) main_call3.v7 (sitofp .f32)
  :: StableHlo.TRef.nullary main_call3.cst_1 (constant S_ .f32 0x47435000#32)
  :: StableHlo.TRef.binary main_call3.cst_1 main_call3.v7 main_call3.v8 subf
  :: StableHlo.TRef.nullary main_call3.cst_2 (constant S_ .f32 0x00000000#32)
  :: StableHlo.TRef.binary main_call3.v6 main_call3.cst_2 main_call3.v9 (fun x v => Host.reduceAdd x v reducesTo_S50000x128_S128_d0 h_S_)
  :: StableHlo.TRef.unary main_call3.v8 main_call3.v10 (broadcastInDim S128 ![] bcast_S_S128)
  :: StableHlo.TRef.binary main_call3.v9 main_call3.v10 main_call3.v11 Host.divf
  :: StableHlo.TRef.nullary main_call3.cst_3 (constant S_ .f32 0x00000000#32)
  :: StableHlo.TRef.binary main_call3.v8 main_call3.cst_3 main_call3.v12 (cmpf .ogt)
  :: StableHlo.TRef.nullary main_call3.cst_4 (constant S_ .f32 0x7FC00000#32)
  :: StableHlo.TRef.unary main_call3.cst_4 main_call3.call0.v0 id
  :: StableHlo.TRef.unary main_call3.call0.v0 main_call3.call0.v1 (broadcastInDim S128 ![] bcast_S_S128)
  :: StableHlo.TRef.ternary main_call3.v12 main_call3.v11 main_call3.call0.v1 main_call3.call0.v2 (fun p a b => select (broadcastInDim S128 ![] bcast_S_S128 p) a b)
  :: [] )

/-- The buffers the stretch writes, in order. -/
abbrev stM1_W : List (Ref sig .tc) :=
  [main_v171, main_v172, main_v173, main_v174, main_cst_20, main_v175, main_cst_21, main_v176, main_v177, main_c_22, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v178]

/-- Each operation of the stretch writes its one result buffer, which is in the list. -/
theorem stM1_writes : (stM1 : List (HloOp τ sig (Elt F))).Forall fun op =>
    op.writes ⊆ (stM1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stM1_keep (V : Valuation τ sig (Elt F)) (r : Ref sig .tc) (h : r ∉ stM1_W) :
    StableHlo.after stM1 V (Proc.devRef .tc r) = V (Proc.devRef .tc r) :=
  StableHlo.after_of_writes_sub stM1 V stM1_writes h

/-- Layer 1: the normalisation applied, then the rectifier. Operations 250 … 268 of the 402. -/
abbrev stN1 : List (HloOp τ sig (Elt F)) :=
  ( StableHlo.unary main_v177 main_v179 (broadcastInDim S1x128 ![1] bcast_S128_S1x128_1 : (⟨S128, .f32⟩ : BufTy).Contents (Elt F) → (⟨S1x128, .f32⟩ : BufTy).Contents (Elt F))
  :: StableHlo.unary main_v179 main_v180 (broadcastInDim S50000x128 ![0, 1] bcast_S1x128_S50000x128_0_1 : (⟨S1x128, .f32⟩ : BufTy).Contents (Elt F) → (⟨S50000x128, .f32⟩ : BufTy).Contents (Elt F))
  :: StableHlo.binary main_v170 main_v180 main_v181 (subf : (⟨S50000x128, .f32⟩ : BufTy).Contents (Elt F) → (⟨S50000x128, .f32⟩ : BufTy).Contents (Elt F) → (⟨S50000x128, .f32⟩ : BufTy).Contents (Elt F))
  :: StableHlo.unary main_v172 main_v182 (broadcastInDim S1x128 ![1] bcast_S128_S1x128_1 : (⟨S128, .f32⟩ : BufTy).Contents (Elt F) → (⟨S1x128, .f32⟩ : BufTy).Contents (Elt F))
  :: StableHlo.unary main_v182 main_v183 (broadcastInDim S50000x128 ![0, 1] bcast_S1x128_S50000x128_0_1 : (⟨S1x128, .f32⟩ : BufTy).Contents (Elt F) → (⟨S50000x128, .f32⟩ : BufTy).Contents (Elt F))
  :: StableHlo.binary main_v183 main_v181 main_v184 (mulf : (⟨S50000x128, .f32⟩ : BufTy).Contents (Elt F) → (⟨S50000x128, .f32⟩ : BufTy).Contents (Elt F) → (⟨S50000x128, .f32⟩ : BufTy).Contents (Elt F))
  :: StableHlo.nullary main_cst_23 (constant S_ .f32 0x3727C5AC#32)
  :: StableHlo.unary main_cst_23 main_v185 (broadcastInDim S128 ![] bcast_S_S128 : (⟨S_, .f32⟩ : BufTy).Contents (Elt F) → (⟨S128, .f32⟩ : BufTy).Contents (Elt F))
  :: StableHlo.binary main_v178 main_v185 main_v186 (addf : (⟨S128, .f32⟩ : BufTy).Contents (Elt F) → (⟨S128, .f32⟩ : BufTy).Contents (Elt F) → (⟨S128, .f32⟩ : BufTy).Contents (Elt F))
  :: StableHlo.unary main_v186 main_v187 (Host.rsqrt : (⟨S128, .f32⟩ : BufTy).Contents (Elt F) → (⟨S128, .f32⟩ : BufTy).Contents (Elt F))
  :: StableHlo.unary main_v187 main_v188 (broadcastInDim S1x128 ![1] bcast_S128_S1x128_1 : (⟨S128, .f32⟩ : BufTy).Contents (Elt F) → (⟨S1x128, .f32⟩ : BufTy).Contents (Elt F))
  :: StableHlo.unary main_v188 main_v189 (broadcastInDim S50000x128 ![0, 1] bcast_S1x128_S50000x128_0_1 : (⟨S1x128, .f32⟩ : BufTy).Contents (Elt F) → (⟨S50000x128, .f32⟩ : BufTy).Contents (Elt F))
  :: StableHlo.binary main_v184 main_v189 main_v190 (mulf : (⟨S50000x128, .f32⟩ : BufTy).Contents (Elt F) → (⟨S50000x128, .f32⟩ : BufTy).Contents (Elt F) → (⟨S50000x128, .f32⟩ : BufTy).Contents (Elt F))
  :: StableHlo.unary main_v174 main_v191 (broadcastInDim S1x128 ![1] bcast_S128_S1x128_1 : (⟨S128, .f32⟩ : BufTy).Contents (Elt F) → (⟨S1x128, .f32⟩ : BufTy).Contents (Elt F))
  :: StableHlo.unary main_v191 main_v192 (broadcastInDim S50000x128 ![0, 1] bcast_S1x128_S50000x128_0_1 : (⟨S1x128, .f32⟩ : BufTy).Contents (Elt F) → (⟨S50000x128, .f32⟩ : BufTy).Contents (Elt F))
  :: StableHlo.binary main_v190 main_v192 main_v193 (addf : (⟨S50000x128, .f32⟩ : BufTy).Contents (Elt F) → (⟨S50000x128, .f32⟩ : BufTy).Contents (Elt F) → (⟨S50000x128, .f32⟩ : BufTy).Contents (Elt F))
  :: StableHlo.TRef.nullary main_call4.cst (constant S_ .f32 0x00000000#32)
  :: StableHlo.TRef.unary main_call4.cst main_call4.v0 (broadcastInDim S50000x128 ![] bcast_S_S50000x128)
  :: StableHlo.TRef.binary (.of main_v193) main_call4.v0 main_call4.v1 maximumf
  :: [] )

/-- The buffers the stretch writes, in order. -/
abbrev stN1_W : List (Ref sig .tc) :=
  [main_v179, main_v180, main_v181, main_v182, main_v183, main_v184, main_cst_23, main_v185, main_v186, main_v187, main_v188, main_v189, main_v190, main_v191, main_v192, main_v193, main_call4_cst, main_call4_v0, main_v194]

/-- Each operation of the stretch writes its one result buffer, which is in the list. -/
theorem stN1_writes : (stN1 : List (HloOp τ sig (Elt F))).Forall fun op =>
    op.writes ⊆ (stN1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stN1_keep (V : Valuation τ sig (Elt F)) (r : Ref sig .tc) (h : r ∉ stN1_W) :
    StableHlo.after stN1 V (Proc.devRef .tc r) = V (Proc.devRef .tc r) :=
  StableHlo.after_of_writes_sub stN1 V stN1_writes h

/-- Layer 2: its weights and biases out of the stacked arrays, and the key, query and value maps of the features. Operations 269 … 296 of the 402. -/
abbrev stA2 : List (HloOp τ sig (Elt F)) :=
  ( StableHlo.unary main_arg4 main_v195 ((extractStridedSlice S1x4x128x128 ![2, 0, 0, 0] · slices_S3x4x128x128_S1x4x128x128_2_0_0_0) : (⟨S3x4x128x128, .f32⟩ : BufTy).Contents (Elt F) → (⟨S1x4x128x128, .f32⟩ : BufTy).Contents (Elt F))
  :: StableHlo.reshape main_v195 main_v196 rfl shapeCasts_S1x4x128x128_S4x128x128
  :: StableHlo.unary main_arg5 main_v197 ((extractStridedSlice S1x4x128 ![2, 0, 0] · slices_S3x4x128_S1x4x128_2_0_0) : (⟨S3x4x128, .f32⟩ : BufTy).Contents (Elt F) → (⟨S1x4x128, .f32⟩ : BufTy).Contents (Elt F))
  :: StableHlo.reshape main_v197 main_v198 rfl shapeCasts_S1x4x128_S4x128
  :: StableHlo.unary main_v196 main_v199 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v199 main_v200 rfl shapeCasts_S1x128x128_S128x128
  :: StableHlo.binary main_v194 main_v200 main_v201 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v202 ((extractStridedSlice S1x128 ![0, 0] · slices_S4x128_S1x128_0_0) : (⟨S4x128, .f32⟩ : BufTy).Contents (Elt F) → (⟨S1x128, .f32⟩ : BufTy).Contents (Elt F))
  :: StableHlo.reshape main_v202 main_v203 rfl shapeCasts_S1x128_S128
  :: StableHlo.unary main_v203 main_v204 (broadcastInDim S1x128 ![1] bcast_S128_S1x128_1 : (⟨S128, .f32⟩ : BufTy).Contents (Elt F) → (⟨S1x128, .f32⟩ : BufTy).Contents (Elt F))
  :: StableHlo.unary main_v204 main_v205 (broadcastInDim S50000x128 ![0, 1] bcast_S1x128_S50000x128_0_1 : (⟨S1x128, .f32⟩ : BufTy).Contents (Elt F) → (⟨S50000x128, .f32⟩ : BufTy).Contents (Elt F))
  :: StableHlo.binary main_v201 main_v205 main_v206 (addf : (⟨S50000x128, .f32⟩ : BufTy).Contents (Elt F) → (⟨S50000x128, .f32⟩ : BufTy).Contents (Elt F) → (⟨S50000x128, .f32⟩ : BufTy).Contents (Elt F))
  :: StableHlo.unary main_v196 main_v207 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v207 main_v208 rfl shapeCasts_S1x128x128_S128x128
  :: StableHlo.binary main_v194 main_v208 main_v209 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v210 ((extractStridedSlice S1x128 ![1, 0] · slices_S4x128_S1x128_1_0) : (⟨S4x128, .f32⟩ : BufTy).Contents (Elt F) → (⟨S1x128, .f32⟩ : BufTy).Contents (Elt F))
  :: StableHlo.reshape main_v210 main_v211 rfl shapeCasts_S1x128_S128
  :: StableHlo.unary main_v211 main_v212 (broadcastInDim S1x128 ![1] bcast_S128_S1x128_1 : (⟨S128, .f32⟩ : BufTy).Contents (Elt F) → (⟨S1x128, .f32⟩ : BufTy).Contents (Elt F))
  :: StableHlo.unary main_v212 main_v213 (broadcastInDim S50000x128 ![0, 1] bcast_S1x128_S50000x128_0_1 : (⟨S1x128, .f32⟩ : BufTy).Contents (Elt F) → (⟨S50000x128, .f32⟩ : BufTy).Contents (Elt F))
  :: StableHlo.binary main_v209 main_v213 main_v214 (addf : (⟨S50000x128, .f32⟩ : BufTy).Contents (Elt F) → (⟨S50000x128, .f32⟩ : BufTy).Contents (Elt F) → (⟨S50000x128, .f32⟩ : BufTy).Contents (Elt F))
  :: StableHlo.unary main_v196 main_v215 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v215 main_v216 rfl shapeCasts_S1x128x128_S128x128
  :: StableHlo.binary main_v194 main_v216 main_v217 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v218 ((extractStridedSlice S1x128 ![2, 0] · slices_S4x128_S1x128_2_0) : (⟨S4x128, .f32⟩ : BufTy).Contents (Elt F) → (⟨S1x128, .f32⟩ : BufTy).Contents (Elt F))
  :: StableHlo.reshape main_v218 main_v219 rfl shapeCasts_S1x128_S128
  :: StableHlo.unary main_v219 main_v220 (broadcastInDim S1x128 ![1] bcast_S128_S1x128_1 : (⟨S128, .f32⟩ : BufTy).Contents (Elt F) → (⟨S1x128, .f32⟩ : BufTy).Contents (Elt F))
  :: StableHlo.unary main_v220 main_v221 (broadcastInDim S50000x128 ![0, 1] bcast_S1x128_S50000x128_0_1 : (⟨S1x128, .f32⟩ : BufTy).Contents (Elt F) → (⟨S50000x128, .f32⟩ : BufTy).Contents (Elt F))
  :: StableHlo.binary main_v217 main_v221 main_v222 (addf : (⟨S50000x128, .f32⟩ : BufTy).Contents (Elt F) → (⟨S50000x128, .f32⟩ : BufTy).Contents (Elt F) → (⟨S50000x128, .f32⟩ : BufTy).Contents (Elt F))
  :: [] )

/-- The buffers the stretch writes, in order. -/
abbrev stA2_W : List (Ref sig .tc) :=
  [main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222]

/-- Each operation of the stretch writes its one result buffer, which is in the list. -/
theorem stA2_writes : (stA2 : List (HloOp τ sig (Elt F))).Forall fun op =>
    op.writes ⊆ (stA2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stA2_keep (V : Valuation τ sig (Elt F)) (r : Ref sig .tc) (h : r ∉ stA2_W) :
    StableHlo.after stA2 V (Proc.devRef .tc r) = V (Proc.devRef .tc r) :=
  StableHlo.after_of_writes_sub stA2 V stA2_writes h

/-- Layer 2: the gates, the logistic function of key at the target plus query at the source, per edge. Operations 297 … 323 of the 402. -/
abbrev stG2 : List (HloOp τ sig (Elt F)) :=
  ( StableHlo.nullary main_c_24 (constantI S_ 32 0#32)
  :: StableHlo.unary main_c_24 main_v223 (broadcastInDim S600000 ![] bcast_S_S600000 : (⟨S_, .i32⟩ : BufTy).Contents (Elt F) → (⟨S600000, .i32⟩ : BufTy).Contents (Elt F))
  :: StableHlo.binary main_v3 main_v223 main_v224 (cmpi .slt : (⟨S600000, .i32⟩ : BufTy).Contents (Elt F) → (⟨S600000, .i32⟩ : BufTy).Contents (Elt F) → (⟨S600000, .i1⟩ : BufTy).Contents (Elt F))
  :: StableHlo.nullary main_c_25 (constantI S_ 32 50000#32)
  :: StableHlo.unary main_c_25 main_v225 (broadcastInDim S600000 ![] bcast_S_S600000 : (⟨S_, .i32⟩ : BufTy).Contents (Elt F) → (⟨S600000, .i32⟩ : BufTy).Contents (Elt F))
  :: StableHlo.binary main_v3 main_v225 main_v226 (addi : (⟨S600000, .i32⟩ : BufTy).Contents (Elt F) → (⟨S600000, .i32⟩ : BufTy).Contents (Elt F) → (⟨S600000, .i32⟩ : BufTy).Contents (Elt F))
  :: StableHlo.ternary main_v224 main_v226 main_v3 main_v227 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v227 main_v228 (broadcastInDim S600000x1 ![0] bcast_S600000_S600000x1_0 : (⟨S600000, .i32⟩ : BufTy).Contents (Elt F) → (⟨S600000x1, .i32⟩ : BufTy).Contents (Elt F))
  :: StableHlo.binary main_v206 main_v228 main_v229 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.nullary main_c_26 (constantI S_ 32 0#32)
  :: StableHlo.unary main_c_26 main_v230 (broadcastInDim S600000 ![] bcast_S_S600000 : (⟨S_, .i32⟩ : BufTy).Contents (Elt F) → (⟨S600000, .i32⟩ : BufTy).Contents (Elt F))
  :: StableHlo.binary main_v1 main_v230 main_v231 (cmpi .slt : (⟨S600000, .i32⟩ : BufTy).Contents (Elt F) → (⟨S600000, .i32⟩ : BufTy).Contents (Elt F) → (⟨S600000, .i1⟩ : BufTy).Contents (Elt F))
  :: StableHlo.nullary main_c_27 (constantI S_ 32 50000#32)
  :: StableHlo.unary main_c_27 main_v232 (broadcastInDim S600000 ![] bcast_S_S600000 : (⟨S_, .i32⟩ : BufTy).Contents (Elt F) → (⟨S600000, .i32⟩ : BufTy).Contents (Elt F))
  :: StableHlo.binary main_v1 main_v232 main_v233 (addi : (⟨S600000, .i32⟩ : BufTy).Contents (Elt F) → (⟨S600000, .i32⟩ : BufTy).Contents (Elt F) → (⟨S600000, .i32⟩ : BufTy).Contents (Elt F))
  :: StableHlo.ternary main_v231 main_v233 main_v1 main_v234 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v234 main_v235 (broadcastInDim S600000x1 ![0] bcast_S600000_S600000x1_0 : (⟨S600000, .i32⟩ : BufTy).Contents (Elt F) → (⟨S600000x1, .i32⟩ : BufTy).Contents (Elt F))
  :: StableHlo.binary main_v214 main_v235 main_v236 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v229 main_v236 main_v237 (addf : (⟨S600000x128, .f32⟩ : BufTy).Contents (Elt F) → (⟨S600000x128, .f32⟩ : BufTy).Contents (Elt F) → (⟨S600000x128, .f32⟩ : BufTy).Contents (Elt F))
  :: StableHlo.unary main_v237 main_v238 (Host.negf : (⟨S600000x128, .f32⟩ : BufTy).Contents (Elt F) → (⟨S600000x128, .f32⟩ : BufTy).Contents (Elt F))
  :: StableHlo.unary main_v238 main_v239 (Host.exp : (⟨S600000x128, .f32⟩ : BufTy).Contents (Elt F) → (⟨S600000x128, .f32⟩ : BufTy).Contents (Elt F))
  :: StableHlo.nullary main_cst_28 (constant S_ .f32 0x3F800000#32)
  :: StableHlo.unary main_cst_28 main_v240 (broadcastInDim S600000x128 ![] bcast_S_S600000x128 : (⟨S_, .f32⟩ : BufTy).Contents (Elt F) → (⟨S600000x128, .f32⟩ : BufTy).Contents (Elt F))
  :: StableHlo.binary main_v240 main_v239 main_v241 (addf : (⟨S600000x128, .f32⟩ : BufTy).Contents (Elt F) → (⟨S600000x128, .f32⟩ : BufTy).Contents (Elt F) → (⟨S600000x128, .f32⟩ : BufTy).Contents (Elt F))
  :: StableHlo.nullary main_cst_29 (constant S_ .f32 0x3F800000#32)
  :: StableHlo.unary main_cst_29 main_v242 (broadcastInDim S600000x128 ![] bcast_S_S600000x128 : (⟨S_, .f32⟩ : BufTy).Contents (Elt F) → (⟨S600000x128, .f32⟩ : BufTy).Contents (Elt F))
  :: StableHlo.binary main_v242 main_v241 main_v243 (Host.divf : (⟨S600000x128, .f32⟩ : BufTy).Contents (Elt F) → (⟨S600000x128, .f32⟩ : BufTy).Contents (Elt F) → (⟨S600000x128, .f32⟩ : BufTy).Contents (Elt F))
  :: [] )

/-- The buffers the stretch writes, in order. -/
abbrev stG2_W : List (Ref sig .tc) :=
  [main_c_24, main_v223, main_v224, main_c_25, main_v225, main_v226, main_v227, main_v228, main_v229, main_c_26, main_v230, main_v231, main_c_27, main_v232, main_v233, main_v234, main_v235, main_v236, main_v237, main_v238, main_v239, main_cst_28, main_v240, main_v241, main_cst_29, main_v242, main_v243]

/-- Each operation of the stretch writes its one result buffer, which is in the list. -/
theorem stG2_writes : (stG2 : List (HloOp τ sig (Elt F))).Forall fun op =>
    op.writes ⊆ (stG2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stG2_keep (V : Valuation τ sig (Elt F)) (r : Ref sig .tc) (h : r ∉ stG2_W) :
    StableHlo.after stG2 V (Proc.devRef .tc r) = V (Proc.devRef .tc r) :=
  StableHlo.after_of_writes_sub stG2 V stG2_writes h

/-- Layer 2: the gated values at the sources, summed at the targets. Operations 324 … 337 of the 402. -/
abbrev stE2 : List (HloOp τ sig (Elt F)) :=
  ( StableHlo.nullary main_c_30 (constantI S_ 32 0#32)
  :: StableHlo.unary main_c_30 main_v244 (broadcastInDim S600000 ![] bcast_S_S600000 : (⟨S_, .i32⟩ : BufTy).Contents (Elt F) → (⟨S600000, .i32⟩ : BufTy).Contents (Elt F))
  :: StableHlo.binary main_v1 main_v244 main_v245 (cmpi .slt : (⟨S600000, .i32⟩ : BufTy).Contents (Elt F) → (⟨S600000, .i32⟩ : BufTy).Contents (Elt F) → (⟨S600000, .i1⟩ : BufTy).Contents (Elt F))
  :: StableHlo.nullary main_c_31 (constantI S_ 32 50000#32)
  :: StableHlo.unary main_c_31 main_v246 (broadcastInDim S600000 ![] bcast_S_S600000 : (⟨S_, .i32⟩ : BufTy).Contents (Elt F) → (⟨S600000, .i32⟩ : BufTy).Contents (Elt F))
  :: StableHlo.binary main_v1 main_v246 main_v247 (addi : (⟨S600000, .i32⟩ : BufTy).Contents (Elt F) → (⟨S600000, .i32⟩ : BufTy).Contents (Elt F) → (⟨S600000, .i32⟩ : BufTy).Contents (Elt F))
  :: StableHlo.ternary main_v245 main_v247 main_v1 main_v248 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v248 main_v249 (broadcastInDim S600000x1 ![0] bcast_S600000_S600000x1_0 : (⟨S600000, .i32⟩ : BufTy).Contents (Elt F) → (⟨S600000x1, .i32⟩ : BufTy).Contents (Elt F))
  :: StableHlo.binary main_v222 main_v249 main_v250 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))
  :: StableHlo.binary main_v243 main_v250 main_v251 (mulf : (⟨S600000x128, .f32⟩ : BufTy).Contents (Elt F) → (⟨S600000x128, .f32⟩ : BufTy).Contents (Elt F) → (⟨S600000x128, .f32⟩ : BufTy).Contents (Elt F))
  :: StableHlo.nullary main_cst_32 (constant S_ .f32 0x00000000#32)
  :: StableHlo.unary main_cst_32 main_v252 (broadcastInDim S50000x128 ![] bcast_S_S50000x128 : (⟨S_, .f32⟩ : BufTy).Contents (Elt F) → (⟨S50000x128, .f32⟩ : BufTy).Contents (Elt F))
  :: StableHlo.unary main_v3 main_v253 (broadcastInDim S600000x1 ![0] bcast_S600000_S600000x1_0 : (⟨S600000, .i32⟩ : BufTy).Contents (Elt F) → (⟨S600000x1, .i32⟩ : BufTy).Contents (Elt F))
  :: StableHlo.ternary main_v252 main_v253 main_v251 main_v254 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))
  :: [] )

/-- The buffers the stretch writes, in order. -/
abbrev stE2_W : List (Ref sig .tc) :=
  [main_c_30, main_v244, main_v245, main_c_31, main_v246, main_v247, main_v248, main_v249, main_v250, main_v251, main_cst_32, main_v252, main_v253, main_v254]

/-- Each operation of the stretch writes its one result buffer, which is in the list. -/
theorem stE2_writes : (stE2 : List (HloOp τ sig (Elt F))).Forall fun op =>
    op.writes ⊆ (stE2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stE2_keep (V : Valuation τ sig (Elt F)) (r : Ref sig .tc) (h : r ∉ stE2_W) :
    StableHlo.after stE2 V (Proc.devRef .tc r) = V (Proc.devRef .tc r) :=
  StableHlo.after_of_writes_sub stE2 V stE2_writes h

/-- Layer 2: the skip map of the features, plus the summed messages. Operations 338 … 346 of the 402. -/
abbrev stS2 : List (HloOp τ sig (Elt F)) :=
  ( StableHlo.unary main_v196 main_v255 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v255 main_v256 rfl shapeCasts_S1x128x128_S128x128
  :: StableHlo.binary main_v194 main_v256 main_v257 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v198 main_v258 ((extractStridedSlice S1x128 ![3, 0] · slices_S4x128_S1x128_3_0) : (⟨S4x128, .f32⟩ : BufTy).Contents (Elt F) → (⟨S1x128, .f32⟩ : BufTy).Contents (Elt F))
  :: StableHlo.reshape main_v258 main_v259 rfl shapeCasts_S1x128_S128
  :: StableHlo.unary main_v259 main_v260 (broadcastInDim S1x128 ![1] bcast_S128_S1x128_1 : (⟨S128, .f32⟩ : BufTy).Contents (Elt F) → (⟨S1x128, .f32⟩ : BufTy).Contents (Elt F))
  :: StableHlo.unary main_v260 main_v261 (broadcastInDim S50000x128 ![0, 1] bcast_S1x128_S50000x128_0_1 : (⟨S1x128, .f32⟩ : BufTy).Contents (Elt F) → (⟨S50000x128, .f32⟩ : BufTy).Contents (Elt F))
  :: StableHlo.binary main_v257 main_v261 main_v262 (addf : (⟨S50000x128, .f32⟩ : BufTy).Contents (Elt F) → (⟨S50000x128, .f32⟩ : BufTy).Contents (Elt F) → (⟨S50000x128, .f32⟩ : BufTy).Contents (Elt F))
  :: StableHlo.binary main_v262 main_v254 main_v263 (addf : (⟨S50000x128, .f32⟩ : BufTy).Contents (Elt F) → (⟨S50000x128, .f32⟩ : BufTy).Contents (Elt F) → (⟨S50000x128, .f32⟩ : BufTy).Contents (Elt F))
  :: [] )

/-- The buffers the stretch writes, in order. -/
abbrev stS2_W : List (Ref sig .tc) :=
  [main_v255, main_v256, main_v257, main_v258, main_v259, main_v260, main_v261, main_v262, main_v263]

/-- Each operation of the stretch writes its one result buffer, which is in the list. -/
theorem stS2_writes : (stS2 : List (HloOp τ sig (Elt F))).Forall fun op =>
    op.writes ⊆ (stS2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stS2_keep (V : Valuation τ sig (Elt F)) (r : Ref sig .tc) (h : r ∉ stS2_W) :
    StableHlo.after stS2 V (Proc.devRef .tc r) = V (Proc.devRef .tc r) :=
  StableHlo.after_of_writes_sub stS2 V stS2_writes h

/-- Layer 2: the normalisation's scale and shift rows, and the mean and the variance over the nodes. Operations 347 … 378 of the 402. -/
abbrev stM2 : List (HloOp τ sig (Elt F)) :=
  ( StableHlo.unary main_arg6 main_v264 ((extractStridedSlice S1x128 ![2, 0] · slices_S3x128_S1x128_2_0) : (⟨S3x128, .f32⟩ : BufTy).Contents (Elt F) → (⟨S1x128, .f32⟩ : BufTy).Contents (Elt F))
  :: StableHlo.reshape main_v264 main_v265 rfl shapeCasts_S1x128_S128
  :: StableHlo.unary main_arg7 main_v266 ((extractStridedSlice S1x128 ![2, 0] · slices_S3x128_S1x128_2_0) : (⟨S3x128, .f32⟩ : BufTy).Contents (Elt F) → (⟨S1x128, .f32⟩ : BufTy).Contents (Elt F))
  :: StableHlo.reshape main_v266 main_v267 rfl shapeCasts_S1x128_S128
  :: StableHlo.nullary main_cst_33 (constant S_ .f32 0x00000000#32)
  :: StableHlo.binary main_v263 main_cst_33 main_v268 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_34 (constant S_ .f32 0x47435000#32)
  :: StableHlo.unary main_cst_34 main_v269 (broadcastInDim S128 ![] bcast_S_S128 : (⟨S_, .f32⟩ : BufTy).Contents (Elt F) → (⟨S128, .f32⟩ : BufTy).Contents (Elt F))
  :: StableHlo.binary main_v268 main_v269 main_v270 (Host.divf : (⟨S128, .f32⟩ : BufTy).Contents (Elt F) → (⟨S128, .f32⟩ : BufTy).Contents (Elt F) → (⟨S128, .f32⟩ : BufTy).Contents (Elt F))
  :: StableHlo.nullary main_c_35 (constantI S_ 32 0#32)
  :: StableHlo.TRef.nullary main_call5.cst (constant S_ .f32 0x00000000#32)
  :: StableHlo.TRef.binary (.of main_v263) main_call5.cst main_call5.v0 (fun x v => Host.reduceAdd x v reducesTo_S50000x128_S128_d0 h_S_)
  :: StableHlo.TRef.unary main_call5.v0 main_call5.v1 (broadcastInDim S1x128 ![1] bcast_S128_S1x128_1)
  :: StableHlo.TRef.nullary main_call5.cst_0 (constant S_ .f32 0x47435000#32)
  :: StableHlo.TRef.unary main_call5.cst_0 main_call5.v2 (broadcastInDim S1x128 ![] bcast_S_S1x128)
  :: StableHlo.TRef.binary main_call5.v1 main_call5.v2 main_call5.v3 Host.divf
  :: StableHlo.TRef.unary main_call5.v3 main_call5.v4 (broadcastInDim S50000x128 ![0, 1] bcast_S1x128_S50000x128_0_1)
  :: StableHlo.TRef.binary (.of main_v263) main_call5.v4 main_call5.v5 subf
  :: StableHlo.TRef.binary main_call5.v5 main_call5.v5 main_call5.v6 mulf
  :: StableHlo.TRef.unary (.of main_c_35) main_call5.v7 (sitofp .f32)
  :: StableHlo.TRef.nullary main_call5.cst_1 (constant S_ .f32 0x47435000#32)
  :: StableHlo.TRef.binary main_call5.cst_1 main_call5.v7 main_call5.v8 subf
  :: StableHlo.TRef.nullary main_call5.cst_2 (constant S_ .f32 0x00000000#32)
  :: StableHlo.TRef.binary main_call5.v6 main_call5.cst_2 main_call5.v9 (fun x v => Host.reduceAdd x v reducesTo_S50000x128_S128_d0 h_S_)
  :: StableHlo.TRef.unary main_call5.v8 main_call5.v10 (broadcastInDim S128 ![] bcast_S_S128)
  :: StableHlo.TRef.binary main_call5.v9 main_call5.v10 main_call5.v11 Host.divf
  :: StableHlo.TRef.nullary main_call5.cst_3 (constant S_ .f32 0x00000000#32)
  :: StableHlo.TRef.binary main_call5.v8 main_call5.cst_3 main_call5.v12 (cmpf .ogt)
  :: StableHlo.TRef.nullary main_call5.cst_4 (constant S_ .f32 0x7FC00000#32)
  :: StableHlo.TRef.unary main_call5.cst_4 main_call5.call0.v0 id
  :: StableHlo.TRef.unary main_call5.call0.v0 main_call5.call0.v1 (broadcastInDim S128 ![] bcast_S_S128)
  :: StableHlo.TRef.ternary main_call5.v12 main_call5.v11 main_call5.call0.v1 main_call5.call0.v2 (fun p a b => select (broadcastInDim S128 ![] bcast_S_S128 p) a b)
  :: [] )

/-- The buffers the stretch writes, in order. -/
abbrev stM2_W : List (Ref sig .tc) :=
  [main_v264, main_v265, main_v266, main_v267, main_cst_33, main_v268, main_cst_34, main_v269, main_v270, main_c_35, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v271]

/-- Each operation of the stretch writes its one result buffer, which is in the list. -/
theorem stM2_writes : (stM2 : List (HloOp τ sig (Elt F))).Forall fun op =>
    op.writes ⊆ (stM2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stM2_keep (V : Valuation τ sig (Elt F)) (r : Ref sig .tc) (h : r ∉ stM2_W) :
    StableHlo.after stM2 V (Proc.devRef .tc r) = V (Proc.devRef .tc r) :=
  StableHlo.after_of_writes_sub stM2 V stM2_writes h

/-- Layer 2: the normalisation applied, then the rectifier. Operations 379 … 397 of the 402. -/
abbrev stN2 : List (HloOp τ sig (Elt F)) :=
  ( StableHlo.unary main_v270 main_v272 (broadcastInDim S1x128 ![1] bcast_S128_S1x128_1 : (⟨S128, .f32⟩ : BufTy).Contents (Elt F) → (⟨S1x128, .f32⟩ : BufTy).Contents (Elt F))
  :: StableHlo.unary main_v272 main_v273 (broadcastInDim S50000x128 ![0, 1] bcast_S1x128_S50000x128_0_1 : (⟨S1x128, .f32⟩ : BufTy).Contents (Elt F) → (⟨S50000x128, .f32⟩ : BufTy).Contents (Elt F))
  :: StableHlo.binary main_v263 main_v273 main_v274 (subf : (⟨S50000x128, .f32⟩ : BufTy).Contents (Elt F) → (⟨S50000x128, .f32⟩ : BufTy).Contents (Elt F) → (⟨S50000x128, .f32⟩ : BufTy).Contents (Elt F))
  :: StableHlo.unary main_v265 main_v275 (broadcastInDim S1x128 ![1] bcast_S128_S1x128_1 : (⟨S128, .f32⟩ : BufTy).Contents (Elt F) → (⟨S1x128, .f32⟩ : BufTy).Contents (Elt F))
  :: StableHlo.unary main_v275 main_v276 (broadcastInDim S50000x128 ![0, 1] bcast_S1x128_S50000x128_0_1 : (⟨S1x128, .f32⟩ : BufTy).Contents (Elt F) → (⟨S50000x128, .f32⟩ : BufTy).Contents (Elt F))
  :: StableHlo.binary main_v276 main_v274 main_v277 (mulf : (⟨S50000x128, .f32⟩ : BufTy).Contents (Elt F) → (⟨S50000x128, .f32⟩ : BufTy).Contents (Elt F) → (⟨S50000x128, .f32⟩ : BufTy).Contents (Elt F))
  :: StableHlo.nullary main_cst_36 (constant S_ .f32 0x3727C5AC#32)
  :: StableHlo.unary main_cst_36 main_v278 (broadcastInDim S128 ![] bcast_S_S128 : (⟨S_, .f32⟩ : BufTy).Contents (Elt F) → (⟨S128, .f32⟩ : BufTy).Contents (Elt F))
  :: StableHlo.binary main_v271 main_v278 main_v279 (addf : (⟨S128, .f32⟩ : BufTy).Contents (Elt F) → (⟨S128, .f32⟩ : BufTy).Contents (Elt F) → (⟨S128, .f32⟩ : BufTy).Contents (Elt F))
  :: StableHlo.unary main_v279 main_v280 (Host.rsqrt : (⟨S128, .f32⟩ : BufTy).Contents (Elt F) → (⟨S128, .f32⟩ : BufTy).Contents (Elt F))
  :: StableHlo.unary main_v280 main_v281 (broadcastInDim S1x128 ![1] bcast_S128_S1x128_1 : (⟨S128, .f32⟩ : BufTy).Contents (Elt F) → (⟨S1x128, .f32⟩ : BufTy).Contents (Elt F))
  :: StableHlo.unary main_v281 main_v282 (broadcastInDim S50000x128 ![0, 1] bcast_S1x128_S50000x128_0_1 : (⟨S1x128, .f32⟩ : BufTy).Contents (Elt F) → (⟨S50000x128, .f32⟩ : BufTy).Contents (Elt F))
  :: StableHlo.binary main_v277 main_v282 main_v283 (mulf : (⟨S50000x128, .f32⟩ : BufTy).Contents (Elt F) → (⟨S50000x128, .f32⟩ : BufTy).Contents (Elt F) → (⟨S50000x128, .f32⟩ : BufTy).Contents (Elt F))
  :: StableHlo.unary main_v267 main_v284 (broadcastInDim S1x128 ![1] bcast_S128_S1x128_1 : (⟨S128, .f32⟩ : BufTy).Contents (Elt F) → (⟨S1x128, .f32⟩ : BufTy).Contents (Elt F))
  :: StableHlo.unary main_v284 main_v285 (broadcastInDim S50000x128 ![0, 1] bcast_S1x128_S50000x128_0_1 : (⟨S1x128, .f32⟩ : BufTy).Contents (Elt F) → (⟨S50000x128, .f32⟩ : BufTy).Contents (Elt F))
  :: StableHlo.binary main_v283 main_v285 main_v286 (addf : (⟨S50000x128, .f32⟩ : BufTy).Contents (Elt F) → (⟨S50000x128, .f32⟩ : BufTy).Contents (Elt F) → (⟨S50000x128, .f32⟩ : BufTy).Contents (Elt F))
  :: StableHlo.TRef.nullary main_call6.cst (constant S_ .f32 0x00000000#32)
  :: StableHlo.TRef.unary main_call6.cst main_call6.v0 (broadcastInDim S50000x128 ![] bcast_S_S50000x128)
  :: StableHlo.TRef.binary (.of main_v286) main_call6.v0 main_call6.v1 maximumf
  :: [] )

/-- The buffers the stretch writes, in order. -/
abbrev stN2_W : List (Ref sig .tc) :=
  [main_v272, main_v273, main_v274, main_v275, main_v276, main_v277, main_cst_36, main_v278, main_v279, main_v280, main_v281, main_v282, main_v283, main_v284, main_v285, main_v286, main_call6_cst, main_call6_v0, main_v287]

/-- Each operation of the stretch writes its one result buffer, which is in the list. -/
theorem stN2_writes : (stN2 : List (HloOp τ sig (Elt F))).Forall fun op =>
    op.writes ⊆ (stN2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stN2_keep (V : Valuation τ sig (Elt F)) (r : Ref sig .tc) (h : r ∉ stN2_W) :
    StableHlo.after stN2 V (Proc.devRef .tc r) = V (Proc.devRef .tc r) :=
  StableHlo.after_of_writes_sub stN2 V stN2_writes h

/-- The output head. Operations 398 … 401 of the 402. -/
abbrev stH : List (HloOp τ sig (Elt F)) :=
  ( StableHlo.binary main_v287 main_arg8 main_v288 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F))
  :: StableHlo.unary main_arg9 main_v289 (broadcastInDim S1x32 ![1] bcast_S32_S1x32_1 : (⟨S32, .f32⟩ : BufTy).Contents (Elt F) → (⟨S1x32, .f32⟩ : BufTy).Contents (Elt F))
  :: StableHlo.unary main_v289 main_v290 (broadcastInDim S50000x32 ![0, 1] bcast_S1x32_S50000x32_0_1 : (⟨S1x32, .f32⟩ : BufTy).Contents (Elt F) → (⟨S50000x32, .f32⟩ : BufTy).Contents (Elt F))
  :: StableHlo.binary main_v288 main_v290 main_v291 (addf : (⟨S50000x32, .f32⟩ : BufTy).Contents (Elt F) → (⟨S50000x32, .f32⟩ : BufTy).Contents (Elt F) → (⟨S50000x32, .f32⟩ : BufTy).Contents (Elt F))
  :: [] )

/-- The buffers the stretch writes, in order. -/
abbrev stH_W : List (Ref sig .tc) :=
  [main_v288, main_v289, main_v290, main_v291]

/-- Each operation of the stretch writes its one result buffer, which is in the list. -/
theorem stH_writes : (stH : List (HloOp τ sig (Elt F))).Forall fun op =>
    op.writes ⊆ (stH_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer the stretch does not write keeps its contents through it. -/
theorem stH_keep (V : Valuation τ sig (Elt F)) (r : Ref sig .tc) (h : r ∉ stH_W) :
    StableHlo.after stH V (Proc.devRef .tc r) = V (Proc.devRef .tc r) :=
  StableHlo.after_of_writes_sub stH V stH_writes h

/-- The stretches in order are @main's operations: the same 402, cut elsewhere than the windows are. -/
theorem ops_split : (ops : List (HloOp τ sig (Elt F))) = stP ++ (stA0 ++ (stG0 ++ (stE0 ++ (stS0 ++ (stM0 ++ (stN0 ++ (stA1 ++ (stG1 ++ (stE1 ++ (stS1 ++ (stM1 ++ (stN1 ++ (stA2 ++ (stG2 ++ (stE2 ++ (stS2 ++ (stM2 ++ (stN2 ++ (stH))))))))))))))))))) := by
  chain_rfl

end Cert.ReferenceIdeal.Hand

end
-- ==== Proof.Ref.Read.lean ====
import proofs.«180311_j29308856828500_2_alg».proof.Proof.Ref.Stretch
import proofs.«180311_j29308856828500_2_alg».proof.Proof.Ref.Spec

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Each stretch read back, from any contents `W`: every buffer a later stretch reads (and the result) holds one of the
    reference's functions applied to what the stretch itself read. The fold is unrolled, each operation's result read at
    its own buffer and passed over at every other, and what is left is the function's own definition. -/

/-- After the stretch, from any contents `W`: `main_v1` holds this function of what the stretch read. -/
theorem stP_main_v1 (W : Valuation τ sig (Elt F)) :
    StableHlo.after stP W (Proc.devRef .tc main_v1) = srcIdx (W (Proc.devRef .tc main_arg1)) := by
  simp only [stP]
  after_results_simp
  rfl

/-- After the stretch, from any contents `W`: `main_v3` holds this function of what the stretch read. -/
theorem stP_main_v3 (W : Valuation τ sig (Elt F)) :
    StableHlo.after stP W (Proc.devRef .tc main_v3) = dstIdx (W (Proc.devRef .tc main_arg1)) := by
  simp only [stP]
  after_results_simp
  rfl

/-- After the stretch, from any contents `W`: `main_v8` holds this function of what the stretch read. -/
theorem stP_main_v8 (W : Valuation τ sig (Elt F)) :
    StableHlo.after stP W (Proc.devRef .tc main_v8) = proj (W (Proc.devRef .tc main_arg0)) (W (Proc.devRef .tc main_arg2)) (W (Proc.devRef .tc main_arg3)) := by
  simp only [stP]
  after_results_simp
  rfl

/-- After the stretch, from any contents `W`: `main_v10` holds this function of what the stretch read. -/
theorem stA0_main_v10 (W : Valuation τ sig (Elt F)) :
    StableHlo.after stA0 W (Proc.devRef .tc main_v10) = convW0 (W (Proc.devRef .tc main_arg4)) := by
  simp only [stA0]
  after_results_simp
  rfl

/-- After the stretch, from any contents `W`: `main_v12` holds this function of what the stretch read. -/
theorem stA0_main_v12 (W : Valuation τ sig (Elt F)) :
    StableHlo.after stA0 W (Proc.devRef .tc main_v12) = convB0 (W (Proc.devRef .tc main_arg5)) := by
  simp only [stA0]
  after_results_simp
  rfl

/-- After the stretch, from any contents `W`: `main_v20` holds this function of what the stretch read. -/
theorem stA0_main_v20 (W : Valuation τ sig (Elt F)) :
    StableHlo.after stA0 W (Proc.devRef .tc main_v20) = lin (W (Proc.devRef .tc main_v8)) (mat0 (convW0 (W (Proc.devRef .tc main_arg4)))) (vec0 (convB0 (W (Proc.devRef .tc main_arg5)))) := by
  simp only [stA0]
  after_results_simp
  rfl

/-- After the stretch, from any contents `W`: `main_v28` holds this function of what the stretch read. -/
theorem stA0_main_v28 (W : Valuation τ sig (Elt F)) :
    StableHlo.after stA0 W (Proc.devRef .tc main_v28) = lin (W (Proc.devRef .tc main_v8)) (mat1 (convW0 (W (Proc.devRef .tc main_arg4)))) (vec1 (convB0 (W (Proc.devRef .tc main_arg5)))) := by
  simp only [stA0]
  after_results_simp
  rfl

/-- After the stretch, from any contents `W`: `main_v36` holds this function of what the stretch read. -/
theorem stA0_main_v36 (W : Valuation τ sig (Elt F)) :
    StableHlo.after stA0 W (Proc.devRef .tc main_v36) = lin (W (Proc.devRef .tc main_v8)) (mat2 (convW0 (W (Proc.devRef .tc main_arg4)))) (vec2 (convB0 (W (Proc.devRef .tc main_arg5)))) := by
  simp only [stA0]
  after_results_simp
  rfl

/-- After the stretch, from any contents `W`: `main_v57` holds this function of what the stretch read. -/
theorem stG0_main_v57 (W : Valuation τ sig (Elt F)) :
    StableHlo.after stG0 W (Proc.devRef .tc main_v57) = gate (W (Proc.devRef .tc main_v20)) (W (Proc.devRef .tc main_v28)) (W (Proc.devRef .tc main_v1)) (W (Proc.devRef .tc main_v3)) := by
  simp only [stG0]
  after_results_simp
  rfl

/-- After the stretch, from any contents `W`: `main_v68` holds this function of what the stretch read. -/
theorem stE0_main_v68 (W : Valuation τ sig (Elt F)) :
    StableHlo.after stE0 W (Proc.devRef .tc main_v68) = aggOf (W (Proc.devRef .tc main_v57)) (W (Proc.devRef .tc main_v36)) (W (Proc.devRef .tc main_v1)) (W (Proc.devRef .tc main_v3)) := by
  simp only [stE0]
  after_results_simp
  rfl

/-- After the stretch, from any contents `W`: `main_v77` holds this function of what the stretch read. -/
theorem stS0_main_v77 (W : Valuation τ sig (Elt F)) :
    StableHlo.after stS0 W (Proc.devRef .tc main_v77) = addf (lin (W (Proc.devRef .tc main_v8)) (mat3 (W (Proc.devRef .tc main_v10))) (vec3 (W (Proc.devRef .tc main_v12)))) (W (Proc.devRef .tc main_v68)) := by
  simp only [stS0]
  after_results_simp
  rfl

/-- After the stretch, from any contents `W`: `main_v79` holds this function of what the stretch read. -/
theorem stM0_main_v79 (W : Valuation τ sig (Elt F)) :
    StableHlo.after stM0 W (Proc.devRef .tc main_v79) = row0 (W (Proc.devRef .tc main_arg6)) := by
  simp only [stM0]
  after_results_simp
  rfl

/-- After the stretch, from any contents `W`: `main_v81` holds this function of what the stretch read. -/
theorem stM0_main_v81 (W : Valuation τ sig (Elt F)) :
    StableHlo.after stM0 W (Proc.devRef .tc main_v81) = row0 (W (Proc.devRef .tc main_arg7)) := by
  simp only [stM0]
  after_results_simp
  rfl

/-- After the stretch, from any contents `W`: `main_v84` holds this function of what the stretch read. -/
theorem stM0_main_v84 (W : Valuation τ sig (Elt F)) :
    StableHlo.after stM0 W (Proc.devRef .tc main_v84) = mean (W (Proc.devRef .tc main_v77)) := by
  simp only [stM0]
  after_results_simp
  rfl

/-- After the stretch, from any contents `W`: `main_v85` holds this function of what the stretch read. -/
theorem stM0_main_v85 (W : Valuation τ sig (Elt F)) :
    StableHlo.after stM0 W (Proc.devRef .tc main_v85) = var (W (Proc.devRef .tc main_v77)) := by
  simp only [stM0]
  after_results_simp
  rfl

/-- After the stretch, from any contents `W`: `main_v101` holds this function of what the stretch read. -/
theorem stN0_main_v101 (W : Valuation τ sig (Elt F)) :
    StableHlo.after stN0 W (Proc.devRef .tc main_v101) = relu (bnWith (W (Proc.devRef .tc main_v77)) (W (Proc.devRef .tc main_v79)) (W (Proc.devRef .tc main_v81)) (W (Proc.devRef .tc main_v84)) (W (Proc.devRef .tc main_v85))) := by
  simp only [stN0]
  after_results_simp
  rfl

/-- After the stretch, from any contents `W`: `main_v103` holds this function of what the stretch read. -/
theorem stA1_main_v103 (W : Valuation τ sig (Elt F)) :
    StableHlo.after stA1 W (Proc.devRef .tc main_v103) = convW1 (W (Proc.devRef .tc main_arg4)) := by
  simp only [stA1]
  after_results_simp
  rfl

/-- After the stretch, from any contents `W`: `main_v105` holds this function of what the stretch read. -/
theorem stA1_main_v105 (W : Valuation τ sig (Elt F)) :
    StableHlo.after stA1 W (Proc.devRef .tc main_v105) = convB1 (W (Proc.devRef .tc main_arg5)) := by
  simp only [stA1]
  after_results_simp
  rfl

/-- After the stretch, from any contents `W`: `main_v113` holds this function of what the stretch read. -/
theorem stA1_main_v113 (W : Valuation τ sig (Elt F)) :
    StableHlo.after stA1 W (Proc.devRef .tc main_v113) = lin (W (Proc.devRef .tc main_v101)) (mat0 (convW1 (W (Proc.devRef .tc main_arg4)))) (vec0 (convB1 (W (Proc.devRef .tc main_arg5)))) := by
  simp only [stA1]
  after_results_simp
  rfl

/-- After the stretch, from any contents `W`: `main_v121` holds this function of what the stretch read. -/
theorem stA1_main_v121 (W : Valuation τ sig (Elt F)) :
    StableHlo.after stA1 W (Proc.devRef .tc main_v121) = lin (W (Proc.devRef .tc main_v101)) (mat1 (convW1 (W (Proc.devRef .tc main_arg4)))) (vec1 (convB1 (W (Proc.devRef .tc main_arg5)))) := by
  simp only [stA1]
  after_results_simp
  rfl

/-- After the stretch, from any contents `W`: `main_v129` holds this function of what the stretch read. -/
theorem stA1_main_v129 (W : Valuation τ sig (Elt F)) :
    StableHlo.after stA1 W (Proc.devRef .tc main_v129) = lin (W (Proc.devRef .tc main_v101)) (mat2 (convW1 (W (Proc.devRef .tc main_arg4)))) (vec2 (convB1 (W (Proc.devRef .tc main_arg5)))) := by
  simp only [stA1]
  after_results_simp
  rfl

/-- After the stretch, from any contents `W`: `main_v150` holds this function of what the stretch read. -/
theorem stG1_main_v150 (W : Valuation τ sig (Elt F)) :
    StableHlo.after stG1 W (Proc.devRef .tc main_v150) = gate (W (Proc.devRef .tc main_v113)) (W (Proc.devRef .tc main_v121)) (W (Proc.devRef .tc main_v1)) (W (Proc.devRef .tc main_v3)) := by
  simp only [stG1]
  after_results_simp
  rfl

/-- After the stretch, from any contents `W`: `main_v161` holds this function of what the stretch read. -/
theorem stE1_main_v161 (W : Valuation τ sig (Elt F)) :
    StableHlo.after stE1 W (Proc.devRef .tc main_v161) = aggOf (W (Proc.devRef .tc main_v150)) (W (Proc.devRef .tc main_v129)) (W (Proc.devRef .tc main_v1)) (W (Proc.devRef .tc main_v3)) := by
  simp only [stE1]
  after_results_simp
  rfl

/-- After the stretch, from any contents `W`: `main_v170` holds this function of what the stretch read. -/
theorem stS1_main_v170 (W : Valuation τ sig (Elt F)) :
    StableHlo.after stS1 W (Proc.devRef .tc main_v170) = addf (lin (W (Proc.devRef .tc main_v101)) (mat3 (W (Proc.devRef .tc main_v103))) (vec3 (W (Proc.devRef .tc main_v105)))) (W (Proc.devRef .tc main_v161)) := by
  simp only [stS1]
  after_results_simp
  rfl

/-- After the stretch, from any contents `W`: `main_v172` holds this function of what the stretch read. -/
theorem stM1_main_v172 (W : Valuation τ sig (Elt F)) :
    StableHlo.after stM1 W (Proc.devRef .tc main_v172) = row1 (W (Proc.devRef .tc main_arg6)) := by
  simp only [stM1]
  after_results_simp
  rfl

/-- After the stretch, from any contents `W`: `main_v174` holds this function of what the stretch read. -/
theorem stM1_main_v174 (W : Valuation τ sig (Elt F)) :
    StableHlo.after stM1 W (Proc.devRef .tc main_v174) = row1 (W (Proc.devRef .tc main_arg7)) := by
  simp only [stM1]
  after_results_simp
  rfl

/-- After the stretch, from any contents `W`: `main_v177` holds this function of what the stretch read. -/
theorem stM1_main_v177 (W : Valuation τ sig (Elt F)) :
    StableHlo.after stM1 W (Proc.devRef .tc main_v177) = mean (W (Proc.devRef .tc main_v170)) := by
  simp only [stM1]
  after_results_simp
  rfl

/-- After the stretch, from any contents `W`: `main_v178` holds this function of what the stretch read. -/
theorem stM1_main_v178 (W : Valuation τ sig (Elt F)) :
    StableHlo.after stM1 W (Proc.devRef .tc main_v178) = var (W (Proc.devRef .tc main_v170)) := by
  simp only [stM1]
  after_results_simp
  rfl

/-- After the stretch, from any contents `W`: `main_v194` holds this function of what the stretch read. -/
theorem stN1_main_v194 (W : Valuation τ sig (Elt F)) :
    StableHlo.after stN1 W (Proc.devRef .tc main_v194) = relu (bnWith (W (Proc.devRef .tc main_v170)) (W (Proc.devRef .tc main_v172)) (W (Proc.devRef .tc main_v174)) (W (Proc.devRef .tc main_v177)) (W (Proc.devRef .tc main_v178))) := by
  simp only [stN1]
  after_results_simp
  rfl

/-- After the stretch, from any contents `W`: `main_v196` holds this function of what the stretch read. -/
theorem stA2_main_v196 (W : Valuation τ sig (Elt F)) :
    StableHlo.after stA2 W (Proc.devRef .tc main_v196) = convW2 (W (Proc.devRef .tc main_arg4)) := by
  simp only [stA2]
  after_results_simp
  rfl

/-- After the stretch, from any contents `W`: `main_v198` holds this function of what the stretch read. -/
theorem stA2_main_v198 (W : Valuation τ sig (Elt F)) :
    StableHlo.after stA2 W (Proc.devRef .tc main_v198) = convB2 (W (Proc.devRef .tc main_arg5)) := by
  simp only [stA2]
  after_results_simp
  rfl

/-- After the stretch, from any contents `W`: `main_v206` holds this function of what the stretch read. -/
theorem stA2_main_v206 (W : Valuation τ sig (Elt F)) :
    StableHlo.after stA2 W (Proc.devRef .tc main_v206) = lin (W (Proc.devRef .tc main_v194)) (mat0 (convW2 (W (Proc.devRef .tc main_arg4)))) (vec0 (convB2 (W (Proc.devRef .tc main_arg5)))) := by
  simp only [stA2]
  after_results_simp
  rfl

/-- After the stretch, from any contents `W`: `main_v214` holds this function of what the stretch read. -/
theorem stA2_main_v214 (W : Valuation τ sig (Elt F)) :
    StableHlo.after stA2 W (Proc.devRef .tc main_v214) = lin (W (Proc.devRef .tc main_v194)) (mat1 (convW2 (W (Proc.devRef .tc main_arg4)))) (vec1 (convB2 (W (Proc.devRef .tc main_arg5)))) := by
  simp only [stA2]
  after_results_simp
  rfl

/-- After the stretch, from any contents `W`: `main_v222` holds this function of what the stretch read. -/
theorem stA2_main_v222 (W : Valuation τ sig (Elt F)) :
    StableHlo.after stA2 W (Proc.devRef .tc main_v222) = lin (W (Proc.devRef .tc main_v194)) (mat2 (convW2 (W (Proc.devRef .tc main_arg4)))) (vec2 (convB2 (W (Proc.devRef .tc main_arg5)))) := by
  simp only [stA2]
  after_results_simp
  rfl

/-- After the stretch, from any contents `W`: `main_v243` holds this function of what the stretch read. -/
theorem stG2_main_v243 (W : Valuation τ sig (Elt F)) :
    StableHlo.after stG2 W (Proc.devRef .tc main_v243) = gate (W (Proc.devRef .tc main_v206)) (W (Proc.devRef .tc main_v214)) (W (Proc.devRef .tc main_v1)) (W (Proc.devRef .tc main_v3)) := by
  simp only [stG2]
  after_results_simp
  rfl

/-- After the stretch, from any contents `W`: `main_v254` holds this function of what the stretch read. -/
theorem stE2_main_v254 (W : Valuation τ sig (Elt F)) :
    StableHlo.after stE2 W (Proc.devRef .tc main_v254) = aggOf (W (Proc.devRef .tc main_v243)) (W (Proc.devRef .tc main_v222)) (W (Proc.devRef .tc main_v1)) (W (Proc.devRef .tc main_v3)) := by
  simp only [stE2]
  after_results_simp
  rfl

/-- After the stretch, from any contents `W`: `main_v263` holds this function of what the stretch read. -/
theorem stS2_main_v263 (W : Valuation τ sig (Elt F)) :
    StableHlo.after stS2 W (Proc.devRef .tc main_v263) = addf (lin (W (Proc.devRef .tc main_v194)) (mat3 (W (Proc.devRef .tc main_v196))) (vec3 (W (Proc.devRef .tc main_v198)))) (W (Proc.devRef .tc main_v254)) := by
  simp only [stS2]
  after_results_simp
  rfl

/-- After the stretch, from any contents `W`: `main_v265` holds this function of what the stretch read. -/
theorem stM2_main_v265 (W : Valuation τ sig (Elt F)) :
    StableHlo.after stM2 W (Proc.devRef .tc main_v265) = row2 (W (Proc.devRef .tc main_arg6)) := by
  simp only [stM2]
  after_results_simp
  rfl

/-- After the stretch, from any contents `W`: `main_v267` holds this function of what the stretch read. -/
theorem stM2_main_v267 (W : Valuation τ sig (Elt F)) :
    StableHlo.after stM2 W (Proc.devRef .tc main_v267) = row2 (W (Proc.devRef .tc main_arg7)) := by
  simp only [stM2]
  after_results_simp
  rfl

/-- After the stretch, from any contents `W`: `main_v270` holds this function of what the stretch read. -/
theorem stM2_main_v270 (W : Valuation τ sig (Elt F)) :
    StableHlo.after stM2 W (Proc.devRef .tc main_v270) = mean (W (Proc.devRef .tc main_v263)) := by
  simp only [stM2]
  after_results_simp
  rfl

/-- After the stretch, from any contents `W`: `main_v271` holds this function of what the stretch read. -/
theorem stM2_main_v271 (W : Valuation τ sig (Elt F)) :
    StableHlo.after stM2 W (Proc.devRef .tc main_v271) = var (W (Proc.devRef .tc main_v263)) := by
  simp only [stM2]
  after_results_simp
  rfl

/-- After the stretch, from any contents `W`: `main_v287` holds this function of what the stretch read. -/
theorem stN2_main_v287 (W : Valuation τ sig (Elt F)) :
    StableHlo.after stN2 W (Proc.devRef .tc main_v287) = relu (bnWith (W (Proc.devRef .tc main_v263)) (W (Proc.devRef .tc main_v265)) (W (Proc.devRef .tc main_v267)) (W (Proc.devRef .tc main_v270)) (W (Proc.devRef .tc main_v271))) := by
  simp only [stN2]
  after_results_simp
  rfl

/-- After the stretch, from any contents `W`: `main_v291` holds this function of what the stretch read. -/
theorem stH_main_v291 (W : Valuation τ sig (Elt F)) :
    StableHlo.after stH W (Proc.devRef .tc main_v291) = head (W (Proc.devRef .tc main_v287)) (W (Proc.devRef .tc main_arg8)) (W (Proc.devRef .tc main_arg9)) := by
  simp only [stH]
  after_results_simp
  rfl

end Cert.ReferenceIdeal.Hand

end
-- ==== Proof.Ref.Value.lean ====
import proofs.«180311_j29308856828500_2_alg».proof.Proof.Ref.Read

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! The contents after the first `j` stretches, `j = 0 … 20`, from any contents `V`; and, cut by cut, what every
    buffer still to be read holds: one of the reference's functions of the ten arguments' contents in `V`. A buffer
    written by the stretch just run is read by that stretch's lemma at the contents before it, whose buffers the previous
    cut's lemmas give; any other buffer is one the stretch does not write. -/

/-- The contents before the first stretch. -/
def val0 (V : Valuation τ sig (Elt F)) : Valuation τ sig (Elt F) := V
theorem val0_main_arg0 (V : Valuation τ sig (Elt F)) : val0 V (Proc.devRef .tc main_arg0) = V (Proc.devRef .tc main_arg0) := rfl
theorem val0_main_arg1 (V : Valuation τ sig (Elt F)) : val0 V (Proc.devRef .tc main_arg1) = V (Proc.devRef .tc main_arg1) := rfl
theorem val0_main_arg2 (V : Valuation τ sig (Elt F)) : val0 V (Proc.devRef .tc main_arg2) = V (Proc.devRef .tc main_arg2) := rfl
theorem val0_main_arg3 (V : Valuation τ sig (Elt F)) : val0 V (Proc.devRef .tc main_arg3) = V (Proc.devRef .tc main_arg3) := rfl
theorem val0_main_arg4 (V : Valuation τ sig (Elt F)) : val0 V (Proc.devRef .tc main_arg4) = V (Proc.devRef .tc main_arg4) := rfl
theorem val0_main_arg5 (V : Valuation τ sig (Elt F)) : val0 V (Proc.devRef .tc main_arg5) = V (Proc.devRef .tc main_arg5) := rfl
theorem val0_main_arg6 (V : Valuation τ sig (Elt F)) : val0 V (Proc.devRef .tc main_arg6) = V (Proc.devRef .tc main_arg6) := rfl
theorem val0_main_arg7 (V : Valuation τ sig (Elt F)) : val0 V (Proc.devRef .tc main_arg7) = V (Proc.devRef .tc main_arg7) := rfl
theorem val0_main_arg8 (V : Valuation τ sig (Elt F)) : val0 V (Proc.devRef .tc main_arg8) = V (Proc.devRef .tc main_arg8) := rfl
theorem val0_main_arg9 (V : Valuation τ sig (Elt F)) : val0 V (Proc.devRef .tc main_arg9) = V (Proc.devRef .tc main_arg9) := rfl

/-- The contents after the first 1 stretch (the last of them `stP`). -/
def val1 (V : Valuation τ sig (Elt F)) : Valuation τ sig (Elt F) := StableHlo.after stP (val0 V)
theorem val1_main_arg4 (V : Valuation τ sig (Elt F)) : val1 V (Proc.devRef .tc main_arg4) = V (Proc.devRef .tc main_arg4) :=
  (stP_keep (val0 V) main_arg4 (by decide)).trans (val0_main_arg4 V)
theorem val1_main_arg5 (V : Valuation τ sig (Elt F)) : val1 V (Proc.devRef .tc main_arg5) = V (Proc.devRef .tc main_arg5) :=
  (stP_keep (val0 V) main_arg5 (by decide)).trans (val0_main_arg5 V)
theorem val1_main_arg6 (V : Valuation τ sig (Elt F)) : val1 V (Proc.devRef .tc main_arg6) = V (Proc.devRef .tc main_arg6) :=
  (stP_keep (val0 V) main_arg6 (by decide)).trans (val0_main_arg6 V)
theorem val1_main_arg7 (V : Valuation τ sig (Elt F)) : val1 V (Proc.devRef .tc main_arg7) = V (Proc.devRef .tc main_arg7) :=
  (stP_keep (val0 V) main_arg7 (by decide)).trans (val0_main_arg7 V)
theorem val1_main_arg8 (V : Valuation τ sig (Elt F)) : val1 V (Proc.devRef .tc main_arg8) = V (Proc.devRef .tc main_arg8) :=
  (stP_keep (val0 V) main_arg8 (by decide)).trans (val0_main_arg8 V)
theorem val1_main_arg9 (V : Valuation τ sig (Elt F)) : val1 V (Proc.devRef .tc main_arg9) = V (Proc.devRef .tc main_arg9) :=
  (stP_keep (val0 V) main_arg9 (by decide)).trans (val0_main_arg9 V)
theorem val1_main_v1 (V : Valuation τ sig (Elt F)) : val1 V (Proc.devRef .tc main_v1) = srcIdx (V (Proc.devRef .tc main_arg1)) :=
  (stP_main_v1 (val0 V)).trans (by rw [val0_main_arg1 V])
theorem val1_main_v3 (V : Valuation τ sig (Elt F)) : val1 V (Proc.devRef .tc main_v3) = dstIdx (V (Proc.devRef .tc main_arg1)) :=
  (stP_main_v3 (val0 V)).trans (by rw [val0_main_arg1 V])
theorem val1_main_v8 (V : Valuation τ sig (Elt F)) : val1 V (Proc.devRef .tc main_v8) = feat0 (V (Proc.devRef .tc main_arg0)) (V (Proc.devRef .tc main_arg2)) (V (Proc.devRef .tc main_arg3)) :=
  (stP_main_v8 (val0 V)).trans (by rw [val0_main_arg0 V, val0_main_arg2 V, val0_main_arg3 V]; rfl)

/-- The contents after the first 2 stretches (the last of them `stA0`). -/
def val2 (V : Valuation τ sig (Elt F)) : Valuation τ sig (Elt F) := StableHlo.after stA0 (val1 V)
theorem val2_main_arg4 (V : Valuation τ sig (Elt F)) : val2 V (Proc.devRef .tc main_arg4) = V (Proc.devRef .tc main_arg4) :=
  (stA0_keep (val1 V) main_arg4 (by decide)).trans (val1_main_arg4 V)
theorem val2_main_arg5 (V : Valuation τ sig (Elt F)) : val2 V (Proc.devRef .tc main_arg5) = V (Proc.devRef .tc main_arg5) :=
  (stA0_keep (val1 V) main_arg5 (by decide)).trans (val1_main_arg5 V)
theorem val2_main_arg6 (V : Valuation τ sig (Elt F)) : val2 V (Proc.devRef .tc main_arg6) = V (Proc.devRef .tc main_arg6) :=
  (stA0_keep (val1 V) main_arg6 (by decide)).trans (val1_main_arg6 V)
theorem val2_main_arg7 (V : Valuation τ sig (Elt F)) : val2 V (Proc.devRef .tc main_arg7) = V (Proc.devRef .tc main_arg7) :=
  (stA0_keep (val1 V) main_arg7 (by decide)).trans (val1_main_arg7 V)
theorem val2_main_arg8 (V : Valuation τ sig (Elt F)) : val2 V (Proc.devRef .tc main_arg8) = V (Proc.devRef .tc main_arg8) :=
  (stA0_keep (val1 V) main_arg8 (by decide)).trans (val1_main_arg8 V)
theorem val2_main_arg9 (V : Valuation τ sig (Elt F)) : val2 V (Proc.devRef .tc main_arg9) = V (Proc.devRef .tc main_arg9) :=
  (stA0_keep (val1 V) main_arg9 (by decide)).trans (val1_main_arg9 V)
theorem val2_main_v1 (V : Valuation τ sig (Elt F)) : val2 V (Proc.devRef .tc main_v1) = srcIdx (V (Proc.devRef .tc main_arg1)) :=
  (stA0_keep (val1 V) main_v1 (by decide)).trans (val1_main_v1 V)
theorem val2_main_v3 (V : Valuation τ sig (Elt F)) : val2 V (Proc.devRef .tc main_v3) = dstIdx (V (Proc.devRef .tc main_arg1)) :=
  (stA0_keep (val1 V) main_v3 (by decide)).trans (val1_main_v3 V)
theorem val2_main_v8 (V : Valuation τ sig (Elt F)) : val2 V (Proc.devRef .tc main_v8) = feat0 (V (Proc.devRef .tc main_arg0)) (V (Proc.devRef .tc main_arg2)) (V (Proc.devRef .tc main_arg3)) :=
  (stA0_keep (val1 V) main_v8 (by decide)).trans (val1_main_v8 V)
theorem val2_main_v10 (V : Valuation τ sig (Elt F)) : val2 V (Proc.devRef .tc main_v10) = convW0 (V (Proc.devRef .tc main_arg4)) :=
  (stA0_main_v10 (val1 V)).trans (by rw [val1_main_arg4 V])
theorem val2_main_v12 (V : Valuation τ sig (Elt F)) : val2 V (Proc.devRef .tc main_v12) = convB0 (V (Proc.devRef .tc main_arg5)) :=
  (stA0_main_v12 (val1 V)).trans (by rw [val1_main_arg5 V])
theorem val2_main_v20 (V : Valuation τ sig (Elt F)) : val2 V (Proc.devRef .tc main_v20) = lin (feat0 (V (Proc.devRef .tc main_arg0)) (V (Proc.devRef .tc main_arg2)) (V (Proc.devRef .tc main_arg3))) (mat0 (convW0 (V (Proc.devRef .tc main_arg4)))) (vec0 (convB0 (V (Proc.devRef .tc main_arg5)))) :=
  (stA0_main_v20 (val1 V)).trans (by rw [val1_main_v8 V, val1_main_arg4 V, val1_main_arg5 V])
theorem val2_main_v28 (V : Valuation τ sig (Elt F)) : val2 V (Proc.devRef .tc main_v28) = lin (feat0 (V (Proc.devRef .tc main_arg0)) (V (Proc.devRef .tc main_arg2)) (V (Proc.devRef .tc main_arg3))) (mat1 (convW0 (V (Proc.devRef .tc main_arg4)))) (vec1 (convB0 (V (Proc.devRef .tc main_arg5)))) :=
  (stA0_main_v28 (val1 V)).trans (by rw [val1_main_v8 V, val1_main_arg4 V, val1_main_arg5 V])
theorem val2_main_v36 (V : Valuation τ sig (Elt F)) : val2 V (Proc.devRef .tc main_v36) = lin (feat0 (V (Proc.devRef .tc main_arg0)) (V (Proc.devRef .tc main_arg2)) (V (Proc.devRef .tc main_arg3))) (mat2 (convW0 (V (Proc.devRef .tc main_arg4)))) (vec2 (convB0 (V (Proc.devRef .tc main_arg5)))) :=
  (stA0_main_v36 (val1 V)).trans (by rw [val1_main_v8 V, val1_main_arg4 V, val1_main_arg5 V])

/-- The contents after the first 3 stretches (the last of them `stG0`). -/
def val3 (V : Valuation τ sig (Elt F)) : Valuation τ sig (Elt F) := StableHlo.after stG0 (val2 V)
theorem val3_main_arg4 (V : Valuation τ sig (Elt F)) : val3 V (Proc.devRef .tc main_arg4) = V (Proc.devRef .tc main_arg4) :=
  (stG0_keep (val2 V) main_arg4 (by decide)).trans (val2_main_arg4 V)
theorem val3_main_arg5 (V : Valuation τ sig (Elt F)) : val3 V (Proc.devRef .tc main_arg5) = V (Proc.devRef .tc main_arg5) :=
  (stG0_keep (val2 V) main_arg5 (by decide)).trans (val2_main_arg5 V)
theorem val3_main_arg6 (V : Valuation τ sig (Elt F)) : val3 V (Proc.devRef .tc main_arg6) = V (Proc.devRef .tc main_arg6) :=
  (stG0_keep (val2 V) main_arg6 (by decide)).trans (val2_main_arg6 V)
theorem val3_main_arg7 (V : Valuation τ sig (Elt F)) : val3 V (Proc.devRef .tc main_arg7) = V (Proc.devRef .tc main_arg7) :=
  (stG0_keep (val2 V) main_arg7 (by decide)).trans (val2_main_arg7 V)
theorem val3_main_arg8 (V : Valuation τ sig (Elt F)) : val3 V (Proc.devRef .tc main_arg8) = V (Proc.devRef .tc main_arg8) :=
  (stG0_keep (val2 V) main_arg8 (by decide)).trans (val2_main_arg8 V)
theorem val3_main_arg9 (V : Valuation τ sig (Elt F)) : val3 V (Proc.devRef .tc main_arg9) = V (Proc.devRef .tc main_arg9) :=
  (stG0_keep (val2 V) main_arg9 (by decide)).trans (val2_main_arg9 V)
theorem val3_main_v1 (V : Valuation τ sig (Elt F)) : val3 V (Proc.devRef .tc main_v1) = srcIdx (V (Proc.devRef .tc main_arg1)) :=
  (stG0_keep (val2 V) main_v1 (by decide)).trans (val2_main_v1 V)
theorem val3_main_v3 (V : Valuation τ sig (Elt F)) : val3 V (Proc.devRef .tc main_v3) = dstIdx (V (Proc.devRef .tc main_arg1)) :=
  (stG0_keep (val2 V) main_v3 (by decide)).trans (val2_main_v3 V)
theorem val3_main_v8 (V : Valuation τ sig (Elt F)) : val3 V (Proc.devRef .tc main_v8) = feat0 (V (Proc.devRef .tc main_arg0)) (V (Proc.devRef .tc main_arg2)) (V (Proc.devRef .tc main_arg3)) :=
  (stG0_keep (val2 V) main_v8 (by decide)).trans (val2_main_v8 V)
theorem val3_main_v10 (V : Valuation τ sig (Elt F)) : val3 V (Proc.devRef .tc main_v10) = convW0 (V (Proc.devRef .tc main_arg4)) :=
  (stG0_keep (val2 V) main_v10 (by decide)).trans (val2_main_v10 V)
theorem val3_main_v12 (V : Valuation τ sig (Elt F)) : val3 V (Proc.devRef .tc main_v12) = convB0 (V (Proc.devRef .tc main_arg5)) :=
  (stG0_keep (val2 V) main_v12 (by decide)).trans (val2_main_v12 V)
theorem val3_main_v36 (V : Valuation τ sig (Elt F)) : val3 V (Proc.devRef .tc main_v36) = lin (feat0 (V (Proc.devRef .tc main_arg0)) (V (Proc.devRef .tc main_arg2)) (V (Proc.devRef .tc main_arg3))) (mat2 (convW0 (V (Proc.devRef .tc main_arg4)))) (vec2 (convB0 (V (Proc.devRef .tc main_arg5)))) :=
  (stG0_keep (val2 V) main_v36 (by decide)).trans (val2_main_v36 V)
theorem val3_main_v57 (V : Valuation τ sig (Elt F)) : val3 V (Proc.devRef .tc main_v57) = gate (lin (feat0 (V (Proc.devRef .tc main_arg0)) (V (Proc.devRef .tc main_arg2)) (V (Proc.devRef .tc main_arg3))) (mat0 (convW0 (V (Proc.devRef .tc main_arg4)))) (vec0 (convB0 (V (Proc.devRef .tc main_arg5))))) (lin (feat0 (V (Proc.devRef .tc main_arg0)) (V (Proc.devRef .tc main_arg2)) (V (Proc.devRef .tc main_arg3))) (mat1 (convW0 (V (Proc.devRef .tc main_arg4)))) (vec1 (convB0 (V (Proc.devRef .tc main_arg5))))) (srcIdx (V (Proc.devRef .tc main_arg1))) (dstIdx (V (Proc.devRef .tc main_arg1))) :=
  (stG0_main_v57 (val2 V)).trans (by rw [val2_main_v20 V, val2_main_v28 V, val2_main_v1 V, val2_main_v3 V])

/-- The contents after the first 4 stretches (the last of them `stE0`). -/
def val4 (V : Valuation τ sig (Elt F)) : Valuation τ sig (Elt F) := StableHlo.after stE0 (val3 V)
theorem val4_main_arg4 (V : Valuation τ sig (Elt F)) : val4 V (Proc.devRef .tc main_arg4) = V (Proc.devRef .tc main_arg4) :=
  (stE0_keep (val3 V) main_arg4 (by decide)).trans (val3_main_arg4 V)
theorem val4_main_arg5 (V : Valuation τ sig (Elt F)) : val4 V (Proc.devRef .tc main_arg5) = V (Proc.devRef .tc main_arg5) :=
  (stE0_keep (val3 V) main_arg5 (by decide)).trans (val3_main_arg5 V)
theorem val4_main_arg6 (V : Valuation τ sig (Elt F)) : val4 V (Proc.devRef .tc main_arg6) = V (Proc.devRef .tc main_arg6) :=
  (stE0_keep (val3 V) main_arg6 (by decide)).trans (val3_main_arg6 V)
theorem val4_main_arg7 (V : Valuation τ sig (Elt F)) : val4 V (Proc.devRef .tc main_arg7) = V (Proc.devRef .tc main_arg7) :=
  (stE0_keep (val3 V) main_arg7 (by decide)).trans (val3_main_arg7 V)
theorem val4_main_arg8 (V : Valuation τ sig (Elt F)) : val4 V (Proc.devRef .tc main_arg8) = V (Proc.devRef .tc main_arg8) :=
  (stE0_keep (val3 V) main_arg8 (by decide)).trans (val3_main_arg8 V)
theorem val4_main_arg9 (V : Valuation τ sig (Elt F)) : val4 V (Proc.devRef .tc main_arg9) = V (Proc.devRef .tc main_arg9) :=
  (stE0_keep (val3 V) main_arg9 (by decide)).trans (val3_main_arg9 V)
theorem val4_main_v1 (V : Valuation τ sig (Elt F)) : val4 V (Proc.devRef .tc main_v1) = srcIdx (V (Proc.devRef .tc main_arg1)) :=
  (stE0_keep (val3 V) main_v1 (by decide)).trans (val3_main_v1 V)
theorem val4_main_v3 (V : Valuation τ sig (Elt F)) : val4 V (Proc.devRef .tc main_v3) = dstIdx (V (Proc.devRef .tc main_arg1)) :=
  (stE0_keep (val3 V) main_v3 (by decide)).trans (val3_main_v3 V)
theorem val4_main_v8 (V : Valuation τ sig (Elt F)) : val4 V (Proc.devRef .tc main_v8) = feat0 (V (Proc.devRef .tc main_arg0)) (V (Proc.devRef .tc main_arg2)) (V (Proc.devRef .tc main_arg3)) :=
  (stE0_keep (val3 V) main_v8 (by decide)).trans (val3_main_v8 V)
theorem val4_main_v10 (V : Valuation τ sig (Elt F)) : val4 V (Proc.devRef .tc main_v10) = convW0 (V (Proc.devRef .tc main_arg4)) :=
  (stE0_keep (val3 V) main_v10 (by decide)).trans (val3_main_v10 V)
theorem val4_main_v12 (V : Valuation τ sig (Elt F)) : val4 V (Proc.devRef .tc main_v12) = convB0 (V (Proc.devRef .tc main_arg5)) :=
  (stE0_keep (val3 V) main_v12 (by decide)).trans (val3_main_v12 V)
theorem val4_main_v68 (V : Valuation τ sig (Elt F)) : val4 V (Proc.devRef .tc main_v68) = agg (lin (feat0 (V (Proc.devRef .tc main_arg0)) (V (Proc.devRef .tc main_arg2)) (V (Proc.devRef .tc main_arg3))) (mat0 (convW0 (V (Proc.devRef .tc main_arg4)))) (vec0 (convB0 (V (Proc.devRef .tc main_arg5))))) (lin (feat0 (V (Proc.devRef .tc main_arg0)) (V (Proc.devRef .tc main_arg2)) (V (Proc.devRef .tc main_arg3))) (mat1 (convW0 (V (Proc.devRef .tc main_arg4)))) (vec1 (convB0 (V (Proc.devRef .tc main_arg5))))) (lin (feat0 (V (Proc.devRef .tc main_arg0)) (V (Proc.devRef .tc main_arg2)) (V (Proc.devRef .tc main_arg3))) (mat2 (convW0 (V (Proc.devRef .tc main_arg4)))) (vec2 (convB0 (V (Proc.devRef .tc main_arg5))))) (srcIdx (V (Proc.devRef .tc main_arg1))) (dstIdx (V (Proc.devRef .tc main_arg1))) :=
  (stE0_main_v68 (val3 V)).trans (by rw [val3_main_v57 V, val3_main_v36 V, val3_main_v1 V, val3_main_v3 V]; rfl)

/-- The contents after the first 5 stretches (the last of them `stS0`). -/
def val5 (V : Valuation τ sig (Elt F)) : Valuation τ sig (Elt F) := StableHlo.after stS0 (val4 V)
theorem val5_main_arg4 (V : Valuation τ sig (Elt F)) : val5 V (Proc.devRef .tc main_arg4) = V (Proc.devRef .tc main_arg4) :=
  (stS0_keep (val4 V) main_arg4 (by decide)).trans (val4_main_arg4 V)
theorem val5_main_arg5 (V : Valuation τ sig (Elt F)) : val5 V (Proc.devRef .tc main_arg5) = V (Proc.devRef .tc main_arg5) :=
  (stS0_keep (val4 V) main_arg5 (by decide)).trans (val4_main_arg5 V)
theorem val5_main_arg6 (V : Valuation τ sig (Elt F)) : val5 V (Proc.devRef .tc main_arg6) = V (Proc.devRef .tc main_arg6) :=
  (stS0_keep (val4 V) main_arg6 (by decide)).trans (val4_main_arg6 V)
theorem val5_main_arg7 (V : Valuation τ sig (Elt F)) : val5 V (Proc.devRef .tc main_arg7) = V (Proc.devRef .tc main_arg7) :=
  (stS0_keep (val4 V) main_arg7 (by decide)).trans (val4_main_arg7 V)
theorem val5_main_arg8 (V : Valuation τ sig (Elt F)) : val5 V (Proc.devRef .tc main_arg8) = V (Proc.devRef .tc main_arg8) :=
  (stS0_keep (val4 V) main_arg8 (by decide)).trans (val4_main_arg8 V)
theorem val5_main_arg9 (V : Valuation τ sig (Elt F)) : val5 V (Proc.devRef .tc main_arg9) = V (Proc.devRef .tc main_arg9) :=
  (stS0_keep (val4 V) main_arg9 (by decide)).trans (val4_main_arg9 V)
theorem val5_main_v1 (V : Valuation τ sig (Elt F)) : val5 V (Proc.devRef .tc main_v1) = srcIdx (V (Proc.devRef .tc main_arg1)) :=
  (stS0_keep (val4 V) main_v1 (by decide)).trans (val4_main_v1 V)
theorem val5_main_v3 (V : Valuation τ sig (Elt F)) : val5 V (Proc.devRef .tc main_v3) = dstIdx (V (Proc.devRef .tc main_arg1)) :=
  (stS0_keep (val4 V) main_v3 (by decide)).trans (val4_main_v3 V)
theorem val5_main_v77 (V : Valuation τ sig (Elt F)) : val5 V (Proc.devRef .tc main_v77) = conv (feat0 (V (Proc.devRef .tc main_arg0)) (V (Proc.devRef .tc main_arg2)) (V (Proc.devRef .tc main_arg3))) (convW0 (V (Proc.devRef .tc main_arg4))) (convB0 (V (Proc.devRef .tc main_arg5))) (srcIdx (V (Proc.devRef .tc main_arg1))) (dstIdx (V (Proc.devRef .tc main_arg1))) :=
  (stS0_main_v77 (val4 V)).trans (by rw [val4_main_v8 V, val4_main_v10 V, val4_main_v12 V, val4_main_v68 V]; rfl)

/-- The contents after the first 6 stretches (the last of them `stM0`). -/
def val6 (V : Valuation τ sig (Elt F)) : Valuation τ sig (Elt F) := StableHlo.after stM0 (val5 V)
theorem val6_main_arg4 (V : Valuation τ sig (Elt F)) : val6 V (Proc.devRef .tc main_arg4) = V (Proc.devRef .tc main_arg4) :=
  (stM0_keep (val5 V) main_arg4 (by decide)).trans (val5_main_arg4 V)
theorem val6_main_arg5 (V : Valuation τ sig (Elt F)) : val6 V (Proc.devRef .tc main_arg5) = V (Proc.devRef .tc main_arg5) :=
  (stM0_keep (val5 V) main_arg5 (by decide)).trans (val5_main_arg5 V)
theorem val6_main_arg6 (V : Valuation τ sig (Elt F)) : val6 V (Proc.devRef .tc main_arg6) = V (Proc.devRef .tc main_arg6) :=
  (stM0_keep (val5 V) main_arg6 (by decide)).trans (val5_main_arg6 V)
theorem val6_main_arg7 (V : Valuation τ sig (Elt F)) : val6 V (Proc.devRef .tc main_arg7) = V (Proc.devRef .tc main_arg7) :=
  (stM0_keep (val5 V) main_arg7 (by decide)).trans (val5_main_arg7 V)
theorem val6_main_arg8 (V : Valuation τ sig (Elt F)) : val6 V (Proc.devRef .tc main_arg8) = V (Proc.devRef .tc main_arg8) :=
  (stM0_keep (val5 V) main_arg8 (by decide)).trans (val5_main_arg8 V)
theorem val6_main_arg9 (V : Valuation τ sig (Elt F)) : val6 V (Proc.devRef .tc main_arg9) = V (Proc.devRef .tc main_arg9) :=
  (stM0_keep (val5 V) main_arg9 (by decide)).trans (val5_main_arg9 V)
theorem val6_main_v1 (V : Valuation τ sig (Elt F)) : val6 V (Proc.devRef .tc main_v1) = srcIdx (V (Proc.devRef .tc main_arg1)) :=
  (stM0_keep (val5 V) main_v1 (by decide)).trans (val5_main_v1 V)
theorem val6_main_v3 (V : Valuation τ sig (Elt F)) : val6 V (Proc.devRef .tc main_v3) = dstIdx (V (Proc.devRef .tc main_arg1)) :=
  (stM0_keep (val5 V) main_v3 (by decide)).trans (val5_main_v3 V)
theorem val6_main_v77 (V : Valuation τ sig (Elt F)) : val6 V (Proc.devRef .tc main_v77) = conv (feat0 (V (Proc.devRef .tc main_arg0)) (V (Proc.devRef .tc main_arg2)) (V (Proc.devRef .tc main_arg3))) (convW0 (V (Proc.devRef .tc main_arg4))) (convB0 (V (Proc.devRef .tc main_arg5))) (srcIdx (V (Proc.devRef .tc main_arg1))) (dstIdx (V (Proc.devRef .tc main_arg1))) :=
  (stM0_keep (val5 V) main_v77 (by decide)).trans (val5_main_v77 V)
theorem val6_main_v79 (V : Valuation τ sig (Elt F)) : val6 V (Proc.devRef .tc main_v79) = row0 (V (Proc.devRef .tc main_arg6)) :=
  (stM0_main_v79 (val5 V)).trans (by rw [val5_main_arg6 V])
theorem val6_main_v81 (V : Valuation τ sig (Elt F)) : val6 V (Proc.devRef .tc main_v81) = row0 (V (Proc.devRef .tc main_arg7)) :=
  (stM0_main_v81 (val5 V)).trans (by rw [val5_main_arg7 V])
theorem val6_main_v84 (V : Valuation τ sig (Elt F)) : val6 V (Proc.devRef .tc main_v84) = mean (conv (feat0 (V (Proc.devRef .tc main_arg0)) (V (Proc.devRef .tc main_arg2)) (V (Proc.devRef .tc main_arg3))) (convW0 (V (Proc.devRef .tc main_arg4))) (convB0 (V (Proc.devRef .tc main_arg5))) (srcIdx (V (Proc.devRef .tc main_arg1))) (dstIdx (V (Proc.devRef .tc main_arg1)))) :=
  (stM0_main_v84 (val5 V)).trans (by rw [val5_main_v77 V])
theorem val6_main_v85 (V : Valuation τ sig (Elt F)) : val6 V (Proc.devRef .tc main_v85) = var (conv (feat0 (V (Proc.devRef .tc main_arg0)) (V (Proc.devRef .tc main_arg2)) (V (Proc.devRef .tc main_arg3))) (convW0 (V (Proc.devRef .tc main_arg4))) (convB0 (V (Proc.devRef .tc main_arg5))) (srcIdx (V (Proc.devRef .tc main_arg1))) (dstIdx (V (Proc.devRef .tc main_arg1)))) :=
  (stM0_main_v85 (val5 V)).trans (by rw [val5_main_v77 V])

/-- The contents after the first 7 stretches (the last of them `stN0`). -/
def val7 (V : Valuation τ sig (Elt F)) : Valuation τ sig (Elt F) := StableHlo.after stN0 (val6 V)
theorem val7_main_arg4 (V : Valuation τ sig (Elt F)) : val7 V (Proc.devRef .tc main_arg4) = V (Proc.devRef .tc main_arg4) :=
  (stN0_keep (val6 V) main_arg4 (by decide)).trans (val6_main_arg4 V)
theorem val7_main_arg5 (V : Valuation τ sig (Elt F)) : val7 V (Proc.devRef .tc main_arg5) = V (Proc.devRef .tc main_arg5) :=
  (stN0_keep (val6 V) main_arg5 (by decide)).trans (val6_main_arg5 V)
theorem val7_main_arg6 (V : Valuation τ sig (Elt F)) : val7 V (Proc.devRef .tc main_arg6) = V (Proc.devRef .tc main_arg6) :=
  (stN0_keep (val6 V) main_arg6 (by decide)).trans (val6_main_arg6 V)
theorem val7_main_arg7 (V : Valuation τ sig (Elt F)) : val7 V (Proc.devRef .tc main_arg7) = V (Proc.devRef .tc main_arg7) :=
  (stN0_keep (val6 V) main_arg7 (by decide)).trans (val6_main_arg7 V)
theorem val7_main_arg8 (V : Valuation τ sig (Elt F)) : val7 V (Proc.devRef .tc main_arg8) = V (Proc.devRef .tc main_arg8) :=
  (stN0_keep (val6 V) main_arg8 (by decide)).trans (val6_main_arg8 V)
theorem val7_main_arg9 (V : Valuation τ sig (Elt F)) : val7 V (Proc.devRef .tc main_arg9) = V (Proc.devRef .tc main_arg9) :=
  (stN0_keep (val6 V) main_arg9 (by decide)).trans (val6_main_arg9 V)
theorem val7_main_v1 (V : Valuation τ sig (Elt F)) : val7 V (Proc.devRef .tc main_v1) = srcIdx (V (Proc.devRef .tc main_arg1)) :=
  (stN0_keep (val6 V) main_v1 (by decide)).trans (val6_main_v1 V)
theorem val7_main_v3 (V : Valuation τ sig (Elt F)) : val7 V (Proc.devRef .tc main_v3) = dstIdx (V (Proc.devRef .tc main_arg1)) :=
  (stN0_keep (val6 V) main_v3 (by decide)).trans (val6_main_v3 V)
theorem val7_main_v101 (V : Valuation τ sig (Elt F)) : val7 V (Proc.devRef .tc main_v101) = feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stN0_main_v101 (val6 V)).trans (by rw [val6_main_v77 V, val6_main_v79 V, val6_main_v81 V, val6_main_v84 V, val6_main_v85 V]; rfl)

/-- The contents after the first 8 stretches (the last of them `stA1`). -/
def val8 (V : Valuation τ sig (Elt F)) : Valuation τ sig (Elt F) := StableHlo.after stA1 (val7 V)
theorem val8_main_arg4 (V : Valuation τ sig (Elt F)) : val8 V (Proc.devRef .tc main_arg4) = V (Proc.devRef .tc main_arg4) :=
  (stA1_keep (val7 V) main_arg4 (by decide)).trans (val7_main_arg4 V)
theorem val8_main_arg5 (V : Valuation τ sig (Elt F)) : val8 V (Proc.devRef .tc main_arg5) = V (Proc.devRef .tc main_arg5) :=
  (stA1_keep (val7 V) main_arg5 (by decide)).trans (val7_main_arg5 V)
theorem val8_main_arg6 (V : Valuation τ sig (Elt F)) : val8 V (Proc.devRef .tc main_arg6) = V (Proc.devRef .tc main_arg6) :=
  (stA1_keep (val7 V) main_arg6 (by decide)).trans (val7_main_arg6 V)
theorem val8_main_arg7 (V : Valuation τ sig (Elt F)) : val8 V (Proc.devRef .tc main_arg7) = V (Proc.devRef .tc main_arg7) :=
  (stA1_keep (val7 V) main_arg7 (by decide)).trans (val7_main_arg7 V)
theorem val8_main_arg8 (V : Valuation τ sig (Elt F)) : val8 V (Proc.devRef .tc main_arg8) = V (Proc.devRef .tc main_arg8) :=
  (stA1_keep (val7 V) main_arg8 (by decide)).trans (val7_main_arg8 V)
theorem val8_main_arg9 (V : Valuation τ sig (Elt F)) : val8 V (Proc.devRef .tc main_arg9) = V (Proc.devRef .tc main_arg9) :=
  (stA1_keep (val7 V) main_arg9 (by decide)).trans (val7_main_arg9 V)
theorem val8_main_v1 (V : Valuation τ sig (Elt F)) : val8 V (Proc.devRef .tc main_v1) = srcIdx (V (Proc.devRef .tc main_arg1)) :=
  (stA1_keep (val7 V) main_v1 (by decide)).trans (val7_main_v1 V)
theorem val8_main_v3 (V : Valuation τ sig (Elt F)) : val8 V (Proc.devRef .tc main_v3) = dstIdx (V (Proc.devRef .tc main_arg1)) :=
  (stA1_keep (val7 V) main_v3 (by decide)).trans (val7_main_v3 V)
theorem val8_main_v101 (V : Valuation τ sig (Elt F)) : val8 V (Proc.devRef .tc main_v101) = feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stA1_keep (val7 V) main_v101 (by decide)).trans (val7_main_v101 V)
theorem val8_main_v103 (V : Valuation τ sig (Elt F)) : val8 V (Proc.devRef .tc main_v103) = convW1 (V (Proc.devRef .tc main_arg4)) :=
  (stA1_main_v103 (val7 V)).trans (by rw [val7_main_arg4 V])
theorem val8_main_v105 (V : Valuation τ sig (Elt F)) : val8 V (Proc.devRef .tc main_v105) = convB1 (V (Proc.devRef .tc main_arg5)) :=
  (stA1_main_v105 (val7 V)).trans (by rw [val7_main_arg5 V])
theorem val8_main_v113 (V : Valuation τ sig (Elt F)) : val8 V (Proc.devRef .tc main_v113) = lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat0 (convW1 (V (Proc.devRef .tc main_arg4)))) (vec0 (convB1 (V (Proc.devRef .tc main_arg5)))) :=
  (stA1_main_v113 (val7 V)).trans (by rw [val7_main_v101 V, val7_main_arg4 V, val7_main_arg5 V])
theorem val8_main_v121 (V : Valuation τ sig (Elt F)) : val8 V (Proc.devRef .tc main_v121) = lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat1 (convW1 (V (Proc.devRef .tc main_arg4)))) (vec1 (convB1 (V (Proc.devRef .tc main_arg5)))) :=
  (stA1_main_v121 (val7 V)).trans (by rw [val7_main_v101 V, val7_main_arg4 V, val7_main_arg5 V])
theorem val8_main_v129 (V : Valuation τ sig (Elt F)) : val8 V (Proc.devRef .tc main_v129) = lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat2 (convW1 (V (Proc.devRef .tc main_arg4)))) (vec2 (convB1 (V (Proc.devRef .tc main_arg5)))) :=
  (stA1_main_v129 (val7 V)).trans (by rw [val7_main_v101 V, val7_main_arg4 V, val7_main_arg5 V])

/-- The contents after the first 9 stretches (the last of them `stG1`). -/
def val9 (V : Valuation τ sig (Elt F)) : Valuation τ sig (Elt F) := StableHlo.after stG1 (val8 V)
theorem val9_main_arg4 (V : Valuation τ sig (Elt F)) : val9 V (Proc.devRef .tc main_arg4) = V (Proc.devRef .tc main_arg4) :=
  (stG1_keep (val8 V) main_arg4 (by decide)).trans (val8_main_arg4 V)
theorem val9_main_arg5 (V : Valuation τ sig (Elt F)) : val9 V (Proc.devRef .tc main_arg5) = V (Proc.devRef .tc main_arg5) :=
  (stG1_keep (val8 V) main_arg5 (by decide)).trans (val8_main_arg5 V)
theorem val9_main_arg6 (V : Valuation τ sig (Elt F)) : val9 V (Proc.devRef .tc main_arg6) = V (Proc.devRef .tc main_arg6) :=
  (stG1_keep (val8 V) main_arg6 (by decide)).trans (val8_main_arg6 V)
theorem val9_main_arg7 (V : Valuation τ sig (Elt F)) : val9 V (Proc.devRef .tc main_arg7) = V (Proc.devRef .tc main_arg7) :=
  (stG1_keep (val8 V) main_arg7 (by decide)).trans (val8_main_arg7 V)
theorem val9_main_arg8 (V : Valuation τ sig (Elt F)) : val9 V (Proc.devRef .tc main_arg8) = V (Proc.devRef .tc main_arg8) :=
  (stG1_keep (val8 V) main_arg8 (by decide)).trans (val8_main_arg8 V)
theorem val9_main_arg9 (V : Valuation τ sig (Elt F)) : val9 V (Proc.devRef .tc main_arg9) = V (Proc.devRef .tc main_arg9) :=
  (stG1_keep (val8 V) main_arg9 (by decide)).trans (val8_main_arg9 V)
theorem val9_main_v1 (V : Valuation τ sig (Elt F)) : val9 V (Proc.devRef .tc main_v1) = srcIdx (V (Proc.devRef .tc main_arg1)) :=
  (stG1_keep (val8 V) main_v1 (by decide)).trans (val8_main_v1 V)
theorem val9_main_v3 (V : Valuation τ sig (Elt F)) : val9 V (Proc.devRef .tc main_v3) = dstIdx (V (Proc.devRef .tc main_arg1)) :=
  (stG1_keep (val8 V) main_v3 (by decide)).trans (val8_main_v3 V)
theorem val9_main_v101 (V : Valuation τ sig (Elt F)) : val9 V (Proc.devRef .tc main_v101) = feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stG1_keep (val8 V) main_v101 (by decide)).trans (val8_main_v101 V)
theorem val9_main_v103 (V : Valuation τ sig (Elt F)) : val9 V (Proc.devRef .tc main_v103) = convW1 (V (Proc.devRef .tc main_arg4)) :=
  (stG1_keep (val8 V) main_v103 (by decide)).trans (val8_main_v103 V)
theorem val9_main_v105 (V : Valuation τ sig (Elt F)) : val9 V (Proc.devRef .tc main_v105) = convB1 (V (Proc.devRef .tc main_arg5)) :=
  (stG1_keep (val8 V) main_v105 (by decide)).trans (val8_main_v105 V)
theorem val9_main_v129 (V : Valuation τ sig (Elt F)) : val9 V (Proc.devRef .tc main_v129) = lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat2 (convW1 (V (Proc.devRef .tc main_arg4)))) (vec2 (convB1 (V (Proc.devRef .tc main_arg5)))) :=
  (stG1_keep (val8 V) main_v129 (by decide)).trans (val8_main_v129 V)
theorem val9_main_v150 (V : Valuation τ sig (Elt F)) : val9 V (Proc.devRef .tc main_v150) = gate (lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat0 (convW1 (V (Proc.devRef .tc main_arg4)))) (vec0 (convB1 (V (Proc.devRef .tc main_arg5))))) (lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat1 (convW1 (V (Proc.devRef .tc main_arg4)))) (vec1 (convB1 (V (Proc.devRef .tc main_arg5))))) (srcIdx (V (Proc.devRef .tc main_arg1))) (dstIdx (V (Proc.devRef .tc main_arg1))) :=
  (stG1_main_v150 (val8 V)).trans (by rw [val8_main_v113 V, val8_main_v121 V, val8_main_v1 V, val8_main_v3 V])

/-- The contents after the first 10 stretches (the last of them `stE1`). -/
def val10 (V : Valuation τ sig (Elt F)) : Valuation τ sig (Elt F) := StableHlo.after stE1 (val9 V)
theorem val10_main_arg4 (V : Valuation τ sig (Elt F)) : val10 V (Proc.devRef .tc main_arg4) = V (Proc.devRef .tc main_arg4) :=
  (stE1_keep (val9 V) main_arg4 (by decide)).trans (val9_main_arg4 V)
theorem val10_main_arg5 (V : Valuation τ sig (Elt F)) : val10 V (Proc.devRef .tc main_arg5) = V (Proc.devRef .tc main_arg5) :=
  (stE1_keep (val9 V) main_arg5 (by decide)).trans (val9_main_arg5 V)
theorem val10_main_arg6 (V : Valuation τ sig (Elt F)) : val10 V (Proc.devRef .tc main_arg6) = V (Proc.devRef .tc main_arg6) :=
  (stE1_keep (val9 V) main_arg6 (by decide)).trans (val9_main_arg6 V)
theorem val10_main_arg7 (V : Valuation τ sig (Elt F)) : val10 V (Proc.devRef .tc main_arg7) = V (Proc.devRef .tc main_arg7) :=
  (stE1_keep (val9 V) main_arg7 (by decide)).trans (val9_main_arg7 V)
theorem val10_main_arg8 (V : Valuation τ sig (Elt F)) : val10 V (Proc.devRef .tc main_arg8) = V (Proc.devRef .tc main_arg8) :=
  (stE1_keep (val9 V) main_arg8 (by decide)).trans (val9_main_arg8 V)
theorem val10_main_arg9 (V : Valuation τ sig (Elt F)) : val10 V (Proc.devRef .tc main_arg9) = V (Proc.devRef .tc main_arg9) :=
  (stE1_keep (val9 V) main_arg9 (by decide)).trans (val9_main_arg9 V)
theorem val10_main_v1 (V : Valuation τ sig (Elt F)) : val10 V (Proc.devRef .tc main_v1) = srcIdx (V (Proc.devRef .tc main_arg1)) :=
  (stE1_keep (val9 V) main_v1 (by decide)).trans (val9_main_v1 V)
theorem val10_main_v3 (V : Valuation τ sig (Elt F)) : val10 V (Proc.devRef .tc main_v3) = dstIdx (V (Proc.devRef .tc main_arg1)) :=
  (stE1_keep (val9 V) main_v3 (by decide)).trans (val9_main_v3 V)
theorem val10_main_v101 (V : Valuation τ sig (Elt F)) : val10 V (Proc.devRef .tc main_v101) = feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stE1_keep (val9 V) main_v101 (by decide)).trans (val9_main_v101 V)
theorem val10_main_v103 (V : Valuation τ sig (Elt F)) : val10 V (Proc.devRef .tc main_v103) = convW1 (V (Proc.devRef .tc main_arg4)) :=
  (stE1_keep (val9 V) main_v103 (by decide)).trans (val9_main_v103 V)
theorem val10_main_v105 (V : Valuation τ sig (Elt F)) : val10 V (Proc.devRef .tc main_v105) = convB1 (V (Proc.devRef .tc main_arg5)) :=
  (stE1_keep (val9 V) main_v105 (by decide)).trans (val9_main_v105 V)
theorem val10_main_v161 (V : Valuation τ sig (Elt F)) : val10 V (Proc.devRef .tc main_v161) = agg (lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat0 (convW1 (V (Proc.devRef .tc main_arg4)))) (vec0 (convB1 (V (Proc.devRef .tc main_arg5))))) (lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat1 (convW1 (V (Proc.devRef .tc main_arg4)))) (vec1 (convB1 (V (Proc.devRef .tc main_arg5))))) (lin (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat2 (convW1 (V (Proc.devRef .tc main_arg4)))) (vec2 (convB1 (V (Proc.devRef .tc main_arg5))))) (srcIdx (V (Proc.devRef .tc main_arg1))) (dstIdx (V (Proc.devRef .tc main_arg1))) :=
  (stE1_main_v161 (val9 V)).trans (by rw [val9_main_v150 V, val9_main_v129 V, val9_main_v1 V, val9_main_v3 V]; rfl)

/-- The contents after the first 11 stretches (the last of them `stS1`). -/
def val11 (V : Valuation τ sig (Elt F)) : Valuation τ sig (Elt F) := StableHlo.after stS1 (val10 V)
theorem val11_main_arg4 (V : Valuation τ sig (Elt F)) : val11 V (Proc.devRef .tc main_arg4) = V (Proc.devRef .tc main_arg4) :=
  (stS1_keep (val10 V) main_arg4 (by decide)).trans (val10_main_arg4 V)
theorem val11_main_arg5 (V : Valuation τ sig (Elt F)) : val11 V (Proc.devRef .tc main_arg5) = V (Proc.devRef .tc main_arg5) :=
  (stS1_keep (val10 V) main_arg5 (by decide)).trans (val10_main_arg5 V)
theorem val11_main_arg6 (V : Valuation τ sig (Elt F)) : val11 V (Proc.devRef .tc main_arg6) = V (Proc.devRef .tc main_arg6) :=
  (stS1_keep (val10 V) main_arg6 (by decide)).trans (val10_main_arg6 V)
theorem val11_main_arg7 (V : Valuation τ sig (Elt F)) : val11 V (Proc.devRef .tc main_arg7) = V (Proc.devRef .tc main_arg7) :=
  (stS1_keep (val10 V) main_arg7 (by decide)).trans (val10_main_arg7 V)
theorem val11_main_arg8 (V : Valuation τ sig (Elt F)) : val11 V (Proc.devRef .tc main_arg8) = V (Proc.devRef .tc main_arg8) :=
  (stS1_keep (val10 V) main_arg8 (by decide)).trans (val10_main_arg8 V)
theorem val11_main_arg9 (V : Valuation τ sig (Elt F)) : val11 V (Proc.devRef .tc main_arg9) = V (Proc.devRef .tc main_arg9) :=
  (stS1_keep (val10 V) main_arg9 (by decide)).trans (val10_main_arg9 V)
theorem val11_main_v1 (V : Valuation τ sig (Elt F)) : val11 V (Proc.devRef .tc main_v1) = srcIdx (V (Proc.devRef .tc main_arg1)) :=
  (stS1_keep (val10 V) main_v1 (by decide)).trans (val10_main_v1 V)
theorem val11_main_v3 (V : Valuation τ sig (Elt F)) : val11 V (Proc.devRef .tc main_v3) = dstIdx (V (Proc.devRef .tc main_arg1)) :=
  (stS1_keep (val10 V) main_v3 (by decide)).trans (val10_main_v3 V)
theorem val11_main_v170 (V : Valuation τ sig (Elt F)) : val11 V (Proc.devRef .tc main_v170) = conv (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW1 (V (Proc.devRef .tc main_arg4))) (convB1 (V (Proc.devRef .tc main_arg5))) (srcIdx (V (Proc.devRef .tc main_arg1))) (dstIdx (V (Proc.devRef .tc main_arg1))) :=
  (stS1_main_v170 (val10 V)).trans (by rw [val10_main_v101 V, val10_main_v103 V, val10_main_v105 V, val10_main_v161 V]; rfl)

/-- The contents after the first 12 stretches (the last of them `stM1`). -/
def val12 (V : Valuation τ sig (Elt F)) : Valuation τ sig (Elt F) := StableHlo.after stM1 (val11 V)
theorem val12_main_arg4 (V : Valuation τ sig (Elt F)) : val12 V (Proc.devRef .tc main_arg4) = V (Proc.devRef .tc main_arg4) :=
  (stM1_keep (val11 V) main_arg4 (by decide)).trans (val11_main_arg4 V)
theorem val12_main_arg5 (V : Valuation τ sig (Elt F)) : val12 V (Proc.devRef .tc main_arg5) = V (Proc.devRef .tc main_arg5) :=
  (stM1_keep (val11 V) main_arg5 (by decide)).trans (val11_main_arg5 V)
theorem val12_main_arg6 (V : Valuation τ sig (Elt F)) : val12 V (Proc.devRef .tc main_arg6) = V (Proc.devRef .tc main_arg6) :=
  (stM1_keep (val11 V) main_arg6 (by decide)).trans (val11_main_arg6 V)
theorem val12_main_arg7 (V : Valuation τ sig (Elt F)) : val12 V (Proc.devRef .tc main_arg7) = V (Proc.devRef .tc main_arg7) :=
  (stM1_keep (val11 V) main_arg7 (by decide)).trans (val11_main_arg7 V)
theorem val12_main_arg8 (V : Valuation τ sig (Elt F)) : val12 V (Proc.devRef .tc main_arg8) = V (Proc.devRef .tc main_arg8) :=
  (stM1_keep (val11 V) main_arg8 (by decide)).trans (val11_main_arg8 V)
theorem val12_main_arg9 (V : Valuation τ sig (Elt F)) : val12 V (Proc.devRef .tc main_arg9) = V (Proc.devRef .tc main_arg9) :=
  (stM1_keep (val11 V) main_arg9 (by decide)).trans (val11_main_arg9 V)
theorem val12_main_v1 (V : Valuation τ sig (Elt F)) : val12 V (Proc.devRef .tc main_v1) = srcIdx (V (Proc.devRef .tc main_arg1)) :=
  (stM1_keep (val11 V) main_v1 (by decide)).trans (val11_main_v1 V)
theorem val12_main_v3 (V : Valuation τ sig (Elt F)) : val12 V (Proc.devRef .tc main_v3) = dstIdx (V (Proc.devRef .tc main_arg1)) :=
  (stM1_keep (val11 V) main_v3 (by decide)).trans (val11_main_v3 V)
theorem val12_main_v170 (V : Valuation τ sig (Elt F)) : val12 V (Proc.devRef .tc main_v170) = conv (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW1 (V (Proc.devRef .tc main_arg4))) (convB1 (V (Proc.devRef .tc main_arg5))) (srcIdx (V (Proc.devRef .tc main_arg1))) (dstIdx (V (Proc.devRef .tc main_arg1))) :=
  (stM1_keep (val11 V) main_v170 (by decide)).trans (val11_main_v170 V)
theorem val12_main_v172 (V : Valuation τ sig (Elt F)) : val12 V (Proc.devRef .tc main_v172) = row1 (V (Proc.devRef .tc main_arg6)) :=
  (stM1_main_v172 (val11 V)).trans (by rw [val11_main_arg6 V])
theorem val12_main_v174 (V : Valuation τ sig (Elt F)) : val12 V (Proc.devRef .tc main_v174) = row1 (V (Proc.devRef .tc main_arg7)) :=
  (stM1_main_v174 (val11 V)).trans (by rw [val11_main_arg7 V])
theorem val12_main_v177 (V : Valuation τ sig (Elt F)) : val12 V (Proc.devRef .tc main_v177) = mean (conv (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW1 (V (Proc.devRef .tc main_arg4))) (convB1 (V (Proc.devRef .tc main_arg5))) (srcIdx (V (Proc.devRef .tc main_arg1))) (dstIdx (V (Proc.devRef .tc main_arg1)))) :=
  (stM1_main_v177 (val11 V)).trans (by rw [val11_main_v170 V])
theorem val12_main_v178 (V : Valuation τ sig (Elt F)) : val12 V (Proc.devRef .tc main_v178) = var (conv (feat1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW1 (V (Proc.devRef .tc main_arg4))) (convB1 (V (Proc.devRef .tc main_arg5))) (srcIdx (V (Proc.devRef .tc main_arg1))) (dstIdx (V (Proc.devRef .tc main_arg1)))) :=
  (stM1_main_v178 (val11 V)).trans (by rw [val11_main_v170 V])

/-- The contents after the first 13 stretches (the last of them `stN1`). -/
def val13 (V : Valuation τ sig (Elt F)) : Valuation τ sig (Elt F) := StableHlo.after stN1 (val12 V)
theorem val13_main_arg4 (V : Valuation τ sig (Elt F)) : val13 V (Proc.devRef .tc main_arg4) = V (Proc.devRef .tc main_arg4) :=
  (stN1_keep (val12 V) main_arg4 (by decide)).trans (val12_main_arg4 V)
theorem val13_main_arg5 (V : Valuation τ sig (Elt F)) : val13 V (Proc.devRef .tc main_arg5) = V (Proc.devRef .tc main_arg5) :=
  (stN1_keep (val12 V) main_arg5 (by decide)).trans (val12_main_arg5 V)
theorem val13_main_arg6 (V : Valuation τ sig (Elt F)) : val13 V (Proc.devRef .tc main_arg6) = V (Proc.devRef .tc main_arg6) :=
  (stN1_keep (val12 V) main_arg6 (by decide)).trans (val12_main_arg6 V)
theorem val13_main_arg7 (V : Valuation τ sig (Elt F)) : val13 V (Proc.devRef .tc main_arg7) = V (Proc.devRef .tc main_arg7) :=
  (stN1_keep (val12 V) main_arg7 (by decide)).trans (val12_main_arg7 V)
theorem val13_main_arg8 (V : Valuation τ sig (Elt F)) : val13 V (Proc.devRef .tc main_arg8) = V (Proc.devRef .tc main_arg8) :=
  (stN1_keep (val12 V) main_arg8 (by decide)).trans (val12_main_arg8 V)
theorem val13_main_arg9 (V : Valuation τ sig (Elt F)) : val13 V (Proc.devRef .tc main_arg9) = V (Proc.devRef .tc main_arg9) :=
  (stN1_keep (val12 V) main_arg9 (by decide)).trans (val12_main_arg9 V)
theorem val13_main_v1 (V : Valuation τ sig (Elt F)) : val13 V (Proc.devRef .tc main_v1) = srcIdx (V (Proc.devRef .tc main_arg1)) :=
  (stN1_keep (val12 V) main_v1 (by decide)).trans (val12_main_v1 V)
theorem val13_main_v3 (V : Valuation τ sig (Elt F)) : val13 V (Proc.devRef .tc main_v3) = dstIdx (V (Proc.devRef .tc main_arg1)) :=
  (stN1_keep (val12 V) main_v3 (by decide)).trans (val12_main_v3 V)
theorem val13_main_v194 (V : Valuation τ sig (Elt F)) : val13 V (Proc.devRef .tc main_v194) = feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stN1_main_v194 (val12 V)).trans (by rw [val12_main_v170 V, val12_main_v172 V, val12_main_v174 V, val12_main_v177 V, val12_main_v178 V]; rfl)

/-- The contents after the first 14 stretches (the last of them `stA2`). -/
def val14 (V : Valuation τ sig (Elt F)) : Valuation τ sig (Elt F) := StableHlo.after stA2 (val13 V)
theorem val14_main_arg6 (V : Valuation τ sig (Elt F)) : val14 V (Proc.devRef .tc main_arg6) = V (Proc.devRef .tc main_arg6) :=
  (stA2_keep (val13 V) main_arg6 (by decide)).trans (val13_main_arg6 V)
theorem val14_main_arg7 (V : Valuation τ sig (Elt F)) : val14 V (Proc.devRef .tc main_arg7) = V (Proc.devRef .tc main_arg7) :=
  (stA2_keep (val13 V) main_arg7 (by decide)).trans (val13_main_arg7 V)
theorem val14_main_arg8 (V : Valuation τ sig (Elt F)) : val14 V (Proc.devRef .tc main_arg8) = V (Proc.devRef .tc main_arg8) :=
  (stA2_keep (val13 V) main_arg8 (by decide)).trans (val13_main_arg8 V)
theorem val14_main_arg9 (V : Valuation τ sig (Elt F)) : val14 V (Proc.devRef .tc main_arg9) = V (Proc.devRef .tc main_arg9) :=
  (stA2_keep (val13 V) main_arg9 (by decide)).trans (val13_main_arg9 V)
theorem val14_main_v1 (V : Valuation τ sig (Elt F)) : val14 V (Proc.devRef .tc main_v1) = srcIdx (V (Proc.devRef .tc main_arg1)) :=
  (stA2_keep (val13 V) main_v1 (by decide)).trans (val13_main_v1 V)
theorem val14_main_v3 (V : Valuation τ sig (Elt F)) : val14 V (Proc.devRef .tc main_v3) = dstIdx (V (Proc.devRef .tc main_arg1)) :=
  (stA2_keep (val13 V) main_v3 (by decide)).trans (val13_main_v3 V)
theorem val14_main_v194 (V : Valuation τ sig (Elt F)) : val14 V (Proc.devRef .tc main_v194) = feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stA2_keep (val13 V) main_v194 (by decide)).trans (val13_main_v194 V)
theorem val14_main_v196 (V : Valuation τ sig (Elt F)) : val14 V (Proc.devRef .tc main_v196) = convW2 (V (Proc.devRef .tc main_arg4)) :=
  (stA2_main_v196 (val13 V)).trans (by rw [val13_main_arg4 V])
theorem val14_main_v198 (V : Valuation τ sig (Elt F)) : val14 V (Proc.devRef .tc main_v198) = convB2 (V (Proc.devRef .tc main_arg5)) :=
  (stA2_main_v198 (val13 V)).trans (by rw [val13_main_arg5 V])
theorem val14_main_v206 (V : Valuation τ sig (Elt F)) : val14 V (Proc.devRef .tc main_v206) = lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat0 (convW2 (V (Proc.devRef .tc main_arg4)))) (vec0 (convB2 (V (Proc.devRef .tc main_arg5)))) :=
  (stA2_main_v206 (val13 V)).trans (by rw [val13_main_v194 V, val13_main_arg4 V, val13_main_arg5 V])
theorem val14_main_v214 (V : Valuation τ sig (Elt F)) : val14 V (Proc.devRef .tc main_v214) = lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat1 (convW2 (V (Proc.devRef .tc main_arg4)))) (vec1 (convB2 (V (Proc.devRef .tc main_arg5)))) :=
  (stA2_main_v214 (val13 V)).trans (by rw [val13_main_v194 V, val13_main_arg4 V, val13_main_arg5 V])
theorem val14_main_v222 (V : Valuation τ sig (Elt F)) : val14 V (Proc.devRef .tc main_v222) = lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat2 (convW2 (V (Proc.devRef .tc main_arg4)))) (vec2 (convB2 (V (Proc.devRef .tc main_arg5)))) :=
  (stA2_main_v222 (val13 V)).trans (by rw [val13_main_v194 V, val13_main_arg4 V, val13_main_arg5 V])

/-- The contents after the first 15 stretches (the last of them `stG2`). -/
def val15 (V : Valuation τ sig (Elt F)) : Valuation τ sig (Elt F) := StableHlo.after stG2 (val14 V)
theorem val15_main_arg6 (V : Valuation τ sig (Elt F)) : val15 V (Proc.devRef .tc main_arg6) = V (Proc.devRef .tc main_arg6) :=
  (stG2_keep (val14 V) main_arg6 (by decide)).trans (val14_main_arg6 V)
theorem val15_main_arg7 (V : Valuation τ sig (Elt F)) : val15 V (Proc.devRef .tc main_arg7) = V (Proc.devRef .tc main_arg7) :=
  (stG2_keep (val14 V) main_arg7 (by decide)).trans (val14_main_arg7 V)
theorem val15_main_arg8 (V : Valuation τ sig (Elt F)) : val15 V (Proc.devRef .tc main_arg8) = V (Proc.devRef .tc main_arg8) :=
  (stG2_keep (val14 V) main_arg8 (by decide)).trans (val14_main_arg8 V)
theorem val15_main_arg9 (V : Valuation τ sig (Elt F)) : val15 V (Proc.devRef .tc main_arg9) = V (Proc.devRef .tc main_arg9) :=
  (stG2_keep (val14 V) main_arg9 (by decide)).trans (val14_main_arg9 V)
theorem val15_main_v1 (V : Valuation τ sig (Elt F)) : val15 V (Proc.devRef .tc main_v1) = srcIdx (V (Proc.devRef .tc main_arg1)) :=
  (stG2_keep (val14 V) main_v1 (by decide)).trans (val14_main_v1 V)
theorem val15_main_v3 (V : Valuation τ sig (Elt F)) : val15 V (Proc.devRef .tc main_v3) = dstIdx (V (Proc.devRef .tc main_arg1)) :=
  (stG2_keep (val14 V) main_v3 (by decide)).trans (val14_main_v3 V)
theorem val15_main_v194 (V : Valuation τ sig (Elt F)) : val15 V (Proc.devRef .tc main_v194) = feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stG2_keep (val14 V) main_v194 (by decide)).trans (val14_main_v194 V)
theorem val15_main_v196 (V : Valuation τ sig (Elt F)) : val15 V (Proc.devRef .tc main_v196) = convW2 (V (Proc.devRef .tc main_arg4)) :=
  (stG2_keep (val14 V) main_v196 (by decide)).trans (val14_main_v196 V)
theorem val15_main_v198 (V : Valuation τ sig (Elt F)) : val15 V (Proc.devRef .tc main_v198) = convB2 (V (Proc.devRef .tc main_arg5)) :=
  (stG2_keep (val14 V) main_v198 (by decide)).trans (val14_main_v198 V)
theorem val15_main_v222 (V : Valuation τ sig (Elt F)) : val15 V (Proc.devRef .tc main_v222) = lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat2 (convW2 (V (Proc.devRef .tc main_arg4)))) (vec2 (convB2 (V (Proc.devRef .tc main_arg5)))) :=
  (stG2_keep (val14 V) main_v222 (by decide)).trans (val14_main_v222 V)
theorem val15_main_v243 (V : Valuation τ sig (Elt F)) : val15 V (Proc.devRef .tc main_v243) = gate (lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat0 (convW2 (V (Proc.devRef .tc main_arg4)))) (vec0 (convB2 (V (Proc.devRef .tc main_arg5))))) (lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat1 (convW2 (V (Proc.devRef .tc main_arg4)))) (vec1 (convB2 (V (Proc.devRef .tc main_arg5))))) (srcIdx (V (Proc.devRef .tc main_arg1))) (dstIdx (V (Proc.devRef .tc main_arg1))) :=
  (stG2_main_v243 (val14 V)).trans (by rw [val14_main_v206 V, val14_main_v214 V, val14_main_v1 V, val14_main_v3 V])

/-- The contents after the first 16 stretches (the last of them `stE2`). -/
def val16 (V : Valuation τ sig (Elt F)) : Valuation τ sig (Elt F) := StableHlo.after stE2 (val15 V)
theorem val16_main_arg6 (V : Valuation τ sig (Elt F)) : val16 V (Proc.devRef .tc main_arg6) = V (Proc.devRef .tc main_arg6) :=
  (stE2_keep (val15 V) main_arg6 (by decide)).trans (val15_main_arg6 V)
theorem val16_main_arg7 (V : Valuation τ sig (Elt F)) : val16 V (Proc.devRef .tc main_arg7) = V (Proc.devRef .tc main_arg7) :=
  (stE2_keep (val15 V) main_arg7 (by decide)).trans (val15_main_arg7 V)
theorem val16_main_arg8 (V : Valuation τ sig (Elt F)) : val16 V (Proc.devRef .tc main_arg8) = V (Proc.devRef .tc main_arg8) :=
  (stE2_keep (val15 V) main_arg8 (by decide)).trans (val15_main_arg8 V)
theorem val16_main_arg9 (V : Valuation τ sig (Elt F)) : val16 V (Proc.devRef .tc main_arg9) = V (Proc.devRef .tc main_arg9) :=
  (stE2_keep (val15 V) main_arg9 (by decide)).trans (val15_main_arg9 V)
theorem val16_main_v194 (V : Valuation τ sig (Elt F)) : val16 V (Proc.devRef .tc main_v194) = feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stE2_keep (val15 V) main_v194 (by decide)).trans (val15_main_v194 V)
theorem val16_main_v196 (V : Valuation τ sig (Elt F)) : val16 V (Proc.devRef .tc main_v196) = convW2 (V (Proc.devRef .tc main_arg4)) :=
  (stE2_keep (val15 V) main_v196 (by decide)).trans (val15_main_v196 V)
theorem val16_main_v198 (V : Valuation τ sig (Elt F)) : val16 V (Proc.devRef .tc main_v198) = convB2 (V (Proc.devRef .tc main_arg5)) :=
  (stE2_keep (val15 V) main_v198 (by decide)).trans (val15_main_v198 V)
theorem val16_main_v254 (V : Valuation τ sig (Elt F)) : val16 V (Proc.devRef .tc main_v254) = agg (lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat0 (convW2 (V (Proc.devRef .tc main_arg4)))) (vec0 (convB2 (V (Proc.devRef .tc main_arg5))))) (lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat1 (convW2 (V (Proc.devRef .tc main_arg4)))) (vec1 (convB2 (V (Proc.devRef .tc main_arg5))))) (lin (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (mat2 (convW2 (V (Proc.devRef .tc main_arg4)))) (vec2 (convB2 (V (Proc.devRef .tc main_arg5))))) (srcIdx (V (Proc.devRef .tc main_arg1))) (dstIdx (V (Proc.devRef .tc main_arg1))) :=
  (stE2_main_v254 (val15 V)).trans (by rw [val15_main_v243 V, val15_main_v222 V, val15_main_v1 V, val15_main_v3 V]; rfl)

/-- The contents after the first 17 stretches (the last of them `stS2`). -/
def val17 (V : Valuation τ sig (Elt F)) : Valuation τ sig (Elt F) := StableHlo.after stS2 (val16 V)
theorem val17_main_arg6 (V : Valuation τ sig (Elt F)) : val17 V (Proc.devRef .tc main_arg6) = V (Proc.devRef .tc main_arg6) :=
  (stS2_keep (val16 V) main_arg6 (by decide)).trans (val16_main_arg6 V)
theorem val17_main_arg7 (V : Valuation τ sig (Elt F)) : val17 V (Proc.devRef .tc main_arg7) = V (Proc.devRef .tc main_arg7) :=
  (stS2_keep (val16 V) main_arg7 (by decide)).trans (val16_main_arg7 V)
theorem val17_main_arg8 (V : Valuation τ sig (Elt F)) : val17 V (Proc.devRef .tc main_arg8) = V (Proc.devRef .tc main_arg8) :=
  (stS2_keep (val16 V) main_arg8 (by decide)).trans (val16_main_arg8 V)
theorem val17_main_arg9 (V : Valuation τ sig (Elt F)) : val17 V (Proc.devRef .tc main_arg9) = V (Proc.devRef .tc main_arg9) :=
  (stS2_keep (val16 V) main_arg9 (by decide)).trans (val16_main_arg9 V)
theorem val17_main_v263 (V : Valuation τ sig (Elt F)) : val17 V (Proc.devRef .tc main_v263) = conv (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW2 (V (Proc.devRef .tc main_arg4))) (convB2 (V (Proc.devRef .tc main_arg5))) (srcIdx (V (Proc.devRef .tc main_arg1))) (dstIdx (V (Proc.devRef .tc main_arg1))) :=
  (stS2_main_v263 (val16 V)).trans (by rw [val16_main_v194 V, val16_main_v196 V, val16_main_v198 V, val16_main_v254 V]; rfl)

/-- The contents after the first 18 stretches (the last of them `stM2`). -/
def val18 (V : Valuation τ sig (Elt F)) : Valuation τ sig (Elt F) := StableHlo.after stM2 (val17 V)
theorem val18_main_arg8 (V : Valuation τ sig (Elt F)) : val18 V (Proc.devRef .tc main_arg8) = V (Proc.devRef .tc main_arg8) :=
  (stM2_keep (val17 V) main_arg8 (by decide)).trans (val17_main_arg8 V)
theorem val18_main_arg9 (V : Valuation τ sig (Elt F)) : val18 V (Proc.devRef .tc main_arg9) = V (Proc.devRef .tc main_arg9) :=
  (stM2_keep (val17 V) main_arg9 (by decide)).trans (val17_main_arg9 V)
theorem val18_main_v263 (V : Valuation τ sig (Elt F)) : val18 V (Proc.devRef .tc main_v263) = conv (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW2 (V (Proc.devRef .tc main_arg4))) (convB2 (V (Proc.devRef .tc main_arg5))) (srcIdx (V (Proc.devRef .tc main_arg1))) (dstIdx (V (Proc.devRef .tc main_arg1))) :=
  (stM2_keep (val17 V) main_v263 (by decide)).trans (val17_main_v263 V)
theorem val18_main_v265 (V : Valuation τ sig (Elt F)) : val18 V (Proc.devRef .tc main_v265) = row2 (V (Proc.devRef .tc main_arg6)) :=
  (stM2_main_v265 (val17 V)).trans (by rw [val17_main_arg6 V])
theorem val18_main_v267 (V : Valuation τ sig (Elt F)) : val18 V (Proc.devRef .tc main_v267) = row2 (V (Proc.devRef .tc main_arg7)) :=
  (stM2_main_v267 (val17 V)).trans (by rw [val17_main_arg7 V])
theorem val18_main_v270 (V : Valuation τ sig (Elt F)) : val18 V (Proc.devRef .tc main_v270) = mean (conv (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW2 (V (Proc.devRef .tc main_arg4))) (convB2 (V (Proc.devRef .tc main_arg5))) (srcIdx (V (Proc.devRef .tc main_arg1))) (dstIdx (V (Proc.devRef .tc main_arg1)))) :=
  (stM2_main_v270 (val17 V)).trans (by rw [val17_main_v263 V])
theorem val18_main_v271 (V : Valuation τ sig (Elt F)) : val18 V (Proc.devRef .tc main_v271) = var (conv (feat2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (convW2 (V (Proc.devRef .tc main_arg4))) (convB2 (V (Proc.devRef .tc main_arg5))) (srcIdx (V (Proc.devRef .tc main_arg1))) (dstIdx (V (Proc.devRef .tc main_arg1)))) :=
  (stM2_main_v271 (val17 V)).trans (by rw [val17_main_v263 V])

/-- The contents after the first 19 stretches (the last of them `stN2`). -/
def val19 (V : Valuation τ sig (Elt F)) : Valuation τ sig (Elt F) := StableHlo.after stN2 (val18 V)
theorem val19_main_arg8 (V : Valuation τ sig (Elt F)) : val19 V (Proc.devRef .tc main_arg8) = V (Proc.devRef .tc main_arg8) :=
  (stN2_keep (val18 V) main_arg8 (by decide)).trans (val18_main_arg8 V)
theorem val19_main_arg9 (V : Valuation τ sig (Elt F)) : val19 V (Proc.devRef .tc main_arg9) = V (Proc.devRef .tc main_arg9) :=
  (stN2_keep (val18 V) main_arg9 (by decide)).trans (val18_main_arg9 V)
theorem val19_main_v287 (V : Valuation τ sig (Elt F)) : val19 V (Proc.devRef .tc main_v287) = feat3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (stN2_main_v287 (val18 V)).trans (by rw [val18_main_v263 V, val18_main_v265 V, val18_main_v267 V, val18_main_v270 V, val18_main_v271 V]; rfl)

/-- The contents after the first 20 stretches (the last of them `stH`). -/
def val20 (V : Valuation τ sig (Elt F)) : Valuation τ sig (Elt F) := StableHlo.after stH (val19 V)
theorem val20_main_v291 (V : Valuation τ sig (Elt F)) : val20 V (Proc.devRef .tc main_v291) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (stH_main_v291 (val19 V)).trans (by rw [val19_main_v287 V, val19_main_arg8 V, val19_main_arg9 V]; rfl)

/-- The contents after all of @main's operations are those after the last stretch. -/
theorem after_ops_val (V : Valuation τ sig (Elt F)) : StableHlo.after ops V = val20 V := by
  rw [ops_split, after_app, after_app, after_app, after_app, after_app, after_app, after_app, after_app, after_app, after_app, after_app, after_app, after_app, after_app, after_app, after_app, after_app, after_app, after_app]
  rfl

/-- THE REFERENCE'S VALUE: from any contents, after @main's operations the result buffer holds the reference's function
    `out` of the ten arguments' contents. -/
theorem value (V : Valuation τ sig (Elt F)) :
    StableHlo.after ops V (Proc.devRef .tc main_v291) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops_val]; exact val20_main_v291 V

/-- The run with the result read: @main terminates with the result buffer at `out` of the launch's ten argument
    buffers, and those as the launch left them. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v291) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (value fun b => m (c, b)), (h c).2⟩) (run m ρ)

end Cert.ReferenceIdeal.Hand

end
-- ==== Proof.Ref.Final.lean ====
import proofs.«180311_j29308856828500_2_alg».proof.Proof.Ref.Value
import proofs.«180311_j29308856828500_2_alg».proof.Proof.Ref.Net

set_option maxRecDepth 16384

noncomputable section

namespace Cert.ReferenceIdeal.Hand

open Cert.ReferenceIdeal Cert.ReferenceIdeal.Gen Idealize.ShloMosaic Idealize.ShloMosaic.ValueIdx
open scoped BigOperators

open Idealize.ShloMosaic.TcCoe Idealize.SL.Sem

/-! The two halves joined at the ideal values: what the operations leave in the result buffer is the reference's
    function of the arguments' contents, and that function is the network. -/

/-- From any contents `V`, after @main's operations the result buffer, read as a matrix, is the network of the ten
    argument buffers' contents in `V`. -/
theorem value_netDev (V : Valuation τ sig (Elt Ideal)) :
    Spec.toMat (StableHlo.after ops V (Proc.devRef .tc main_v291) : FVec Ideal S50000x32 .f32)
      = Spec.netDev (Aref (srcIdx (V (Proc.devRef .tc main_arg1))) (dstIdx (V (Proc.devRef .tc main_arg1)))) nn eps (Spec.toMat (V (Proc.devRef .tc main_arg0))) (Spec.toMat (V (Proc.devRef .tc main_arg2))) (vecOf (V (Proc.devRef .tc main_arg3)))
          (slabW (V (Proc.devRef .tc main_arg4))) (slabB (V (Proc.devRef .tc main_arg5))) (slabR (V (Proc.devRef .tc main_arg6))) (slabR (V (Proc.devRef .tc main_arg7))) (Spec.toMat (V (Proc.devRef .tc main_arg8))) (vecOf (V (Proc.devRef .tc main_arg9))) := by
  rw [value]
  exact out_eq_netDev (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))

/-- The run at the ideal values: @main terminates with the result buffer, read as a matrix, at the network of the
    launch's argument buffers, and those as the launch left them. -/
theorem run_netDev (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Spec.toMat (r.2.mem ((c.tc : Thread nD τ).loc main_v291) : FVec Ideal S50000x32 .f32)
        = Spec.netDev (Aref (srcIdx (m ((c.tc : Thread nD τ).loc main_arg1))) (dstIdx (m ((c.tc : Thread nD τ).loc main_arg1)))) nn eps (Spec.toMat (m ((c.tc : Thread nD τ).loc main_arg0))) (Spec.toMat (m ((c.tc : Thread nD τ).loc main_arg2))) (vecOf (m ((c.tc : Thread nD τ).loc main_arg3)))
          (slabW (m ((c.tc : Thread nD τ).loc main_arg4))) (slabB (m ((c.tc : Thread nD τ).loc main_arg5))) (slabR (m ((c.tc : Thread nD τ).loc main_arg6))) (slabR (m ((c.tc : Thread nD τ).loc main_arg7))) (Spec.toMat (m ((c.tc : Thread nD τ).loc main_arg8))) (vecOf (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(congrArg (fun z : FVec Ideal S50000x32 .f32 => Spec.toMat z) (h c).1).trans
      (value_netDev fun b => m (c, b)), (h c).2⟩) (run m ρ)

end Cert.ReferenceIdeal.Hand

end
-- ==== Proof.Math.Finite.lean ====
/-
  Extended reals that are real numbers, and the operations that keep them so.

  An extended real is REAL when it is the image of a real number, that is, when it is
  neither of the two infinities. Sums, differences, products, maxima, finite sums, quotients
  by a nonzero real, the exponential, the logistic function and the reciprocal square root of
  a positive real all send reals to reals; and the coercion from the reals commutes with each
  of them, finite sums included.
-/
import Idealize.ShloMosaic.PureOps.Ideal
import Idealize.ShloMosaic.PureOps.Ideal.Laws

noncomputable section

namespace Cert.Math

open Idealize.ShloMosaic
open scoped BigOperators

/-- An extended real is real: the image of a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

/-- Real means: neither infinity. -/
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

/-- An extended real whose absolute value `max x (-x)` is below `⊤` is real. -/
theorem isReal_of_abs_lt_top {x : EReal} (h : max x (-x) < ⊤) : IsReal x := by
  rw [isReal_iff]
  constructor
  · rintro rfl
    rw [EReal.neg_bot] at h
    exact absurd h (not_lt.mpr (le_max_right _ _))
  · rintro rfl
    exact absurd h (not_lt.mpr (le_max_left _ _))

/-- The converse: the absolute value of a real is below `⊤`. -/
theorem abs_lt_top_of_isReal {x : EReal} (h : IsReal x) : max x (-x) < ⊤ := by
  obtain ⟨r, rfl⟩ := h
  rw [← EReal.coe_neg]
  exact max_lt (EReal.coe_lt_top r) (EReal.coe_lt_top (-r))

/-! ### The coercion commutes with the operations -/

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- The quotient of a real by a nonzero real, as the library divides, is the real quotient. -/
theorem div_coe_coe (a : ℝ) {y : ℝ} (hy : y ≠ 0) :
    Ideal.div (a : EReal) (y : EReal) = ((a / y : ℝ) : EReal) := by
  rw [Ideal.div_coe hy, ← EReal.coe_mul, mul_one_div]

/-- The reciprocal square root of a positive real is the real `(√r)⁻¹`. -/
theorem rsqrt_coe_of_pos {r : ℝ} (h : 0 < r) :
    Ideal.rsqrt (r : EReal) = (((Real.sqrt r)⁻¹ : ℝ) : EReal) := by
  rw [Ideal.rsqrt_coe, if_neg (not_lt.mpr h.le), if_neg h.ne']

/-! ### Closure -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx
  obtain ⟨b, rfl⟩ := hy
  exact ⟨Max.max a b, (coe_max a b).symm⟩

theorem IsReal.min {x y : EReal} (hx : IsReal x) (hy : IsReal y) : IsReal (min x y) := by
  rcases le_total x y with h | h
  · rw [min_eq_left h]; exact hx
  · rw [min_eq_right h]; exact hy

/-- A finite sum of reals is real. -/
theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add (ih fun i hi => h i (Finset.mem_insert_of_mem hi))

/-- A sum over a whole finite type of reals is real. -/
theorem isReal_sum_univ {ι : Type*} [Fintype ι] (f : ι → EReal) (h : ∀ i, IsReal (f i)) :
    IsReal (∑ i, f i) :=
  isReal_sum Finset.univ f fun i _ => h i

/-- A real divided by a nonzero real, as the library divides, is real. -/
theorem IsReal.div_coe {x : EReal} (hx : IsReal x) {y : ℝ} (hy : y ≠ 0) :
    IsReal (Ideal.div x (y : EReal)) := by
  obtain ⟨a, rfl⟩ := hx
  exact ⟨a / y, div_coe_coe a hy⟩

/-- A real times the coercion of a real (a folded reciprocal, say) is real. -/
theorem IsReal.mul_coe {x : EReal} (hx : IsReal x) (y : ℝ) : IsReal (x * (y : EReal)) :=
  hx.mul (isReal_coe y)

/-- The exponential of a real is real. -/
theorem IsReal.exp {x : EReal} (hx : IsReal x) : IsReal (Ideal.exp x) := by
  obtain ⟨a, rfl⟩ := hx
  exact ⟨Real.exp a, Ideal.exp_coe a⟩

/-- The logistic function `1 / (1 + e^(-x))` of a real is real. -/
theorem IsReal.logistic {x : EReal} (hx : IsReal x) : IsReal (Ideal.logistic x) := by
  obtain ⟨a, rfl⟩ := hx
  exact ⟨(1 + Real.exp (-a))⁻¹, Ideal.logistic_coe a⟩

/-- The same, spelled as the quotient it abbreviates. -/
theorem IsReal.one_div_one_add_exp_neg {x : EReal} (hx : IsReal x) :
    IsReal (Ideal.div 1 (1 + Ideal.exp (-x))) :=
  hx.logistic

/-- The reciprocal square root of a positive real is real. -/
theorem isReal_rsqrt_of_pos {r : ℝ} (h : 0 < r) : IsReal (Ideal.rsqrt (r : EReal)) :=
  ⟨(Real.sqrt r)⁻¹, rsqrt_coe_of_pos h⟩

/-- For a nonnegative real `v` and a positive real `ε`, `rsqrt (v + ε)` is real. -/
theorem isReal_rsqrt_add {v ε : EReal} (hv : IsReal v) (hv0 : 0 ≤ v) (hε : IsReal ε) (hε0 : 0 < ε) :
    IsReal (Ideal.rsqrt (v + ε)) := by
  obtain ⟨a, rfl⟩ := hv
  obtain ⟨e, rfl⟩ := hε
  have ha : 0 ≤ a := EReal.coe_nonneg.mp hv0
  have he : 0 < e := EReal.coe_pos.mp hε0
  rw [← EReal.coe_add]
  exact isReal_rsqrt_of_pos (add_pos_of_nonneg_of_pos ha he)

/-- The maximum of anything with `0` is nonnegative: the clamped variance meets `isReal_rsqrt_add`. -/
theorem zero_le_max_zero (x : EReal) : 0 ≤ max x 0 := le_max_right x 0

end Cert.Math

end
-- ==== Proof.Math.Variance.lean ====
/-
  The two formulas for the variance of finitely many real numbers agree.

  For real numbers `x i`, `i` in a finite type of `N > 0` elements, with mean `m = (∑ x i) / N`:

      (∑ x i · x i) / N − m · m  =  (∑ (x i − m) · (x i − m)) / N,

  because `∑ (x i − m)² = ∑ x i² − 2 m ∑ x i + N m²` and `∑ x i = N m`. The right side is a sum of
  squares over a positive number, so it is nonnegative and taking the maximum of the left side with
  `0` changes nothing. On the extended reals the identity holds for values that are real (it fails
  at the infinities, where `∞ − ∞` is not `0`): stated here on `EReal` with the library's division,
  and in the library's float operations at the ideal values.
-/
import Idealize.ShloMosaic.PureOps.Ideal
import Idealize.ShloMosaic.PureOps.Ideal.Laws
import proofs.«180311_j29308856828500_2_alg».proof.Proof.Math.Finite

noncomputable section

namespace Cert.Math

open Idealize.ShloMosaic
open scoped BigOperators

/-- The identity on the reals. -/
theorem real_var_eq {ι : Type*} [Fintype ι] (x : ι → ℝ) (n : ℝ) (hn : n = (Fintype.card ι : ℝ)) (hn0 : n ≠ 0) :
    (∑ i, x i * x i) / n - (∑ i, x i) / n * ((∑ i, x i) / n)
      = (∑ i, (x i - (∑ i, x i) / n) * (x i - (∑ i, x i) / n)) / n := by
  have hsum : ∑ i, (x i - (∑ i, x i) / n) * (x i - (∑ i, x i) / n)
      = ∑ i, x i * x i - 2 * ((∑ i, x i) / n) * ∑ i, x i + n * ((∑ i, x i) / n * ((∑ i, x i) / n)) := by
    have hexp : ∀ i, (x i - (∑ i, x i) / n) * (x i - (∑ i, x i) / n)
        = x i * x i - 2 * ((∑ i, x i) / n) * x i + (∑ i, x i) / n * ((∑ i, x i) / n) := fun i => by ring
    rw [Finset.sum_congr rfl fun i _ => hexp i, Finset.sum_add_distrib, Finset.sum_sub_distrib, ← Finset.mul_sum,
      Finset.sum_const, Finset.card_univ, nsmul_eq_mul, ← hn]
  rw [hsum]
  field_simp
  ring

/-- The centred form is nonnegative: a sum of squares over a positive number. -/
theorem real_var_nonneg {ι : Type*} [Fintype ι] (x : ι → ℝ) (m n : ℝ) (hn : 0 < n) :
    0 ≤ (∑ i, (x i - m) * (x i - m)) / n :=
  div_nonneg (Finset.sum_nonneg fun i _ => mul_self_nonneg (x i - m)) hn.le

/-- The variance identity on the extended reals, for real values: the clamped difference of the mean
    of the squares and the square of the mean is the mean of the squared deviations. `n` is the number
    of terms as a real (the constant the programs divide by). -/
theorem var_eq_sum {ι : Type*} [Fintype ι] (x : ι → EReal) (hx : ∀ i, IsReal (x i)) (n : ℝ)
    (hn : n = (Fintype.card ι : ℝ)) (hpos : 0 < Fintype.card ι) :
    max (Ideal.div (∑ i, x i * x i) (n : EReal)
          - Ideal.div (∑ i, x i) (n : EReal) * Ideal.div (∑ i, x i) (n : EReal)) 0
      = Ideal.div (∑ i, (x i - Ideal.div (∑ i, x i) (n : EReal)) * (x i - Ideal.div (∑ i, x i) (n : EReal)))
          (n : EReal) := by
  have hnpos : 0 < n := by rw [hn]; exact_mod_cast hpos
  have hn0 : n ≠ 0 := hnpos.ne'
  choose r hr using hx
  obtain rfl : x = fun i => (r i : EReal) := funext hr
  have hS : (∑ i, (r i : EReal)) = ((∑ i, r i : ℝ) : EReal) := (coe_finset_sum _ _).symm
  have hQ : (∑ i, (r i : EReal) * (r i : EReal)) = ((∑ i, r i * r i : ℝ) : EReal) := by
    rw [coe_finset_sum]
    exact Finset.sum_congr rfl fun i _ => (EReal.coe_mul _ _).symm
  have hC : (∑ i, ((r i : EReal) - (((∑ i, r i) / n : ℝ) : EReal)) * ((r i : EReal) - (((∑ i, r i) / n : ℝ) : EReal)))
      = ((∑ i, (r i - (∑ i, r i) / n) * (r i - (∑ i, r i) / n) : ℝ) : EReal) := by
    rw [coe_finset_sum]
    exact Finset.sum_congr rfl fun i _ => by rw [EReal.coe_mul, EReal.coe_sub]
  rw [hS, hQ, div_coe_coe _ hn0, div_coe_coe _ hn0, hC, div_coe_coe _ hn0, ← EReal.coe_mul, ← EReal.coe_sub,
    ← EReal.coe_zero, ← coe_max, real_var_eq r n hn hn0, max_eq_left (real_var_nonneg r _ n hnpos)]

/-- The mean of the squared deviations of real values from any real `m` is nonnegative. -/
theorem var_dev_nonneg {ι : Type*} [Fintype ι] (x : ι → EReal) (hx : ∀ i, IsReal (x i)) {m : EReal} (hm : IsReal m)
    {n : ℝ} (hn : 0 < n) : 0 ≤ Ideal.div (∑ i, (x i - m) * (x i - m)) (n : EReal) := by
  choose r hr using hx
  obtain rfl : x = fun i => (r i : EReal) := funext hr
  obtain ⟨mm, rfl⟩ := hm
  have hC : (∑ i, ((r i : EReal) - (mm : EReal)) * ((r i : EReal) - (mm : EReal)))
      = ((∑ i, (r i - mm) * (r i - mm) : ℝ) : EReal) := by
    rw [coe_finset_sum]
    exact Finset.sum_congr rfl fun i _ => by rw [EReal.coe_mul, EReal.coe_sub]
  rw [hC, div_coe_coe _ hn.ne']
  exact EReal.coe_nonneg.mpr (real_var_nonneg r mm n hn)

/-- The mean of real values is real. -/
theorem isReal_mean {ι : Type*} [Fintype ι] (x : ι → EReal) (hx : ∀ i, IsReal (x i)) {n : ℝ} (hn0 : n ≠ 0) :
    IsReal (Ideal.div (∑ i, x i) (n : EReal)) :=
  (isReal_sum_univ x hx).div_coe hn0

/-- The centred variance of real values is real and nonnegative. -/
theorem isReal_var {ι : Type*} [Fintype ι] (x : ι → EReal) (hx : ∀ i, IsReal (x i)) {n : ℝ} (hn0 : n ≠ 0) :
    IsReal (Ideal.div (∑ i, (x i - Ideal.div (∑ i, x i) (n : EReal)) * (x i - Ideal.div (∑ i, x i) (n : EReal)))
      (n : EReal)) :=
  (isReal_sum_univ _ fun i => ((hx i).sub (isReal_mean x hx hn0)).mul ((hx i).sub (isReal_mean x hx hn0))).div_coe hn0

/-- The clamped variance of real values is real. -/
theorem isReal_var_clamped {ι : Type*} [Fintype ι] (x : ι → EReal) (hx : ∀ i, IsReal (x i)) {n : ℝ} (hn0 : n ≠ 0) :
    IsReal (max (Ideal.div (∑ i, x i * x i) (n : EReal)
          - Ideal.div (∑ i, x i) (n : EReal) * Ideal.div (∑ i, x i) (n : EReal)) 0) :=
  (((isReal_sum_univ _ fun i => (hx i).mul (hx i)).div_coe hn0).sub
    ((isReal_mean x hx hn0).mul (isReal_mean x hx hn0))).max isReal_zero

/-- The identity in the library's float operations at the ideal values, at any format: the kernel's
    `maximumf (subf (hostDivf (∑ mulf x x) n) (mulf mean mean)) 0` is the reference's
    `hostDivf (∑ mulf (subf x mean) (subf x mean)) n`, with `mean = hostDivf (∑ x) n`. -/
theorem var_eq_ops {φ : FTy} {ι : Type*} [Fintype ι] (x : ι → Ideal φ) (hx : ∀ i, IsReal (x i)) (n : ℝ)
    (hn : n = (Fintype.card ι : ℝ)) (hpos : 0 < Fintype.card ι) :
    FloatOps.maximumf
        (FloatOps.subf (FloatOps.hostDivf (∑ i, FloatOps.mulf (x i) (x i)) ((n : EReal) : Ideal φ))
          (FloatOps.mulf (FloatOps.hostDivf (∑ i, x i) ((n : EReal) : Ideal φ))
            (FloatOps.hostDivf (∑ i, x i) ((n : EReal) : Ideal φ))))
        (0 : Ideal φ)
      = FloatOps.hostDivf
          (∑ i, FloatOps.mulf (FloatOps.subf (x i) (FloatOps.hostDivf (∑ i, x i) ((n : EReal) : Ideal φ)))
            (FloatOps.subf (x i) (FloatOps.hostDivf (∑ i, x i) ((n : EReal) : Ideal φ))))
          ((n : EReal) : Ideal φ) := by
  simp only [Ideal.maximumf_def, Ideal.subf_def, Ideal.mulf_def, Ideal.hostDivf_def]
  exact var_eq_sum x hx n hn hpos

end Cert.Math

end
-- ==== Proof.Math.SpecLaws.lean ====
/-
  The variance law and the closure of the real numbers, in the vocabulary of the network's specification.

  For a matrix all of whose entries are real, the two spellings of a column's variance — the mean of the
  squares minus the square of the mean, cut off below at zero, and the mean of the squared deviations —
  agree; and every layer of the network sends matrices of reals to matrices of reals: a linear map,
  the positive part, the column mean and variance, batch normalisation with a nonnegative variance and a
  positive `ε`, and the logistic function.
-/
import proofs.«180311_j29308856828500_2_alg».proof.Proof.Math.Spec
import proofs.«180311_j29308856828500_2_alg».proof.Proof.Math.Finite
import proofs.«180311_j29308856828500_2_alg».proof.Proof.Math.Variance

noncomputable section

namespace Cert.Math

open Idealize.ShloMosaic
open Cert.Spec
open scoped BigOperators

/-- The entries of a real matrix, and of a real row, are real. -/
theorem Real2.isReal {r c : Nat} {x : Mat r c} (hx : Real2 x) (i : Fin r) (j : Fin c) : IsReal (x i j) := hx i j
theorem Real1.isReal {c : Nat} {x : Fin c → EReal} (hx : Real1 x) (j : Fin c) : IsReal (x j) := hx j

/-- The variance law: on a matrix of reals with `r > 0` rows the two spellings of the column variance agree. -/
theorem var_eq {r c : Nat} (hr : 0 < r) (x : Mat r c) (hx : Real2 x) :
    varSq ((r : ℝ) : EReal) x = varDev ((r : ℝ) : EReal) x := by
  funext j
  exact var_eq_sum (fun i => x i j) (fun i => hx i j) (r : ℝ) (by rw [Fintype.card_fin])
    (by rw [Fintype.card_fin]; exact hr)

/-- A linear map of real matrices with a real offset is a real matrix. -/
theorem real2_lin {r k c : Nat} {x : Mat r k} {w : Mat k c} {b : Fin c → EReal} (hx : Real2 x) (hw : Real2 w)
    (hb : Real1 b) : Real2 (lin x w b) := fun i j =>
  IsReal.add (isReal_sum_univ _ fun q => IsReal.mul (hx i q) (hw q j)) (hb j)

/-- The positive part of a real matrix is a real matrix. -/
theorem real2_relu {r c : Nat} {x : Mat r c} (hx : Real2 x) : Real2 (relu x) := fun i j =>
  IsReal.max (hx i j) isReal_zero

/-- The logistic function of a real is a real. -/
theorem isReal_sigmoid {z : EReal} (hz : IsReal z) : IsReal (sigmoid z) := hz.logistic

/-- The same with the witness spelled out. -/
theorem sigmoid_real {z : EReal} (hz : ∃ a : ℝ, z = (a : EReal)) : ∃ a : ℝ, sigmoid z = (a : EReal) :=
  isReal_sigmoid hz

/-- The column sums of a real matrix are real. -/
theorem real1_colSum {r c : Nat} {x : Mat r c} (hx : Real2 x) : Real1 (colSum x) := fun j =>
  isReal_sum_univ _ fun i => hx i j

/-- The column means of a real matrix, over a nonzero real `n`, are real. -/
theorem real1_mean {r c : Nat} {x : Mat r c} (hx : Real2 x) {n : ℝ} (hn : n ≠ 0) : Real1 (mean (n : EReal) x) :=
  fun j => IsReal.div_coe (real1_colSum hx j) hn

/-- The column variances, as means of squared deviations over a nonzero real `n`, are real. -/
theorem real1_varDev {r c : Nat} {x : Mat r c} (hx : Real2 x) {n : ℝ} (hn : n ≠ 0) : Real1 (varDev (n : EReal) x) :=
  fun j => IsReal.div_coe
    (isReal_sum_univ _ fun i => IsReal.mul (IsReal.sub (hx i j) (real1_mean hx hn j)) (IsReal.sub (hx i j) (real1_mean hx hn j)))
    hn

/-- … and nonnegative, over a positive real `n`. -/
theorem varDev_nonneg {r c : Nat} {x : Mat r c} (hx : Real2 x) {n : ℝ} (hn : 0 < n) (j : Fin c) :
    0 ≤ varDev (n : EReal) x j :=
  var_dev_nonneg (fun i => x i j) (fun i => hx i j) (real1_mean hx hn.ne' j) hn

/-- The column variances in the other spelling are real over a nonzero real `n`, and nonnegative always. -/
theorem real1_varSq {r c : Nat} {x : Mat r c} (hx : Real2 x) {n : ℝ} (hn : n ≠ 0) : Real1 (varSq (n : EReal) x) :=
  fun j => IsReal.max
    (IsReal.sub (IsReal.div_coe (isReal_sum_univ _ fun i => IsReal.mul (hx i j) (hx i j)) hn)
      (IsReal.mul (real1_mean hx hn j) (real1_mean hx hn j)))
    isReal_zero

theorem varSq_nonneg {r c : Nat} (n : EReal) (x : Mat r c) (j : Fin c) : 0 ≤ varSq n x j := le_max_right _ _

/-- Batch normalisation then the positive part, of reals with a nonnegative variance and a positive real `ε`,
    is a real matrix. -/
theorem real2_bnRelu {r c : Nat} {x : Mat r c} {mu var γ β : Fin c → EReal} (hx : Real2 x) (hmu : Real1 mu)
    (hvar : Real1 var) (hvar0 : ∀ j, 0 ≤ var j) (hγ : Real1 γ) (hβ : Real1 β) {ε : ℝ} (hε : 0 < ε) :
    Real2 (bnRelu x mu var γ β (ε : EReal)) := fun i j =>
  IsReal.max
    (IsReal.add
      (IsReal.mul (IsReal.mul (hγ j) (IsReal.sub (hx i j) (hmu j)))
        (isReal_rsqrt_add (hvar j) (hvar0 j) (isReal_coe ε) (EReal.coe_pos.mpr hε)))
      (hβ j))
    isReal_zero

end Cert.Math

end
-- ==== Proof.Math.NetEq.lean ====
/-
  The two spellings of the network agree on real inputs.

  Each layer of the network sends a matrix of reals to a matrix of reals (linear maps, the aggregation `A`
  by hypothesis, batch normalisation with a nonnegative variance and a positive `ε`, the positive part), and
  on a matrix of reals the two spellings of the column variance agree. So, layer by layer, the network that
  takes the variance as the mean of the squares minus the squared mean, cut off at zero, equals the network
  that takes it as the mean of the squared deviations.
-/
import proofs.«180311_j29308856828500_2_alg».proof.Proof.Math.Net
import proofs.«180311_j29308856828500_2_alg».proof.Proof.Math.SpecLaws

noncomputable section

namespace Cert.Math

open Idealize.ShloMosaic
open Cert.Spec
open scoped BigOperators

variable {n h : Nat}

/-- A layer before normalisation, of reals, is real: the skip term and the three maps are linear, and the
    aggregation keeps reals real. -/
theorem real2_conv {A : Mat n h → Mat n h → Mat n h → Mat n h}
    (hA : ∀ k q v, Real2 k → Real2 q → Real2 v → Real2 (A k q v)) {x : Mat n h} {W : Fin 4 → Mat h h}
    {b : Fin 4 → Fin h → EReal} (hx : Real2 x) (hW : ∀ a, Real2 (W a)) (hb : ∀ a, Real1 (b a)) :
    Real2 (conv A x W b) := fun i j =>
  IsReal.add (real2_lin hx (hW 3) (hb 3) i j)
    (hA _ _ _ (real2_lin hx (hW 0) (hb 0)) (real2_lin hx (hW 1) (hb 1)) (real2_lin hx (hW 2) (hb 2)) i j)

/-- On a matrix of reals with `n > 0` rows the two normalisations agree. -/
theorem normSq_eq_normDev (hn : 0 < n) (ε : EReal) {y : Mat n h} (hy : Real2 y) (γ β : Fin h → EReal) :
    normSq ((n : ℝ) : EReal) ε y γ β = normDev ((n : ℝ) : EReal) ε y γ β := by
  unfold normSq normDev
  rw [var_eq hn y hy]

/-- The normalisation of a matrix of reals, with real scale and offset and a positive real `ε`, is real. -/
theorem real2_normDev (hn : 0 < n) {e : ℝ} (he : 0 < e) {y : Mat n h} (hy : Real2 y) {γ β : Fin h → EReal}
    (hγ : Real1 γ) (hβ : Real1 β) : Real2 (normDev ((n : ℝ) : EReal) (e : EReal) y γ β) := by
  have hnR : (0 : ℝ) < (n : ℝ) := Nat.cast_pos.mpr hn
  exact real2_bnRelu hy (real1_mean hy hnR.ne') (real1_varDev hy hnR.ne') (varDev_nonneg hy hnR) hγ hβ he

/-- One whole layer: the two spellings agree on a real input. -/
theorem layer_eq (hn : 0 < n) {A : Mat n h → Mat n h → Mat n h → Mat n h}
    (hA : ∀ k q v, Real2 k → Real2 q → Real2 v → Real2 (A k q v)) (ε : EReal) {x : Mat n h} (hx : Real2 x)
    {W : Fin 4 → Mat h h} {b : Fin 4 → Fin h → EReal} (hW : ∀ a, Real2 (W a)) (hb : ∀ a, Real1 (b a))
    (γ β : Fin h → EReal) :
    normSq ((n : ℝ) : EReal) ε (conv A x W b) γ β = normDev ((n : ℝ) : EReal) ε (conv A x W b) γ β :=
  normSq_eq_normDev hn ε (real2_conv hA hx hW hb) γ β

/-- One whole layer of reals is real. -/
theorem real2_layer (hn : 0 < n) {A : Mat n h → Mat n h → Mat n h → Mat n h}
    (hA : ∀ k q v, Real2 k → Real2 q → Real2 v → Real2 (A k q v)) {e : ℝ} (he : 0 < e) {x : Mat n h} (hx : Real2 x)
    {W : Fin 4 → Mat h h} {b : Fin 4 → Fin h → EReal} (hW : ∀ a, Real2 (W a)) (hb : ∀ a, Real1 (b a))
    {γ β : Fin h → EReal} (hγ : Real1 γ) (hβ : Real1 β) :
    Real2 (normDev ((n : ℝ) : EReal) (e : EReal) (conv A x W b) γ β) :=
  real2_normDev hn he (real2_conv hA hx hW hb) hγ hβ

/-- The network with the cut-off variance is the network with the deviations' variance, on real inputs and
    parameters (the last linear map's need not be real), for an aggregation that keeps reals real. -/
theorem net_eq {ic oc : Nat} (hn : 0 < n) (A : Mat n h → Mat n h → Mat n h → Mat n h)
    (hA : ∀ k q v, Real2 k → Real2 q → Real2 v → Real2 (A k q v)) {e : ℝ} (he : 0 < e)
    (x : Mat n ic) (pw : Mat ic h) (pb : Fin h → EReal) (W : Fin 3 → Fin 4 → Mat h h)
    (b : Fin 3 → Fin 4 → Fin h → EReal) (γ β : Fin 3 → Fin h → EReal) (hw : Mat h oc) (hb : Fin oc → EReal)
    (hx : Real2 x) (hpw : Real2 pw) (hpb : Real1 pb) (hW : ∀ l a, Real2 (W l a)) (hbR : ∀ l a, Real1 (b l a))
    (hγ : ∀ l, Real1 (γ l)) (hβ : ∀ l, Real1 (β l)) :
    netSq A ((n : ℝ) : EReal) (e : EReal) x pw pb W b γ β hw hb
      = netDev A ((n : ℝ) : EReal) (e : EReal) x pw pb W b γ β hw hb := by
  have r0 : Real2 (relu (lin x pw pb)) := real2_relu (real2_lin hx hpw hpb)
  have r1 := real2_layer hn hA he r0 (hW 0) (hbR 0) (hγ 0) (hβ 0)
  have r2 := real2_layer hn hA he r1 (hW 1) (hbR 1) (hγ 1) (hβ 1)
  unfold netSq netDev
  dsimp only
  rw [layer_eq hn hA (e : EReal) r0 (hW 0) (hbR 0) (γ 0) (β 0), layer_eq hn hA (e : EReal) r1 (hW 1) (hbR 1) (γ 1) (β 1),
    layer_eq hn hA (e : EReal) r2 (hW 2) (hbR 2) (γ 2) (β 2)]

end Cert.Math

end
-- ==== Proof.Math.Consts.lean ====
/-
  The float constants the two programs spell, as the extended reals their bit patterns denote.

  An f32 pattern with sign bit `0`, exponent field `E` (neither `0` nor `255`) and fraction field `T` denotes
  the real `(2^23 + T) · 2^(E − 127 − 23)`.
  • `0x47435000`: `E = 142`, `T = 4411392`, so `12800000 · 2^(−8) = 50000`, the number of rows.
  • `0x3727C5AC`: `E = 110`, `T = 2606508`, so `10995116 · 2^(−40)`, the f32 nearest to `10^(−5)`: a positive real.
  • `0x3F800000`: `E = 127`, `T = 0`, so `2^23 · 2^(−23) = 1`.
  • `0x00000000` denotes `0`.
-/
import Idealize.ShloMosaic.PureOps.Ideal
import Idealize.ShloMosaic.PureOps.Ideal.Laws

noncomputable section

namespace Cert.Math

open Idealize.ShloMosaic

/-- `50000.0` denotes the real `50000`. -/
theorem nn_eq : Ideal.ofBits .f32 0x47435000#32 = ((50000 : ℝ) : EReal) := by
  simp [Ideal.ofBits, Ideal.ieee, -EReal.coe_mul]; norm_num

/-- The number of rows as a natural number cast to the reals is the same real. -/
theorem nn_eq_cast : Ideal.ofBits .f32 0x47435000#32 = (((50000 : ℕ) : ℝ) : EReal) := by
  rw [nn_eq, Nat.cast_ofNat]

/-- `1e-5` denotes the dyadic rational `10995116 / 2^40`. -/
theorem eps_eq_dyadic : Ideal.ofBits .f32 0x3727C5AC#32 = ((10995116 / 1099511627776 : ℝ) : EReal) := by
  simp [Ideal.ofBits, Ideal.ieee, -EReal.coe_mul]; norm_num

/-- `1e-5` denotes a positive real. -/
theorem eps_eq : ∃ e : ℝ, 0 < e ∧ Ideal.ofBits .f32 0x3727C5AC#32 = (e : EReal) :=
  ⟨10995116 / 1099511627776, by norm_num, eps_eq_dyadic⟩

/-- `+0.0` denotes `0`. -/
theorem zero_eq : Ideal.ofBits .f32 0x00000000#32 = 0 := Ideal.ofBits_zero_f32

/-- `1.0` denotes `1`. -/
theorem one_eq : Ideal.ofBits .f32 0x3F800000#32 = 1 := by
  simp [Ideal.ofBits, Ideal.ieee, -EReal.coe_mul]; norm_num

end Cert.Math

end
-- ==== Proof.PreReal.lean ====
/-
  From the precondition "every float input is finite" to "every entry of every float input is a real number".

  The precondition is the conjunction, over the nine float arguments, of "every entry `x` satisfies
  `|x| < +∞`". At the ideal values `|x|` is `max x (−x)`, the bound is the extended real `⊤`, and an
  extended real whose absolute value is below `⊤` is neither infinity: it is a real number.
-/
import proofs.«180311_j29308856828500_2_alg».proof.Pre_finite_inputs
import proofs.«180311_j29308856828500_2_alg».proof.Proof.Math.Finite
import Idealize.ShloMosaic.Lib.ReduceAll
import Idealize.ShloMosaic.Lib.ValueIdx
import Idealize.ShloMosaic.PureOps.Ideal
import Idealize.ShloMosaic.PureOps.Ideal.Laws

noncomputable section

namespace Cert.PreReal

open Idealize.ShloMosaic Cert.Pre_finite_inputs Cert.Math

/-- The shape of rank zero has one index. -/
instance : Subsingleton S_.Idx := ⟨fun a b => funext fun d => d.elim0⟩

/-- The f32 pattern of `+∞` denotes `⊤`. -/
theorem inf_eq : Ideal.ofBits .f32 0x7F800000#32 = ⊤ := by
  simp [Ideal.ofBits, Ideal.ieee]

/-- A conjunction of two `i1` arrays that is `1` at an index: both are `1` there. -/
theorem andi_apply_eq_one {s : Shape} (x y : IVec s 1) (i : s.Idx) :
    andi x y i = 1#1 ↔ x i = 1#1 ∧ y i = 1#1 := IntOp.andi_eq_one

/-- One entry: where the comparison `|x| < +∞` answers `1`, the entry is a real number. -/
theorem isReal_of_lt_inf {s : Shape} (a : FVec Ideal s .f32) (bc : S_.BroadcastsInDim s (![] : Fin 0 → Fin s.rank))
    (i : s.Idx)
    (h : cmpf .olt (Host.absf a) (broadcastInDim s ![] bc (constant S_ .f32 0x7F800000#32)) i = 1#1) :
    IsReal (a i) := by
  have h' : Ideal.cmp .olt (max (a i) (-(a i))) (Ideal.ofBits .f32 0x7F800000#32) = 1#1 := h
  rw [inf_eq] at h'
  have hlt : max (a i) (-(a i)) < ⊤ := by
    by_contra hc
    simp [Ideal.cmp, hc] at h'
  exact isReal_of_abs_lt_top hlt

/-- One argument: where `jnp.all (|a| < +∞)` answers `1`, every entry of `a` is a real number. -/
theorem isReal_of_all {s : Shape} {axes : List (Fin s.rank)} (a : FVec Ideal s .f32)
    (bc : S_.BroadcastsInDim s (![] : Fin 0 → Fin s.rank)) (red : s.ReducesTo axes S_) (hu : 0 < S_.numel)
    (j : S_.Idx)
    (h : Host.reduce IntOp.andi (cmpf .olt (Host.absf a) (broadcastInDim s ![] bc (constant S_ .f32 0x7F800000#32)))
          (constantI S_ 1 1#1) red hu j = 1#1) :
    ∀ i, IsReal (a i) := fun i =>
  isReal_of_lt_inf a bc i (Host.reduce_andi_all _ _ red hu j h i)

variable [Facts]

/-- The precondition gives: every entry of each of the nine float arguments is a real number. -/
theorem all_real (a0 : FVec Ideal S50000x64 .f32) (a1 : IVec S2x600000 32) (a2 : FVec Ideal S64x128 .f32)
    (a3 : FVec Ideal S128 .f32) (a4 : FVec Ideal S3x4x128x128 .f32) (a5 : FVec Ideal S3x4x128 .f32)
    (a6 : FVec Ideal S3x128 .f32) (a7 : FVec Ideal S3x128 .f32) (a8 : FVec Ideal S128x32 .f32)
    (a9 : FVec Ideal S32 .f32)
    (h : fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 := congrFun h ValueIdx.ix0
  dsimp only [fn, fn_part1, fn_part2] at h0
  obtain ⟨h1, e9⟩ := (andi_apply_eq_one _ _ _).1 h0
  obtain ⟨h2, e8⟩ := (andi_apply_eq_one _ _ _).1 h1
  obtain ⟨h3, e7⟩ := (andi_apply_eq_one _ _ _).1 h2
  obtain ⟨h4, e6⟩ := (andi_apply_eq_one _ _ _).1 h3
  obtain ⟨h5, e5⟩ := (andi_apply_eq_one _ _ _).1 h4
  obtain ⟨h6, e4⟩ := (andi_apply_eq_one _ _ _).1 h5
  obtain ⟨h7, e3⟩ := (andi_apply_eq_one _ _ _).1 h6
  obtain ⟨e0, e2⟩ := (andi_apply_eq_one _ _ _).1 h7
  exact ⟨isReal_of_all a0 _ _ _ _ e0, isReal_of_all a2 _ _ _ _ e2, isReal_of_all a3 _ _ _ _ e3,
    isReal_of_all a4 _ _ _ _ e4, isReal_of_all a5 _ _ _ _ e5, isReal_of_all a6 _ _ _ _ e6,
    isReal_of_all a7 _ _ _ _ e7, isReal_of_all a8 _ _ _ _ e8, isReal_of_all a9 _ _ _ _ e9⟩

end Cert.PreReal

end
-- ==== Proof.Bridge.lean ====
/-
  THE BRIDGE: the idealized kernel and the idealized reference, run from memories that agree on the ten arguments, end
  with the same result.

  The kernel's result, read as a matrix, is the network with the variance spelt "mean of the squares minus the squared
  mean, cut off at zero"; the reference's is the network with the variance spelt "mean of the squared deviations". The two
  read the same parameters off the argument buffers and aggregate over the same edges, and on real inputs — which the
  precondition gives — the two spellings of the network agree. Two arrays with the same matrix reading are equal.
-/
import proofs.«180311_j29308856828500_2_alg».proof.Defs
import proofs.«180311_j29308856828500_2_alg».proof.Proof.Gen.Pre_finite_inputs
import proofs.«180311_j29308856828500_2_alg».proof.Proof.KI.Frame
import proofs.«180311_j29308856828500_2_alg».proof.Proof.KI.Chain0
import proofs.«180311_j29308856828500_2_alg».proof.Proof.KI.ChainNet
import proofs.«180311_j29308856828500_2_alg».proof.Proof.KI.Val3
import proofs.«180311_j29308856828500_2_alg».proof.Proof.KI.EdgeMap
import proofs.«180311_j29308856828500_2_alg».proof.Proof.Ref.Run
import proofs.«180311_j29308856828500_2_alg».proof.Proof.Ref.Net
import proofs.«180311_j29308856828500_2_alg».proof.Proof.Ref.Final
import proofs.«180311_j29308856828500_2_alg».proof.Proof.Math.Net
import proofs.«180311_j29308856828500_2_alg».proof.Proof.Math.NetEq
import proofs.«180311_j29308856828500_2_alg».proof.Proof.Math.Consts
import proofs.«180311_j29308856828500_2_alg».proof.Proof.Math.EdgeChain
import proofs.«180311_j29308856828500_2_alg».proof.Proof.PreReal

set_option maxRecDepth 16384

noncomputable section

namespace Cert.Bridge

open Idealize.ShloMosaic Idealize.ShloMosaic.TcCoe Idealize.SL.Sem Idealize.ShloMosaic.ValueIdx
open Cert.Spec Cert.Math

/-- The launch memories of the two programs. -/
abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

/-! ## Reading an array as a matrix loses nothing -/

/-- Two rank-2 arrays with the same rows and columns are equal. -/
theorem toMat_inj {r k : Nat} {a b : (⟨2, ![r, k]⟩ : Shape).Idx → EReal} (h : toMat a = toMat b) : a = b := by
  funext i
  have := congrFun (congrFun h (i 0)) (i 1)
  rw [eq_ix2 i]; exact this

/-! ## Real entries -/

/-- An array of real entries reads as a matrix of real entries. -/
theorem real2_toMat {r k : Nat} {a : (⟨2, ![r, k]⟩ : Shape).Idx → EReal} (h : ∀ i, IsReal (a i)) : Real2 (toMat a) :=
  fun i j => h (ix2 i j)

/-- The edge aggregation sends matrices of reals to a matrix of reals. -/
theorem real2_Aref (src dst : IVec Cert.ReferenceIdeal.S600000 32) (k q v : Mat 50000 128) (hk : Real2 k) (hq : Real2 q) (hv : Real2 v) :
    Real2 (Cert.ReferenceIdeal.Hand.Aref src dst k q v) := by
  unfold Cert.ReferenceIdeal.Hand.Aref
  exact fun i j => Cert.Edge.aggR_real _ _ (ofMat k) (ofMat q) (ofMat v) src dst
    (fun i => hk (i 0) (i 1)) (fun i => hq (i 0) (i 1)) (fun i => hv (i 0) (i 1)) (ix2 i j)

/-! ## The two programs spell the same edge aggregation and read the same parameters -/

/-- The two programs print the same gather and scatter dimension numbers, and lay the edge array out the same way. -/
theorem Aref_eq (src dst : IVec Cert.ReferenceIdeal.S600000 32) : Cert.ReferenceIdeal.Hand.Aref src dst = Cert.KernelIdeal.Hand.edgeA src dst := rfl
theorem srcIdx_eq (ei : IVec Cert.ReferenceIdeal.S2x600000 32) : Cert.ReferenceIdeal.Hand.srcIdx ei = Cert.KernelIdeal.Hand.edgeSrc ei := rfl
theorem dstIdx_eq (ei : IVec Cert.ReferenceIdeal.S2x600000 32) : Cert.ReferenceIdeal.Hand.dstIdx ei = Cert.KernelIdeal.Hand.edgeDst ei := rfl

/-! ## The two spellings of the network at the kernel's memory -/

/-- At a memory whose float arguments are all real, the network with the deviations' variance, read off the argument
    buffers as the reference reads them, is the network with the cut-off variance as the kernel reads it. -/
theorem netDev_eq_netSq (m : MemK) (hpre : Cert.Pre_KernelIdeal m) (c : Dev Cert.KernelIdeal.nD) :
    netDev (Cert.ReferenceIdeal.Hand.Aref (Cert.ReferenceIdeal.Hand.srcIdx (m ((c.tc : Thread Cert.KernelIdeal.nD Cert.KernelIdeal.τ).loc Cert.KernelIdeal.main_arg1))) (Cert.ReferenceIdeal.Hand.dstIdx (m ((c.tc : Thread Cert.KernelIdeal.nD Cert.KernelIdeal.τ).loc Cert.KernelIdeal.main_arg1)))) Cert.ReferenceIdeal.Hand.nn Cert.ReferenceIdeal.Hand.eps (toMat (m ((c.tc : Thread Cert.KernelIdeal.nD Cert.KernelIdeal.τ).loc Cert.KernelIdeal.main_arg0))) (toMat (m ((c.tc : Thread Cert.KernelIdeal.nD Cert.KernelIdeal.τ).loc Cert.KernelIdeal.main_arg2))) (Cert.ReferenceIdeal.Hand.vecOf (m ((c.tc : Thread Cert.KernelIdeal.nD Cert.KernelIdeal.τ).loc Cert.KernelIdeal.main_arg3)))
        (Cert.ReferenceIdeal.Hand.slabW (m ((c.tc : Thread Cert.KernelIdeal.nD Cert.KernelIdeal.τ).loc Cert.KernelIdeal.main_arg4))) (Cert.ReferenceIdeal.Hand.slabB (m ((c.tc : Thread Cert.KernelIdeal.nD Cert.KernelIdeal.τ).loc Cert.KernelIdeal.main_arg5))) (Cert.ReferenceIdeal.Hand.slabR (m ((c.tc : Thread Cert.KernelIdeal.nD Cert.KernelIdeal.τ).loc Cert.KernelIdeal.main_arg6))) (Cert.ReferenceIdeal.Hand.slabR (m ((c.tc : Thread Cert.KernelIdeal.nD Cert.KernelIdeal.τ).loc Cert.KernelIdeal.main_arg7))) (toMat (m ((c.tc : Thread Cert.KernelIdeal.nD Cert.KernelIdeal.τ).loc Cert.KernelIdeal.main_arg8))) (Cert.ReferenceIdeal.Hand.vecOf (m ((c.tc : Thread Cert.KernelIdeal.nD Cert.KernelIdeal.τ).loc Cert.KernelIdeal.main_arg9)))
      = netSq (Cert.KernelIdeal.Hand.netA m c) Cert.KernelIdeal.Hand.netNN Cert.KernelIdeal.Hand.epsK (Cert.KernelIdeal.Hand.netX m c) (Cert.KernelIdeal.Hand.netPW m c) (Cert.KernelIdeal.Hand.netPB m c) (Cert.KernelIdeal.Hand.netW m c) (Cert.KernelIdeal.Hand.netB m c)
          (Cert.KernelIdeal.Hand.netGam m c) (Cert.KernelIdeal.Hand.netBet m c) (Cert.KernelIdeal.Hand.netHW m c) (Cert.KernelIdeal.Hand.netHB m c) := by
  obtain ⟨r0, r2, r3, r4, r5, r6, r7, r8, r9⟩ := Cert.PreReal.all_real _ _ _ _ _ _ _ _ _ _ (hpre c)
  obtain ⟨e, he, hee⟩ := Cert.Math.eps_eq
  have hnn : Cert.ReferenceIdeal.Hand.nn = (((50000 : ℕ) : ℝ) : EReal) := Cert.Math.nn_eq_cast
  have hee' : Cert.ReferenceIdeal.Hand.eps = (e : EReal) := hee
  have step := Cert.Math.net_eq (n := 50000) (h := 128) (by norm_num)
    (Cert.ReferenceIdeal.Hand.Aref (Cert.ReferenceIdeal.Hand.srcIdx (m ((c.tc : Thread Cert.KernelIdeal.nD Cert.KernelIdeal.τ).loc Cert.KernelIdeal.main_arg1))) (Cert.ReferenceIdeal.Hand.dstIdx (m ((c.tc : Thread Cert.KernelIdeal.nD Cert.KernelIdeal.τ).loc Cert.KernelIdeal.main_arg1))))
    (real2_Aref _ _) he
    (toMat (m ((c.tc : Thread Cert.KernelIdeal.nD Cert.KernelIdeal.τ).loc Cert.KernelIdeal.main_arg0))) (toMat (m ((c.tc : Thread Cert.KernelIdeal.nD Cert.KernelIdeal.τ).loc Cert.KernelIdeal.main_arg2))) (Cert.ReferenceIdeal.Hand.vecOf (m ((c.tc : Thread Cert.KernelIdeal.nD Cert.KernelIdeal.τ).loc Cert.KernelIdeal.main_arg3)))
    (Cert.ReferenceIdeal.Hand.slabW (m ((c.tc : Thread Cert.KernelIdeal.nD Cert.KernelIdeal.τ).loc Cert.KernelIdeal.main_arg4))) (Cert.ReferenceIdeal.Hand.slabB (m ((c.tc : Thread Cert.KernelIdeal.nD Cert.KernelIdeal.τ).loc Cert.KernelIdeal.main_arg5))) (Cert.ReferenceIdeal.Hand.slabR (m ((c.tc : Thread Cert.KernelIdeal.nD Cert.KernelIdeal.τ).loc Cert.KernelIdeal.main_arg6))) (Cert.ReferenceIdeal.Hand.slabR (m ((c.tc : Thread Cert.KernelIdeal.nD Cert.KernelIdeal.τ).loc Cert.KernelIdeal.main_arg7)))
    (toMat (m ((c.tc : Thread Cert.KernelIdeal.nD Cert.KernelIdeal.τ).loc Cert.KernelIdeal.main_arg8))) (Cert.ReferenceIdeal.Hand.vecOf (m ((c.tc : Thread Cert.KernelIdeal.nD Cert.KernelIdeal.τ).loc Cert.KernelIdeal.main_arg9)))
    (real2_toMat r0) (real2_toMat r2) (fun j => r3 (ix1 j))
    (fun l a i j => r4 (ix4 l a i j)) (fun l a j => r5 (ix3 l a j)) (fun l j => r6 (ix2 l j)) (fun l j => r7 (ix2 l j))
  rw [← hnn, ← hee'] at step
  exact step.symm

/-! ## The bridge, from the two value theorems -/

/-- GIVEN the kernel's result as the network with the cut-off variance (`hK`) and the reference's as the network with
    the deviations' variance (`hR`): from memories agreeing on the arguments, both programs run, end with equal results
    and unchanged arguments. -/
theorem algebraic_of
    (hK : ∀ (m : MemK) (c : Dev Cert.KernelIdeal.nD),
      toMat (Cert.KernelIdeal.Hand.W20 m c (Proc.devRef .tc Cert.KernelIdeal.main_v176) : FVec Ideal Cert.KernelIdeal.S50000x32 .f32)
        = netSq (Cert.KernelIdeal.Hand.netA m c) Cert.KernelIdeal.Hand.netNN Cert.KernelIdeal.Hand.epsK (Cert.KernelIdeal.Hand.netX m c) (Cert.KernelIdeal.Hand.netPW m c) (Cert.KernelIdeal.Hand.netPB m c) (Cert.KernelIdeal.Hand.netW m c) (Cert.KernelIdeal.Hand.netB m c)
            (Cert.KernelIdeal.Hand.netGam m c) (Cert.KernelIdeal.Hand.netBet m c) (Cert.KernelIdeal.Hand.netHW m c) (Cert.KernelIdeal.Hand.netHB m c))
    (hR : ∀ (V : Valuation Cert.ReferenceIdeal.τ Cert.ReferenceIdeal.sig (Elt Ideal)),
      toMat (StableHlo.after Cert.ReferenceIdeal.Hand.ops V (Proc.devRef .tc Cert.ReferenceIdeal.main_v291) : FVec Ideal Cert.ReferenceIdeal.S50000x32 .f32)
        = netDev (Cert.ReferenceIdeal.Hand.Aref (Cert.ReferenceIdeal.Hand.srcIdx (V (Proc.devRef .tc Cert.ReferenceIdeal.main_arg1))) (Cert.ReferenceIdeal.Hand.dstIdx (V (Proc.devRef .tc Cert.ReferenceIdeal.main_arg1)))) Cert.ReferenceIdeal.Hand.nn Cert.ReferenceIdeal.Hand.eps (toMat (V (Proc.devRef .tc Cert.ReferenceIdeal.main_arg0))) (toMat (V (Proc.devRef .tc Cert.ReferenceIdeal.main_arg2))) (Cert.ReferenceIdeal.Hand.vecOf (V (Proc.devRef .tc Cert.ReferenceIdeal.main_arg3)))
        (Cert.ReferenceIdeal.Hand.slabW (V (Proc.devRef .tc Cert.ReferenceIdeal.main_arg4))) (Cert.ReferenceIdeal.Hand.slabB (V (Proc.devRef .tc Cert.ReferenceIdeal.main_arg5))) (Cert.ReferenceIdeal.Hand.slabR (V (Proc.devRef .tc Cert.ReferenceIdeal.main_arg6))) (Cert.ReferenceIdeal.Hand.slabR (V (Proc.devRef .tc Cert.ReferenceIdeal.main_arg7))) (toMat (V (Proc.devRef .tc Cert.ReferenceIdeal.main_arg8))) (Cert.ReferenceIdeal.Hand.vecOf (V (Proc.devRef .tc Cert.ReferenceIdeal.main_arg9)))) :
    Cert.algebraic_KernelIdeal_ReferenceIdeal := by
  intro m g m' g' hpre hagree
  refine ⟨fun c => Cert.KernelIdeal.Hand.W20 m c (Proc.devRef .tc Cert.KernelIdeal.main_v176), ?_, ?_⟩
  · -- the kernel's run, its result named first
    exact (θ_run _ _ _).mono (fun _ h c => by
      obtain ⟨h0, h1, h2, h3, h4, h5, h6, h7, h8, h9, hr⟩ := h c
      exact ⟨hr, h0, h1, h2, h3, h4, h5, h6, h7, h8, h9⟩) (Cert.KernelIdeal.Hand.run_named m g)
  · -- the reference's run: its result is the same array
    refine (θ_run _ _ _).mono (fun _ h c => ?_) (Cert.ReferenceIdeal.Hand.run m' g')
    obtain ⟨hv, hargs⟩ := h c
    refine ⟨hv.trans ?_, hargs⟩
    obtain ⟨a0, a1, a2, a3, a4, a5, a6, a7, a8, a9⟩ := hagree c
    have hRc : toMat (StableHlo.after Cert.ReferenceIdeal.Hand.ops (fun b => m' (c, b)) (Proc.devRef .tc Cert.ReferenceIdeal.main_v291) : FVec Ideal Cert.ReferenceIdeal.S50000x32 .f32)
        = netDev (Cert.ReferenceIdeal.Hand.Aref (Cert.ReferenceIdeal.Hand.srcIdx (m' ((c.tc : Thread Cert.ReferenceIdeal.nD Cert.ReferenceIdeal.τ).loc Cert.ReferenceIdeal.main_arg1))) (Cert.ReferenceIdeal.Hand.dstIdx (m' ((c.tc : Thread Cert.ReferenceIdeal.nD Cert.ReferenceIdeal.τ).loc Cert.ReferenceIdeal.main_arg1)))) Cert.ReferenceIdeal.Hand.nn Cert.ReferenceIdeal.Hand.eps (toMat (m' ((c.tc : Thread Cert.ReferenceIdeal.nD Cert.ReferenceIdeal.τ).loc Cert.ReferenceIdeal.main_arg0))) (toMat (m' ((c.tc : Thread Cert.ReferenceIdeal.nD Cert.ReferenceIdeal.τ).loc Cert.ReferenceIdeal.main_arg2))) (Cert.ReferenceIdeal.Hand.vecOf (m' ((c.tc : Thread Cert.ReferenceIdeal.nD Cert.ReferenceIdeal.τ).loc Cert.ReferenceIdeal.main_arg3)))
        (Cert.ReferenceIdeal.Hand.slabW (m' ((c.tc : Thread Cert.ReferenceIdeal.nD Cert.ReferenceIdeal.τ).loc Cert.ReferenceIdeal.main_arg4))) (Cert.ReferenceIdeal.Hand.slabB (m' ((c.tc : Thread Cert.ReferenceIdeal.nD Cert.ReferenceIdeal.τ).loc Cert.ReferenceIdeal.main_arg5))) (Cert.ReferenceIdeal.Hand.slabR (m' ((c.tc : Thread Cert.ReferenceIdeal.nD Cert.ReferenceIdeal.τ).loc Cert.ReferenceIdeal.main_arg6))) (Cert.ReferenceIdeal.Hand.slabR (m' ((c.tc : Thread Cert.ReferenceIdeal.nD Cert.ReferenceIdeal.τ).loc Cert.ReferenceIdeal.main_arg7))) (toMat (m' ((c.tc : Thread Cert.ReferenceIdeal.nD Cert.ReferenceIdeal.τ).loc Cert.ReferenceIdeal.main_arg8))) (Cert.ReferenceIdeal.Hand.vecOf (m' ((c.tc : Thread Cert.ReferenceIdeal.nD Cert.ReferenceIdeal.τ).loc Cert.ReferenceIdeal.main_arg9))) := hR _
    rw [a0, a1, a2, a3, a4, a5, a6, a7, a8, a9] at hRc
    exact toMat_inj (hRc.trans ((netDev_eq_netSq m hpre c).trans (hK m c).symm))

/-- The reference's value theorem is proved: the bridge from the kernel's alone. -/
theorem algebraic_of_kernel
    (hK : ∀ (m : MemK) (c : Dev Cert.KernelIdeal.nD),
      toMat (Cert.KernelIdeal.Hand.W20 m c (Proc.devRef .tc Cert.KernelIdeal.main_v176) : FVec Ideal Cert.KernelIdeal.S50000x32 .f32)
        = netSq (Cert.KernelIdeal.Hand.netA m c) Cert.KernelIdeal.Hand.netNN Cert.KernelIdeal.Hand.epsK (Cert.KernelIdeal.Hand.netX m c) (Cert.KernelIdeal.Hand.netPW m c) (Cert.KernelIdeal.Hand.netPB m c) (Cert.KernelIdeal.Hand.netW m c) (Cert.KernelIdeal.Hand.netB m c)
            (Cert.KernelIdeal.Hand.netGam m c) (Cert.KernelIdeal.Hand.netBet m c) (Cert.KernelIdeal.Hand.netHW m c) (Cert.KernelIdeal.Hand.netHB m c)) :
    Cert.algebraic_KernelIdeal_ReferenceIdeal :=
  algebraic_of hK Cert.ReferenceIdeal.Hand.value_netDev

/-- THE BRIDGE: from memories agreeing on the ten arguments, of which the precondition holds, the idealized kernel and
    the idealized reference both run, end with equal results and unchanged arguments. -/
theorem algebraic : Cert.algebraic_KernelIdeal_ReferenceIdeal :=
  algebraic_of_kernel Cert.KernelIdeal.Hand.chain_net

end Cert.Bridge

end
-- ==== Proof.lean ====
/-
  The proof of the claim: the word-level kernel, its idealisation and the idealised reference each run to the end, fault
  nowhere and leave their arguments as launched; the idealisation changes no operation; and on the extended reals, from
  memories that agree on the arguments, the idealised kernel and the idealised reference end with the same result.

  Both programs compute a three-layer gated graph convolution with batch normalisation. They differ in how the work is laid
  out — the kernel multiplies by the four weight slabs side by side and cuts the product into column blocks, gathers query
  and value rows together, accumulates each column's sum and sum of squares block by block — and in ONE formula: the kernel
  takes a column's variance as the mean of the squares minus the square of the mean, cut off below at zero, the reference as
  the mean of the squared deviations. On real numbers the two agree, and every value either program meets is a real number
  because every float argument is (the precondition) and every operation on the way keeps real numbers real.
-/
import proofs.«180311_j29308856828500_2_alg».proof.Defs
import proofs.«180311_j29308856828500_2_alg».proof.Proof.Gen.Kernel
import proofs.«180311_j29308856828500_2_alg».proof.Proof.Gen.KernelIdeal
import proofs.«180311_j29308856828500_2_alg».proof.Proof.Gen.ReferenceIdeal
import proofs.«180311_j29308856828500_2_alg».proof.Proof.Gen.Pre_finite_inputs
import proofs.«180311_j29308856828500_2_alg».proof.Proof.K.Frame
import proofs.«180311_j29308856828500_2_alg».proof.Proof.KI.Frame
import proofs.«180311_j29308856828500_2_alg».proof.Proof.Ref.Run
import proofs.«180311_j29308856828500_2_alg».proof.Proof.Bridge

noncomputable section

namespace Cert.Proof

open Idealize.ShloMosaic Idealize.SL.Sem

/-- The word-level kernel's frame: its ten regions and the host stretches between them, one after the other. -/
theorem frame_p [Cert.Kernel.Facts] [Cert.Pre_finite_inputs.Facts] : Cert.frame_Kernel :=
  fun m ρ _ => Cert.Kernel.Hand.frame m ρ

/-- The idealised kernel's frame: the same argument at the extended reals. -/
theorem frame_pi [Cert.KernelIdeal.Facts] [Cert.Pre_finite_inputs.Facts] : Cert.frame_KernelIdeal :=
  fun m ρ _ => Cert.KernelIdeal.Hand.frame m ρ

/-- The idealised reference's frame: a host program writes only buffers of its own. -/
theorem frame_ri [Cert.ReferenceIdeal.Facts] [Cert.Pre_finite_inputs.Facts] : Cert.frame_ReferenceIdeal :=
  fun m ρ _ => Cert.ReferenceIdeal.Hand.frame m ρ

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Bridge.algebraic⟩

end Cert.Proof

end
